-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x16 : Shape := ⟨4, ![16, 32, 32, 16]⟩
abbrev S16x32x8 : Shape := ⟨3, ![16, 32, 8]⟩
abbrev S384x64 : Shape := ⟨2, ![384, 64]⟩
abbrev S24x64 : Shape := ⟨2, ![24, 64]⟩
abbrev S64 : Shape := ⟨1, ![64]⟩
abbrev S512x64 : Shape := ⟨2, ![512, 64]⟩
abbrev S256x64 : Shape := ⟨2, ![256, 64]⟩
abbrev S_ : Shape := ⟨0, ![]⟩

class Facts : Prop where
  bcast_S_S16x32x32x16 : S_.BroadcastsInDim S16x32x32x16 (![] : Fin 0 → Fin S16x32x32x16.rank)
  reducesTo_S16x32x32x16_S_d0_1_2_3 : S16x32x32x16.ReducesTo [0, 1, 2, 3] S_
  h_S_ : 0 < S_.numel
  bcast_S_S16x32x8 : S_.BroadcastsInDim S16x32x8 (![] : Fin 0 → Fin S16x32x8.rank)
  reducesTo_S16x32x8_S_d0_1_2 : S16x32x8.ReducesTo [0, 1, 2] S_
  bcast_S_S384x64 : S_.BroadcastsInDim S384x64 (![] : Fin 0 → Fin S384x64.rank)
  reducesTo_S384x64_S_d0_1 : S384x64.ReducesTo [0, 1] S_
  bcast_S_S24x64 : S_.BroadcastsInDim S24x64 (![] : Fin 0 → Fin S24x64.rank)
  reducesTo_S24x64_S_d0_1 : S24x64.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S256x64 : S_.BroadcastsInDim S256x64 (![] : Fin 0 → Fin S256x64.rank)
  reducesTo_S256x64_S_d0_1 : S256x64.ReducesTo [0, 1] S_

variable [Facts]

def fn_part3 {F : FTy → Type} [FloatOps F] (main_arg11 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S256x64 .f32) (main_arg10 : FVec F S64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg9
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S64 .f32) (main_arg5 : FVec F S64 .f32) (main_arg6 : FVec F S512x64 .f32) (main_arg7 : FVec F S64 .f32) (main_arg8 : FVec F S64 .f32) (main_arg9 : FVec F S256x64 .f32) (main_arg10 : FVec F S64 .f32) (main_arg11 : FVec F S64 .f32) (main_v13 : IVec S_ 1) (main_v16 : IVec S24x64 1) : IVec S_ 1 :=
  let main_c_5 : IVec S_ 1 := constantI S_ 1 1#1
  let main_v17 : IVec S_ 1 := (fun x v => Host.reduce IntOp.andi x v reducesTo_S24x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x32x32x16 .f32) (main_arg1 : FVec F S16x32x8 .f32) (main_arg2 : FVec F S384x64 .f32) (main_arg3 : FVec F S24x64 .f32) (main_arg4 : FVec F S64 .f32) (main_arg5 : FVec F S64 .f32) (main_arg6 : FVec F S512x64 .f32) (main_arg7 : FVec F S64 .f32) (main_arg8 : FVec F S64 .f32) (main_arg9 : FVec F S256x64 .f32) (main_arg10 : FVec F S64 .f32) (main_arg11 : FVec F S64 .f32) : IVec S_ 1 :=
  let main_v0 : FVec F S16x32x32x16 .f32 := Host.absf main_arg0
  let main_cst : FVec F S_ .f32 := constant S_ .f32 0x7F800000#32
  let main_v1 : FVec F S16x32x32x16 .f32 := broadcastInDim S16x32x32x16 ![] bcast_S_S16x32x32x16 main_cst
  let main_v2 : IVec S16x32x32x16 1 := cmpf .olt main_v0 main_v1
  let main_c : IVec S_ 1 := constantI S_ 1 1#1
  let main_v3 : IVec S_ 1 := (fun x v => Host.reduce IntOp.andi x v reducesTo_S16x32x32x16_S_d0_1_2_3 h_S_) main_v2 main_c
  let main_v4 : FVec F S16x32x8 .f32 := Host.absf main_arg1
  let main_cst_0 : FVec F S_ .f32 := constant S_ .f32 0x7F800000#32
  let main_v5 : FVec F S16x32x8 .f32 := broadcastInDim S16x32x8 ![] bcast_S_S16x32x8 main_cst_0
  let main_v6 : IVec S16x32x8 1 := cmpf .olt main_v4 main_v5
  let main_c_1 : IVec S_ 1 := constantI S_ 1 1#1
  let main_v7 : IVec S_ 1 := (fun x v => Host.reduce IntOp.andi x v reducesTo_S16x32x8_S_d0_1_2 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S24x64 .f32 := Host.absf main_arg3
  let main_cst_4 : FVec F S_ .f32 := constant S_ .f32 0x7F800000#32
  let main_v15 : FVec F S24x64 .f32 := broadcastInDim S24x64 ![] bcast_S_S24x64 main_cst_4
  let main_v16 : IVec S24x64 1 := cmpf .olt main_v14 main_v15
  fn_part1 (F := F) main_arg4 main_arg5 main_arg6 main_arg7 main_arg8 main_arg9 main_arg10 main_arg11 main_v13 main_v16
-- ==== Kernel.lean ====
abbrev S16x32x32x16 : Shape := ⟨4, ![16, 32, 32, 16]⟩
abbrev S16x32x8 : Shape := ⟨3, ![16, 32, 8]⟩
abbrev S384x64 : Shape := ⟨2, ![384, 64]⟩
abbrev S24x64 : Shape := ⟨2, ![24, 64]⟩
abbrev S64 : Shape := ⟨1, ![64]⟩
abbrev S512x64 : Shape := ⟨2, ![512, 64]⟩
abbrev S256x64 : Shape := ⟨2, ![256, 64]⟩
abbrev S16x32x32x32x64 : Shape := ⟨5, ![16, 32, 32, 32, 64]⟩
abbrev S1x64 : Shape := ⟨2, ![1, 64]⟩
abbrev S1x32x32x16 : Shape := ⟨4, ![1, 32, 32, 16]⟩
abbrev S1x32x8 : Shape := ⟨3, ![1, 32, 8]⟩
abbrev S1x32x32x32x64 : Shape := ⟨5, ![1, 32, 32, 32, 64]⟩
abbrev S32x32x16 : Shape := ⟨3, ![32, 32, 16]⟩
abbrev S32x8 : Shape := ⟨2, ![32, 8]⟩
abbrev S32x32x1x16 : Shape := ⟨4, ![32, 32, 1, 16]⟩
abbrev S32x32x32x16 : Shape := ⟨4, ![32, 32, 32, 16]⟩
abbrev S32x1x32x16 : Shape := ⟨4, ![32, 1, 32, 16]⟩
abbrev S32x32x32x48 : Shape := ⟨4, ![32, 32, 32, 48]⟩
abbrev S48x64 : Shape := ⟨2, ![48, 64]⟩
abbrev S8x64 : Shape := ⟨2, ![8, 64]⟩
abbrev S32x32x48 : Shape := ⟨3, ![32, 32, 48]⟩
abbrev S32x48 : Shape := ⟨2, ![32, 48]⟩
abbrev S48 : Shape := ⟨1, ![48]⟩
abbrev S32768x48 : Shape := ⟨2, ![32768, 48]⟩
abbrev S32768x64 : Shape := ⟨2, ![32768, 64]⟩
abbrev S32x32x32x64 : Shape := ⟨4, ![32, 32, 32, 64]⟩
abbrev S1024x48 : Shape := ⟨2, ![1024, 48]⟩
abbrev S1024x64 : Shape := ⟨2, ![1024, 64]⟩
abbrev S32x32x64 : Shape := ⟨3, ![32, 32, 64]⟩
abbrev S32x64 : Shape := ⟨2, ![32, 64]⟩
abbrev S1x48 : Shape := ⟨2, ![1, 48]⟩
abbrev S1x32x32x64 : Shape := ⟨4, ![1, 32, 32, 64]⟩
abbrev S32x1x32x64 : Shape := ⟨4, ![32, 1, 32, 64]⟩
abbrev S32x32x1x64 : Shape := ⟨4, ![32, 32, 1, 64]⟩
abbrev S32x1x1x64 : Shape := ⟨4, ![32, 1, 1, 64]⟩
abbrev S1x32x1x64 : Shape := ⟨4, ![1, 32, 1, 64]⟩
abbrev S1x1x32x64 : Shape := ⟨4, ![1, 1, 32, 64]⟩
abbrev S1x1x1x64 : Shape := ⟨4, ![1, 1, 1, 64]⟩
abbrev S_ : Shape := ⟨0, ![]⟩
abbrev S64x64 : Shape := ⟨2, ![64, 64]⟩
abbrev S16x32x64 : Shape := ⟨3, ![16, 32, 64]⟩
abbrev S1x32x64 : Shape := ⟨3, ![1, 32, 64]⟩
abbrev S1x1x64 : Shape := ⟨3, ![1, 1, 64]⟩

abbrev nBuf : Space → Nat
  | .hbm => 91
  | .vmem => 35
  | .smem => 0
  | _ => 0

abbrev bufTy : (tb : Table) → Fin (tcTables nBuf tb) → BufTy
  | .hbm, ⟨0, _⟩ => ⟨S16x32x32x16, .f32⟩
  | .hbm, ⟨1, _⟩ => ⟨S16x32x8, .f32⟩
  | .hbm, ⟨2, _⟩ => ⟨S384x64, .f32⟩
  | .hbm, ⟨3, _⟩ => ⟨S24x64, .f32⟩
  | .hbm, ⟨4, _⟩ => ⟨S64, .f32⟩
  | .hbm, ⟨5, _⟩ => ⟨S64, .f32⟩
  | .hbm, ⟨6, _⟩ => ⟨S512x64, .f32⟩
  | .hbm, ⟨7, _⟩ => ⟨S64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64, .f32⟩
  | .hbm, ⟨12, _⟩ => ⟨S16x32x32x32x64, .bf16⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S16x32x32x32x64, .bf16⟩
  | .hbm, ⟨29, _⟩ => ⟨S16x32x32x32x64, .bf16⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S16x32x32x32x64, .bf16⟩
  | .hbm, ⟨46, _⟩ => ⟨S16x32x64, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .i32⟩
  | .hbm, ⟨53, _⟩ => ⟨S_, .f32⟩
  | .hbm, ⟨54, _⟩ => ⟨S64, .f32⟩
  | .hbm, ⟨55, _⟩ => ⟨S1x1x64, .f32⟩
  | .hbm, ⟨56, _⟩ => ⟨S_, .f32⟩
  | .hbm, ⟨57, _⟩ => ⟨S1x1x64, .f32⟩
  | .hbm, ⟨58, _⟩ => ⟨S1x1x64, .f32⟩
  | .hbm, ⟨59, _⟩ => ⟨S16x32x64, .f32⟩
  | .hbm, ⟨60, _⟩ => ⟨S16x32x64, .f32⟩
  | .hbm, ⟨61, _⟩ => ⟨S16x32x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S1x1x64, .f32⟩
  | .hbm, ⟨76, _⟩ => ⟨S16x32x64, .f32⟩
  | .hbm, ⟨77, _⟩ => ⟨S16x32x64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S1x1x64, .f32⟩
  | .hbm, ⟨83, _⟩ => ⟨S16x32x64, .f32⟩
  | .hbm, ⟨84, _⟩ => ⟨S16x32x64, .f32⟩
  | .hbm, ⟨85, _⟩ => ⟨S1x1x64, .f32⟩
  | .hbm, ⟨86, _⟩ => ⟨S16x32x64, .f32⟩
  | .hbm, ⟨87, _⟩ => ⟨S16x32x64, .f32⟩
  | .hbm, ⟨88, _⟩ => ⟨S1x1x64, .f32⟩
  | .hbm, ⟨89, _⟩ => ⟨S16x32x64, .f32⟩
  | .hbm, ⟨90, _⟩ => ⟨S16x32x64, .f32⟩
  | .local _ .vmem, ⟨0, _⟩ => ⟨S1x32x32x16, .f32⟩
  | .local _ .vmem, ⟨1, _⟩ => ⟨S1x32x32x16, .f32⟩
  | .local _ .vmem, ⟨2, _⟩ => ⟨S1x32x8, .f32⟩
  | .local _ .vmem, ⟨3, _⟩ => ⟨S1x32x8, .f32⟩
  | .local _ .vmem, ⟨4, _⟩ => ⟨S384x64, .f32⟩
  | .local _ .vmem, ⟨5, _⟩ => ⟨S24x64, .f32⟩
  | .local _ .vmem, ⟨6, _⟩ => ⟨S1x32x32x32x64, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x32x32x32x64, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x32x32x32x64, .bf16⟩
  | .local _ .vmem, ⟨17, _⟩ => ⟨S1x32x32x32x64, .bf16⟩
  | .local _ .vmem, ⟨18, _⟩ => ⟨S512x64, .f32⟩
  | .local _ .vmem, ⟨19, _⟩ => ⟨S1x32x32x32x64, .bf16⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x32x32x32x64, .bf16⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x32x32x32x64, .bf16⟩
  | .local _ .vmem, ⟨30, _⟩ => ⟨S1x32x32x32x64, .bf16⟩
  | .local _ .vmem, ⟨31, _⟩ => ⟨S1x32x32x32x64, .bf16⟩
  | .local _ .vmem, ⟨32, _⟩ => ⟨S256x64, .f32⟩
  | .local _ .vmem, ⟨33, _⟩ => ⟨S1x32x64, .f32⟩
  | .local _ .vmem, ⟨34, _⟩ => ⟨S1x32x64, .f32⟩
  | _, _ => ⟨S16x32x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_7 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32x32x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage1_0 : Fin 1 → Memref sig .tc .vmem S1x32x32x32x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32x32x32x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x32x32x32x64 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32x32x32x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![16], ![false]⟩

def cc3_transform_0 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage3_0 : Fin 1 → Memref sig .tc .vmem S1x32x32x32x64 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32x32x32x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev grid4 : Pipeline.Grid := ⟨1, ![16], ![false]⟩

def cc4_transform_0 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x32x32x32x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x32x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x32x32x16_S1x32x32x16_0_0_0_0 : ∀ a, (![0, 0, 0, 0] : Fin 4 → Nat) a + S1x32x32x16.size a ≤ S1x32x32x16.size a
  h_S1x32x32x16 : 0 < S1x32x32x16.numel
  shapeCasts_S1x32x32x16_S32x32x16 : S1x32x32x16.ShapeCasts S32x32x16
  bitsLt_bf16_f32 : FTy.bits .bf16 < FTy.bits .f32
  inb_S1x32x8_S1x32x8_0_0_0 : ∀ a, (![0, 0, 0] : Fin 3 → Nat) a + S1x32x8.size a ≤ S1x32x8.size a
  h_S1x32x8 : 0 < S1x32x8.numel
  shapeCasts_S1x32x8_S32x8 : S1x32x8.ShapeCasts S32x8
  inb_S384x64_S384x64_0_0 : ∀ a, (![0, 0] : Fin 2 → Nat) a + S384x64.size a ≤ S384x64.size a
  h_S384x64 : 0 < S384x64.numel
  inb_S24x64_S24x64_0_0 : ∀ a, (![0, 0] : Fin 2 → Nat) a + S24x64.size a ≤ S24x64.size a
  h_S24x64 : 0 < S24x64.numel
  shapeCasts_S32x32x16_S32x32x1x16 : S32x32x16.ShapeCasts S32x32x1x16
  shapeCasts_S32x32x1x16_S32x32x1x16 : S32x32x1x16.ShapeCasts S32x32x1x16
  broadcasts_S32x32x1x16_S32x32x32x16 : S32x32x1x16.Broadcasts S32x32x32x16
  shapeCasts_S32x32x16_S32x1x32x16 : S32x32x16.ShapeCasts S32x1x32x16
  shapeCasts_S32x1x32x16_S32x1x32x16 : S32x1x32x16.ShapeCasts S32x1x32x16
  broadcasts_S32x1x32x16_S32x32x32x16 : S32x1x32x16.Broadcasts S32x32x32x16
  shapeCasts_S32x32x16_S1x32x32x16 : S32x32x16.ShapeCasts S1x32x32x16
  shapeCasts_S1x32x32x16_S1x32x32x16 : S1x32x32x16.ShapeCasts S1x32x32x16
  broadcasts_S1x32x32x16_S32x32x32x16 : S1x32x32x16.Broadcasts S32x32x32x16
  concatenates_S32x32x32x16_S32x32x32x16_S32x32x32x16_S32x32x32x48_d3 : Shape.Concatenates [S32x32x32x16, S32x32x32x16, S32x32x32x16] S32x32x32x48 3
  slices_S384x64_o0_0_S48x64 : S384x64.Slices ![0, 0] S48x64
  slices_S384x64_o48_0_S48x64 : S384x64.Slices ![48, 0] S48x64
  slices_S384x64_o96_0_S48x64 : S384x64.Slices ![96, 0] S48x64
  slices_S384x64_o144_0_S48x64 : S384x64.Slices ![144, 0] S48x64
  slices_S384x64_o192_0_S48x64 : S384x64.Slices ![192, 0] S48x64
  slices_S384x64_o240_0_S48x64 : S384x64.Slices ![240, 0] S48x64
  slices_S384x64_o288_0_S48x64 : S384x64.Slices ![288, 0] S48x64
  slices_S384x64_o336_0_S48x64 : S384x64.Slices ![336, 0] S48x64
  slices_S24x64_o0_0_S8x64 : S24x64.Slices ![0, 0] S8x64
  slices_S24x64_o8_0_S8x64 : S24x64.Slices ![8, 0] S8x64
  slices_S24x64_o16_0_S8x64 : S24x64.Slices ![16, 0] S8x64
  reduces_S32x32x32x48_S32x32x48 : S32x32x32x48.Reduces [0] S32x32x48
  reduces_S32x32x32x48_S32x32x48_2 : S32x32x32x48.Reduces [1] S32x32x48
  reduces_S32x32x32x48_S32x32x48_3 : S32x32x32x48.Reduces [2] S32x32x48
  reduces_S32x32x48_S32x48 : S32x32x48.Reduces [1] S32x48
  reduces_S32x32x48_S32x48_2 : S32x32x48.Reduces [0] S32x48
  reduces_S32x48_S48 : S32x48.Reduces [0] S48
  shapeCasts_S32x32x32x48_S32768x48 : S32x32x32x48.ShapeCasts S32768x48
  shapeCasts_S32768x64_S32x32x32x64 : S32768x64.ShapeCasts S32x32x32x64
  shapeCasts_S32x32x48_S1024x48 : S32x32x48.ShapeCasts S1024x48
  shapeCasts_S1024x64_S32x32x64 : S1024x64.ShapeCasts S32x32x64
  shapeCasts_S48_S1x48 : S48.ShapeCasts S1x48
  shapeCasts_S1x64_S64 : S1x64.ShapeCasts S64
  shapeCasts_S32x32x64_S1x32x32x64 : S32x32x64.ShapeCasts S1x32x32x64
  broadcasts_S1x32x32x64_S32x32x32x64 : S1x32x32x64.Broadcasts S32x32x32x64
  shapeCasts_S32x32x64_S32x1x32x64 : S32x32x64.ShapeCasts S32x1x32x64
  broadcasts_S32x1x32x64_S32x32x32x64 : S32x1x32x64.Broadcasts S32x32x32x64
  shapeCasts_S32x32x64_S32x32x1x64 : S32x32x64.ShapeCasts S32x32x1x64
  broadcasts_S32x32x1x64_S32x32x32x64 : S32x32x1x64.Broadcasts S32x32x32x64
  shapeCasts_S32x64_S32x1x1x64 : S32x64.ShapeCasts S32x1x1x64
  broadcasts_S32x1x1x64_S32x32x32x64 : S32x1x1x64.Broadcasts S32x32x32x64
  shapeCasts_S32x64_S1x32x1x64 : S32x64.ShapeCasts S1x32x1x64
  broadcasts_S1x32x1x64_S32x32x32x64 : S1x32x1x64.Broadcasts S32x32x32x64
  shapeCasts_S32x64_S1x1x32x64 : S32x64.ShapeCasts S1x1x32x64
  broadcasts_S1x1x32x64_S32x32x32x64 : S1x1x32x64.Broadcasts S32x32x32x64
  shapeCasts_S64_S1x1x1x64 : S64.ShapeCasts S1x1x1x64
  broadcasts_S1x1x1x64_S32x32x32x64 : S1x1x1x64.Broadcasts S32x32x32x64
  reduces_S32x32x32x64_S32x32x64 : S32x32x32x64.Reduces [2] S32x32x64
  reduces_S32x32x64_S32x64 : S32x32x64.Reduces [1] S32x64
  reduces_S32x64_S64 : S32x64.Reduces [0] S64
  shapeCasts_S64_S1x64 : S64.ShapeCasts S1x64
  inb_S1x32x32x32x64_S1x32x32x32x64_0_0_0_0_0 : ∀ a, (![0, 0, 0, 0, 0] : Fin 5 → Nat) a + S1x32x32x32x64.size a ≤ S1x32x32x32x64.size a
  h_S1x32x32x32x64 : 0 < S1x32x32x32x64.numel
  shapeCasts_S1x32x32x32x64_S32x32x32x64 : S1x32x32x32x64.ShapeCasts S32x32x32x64
  shapeCasts_S32x32x32x64_S1x32x32x32x64 : S32x32x32x64.ShapeCasts S1x32x32x32x64
  packedbf16_S1x32x32x32x64_S1x32x32x32x64_0_0_0_0_0 : (Rect.unit (s := S1x32x32x32x64) ![0, 0, 0, 0, 0] S1x32x32x32x64.size inb_S1x32x32x32x64_S1x32x32x32x64_0_0_0_0_0).PackedRows (EltTy.packing .bf16)
  bcast_S_S1x64 : S_.BroadcastsInDim S1x64 (![] : Fin 0 → Fin S1x64.rank)
  shapeCasts_S1x64_S1x1x1x64 : S1x64.ShapeCasts S1x1x1x64
  inb_S512x64_S512x64_0_0 : ∀ a, (![0, 0] : Fin 2 → Nat) a + S512x64.size a ≤ S512x64.size a
  h_S512x64 : 0 < S512x64.numel
  slices_S512x64_o0_0_S64x64 : S512x64.Slices ![0, 0] S64x64
  slices_S512x64_o64_0_S64x64 : S512x64.Slices ![64, 0] S64x64
  slices_S512x64_o128_0_S64x64 : S512x64.Slices ![128, 0] S64x64
  slices_S512x64_o192_0_S64x64 : S512x64.Slices ![192, 0] S64x64
  slices_S512x64_o256_0_S64x64 : S512x64.Slices ![256, 0] S64x64
  slices_S512x64_o320_0_S64x64 : S512x64.Slices ![320, 0] S64x64
  slices_S512x64_o384_0_S64x64 : S512x64.Slices ![384, 0] S64x64
  slices_S512x64_o448_0_S64x64 : S512x64.Slices ![448, 0] S64x64
  reduces_S32x32x32x64_S32x32x64_2 : S32x32x32x64.Reduces [0] S32x32x64
  reduces_S32x32x32x64_S32x32x64_3 : S32x32x32x64.Reduces [1] S32x32x64
  reduces_S32x32x64_S32x64_2 : S32x32x64.Reduces [0] S32x64
  shapeCasts_S32x32x32x64_S32768x64 : S32x32x32x64.ShapeCasts S32768x64
  shapeCasts_S32x32x64_S1024x64 : S32x32x64.ShapeCasts S1024x64
  inb_S256x64_S256x64_0_0 : ∀ a, (![0, 0] : Fin 2 → Nat) a + S256x64.size a ≤ S256x64.size a
  h_S256x64 : 0 < S256x64.numel
  slices_S256x64_o0_0_S64x64 : S256x64.Slices ![0, 0] S64x64
  slices_S256x64_o64_0_S64x64 : S256x64.Slices ![64, 0] S64x64
  slices_S256x64_o128_0_S64x64 : S256x64.Slices ![128, 0] S64x64
  slices_S256x64_o192_0_S64x64 : S256x64.Slices ![192, 0] S64x64
  broadcasts_S1x64_S32x64 : S1x64.Broadcasts S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  reducesTo_S16x32x64_S64_d0_1 : S16x32x64.ReducesTo [0, 1] S64
  h_S_ : 0 < S_.numel
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S16x32x64_0_1_2 : S1x1x64.BroadcastsInDim S16x32x64 (![0, 1, 2] : Fin 3 → Fin S16x32x64.rank)
  dot_S32768x48_S48x64_S32768x64_1_0_0_1_n_n_wf : DotDims.WF S32768x48 S48x64 S32768x64 [1] [0] [0] [1] [] []
  dot_S1024x48_S48x64_S1024x64_1_0_0_1_n_n_wf : DotDims.WF S1024x48 S48x64 S1024x64 [1] [0] [0] [1] [] []
  dot_S32x48_S48x64_S32x64_1_0_0_1_n_n_wf : DotDims.WF S32x48 S48x64 S32x64 [1] [0] [0] [1] [] []
  dot_S1x48_S48x64_S1x64_1_0_0_1_n_n_wf : DotDims.WF S1x48 S48x64 S1x64 [1] [0] [0] [1] [] []
  dot_S32x8_S8x64_S32x64_1_0_0_1_n_n_wf : DotDims.WF S32x8 S8x64 S32x64 [1] [0] [0] [1] [] []
  dot_S32768x64_S64x64_S32768x64_1_0_0_1_n_n_wf : DotDims.WF S32768x64 S64x64 S32768x64 [1] [0] [0] [1] [] []
  dot_S1024x64_S64x64_S1024x64_1_0_0_1_n_n_wf : DotDims.WF S1024x64 S64x64 S1024x64 [1] [0] [0] [1] [] []
  dot_S32x64_S64x64_S32x64_1_0_0_1_n_n_wf : DotDims.WF S32x64 S64x64 S32x64 [1] [0] [0] [1] [] []
  dot_S1x64_S64x64_S1x64_1_0_0_1_n_n_wf : DotDims.WF S1x64 S64x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x16.size a ≤ S16x32x32x16.size a
  hwx0_0 : ∀ i : grid0.Coords, EltTy.bits .f32 = 32 ∨ (Rect.block (s := S16x32x32x16) S1x32x32x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x8.size a ≤ S16x32x8.size a
  hwx0_1 : ∀ i : grid0.Coords, EltTy.bits .f32 = 32 ∨ (Rect.block (s := S16x32x8) S1x32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .f32 = 32 ∨ (Rect.block (s := S384x64) S384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x64.size a ≤ S24x64.size a
  hwx0_3 : ∀ i : grid0.Coords, EltTy.bits .f32 = 32 ∨ (Rect.block (s := S24x64) S24x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32x32x32x64.size a ≤ S16x32x32x32x64.size a
  hwx0_4 : ∀ i : grid0.Coords, EltTy.bits .bf16 = 32 ∨ (Rect.block (s := S16x32x32x32x64) S1x32x32x32x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x32x32x32x64.size a ≤ S16x32x32x32x64.size a
  hwx1_0 : ∀ i : grid1.Coords, EltTy.bits .bf16 = 32 ∨ (Rect.block (s := S16x32x32x32x64) S1x32x32x32x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32x32x32x64.size a ≤ S16x32x32x32x64.size a
  hwx1_5 : ∀ i : grid1.Coords, EltTy.bits .bf16 = 32 ∨ (Rect.block (s := S16x32x32x32x64) S1x32x32x32x64.size (cc1_transform_5 i) (hinb1_5 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x32x32x32x64.size a ≤ S16x32x32x32x64.size a
  hwx2_0 : ∀ i : grid2.Coords, EltTy.bits .bf16 = 32 ∨ (Rect.block (s := S16x32x32x32x64) S1x32x32x32x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32x32x32x64.size a ≤ S16x32x32x32x64.size a
  hwx2_2 : ∀ i : grid2.Coords, EltTy.bits .bf16 = 32 ∨ (Rect.block (s := S16x32x32x32x64) S1x32x32x32x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x32x32x32x64.size a ≤ S16x32x32x32x64.size a
  hwx3_0 : ∀ i : grid3.Coords, EltTy.bits .bf16 = 32 ∨ (Rect.block (s := S16x32x32x32x64) S1x32x32x32x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32x32x32x64.size a ≤ S16x32x32x32x64.size a
  hwx3_5 : ∀ i : grid3.Coords, EltTy.bits .bf16 = 32 ∨ (Rect.block (s := S16x32x32x32x64) S1x32x32x32x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x32x32x32x64.size a ≤ S16x32x32x32x64.size a
  hwx4_0 : ∀ i : grid4.Coords, EltTy.bits .bf16 = 32 ∨ (Rect.block (s := S16x32x32x32x64) S1x32x32x32x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x32x64.size a ≤ S16x32x64.size a
  hwx4_2 : ∀ i : grid4.Coords, EltTy.bits .f32 = 32 ∨ (Rect.block (s := S16x32x64) S1x32x64.size (cc4_transform_2 i) (hinb4_2 i)).WholeWords (EltTy.packing .f32)

variable [Facts₀]

def dot_S32768x48_S48x64_S32768x64_1_0_0_1_n_n : DotDims S32768x48 S48x64 S32768x64 where
  lhsContracting := [1]
  rhsContracting := [0]
  lhsNonContracting := [0]
  rhsNonContracting := [1]
  lhsBatch := []
  rhsBatch := []
  wf := dot_S32768x48_S48x64_S32768x64_1_0_0_1_n_n_wf
def dot_S1024x48_S48x64_S1024x64_1_0_0_1_n_n : DotDims S1024x48 S48x64 S1024x64 where
  lhsContracting := [1]
  rhsContracting := [0]
  lhsNonContracting := [0]
  rhsNonContracting := [1]
  lhsBatch := []
  rhsBatch := []
  wf := dot_S1024x48_S48x64_S1024x64_1_0_0_1_n_n_wf
def dot_S32x48_S48x64_S32x64_1_0_0_1_n_n : DotDims S32x48 S48x64 S32x64 where
  lhsContracting := [1]
  rhsContracting := [0]
  lhsNonContracting := [0]
  rhsNonContracting := [1]
  lhsBatch := []
  rhsBatch := []
  wf := dot_S32x48_S48x64_S32x64_1_0_0_1_n_n_wf
def dot_S1x48_S48x64_S1x64_1_0_0_1_n_n : DotDims S1x48 S48x64 S1x64 where
  lhsContracting := [1]
  rhsContracting := [0]
  lhsNonContracting := [0]
  rhsNonContracting := [1]
  lhsBatch := []
  rhsBatch := []
  wf := dot_S1x48_S48x64_S1x64_1_0_0_1_n_n_wf
def dot_S32x8_S8x64_S32x64_1_0_0_1_n_n : DotDims S32x8 S8x64 S32x64 where
  lhsContracting := [1]
  rhsContracting := [0]
  lhsNonContracting := [0]
  rhsNonContracting := [1]
  lhsBatch := []
  rhsBatch := []
  wf := dot_S32x8_S8x64_S32x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

abbrev win0_0 : Pipeline.Window sig grid0 :=
  Pipeline.Window.ofSpec (Memref.whole main_arg0) S1x32x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x32x32x32x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x32x32x32x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x32x32x32x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11) S1x32x32x32x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_0) S1x32x32x32x64.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12_1) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12_2) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12_0) S1x32x32x32x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v21) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S1x32x32x32x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v23) S1x32x32x32x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x32x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where
  halias1_5 : Pipeline.Aliased win1 0 5
  halias3_5 : Pipeline.Aliased win3 0 5

variable [Facts]
-- ==== ReferenceIdeal.lean ====
abbrev S16x32x32x16 : Shape := ⟨4, ![16, 32, 32, 16]⟩
abbrev S16x32x8 : Shape := ⟨3, ![16, 32, 8]⟩
abbrev S384x64 : Shape := ⟨2, ![384, 64]⟩
abbrev S24x64 : Shape := ⟨2, ![24, 64]⟩
abbrev S64 : Shape := ⟨1, ![64]⟩
abbrev S512x64 : Shape := ⟨2, ![512, 64]⟩
abbrev S256x64 : Shape := ⟨2, ![256, 64]⟩
abbrev S16x32x32x1x16 : Shape := ⟨5, ![16, 32, 32, 1, 16]⟩
abbrev S16x32x32x32x16 : Shape := ⟨5, ![16, 32, 32, 32, 16]⟩
abbrev S16x32x1x32x16 : Shape := ⟨5, ![16, 32, 1, 32, 16]⟩
abbrev S16x1x32x32x16 : Shape := ⟨5, ![16, 1, 32, 32, 16]⟩
abbrev S16x32x32x32x48 : Shape := ⟨5, ![16, 32, 32, 32, 48]⟩
abbrev S_ : Shape := ⟨0, ![]⟩
abbrev S16x32x32x48 : Shape := ⟨4, ![16, 32, 32, 48]⟩
abbrev S16x32x48 : Shape := ⟨3, ![16, 32, 48]⟩
abbrev S16x48 : Shape := ⟨2, ![16, 48]⟩
abbrev S48x64 : Shape := ⟨2, ![48, 64]⟩
abbrev S16x32x32x32x64 : Shape := ⟨5, ![16, 32, 32, 32, 64]⟩
abbrev S16x32x32x64 : Shape := ⟨4, ![16, 32, 32, 64]⟩
abbrev S16x1x32x32x64 : Shape := ⟨5, ![16, 1, 32, 32, 64]⟩
abbrev S16x32x1x32x64 : Shape := ⟨5, ![16, 32, 1, 32, 64]⟩
abbrev S16x32x32x1x64 : Shape := ⟨5, ![16, 32, 32, 1, 64]⟩
abbrev S16x32x64 : Shape := ⟨3, ![16, 32, 64]⟩
abbrev S16x32x1x1x64 : Shape := ⟨5, ![16, 32, 1, 1, 64]⟩
abbrev S16x1x32x1x64 : Shape := ⟨5, ![16, 1, 32, 1, 64]⟩
abbrev S16x1x1x32x64 : Shape := ⟨5, ![16, 1, 1, 32, 64]⟩
abbrev S16x64 : Shape := ⟨2, ![16, 64]⟩
abbrev S16x1x1x1x64 : Shape := ⟨5, ![16, 1, 1, 1, 64]⟩
abbrev S8x64 : Shape := ⟨2, ![8, 64]⟩
abbrev S1x1x1x1x64 : Shape := ⟨5, ![1, 1, 1, 1, 64]⟩
abbrev S64x64 : Shape := ⟨2, ![64, 64]⟩
abbrev S16x1x64 : Shape := ⟨3, ![16, 1, 64]⟩
abbrev S1x1x64 : Shape := ⟨3, ![1, 1, 64]⟩

abbrev nBuf : Space → Nat
  | .hbm => 349
  | .vmem => 0
  | .smem => 0
  | _ => 0

abbrev hbmTy0_0 (i : Nat) : BufTy := match i % 128 with
  | 0 => ⟨S16x32x32x16, .f32⟩
  | 1 => ⟨S16x32x8, .f32⟩
  | 2 => ⟨S384x64, .f32⟩
  | 3 => ⟨S24x64, .f32⟩
  | 4 => ⟨S64, .f32⟩
  | 5 => ⟨S64, .f32⟩
  | 6 => ⟨S512x64, .f32⟩
  | 7 => ⟨S64, .f32⟩
  | 8 => ⟨S64, .f32⟩
  | 9 => ⟨S256x64, .f32⟩
  | 10 => ⟨S64, .f32⟩
  | 11 => ⟨S64, .f32⟩
  | 12 => ⟨S16x32x32x1x16, .f32⟩
  | 13 => ⟨S16x32x32x32x16, .f32⟩
  | 14 => ⟨S16x32x1x32x16, .f32⟩
  | 15 => ⟨S16x32x32x32x16, .f32⟩
  | 16 => ⟨S16x1x32x32x16, .f32⟩
  | 17 => ⟨S16x32x32x32x16, .f32⟩
  | 18 => ⟨S16x32x32x32x48, .f32⟩
  | 19 => ⟨S_, .f32⟩
  | 20 => ⟨S16x32x32x48, .f32⟩
  | 21 => ⟨S_, .f32⟩
  | 22 => ⟨S16x32x32x48, .f32⟩
  | 23 => ⟨S16x32x32x48, .f32⟩
  | 24 => ⟨S_, .f32⟩
  | 25 => ⟨S16x32x32x48, .f32⟩
  | 26 => ⟨S_, .f32⟩
  | 27 => ⟨S16x32x32x48, .f32⟩
  | 28 => ⟨S16x32x32x48, .f32⟩
  | 29 => ⟨S_, .f32⟩
  | 30 => ⟨S16x32x32x48, .f32⟩
  | 31 => ⟨S_, .f32⟩
  | 32 => ⟨S16x32x32x48, .f32⟩
  | 33 => ⟨S16x32x32x48, .f32⟩
  | 34 => ⟨S_, .f32⟩
  | 35 => ⟨S16x32x48, .f32⟩
  | 36 => ⟨S_, .f32⟩
  | 37 => ⟨S16x32x48, .f32⟩
  | 38 => ⟨S16x32x48, .f32⟩
  | 39 => ⟨S_, .f32⟩
  | 40 => ⟨S16x32x48, .f32⟩
  | 41 => ⟨S_, .f32⟩
  | 42 => ⟨S16x32x48, .f32⟩
  | 43 => ⟨S16x32x48, .f32⟩
  | 44 => ⟨S_, .f32⟩
  | 45 => ⟨S16x32x48, .f32⟩
  | 46 => ⟨S_, .f32⟩
  | 47 => ⟨S16x32x48, .f32⟩
  | 48 => ⟨S16x32x48, .f32⟩
  | 49 => ⟨S_, .f32⟩
  | 50 => ⟨S16x48, .f32⟩
  | 51 => ⟨S_, .f32⟩
  | 52 => ⟨S16x48, .f32⟩
  | 53 => ⟨S16x48, .f32⟩
  | 54 => ⟨S48x64, .f32⟩
  | 55 => ⟨S48x64, .f32⟩
  | 56 => ⟨S48x64, .f32⟩
  | 57 => ⟨S48x64, .f32⟩
  | 58 => ⟨S48x64, .f32⟩
  | 59 => ⟨S48x64, .f32⟩
  | 60 => ⟨S48x64, .f32⟩
  | 61 => ⟨S48x64, .f32⟩
  | 62 => ⟨S16x32x32x32x64, .f32⟩
  | 63 => ⟨S16x32x32x64, .f32⟩
  | 64 => ⟨S16x1x32x32x64, .f32⟩
  | 65 => ⟨S16x32x32x32x64, .f32⟩
  | 66 => ⟨S16x32x32x32x64, .f32⟩
  | 67 => ⟨S16x32x32x64, .f32⟩
  | 68 => ⟨S16x32x1x32x64, .f32⟩
  | 69 => ⟨S16x32x32x32x64, .f32⟩
  | 70 => ⟨S16x32x32x32x64, .f32⟩
  | 71 => ⟨S16x32x32x64, .f32⟩
  | 72 => ⟨S16x32x32x1x64, .f32⟩
  | 73 => ⟨S16x32x32x32x64, .f32⟩
  | 74 => ⟨S16x32x32x32x64, .f32⟩
  | 75 => ⟨S16x32x64, .f32⟩
  | 76 => ⟨S16x32x1x1x64, .f32⟩
  | 77 => ⟨S16x32x32x32x64, .f32⟩
  | 78 => ⟨S16x32x32x32x64, .f32⟩
  | 79 => ⟨S16x32x64, .f32⟩
  | 80 => ⟨S16x1x32x1x64, .f32⟩
  | 81 => ⟨S16x32x32x32x64, .f32⟩
  | 82 => ⟨S16x32x32x32x64, .f32⟩
  | 83 => ⟨S16x32x64, .f32⟩
  | 84 => ⟨S16x1x1x32x64, .f32⟩
  | 85 => ⟨S16x32x32x32x64, .f32⟩
  | 86 => ⟨S16x32x32x32x64, .f32⟩
  | 87 => ⟨S16x64, .f32⟩
  | 88 => ⟨S16x1x1x1x64, .f32⟩
  | 89 => ⟨S16x32x32x32x64, .f32⟩
  | 90 => ⟨S16x32x32x32x64, .f32⟩
  | 91 => ⟨S8x64, .f32⟩
  | 92 => ⟨S16x32x64, .f32⟩
  | 93 => ⟨S16x32x1x1x64, .f32⟩
  | 94 => ⟨S16x32x32x32x64, .f32⟩
  | 95 => ⟨S16x32x32x32x64, .f32⟩
  | 96 => ⟨S8x64, .f32⟩
  | 97 => ⟨S16x32x64, .f32⟩
  | 98 => ⟨S16x1x32x1x64, .f32⟩
  | 99 => ⟨S16x32x32x32x64, .f32⟩
  | 100 => ⟨S16x32x32x32x64, .f32⟩
  | 101 => ⟨S8x64, .f32⟩
  | 102 => ⟨S16x32x64, .f32⟩
  | 103 => ⟨S16x1x1x32x64, .f32⟩
  | 104 => ⟨S16x32x32x32x64, .f32⟩
  | 105 => ⟨S16x32x32x32x64, .f32⟩
  | 106 => ⟨S_, .f32⟩
  | 107 => ⟨S64, .f32⟩
  | 108 => ⟨S_, .f32⟩
  | 109 => ⟨S64, .f32⟩
  | 110 => ⟨S64, .f32⟩
  | 111 => ⟨S_, .i32⟩
  | 112 => ⟨S_, .f32⟩
  | 113 => ⟨S64, .f32⟩
  | 114 => ⟨S1x1x1x1x64, .f32⟩
  | 115 => ⟨S_, .f32⟩
  | 116 => ⟨S1x1x1x1x64, .f32⟩
  | 117 => ⟨S1x1x1x1x64, .f32⟩
  | 118 => ⟨S16x32x32x32x64, .f32⟩
  | 119 => ⟨S16x32x32x32x64, .f32⟩
  | 120 => ⟨S16x32x32x32x64, .f32⟩
  | 121 => ⟨S_, .f32⟩
  | 122 => ⟨S_, .f32⟩
  | 123 => ⟨S_, .f32⟩
  | 124 => ⟨S_, .f32⟩
  | 125 => ⟨S64, .f32⟩
  | 126 => ⟨S64, .f32⟩
  | 127 => ⟨S64, .f32⟩
  | _ => ⟨S16x32x32x16, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S64, .f32⟩
  | 5 => ⟨S64, .f32⟩
  | 6 => ⟨S1x1x1x1x64, .f32⟩
  | 7 => ⟨S16x32x32x32x64, .f32⟩
  | 8 => ⟨S16x32x32x32x64, .f32⟩
  | 9 => ⟨S_, .f32⟩
  | 10 => ⟨S64, .f32⟩
  | 11 => ⟨S64, .f32⟩
  | 12 => ⟨S64, .f32⟩
  | 13 => ⟨S1x1x1x1x64, .f32⟩
  | 14 => ⟨S16x32x32x32x64, .f32⟩
  | 15 => ⟨S16x32x32x32x64, .f32⟩
  | 16 => ⟨S1x1x1x1x64, .f32⟩
  | 17 => ⟨S16x32x32x32x64, .f32⟩
  | 18 => ⟨S16x32x32x32x64, .f32⟩
  | 19 => ⟨S1x1x1x1x64, .f32⟩
  | 20 => ⟨S16x32x32x32x64, .f32⟩
  | 21 => ⟨S16x32x32x32x64, .f32⟩
  | 22 => ⟨S_, .f32⟩
  | 23 => ⟨S16x32x32x32x64, .f32⟩
  | 24 => ⟨S16x32x32x32x64, .f32⟩
  | 25 => ⟨S_, .f32⟩
  | 26 => ⟨S16x32x32x64, .f32⟩
  | 27 => ⟨S_, .f32⟩
  | 28 => ⟨S16x32x32x64, .f32⟩
  | 29 => ⟨S16x32x32x64, .f32⟩
  | 30 => ⟨S_, .f32⟩
  | 31 => ⟨S16x32x32x64, .f32⟩
  | 32 => ⟨S_, .f32⟩
  | 33 => ⟨S16x32x32x64, .f32⟩
  | 34 => ⟨S16x32x32x64, .f32⟩
  | 35 => ⟨S_, .f32⟩
  | 36 => ⟨S16x32x32x64, .f32⟩
  | 37 => ⟨S_, .f32⟩
  | 38 => ⟨S16x32x32x64, .f32⟩
  | 39 => ⟨S16x32x32x64, .f32⟩
  | 40 => ⟨S_, .f32⟩
  | 41 => ⟨S16x32x64, .f32⟩
  | 42 => ⟨S_, .f32⟩
  | 43 => ⟨S16x32x64, .f32⟩
  | 44 => ⟨S16x32x64, .f32⟩
  | 45 => ⟨S_, .f32⟩
  | 46 => ⟨S16x32x64, .f32⟩
  | 47 => ⟨S_, .f32⟩
  | 48 => ⟨S16x32x64, .f32⟩
  | 49 => ⟨S16x32x64, .f32⟩
  | 50 => ⟨S_, .f32⟩
  | 51 => ⟨S16x32x64, .f32⟩
  | 52 => ⟨S_, .f32⟩
  | 53 => ⟨S16x32x64, .f32⟩
  | 54 => ⟨S16x32x64, .f32⟩
  | 55 => ⟨S_, .f32⟩
  | 56 => ⟨S16x64, .f32⟩
  | 57 => ⟨S_, .f32⟩
  | 58 => ⟨S16x64, .f32⟩
  | 59 => ⟨S16x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S16x32x32x32x64, .f32⟩
  | 69 => ⟨S16x32x32x64, .f32⟩
  | 70 => ⟨S16x1x32x32x64, .f32⟩
  | 71 => ⟨S16x32x32x32x64, .f32⟩
  | 72 => ⟨S16x32x32x32x64, .f32⟩
  | 73 => ⟨S16x32x32x64, .f32⟩
  | 74 => ⟨S16x32x1x32x64, .f32⟩
  | 75 => ⟨S16x32x32x32x64, .f32⟩
  | 76 => ⟨S16x32x32x32x64, .f32⟩
  | 77 => ⟨S16x32x32x64, .f32⟩
  | 78 => ⟨S16x32x32x1x64, .f32⟩
  | 79 => ⟨S16x32x32x32x64, .f32⟩
  | 80 => ⟨S16x32x32x32x64, .f32⟩
  | 81 => ⟨S16x32x64, .f32⟩
  | 82 => ⟨S16x32x1x1x64, .f32⟩
  | 83 => ⟨S16x32x32x32x64, .f32⟩
  | 84 => ⟨S16x32x32x32x64, .f32⟩
  | 85 => ⟨S16x32x64, .f32⟩
  | 86 => ⟨S16x1x32x1x64, .f32⟩
  | 87 => ⟨S16x32x32x32x64, .f32⟩
  | 88 => ⟨S16x32x32x32x64, .f32⟩
  | 89 => ⟨S16x32x64, .f32⟩
  | 90 => ⟨S16x1x1x32x64, .f32⟩
  | 91 => ⟨S16x32x32x32x64, .f32⟩
  | 92 => ⟨S16x32x32x32x64, .f32⟩
  | 93 => ⟨S16x64, .f32⟩
  | 94 => ⟨S16x1x1x1x64, .f32⟩
  | 95 => ⟨S16x32x32x32x64, .f32⟩
  | 96 => ⟨S16x32x32x32x64, .f32⟩
  | 97 => ⟨S_, .f32⟩
  | 98 => ⟨S64, .f32⟩
  | 99 => ⟨S_, .f32⟩
  | 100 => ⟨S64, .f32⟩
  | 101 => ⟨S64, .f32⟩
  | 102 => ⟨S_, .i32⟩
  | 103 => ⟨S_, .f32⟩
  | 104 => ⟨S64, .f32⟩
  | 105 => ⟨S1x1x1x1x64, .f32⟩
  | 106 => ⟨S_, .f32⟩
  | 107 => ⟨S1x1x1x1x64, .f32⟩
  | 108 => ⟨S1x1x1x1x64, .f32⟩
  | 109 => ⟨S16x32x32x32x64, .f32⟩
  | 110 => ⟨S16x32x32x32x64, .f32⟩
  | 111 => ⟨S16x32x32x32x64, .f32⟩
  | 112 => ⟨S_, .f32⟩
  | 113 => ⟨S_, .f32⟩
  | 114 => ⟨S_, .f32⟩
  | 115 => ⟨S_, .f32⟩
  | 116 => ⟨S64, .f32⟩
  | 117 => ⟨S64, .f32⟩
  | 118 => ⟨S64, .f32⟩
  | 119 => ⟨S_, .f32⟩
  | 120 => ⟨S_, .i1⟩
  | 121 => ⟨S_, .f32⟩
  | 122 => ⟨S_, .f32⟩
  | 123 => ⟨S64, .f32⟩
  | 124 => ⟨S64, .f32⟩
  | 125 => ⟨S1x1x1x1x64, .f32⟩
  | 126 => ⟨S16x32x32x32x64, .f32⟩
  | 127 => ⟨S16x32x32x32x64, .f32⟩
  | _ => ⟨S16x32x32x16, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S1x1x1x1x64, .f32⟩
  | 5 => ⟨S16x32x32x32x64, .f32⟩
  | 6 => ⟨S16x32x32x32x64, .f32⟩
  | 7 => ⟨S1x1x1x1x64, .f32⟩
  | 8 => ⟨S16x32x32x32x64, .f32⟩
  | 9 => ⟨S16x32x32x32x64, .f32⟩
  | 10 => ⟨S1x1x1x1x64, .f32⟩
  | 11 => ⟨S16x32x32x32x64, .f32⟩
  | 12 => ⟨S16x32x32x32x64, .f32⟩
  | 13 => ⟨S_, .f32⟩
  | 14 => ⟨S16x32x32x32x64, .f32⟩
  | 15 => ⟨S16x32x32x32x64, .f32⟩
  | 16 => ⟨S_, .f32⟩
  | 17 => ⟨S16x32x64, .f32⟩
  | 18 => ⟨S_, .f32⟩
  | 19 => ⟨S16x32x64, .f32⟩
  | 20 => ⟨S16x32x64, .f32⟩
  | 21 => ⟨S_, .f32⟩
  | 22 => ⟨S16x32x64, .f32⟩
  | 23 => ⟨S_, .f32⟩
  | 24 => ⟨S16x32x64, .f32⟩
  | 25 => ⟨S16x32x64, .f32⟩
  | 26 => ⟨S_, .f32⟩
  | 27 => ⟨S16x32x64, .f32⟩
  | 28 => ⟨S_, .f32⟩
  | 29 => ⟨S16x32x64, .f32⟩
  | 30 => ⟨S16x32x64, .f32⟩
  | 31 => ⟨S_, .f32⟩
  | 32 => ⟨S16x64, .f32⟩
  | 33 => ⟨S_, .f32⟩
  | 34 => ⟨S16x64, .f32⟩
  | 35 => ⟨S16x64, .f32⟩
  | 36 => ⟨S64x64, .f32⟩
  | 37 => ⟨S16x32x64, .f32⟩
  | 38 => ⟨S64x64, .f32⟩
  | 39 => ⟨S16x32x64, .f32⟩
  | 40 => ⟨S16x32x64, .f32⟩
  | 41 => ⟨S64x64, .f32⟩
  | 42 => ⟨S16x32x64, .f32⟩
  | 43 => ⟨S16x32x64, .f32⟩
  | 44 => ⟨S64x64, .f32⟩
  | 45 => ⟨S16x64, .f32⟩
  | 46 => ⟨S16x1x64, .f32⟩
  | 47 => ⟨S16x32x64, .f32⟩
  | 48 => ⟨S16x32x64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x1x64, .f32⟩
  | 58 => ⟨S_, .f32⟩
  | 59 => ⟨S1x1x64, .f32⟩
  | 60 => ⟨S1x1x64, .f32⟩
  | 61 => ⟨S16x32x64, .f32⟩
  | 62 => ⟨S16x32x64, .f32⟩
  | 63 => ⟨S16x32x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x1x64, .f32⟩
  | 78 => ⟨S16x32x64, .f32⟩
  | 79 => ⟨S16x32x64, .f32⟩
  | 80 => ⟨S_, .f32⟩
  | 81 => ⟨S64, .f32⟩
  | 82 => ⟨S64, .f32⟩
  | 83 => ⟨S64, .f32⟩
  | 84 => ⟨S1x1x64, .f32⟩
  | 85 => ⟨S16x32x64, .f32⟩
  | 86 => ⟨S16x32x64, .f32⟩
  | 87 => ⟨S1x1x64, .f32⟩
  | 88 => ⟨S16x32x64, .f32⟩
  | 89 => ⟨S16x32x64, .f32⟩
  | 90 => ⟨S1x1x64, .f32⟩
  | 91 => ⟨S16x32x64, .f32⟩
  | 92 => ⟨S16x32x64, .f32⟩
  | _ => ⟨S16x32x32x16, .f32⟩

abbrev hbmTy (i : Nat) : BufTy := match i / 128 with
  | 0 => hbmTy0_0 i
  | 1 => hbmTy0_1 i
  | 2 => hbmTy0_2 i
  | _ => ⟨S16x32x32x16, .f32⟩

abbrev bufTy : (tb : Table) → Fin (tcTables nBuf tb) → BufTy
  | .hbm, ⟨i, _⟩ => hbmTy i
  | _, _ => ⟨S16x32x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_cst_8 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_cst_10 : Ref sig .tc := ⟨.hbm, 46, rfl⟩
abbrev main_v23 : Ref sig .tc := ⟨.hbm, 47, rfl⟩
abbrev main_v24 : Ref sig .tc := ⟨.hbm, 48, rfl⟩
abbrev main_cst_11 : Ref sig .tc := ⟨.hbm, 49, rfl⟩
abbrev main_v25 : Ref sig .tc := ⟨.hbm, 50, rfl⟩
abbrev main_cst_12 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_c : Ref sig .tc := ⟨.hbm, 111, rfl⟩
abbrev main_call0_cst : Ref sig .tc := ⟨.hbm, 112, rfl⟩
abbrev main_call0_v0 : Ref sig .tc := ⟨.hbm, 113, rfl⟩
abbrev main_call0_v1 : Ref sig .tc := ⟨.hbm, 114, rfl⟩
abbrev main_call0_cst_0 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_v7 : Ref sig .tc := ⟨.hbm, 121, rfl⟩
abbrev main_call0_cst_1 : Ref sig .tc := ⟨.hbm, 122, rfl⟩
abbrev main_call0_v8 : Ref sig .tc := ⟨.hbm, 123, rfl⟩
abbrev main_call0_cst_2 : Ref sig .tc := ⟨.hbm, 124, rfl⟩
abbrev main_call0_v9 : Ref sig .tc := ⟨.hbm, 125, rfl⟩
abbrev main_call0_v10 : Ref sig .tc := ⟨.hbm, 126, rfl⟩
abbrev main_call0_v11 : Ref sig .tc := ⟨.hbm, 127, rfl⟩
abbrev main_call0_cst_3 : Ref sig .tc := ⟨.hbm, 128, rfl⟩
abbrev main_call0_v12 : Ref sig .tc := ⟨.hbm, 129, rfl⟩
abbrev main_call0_cst_4 : Ref sig .tc := ⟨.hbm, 130, rfl⟩
abbrev main_call0_call0_v0 : Ref sig .tc := ⟨.hbm, 131, rfl⟩
abbrev main_call0_call0_v1 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_15 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call1_cst : Ref sig .tc := ⟨.hbm, 150, rfl⟩
abbrev main_call1_v0 : Ref sig .tc := ⟨.hbm, 151, rfl⟩
abbrev main_v99 : Ref sig .tc := ⟨.hbm, 152, rfl⟩
abbrev main_cst_16 : Ref sig .tc := ⟨.hbm, 153, rfl⟩
abbrev main_v100 : Ref sig .tc := ⟨.hbm, 154, rfl⟩
abbrev main_cst_17 : Ref sig .tc := ⟨.hbm, 155, rfl⟩
abbrev main_v101 : Ref sig .tc := ⟨.hbm, 156, rfl⟩
abbrev main_v102 : Ref sig .tc := ⟨.hbm, 157, rfl⟩
abbrev main_cst_18 : Ref sig .tc := ⟨.hbm, 158, rfl⟩
abbrev main_v103 : Ref sig .tc := ⟨.hbm, 159, rfl⟩
abbrev main_cst_19 : Ref sig .tc := ⟨.hbm, 160, rfl⟩
abbrev main_v104 : Ref sig .tc := ⟨.hbm, 161, rfl⟩
abbrev main_v105 : Ref sig .tc := ⟨.hbm, 162, rfl⟩
abbrev main_cst_20 : Ref sig .tc := ⟨.hbm, 163, rfl⟩
abbrev main_v106 : Ref sig .tc := ⟨.hbm, 164, rfl⟩
abbrev main_cst_21 : Ref sig .tc := ⟨.hbm, 165, rfl⟩
abbrev main_v107 : Ref sig .tc := ⟨.hbm, 166, rfl⟩
abbrev main_v108 : Ref sig .tc := ⟨.hbm, 167, rfl⟩
abbrev main_cst_22 : Ref sig .tc := ⟨.hbm, 168, rfl⟩
abbrev main_v109 : Ref sig .tc := ⟨.hbm, 169, rfl⟩
abbrev main_cst_23 : Ref sig .tc := ⟨.hbm, 170, rfl⟩
abbrev main_v110 : Ref sig .tc := ⟨.hbm, 171, rfl⟩
abbrev main_v111 : Ref sig .tc := ⟨.hbm, 172, rfl⟩
abbrev main_cst_24 : Ref sig .tc := ⟨.hbm, 173, rfl⟩
abbrev main_v112 : Ref sig .tc := ⟨.hbm, 174, rfl⟩
abbrev main_cst_25 : Ref sig .tc := ⟨.hbm, 175, rfl⟩
abbrev main_v113 : Ref sig .tc := ⟨.hbm, 176, rfl⟩
abbrev main_v114 : Ref sig .tc := ⟨.hbm, 177, rfl⟩
abbrev main_cst_26 : Ref sig .tc := ⟨.hbm, 178, rfl⟩
abbrev main_v115 : Ref sig .tc := ⟨.hbm, 179, rfl⟩
abbrev main_cst_27 : Ref sig .tc := ⟨.hbm, 180, rfl⟩
abbrev main_v116 : Ref sig .tc := ⟨.hbm, 181, rfl⟩
abbrev main_v117 : Ref sig .tc := ⟨.hbm, 182, rfl⟩
abbrev main_cst_28 : Ref sig .tc := ⟨.hbm, 183, rfl⟩
abbrev main_v118 : Ref sig .tc := ⟨.hbm, 184, rfl⟩
abbrev main_cst_29 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_30 : Ref sig .tc := ⟨.hbm, 225, rfl⟩
abbrev main_v158 : Ref sig .tc := ⟨.hbm, 226, rfl⟩
abbrev main_cst_31 : Ref sig .tc := ⟨.hbm, 227, rfl⟩
abbrev main_v159 : Ref sig .tc := ⟨.hbm, 228, rfl⟩
abbrev main_v160 : Ref sig .tc := ⟨.hbm, 229, rfl⟩
abbrev main_c_32 : Ref sig .tc := ⟨.hbm, 230, rfl⟩
abbrev main_call2_cst : Ref sig .tc := ⟨.hbm, 231, rfl⟩
abbrev main_call2_v0 : Ref sig .tc := ⟨.hbm, 232, rfl⟩
abbrev main_call2_v1 : Ref sig .tc := ⟨.hbm, 233, rfl⟩
abbrev main_call2_cst_0 : Ref sig .tc := ⟨.hbm, 234, rfl⟩
abbrev main_call2_v2 : Ref sig .tc := ⟨.hbm, 235, rfl⟩
abbrev main_call2_v3 : Ref sig .tc := ⟨.hbm, 236, rfl⟩
abbrev main_call2_v4 : Ref sig .tc := ⟨.hbm, 237, rfl⟩
abbrev main_call2_v5 : Ref sig .tc := ⟨.hbm, 238, rfl⟩
abbrev main_call2_v6 : Ref sig .tc := ⟨.hbm, 239, rfl⟩
abbrev main_call2_v7 : Ref sig .tc := ⟨.hbm, 240, rfl⟩
abbrev main_call2_cst_1 : Ref sig .tc := ⟨.hbm, 241, rfl⟩
abbrev main_call2_v8 : Ref sig .tc := ⟨.hbm, 242, rfl⟩
abbrev main_call2_cst_2 : Ref sig .tc := ⟨.hbm, 243, rfl⟩
abbrev main_call2_v9 : Ref sig .tc := ⟨.hbm, 244, rfl⟩
abbrev main_call2_v10 : Ref sig .tc := ⟨.hbm, 245, rfl⟩
abbrev main_call2_v11 : Ref sig .tc := ⟨.hbm, 246, rfl⟩
abbrev main_call2_cst_3 : Ref sig .tc := ⟨.hbm, 247, rfl⟩
abbrev main_call2_v12 : Ref sig .tc := ⟨.hbm, 248, rfl⟩
abbrev main_call2_cst_4 : Ref sig .tc := ⟨.hbm, 249, rfl⟩
abbrev main_call2_call0_v0 : Ref sig .tc := ⟨.hbm, 250, rfl⟩
abbrev main_call2_call0_v1 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_cst_33 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_call3_cst : Ref sig .tc := ⟨.hbm, 269, rfl⟩
abbrev main_call3_v0 : Ref sig .tc := ⟨.hbm, 270, rfl⟩
abbrev main_v177 : Ref sig .tc := ⟨.hbm, 271, rfl⟩
abbrev main_cst_34 : Ref sig .tc := ⟨.hbm, 272, rfl⟩
abbrev main_v178 : Ref sig .tc := ⟨.hbm, 273, rfl⟩
abbrev main_cst_35 : Ref sig .tc := ⟨.hbm, 274, rfl⟩
abbrev main_v179 : Ref sig .tc := ⟨.hbm, 275, rfl⟩
abbrev main_v180 : Ref sig .tc := ⟨.hbm, 276, rfl⟩
abbrev main_cst_36 : Ref sig .tc := ⟨.hbm, 277, rfl⟩
abbrev main_v181 : Ref sig .tc := ⟨.hbm, 278, rfl⟩
abbrev main_cst_37 : Ref sig .tc := ⟨.hbm, 279, rfl⟩
abbrev main_v182 : Ref sig .tc := ⟨.hbm, 280, rfl⟩
abbrev main_v183 : Ref sig .tc := ⟨.hbm, 281, rfl⟩
abbrev main_cst_38 : Ref sig .tc := ⟨.hbm, 282, rfl⟩
abbrev main_v184 : Ref sig .tc := ⟨.hbm, 283, rfl⟩
abbrev main_cst_39 : Ref sig .tc := ⟨.hbm, 284, rfl⟩
abbrev main_v185 : Ref sig .tc := ⟨.hbm, 285, rfl⟩
abbrev main_v186 : Ref sig .tc := ⟨.hbm, 286, rfl⟩
abbrev main_cst_40 : Ref sig .tc := ⟨.hbm, 287, rfl⟩
abbrev main_v187 : Ref sig .tc := ⟨.hbm, 288, rfl⟩
abbrev main_cst_41 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_cst_42 : Ref sig .tc := ⟨.hbm, 305, rfl⟩
abbrev main_v203 : Ref sig .tc := ⟨.hbm, 306, rfl⟩
abbrev main_cst_43 : Ref sig .tc := ⟨.hbm, 307, rfl⟩
abbrev main_v204 : Ref sig .tc := ⟨.hbm, 308, rfl⟩
abbrev main_v205 : Ref sig .tc := ⟨.hbm, 309, rfl⟩
abbrev main_c_44 : Ref sig .tc := ⟨.hbm, 310, rfl⟩
abbrev main_call4_cst : Ref sig .tc := ⟨.hbm, 311, rfl⟩
abbrev main_call4_v0 : Ref sig .tc := ⟨.hbm, 312, rfl⟩
abbrev main_call4_v1 : Ref sig .tc := ⟨.hbm, 313, rfl⟩
abbrev main_call4_cst_0 : Ref sig .tc := ⟨.hbm, 314, rfl⟩
abbrev main_call4_v2 : Ref sig .tc := ⟨.hbm, 315, rfl⟩
abbrev main_call4_v3 : Ref sig .tc := ⟨.hbm, 316, rfl⟩
abbrev main_call4_v4 : Ref sig .tc := ⟨.hbm, 317, rfl⟩
abbrev main_call4_v5 : Ref sig .tc := ⟨.hbm, 318, rfl⟩
abbrev main_call4_v6 : Ref sig .tc := ⟨.hbm, 319, rfl⟩
abbrev main_call4_v7 : Ref sig .tc := ⟨.hbm, 320, rfl⟩
abbrev main_call4_cst_1 : Ref sig .tc := ⟨.hbm, 321, rfl⟩
abbrev main_call4_v8 : Ref sig .tc := ⟨.hbm, 322, rfl⟩
abbrev main_call4_cst_2 : Ref sig .tc := ⟨.hbm, 323, rfl⟩
abbrev main_call4_v9 : Ref sig .tc := ⟨.hbm, 324, rfl⟩
abbrev main_call4_v10 : Ref sig .tc := ⟨.hbm, 325, rfl⟩
abbrev main_call4_v11 : Ref sig .tc := ⟨.hbm, 326, rfl⟩
abbrev main_call4_cst_3 : Ref sig .tc := ⟨.hbm, 327, rfl⟩
abbrev main_call4_v12 : Ref sig .tc := ⟨.hbm, 328, rfl⟩
abbrev main_call4_cst_4 : Ref sig .tc := ⟨.hbm, 329, rfl⟩
abbrev main_call4_call0_v0 : Ref sig .tc := ⟨.hbm, 330, rfl⟩
abbrev main_call4_call0_v1 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_cst_45 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩

abbrev nD : Nat := 1
abbrev τ : Topo := Topo.v7x

variable {F : FTy → Type} [FloatOps F]

class Facts₀ : Prop where
  bcast_S16x32x32x16_S16x32x32x1x16_0_1_2_4 : S16x32x32x16.BroadcastsInDim S16x32x32x1x16 (![0, 1, 2, 4] : Fin 4 → Fin S16x32x32x1x16.rank)
  bcast_S16x32x32x1x16_S16x32x32x32x16_0_1_2_3_4 : S16x32x32x1x16.BroadcastsInDim S16x32x32x32x16 (![0, 1, 2, 3, 4] : Fin 5 → Fin S16x32x32x32x16.rank)
  bcast_S16x32x32x16_S16x32x1x32x16_0_1_3_4 : S16x32x32x16.BroadcastsInDim S16x32x1x32x16 (![0, 1, 3, 4] : Fin 4 → Fin S16x32x1x32x16.rank)
  bcast_S16x32x1x32x16_S16x32x32x32x16_0_1_2_3_4 : S16x32x1x32x16.BroadcastsInDim S16x32x32x32x16 (![0, 1, 2, 3, 4] : Fin 5 → Fin S16x32x32x32x16.rank)
  bcast_S16x32x32x16_S16x1x32x32x16_0_2_3_4 : S16x32x32x16.BroadcastsInDim S16x1x32x32x16 (![0, 2, 3, 4] : Fin 4 → Fin S16x1x32x32x16.rank)
  bcast_S16x1x32x32x16_S16x32x32x32x16_0_1_2_3_4 : S16x1x32x32x16.BroadcastsInDim S16x32x32x32x16 (![0, 1, 2, 3, 4] : Fin 5 → Fin S16x32x32x32x16.rank)
  concatenates_S16x32x32x32x16_S16x32x32x32x16_S16x32x32x32x16_S16x32x32x32x48_d4 : Shape.Concatenates [S16x32x32x32x16, S16x32x32x32x16, S16x32x32x32x16] S16x32x32x32x48 4
  reducesTo_S16x32x32x32x48_S16x32x32x48_d1 : S16x32x32x32x48.ReducesTo [1] S16x32x32x48
  h_S_ : 0 < S_.numel
  bcast_S_S16x32x32x48 : S_.BroadcastsInDim S16x32x32x48 (![] : Fin 0 → Fin S16x32x32x48.rank)
  reducesTo_S16x32x32x32x48_S16x32x32x48_d2 : S16x32x32x32x48.ReducesTo [2] S16x32x32x48
  reducesTo_S16x32x32x32x48_S16x32x32x48_d3 : S16x32x32x32x48.ReducesTo [3] S16x32x32x48
  reducesTo_S16x32x32x32x48_S16x32x48_d2_3 : S16x32x32x32x48.ReducesTo [2, 3] S16x32x48
  bcast_S_S16x32x48 : S_.BroadcastsInDim S16x32x48 (![] : Fin 0 → Fin S16x32x48.rank)
  reducesTo_S16x32x32x32x48_S16x32x48_d1_3 : S16x32x32x32x48.ReducesTo [1, 3] S16x32x48
  reducesTo_S16x32x32x32x48_S16x32x48_d1_2 : S16x32x32x32x48.ReducesTo [1, 2] S16x32x48
  reducesTo_S16x32x32x32x48_S16x48_d1_2_3 : S16x32x32x32x48.ReducesTo [1, 2, 3] S16x48
  bcast_S_S16x48 : S_.BroadcastsInDim S16x48 (![] : Fin 0 → Fin S16x48.rank)
  slices_S384x64_S48x64_0_0 : S384x64.Slices ![0, 0] S48x64
  slices_S384x64_S48x64_48_0 : S384x64.Slices ![48, 0] S48x64
  slices_S384x64_S48x64_96_0 : S384x64.Slices ![96, 0] S48x64
  slices_S384x64_S48x64_144_0 : S384x64.Slices ![144, 0] S48x64
  slices_S384x64_S48x64_192_0 : S384x64.Slices ![192, 0] S48x64
  slices_S384x64_S48x64_240_0 : S384x64.Slices ![240, 0] S48x64
  slices_S384x64_S48x64_288_0 : S384x64.Slices ![288, 0] S48x64
  slices_S384x64_S48x64_336_0 : S384x64.Slices ![336, 0] S48x64
  bcast_S16x32x32x64_S16x1x32x32x64_0_2_3_4 : S16x32x32x64.BroadcastsInDim S16x1x32x32x64 (![0, 2, 3, 4] : Fin 4 → Fin S16x1x32x32x64.rank)
  bcast_S16x1x32x32x64_S16x32x32x32x64_0_1_2_3_4 : S16x1x32x32x64.BroadcastsInDim S16x32x32x32x64 (![0, 1, 2, 3, 4] : Fin 5 → Fin S16x32x32x32x64.rank)
  bcast_S16x32x32x64_S16x32x1x32x64_0_1_3_4 : S16x32x32x64.BroadcastsInDim S16x32x1x32x64 (![0, 1, 3, 4] : Fin 4 → Fin S16x32x1x32x64.rank)
  bcast_S16x32x1x32x64_S16x32x32x32x64_0_1_2_3_4 : S16x32x1x32x64.BroadcastsInDim S16x32x32x32x64 (![0, 1, 2, 3, 4] : Fin 5 → Fin S16x32x32x32x64.rank)
  bcast_S16x32x32x64_S16x32x32x1x64_0_1_2_4 : S16x32x32x64.BroadcastsInDim S16x32x32x1x64 (![0, 1, 2, 4] : Fin 4 → Fin S16x32x32x1x64.rank)
  bcast_S16x32x32x1x64_S16x32x32x32x64_0_1_2_3_4 : S16x32x32x1x64.BroadcastsInDim S16x32x32x32x64 (![0, 1, 2, 3, 4] : Fin 5 → Fin S16x32x32x32x64.rank)
  bcast_S16x32x64_S16x32x1x1x64_0_1_4 : S16x32x64.BroadcastsInDim S16x32x1x1x64 (![0, 1, 4] : Fin 3 → Fin S16x32x1x1x64.rank)
  bcast_S16x32x1x1x64_S16x32x32x32x64_0_1_2_3_4 : S16x32x1x1x64.BroadcastsInDim S16x32x32x32x64 (![0, 1, 2, 3, 4] : Fin 5 → Fin S16x32x32x32x64.rank)
  bcast_S16x32x64_S16x1x32x1x64_0_2_4 : S16x32x64.BroadcastsInDim S16x1x32x1x64 (![0, 2, 4] : Fin 3 → Fin S16x1x32x1x64.rank)
  bcast_S16x1x32x1x64_S16x32x32x32x64_0_1_2_3_4 : S16x1x32x1x64.BroadcastsInDim S16x32x32x32x64 (![0, 1, 2, 3, 4] : Fin 5 → Fin S16x32x32x32x64.rank)
  bcast_S16x32x64_S16x1x1x32x64_0_3_4 : S16x32x64.BroadcastsInDim S16x1x1x32x64 (![0, 3, 4] : Fin 3 → Fin S16x1x1x32x64.rank)
  bcast_S16x1x1x32x64_S16x32x32x32x64_0_1_2_3_4 : S16x1x1x32x64.BroadcastsInDim S16x32x32x32x64 (![0, 1, 2, 3, 4] : Fin 5 → Fin S16x32x32x32x64.rank)
  bcast_S16x64_S16x1x1x1x64_0_4 : S16x64.BroadcastsInDim S16x1x1x1x64 (![0, 4] : Fin 2 → Fin S16x1x1x1x64.rank)
  bcast_S16x1x1x1x64_S16x32x32x32x64_0_1_2_3_4 : S16x1x1x1x64.BroadcastsInDim S16x32x32x32x64 (![0, 1, 2, 3, 4] : Fin 5 → Fin S16x32x32x32x64.rank)
  slices_S24x64_S8x64_0_0 : S24x64.Slices ![0, 0] S8x64
  slices_S24x64_S8x64_8_0 : S24x64.Slices ![8, 0] S8x64
  slices_S24x64_S8x64_16_0 : S24x64.Slices ![16, 0] S8x64
  reducesTo_S16x32x32x32x64_S64_d0_1_2_3 : S16x32x32x32x64.ReducesTo [0, 1, 2, 3] S64
  bcast_S_S64 : S_.BroadcastsInDim S64 (![] : Fin 0 → Fin S64.rank)
  bcast_S64_S1x1x1x1x64_4 : S64.BroadcastsInDim S1x1x1x1x64 (![4] : Fin 1 → Fin S1x1x1x1x64.rank)
  bcast_S_S1x1x1x1x64 : S_.BroadcastsInDim S1x1x1x1x64 (![] : Fin 0 → Fin S1x1x1x1x64.rank)
  bcast_S1x1x1x1x64_S16x32x32x32x64_0_1_2_3_4 : S1x1x1x1x64.BroadcastsInDim S16x32x32x32x64 (![0, 1, 2, 3, 4] : Fin 5 → Fin S16x32x32x32x64.rank)
  bcast_S_S16x32x32x32x64 : S_.BroadcastsInDim S16x32x32x32x64 (![] : Fin 0 → Fin S16x32x32x32x64.rank)
  reducesTo_S16x32x32x32x64_S16x32x32x64_d1 : S16x32x32x32x64.ReducesTo [1] S16x32x32x64
  bcast_S_S16x32x32x64 : S_.BroadcastsInDim S16x32x32x64 (![] : Fin 0 → Fin S16x32x32x64.rank)
  reducesTo_S16x32x32x32x64_S16x32x32x64_d2 : S16x32x32x32x64.ReducesTo [2] S16x32x32x64
  reducesTo_S16x32x32x32x64_S16x32x32x64_d3 : S16x32x32x32x64.ReducesTo [3] S16x32x32x64
  reducesTo_S16x32x32x32x64_S16x32x64_d2_3 : S16x32x32x32x64.ReducesTo [2, 3] S16x32x64
  bcast_S_S16x32x64 : S_.BroadcastsInDim S16x32x64 (![] : Fin 0 → Fin S16x32x64.rank)
  reducesTo_S16x32x32x32x64_S16x32x64_d1_3 : S16x32x32x32x64.ReducesTo [1, 3] S16x32x64
  reducesTo_S16x32x32x32x64_S16x32x64_d1_2 : S16x32x32x32x64.ReducesTo [1, 2] S16x32x64
  reducesTo_S16x32x32x32x64_S16x64_d1_2_3 : S16x32x32x32x64.ReducesTo [1, 2, 3] S16x64
  bcast_S_S16x64 : S_.BroadcastsInDim S16x64 (![] : Fin 0 → Fin S16x64.rank)
  slices_S512x64_S64x64_0_0 : S512x64.Slices ![0, 0] S64x64
  slices_S512x64_S64x64_64_0 : S512x64.Slices ![64, 0] S64x64
  slices_S512x64_S64x64_128_0 : S512x64.Slices ![128, 0] S64x64
  slices_S512x64_S64x64_192_0 : S512x64.Slices ![192, 0] S64x64
  slices_S512x64_S64x64_256_0 : S512x64.Slices ![256, 0] S64x64
  slices_S512x64_S64x64_320_0 : S512x64.Slices ![320, 0] S64x64
  slices_S512x64_S64x64_384_0 : S512x64.Slices ![384, 0] S64x64
  slices_S512x64_S64x64_448_0 : S512x64.Slices ![448, 0] S64x64
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  bcast_S16x64_S16x1x64_0_2 : S16x64.BroadcastsInDim S16x1x64 (![0, 2] : Fin 2 → Fin S16x1x64.rank)
  bcast_S16x1x64_S16x32x64_0_1_2 : S16x1x64.BroadcastsInDim S16x32x64 (![0, 1, 2] : Fin 3 → Fin S16x32x64.rank)
  reducesTo_S16x32x64_S64_d0_1 : S16x32x64.ReducesTo [0, 1] S64
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S16x32x64_0_1_2 : S1x1x64.BroadcastsInDim S16x32x64 (![0, 1, 2] : Fin 3 → Fin S16x32x64.rank)
  dot_S16x32x32x32x48_S48x64_S16x32x32x32x64_4_0_0123_1_n_n_wf : DotDims.WF S16x32x32x32x48 S48x64 S16x32x32x32x64 [4] [0] [0, 1, 2, 3] [1] [] []
  dot_S16x32x32x48_S48x64_S16x32x32x64_3_0_012_1_n_n_wf : DotDims.WF S16x32x32x48 S48x64 S16x32x32x64 [3] [0] [0, 1, 2] [1] [] []
  dot_S16x32x48_S48x64_S16x32x64_2_0_01_1_n_n_wf : DotDims.WF S16x32x48 S48x64 S16x32x64 [2] [0] [0, 1] [1] [] []
  dot_S16x48_S48x64_S16x64_1_0_0_1_n_n_wf : DotDims.WF S16x48 S48x64 S16x64 [1] [0] [0] [1] [] []
  dot_S16x32x8_S8x64_S16x32x64_2_0_01_1_n_n_wf : DotDims.WF S16x32x8 S8x64 S16x32x64 [2] [0] [0, 1] [1] [] []
  dot_S16x32x32x32x64_S64x64_S16x32x32x32x64_4_0_0123_1_n_n_wf : DotDims.WF S16x32x32x32x64 S64x64 S16x32x32x32x64 [4] [0] [0, 1, 2, 3] [1] [] []
  dot_S16x32x32x64_S64x64_S16x32x32x64_3_0_012_1_n_n_wf : DotDims.WF S16x32x32x64 S64x64 S16x32x32x64 [3] [0] [0, 1, 2] [1] [] []
  dot_S16x32x64_S64x64_S16x32x64_2_0_01_1_n_n_wf : DotDims.WF S16x32x64 S64x64 S16x32x64 [2] [0] [0, 1] [1] [] []
  dot_S16x64_S64x64_S16x64_1_0_0_1_n_n_wf : DotDims.WF S16x64 S64x64 S16x64 [1] [0] [0] [1] [] []

variable [Facts₀]

def dot_S16x32x32x32x48_S48x64_S16x32x32x32x64_4_0_0123_1_n_n : DotDims S16x32x32x32x48 S48x64 S16x32x32x32x64 where
  lhsContracting := [4]
  rhsContracting := [0]
  lhsNonContracting := [0, 1, 2, 3]
  rhsNonContracting := [1]
  lhsBatch := []
  rhsBatch := []
  wf := dot_S16x32x32x32x48_S48x64_S16x32x32x32x64_4_0_0123_1_n_n_wf
def dot_S16x32x32x48_S48x64_S16x32x32x64_3_0_012_1_n_n : DotDims S16x32x32x48 S48x64 S16x32x32x64 where
  lhsContracting := [3]
  rhsContracting := [0]
  lhsNonContracting := [0, 1, 2]
  rhsNonContracting := [1]
  lhsBatch := []
  rhsBatch := []
  wf := dot_S16x32x32x48_S48x64_S16x32x32x64_3_0_012_1_n_n_wf
def dot_S16x32x48_S48x64_S16x32x64_2_0_01_1_n_n : DotDims S16x32x48 S48x64 S16x32x64 where
  lhsContracting := [2]
  rhsContracting := [0]
  lhsNonContracting := [0, 1]
  rhsNonContracting := [1]
  lhsBatch := []
  rhsBatch := []
  wf := dot_S16x32x48_S48x64_S16x32x64_2_0_01_1_n_n_wf
def dot_S16x48_S48x64_S16x64_1_0_0_1_n_n : DotDims S16x48 S48x64 S16x64 where
  lhsContracting := [1]
  rhsContracting := [0]
  lhsNonContracting := [0]
  rhsNonContracting := [1]
  lhsBatch := []
  rhsBatch := []
  wf := dot_S16x48_S48x64_S16x64_1_0_0_1_n_n_wf
def dot_S16x32x8_S8x64_S16x32x64_2_0_01_1_n_n : DotDims S16x32x8 S8x64 S16x32x64 where
  lhsContracting := [2]
  rhsContracting := [0]
  lhsNonContracting := [0, 1]
  rhsNonContracting := [1]
  lhsBatch := []
  rhsBatch := []
  wf := dot_S16x32x8_S8x64_S16x32x64_2_0_01_1_n_n_wf
def dot_S16x32x32x32x64_S64x64_S16x32x32x32x64_4_0_0123_1_n_n : DotDims S16x32x32x32x64 S64x64 S16x32x32x32x64 where
  lhsContracting := [4]
  rhsContracting := [0]
  lhsNonContracting := [0, 1, 2, 3]
  rhsNonContracting := [1]
  lhsBatch := []
  rhsBatch := []
  wf := dot_S16x32x32x32x64_S64x64_S16x32x32x32x64_4_0_0123_1_n_n_wf
def dot_S16x32x32x64_S64x64_S16x32x32x64_3_0_012_1_n_n : DotDims S16x32x32x64 S64x64 S16x32x32x64 where
  lhsContracting := [3]
  rhsContracting := [0]
  lhsNonContracting := [0, 1, 2]
  rhsNonContracting := [1]
  lhsBatch := []
  rhsBatch := []
  wf := dot_S16x32x32x64_S64x64_S16x32x32x64_3_0_012_1_n_n_wf
def dot_S16x32x64_S64x64_S16x32x64_2_0_01_1_n_n : DotDims S16x32x64 S64x64 S16x32x64 where
  lhsContracting := [2]
  rhsContracting := [0]
  lhsNonContracting := [0, 1]
  rhsNonContracting := [1]
  lhsBatch := []
  rhsBatch := []
  wf := dot_S16x32x64_S64x64_S16x32x64_2_0_01_1_n_n_wf
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf

class Facts : Prop extends Facts₀ where

variable [Facts]
-- ==== Proof.KReg0.lean ====
/- Region 0 of the forward program: the first equivariant convolution `cc0__conv1_kernel`, fused with the
   accumulation of the batch-normalisation statistics (per-channel sum and sum of squares of its output), run over a
   grid of 16 points, one batch element each. Seven windows: 0 the pair features x ([1,32,32,16] per point), 1 the node
   features ([1,32,8] per point), 2 and 3 the weights ([384,64] and [24,64], the same block at every point), 4 the
   convolution's output in bf16 ([1,32,32,32,64] per point, written back at every point), 5 and 6 the two statistics
   ([1,64], one block for the whole grid, written back at the last point only). Two scratch accumulators [1,64] are
   zeroed when the grid coordinate is 0 and carried across the points: the region's invariant holds them at the
   statistics accumulated so far. Stated at a parameter `V`: the buffer contents found when the region is entered. -/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first convolution with its channel statistics

The body loads the four input blocks whole, computes the point's convolution block, stores its bf16 rounding into the
big output's buffer, and adds the block's per-channel sum and sum of squares into two accumulators that live in scratch
memory across the grid's points (zeroed when the grid coordinate is 0); the accumulators are copied into the two small
outputs' buffers at every point, and those outputs are written back only at the last point. -/

/-! ## The body's accesses: every load and store is of a whole buffer -/

abbrev r0_0 : Rect S1x32x32x16 := Rect.unit (s := S1x32x32x16) ![0, 0, 0, 0] S1x32x32x16.size inb_S1x32x32x16_S1x32x32x16_0_0_0_0
abbrev r0_1 : Rect S1x32x8 := Rect.unit (s := S1x32x8) ![0, 0, 0] S1x32x8.size inb_S1x32x8_S1x32x8_0_0_0
abbrev r0_2 : Rect S384x64 := Rect.unit (s := S384x64) ![0, 0] S384x64.size inb_S384x64_S384x64_0_0
abbrev r0_3 : Rect S24x64 := Rect.unit (s := S24x64) ![0, 0] S24x64.size inb_S24x64_S24x64_0_0
abbrev r0_4 : Rect S1x32x32x32x64 := Rect.unit (s := S1x32x32x32x64) ![0, 0, 0, 0, 0] S1x32x32x32x64.size inb_S1x32x32x32x64_S1x32x32x32x64_0_0_0_0_0
abbrev rS0 : Rect S1x64 := Rect.unit (s := S1x64) ![0, 0] S1x64.size inb_S1x64_S1x64_0_0

/-! ## What the body computes, as pure terms over the input blocks -/

/-- The point's convolution block in f32, from the four input blocks. -/
def conv0 (x0 : Vec F S1x32x32x16 .f32) (x1 : Vec F S1x32x8 .f32) (x2 : Vec F S384x64 .f32) (x3 : Vec F S24x64 .f32) : FVec F S32x32x32x64 .f32 :=
  k0_pay33 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))

/-- The per-channel sum of the squares of the point's convolution block. -/
def convSq0 (x0 : Vec F S1x32x32x16 .f32) (x1 : Vec F S1x32x8 .f32) (x2 : Vec F S384x64 .f32) (x3 : Vec F S24x64 .f32) : FVec F S64 .f32 :=
  k0_pay34 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))

/-- The big output's buffer after the body: the convolution block rounded to bf16. -/
def out0_4 (x0 : Vec F S1x32x32x16 .f32) (x1 : Vec F S1x32x8 .f32) (x2 : Vec F S384x64 .f32) (x3 : Vec F S24x64 .f32) : Vec F S1x32x32x32x64 .bf16 :=
  View.canon [⟨r0_4, k0_pay2 (conv0 x0 x1 x2 x3)⟩]

/-- The sum accumulator after the body, from the input blocks and the value `p` the body loads of it: `p` plus the
    per-channel sum of the point's convolution block. -/
def sum0 (x0 : Vec F S1x32x32x16 .f32) (x1 : Vec F S1x32x8 .f32) (x2 : Vec F S384x64 .f32) (x3 : Vec F S24x64 .f32) (p : Vec F S1x64 .f32) : Vec F S1x64 .f32 :=
  View.canon [⟨rS0, k0_pay35 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))
      p⟩]

/-- The sum-of-squares accumulator after the body, likewise. -/
def sumsq0 (x0 : Vec F S1x32x32x16 .f32) (x1 : Vec F S1x32x8 .f32) (x2 : Vec F S384x64 .f32) (x3 : Vec F S24x64 .f32) (p : Vec F S1x64 .f32) : Vec F S1x64 .f32 :=
  View.canon [⟨rS0, k0_pay1 (convSq0 x0 x1 x2 x3) p⟩]

/-- A store through the whole of a [1,64] buffer covers it. -/
theorem coverS0 (p0 : Vec F S1x64 .f32) (y : S1x64.Idx) :
    ∃ pc ∈ ([⟨rS0, p0⟩] : List (View.Piece (Elt F) S1x64 .f32)), y ∈ pc.1.set :=
  View.cover_of_tiled [⟨rS0, p0⟩] S1x64.size (by rfl) y

/-- A store through the whole of the big output's buffer covers it. -/
theorem cover0_4 (p0 : Vec F S1x32x32x32x64 .bf16) (y : S1x32x32x32x64.Idx) :
    ∃ pc ∈ ([⟨r0_4, p0⟩] : List (View.Piece (Elt F) S1x32x32x32x64 .bf16)), y ∈ pc.1.set :=
  View.cover_of_tiled [⟨r0_4, p0⟩] S1x32x32x32x64.size (by rfl) y

/-- After a covering store the buffer reads as that store alone, whatever was stored before it. -/
theorem read_writes_top0 {κ : Kind} {sp : Space} {s : Shape} {e : EltTy} (v : View sig κ sp s e) (f : v.ty.Contents (Elt F))
    (p : View.Piece (Elt F) s e) (L : List (View.Piece (Elt F) s e)) (h : ∀ y, ∃ pc ∈ [p], y ∈ pc.1.set) :
    v.read (Elt F) (v.writes (Elt F) f (p :: L)) = View.canon [p] :=
  View.read_writes_eq_canon v (v.writes (Elt F) f L) [p] h

/-- Two stores through the whole of a [1,64] buffer leave the same contents when their payloads agree. -/
theorem canon_rS_congr0 {w w' : rS0.shape.Idx → Elt F .f32} (h : w = w') :
    View.canon [(⟨rS0, w⟩ : View.Piece (Elt F) S1x64 .f32)] = View.canon [⟨rS0, w'⟩] := by rw [h]

/-- The condition of the body's conditional, from the grid coordinates: the coordinate is 0. -/
abbrev cond0 (i : grid0.Coords) : Prop := (Scalar.cmpi .ne (Scalar.extui (Scalar.cmpi .eq (BitVec.ofNat 32 (i 0).val) 0#32)) 0#32) = 1#1

set_option maxHeartbeats 2000000 in
/-- The body at the first point (the conditional taken): the accumulators, found at anything, are zeroed, then
    receive the point's statistics; the small outputs' buffers receive copies of them. -/
theorem sound_kernel0_A (c : Dev nD) (E : Set ℕ) (i : grid0.Coords)
    (arg1 : Memref sig .tc .vmem S1x32x32x16 .f32) (harg1 : arg1.IsWhole) (arg2 : Memref sig .tc .vmem S1x32x8 .f32) (harg2 : arg2.IsWhole) (arg3 : Memref sig .tc .vmem S384x64 .f32) (harg3 : arg3.IsWhole) (arg4 : Memref sig .tc .vmem S24x64 .f32) (harg4 : arg4.IsWhole) (arg5 : Memref sig .tc .vmem S1x32x32x32x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc : cond0 i) (x0 : Vec F S1x32x32x16 .f32) (x1 : Vec F S1x32x8 .f32) (x2 : Vec F S384x64 .f32) (x3 : Vec F S24x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (sum0 x0 x1 x2 x3 (k0_pay3 (F := F))) ∗ owns (c : Thread nD τ) arg7 fullShare (sumsq0 x0 x1 x2 x3 (k0_pay4 (F := F)))
            ∗ owns (c : Thread nD τ) arg8 fullShare (sum0 x0 x1 x2 x3 (k0_pay3 (F := F))) ∗ owns (c : Thread nD τ) arg9 fullShare (sumsq0 x0 x1 x2 x3 (k0_pay4 (F := F)))) -∗ K ⟨⟩))
      ⊢ wp frame (wpE (defs₀ (F := F)) Variants.none c none) E (cc0__conv1_kernel i arg1 harg1 arg2 harg2 arg3 harg3 arg4 harg4 arg5 harg5 arg6 harg6 arg7 harg7 arg8 harg8 arg9 harg9) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H5]
  · iexists _; isplitr
    swap; · iexact H5
    ipureintro
    exact View.read_writes_eq_canon _ _ _ (cover0_4 _)
  isplitl [H6]
  · iexists _; isplitr
    swap; · iexact H6
    ipureintro
    exact (View.read_writes_eq_canon _ _ _ (coverS0 _)).trans (canon_rS_congr0 ((View.readCov_cons_toLoadRect arg8.view rS0 _ _).trans
      (congrArg (k0_pay35 _ _ _ _ _ _ _ _ _ _ _ _) (View.readCov_cons_toLoadRect arg8.view rS0 _ _))))
  isplitl [H7]
  · iexists _; isplitr
    swap; · iexact H7
    ipureintro
    exact (View.read_writes_eq_canon _ _ _ (coverS0 _)).trans (canon_rS_congr0 ((View.readCov_cons_toLoadRect arg9.view rS0 _ _).trans
      (congrArg (k0_pay1 _) (View.readCov_cons_toLoadRect arg9.view rS0 _ _))))
  isplitl [H8]
  · iexists _; isplitr
    swap; · iexact H8
    ipureintro
    exact (read_writes_top0 arg8.view f8 _ _ (coverS0 _)).trans (canon_rS_congr0
      (congrArg (k0_pay35 _ _ _ _ _ _ _ _ _ _ _ _) (View.readCov_cons_toLoadRect arg8.view rS0 _ _)))
  iexists _; isplitr
  swap; · iexact H9
  ipureintro
  exact (read_writes_top0 arg9.view f9 _ _ (coverS0 _)).trans (canon_rS_congr0
    (congrArg (k0_pay1 _) (View.readCov_cons_toLoadRect arg9.view rS0 _ _)))

set_option maxHeartbeats 2000000 in
/-- The body at a later point (the conditional not taken): the accumulators, found at `p8` and `p9`, receive the
    point's statistics; the small outputs' buffers receive copies of them. -/
theorem sound_kernel0_B (c : Dev nD) (E : Set ℕ) (i : grid0.Coords)
    (arg1 : Memref sig .tc .vmem S1x32x32x16 .f32) (harg1 : arg1.IsWhole) (arg2 : Memref sig .tc .vmem S1x32x8 .f32) (harg2 : arg2.IsWhole) (arg3 : Memref sig .tc .vmem S384x64 .f32) (harg3 : arg3.IsWhole) (arg4 : Memref sig .tc .vmem S24x64 .f32) (harg4 : arg4.IsWhole) (arg5 : Memref sig .tc .vmem S1x32x32x32x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc : ¬cond0 i) (x0 : Vec F S1x32x32x16 .f32) (x1 : Vec F S1x32x8 .f32) (x2 : Vec F S384x64 .f32) (x3 : Vec F S24x64 .f32) (p8 p9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare p8 ∗ owns (c : Thread nD τ) arg9 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (sum0 x0 x1 x2 x3 (View.ld p8 rS0)) ∗ owns (c : Thread nD τ) arg7 fullShare (sumsq0 x0 x1 x2 x3 (View.ld p9 rS0))
            ∗ owns (c : Thread nD τ) arg8 fullShare (sum0 x0 x1 x2 x3 (View.ld p8 rS0)) ∗ owns (c : Thread nD τ) arg9 fullShare (sumsq0 x0 x1 x2 x3 (View.ld p9 rS0))) -∗ K ⟨⟩))
      ⊢ wp frame (wpE (defs₀ (F := F)) Variants.none c none) E (cc0__conv1_kernel i arg1 harg1 arg2 harg2 arg3 harg3 arg4 harg4 arg5 harg5 arg6 harg6 arg7 harg7 arg8 harg8 arg9 harg9) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf8; subst hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H5]
  · iexists _; isplitr
    swap; · iexact H5
    ipureintro
    exact View.read_writes_eq_canon _ _ _ (cover0_4 _)
  isplitl [H6]
  · iexists _; isplitr
    swap; · iexact H6
    ipureintro
    exact (View.read_writes_eq_canon _ _ _ (coverS0 _)).trans (canon_rS_congr0 (View.readCov_cons_toLoadRect arg8.view rS0 _ _))
  isplitl [H7]
  · iexists _; isplitr
    swap; · iexact H7
    ipureintro
    exact (View.read_writes_eq_canon _ _ _ (coverS0 _)).trans (canon_rS_congr0 (View.readCov_cons_toLoadRect arg9.view rS0 _ _))
  isplitl [H8]
  · iexists _; isplitr
    swap; · iexact H8
    ipureintro
    exact View.read_writes_eq_canon _ _ _ (coverS0 _)
  iexists _; isplitr
  swap; · iexact H9
  ipureintro
  exact View.read_writes_eq_canon _ _ _ (coverS0 _)

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved), for any proof data whose array is `V`'s and whose body leaves the block in
    place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- The sum accumulator after the body at position `n` of the grid: at the first point the zero fill plus the
    point's statistics, at a later point what the point before left plus the point's. -/
def accS0 (c : Dev nD) : (n : ℕ) → n < cfg0.N → Vec F S1x64 .f32
  | 0, hn => sum0 (iblk0 V c 0 ⟨0, hn⟩) (iblk0 V c 1 ⟨0, hn⟩) (iblk0 V c 2 ⟨0, hn⟩) (iblk0 V c 3 ⟨0, hn⟩) (k0_pay3 (F := F))
  | n + 1, hn => sum0 (iblk0 V c 0 ⟨n + 1, hn⟩) (iblk0 V c 1 ⟨n + 1, hn⟩) (iblk0 V c 2 ⟨n + 1, hn⟩) (iblk0 V c 3 ⟨n + 1, hn⟩) (View.ld (accS0 c n (Nat.lt_of_succ_lt hn)) rS0)

/-- The sum-of-squares accumulator after the body at position `n`, likewise. -/
def accQ0 (c : Dev nD) : (n : ℕ) → n < cfg0.N → Vec F S1x64 .f32
  | 0, hn => sumsq0 (iblk0 V c 0 ⟨0, hn⟩) (iblk0 V c 1 ⟨0, hn⟩) (iblk0 V c 2 ⟨0, hn⟩) (iblk0 V c 3 ⟨0, hn⟩) (k0_pay4 (F := F))
  | n + 1, hn => sumsq0 (iblk0 V c 0 ⟨n + 1, hn⟩) (iblk0 V c 1 ⟨n + 1, hn⟩) (iblk0 V c 2 ⟨n + 1, hn⟩) (iblk0 V c 3 ⟨n + 1, hn⟩) (View.ld (accQ0 c n (Nat.lt_of_succ_lt hn)) rS0)

/-- The big output's buffer after the body at point `t`. -/
def out0_4_at (c : Dev nD) (t : Fin cfg0.N) : Vec F S1x32x32x32x64 .bf16 := out0_4 (iblk0 V c 0 t) (iblk0 V c 1 t) (iblk0 V c 2 t) (iblk0 V c 3 t)

/-! ## The invariant: the generator register, the two scratch accumulators, the other scoped buffers -/

/-- The two scratch accumulators before point `t`: at anything before the first point, at the accumulated statistics
    of the points before `t` afterwards. -/
def scr0 (c : Dev nD) : Fin (cfg0.N + 1) → sProp 𝕄
  | ⟨0, _⟩ => iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
  | ⟨n + 1, h⟩ => iprop(owns (c : Thread nD τ) (Memref.whole cc0_scratch0) fullShare (accS0 V c n (Nat.lt_of_succ_lt_succ h))
      ∗ owns (c : Thread nD τ) (Memref.whole cc0_scratch1) fullShare (accQ0 V c n (Nat.lt_of_succ_lt_succ h)))

/-- The region's invariant before point `t`. -/
def Φ0 (c : Dev nD) (t : Fin (cfg0.N + 1)) : sProp 𝕄 :=
  iprop((∃ r, prngReg c r) ∗ scr0 V c t
    ∗ Pipeline.scopedRestBut (Ix := Unit) (Name := ℕ) (U := UR sig nD τ) (Lvl := ℕ) (Val := Elt F) spec0 c [cc0_scratch0, cc0_scratch1])

/-! ## The pipeline's proof data -/

/-- The proof data of pipeline 0 on core `c`: the arrays as the region finds them; after the body at point `t` each
    input's buffer at its block, the big output's at the point's rounded convolution block, the two small outputs' at
    the accumulators after `t`; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4_at V c t
    | ⟨5, _⟩ => accS0 V c t.val t.isLt
    | ⟨6, _⟩ => accQ0 V c t.val t.isLt
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0, out0_4_at]
theorem after0_5 (c : Dev nD) (t : Fin cfg0.N) : (dat0 V c).after 5 t = accS0 V c t.val t.isLt := by dsimp only [dat0]
theorem after0_6 (c : Dev nD) (t : Fin cfg0.N) : (dat0 V c).after 6 t = accQ0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The conditional, decided over the grid -/

/-- The body's conditional is taken at the first point only. -/
theorem hcond0 : ∀ t : Fin cfg0.N, cond0 (grid0.coords t) ↔ t.val % 16 = 0 :=
  (by decide +kernel : ∀ t : Fin grid0.N, cond0 (grid0.coords t) ↔ t.val % 16 = 0)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The invariant before the first point, opened. -/
theorem Φ0_zero (c : Dev nD) (h : 0 < cfg0.N + 1) : Φ0 V c ⟨0, h⟩ =
    iprop((∃ r, prngReg c r)
      ∗ iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ Pipeline.scopedRestBut (Ix := Unit) (Name := ℕ) (U := UR sig nD τ) (Lvl := ℕ) (Val := Elt F) spec0 c [cc0_scratch0, cc0_scratch1]) := rfl

/-- The invariant after `n + 1` points, opened. -/
theorem Φ0_succ (c : Dev nD) (n : ℕ) (h : n + 1 < cfg0.N + 1) : Φ0 V c ⟨n + 1, h⟩ =
    iprop((∃ r, prngReg c r)
      ∗ iprop(owns (c : Thread nD τ) (Memref.whole cc0_scratch0) fullShare (accS0 V c n (Nat.lt_of_succ_lt_succ h))
        ∗ owns (c : Thread nD τ) (Memref.whole cc0_scratch1) fullShare (accQ0 V c n (Nat.lt_of_succ_lt_succ h)))
      ∗ Pipeline.scopedRestBut (Ix := Unit) (Name := ℕ) (U := UR sig nD τ) (Lvl := ℕ) (Val := Elt F) spec0 c [cc0_scratch0, cc0_scratch1]) := rfl

set_option maxHeartbeats 1600000 in
/-- The body at any point: the inputs' buffers hold their blocks; at the first point the conditional is taken and the
    accumulators may hold anything, at a later point it is not and they hold what the point before left (the
    invariant); either way they end at the accumulated statistics through this point, which is the invariant at the
    next point, and the small outputs' buffers hold copies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6,
    show (dat0 V c).Φ t.castSucc = Φ0 V c t.castSucc from rfl, show (dat0 V c).Φ t.succ = Φ0 V c t.succ from rfl]
  have hN : t.val < 16 := lt_of_lt_of_eq t.isLt (show cfg0.N = 16 from N_0)
  obtain ⟨n, hn⟩ := t
  cases n with
  | zero =>
    rw [show (⟨0, hn⟩ : Fin cfg0.N).castSucc = ⟨0, Nat.succ_pos _⟩ from rfl, Φ0_zero,
      show (⟨0, hn⟩ : Fin cfg0.N).succ = ⟨0 + 1, Nat.succ_lt_succ hn⟩ from rfl, Φ0_succ]
    iintro ⟨⟨Hr, ⟨⟨%g8, H8⟩, ⟨%g9, H9⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords ⟨0, hn⟩) _ _ _ _ _ _ _ _ _ _ _ _ _ _ _ _ _ _ ((hcond0 ⟨0, hn⟩).mpr rfl)
      (iblk0 V c 0 ⟨0, hn⟩) (iblk0 V c 1 ⟨0, hn⟩) (iblk0 V c 2 ⟨0, hn⟩) (iblk0 V c 3 ⟨0, hn⟩) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexists g8; rw [owns_whole]; iexact H8
    isplitl [H9]; · iexists g9; rw [owns_whole]; iexact H9
    iintro ⟨H0, H1, H2, H3, H4, H5, H6, H8, H9⟩
    isplitl [Hr H8 H9 Hrest]
    · isplitl [Hr]; · iexact Hr
      isplitr [Hrest]
      · isplitl [H8]; · iexact H8
        iexact H9
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  | succ n =>
    rw [show (⟨n + 1, hn⟩ : Fin cfg0.N).castSucc = ⟨n + 1, Nat.lt_succ_of_lt hn⟩ from rfl, Φ0_succ,
      show (⟨n + 1, hn⟩ : Fin cfg0.N).succ = ⟨(n + 1) + 1, Nat.succ_lt_succ hn⟩ from rfl, Φ0_succ]
    iintro ⟨⟨Hr, ⟨H8, H9⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords ⟨n + 1, hn⟩) _ _ _ _ _ _ _ _ _ _ _ _ _ _ _ _ _ _
      (fun h => absurd ((hcond0 ⟨n + 1, hn⟩).mp h) (by dsimp only at hN ⊢; omega))
      (iblk0 V c 0 ⟨n + 1, hn⟩) (iblk0 V c 1 ⟨n + 1, hn⟩) (iblk0 V c 2 ⟨n + 1, hn⟩) (iblk0 V c 3 ⟨n + 1, hn⟩) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr H8 H9 Hrest]
    · isplitl [Hr]; · iexact Hr
      isplitr [Hrest]
      · isplitl [H8]; · iexact H8
        iexact H9
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the assembly takes of the proof data -/

theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem Φ_eq0 (c : Dev nD) (t : Fin (cfg0.N + 1)) : (dat0 V c).Φ t = Φ0 V c t := rfl

/-- The accumulators' recursion, an equation per case. -/
theorem accS0_zero (c : Dev nD) (hn : 0 < cfg0.N) :
    accS0 V c 0 hn = sum0 (iblk0 V c 0 ⟨0, hn⟩) (iblk0 V c 1 ⟨0, hn⟩) (iblk0 V c 2 ⟨0, hn⟩) (iblk0 V c 3 ⟨0, hn⟩) (k0_pay3 (F := F)) := rfl
theorem accS0_succ (c : Dev nD) (n : ℕ) (hn : n + 1 < cfg0.N) :
    accS0 V c (n + 1) hn = sum0 (iblk0 V c 0 ⟨n + 1, hn⟩) (iblk0 V c 1 ⟨n + 1, hn⟩) (iblk0 V c 2 ⟨n + 1, hn⟩) (iblk0 V c 3 ⟨n + 1, hn⟩) (View.ld (accS0 V c n (Nat.lt_of_succ_lt hn)) rS0) := rfl
theorem accQ0_zero (c : Dev nD) (hn : 0 < cfg0.N) :
    accQ0 V c 0 hn = sumsq0 (iblk0 V c 0 ⟨0, hn⟩) (iblk0 V c 1 ⟨0, hn⟩) (iblk0 V c 2 ⟨0, hn⟩) (iblk0 V c 3 ⟨0, hn⟩) (k0_pay4 (F := F)) := rfl
theorem accQ0_succ (c : Dev nD) (n : ℕ) (hn : n + 1 < cfg0.N) :
    accQ0 V c (n + 1) hn = sumsq0 (iblk0 V c 0 ⟨n + 1, hn⟩) (iblk0 V c 1 ⟨n + 1, hn⟩) (iblk0 V c 2 ⟨n + 1, hn⟩) (iblk0 V c 3 ⟨n + 1, hn⟩) (View.ld (accQ0 V c n (Nat.lt_of_succ_lt hn)) rS0) := rfl

/-- The invariant before the first point, from the generator register and the scoped buffers no window stages: the
    two scratch accumulators are among those, at anything. -/
theorem Φ_in0 (c : Dev nD) :
    iprop((∃ r, prngReg c r) ∗ Pipeline.prefHeld (pcfgs (F := F) 0).pre c (fun _ => fullShare) ((cfgs 0).toPCfg_adm).1
        ∗ Pipeline.scopedRest (Ix := Unit) (Name := ℕ) (U := UR sig nD τ) (Lvl := ℕ) (Val := Elt F) spec0 c)
      ⊢ (dat0 V c).Φ 0 := by
  rw [Φ_eq0, show (0 : Fin (cfg0.N + 1)) = ⟨0, Nat.succ_pos _⟩ from rfl, Φ0_zero, scopedRest0_split]
  iintro ⟨Hp, -, Hs, Hrest⟩
  isplitl [Hp]; · iexact Hp
  isplitl [Hs]; · iexact Hs
  iexact Hrest

/-- The invariant after the last point gives the generator register and those scoped buffers back. -/
theorem Φ_out0 (c : Dev nD) :
    (dat0 V c).Φ (Fin.last _)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Φ_eq0, Pipeline.ownSems0_none, scopedRest0_split,
    show (Fin.last cfg0.N : Fin (cfg0.N + 1)) = ⟨15 + 1, by rw [show cfg0.N = 16 from N_0]; decide⟩ from Fin.ext (show cfg0.N = 15 + 1 from N_0), Φ0_succ, owns_whole, owns_whole]
  iintro ⟨Hp, ⟨H8, H9⟩, Hrest⟩
  isplitl [Hp]; · iexact Hp
  isplitr; · iempintro
  isplitr [Hrest]
  · isplitl [H8]; · iexists _; iexact H8
    iexists _; iexact H9
  iexact Hrest

end Cert.Kernel.Hand

end
-- ==== Proof.KReg1.lean ====
/- Region 1 of the forward program: the batch-normalisation-and-ReLU pass `cc1__bnrelu_kernel`, an elementwise map
   y = max(x * s + (b - mu * s), 0) with s = rsqrt(var + eps) * g, run over a grid of 16 points, one batch element
   each. Six windows: 0 the activations x (one [1,32,32,32,64] block per point), 1..4 the per-channel vectors g, b,
   mu, var (one [1,64] block, the same at every point), 5 the result, written back to the array window 0 reads.
   Stated at a parameter `V`: the buffer contents found when the region is entered. Every load and store of the
   body is a whole-block rectangle and nothing is carried between points, so what the body leaves in the result's
   buffer is a pure function of the five input blocks at that point. -/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the block was copied in at that point
    or earlier (a block is copied in again only when its index moves), for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the block was copied in at that point
    or earlier (a block is copied in again only when its index moves), for any proof data over `V`'s arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the block was copied in at that point
    or earlier (a block is copied in again only when its index moves), for any proof data over `V`'s arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the block was copied in at that point
    or earlier (a block is copied in again only when its index moves), for any proof data over `V`'s arrays whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the block was copied in at that point
    or earlier (a block is copied in again only when its index moves), for any proof data over `V`'s arrays whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole activation block, the whole channel vector -/

abbrev r1_big : Rect S1x32x32x32x64 := Rect.unit (s := S1x32x32x32x64) ![0, 0, 0, 0, 0] S1x32x32x32x64.size inb_S1x32x32x32x64_S1x32x32x32x64_0_0_0_0_0
abbrev r1_vec : Rect S1x64 := Rect.unit (s := S1x64) ![0, 0] S1x64.size inb_S1x64_S1x64_0_0

/-! ## What the body leaves in the result window's buffer -/

/-- Window 5's staging buffer after the body, as a function of the five input blocks: its one store, of the
    normalised, clamped and rounded activations, over the whole block. -/
def out1_5 (x0 : Vec F S1x32x32x32x64 .bf16) (x1 x2 x3 x4 : Vec F S1x64 .f32) : Vec F S1x32x32x32x64 .bf16 :=
  View.canon [⟨r1_big, k1_pay1 (View.ld x0 r1_big) (View.ld x1 r1_vec) (View.ld x2 r1_vec) (View.ld x3 r1_vec) (View.ld x4 r1_vec)⟩]

/-- The one store is of the whole block, so it covers it. -/
theorem cover1_5 (p0 : Vec F S1x32x32x32x64 .bf16) (y : S1x32x32x32x64.Idx) :
    ∃ pc ∈ ([⟨r1_big, p0⟩] : List (View.Piece (Elt F) S1x32x32x32x64 .bf16)), y ∈ pc.1.set :=
  View.cover_of_tiled [⟨r1_big, p0⟩] S1x32x32x32x64.size (by rfl) y

/-! ## The body's triple -/

set_option maxHeartbeats 1000000 in
/-- The body on whole staging buffers, the inputs' at contents `x0 … x4` and the result's at anything, runs to a
    state with the inputs' as they were and the result's at `out1_5` of them. The grid coordinate is not read. -/
theorem sound_kernel1 (c : Dev nD) (E : Set ℕ) (i : grid1.Coords)
    (arg0 : Memref sig .tc .vmem S1x32x32x32x64 .bf16) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x32x32x32x64 .bf16) (harg5 : arg5.IsWhole)
    (x0 : Vec F S1x32x32x32x64 .bf16) (x1 x2 x3 x4 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bnrelu_kernel i arg0 harg0 arg1 harg1 arg2 harg2 arg3 harg3 arg4 harg4 arg5 harg5) K := by
  simp only [cc1__bnrelu_kernel_eq_skeleton]; unfold cc1__bnrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the result's at `out1_5` of the input blocks; as invariant the rest of the
    core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the same proposition at every point. -/
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KReg2.lean ====
/- Region 2 of the forward program: the second convolution with its channel statistics. Over a grid of 16 points, one
   batch element each, the body convolves the point's activation block with the weights, stores the result rounded
   to bf16, and adds the result's per-channel sum and sum of squares into two scratch accumulators, which it zeroes
   at the first point and copies into the two small result windows at every point (those are written back after
   the last point only, so what reaches memory is the total over the batch). Five windows: 0 the activations
   (one [1,32,32,32,64] block per point), 1 the weights ([512,64], the same block at every point), 2 the result,
   3 the sum, 4 the sum of squares ([1,64] each). Stated at a parameter `V`: the buffer contents found when the
   region is entered. The two accumulators are carried between points, so the region's invariant holds them at
   the statistics accumulated so far, a recursion over the points. -/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev r2B : Rect S1x32x32x32x64 := Rect.unit (s := S1x32x32x32x64) ![0, 0, 0, 0, 0] S1x32x32x32x64.size inb_S1x32x32x32x64_S1x32x32x32x64_0_0_0_0_0
abbrev r2W : Rect S512x64 := Rect.unit (s := S512x64) ![0, 0] S512x64.size inb_S512x64_S512x64_0_0
abbrev r2S : Rect S1x64 := Rect.unit (s := S1x64) ![0, 0] S1x64.size inb_S1x64_S1x64_0_0

/-! ## The branch of the body: "is this the first batch element?" -/

/-- The condition of the body's one conditional, from the grid coordinate. -/
abbrev cond2 (i : grid2.Coords) : Prop := (Scalar.cmpi .ne (Scalar.extui (Scalar.cmpi .eq (BitVec.ofNat 32 (i 0).val) 0#32)) 0#32) = 1#1
/-- It holds at the first point only (decided over the 16 points). -/
theorem hcond2 : ∀ t : Fin cfg2.N, cond2 (grid2.coords t) ↔ t.val % 16 = 0 :=
  (by decide +kernel : ∀ t : Fin grid2.N, cond2 (grid2.coords t) ↔ t.val % 16 = 0)

/-! ## The pure values of one point, from its two input blocks -/

/-- The convolution's result at one batch element, in f32, from the activation block `x0` and the weights `x1`. -/
def conv2 (x0 : Vec F S1x32x32x32x64 .bf16) (x1 : Vec F S512x64 .f32) : FVec F S32x32x32x64 .f32 :=
  k2_pay22 (k2_pay6 (View.ld x0 r2B)) (k2_pay8 (View.ld x1 r2W)) (k2_pay9 (View.ld x1 r2W)) (k2_pay10 (View.ld x1 r2W)) (k2_pay11 (View.ld x1 r2W))
    (k2_pay12 (View.ld x1 r2W)) (k2_pay13 (View.ld x1 r2W)) (k2_pay14 (View.ld x1 r2W)) (k2_pay15 (View.ld x1 r2W))
    (k2_pay16 (View.ld x0 r2B)) (k2_pay17 (View.ld x0 r2B)) (k2_pay18 (View.ld x0 r2B)) (k2_pay19 (View.ld x0 r2B)) (k2_pay20 (View.ld x0 r2B)) (k2_pay21 (View.ld x0 r2B))

/-- Its sum along the innermost spatial axis (the first stage of the per-channel sum). -/
def convRows2 (x0 : Vec F S1x32x32x32x64 .bf16) (x1 : Vec F S512x64 .f32) : FVec F S32x32x64 .f32 :=
  k2_pay23 (k2_pay6 (View.ld x0 r2B)) (k2_pay8 (View.ld x1 r2W)) (k2_pay9 (View.ld x1 r2W)) (k2_pay10 (View.ld x1 r2W)) (k2_pay11 (View.ld x1 r2W))
    (k2_pay12 (View.ld x1 r2W)) (k2_pay13 (View.ld x1 r2W)) (k2_pay14 (View.ld x1 r2W)) (k2_pay15 (View.ld x1 r2W))
    (k2_pay16 (View.ld x0 r2B)) (k2_pay17 (View.ld x0 r2B)) (k2_pay18 (View.ld x0 r2B)) (k2_pay19 (View.ld x0 r2B)) (k2_pay20 (View.ld x0 r2B)) (k2_pay21 (View.ld x0 r2B))

/-- The result window's buffer after the body: the convolution rounded to bf16, one whole-block store. -/
def out2_2 (x0 : Vec F S1x32x32x32x64 .bf16) (x1 : Vec F S512x64 .f32) : Vec F S1x32x32x32x64 .bf16 :=
  View.canon [⟨r2B, k2_pay3 (conv2 x0 x1)⟩]

/-- The running per-channel sum after this point, from its value `p` before it. -/
def sum2 (x0 : Vec F S1x32x32x32x64 .bf16) (x1 : Vec F S512x64 .f32) (p : Vec F S1x64 .f32) : Vec F S1x64 .f32 :=
  View.canon [⟨r2S, k2_pay1 (convRows2 x0 x1) p⟩]

/-- The running per-channel sum of squares after this point, from its value `p` before it. -/
def sumsq2 (x0 : Vec F S1x32x32x32x64 .bf16) (x1 : Vec F S512x64 .f32) (p : Vec F S1x64 .f32) : Vec F S1x64 .f32 :=
  View.canon [⟨r2S, k2_pay2 (conv2 x0 x1) p⟩]

/-! ## Covers: every store of the body is of a whole buffer -/

theorem cover2B (p0 : r2B.shape.Idx → Elt F .bf16) (y : S1x32x32x32x64.Idx) :
    ∃ pc ∈ ([⟨r2B, p0⟩] : List (View.Piece (Elt F) S1x32x32x32x64 .bf16)), y ∈ pc.1.set :=
  View.cover_of_tiled [⟨r2B, p0⟩] S1x32x32x32x64.size (by rfl) y

theorem cover2S (p0 : r2S.shape.Idx → Elt F .f32) (y : S1x64.Idx) :
    ∃ pc ∈ ([⟨r2S, p0⟩] : List (View.Piece (Elt F) S1x64 .f32)), y ∈ pc.1.set :=
  View.cover_of_tiled [⟨r2S, p0⟩] S1x64.size (by rfl) y

/-- After a whole-buffer store on top of any earlier stores, the buffer reads as that store alone. -/
theorem read_writes_top2 {sp : Space} (v : View sig .tc sp S1x64 .f32) (f : v.ty.Contents (Elt F)) (w : r2S.shape.Idx → Elt F .f32)
    (L : List (View.Piece (Elt F) S1x64 .f32)) : v.read (Elt F) (v.writes (Elt F) f (⟨r2S, w⟩ :: L)) = View.canon [⟨r2S, w⟩] :=
  View.read_writes_eq_canon v (v.writes (Elt F) f L) [⟨r2S, w⟩] (cover2S w)

theorem canon_r2S_congr {w w' : r2S.shape.Idx → Elt F .f32} (h : w = w') :
    View.canon ([⟨r2S, w⟩] : List (View.Piece (Elt F) S1x64 .f32)) = View.canon [⟨r2S, w'⟩] := by rw [h]

/-! ## The body's triple, at the first point (the accumulators are zeroed first) -/

set_option maxHeartbeats 4000000 in
/-- The body at the first point (the conditional taken): the two accumulators, found at anything, are zeroed and
    then receive the point's per-channel sum and sum of squares; the two small result buffers receive copies of them;
    the big result buffer receives the rounded convolution. The inputs' buffers are left as found. -/
theorem sound_kernel2_A (c : Dev nD) (E : Set ℕ) (i : grid2.Coords) (hc : cond2 i)
    (arg0 : Memref sig .tc .vmem S1x32x32x32x64 .bf16) (harg0 : arg0.IsWhole) (arg1 : Memref sig .tc .vmem S512x64 .f32) (harg1 : arg1.IsWhole)
    (arg2 : Memref sig .tc .vmem S1x32x32x32x64 .bf16) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole)
    (x0 : Vec F S1x32x32x32x64 .bf16) (x1 : Vec F S512x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (out2_2 x0 x1)
            ∗ owns (c : Thread nD τ) arg3 fullShare (sum2 x0 x1 k2_pay4) ∗ owns (c : Thread nD τ) arg4 fullShare (sumsq2 x0 x1 k2_pay5)
            ∗ owns (c : Thread nD τ) arg5 fullShare (sum2 x0 x1 k2_pay4) ∗ owns (c : Thread nD τ) arg6 fullShare (sumsq2 x0 x1 k2_pay5)) -∗ K ⟨⟩))
      ⊢ wp frame (wpE (defs₀ (F := F)) Variants.none c none) E (cc2__conv2_kernel i arg0 harg0 arg1 harg1 arg2 harg2 arg3 harg3 arg4 harg4 arg5 harg5 arg6 harg6) K := by
  simp only [cc2__conv2_kernel_eq_skeleton]; unfold cc2__conv2_kernel_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2B _)
  isplitl [H3]
  · iexists _; isplitr
    swap; · iexact H3
    ipureintro
    exact (View.read_writes_eq_canon _ _ _ (cover2S _)).trans (canon_r2S_congr ((View.readCov_cons_toLoadRect arg5.view r2S _ _).trans (congrArg (k2_pay1 _) (View.readCov_cons_toLoadRect arg5.view r2S _ _))))
  isplitl [H4]
  · iexists _; isplitr
    swap; · iexact H4
    ipureintro
    exact (View.read_writes_eq_canon _ _ _ (cover2S _)).trans (canon_r2S_congr ((View.readCov_cons_toLoadRect arg6.view r2S _ _).trans (congrArg (k2_pay2 _) (View.readCov_cons_toLoadRect arg6.view r2S _ _))))
  isplitl [H5]
  · iexists _; isplitr
    swap; · iexact H5
    ipureintro
    exact (read_writes_top2 _ _ _ _).trans (canon_r2S_congr (congrArg (k2_pay1 _) (View.readCov_cons_toLoadRect arg5.view r2S _ _)))
  iexists _; isplitr
  swap; · iexact H6
  ipureintro
  exact (read_writes_top2 _ _ _ _).trans (canon_r2S_congr (congrArg (k2_pay2 _) (View.readCov_cons_toLoadRect arg6.view r2S _ _)))

/-! ## The body's triple, at a later point (the accumulators carry what the points before left) -/

set_option maxHeartbeats 4000000 in
/-- The body at a later point (the conditional not taken): the accumulators, found at `p5` and `p6`, receive the
    point's per-channel sum and sum of squares on top; the small result buffers receive copies. -/
theorem sound_kernel2_B (c : Dev nD) (E : Set ℕ) (i : grid2.Coords) (hc : ¬cond2 i)
    (arg0 : Memref sig .tc .vmem S1x32x32x32x64 .bf16) (harg0 : arg0.IsWhole) (arg1 : Memref sig .tc .vmem S512x64 .f32) (harg1 : arg1.IsWhole)
    (arg2 : Memref sig .tc .vmem S1x32x32x32x64 .bf16) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole)
    (x0 : Vec F S1x32x32x32x64 .bf16) (x1 : Vec F S512x64 .f32) (p5 p6 : Vec F S1x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ owns (c : Thread nD τ) arg5 fullShare p5 ∗ owns (c : Thread nD τ) arg6 fullShare p6
        ∗ (iprop(owns (c : Thread nD τ) arg0 fullShare x0 ∗ owns (c : Thread nD τ) arg1 fullShare x1 ∗ owns (c : Thread nD τ) arg2 fullShare (out2_2 x0 x1)
            ∗ owns (c : Thread nD τ) arg3 fullShare (sum2 x0 x1 (View.ld p5 r2S)) ∗ owns (c : Thread nD τ) arg4 fullShare (sumsq2 x0 x1 (View.ld p6 r2S))
            ∗ owns (c : Thread nD τ) arg5 fullShare (sum2 x0 x1 (View.ld p5 r2S)) ∗ owns (c : Thread nD τ) arg6 fullShare (sumsq2 x0 x1 (View.ld p6 r2S))) -∗ K ⟨⟩))
      ⊢ wp frame (wpE (defs₀ (F := F)) Variants.none c none) E (cc2__conv2_kernel i arg0 harg0 arg1 harg1 arg2 harg2 arg3 harg3 arg4 harg4 arg5 harg5 arg6 harg6) K := by
  simp only [cc2__conv2_kernel_eq_skeleton]; unfold cc2__conv2_kernel_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2B _)
  isplitl [H3]
  · iexists _; isplitr
    swap; · iexact H3
    ipureintro
    exact (View.read_writes_eq_canon _ _ _ (cover2S _)).trans (canon_r2S_congr (View.readCov_cons_toLoadRect arg5.view r2S _ _))
  isplitl [H4]
  · iexists _; isplitr
    swap; · iexact H4
    ipureintro
    exact (View.read_writes_eq_canon _ _ _ (cover2S _)).trans (canon_r2S_congr (View.readCov_cons_toLoadRect arg6.view r2S _ _))
  isplitl [H5]
  · iexists _; isplitr
    swap; · iexact H5
    ipureintro
    exact View.read_writes_eq_canon _ _ _ (cover2S _)
  iexists _; isplitr
  swap; · iexact H6
  ipureintro
  exact View.read_writes_eq_canon _ _ _ (cover2S _)

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the block was copied in at that point
    or earlier (a block is copied in again only when its index moves), for any proof data over `V`'s arrays whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the block was copied in at that point
    or earlier (a block is copied in again only when its index moves), for any proof data over `V`'s arrays whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulators, point by point -/

/-- The per-channel sum accumulated through position `n` of the grid: at the first point the zero fill plus the
    point's sum, at a later point what the point before left plus the point's. -/
def accS2 (c : Dev nD) : (n : ℕ) → n < cfg2.N → Vec F S1x64 .f32
  | 0, hn => sum2 (iblk2 V c 0 ⟨0, hn⟩) (iblk2 V c 1 ⟨0, hn⟩) (k2_pay4 (F := F))
  | n + 1, hn => sum2 (iblk2 V c 0 ⟨n + 1, hn⟩) (iblk2 V c 1 ⟨n + 1, hn⟩) (View.ld (accS2 c n (Nat.lt_of_succ_lt hn)) r2S)

/-- The per-channel sum of squares accumulated through position `n`, likewise. -/
def accQ2 (c : Dev nD) : (n : ℕ) → n < cfg2.N → Vec F S1x64 .f32
  | 0, hn => sumsq2 (iblk2 V c 0 ⟨0, hn⟩) (iblk2 V c 1 ⟨0, hn⟩) (k2_pay5 (F := F))
  | n + 1, hn => sumsq2 (iblk2 V c 0 ⟨n + 1, hn⟩) (iblk2 V c 1 ⟨n + 1, hn⟩) (View.ld (accQ2 c n (Nat.lt_of_succ_lt hn)) r2S)

/-- The big result's buffer after the body at point `t`. -/
def out2_2_at (c : Dev nD) (t : Fin cfg2.N) : Vec F S1x32x32x32x64 .bf16 := out2_2 (iblk2 V c 0 t) (iblk2 V c 1 t)

/-! ## The invariant: the generator register, the two scratch accumulators, the other scoped buffers -/

/-- The two scratch accumulators before point `t`: at anything before the first point, at the statistics accumulated
    over the points before `t` afterwards. -/
def scr2 (c : Dev nD) : Fin (cfg2.N + 1) → sProp 𝕄
  | ⟨0, _⟩ => iprop((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f))
  | ⟨n + 1, h⟩ => iprop(owns (c : Thread nD τ) (Memref.whole cc2_scratch0) fullShare (accS2 V c n (Nat.lt_of_succ_lt_succ h))
        ∗ owns (c : Thread nD τ) (Memref.whole cc2_scratch1) fullShare (accQ2 V c n (Nat.lt_of_succ_lt_succ h)))

/-- The region's invariant before point `t`. -/
def Φ2 (c : Dev nD) (t : Fin (cfg2.N + 1)) : sProp 𝕄 :=
  iprop((∃ r, prngReg c r) ∗ scr2 V c t
    ∗ Pipeline.scopedRestBut (Ix := Unit) (Name := ℕ) (U := UR sig nD τ) (Lvl := ℕ) (Val := Elt F) spec2 c [cc2_scratch0, cc2_scratch1])

/-! ## The pipeline's proof data -/

/-- The proof data of this pipeline on core `c`: the arrays as the region finds them; after the body at point `t`
    each input's buffer at its block, the big result's at the point's rounded convolution, the two small results' at the
    accumulators through `t`; the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2_at V c t
    | ⟨3, _⟩ => accS2 V c t.val t.isLt
    | ⟨4, _⟩ => accQ2 V c t.val t.isLt
  Φ t := Φ2 V c t
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2_at V c t := by dsimp only [dat2]
theorem after2_3 (c : Dev nD) (t : Fin cfg2.N) : (dat2 V c).after 3 t = accS2 V c t.val t.isLt := by dsimp only [dat2]
theorem after2_4 (c : Dev nD) (t : Fin cfg2.N) : (dat2 V c).after 4 t = accQ2 V c t.val t.isLt := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The invariant before the first point, opened. -/
theorem Φ2_zero (c : Dev nD) (h : 0 < cfg2.N + 1) : Φ2 V c ⟨0, h⟩ =
    iprop((∃ r, prngReg c r)
      ∗ iprop((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f))
      ∗ Pipeline.scopedRestBut (Ix := Unit) (Name := ℕ) (U := UR sig nD τ) (Lvl := ℕ) (Val := Elt F) spec2 c [cc2_scratch0, cc2_scratch1]) := rfl

/-- The invariant after `n + 1` points, opened. -/
theorem Φ2_succ (c : Dev nD) (n : ℕ) (h : n + 1 < cfg2.N + 1) : Φ2 V c ⟨n + 1, h⟩ =
    iprop((∃ r, prngReg c r)
      ∗ iprop(owns (c : Thread nD τ) (Memref.whole cc2_scratch0) fullShare (accS2 V c n (Nat.lt_of_succ_lt_succ h))
        ∗ owns (c : Thread nD τ) (Memref.whole cc2_scratch1) fullShare (accQ2 V c n (Nat.lt_of_succ_lt_succ h)))
      ∗ Pipeline.scopedRestBut (Ix := Unit) (Name := ℕ) (U := UR sig nD τ) (Lvl := ℕ) (Val := Elt F) spec2 c [cc2_scratch0, cc2_scratch1]) := rfl

set_option maxHeartbeats 1600000 in
/-- The body at any point: the inputs' buffers hold their blocks; at the first point the conditional is taken and the
    accumulators may hold anything, at a later point it is not and they hold what the point before left (the
    invariant); either way they end at the statistics accumulated through this point, which is the invariant at the
    next point, and the small results' buffers hold copies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    after2_0, after2_1, after2_2, after2_3, after2_4,
    show (dat2 V c).Φ t.castSucc = Φ2 V c t.castSucc from rfl, show (dat2 V c).Φ t.succ = Φ2 V c t.succ from rfl]
  have hN : t.val < 16 := lt_of_lt_of_eq t.isLt (show cfg2.N = 16 from N_2)
  obtain ⟨n, hn⟩ := t
  cases n with
  | zero =>
    rw [show (⟨0, hn⟩ : Fin cfg2.N).castSucc = ⟨0, Nat.succ_pos _⟩ from rfl, Φ2_zero,
      show (⟨0, hn⟩ : Fin cfg2.N).succ = ⟨0 + 1, Nat.succ_lt_succ hn⟩ from rfl, Φ2_succ]
    iintro ⟨⟨Hr, ⟨⟨%g5, H5⟩, ⟨%g6, H6⟩⟩, Hrest⟩, Ho, ⟨%d0, H0⟩, ⟨%d1, H1⟩, ⟨%d2, H2⟩, ⟨%d3, H3⟩, ⟨%d4, H4⟩⟩
    iapply (sound_kernel2_A c Set.univ (grid2.coords ⟨0, hn⟩) ((hcond2 ⟨0, hn⟩).mpr rfl) _ _ _ _ _ _ _ _ _ _ _ _ _ _
      (iblk2 V c 0 ⟨0, hn⟩) (iblk2 V c 1 ⟨0, hn⟩) _)
    isplitl [H0]; · iexact H0
    isplitl [H1]; · iexact H1
    isplitl [H2]; · iexists _; iexact H2
    isplitl [H3]; · iexists _; iexact H3
    isplitl [H4]; · iexists _; iexact H4
    isplitl [H5]; · iexists g5; rw [owns_whole]; iexact H5
    isplitl [H6]; · iexists g6; rw [owns_whole]; iexact H6
    iintro ⟨H0, H1, H2, H3, H4, H5, H6⟩
    isplitl [Hr H5 H6 Hrest]
    · isplitl [Hr]; · iexact Hr
      isplitr [Hrest]
      · isplitl [H5]; · iexact H5
        iexact H6
      iexact Hrest
    isplitl [Ho]; · iexact Ho
    isplitl [H0]; · iexact H0
    isplitl [H1]; · iexact H1
    isplitl [H2]; · iexact H2
    isplitl [H3]; · iexact H3
    iexact H4
  | succ n =>
    rw [show (⟨n + 1, hn⟩ : Fin cfg2.N).castSucc = ⟨n + 1, Nat.lt_succ_of_lt hn⟩ from rfl, Φ2_succ,
      show (⟨n + 1, hn⟩ : Fin cfg2.N).succ = ⟨(n + 1) + 1, Nat.succ_lt_succ hn⟩ from rfl, Φ2_succ]
    iintro ⟨⟨Hr, ⟨H5, H6⟩, Hrest⟩, Ho, ⟨%d0, H0⟩, ⟨%d1, H1⟩, ⟨%d2, H2⟩, ⟨%d3, H3⟩, ⟨%d4, H4⟩⟩
    iapply (sound_kernel2_B c Set.univ (grid2.coords ⟨n + 1, hn⟩)
      (fun h => absurd ((hcond2 ⟨n + 1, hn⟩).mp h) (by dsimp only at hN ⊢; omega)) _ _ _ _ _ _ _ _ _ _ _ _ _ _
      (iblk2 V c 0 ⟨n + 1, hn⟩) (iblk2 V c 1 ⟨n + 1, hn⟩) _ _ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [H6]; · iexact H6
    iintro ⟨H0, H1, H2, H3, H4, H5, H6⟩
    isplitl [Hr H5 H6 Hrest]
    · isplitl [Hr]; · iexact Hr
      isplitr [Hrest]
      · isplitl [H5]; · iexact H5
        iexact H6
      iexact Hrest
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What the assembly takes of the proof data -/

theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem Φ_eq2 (c : Dev nD) (t : Fin (cfg2.N + 1)) : (dat2 V c).Φ t = Φ2 V c t := rfl

/-- The invariant before the first point, from the generator register and the scoped buffers no window stages: the
    two scratch accumulators are among those, at anything. -/
theorem Φ_in2 (c : Dev nD) :
    iprop((∃ r, prngReg c r) ∗ Pipeline.prefHeld (pcfgs (F := F) 2).pre c (fun _ => fullShare) ((cfgs 2).toPCfg_adm).1
        ∗ Pipeline.scopedRest (Ix := Unit) (Name := ℕ) (U := UR sig nD τ) (Lvl := ℕ) (Val := Elt F) spec2 c)
      ⊢ (dat2 V c).Φ 0 := by
  rw [Φ_eq2, show (0 : Fin (cfg2.N + 1)) = ⟨0, Nat.succ_pos _⟩ from rfl, Φ2_zero, scopedRest2_split]
  iintro ⟨Hp, -, Hs, Hrest⟩
  isplitl [Hp]; · iexact Hp
  isplitl [Hs]; · iexact Hs
  iexact Hrest

/-- The invariant after the last point gives the generator register and those scoped buffers back. -/
theorem Φ_out2 (c : Dev nD) :
    (dat2 V c).Φ (Fin.last _)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Φ_eq2, Pipeline.ownSems0_none, scopedRest2_split,
    show (Fin.last cfg2.N : Fin (cfg2.N + 1)) = ⟨15 + 1, by rw [show cfg2.N = 16 from N_2]; decide⟩ from Fin.ext (show cfg2.N = 15 + 1 from N_2), Φ2_succ, owns_whole, owns_whole]
  iintro ⟨Hp, ⟨H5, H6⟩, Hrest⟩
  isplitl [Hp]; · iexact Hp
  isplitr; · iempintro
  isplitr [Hrest]
  · isplitl [H5]; · iexists _; iexact H5
    iexists _; iexact H6
  iexact Hrest

end Cert.Kernel.Hand

end
-- ==== Proof.KReg3.lean ====
/- Region 3 of the forward program: the batch-normalisation-and-ReLU pass `cc3__bnrelu_kernel`, an elementwise map
   y = max(x * s + (b - mu * s), 0) with s = rsqrt(var + eps) * g, run over a grid of 16 points, one batch element
   each. Six windows: 0 the activations x (one [1,32,32,32,64] block per point), 1..4 the per-channel vectors g, b,
   mu, var (one [1,64] block, the same at every point), 5 the result, written back to the array window 0 reads.
   Stated at a parameter `V`: the buffer contents found when the region is entered. Every load and store of the
   body is a whole-block rectangle and nothing is carried between points, so what the body leaves in the result's
   buffer is a pure function of the five input blocks at that point. -/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the block was copied in at that point
    or earlier (a block is copied in again only when its index moves), for any proof data over `V`'s arrays whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the block was copied in at that point
    or earlier (a block is copied in again only when its index moves), for any proof data over `V`'s arrays whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the block was copied in at that point
    or earlier (a block is copied in again only when its index moves), for any proof data over `V`'s arrays whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the block was copied in at that point
    or earlier (a block is copied in again only when its index moves), for any proof data over `V`'s arrays whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the block was copied in at that point
    or earlier (a block is copied in again only when its index moves), for any proof data over `V`'s arrays whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole activation block, the whole channel vector -/

abbrev r3_big : Rect S1x32x32x32x64 := Rect.unit (s := S1x32x32x32x64) ![0, 0, 0, 0, 0] S1x32x32x32x64.size inb_S1x32x32x32x64_S1x32x32x32x64_0_0_0_0_0
abbrev r3_vec : Rect S1x64 := Rect.unit (s := S1x64) ![0, 0] S1x64.size inb_S1x64_S1x64_0_0

/-! ## What the body leaves in the result window's buffer -/

/-- Window 5's staging buffer after the body, as a function of the five input blocks: its one store, of the
    normalised, clamped and rounded activations, over the whole block. -/
def out3_5 (x0 : Vec F S1x32x32x32x64 .bf16) (x1 x2 x3 x4 : Vec F S1x64 .f32) : Vec F S1x32x32x32x64 .bf16 :=
  View.canon [⟨r3_big, k3_pay1 (View.ld x0 r3_big) (View.ld x1 r3_vec) (View.ld x2 r3_vec) (View.ld x3 r3_vec) (View.ld x4 r3_vec)⟩]

/-- The one store is of the whole block, so it covers it. -/
theorem cover3_5 (p0 : Vec F S1x32x32x32x64 .bf16) (y : S1x32x32x32x64.Idx) :
    ∃ pc ∈ ([⟨r3_big, p0⟩] : List (View.Piece (Elt F) S1x32x32x32x64 .bf16)), y ∈ pc.1.set :=
  View.cover_of_tiled [⟨r3_big, p0⟩] S1x32x32x32x64.size (by rfl) y

/-! ## The body's triple -/

set_option maxHeartbeats 1000000 in
/-- The body on whole staging buffers, the inputs' at contents `x0 … x4` and the result's at anything, runs to a
    state with the inputs' as they were and the result's at `out3_5` of them. The grid coordinate is not read. -/
theorem sound_kernel3 (c : Dev nD) (E : Set ℕ) (i : grid3.Coords)
    (arg0 : Memref sig .tc .vmem S1x32x32x32x64 .bf16) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x32x32x32x64 .bf16) (harg5 : arg5.IsWhole)
    (x0 : Vec F S1x32x32x32x64 .bf16) (x1 x2 x3 x4 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__bnrelu_kernel i arg0 harg0 arg1 harg1 arg2 harg2 arg3 harg3 arg4 harg4 arg5 harg5) K := by
  simp only [cc3__bnrelu_kernel_eq_skeleton]; unfold cc3__bnrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t`
    each input's buffer at its block and the result's at `out3_5` of the input blocks; as invariant the rest of the
    core's scoped memory and its generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same proposition at every point. -/
theorem Φ_eq3 (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KReg4.lean ====
/- REGION 4 of the forward program, the last convolution (`cc4__conv3to1_kernel`), at a PARAMETER `V`: the
   TensorCore's buffer contents when the region is entered. Three windows: 0 the bf16 activations block of one batch
   element, 1 the whole f32 weight matrix (its block index never moves, so it is fetched at the first point only),
   2 the f32 output block of one batch element, written back at every point. The body reads windows 0 and 1 whole,
   reads the output buffer once (a value it never uses) and stores the output buffer whole; no scratch, nothing carried
   from point to point. So after the body each input buffer holds its block and the output buffer holds ONE pure
   function `out4_2` of the two input blocks. -/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided by a structural recursion once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the point's block at every point, for ANY proof data whose array is `V`'s
    (`hA`) and whose body leaves the block in place (`hafter`): the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the weight matrix at every point, fetched there (the first point) or not (every
    later point: the block index has not moved and the body left the buffer as it found it). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S1x32x32x32x64 := Rect.unit (s := S1x32x32x32x64) ![0, 0, 0, 0, 0] S1x32x32x32x64.size inb_S1x32x32x32x64_S1x32x32x32x64_0_0_0_0_0
abbrev r4_1 : Rect S256x64 := Rect.unit (s := S256x64) ![0, 0] S256x64.size inb_S256x64_S256x64_0_0
abbrev r4_2 : Rect S1x32x64 := Rect.unit (s := S1x32x64) ![0, 0, 0] S1x32x64.size inb_S1x32x64_S1x32x64_0_0_0

/-! ## What the body leaves in the output window's buffer -/

/-- The output buffer after the body, a pure function of the activations block `x0` and the weights `x1`: its one
    store, whole, of the last payload `k4_pay1` applied to the three values the first part returns — the fourth
    64-row slice of the rounded weights (`k4_pay4`), the sum of the three plane-mean products (`k4_pay7`) and the
    global mean row (`k4_pay8`). -/
def out4_2 (x0 : Vec F S1x32x32x32x64 .bf16) (x1 : Vec F S256x64 .f32) : Vec F S1x32x64 .f32 :=
  View.canon [⟨r4_2, k4_pay1 (k4_pay4 (View.ld x1 r4_1)) (k4_pay7 (View.ld x0 r4_0) (View.ld x1 r4_1)) (k4_pay8 (View.ld x0 r4_0))⟩]

/-- The one store is of the whole buffer, so it covers it. -/
theorem cover4_2 (p0 : Vec F S1x32x64 .f32) (y : S1x32x64.Idx) :
    ∃ pc ∈ ([⟨r4_2, p0⟩] : List (View.Piece (Elt F) S1x32x64 .f32)), y ∈ pc.1.set :=
  View.cover_of_tiled [⟨r4_2, p0⟩] S1x32x64.size (by rfl) y

/-! ## The body's triple -/

set_option maxHeartbeats 1000000 in
/-- The kernel body on whole staging memrefs, the two inputs' at read contents `x0`, `x1` and the output's at anything,
    runs to the continuation holding the inputs' as they were and the output's at `out4_2 x0 x1`: the printed function
    and its first part are their skeletons, run operation by operation — two whole loads in the part, then a load of
    the output buffer whose value is dropped, then the one whole store. -/
theorem sound_kernel4 (c : Dev nD) (E : Set ℕ) (i : grid4.Coords)
    (arg1 : Memref sig .tc .vmem S1x32x32x32x64 .bf16) (harg1 : arg1.IsWhole)
    (arg2 : Memref sig .tc .vmem S256x64 .f32) (harg2 : arg2.IsWhole)
    (arg3 : Memref sig .tc .vmem S1x32x64 .f32) (harg3 : arg3.IsWhole)
    (x0 : Vec F S1x32x32x32x64 .bf16) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__conv3to1_kernel i arg1 harg1 arg2 harg2 arg3 harg3) K := by
  unfold owns
  iintro ⟨⟨%f0, %hf0, H0⟩, ⟨%f1, %hf1, H1⟩, ⟨%d2, %f2, -, H2⟩, Hk⟩
  subst hf0 hf1
  sl_unfold [cc4__conv3to1_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them (`V`); after the body at point
    `t` each input's buffer at its block and the output's at `out4_2` of the two input blocks; the invariant is the
    scoped rest and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- The invariant is the class's at every position. -/
theorem Φ_eq4 (c : Dev nD) (t : Fin (cfg4.N + 1)) : (dat4 V c).Φ t = Pipeline.ΦA spec4 c := rfl

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/-
  The run of the whole program, assembled from the five kernel regions' halves.

  Between two items of the program a TensorCore holds every unscoped buffer at a known valuation: the launch memory,
  then, item by item, either the valuation a stretch of host operations leaves, or, for a kernel region, the
  entry valuation with the region's windowed arrays replaced by what the pipeline's write-backs leave in them.
  Each region is entered from the valuation before it and left at the one after it; the generator register and the
  core's (empty) debts ride along.  The run ends with every unscoped buffer at the last valuation, from which the
  frame (no item writes an argument) and the result's contents are read.
-/
import proofs.«145029_j5059471475016_2_alg».proof.Proof.Gen.Kernel.Launch
import proofs.«145029_j5059471475016_2_alg».proof.Proof.Gen.Kernel.Skeleton
import proofs.«145029_j5059471475016_2_alg».proof.Proof.Gen.Kernel.Points
import proofs.«145029_j5059471475016_2_alg».proof.Proof.Gen.Kernel.Regions
import proofs.«145029_j5059471475016_2_alg».proof.Proof.KReg0
import proofs.«145029_j5059471475016_2_alg».proof.Proof.KReg1
import proofs.«145029_j5059471475016_2_alg».proof.Proof.KReg2
import proofs.«145029_j5059471475016_2_alg».proof.Proof.KReg3
import proofs.«145029_j5059471475016_2_alg».proof.Proof.KReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A TensorCore's buffer contents, per core, read at the TensorCore's references. -/
abbrev Ent (F : FTy → Type) [FloatOps F] : Type := (c : Dev nD) → (b : Ref sig .tc) → Buf (Elt F) ((c : Thread nD τ).loc b)

/-- What the assembly needs of region 0, whose kernel carries two scratch accumulators across the grid: the proof data at
    any entry contents; its arrays start at those contents; every share whole, nothing owed; the body obligation; and the
    invariant's first and last instances against the generator register and the scoped buffers no window stages. -/
structure Half0 (F : FTy → Type) [FloatOps F] where
  dat : (V : Ent F) → (c : Dev nD) → Dat τ (Elt F) Unit ℕ (UR sig nD τ) ℕ cfg0 c
  A_eq : ∀ V c (w : Fin cfg0.W), (dat V c).A w = V c (Pipeline.arrRef spec0 w)
  q_full : ∀ V c (w : Fin cfg0.W), (dat V c).q w = fullShare
  owed_zero : ∀ V c t, (dat V c).owed t = 0
  recorded_univ : ∀ V c t, (dat V c).recorded t = Set.univ
  body : ∀ V c, BodyObligation (dat V c) (defs₀ (F := F)) Variants.none () Set.univ
  Φ_in : ∀ V c, (iprop((∃ r, prngReg c r) ∗ Pipeline.prefHeld (pcfgs (F := F) 0).pre c (fun _ => fullShare) ((cfgs 0).toPCfg_adm).1
      ∗ Pipeline.scopedRest spec0 c) : sProp (MT nD τ sig Unit (Elt F) ℕ (UR sig nD τ) ℕ)) ⊢ (dat V c).Φ 0
  Φ_out : ∀ V c, (dat V c).Φ (Fin.last cfg0.N) ⊢ (iprop((∃ r, prngReg c r) ∗ Pipeline.ownSems0 (fun k : PEmpty => k.elim) c
      ∗ Pipeline.scopedRest spec0 c) : sProp (MT nD τ sig Unit (Elt F) ℕ (UR sig nD τ) ℕ))

/-- What the assembly needs of region 2, whose kernel carries two scratch accumulators across the grid: the proof data at
    any entry contents; its arrays start at those contents; every share whole, nothing owed; the body obligation; and the
    invariant's first and last instances against the generator register and the scoped buffers no window stages. -/
structure Half2 (F : FTy → Type) [FloatOps F] where
  dat : (V : Ent F) → (c : Dev nD) → Dat τ (Elt F) Unit ℕ (UR sig nD τ) ℕ cfg2 c
  A_eq : ∀ V c (w : Fin cfg2.W), (dat V c).A w = V c (Pipeline.arrRef spec2 w)
  q_full : ∀ V c (w : Fin cfg2.W), (dat V c).q w = fullShare
  owed_zero : ∀ V c t, (dat V c).owed t = 0
  recorded_univ : ∀ V c t, (dat V c).recorded t = Set.univ
  body : ∀ V c, BodyObligation (dat V c) (defs₀ (F := F)) Variants.none () Set.univ
  Φ_in : ∀ V c, (iprop((∃ r, prngReg c r) ∗ Pipeline.prefHeld (pcfgs (F := F) 2).pre c (fun _ => fullShare) ((cfgs 2).toPCfg_adm).1
      ∗ Pipeline.scopedRest spec2 c) : sProp (MT nD τ sig Unit (Elt F) ℕ (UR sig nD τ) ℕ)) ⊢ (dat V c).Φ 0
  Φ_out : ∀ V c, (dat V c).Φ (Fin.last cfg2.N) ⊢ (iprop((∃ r, prngReg c r) ∗ Pipeline.ownSems0 (fun k : PEmpty => k.elim) c
      ∗ Pipeline.scopedRest spec2 c) : sProp (MT nD τ sig Unit (Elt F) ℕ (UR sig nD τ) ℕ))

/-- The two scratch-carrying regions' halves together. -/
structure Halves (F : FTy → Type) [FloatOps F] where
  h0 : Half0 F
  h2 : Half2 F

variable (P : Halves F)
variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => m (c, b)
/-- The same read at the TensorCore's references. -/
abbrev E0 : Ent F := fun c b => B0 m c (Proc.devRef .tc b)

/-- After region 0: its arrays at what the pipeline's write-backs leave, every other buffer as the region found it. -/
def B1 (c : Dev nD) : Valuation τ sig (Elt F) :=
  Pipeline.withArrays spec0 c (B0 m c) fun w => (P.h0.dat (E0 m) c).arrAt w cfg0.N
theorem B1_arr (c : Dev nD) (w : Fin cfg0.W) :
    B1 P m c (Proc.devRef .tc (Pipeline.arrRef spec0 w)) = (P.h0.dat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 P m c (Proc.devRef .tc b) = B0 m c (Proc.devRef .tc b) := by
  unfold B1; exact Pipeline.withArrays_of_ne spec0 c _ _ b hb
abbrev E1 : Ent F := fun c b => B1 P m c (Proc.devRef .tc b)
theorem hF0 (c : Dev nD) (w : Fin cfg0.W) : (P.h0.dat (E0 m) c).arrAt w cfg0.N = E1 P m c (Pipeline.arrRef spec0 w) :=
  (B1_arr P m c w).symm
theorem hrest0 (c : Dev nD) : ∀ b, b ∉ Finset.univ.image (Pipeline.arrRef spec0) → E1 P m c b = E0 m c b :=
  fun b hb => B1_of_ne P m c b fun w e => hb (Finset.mem_image.mpr ⟨w, Finset.mem_univ _, e⟩)
/-- Region 0 leaves every buffer that is not one of its OUTPUT windows' arrays as it found it: an input window's array is
    read, never written back. -/
theorem B1_keep (c : Dev nD) (b : Ref sig .tc) (hb : ∀ w : Fin cfg0.W, (cfg0.win w).isOut = true → Pipeline.arrRef spec0 w ≠ b) :
    B1 P m c (Proc.devRef .tc b) = B0 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    rw [B1_arr]
    exact ((P.h0.dat (E0 m) c).arrAt_in w hin _).trans (P.h0.A_eq (E0 m) c w)
  · exact B1_of_ne P m c b fun w e => h ⟨w, e⟩

/-- After the host stretch `hostOps1`. -/
abbrev B2 : Dev nD → Valuation τ sig (Elt F) := fun c => StableHlo.after hostOps1 (B1 P m c)
abbrev E2 : Ent F := fun c b => B2 P m c (Proc.devRef .tc b)
theorem B2_keep (c : Dev nD) (r : Ref sig .tc) (h : r ∉ hostOps1_W) :
    B2 P m c (Proc.devRef .tc r) = B1 P m c (Proc.devRef .tc r) :=
  StableHlo.after_of_writes_sub hostOps1 _ hostOps1_writes h

/-- After region 1: its arrays at what the pipeline's write-backs leave, every other buffer as the region found it. -/
def B3 (c : Dev nD) : Valuation τ sig (Elt F) :=
  Pipeline.withArrays spec1 c (B2 P m c) fun w => (dat1 (E2 P m) c).arrAt w cfg1.N
theorem B3_arr (c : Dev nD) (w : Fin cfg1.W) :
    B3 P m c (Proc.devRef .tc (Pipeline.arrRef spec1 w)) = (dat1 (E2 P m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 P m c (Proc.devRef .tc b) = B2 P m c (Proc.devRef .tc b) := by
  unfold B3; exact Pipeline.withArrays_of_ne spec1 c _ _ b hb
abbrev E3 : Ent F := fun c b => B3 P m c (Proc.devRef .tc b)
theorem hF1 (c : Dev nD) (w : Fin cfg1.W) : (dat1 (E2 P m) c).arrAt w cfg1.N = E3 P m c (Pipeline.arrRef spec1 w) :=
  (B3_arr P m c w).symm
theorem hrest1 (c : Dev nD) : ∀ b, b ∉ Finset.univ.image (Pipeline.arrRef spec1) → E3 P m c b = E2 P m c b :=
  fun b hb => B3_of_ne P m c b fun w e => hb (Finset.mem_image.mpr ⟨w, Finset.mem_univ _, e⟩)
/-- Region 1 leaves every buffer that is not one of its OUTPUT windows' arrays as it found it: an input window's array is
    read, never written back. -/
theorem B3_keep (c : Dev nD) (b : Ref sig .tc) (hb : ∀ w : Fin cfg1.W, (cfg1.win w).isOut = true → Pipeline.arrRef spec1 w ≠ b) :
    B3 P m c (Proc.devRef .tc b) = B2 P m c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    rw [B3_arr]
    exact ((dat1 (E2 P m) c).arrAt_in w hin _).trans (A_eq1 (E2 P m) c w)
  · exact B3_of_ne P m c b fun w e => h ⟨w, e⟩

/-- After region 2: its arrays at what the pipeline's write-backs leave, every other buffer as the region found it. -/
def B4 (c : Dev nD) : Valuation τ sig (Elt F) :=
  Pipeline.withArrays spec2 c (B3 P m c) fun w => (P.h2.dat (E3 P m) c).arrAt w cfg2.N
theorem B4_arr (c : Dev nD) (w : Fin cfg2.W) :
    B4 P m c (Proc.devRef .tc (Pipeline.arrRef spec2 w)) = (P.h2.dat (E3 P m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 P m c (Proc.devRef .tc b) = B3 P m c (Proc.devRef .tc b) := by
  unfold B4; exact Pipeline.withArrays_of_ne spec2 c _ _ b hb
abbrev E4 : Ent F := fun c b => B4 P m c (Proc.devRef .tc b)
theorem hF2 (c : Dev nD) (w : Fin cfg2.W) : (P.h2.dat (E3 P m) c).arrAt w cfg2.N = E4 P m c (Pipeline.arrRef spec2 w) :=
  (B4_arr P m c w).symm
theorem hrest2 (c : Dev nD) : ∀ b, b ∉ Finset.univ.image (Pipeline.arrRef spec2) → E4 P m c b = E3 P m c b :=
  fun b hb => B4_of_ne P m c b fun w e => hb (Finset.mem_image.mpr ⟨w, Finset.mem_univ _, e⟩)
/-- Region 2 leaves every buffer that is not one of its OUTPUT windows' arrays as it found it: an input window's array is
    read, never written back. -/
theorem B4_keep (c : Dev nD) (b : Ref sig .tc) (hb : ∀ w : Fin cfg2.W, (cfg2.win w).isOut = true → Pipeline.arrRef spec2 w ≠ b) :
    B4 P m c (Proc.devRef .tc b) = B3 P m c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    rw [B4_arr]
    exact ((P.h2.dat (E3 P m) c).arrAt_in w hin _).trans (P.h2.A_eq (E3 P m) c w)
  · exact B4_of_ne P m c b fun w e => h ⟨w, e⟩

/-- After the host stretch `hostOps3`. -/
abbrev B5 : Dev nD → Valuation τ sig (Elt F) := fun c => StableHlo.after hostOps3 (B4 P m c)
abbrev E5 : Ent F := fun c b => B5 P m c (Proc.devRef .tc b)
theorem B5_keep (c : Dev nD) (r : Ref sig .tc) (h : r ∉ hostOps3_W) :
    B5 P m c (Proc.devRef .tc r) = B4 P m c (Proc.devRef .tc r) :=
  StableHlo.after_of_writes_sub hostOps3 _ hostOps3_writes h

/-- After region 3: its arrays at what the pipeline's write-backs leave, every other buffer as the region found it. -/
def B6 (c : Dev nD) : Valuation τ sig (Elt F) :=
  Pipeline.withArrays spec3 c (B5 P m c) fun w => (dat3 (E5 P m) c).arrAt w cfg3.N
theorem B6_arr (c : Dev nD) (w : Fin cfg3.W) :
    B6 P m c (Proc.devRef .tc (Pipeline.arrRef spec3 w)) = (dat3 (E5 P m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 P m c (Proc.devRef .tc b) = B5 P m c (Proc.devRef .tc b) := by
  unfold B6; exact Pipeline.withArrays_of_ne spec3 c _ _ b hb
abbrev E6 : Ent F := fun c b => B6 P m c (Proc.devRef .tc b)
theorem hF3 (c : Dev nD) (w : Fin cfg3.W) : (dat3 (E5 P m) c).arrAt w cfg3.N = E6 P m c (Pipeline.arrRef spec3 w) :=
  (B6_arr P m c w).symm
theorem hrest3 (c : Dev nD) : ∀ b, b ∉ Finset.univ.image (Pipeline.arrRef spec3) → E6 P m c b = E5 P m c b :=
  fun b hb => B6_of_ne P m c b fun w e => hb (Finset.mem_image.mpr ⟨w, Finset.mem_univ _, e⟩)
/-- Region 3 leaves every buffer that is not one of its OUTPUT windows' arrays as it found it: an input window's array is
    read, never written back. -/
theorem B6_keep (c : Dev nD) (b : Ref sig .tc) (hb : ∀ w : Fin cfg3.W, (cfg3.win w).isOut = true → Pipeline.arrRef spec3 w ≠ b) :
    B6 P m c (Proc.devRef .tc b) = B5 P m c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    rw [B6_arr]
    exact ((dat3 (E5 P m) c).arrAt_in w hin _).trans (A_eq3 (E5 P m) c w)
  · exact B6_of_ne P m c b fun w e => h ⟨w, e⟩

/-- After region 4: its arrays at what the pipeline's write-backs leave, every other buffer as the region found it. -/
def B7 (c : Dev nD) : Valuation τ sig (Elt F) :=
  Pipeline.withArrays spec4 c (B6 P m c) fun w => (dat4 (E6 P m) c).arrAt w cfg4.N
theorem B7_arr (c : Dev nD) (w : Fin cfg4.W) :
    B7 P m c (Proc.devRef .tc (Pipeline.arrRef spec4 w)) = (dat4 (E6 P m) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 P m c (Proc.devRef .tc b) = B6 P m c (Proc.devRef .tc b) := by
  unfold B7; exact Pipeline.withArrays_of_ne spec4 c _ _ b hb
abbrev E7 : Ent F := fun c b => B7 P m c (Proc.devRef .tc b)
theorem hF4 (c : Dev nD) (w : Fin cfg4.W) : (dat4 (E6 P m) c).arrAt w cfg4.N = E7 P m c (Pipeline.arrRef spec4 w) :=
  (B7_arr P m c w).symm
theorem hrest4 (c : Dev nD) : ∀ b, b ∉ Finset.univ.image (Pipeline.arrRef spec4) → E7 P m c b = E6 P m c b :=
  fun b hb => B7_of_ne P m c b fun w e => hb (Finset.mem_image.mpr ⟨w, Finset.mem_univ _, e⟩)
/-- Region 4 leaves every buffer that is not one of its OUTPUT windows' arrays as it found it: an input window's array is
    read, never written back. -/
theorem B7_keep (c : Dev nD) (b : Ref sig .tc) (hb : ∀ w : Fin cfg4.W, (cfg4.win w).isOut = true → Pipeline.arrRef spec4 w ≠ b) :
    B7 P m c (Proc.devRef .tc b) = B6 P m c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    rw [B7_arr]
    exact ((dat4 (E6 P m) c).arrAt_in w hin _).trans (A_eq4 (E6 P m) c w)
  · exact B7_of_ne P m c b fun w e => h ⟨w, e⟩

/-- After the host stretch `hostOps5`. -/
abbrev B8 : Dev nD → Valuation τ sig (Elt F) := fun c => StableHlo.after hostOps5 (B7 P m c)
abbrev E8 : Ent F := fun c b => B8 P m c (Proc.devRef .tc b)
theorem B8_keep (c : Dev nD) (r : Ref sig .tc) (h : r ∉ hostOps5_W) :
    B8 P m c (Proc.devRef .tc r) = B7 P m c (Proc.devRef .tc r) :=
  StableHlo.after_of_writes_sub hostOps5 _ hostOps5_writes h

/-- After the host stretch `hostOps5_1`. -/
abbrev B9 : Dev nD → Valuation τ sig (Elt F) := fun c => StableHlo.after hostOps5_1 (B8 P m c)
abbrev E9 : Ent F := fun c b => B9 P m c (Proc.devRef .tc b)
theorem B9_keep (c : Dev nD) (r : Ref sig .tc) (h : r ∉ hostOps5_1_W) :
    B9 P m c (Proc.devRef .tc r) = B8 P m c (Proc.devRef .tc r) :=
  StableHlo.after_of_writes_sub hostOps5_1 _ hostOps5_1_writes h

/-- After the host stretch `hostOps5_2`. -/
abbrev B10 : Dev nD → Valuation τ sig (Elt F) := fun c => StableHlo.after hostOps5_2 (B9 P m c)
abbrev E10 : Ent F := fun c b => B10 P m c (Proc.devRef .tc b)
theorem B10_keep (c : Dev nD) (r : Ref sig .tc) (h : r ∉ hostOps5_2_W) :
    B10 P m c (Proc.devRef .tc r) = B9 P m c (Proc.devRef .tc r) :=
  StableHlo.after_of_writes_sub hostOps5_2 _ hostOps5_2_writes h

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal match, so that the pinned configuration
    at a numeral reduces to the printed one. -/
def pdats : (p : Fin 5) → (c : Dev nD) → Dat τ (Elt F) Unit ℕ (UR sig nD τ) ℕ (Pipeline.pin (pcfgs (F := F)) adm p) c
  | ⟨0, _⟩ => fun c => P.h0.dat (E0 m) c
  | ⟨1, _⟩ => fun c => dat1 (E2 P m) c
  | ⟨2, _⟩ => fun c => P.h2.dat (E3 P m) c
  | ⟨3, _⟩ => fun c => dat3 (E5 P m) c
  | ⟨4, _⟩ => fun c => dat4 (E6 P m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- REGION 0 over the thread state: entered from every unscoped buffer at `B0`, left at `B1`. Its arrays are split
    out of the unscoped buffers and put back at what the pipeline leaves in them; the generator register goes into the
    region's invariant and comes back; nothing is owed; the kernel has no semaphore of its own. -/
def reg0 : Pipeline.RegionSeg (pcfgs (F := F)) adm (pdats P m) () defs₀ 𝒱₀ L lv 0 where
  win := launch0.win.to₀
  block_pos := launch0.block_pos
  stage_whole := launch0.stage_whole
  K := PEmpty
  osem k := k.elim
  ho := Pipeline.OwnSemFacts.none _
  hbody c := (P.h0.body (E0 m) c).loose
  hwaits := Pipeline.hwaits_of_owed_zero _ _ _ _ L lv 0 (fun c t => P.h0.owed_zero _ c t)
  pre c := iprop(StableHlo.held (c : Thread nD τ) (Pipeline.ucRefs τ sig) (B0 m c) ∗ R c)
  post c := iprop(StableHlo.held (c : Thread nD τ) (Pipeline.ucRefs τ sig) (B1 P m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats P m) launch0.win launch0.arr_whole c
      ((pdats P m 0 c).share_full fun w => P.h0.q_full _ c w) (E0 m c) fun _ => (P.h0.A_eq _ c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P m 0 c).owed 0 = 0 from P.h0.owed_zero (E0 m) c 0]
      icases HO with ⟨%W, HO⟩; iexists W; isplitr
      · ipureintro; exact fun _ _ => Or.inl (by rw [show (pdats P m 0 c).recorded 0 = Set.univ from P.h0.recorded_univ (E0 m) c 0]; exact Set.mem_univ _)
      iexact HO
    isplitl [Hp]; · iexact Hp
    iexact Hrest
  hin c := P.h0.Φ_in (E0 m) c
  hout c := P.h0.Φ_out (E0 m) c
  hexit c := by
    have hjoin := Pipeline.unscopedBufs_of_arrays (p := 0) (pcfgs (F := F)) adm (Ix := Unit) (Name := ℕ) (U := UR sig nD τ) (Lvl := ℕ)
      launch0.win launch0.arr_whole c (pdats P m) ((pdats P m 0 c).share_full fun w => P.h0.q_full _ c w)
      (E0 m c) (E1 P m c) ((pdats P m 0 c).arrAt · cfg0.N) (hF0 P m c) (hrest0 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P m 0 c).owed (Fin.last (Pipeline.pin (pcfgs (F := F)) adm 0).N) = 0 from P.h0.owed_zero (E0 m) c _]
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `B2`, left at `B3`. Its arrays are split
    out of the unscoped buffers and put back at what the pipeline leaves in them; the generator register goes into the
    region's invariant and comes back; nothing is owed; the kernel has no semaphore of its own. -/
def reg1 : Pipeline.RegionSeg (pcfgs (F := F)) adm (pdats P m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 P m) c).loose
  hwaits := Pipeline.hwaits_of_owed_zero _ _ _ _ L lv 1 (fun _ _ => rfl)
  pre c := iprop(StableHlo.held (c : Thread nD τ) (Pipeline.ucRefs τ sig) (B2 P m c) ∗ R c)
  post c := iprop(StableHlo.held (c : Thread nD τ) (Pipeline.ucRefs τ sig) (B3 P m c) ∗ R c)
  X c := iprop(∃ r, prngReg c r)
  Y c := iprop(∃ r, prngReg c r)
  Z c := Pipeline.unscopedRest (Ix := Unit) (Name := ℕ) (U := UR sig nD τ) (Lvl := ℕ) spec1 c (E2 P m c)
  hentry c := by
    rw [Pipeline.ownSems0_none]
    have hsplit := Pipeline.arrays_of_unscopedBufs (p := 1) (pcfgs (F := F)) adm (pdats P m) launch1.win launch1.arr_whole c
      ((pdats P m 1 c).share_full fun _ => rfl) (E2 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats P m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P m) ((pdats P m 1 c).share_full fun _ => rfl)
      (E2 P m c) (E3 P m c) ((pdats P m 1 c).arrAt · cfg1.N) (hF1 P m c) (hrest1 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `B3`, left at `B4`. Its arrays are split
    out of the unscoped buffers and put back at what the pipeline leaves in them; the generator register goes into the
    region's invariant and comes back; nothing is owed; the kernel has no semaphore of its own. -/
def reg2 : Pipeline.RegionSeg (pcfgs (F := F)) adm (pdats P m) () defs₀ 𝒱₀ L lv 2 where
  win := launch2.win.to₀
  block_pos := launch2.block_pos
  stage_whole := launch2.stage_whole
  K := PEmpty
  osem k := k.elim
  ho := Pipeline.OwnSemFacts.none _
  hbody c := (P.h2.body (E3 P m) c).loose
  hwaits := Pipeline.hwaits_of_owed_zero _ _ _ _ L lv 2 (fun c t => P.h2.owed_zero _ c t)
  pre c := iprop(StableHlo.held (c : Thread nD τ) (Pipeline.ucRefs τ sig) (B3 P m c) ∗ R c)
  post c := iprop(StableHlo.held (c : Thread nD τ) (Pipeline.ucRefs τ sig) (B4 P m c) ∗ R c)
  X c := iprop(∃ r, prngReg c r)
  Y c := iprop(∃ r, prngReg c r)
  Z c := Pipeline.unscopedRest (Ix := Unit) (Name := ℕ) (U := UR sig nD τ) (Lvl := ℕ) spec2 c (E3 P m c)
  hentry c := by
    rw [Pipeline.ownSems0_none]
    have hsplit := Pipeline.arrays_of_unscopedBufs (p := 2) (pcfgs (F := F)) adm (pdats P m) launch2.win launch2.arr_whole c
      ((pdats P m 2 c).share_full fun w => P.h2.q_full _ c w) (E3 P m c) fun _ => (P.h2.A_eq _ c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P m 2 c).owed 0 = 0 from P.h2.owed_zero (E3 P m) c 0]
      icases HO with ⟨%W, HO⟩; iexists W; isplitr
      · ipureintro; exact fun _ _ => Or.inl (by rw [show (pdats P m 2 c).recorded 0 = Set.univ from P.h2.recorded_univ (E3 P m) c 0]; exact Set.mem_univ _)
      iexact HO
    isplitl [Hp]; · iexact Hp
    iexact Hrest
  hin c := P.h2.Φ_in (E3 P m) c
  hout c := P.h2.Φ_out (E3 P m) c
  hexit c := by
    have hjoin := Pipeline.unscopedBufs_of_arrays (p := 2) (pcfgs (F := F)) adm (Ix := Unit) (Name := ℕ) (U := UR sig nD τ) (Lvl := ℕ)
      launch2.win launch2.arr_whole c (pdats P m) ((pdats P m 2 c).share_full fun w => P.h2.q_full _ c w)
      (E3 P m c) (E4 P m c) ((pdats P m 2 c).arrAt · cfg2.N) (hF2 P m c) (hrest2 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P m 2 c).owed (Fin.last (Pipeline.pin (pcfgs (F := F)) adm 2).N) = 0 from P.h2.owed_zero (E3 P m) c _]
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `B5`, left at `B6`. Its arrays are split
    out of the unscoped buffers and put back at what the pipeline leaves in them; the generator register goes into the
    region's invariant and comes back; nothing is owed; the kernel has no semaphore of its own. -/
def reg3 : Pipeline.RegionSeg (pcfgs (F := F)) adm (pdats P m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 P m) c).loose
  hwaits := Pipeline.hwaits_of_owed_zero _ _ _ _ L lv 3 (fun _ _ => rfl)
  pre c := iprop(StableHlo.held (c : Thread nD τ) (Pipeline.ucRefs τ sig) (B5 P m c) ∗ R c)
  post c := iprop(StableHlo.held (c : Thread nD τ) (Pipeline.ucRefs τ sig) (B6 P m c) ∗ R c)
  X c := iprop(∃ r, prngReg c r)
  Y c := iprop(∃ r, prngReg c r)
  Z c := Pipeline.unscopedRest (Ix := Unit) (Name := ℕ) (U := UR sig nD τ) (Lvl := ℕ) spec3 c (E5 P m c)
  hentry c := by
    rw [Pipeline.ownSems0_none]
    have hsplit := Pipeline.arrays_of_unscopedBufs (p := 3) (pcfgs (F := F)) adm (pdats P m) launch3.win launch3.arr_whole c
      ((pdats P m 3 c).share_full fun _ => rfl) (E5 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats P m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats P m) ((pdats P m 3 c).share_full fun _ => rfl)
      (E5 P m c) (E6 P m c) ((pdats P m 3 c).arrAt · cfg3.N) (hF3 P m c) (hrest3 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `B6`, left at `B7`. Its arrays are split
    out of the unscoped buffers and put back at what the pipeline leaves in them; the generator register goes into the
    region's invariant and comes back; nothing is owed; the kernel has no semaphore of its own. -/
def reg4 : Pipeline.RegionSeg (pcfgs (F := F)) adm (pdats P m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 P m) c).loose
  hwaits := Pipeline.hwaits_of_owed_zero _ _ _ _ L lv 4 (fun _ _ => rfl)
  pre c := iprop(StableHlo.held (c : Thread nD τ) (Pipeline.ucRefs τ sig) (B6 P m c) ∗ R c)
  post c := iprop(StableHlo.held (c : Thread nD τ) (Pipeline.ucRefs τ sig) (B7 P m c) ∗ R c)
  X c := iprop(∃ r, prngReg c r)
  Y c := iprop(∃ r, prngReg c r)
  Z c := Pipeline.unscopedRest (Ix := Unit) (Name := ℕ) (U := UR sig nD τ) (Lvl := ℕ) spec4 c (E6 P m c)
  hentry c := by
    rw [Pipeline.ownSems0_none]
    have hsplit := Pipeline.arrays_of_unscopedBufs (p := 4) (pcfgs (F := F)) adm (pdats P m) launch4.win launch4.arr_whole c
      ((pdats P m 4 c).share_full fun _ => rfl) (E6 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats P m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats P m) ((pdats P m 4 c).share_full fun _ => rfl)
      (E6 P m c) (E7 P m c) ((pdats P m 4 c).arrAt · cfg4.N) (hF4 P m c) (hrest4 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The ten items in order. -/
abbrev segs : List (Pipeline.Seg (pcfgs (F := F)) adm (pdats P m) () defs₀ 𝒱₀ L lv) :=
  [ .region (reg0 P m),
    .host (hseg hostOps1 hostOps1_sub hostOps1_fresh (B1 P m)),
    .region (reg1 P m),
    .region (reg2 P m),
    .host (hseg hostOps3 hostOps3_sub hostOps3_fresh (B4 P m)),
    .region (reg3 P m),
    .region (reg4 P m),
    .host (hseg hostOps5 hostOps5_sub hostOps5_fresh (B7 P m)),
    .host (hseg hostOps5_1 hostOps5_1_sub hostOps5_1_fresh (B8 P m)),
    .host (hseg hostOps5_2 hostOps5_2_sub hostOps5_2_fresh (B9 P m)) ]

-- the library theorem's implicit arguments are found by unifying its conclusion with this one, which takes unfolding plain
-- definitions in a metavariable's type
set_option backward.isDefEq.respectTransparency.types false in
/-- THE RUN: from any memory with zero counters every weakly fair execution of the program terminates, nothing faulting,
    and every final state has every unscoped buffer of every core at the last valuation `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 P m c b) :=
  Pipeline.θ_run_regions_kit (pcfgs (F := F)) adm (pdats P m) () cellOf_inj emb₁ defs₀ 𝒱₀ L lv m ρ main (segs P m)
    (fun c Q => by
      rewrite [main_chain c, Pipeline.Seg.run_eq_chain,
        show (segs P m).map Pipeline.Seg.prog = [
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          StableHlo.seq hostOps5_1,
          StableHlo.seq hostOps5_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B10 P m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (B10 P m c) ∗ R c) : sProp 𝕄)
          ⊢ iprop((StableHlo.held (c : Thread nD τ) (Pipeline.ucRefs τ sig) (B10 P m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 P m c b)
    (hfin := fun c s' => by
      iintro ⟨⟨Hh, -⟩, HSI⟩
      unfold StableHlo.held
      imodintro
      iapply (pointsTo_read_all (Pipeline.ucRefs τ sig) (fun b => (((c : Thread nD τ)).1, b)) (B10 P m c) s')
      isplitl [Hh] <;> iassumption)
    (hQ := fun s h c => h c)

/-! ## The arguments end as launched

No stretch of host operations writes an argument and no region has one as an output window's array, so the last
valuation at an argument's buffer walks back to the launch memory. -/

theorem B10_main_arg0 (c : Dev nD) : B10 P m c (Proc.devRef .tc main_arg0) = m ((c : Thread nD τ).loc main_arg0) :=
  ((B10_keep P m c main_arg0 (by decide)).trans <| (B9_keep P m c main_arg0 (by decide)).trans <| (B8_keep P m c main_arg0 (by decide)).trans <|
    (B7_keep P m c main_arg0 (by decide)).trans <| (B6_keep P m c main_arg0 (by decide)).trans <| (B5_keep P m c main_arg0 (by decide)).trans <|
    (B4_keep P m c main_arg0 (by decide)).trans <| (B3_keep P m c main_arg0 (by decide)).trans <| (B2_keep P m c main_arg0 (by decide)).trans <|
    (B1_keep P m c main_arg0 (by decide)).trans rfl)

theorem B10_main_arg1 (c : Dev nD) : B10 P m c (Proc.devRef .tc main_arg1) = m ((c : Thread nD τ).loc main_arg1) :=
  ((B10_keep P m c main_arg1 (by decide)).trans <| (B9_keep P m c main_arg1 (by decide)).trans <| (B8_keep P m c main_arg1 (by decide)).trans <|
    (B7_keep P m c main_arg1 (by decide)).trans <| (B6_keep P m c main_arg1 (by decide)).trans <| (B5_keep P m c main_arg1 (by decide)).trans <|
    (B4_keep P m c main_arg1 (by decide)).trans <| (B3_keep P m c main_arg1 (by decide)).trans <| (B2_keep P m c main_arg1 (by decide)).trans <|
    (B1_keep P m c main_arg1 (by decide)).trans rfl)

theorem B10_main_arg2 (c : Dev nD) : B10 P m c (Proc.devRef .tc main_arg2) = m ((c : Thread nD τ).loc main_arg2) :=
  ((B10_keep P m c main_arg2 (by decide)).trans <| (B9_keep P m c main_arg2 (by decide)).trans <| (B8_keep P m c main_arg2 (by decide)).trans <|
    (B7_keep P m c main_arg2 (by decide)).trans <| (B6_keep P m c main_arg2 (by decide)).trans <| (B5_keep P m c main_arg2 (by decide)).trans <|
    (B4_keep P m c main_arg2 (by decide)).trans <| (B3_keep P m c main_arg2 (by decide)).trans <| (B2_keep P m c main_arg2 (by decide)).trans <|
    (B1_keep P m c main_arg2 (by decide)).trans rfl)

theorem B10_main_arg3 (c : Dev nD) : B10 P m c (Proc.devRef .tc main_arg3) = m ((c : Thread nD τ).loc main_arg3) :=
  ((B10_keep P m c main_arg3 (by decide)).trans <| (B9_keep P m c main_arg3 (by decide)).trans <| (B8_keep P m c main_arg3 (by decide)).trans <|
    (B7_keep P m c main_arg3 (by decide)).trans <| (B6_keep P m c main_arg3 (by decide)).trans <| (B5_keep P m c main_arg3 (by decide)).trans <|
    (B4_keep P m c main_arg3 (by decide)).trans <| (B3_keep P m c main_arg3 (by decide)).trans <| (B2_keep P m c main_arg3 (by decide)).trans <|
    (B1_keep P m c main_arg3 (by decide)).trans rfl)

theorem B10_main_arg4 (c : Dev nD) : B10 P m c (Proc.devRef .tc main_arg4) = m ((c : Thread nD τ).loc main_arg4) :=
  ((B10_keep P m c main_arg4 (by decide)).trans <| (B9_keep P m c main_arg4 (by decide)).trans <| (B8_keep P m c main_arg4 (by decide)).trans <|
    (B7_keep P m c main_arg4 (by decide)).trans <| (B6_keep P m c main_arg4 (by decide)).trans <| (B5_keep P m c main_arg4 (by decide)).trans <|
    (B4_keep P m c main_arg4 (by decide)).trans <| (B3_keep P m c main_arg4 (by decide)).trans <| (B2_keep P m c main_arg4 (by decide)).trans <|
    (B1_keep P m c main_arg4 (by decide)).trans rfl)

theorem B10_main_arg5 (c : Dev nD) : B10 P m c (Proc.devRef .tc main_arg5) = m ((c : Thread nD τ).loc main_arg5) :=
  ((B10_keep P m c main_arg5 (by decide)).trans <| (B9_keep P m c main_arg5 (by decide)).trans <| (B8_keep P m c main_arg5 (by decide)).trans <|
    (B7_keep P m c main_arg5 (by decide)).trans <| (B6_keep P m c main_arg5 (by decide)).trans <| (B5_keep P m c main_arg5 (by decide)).trans <|
    (B4_keep P m c main_arg5 (by decide)).trans <| (B3_keep P m c main_arg5 (by decide)).trans <| (B2_keep P m c main_arg5 (by decide)).trans <|
    (B1_keep P m c main_arg5 (by decide)).trans rfl)

theorem B10_main_arg6 (c : Dev nD) : B10 P m c (Proc.devRef .tc main_arg6) = m ((c : Thread nD τ).loc main_arg6) :=
  ((B10_keep P m c main_arg6 (by decide)).trans <| (B9_keep P m c main_arg6 (by decide)).trans <| (B8_keep P m c main_arg6 (by decide)).trans <|
    (B7_keep P m c main_arg6 (by decide)).trans <| (B6_keep P m c main_arg6 (by decide)).trans <| (B5_keep P m c main_arg6 (by decide)).trans <|
    (B4_keep P m c main_arg6 (by decide)).trans <| (B3_keep P m c main_arg6 (by decide)).trans <| (B2_keep P m c main_arg6 (by decide)).trans <|
    (B1_keep P m c main_arg6 (by decide)).trans rfl)

theorem B10_main_arg7 (c : Dev nD) : B10 P m c (Proc.devRef .tc main_arg7) = m ((c : Thread nD τ).loc main_arg7) :=
  ((B10_keep P m c main_arg7 (by decide)).trans <| (B9_keep P m c main_arg7 (by decide)).trans <| (B8_keep P m c main_arg7 (by decide)).trans <|
    (B7_keep P m c main_arg7 (by decide)).trans <| (B6_keep P m c main_arg7 (by decide)).trans <| (B5_keep P m c main_arg7 (by decide)).trans <|
    (B4_keep P m c main_arg7 (by decide)).trans <| (B3_keep P m c main_arg7 (by decide)).trans <| (B2_keep P m c main_arg7 (by decide)).trans <|
    (B1_keep P m c main_arg7 (by decide)).trans rfl)

theorem B10_main_arg8 (c : Dev nD) : B10 P m c (Proc.devRef .tc main_arg8) = m ((c : Thread nD τ).loc main_arg8) :=
  ((B10_keep P m c main_arg8 (by decide)).trans <| (B9_keep P m c main_arg8 (by decide)).trans <| (B8_keep P m c main_arg8 (by decide)).trans <|
    (B7_keep P m c main_arg8 (by decide)).trans <| (B6_keep P m c main_arg8 (by decide)).trans <| (B5_keep P m c main_arg8 (by decide)).trans <|
    (B4_keep P m c main_arg8 (by decide)).trans <| (B3_keep P m c main_arg8 (by decide)).trans <| (B2_keep P m c main_arg8 (by decide)).trans <|
    (B1_keep P m c main_arg8 (by decide)).trans rfl)

theorem B10_main_arg9 (c : Dev nD) : B10 P m c (Proc.devRef .tc main_arg9) = m ((c : Thread nD τ).loc main_arg9) :=
  ((B10_keep P m c main_arg9 (by decide)).trans <| (B9_keep P m c main_arg9 (by decide)).trans <| (B8_keep P m c main_arg9 (by decide)).trans <|
    (B7_keep P m c main_arg9 (by decide)).trans <| (B6_keep P m c main_arg9 (by decide)).trans <| (B5_keep P m c main_arg9 (by decide)).trans <|
    (B4_keep P m c main_arg9 (by decide)).trans <| (B3_keep P m c main_arg9 (by decide)).trans <| (B2_keep P m c main_arg9 (by decide)).trans <|
    (B1_keep P m c main_arg9 (by decide)).trans rfl)

theorem B10_main_arg10 (c : Dev nD) : B10 P m c (Proc.devRef .tc main_arg10) = m ((c : Thread nD τ).loc main_arg10) :=
  ((B10_keep P m c main_arg10 (by decide)).trans <| (B9_keep P m c main_arg10 (by decide)).trans <| (B8_keep P m c main_arg10 (by decide)).trans <|
    (B7_keep P m c main_arg10 (by decide)).trans <| (B6_keep P m c main_arg10 (by decide)).trans <| (B5_keep P m c main_arg10 (by decide)).trans <|
    (B4_keep P m c main_arg10 (by decide)).trans <| (B3_keep P m c main_arg10 (by decide)).trans <| (B2_keep P m c main_arg10 (by decide)).trans <|
    (B1_keep P m c main_arg10 (by decide)).trans rfl)

theorem B10_main_arg11 (c : Dev nD) : B10 P m c (Proc.devRef .tc main_arg11) = m ((c : Thread nD τ).loc main_arg11) :=
  ((B10_keep P m c main_arg11 (by decide)).trans <| (B9_keep P m c main_arg11 (by decide)).trans <| (B8_keep P m c main_arg11 (by decide)).trans <|
    (B7_keep P m c main_arg11 (by decide)).trans <| (B6_keep P m c main_arg11 (by decide)).trans <| (B5_keep P m c main_arg11 (by decide)).trans <|
    (B4_keep P m c main_arg11 (by decide)).trans <| (B3_keep P m c main_arg11 (by decide)).trans <| (B2_keep P m c main_arg11 (by decide)).trans <|
    (B1_keep P m c main_arg11 (by decide)).trans rfl)

include P in
/-- THE FRAME at any `F`: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (B10_main_arg0 P m c),
     (h c _ (mem_uc main_arg1 (by decide))).trans (B10_main_arg1 P m c),
     (h c _ (mem_uc main_arg2 (by decide))).trans (B10_main_arg2 P m c),
     (h c _ (mem_uc main_arg3 (by decide))).trans (B10_main_arg3 P m c),
     (h c _ (mem_uc main_arg4 (by decide))).trans (B10_main_arg4 P m c),
     (h c _ (mem_uc main_arg5 (by decide))).trans (B10_main_arg5 P m c),
     (h c _ (mem_uc main_arg6 (by decide))).trans (B10_main_arg6 P m c),
     (h c _ (mem_uc main_arg7 (by decide))).trans (B10_main_arg7 P m c),
     (h c _ (mem_uc main_arg8 (by decide))).trans (B10_main_arg8 P m c),
     (h c _ (mem_uc main_arg9 (by decide))).trans (B10_main_arg9 P m c),
     (h c _ (mem_uc main_arg10 (by decide))).trans (B10_main_arg10 P m c),
     (h c _ (mem_uc main_arg11 (by decide))).trans (B10_main_arg11 P m c)⟩)
    (run_all P m ρ)

/-- The run with the result named: the result buffer ends at the last valuation's contents, the arguments as launched. -/
theorem run_main : θ_run defs (onTc (τ := τ) (main (F := F))) ⟨m, fun _ => 0, ρ⟩ (fun r => ∀ c : Dev nD,
      r.2.mem ((c.tc : Thread nD τ).loc main_v43) = B10 P m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v43 (by decide)),
     (h c _ (mem_uc main_arg0 (by decide))).trans (B10_main_arg0 P m c),
     (h c _ (mem_uc main_arg1 (by decide))).trans (B10_main_arg1 P m c),
     (h c _ (mem_uc main_arg2 (by decide))).trans (B10_main_arg2 P m c),
     (h c _ (mem_uc main_arg3 (by decide))).trans (B10_main_arg3 P m c),
     (h c _ (mem_uc main_arg4 (by decide))).trans (B10_main_arg4 P m c),
     (h c _ (mem_uc main_arg5 (by decide))).trans (B10_main_arg5 P m c),
     (h c _ (mem_uc main_arg6 (by decide))).trans (B10_main_arg6 P m c),
     (h c _ (mem_uc main_arg7 (by decide))).trans (B10_main_arg7 P m c),
     (h c _ (mem_uc main_arg8 (by decide))).trans (B10_main_arg8 P m c),
     (h c _ (mem_uc main_arg9 (by decide))).trans (B10_main_arg9 P m c),
     (h c _ (mem_uc main_arg10 (by decide))).trans (B10_main_arg10 P m c),
     (h c _ (mem_uc main_arg11 (by decide))).trans (B10_main_arg11 P m c)⟩)
    (run_all P m ρ)

/-! ## The halves as proved -/

omit m ρ P in
/-- The two scratch-carrying regions' halves: the proof data that carry the channel sums and the sums of squares across
    the sixteen grid points in the two scratch accumulators. -/
def halves : Halves F where
  h0 := { dat := dat0, A_eq := A_eq0, q_full := q_eq0, owed_zero := owed_eq0, recorded_univ := recorded_eq0,
          body := body_obligation0, Φ_in := Φ_in0, Φ_out := Φ_out0 }
  h2 := { dat := dat2, A_eq := A_eq2, q_full := q_eq2, owed_zero := owed_eq2, recorded_univ := recorded_eq2,
          body := body_obligation2, Φ_in := Φ_in2, Φ_out := Φ_out2 }

end Cert.Kernel.Hand

end
-- ==== Proof.KIReg0.lean ====
/- Region 0 of the forward program: the first equivariant convolution `cc0__conv1_kernel`, fused with the
   accumulation of the batch-normalisation statistics (per-channel sum and sum of squares of its output), run over a
   grid of 16 points, one batch element each. Seven windows: 0 the pair features x ([1,32,32,16] per point), 1 the node
   features ([1,32,8] per point), 2 and 3 the weights ([384,64] and [24,64], the same block at every point), 4 the
   convolution's output in bf16 ([1,32,32,32,64] per point, written back at every point), 5 and 6 the two statistics
   ([1,64], one block for the whole grid, written back at the last point only). Two scratch accumulators [1,64] are
   zeroed when the grid coordinate is 0 and carried across the points: the region's invariant holds them at the
   statistics accumulated so far. Stated at a parameter `V`: the buffer contents found when the region is entered. -/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first convolution with its channel statistics

The body loads the four input blocks whole, computes the point's convolution block, stores its bf16 rounding into the
big output's buffer, and adds the block's per-channel sum and sum of squares into two accumulators that live in scratch
memory across the grid's points (zeroed when the grid coordinate is 0); the accumulators are copied into the two small
outputs' buffers at every point, and those outputs are written back only at the last point. -/

/-! ## The body's accesses: every load and store is of a whole buffer -/

abbrev r0_0 : Rect S1x32x32x16 := Rect.unit (s := S1x32x32x16) ![0, 0, 0, 0] S1x32x32x16.size inb_S1x32x32x16_S1x32x32x16_0_0_0_0
abbrev r0_1 : Rect S1x32x8 := Rect.unit (s := S1x32x8) ![0, 0, 0] S1x32x8.size inb_S1x32x8_S1x32x8_0_0_0
abbrev r0_2 : Rect S384x64 := Rect.unit (s := S384x64) ![0, 0] S384x64.size inb_S384x64_S384x64_0_0
abbrev r0_3 : Rect S24x64 := Rect.unit (s := S24x64) ![0, 0] S24x64.size inb_S24x64_S24x64_0_0
abbrev r0_4 : Rect S1x32x32x32x64 := Rect.unit (s := S1x32x32x32x64) ![0, 0, 0, 0, 0] S1x32x32x32x64.size inb_S1x32x32x32x64_S1x32x32x32x64_0_0_0_0_0
abbrev rS0 : Rect S1x64 := Rect.unit (s := S1x64) ![0, 0] S1x64.size inb_S1x64_S1x64_0_0

/-! ## What the body computes, as pure terms over the input blocks -/

/-- The point's convolution block in f32, from the four input blocks. -/
def conv0 (x0 : Vec F S1x32x32x16 .f32) (x1 : Vec F S1x32x8 .f32) (x2 : Vec F S384x64 .f32) (x3 : Vec F S24x64 .f32) : FVec F S32x32x32x64 .f32 :=
  k0_pay33 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))

/-- The per-channel sum of the squares of the point's convolution block. -/
def convSq0 (x0 : Vec F S1x32x32x16 .f32) (x1 : Vec F S1x32x8 .f32) (x2 : Vec F S384x64 .f32) (x3 : Vec F S24x64 .f32) : FVec F S64 .f32 :=
  k0_pay34 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))

/-- The big output's buffer after the body: the convolution block rounded to bf16. -/
def out0_4 (x0 : Vec F S1x32x32x16 .f32) (x1 : Vec F S1x32x8 .f32) (x2 : Vec F S384x64 .f32) (x3 : Vec F S24x64 .f32) : Vec F S1x32x32x32x64 .bf16 :=
  View.canon [⟨r0_4, k0_pay2 (conv0 x0 x1 x2 x3)⟩]

/-- The sum accumulator after the body, from the input blocks and the value `p` the body loads of it: `p` plus the
    per-channel sum of the point's convolution block. -/
def sum0 (x0 : Vec F S1x32x32x16 .f32) (x1 : Vec F S1x32x8 .f32) (x2 : Vec F S384x64 .f32) (x3 : Vec F S24x64 .f32) (p : Vec F S1x64 .f32) : Vec F S1x64 .f32 :=
  View.canon [⟨rS0, k0_pay35 (k0_pay5 (View.ld x1 r0_1))
      (k0_pay17 (View.ld x3 r0_3))
      (k0_pay18 (View.ld x3 r0_3))
      (k0_pay19 (View.ld x3 r0_3))
      (k0_pay25 (k0_pay8 (View.ld x0 r0_0)) (k0_pay9 (View.ld x2 r0_2)))
      (k0_pay26 (k0_pay10 (View.ld x2 r0_2)) (k0_pay20 (View.ld x0 r0_0)))
      (k0_pay27 (k0_pay11 (View.ld x2 r0_2)) (k0_pay21 (View.ld x0 r0_0)) (k0_pay22 (F := F)))
      (k0_pay28 (k0_pay8 (View.ld x0 r0_0)) (k0_pay12 (View.ld x2 r0_2)))
      (k0_pay29 (k0_pay8 (View.ld x0 r0_0)) (k0_pay13 (View.ld x2 r0_2)))
      (k0_pay30 (k0_pay8 (View.ld x0 r0_0)) (k0_pay14 (View.ld x2 r0_2)))
      (k0_pay31 (k0_pay15 (View.ld x2 r0_2)) (k0_pay20 (View.ld x0 r0_0)))
      (k0_pay32 (k0_pay8 (View.ld x0 r0_0)) (k0_pay16 (View.ld x2 r0_2)))
      p⟩]

/-- The sum-of-squares accumulator after the body, likewise. -/
def sumsq0 (x0 : Vec F S1x32x32x16 .f32) (x1 : Vec F S1x32x8 .f32) (x2 : Vec F S384x64 .f32) (x3 : Vec F S24x64 .f32) (p : Vec F S1x64 .f32) : Vec F S1x64 .f32 :=
  View.canon [⟨rS0, k0_pay1 (convSq0 x0 x1 x2 x3) p⟩]

/-- A store through the whole of a [1,64] buffer covers it. -/
theorem coverS0 (p0 : Vec F S1x64 .f32) (y : S1x64.Idx) :
    ∃ pc ∈ ([⟨rS0, p0⟩] : List (View.Piece (Elt F) S1x64 .f32)), y ∈ pc.1.set :=
  View.cover_of_tiled [⟨rS0, p0⟩] S1x64.size (by rfl) y

/-- A store through the whole of the big output's buffer covers it. -/
theorem cover0_4 (p0 : Vec F S1x32x32x32x64 .bf16) (y : S1x32x32x32x64.Idx) :
    ∃ pc ∈ ([⟨r0_4, p0⟩] : List (View.Piece (Elt F) S1x32x32x32x64 .bf16)), y ∈ pc.1.set :=
  View.cover_of_tiled [⟨r0_4, p0⟩] S1x32x32x32x64.size (by rfl) y

/-- After a covering store the buffer reads as that store alone, whatever was stored before it. -/
theorem read_writes_top0 {κ : Kind} {sp : Space} {s : Shape} {e : EltTy} (v : View sig κ sp s e) (f : v.ty.Contents (Elt F))
    (p : View.Piece (Elt F) s e) (L : List (View.Piece (Elt F) s e)) (h : ∀ y, ∃ pc ∈ [p], y ∈ pc.1.set) :
    v.read (Elt F) (v.writes (Elt F) f (p :: L)) = View.canon [p] :=
  View.read_writes_eq_canon v (v.writes (Elt F) f L) [p] h

/-- Two stores through the whole of a [1,64] buffer leave the same contents when their payloads agree. -/
theorem canon_rS_congr0 {w w' : rS0.shape.Idx → Elt F .f32} (h : w = w') :
    View.canon [(⟨rS0, w⟩ : View.Piece (Elt F) S1x64 .f32)] = View.canon [⟨rS0, w'⟩] := by rw [h]

/-- The condition of the body's conditional, from the grid coordinates: the coordinate is 0. -/
abbrev cond0 (i : grid0.Coords) : Prop := (Scalar.cmpi .ne (Scalar.extui (Scalar.cmpi .eq (BitVec.ofNat 32 (i 0).val) 0#32)) 0#32) = 1#1

set_option maxHeartbeats 2000000 in
/-- The body at the first point (the conditional taken): the accumulators, found at anything, are zeroed, then
    receive the point's statistics; the small outputs' buffers receive copies of them. -/
theorem sound_kernel0_A (c : Dev nD) (E : Set ℕ) (i : grid0.Coords)
    (arg1 : Memref sig .tc .vmem S1x32x32x16 .f32) (harg1 : arg1.IsWhole) (arg2 : Memref sig .tc .vmem S1x32x8 .f32) (harg2 : arg2.IsWhole) (arg3 : Memref sig .tc .vmem S384x64 .f32) (harg3 : arg3.IsWhole) (arg4 : Memref sig .tc .vmem S24x64 .f32) (harg4 : arg4.IsWhole) (arg5 : Memref sig .tc .vmem S1x32x32x32x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc : cond0 i) (x0 : Vec F S1x32x32x16 .f32) (x1 : Vec F S1x32x8 .f32) (x2 : Vec F S384x64 .f32) (x3 : Vec F S24x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (sum0 x0 x1 x2 x3 (k0_pay3 (F := F))) ∗ owns (c : Thread nD τ) arg7 fullShare (sumsq0 x0 x1 x2 x3 (k0_pay4 (F := F)))
            ∗ owns (c : Thread nD τ) arg8 fullShare (sum0 x0 x1 x2 x3 (k0_pay3 (F := F))) ∗ owns (c : Thread nD τ) arg9 fullShare (sumsq0 x0 x1 x2 x3 (k0_pay4 (F := F)))) -∗ K ⟨⟩))
      ⊢ wp frame (wpE (defs₀ (F := F)) Variants.none c none) E (cc0__conv1_kernel i arg1 harg1 arg2 harg2 arg3 harg3 arg4 harg4 arg5 harg5 arg6 harg6 arg7 harg7 arg8 harg8 arg9 harg9) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H5]
  · iexists _; isplitr
    swap; · iexact H5
    ipureintro
    exact View.read_writes_eq_canon _ _ _ (cover0_4 _)
  isplitl [H6]
  · iexists _; isplitr
    swap; · iexact H6
    ipureintro
    exact (View.read_writes_eq_canon _ _ _ (coverS0 _)).trans (canon_rS_congr0 ((View.readCov_cons_toLoadRect arg8.view rS0 _ _).trans
      (congrArg (k0_pay35 _ _ _ _ _ _ _ _ _ _ _ _) (View.readCov_cons_toLoadRect arg8.view rS0 _ _))))
  isplitl [H7]
  · iexists _; isplitr
    swap; · iexact H7
    ipureintro
    exact (View.read_writes_eq_canon _ _ _ (coverS0 _)).trans (canon_rS_congr0 ((View.readCov_cons_toLoadRect arg9.view rS0 _ _).trans
      (congrArg (k0_pay1 _) (View.readCov_cons_toLoadRect arg9.view rS0 _ _))))
  isplitl [H8]
  · iexists _; isplitr
    swap; · iexact H8
    ipureintro
    exact (read_writes_top0 arg8.view f8 _ _ (coverS0 _)).trans (canon_rS_congr0
      (congrArg (k0_pay35 _ _ _ _ _ _ _ _ _ _ _ _) (View.readCov_cons_toLoadRect arg8.view rS0 _ _)))
  iexists _; isplitr
  swap; · iexact H9
  ipureintro
  exact (read_writes_top0 arg9.view f9 _ _ (coverS0 _)).trans (canon_rS_congr0
    (congrArg (k0_pay1 _) (View.readCov_cons_toLoadRect arg9.view rS0 _ _)))

set_option maxHeartbeats 2000000 in
/-- The body at a later point (the conditional not taken): the accumulators, found at `p8` and `p9`, receive the
    point's statistics; the small outputs' buffers receive copies of them. -/
theorem sound_kernel0_B (c : Dev nD) (E : Set ℕ) (i : grid0.Coords)
    (arg1 : Memref sig .tc .vmem S1x32x32x16 .f32) (harg1 : arg1.IsWhole) (arg2 : Memref sig .tc .vmem S1x32x8 .f32) (harg2 : arg2.IsWhole) (arg3 : Memref sig .tc .vmem S384x64 .f32) (harg3 : arg3.IsWhole) (arg4 : Memref sig .tc .vmem S24x64 .f32) (harg4 : arg4.IsWhole) (arg5 : Memref sig .tc .vmem S1x32x32x32x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc : ¬cond0 i) (x0 : Vec F S1x32x32x16 .f32) (x1 : Vec F S1x32x8 .f32) (x2 : Vec F S384x64 .f32) (x3 : Vec F S24x64 .f32) (p8 p9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare p8 ∗ owns (c : Thread nD τ) arg9 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (sum0 x0 x1 x2 x3 (View.ld p8 rS0)) ∗ owns (c : Thread nD τ) arg7 fullShare (sumsq0 x0 x1 x2 x3 (View.ld p9 rS0))
            ∗ owns (c : Thread nD τ) arg8 fullShare (sum0 x0 x1 x2 x3 (View.ld p8 rS0)) ∗ owns (c : Thread nD τ) arg9 fullShare (sumsq0 x0 x1 x2 x3 (View.ld p9 rS0))) -∗ K ⟨⟩))
      ⊢ wp frame (wpE (defs₀ (F := F)) Variants.none c none) E (cc0__conv1_kernel i arg1 harg1 arg2 harg2 arg3 harg3 arg4 harg4 arg5 harg5 arg6 harg6 arg7 harg7 arg8 harg8 arg9 harg9) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf8; subst hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H5]
  · iexists _; isplitr
    swap; · iexact H5
    ipureintro
    exact View.read_writes_eq_canon _ _ _ (cover0_4 _)
  isplitl [H6]
  · iexists _; isplitr
    swap; · iexact H6
    ipureintro
    exact (View.read_writes_eq_canon _ _ _ (coverS0 _)).trans (canon_rS_congr0 (View.readCov_cons_toLoadRect arg8.view rS0 _ _))
  isplitl [H7]
  · iexists _; isplitr
    swap; · iexact H7
    ipureintro
    exact (View.read_writes_eq_canon _ _ _ (coverS0 _)).trans (canon_rS_congr0 (View.readCov_cons_toLoadRect arg9.view rS0 _ _))
  isplitl [H8]
  · iexists _; isplitr
    swap; · iexact H8
    ipureintro
    exact View.read_writes_eq_canon _ _ _ (coverS0 _)
  iexists _; isplitr
  swap; · iexact H9
  ipureintro
  exact View.read_writes_eq_canon _ _ _ (coverS0 _)

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved), for any proof data whose array is `V`'s and whose body leaves the block in
    place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- The sum accumulator after the body at position `n` of the grid: at the first point the zero fill plus the
    point's statistics, at a later point what the point before left plus the point's. -/
def accS0 (c : Dev nD) : (n : ℕ) → n < cfg0.N → Vec F S1x64 .f32
  | 0, hn => sum0 (iblk0 V c 0 ⟨0, hn⟩) (iblk0 V c 1 ⟨0, hn⟩) (iblk0 V c 2 ⟨0, hn⟩) (iblk0 V c 3 ⟨0, hn⟩) (k0_pay3 (F := F))
  | n + 1, hn => sum0 (iblk0 V c 0 ⟨n + 1, hn⟩) (iblk0 V c 1 ⟨n + 1, hn⟩) (iblk0 V c 2 ⟨n + 1, hn⟩) (iblk0 V c 3 ⟨n + 1, hn⟩) (View.ld (accS0 c n (Nat.lt_of_succ_lt hn)) rS0)

/-- The sum-of-squares accumulator after the body at position `n`, likewise. -/
def accQ0 (c : Dev nD) : (n : ℕ) → n < cfg0.N → Vec F S1x64 .f32
  | 0, hn => sumsq0 (iblk0 V c 0 ⟨0, hn⟩) (iblk0 V c 1 ⟨0, hn⟩) (iblk0 V c 2 ⟨0, hn⟩) (iblk0 V c 3 ⟨0, hn⟩) (k0_pay4 (F := F))
  | n + 1, hn => sumsq0 (iblk0 V c 0 ⟨n + 1, hn⟩) (iblk0 V c 1 ⟨n + 1, hn⟩) (iblk0 V c 2 ⟨n + 1, hn⟩) (iblk0 V c 3 ⟨n + 1, hn⟩) (View.ld (accQ0 c n (Nat.lt_of_succ_lt hn)) rS0)

/-- The big output's buffer after the body at point `t`. -/
def out0_4_at (c : Dev nD) (t : Fin cfg0.N) : Vec F S1x32x32x32x64 .bf16 := out0_4 (iblk0 V c 0 t) (iblk0 V c 1 t) (iblk0 V c 2 t) (iblk0 V c 3 t)

/-! ## The invariant: the generator register, the two scratch accumulators, the other scoped buffers -/

/-- The two scratch accumulators before point `t`: at anything before the first point, at the accumulated statistics
    of the points before `t` afterwards. -/
def scr0 (c : Dev nD) : Fin (cfg0.N + 1) → sProp 𝕄
  | ⟨0, _⟩ => iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
  | ⟨n + 1, h⟩ => iprop(owns (c : Thread nD τ) (Memref.whole cc0_scratch0) fullShare (accS0 V c n (Nat.lt_of_succ_lt_succ h))
      ∗ owns (c : Thread nD τ) (Memref.whole cc0_scratch1) fullShare (accQ0 V c n (Nat.lt_of_succ_lt_succ h)))

/-- The region's invariant before point `t`. -/
def Φ0 (c : Dev nD) (t : Fin (cfg0.N + 1)) : sProp 𝕄 :=
  iprop((∃ r, prngReg c r) ∗ scr0 V c t
    ∗ Pipeline.scopedRestBut (Ix := Unit) (Name := ℕ) (U := UR sig nD τ) (Lvl := ℕ) (Val := Elt F) spec0 c [cc0_scratch0, cc0_scratch1])

/-! ## The pipeline's proof data -/

/-- The proof data of pipeline 0 on core `c`: the arrays as the region finds them; after the body at point `t` each
    input's buffer at its block, the big output's at the point's rounded convolution block, the two small outputs' at
    the accumulators after `t`; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4_at V c t
    | ⟨5, _⟩ => accS0 V c t.val t.isLt
    | ⟨6, _⟩ => accQ0 V c t.val t.isLt
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0, out0_4_at]
theorem after0_5 (c : Dev nD) (t : Fin cfg0.N) : (dat0 V c).after 5 t = accS0 V c t.val t.isLt := by dsimp only [dat0]
theorem after0_6 (c : Dev nD) (t : Fin cfg0.N) : (dat0 V c).after 6 t = accQ0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The conditional, decided over the grid -/

/-- The body's conditional is taken at the first point only. -/
theorem hcond0 : ∀ t : Fin cfg0.N, cond0 (grid0.coords t) ↔ t.val % 16 = 0 :=
  (by decide +kernel : ∀ t : Fin grid0.N, cond0 (grid0.coords t) ↔ t.val % 16 = 0)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The invariant before the first point, opened. -/
theorem Φ0_zero (c : Dev nD) (h : 0 < cfg0.N + 1) : Φ0 V c ⟨0, h⟩ =
    iprop((∃ r, prngReg c r)
      ∗ iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ Pipeline.scopedRestBut (Ix := Unit) (Name := ℕ) (U := UR sig nD τ) (Lvl := ℕ) (Val := Elt F) spec0 c [cc0_scratch0, cc0_scratch1]) := rfl

/-- The invariant after `n + 1` points, opened. -/
theorem Φ0_succ (c : Dev nD) (n : ℕ) (h : n + 1 < cfg0.N + 1) : Φ0 V c ⟨n + 1, h⟩ =
    iprop((∃ r, prngReg c r)
      ∗ iprop(owns (c : Thread nD τ) (Memref.whole cc0_scratch0) fullShare (accS0 V c n (Nat.lt_of_succ_lt_succ h))
        ∗ owns (c : Thread nD τ) (Memref.whole cc0_scratch1) fullShare (accQ0 V c n (Nat.lt_of_succ_lt_succ h)))
      ∗ Pipeline.scopedRestBut (Ix := Unit) (Name := ℕ) (U := UR sig nD τ) (Lvl := ℕ) (Val := Elt F) spec0 c [cc0_scratch0, cc0_scratch1]) := rfl

set_option maxHeartbeats 1600000 in
/-- The body at any point: the inputs' buffers hold their blocks; at the first point the conditional is taken and the
    accumulators may hold anything, at a later point it is not and they hold what the point before left (the
    invariant); either way they end at the accumulated statistics through this point, which is the invariant at the
    next point, and the small outputs' buffers hold copies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6,
    show (dat0 V c).Φ t.castSucc = Φ0 V c t.castSucc from rfl, show (dat0 V c).Φ t.succ = Φ0 V c t.succ from rfl]
  have hN : t.val < 16 := lt_of_lt_of_eq t.isLt (show cfg0.N = 16 from N_0)
  obtain ⟨n, hn⟩ := t
  cases n with
  | zero =>
    rw [show (⟨0, hn⟩ : Fin cfg0.N).castSucc = ⟨0, Nat.succ_pos _⟩ from rfl, Φ0_zero,
      show (⟨0, hn⟩ : Fin cfg0.N).succ = ⟨0 + 1, Nat.succ_lt_succ hn⟩ from rfl, Φ0_succ]
    iintro ⟨⟨Hr, ⟨⟨%g8, H8⟩, ⟨%g9, H9⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords ⟨0, hn⟩) _ _ _ _ _ _ _ _ _ _ _ _ _ _ _ _ _ _ ((hcond0 ⟨0, hn⟩).mpr rfl)
      (iblk0 V c 0 ⟨0, hn⟩) (iblk0 V c 1 ⟨0, hn⟩) (iblk0 V c 2 ⟨0, hn⟩) (iblk0 V c 3 ⟨0, hn⟩) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexists g8; rw [owns_whole]; iexact H8
    isplitl [H9]; · iexists g9; rw [owns_whole]; iexact H9
    iintro ⟨H0, H1, H2, H3, H4, H5, H6, H8, H9⟩
    isplitl [Hr H8 H9 Hrest]
    · isplitl [Hr]; · iexact Hr
      isplitr [Hrest]
      · isplitl [H8]; · iexact H8
        iexact H9
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  | succ n =>
    rw [show (⟨n + 1, hn⟩ : Fin cfg0.N).castSucc = ⟨n + 1, Nat.lt_succ_of_lt hn⟩ from rfl, Φ0_succ,
      show (⟨n + 1, hn⟩ : Fin cfg0.N).succ = ⟨(n + 1) + 1, Nat.succ_lt_succ hn⟩ from rfl, Φ0_succ]
    iintro ⟨⟨Hr, ⟨H8, H9⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords ⟨n + 1, hn⟩) _ _ _ _ _ _ _ _ _ _ _ _ _ _ _ _ _ _
      (fun h => absurd ((hcond0 ⟨n + 1, hn⟩).mp h) (by dsimp only at hN ⊢; omega))
      (iblk0 V c 0 ⟨n + 1, hn⟩) (iblk0 V c 1 ⟨n + 1, hn⟩) (iblk0 V c 2 ⟨n + 1, hn⟩) (iblk0 V c 3 ⟨n + 1, hn⟩) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr H8 H9 Hrest]
    · isplitl [Hr]; · iexact Hr
      isplitr [Hrest]
      · isplitl [H8]; · iexact H8
        iexact H9
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the assembly takes of the proof data -/

theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem Φ_eq0 (c : Dev nD) (t : Fin (cfg0.N + 1)) : (dat0 V c).Φ t = Φ0 V c t := rfl

/-- The accumulators' recursion, an equation per case. -/
theorem accS0_zero (c : Dev nD) (hn : 0 < cfg0.N) :
    accS0 V c 0 hn = sum0 (iblk0 V c 0 ⟨0, hn⟩) (iblk0 V c 1 ⟨0, hn⟩) (iblk0 V c 2 ⟨0, hn⟩) (iblk0 V c 3 ⟨0, hn⟩) (k0_pay3 (F := F)) := rfl
theorem accS0_succ (c : Dev nD) (n : ℕ) (hn : n + 1 < cfg0.N) :
    accS0 V c (n + 1) hn = sum0 (iblk0 V c 0 ⟨n + 1, hn⟩) (iblk0 V c 1 ⟨n + 1, hn⟩) (iblk0 V c 2 ⟨n + 1, hn⟩) (iblk0 V c 3 ⟨n + 1, hn⟩) (View.ld (accS0 V c n (Nat.lt_of_succ_lt hn)) rS0) := rfl
theorem accQ0_zero (c : Dev nD) (hn : 0 < cfg0.N) :
    accQ0 V c 0 hn = sumsq0 (iblk0 V c 0 ⟨0, hn⟩) (iblk0 V c 1 ⟨0, hn⟩) (iblk0 V c 2 ⟨0, hn⟩) (iblk0 V c 3 ⟨0, hn⟩) (k0_pay4 (F := F)) := rfl
theorem accQ0_succ (c : Dev nD) (n : ℕ) (hn : n + 1 < cfg0.N) :
    accQ0 V c (n + 1) hn = sumsq0 (iblk0 V c 0 ⟨n + 1, hn⟩) (iblk0 V c 1 ⟨n + 1, hn⟩) (iblk0 V c 2 ⟨n + 1, hn⟩) (iblk0 V c 3 ⟨n + 1, hn⟩) (View.ld (accQ0 V c n (Nat.lt_of_succ_lt hn)) rS0) := rfl

/-- The invariant before the first point, from the generator register and the scoped buffers no window stages: the
    two scratch accumulators are among those, at anything. -/
theorem Φ_in0 (c : Dev nD) :
    iprop((∃ r, prngReg c r) ∗ Pipeline.prefHeld (pcfgs (F := F) 0).pre c (fun _ => fullShare) ((cfgs 0).toPCfg_adm).1
        ∗ Pipeline.scopedRest (Ix := Unit) (Name := ℕ) (U := UR sig nD τ) (Lvl := ℕ) (Val := Elt F) spec0 c)
      ⊢ (dat0 V c).Φ 0 := by
  rw [Φ_eq0, show (0 : Fin (cfg0.N + 1)) = ⟨0, Nat.succ_pos _⟩ from rfl, Φ0_zero, scopedRest0_split]
  iintro ⟨Hp, -, Hs, Hrest⟩
  isplitl [Hp]; · iexact Hp
  isplitl [Hs]; · iexact Hs
  iexact Hrest

/-- The invariant after the last point gives the generator register and those scoped buffers back. -/
theorem Φ_out0 (c : Dev nD) :
    (dat0 V c).Φ (Fin.last _)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Φ_eq0, Pipeline.ownSems0_none, scopedRest0_split,
    show (Fin.last cfg0.N : Fin (cfg0.N + 1)) = ⟨15 + 1, by rw [show cfg0.N = 16 from N_0]; decide⟩ from Fin.ext (show cfg0.N = 15 + 1 from N_0), Φ0_succ, owns_whole, owns_whole]
  iintro ⟨Hp, ⟨H8, H9⟩, Hrest⟩
  isplitl [Hp]; · iexact Hp
  isplitr; · iempintro
  isplitr [Hrest]
  · isplitl [H8]; · iexists _; iexact H8
    iexists _; iexact H9
  iexact Hrest

end Cert.KernelIdeal.Hand

end
-- ==== Proof.KIReg1.lean ====
/- Region 1 of the forward program: the batch-normalisation-and-ReLU pass `cc1__bnrelu_kernel`, an elementwise map
   y = max(x * s + (b - mu * s), 0) with s = rsqrt(var + eps) * g, run over a grid of 16 points, one batch element
   each. Six windows: 0 the activations x (one [1,32,32,32,64] block per point), 1..4 the per-channel vectors g, b,
   mu, var (one [1,64] block, the same at every point), 5 the result, written back to the array window 0 reads.
   Stated at a parameter `V`: the buffer contents found when the region is entered. Every load and store of the
   body is a whole-block rectangle and nothing is carried between points, so what the body leaves in the result's
   buffer is a pure function of the five input blocks at that point. -/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the block was copied in at that point
    or earlier (a block is copied in again only when its index moves), for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the block was copied in at that point
    or earlier (a block is copied in again only when its index moves), for any proof data over `V`'s arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the block was copied in at that point
    or earlier (a block is copied in again only when its index moves), for any proof data over `V`'s arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the block was copied in at that point
    or earlier (a block is copied in again only when its index moves), for any proof data over `V`'s arrays whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the block was copied in at that point
    or earlier (a block is copied in again only when its index moves), for any proof data over `V`'s arrays whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole activation block, the whole channel vector -/

abbrev r1_big : Rect S1x32x32x32x64 := Rect.unit (s := S1x32x32x32x64) ![0, 0, 0, 0, 0] S1x32x32x32x64.size inb_S1x32x32x32x64_S1x32x32x32x64_0_0_0_0_0
abbrev r1_vec : Rect S1x64 := Rect.unit (s := S1x64) ![0, 0] S1x64.size inb_S1x64_S1x64_0_0

/-! ## What the body leaves in the result window's buffer -/

/-- Window 5's staging buffer after the body, as a function of the five input blocks: its one store, of the
    normalised, clamped and rounded activations, over the whole block. -/
def out1_5 (x0 : Vec F S1x32x32x32x64 .bf16) (x1 x2 x3 x4 : Vec F S1x64 .f32) : Vec F S1x32x32x32x64 .bf16 :=
  View.canon [⟨r1_big, k1_pay1 (View.ld x0 r1_big) (View.ld x1 r1_vec) (View.ld x2 r1_vec) (View.ld x3 r1_vec) (View.ld x4 r1_vec)⟩]

/-- The one store is of the whole block, so it covers it. -/
theorem cover1_5 (p0 : Vec F S1x32x32x32x64 .bf16) (y : S1x32x32x32x64.Idx) :
    ∃ pc ∈ ([⟨r1_big, p0⟩] : List (View.Piece (Elt F) S1x32x32x32x64 .bf16)), y ∈ pc.1.set :=
  View.cover_of_tiled [⟨r1_big, p0⟩] S1x32x32x32x64.size (by rfl) y

/-! ## The body's triple -/

set_option maxHeartbeats 1000000 in
/-- The body on whole staging buffers, the inputs' at contents `x0 … x4` and the result's at anything, runs to a
    state with the inputs' as they were and the result's at `out1_5` of them. The grid coordinate is not read. -/
theorem sound_kernel1 (c : Dev nD) (E : Set ℕ) (i : grid1.Coords)
    (arg0 : Memref sig .tc .vmem S1x32x32x32x64 .bf16) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x32x32x32x64 .bf16) (harg5 : arg5.IsWhole)
    (x0 : Vec F S1x32x32x32x64 .bf16) (x1 x2 x3 x4 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bnrelu_kernel i arg0 harg0 arg1 harg1 arg2 harg2 arg3 harg3 arg4 harg4 arg5 harg5) K := by
  simp only [cc1__bnrelu_kernel_eq_skeleton]; unfold cc1__bnrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the result's at `out1_5` of the input blocks; as invariant the rest of the
    core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the same proposition at every point. -/
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KIReg2.lean ====
/- Region 2 of the forward program: the second convolution with its channel statistics. Over a grid of 16 points, one
   batch element each, the body convolves the point's activation block with the weights, stores the result rounded
   to bf16, and adds the result's per-channel sum and sum of squares into two scratch accumulators, which it zeroes
   at the first point and copies into the two small result windows at every point (those are written back after
   the last point only, so what reaches memory is the total over the batch). Five windows: 0 the activations
   (one [1,32,32,32,64] block per point), 1 the weights ([512,64], the same block at every point), 2 the result,
   3 the sum, 4 the sum of squares ([1,64] each). Stated at a parameter `V`: the buffer contents found when the
   region is entered. The two accumulators are carried between points, so the region's invariant holds them at
   the statistics accumulated so far, a recursion over the points. -/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev r2B : Rect S1x32x32x32x64 := Rect.unit (s := S1x32x32x32x64) ![0, 0, 0, 0, 0] S1x32x32x32x64.size inb_S1x32x32x32x64_S1x32x32x32x64_0_0_0_0_0
abbrev r2W : Rect S512x64 := Rect.unit (s := S512x64) ![0, 0] S512x64.size inb_S512x64_S512x64_0_0
abbrev r2S : Rect S1x64 := Rect.unit (s := S1x64) ![0, 0] S1x64.size inb_S1x64_S1x64_0_0

/-! ## The branch of the body: "is this the first batch element?" -/

/-- The condition of the body's one conditional, from the grid coordinate. -/
abbrev cond2 (i : grid2.Coords) : Prop := (Scalar.cmpi .ne (Scalar.extui (Scalar.cmpi .eq (BitVec.ofNat 32 (i 0).val) 0#32)) 0#32) = 1#1
/-- It holds at the first point only (decided over the 16 points). -/
theorem hcond2 : ∀ t : Fin cfg2.N, cond2 (grid2.coords t) ↔ t.val % 16 = 0 :=
  (by decide +kernel : ∀ t : Fin grid2.N, cond2 (grid2.coords t) ↔ t.val % 16 = 0)

/-! ## The pure values of one point, from its two input blocks -/

/-- The convolution's result at one batch element, in f32, from the activation block `x0` and the weights `x1`. -/
def conv2 (x0 : Vec F S1x32x32x32x64 .bf16) (x1 : Vec F S512x64 .f32) : FVec F S32x32x32x64 .f32 :=
  k2_pay22 (k2_pay6 (View.ld x0 r2B)) (k2_pay8 (View.ld x1 r2W)) (k2_pay9 (View.ld x1 r2W)) (k2_pay10 (View.ld x1 r2W)) (k2_pay11 (View.ld x1 r2W))
    (k2_pay12 (View.ld x1 r2W)) (k2_pay13 (View.ld x1 r2W)) (k2_pay14 (View.ld x1 r2W)) (k2_pay15 (View.ld x1 r2W))
    (k2_pay16 (View.ld x0 r2B)) (k2_pay17 (View.ld x0 r2B)) (k2_pay18 (View.ld x0 r2B)) (k2_pay19 (View.ld x0 r2B)) (k2_pay20 (View.ld x0 r2B)) (k2_pay21 (View.ld x0 r2B))

/-- Its sum along the innermost spatial axis (the first stage of the per-channel sum). -/
def convRows2 (x0 : Vec F S1x32x32x32x64 .bf16) (x1 : Vec F S512x64 .f32) : FVec F S32x32x64 .f32 :=
  k2_pay23 (k2_pay6 (View.ld x0 r2B)) (k2_pay8 (View.ld x1 r2W)) (k2_pay9 (View.ld x1 r2W)) (k2_pay10 (View.ld x1 r2W)) (k2_pay11 (View.ld x1 r2W))
    (k2_pay12 (View.ld x1 r2W)) (k2_pay13 (View.ld x1 r2W)) (k2_pay14 (View.ld x1 r2W)) (k2_pay15 (View.ld x1 r2W))
    (k2_pay16 (View.ld x0 r2B)) (k2_pay17 (View.ld x0 r2B)) (k2_pay18 (View.ld x0 r2B)) (k2_pay19 (View.ld x0 r2B)) (k2_pay20 (View.ld x0 r2B)) (k2_pay21 (View.ld x0 r2B))

/-- The result window's buffer after the body: the convolution rounded to bf16, one whole-block store. -/
def out2_2 (x0 : Vec F S1x32x32x32x64 .bf16) (x1 : Vec F S512x64 .f32) : Vec F S1x32x32x32x64 .bf16 :=
  View.canon [⟨r2B, k2_pay3 (conv2 x0 x1)⟩]

/-- The running per-channel sum after this point, from its value `p` before it. -/
def sum2 (x0 : Vec F S1x32x32x32x64 .bf16) (x1 : Vec F S512x64 .f32) (p : Vec F S1x64 .f32) : Vec F S1x64 .f32 :=
  View.canon [⟨r2S, k2_pay1 (convRows2 x0 x1) p⟩]

/-- The running per-channel sum of squares after this point, from its value `p` before it. -/
def sumsq2 (x0 : Vec F S1x32x32x32x64 .bf16) (x1 : Vec F S512x64 .f32) (p : Vec F S1x64 .f32) : Vec F S1x64 .f32 :=
  View.canon [⟨r2S, k2_pay2 (conv2 x0 x1) p⟩]

/-! ## Covers: every store of the body is of a whole buffer -/

theorem cover2B (p0 : r2B.shape.Idx → Elt F .bf16) (y : S1x32x32x32x64.Idx) :
    ∃ pc ∈ ([⟨r2B, p0⟩] : List (View.Piece (Elt F) S1x32x32x32x64 .bf16)), y ∈ pc.1.set :=
  View.cover_of_tiled [⟨r2B, p0⟩] S1x32x32x32x64.size (by rfl) y

theorem cover2S (p0 : r2S.shape.Idx → Elt F .f32) (y : S1x64.Idx) :
    ∃ pc ∈ ([⟨r2S, p0⟩] : List (View.Piece (Elt F) S1x64 .f32)), y ∈ pc.1.set :=
  View.cover_of_tiled [⟨r2S, p0⟩] S1x64.size (by rfl) y

/-- After a whole-buffer store on top of any earlier stores, the buffer reads as that store alone. -/
theorem read_writes_top2 {sp : Space} (v : View sig .tc sp S1x64 .f32) (f : v.ty.Contents (Elt F)) (w : r2S.shape.Idx → Elt F .f32)
    (L : List (View.Piece (Elt F) S1x64 .f32)) : v.read (Elt F) (v.writes (Elt F) f (⟨r2S, w⟩ :: L)) = View.canon [⟨r2S, w⟩] :=
  View.read_writes_eq_canon v (v.writes (Elt F) f L) [⟨r2S, w⟩] (cover2S w)

theorem canon_r2S_congr {w w' : r2S.shape.Idx → Elt F .f32} (h : w = w') :
    View.canon ([⟨r2S, w⟩] : List (View.Piece (Elt F) S1x64 .f32)) = View.canon [⟨r2S, w'⟩] := by rw [h]

/-! ## The body's triple, at the first point (the accumulators are zeroed first) -/

set_option maxHeartbeats 4000000 in
/-- The body at the first point (the conditional taken): the two accumulators, found at anything, are zeroed and
    then receive the point's per-channel sum and sum of squares; the two small result buffers receive copies of them;
    the big result buffer receives the rounded convolution. The inputs' buffers are left as found. -/
theorem sound_kernel2_A (c : Dev nD) (E : Set ℕ) (i : grid2.Coords) (hc : cond2 i)
    (arg0 : Memref sig .tc .vmem S1x32x32x32x64 .bf16) (harg0 : arg0.IsWhole) (arg1 : Memref sig .tc .vmem S512x64 .f32) (harg1 : arg1.IsWhole)
    (arg2 : Memref sig .tc .vmem S1x32x32x32x64 .bf16) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole)
    (x0 : Vec F S1x32x32x32x64 .bf16) (x1 : Vec F S512x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (out2_2 x0 x1)
            ∗ owns (c : Thread nD τ) arg3 fullShare (sum2 x0 x1 k2_pay4) ∗ owns (c : Thread nD τ) arg4 fullShare (sumsq2 x0 x1 k2_pay5)
            ∗ owns (c : Thread nD τ) arg5 fullShare (sum2 x0 x1 k2_pay4) ∗ owns (c : Thread nD τ) arg6 fullShare (sumsq2 x0 x1 k2_pay5)) -∗ K ⟨⟩))
      ⊢ wp frame (wpE (defs₀ (F := F)) Variants.none c none) E (cc2__conv2_kernel i arg0 harg0 arg1 harg1 arg2 harg2 arg3 harg3 arg4 harg4 arg5 harg5 arg6 harg6) K := by
  simp only [cc2__conv2_kernel_eq_skeleton]; unfold cc2__conv2_kernel_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2B _)
  isplitl [H3]
  · iexists _; isplitr
    swap; · iexact H3
    ipureintro
    exact (View.read_writes_eq_canon _ _ _ (cover2S _)).trans (canon_r2S_congr ((View.readCov_cons_toLoadRect arg5.view r2S _ _).trans (congrArg (k2_pay1 _) (View.readCov_cons_toLoadRect arg5.view r2S _ _))))
  isplitl [H4]
  · iexists _; isplitr
    swap; · iexact H4
    ipureintro
    exact (View.read_writes_eq_canon _ _ _ (cover2S _)).trans (canon_r2S_congr ((View.readCov_cons_toLoadRect arg6.view r2S _ _).trans (congrArg (k2_pay2 _) (View.readCov_cons_toLoadRect arg6.view r2S _ _))))
  isplitl [H5]
  · iexists _; isplitr
    swap; · iexact H5
    ipureintro
    exact (read_writes_top2 _ _ _ _).trans (canon_r2S_congr (congrArg (k2_pay1 _) (View.readCov_cons_toLoadRect arg5.view r2S _ _)))
  iexists _; isplitr
  swap; · iexact H6
  ipureintro
  exact (read_writes_top2 _ _ _ _).trans (canon_r2S_congr (congrArg (k2_pay2 _) (View.readCov_cons_toLoadRect arg6.view r2S _ _)))

/-! ## The body's triple, at a later point (the accumulators carry what the points before left) -/

set_option maxHeartbeats 4000000 in
/-- The body at a later point (the conditional not taken): the accumulators, found at `p5` and `p6`, receive the
    point's per-channel sum and sum of squares on top; the small result buffers receive copies. -/
theorem sound_kernel2_B (c : Dev nD) (E : Set ℕ) (i : grid2.Coords) (hc : ¬cond2 i)
    (arg0 : Memref sig .tc .vmem S1x32x32x32x64 .bf16) (harg0 : arg0.IsWhole) (arg1 : Memref sig .tc .vmem S512x64 .f32) (harg1 : arg1.IsWhole)
    (arg2 : Memref sig .tc .vmem S1x32x32x32x64 .bf16) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole)
    (x0 : Vec F S1x32x32x32x64 .bf16) (x1 : Vec F S512x64 .f32) (p5 p6 : Vec F S1x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ owns (c : Thread nD τ) arg5 fullShare p5 ∗ owns (c : Thread nD τ) arg6 fullShare p6
        ∗ (iprop(owns (c : Thread nD τ) arg0 fullShare x0 ∗ owns (c : Thread nD τ) arg1 fullShare x1 ∗ owns (c : Thread nD τ) arg2 fullShare (out2_2 x0 x1)
            ∗ owns (c : Thread nD τ) arg3 fullShare (sum2 x0 x1 (View.ld p5 r2S)) ∗ owns (c : Thread nD τ) arg4 fullShare (sumsq2 x0 x1 (View.ld p6 r2S))
            ∗ owns (c : Thread nD τ) arg5 fullShare (sum2 x0 x1 (View.ld p5 r2S)) ∗ owns (c : Thread nD τ) arg6 fullShare (sumsq2 x0 x1 (View.ld p6 r2S))) -∗ K ⟨⟩))
      ⊢ wp frame (wpE (defs₀ (F := F)) Variants.none c none) E (cc2__conv2_kernel i arg0 harg0 arg1 harg1 arg2 harg2 arg3 harg3 arg4 harg4 arg5 harg5 arg6 harg6) K := by
  simp only [cc2__conv2_kernel_eq_skeleton]; unfold cc2__conv2_kernel_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2B _)
  isplitl [H3]
  · iexists _; isplitr
    swap; · iexact H3
    ipureintro
    exact (View.read_writes_eq_canon _ _ _ (cover2S _)).trans (canon_r2S_congr (View.readCov_cons_toLoadRect arg5.view r2S _ _))
  isplitl [H4]
  · iexists _; isplitr
    swap; · iexact H4
    ipureintro
    exact (View.read_writes_eq_canon _ _ _ (cover2S _)).trans (canon_r2S_congr (View.readCov_cons_toLoadRect arg6.view r2S _ _))
  isplitl [H5]
  · iexists _; isplitr
    swap; · iexact H5
    ipureintro
    exact View.read_writes_eq_canon _ _ _ (cover2S _)
  iexists _; isplitr
  swap; · iexact H6
  ipureintro
  exact View.read_writes_eq_canon _ _ _ (cover2S _)

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the block was copied in at that point
    or earlier (a block is copied in again only when its index moves), for any proof data over `V`'s arrays whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the block was copied in at that point
    or earlier (a block is copied in again only when its index moves), for any proof data over `V`'s arrays whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulators, point by point -/

/-- The per-channel sum accumulated through position `n` of the grid: at the first point the zero fill plus the
    point's sum, at a later point what the point before left plus the point's. -/
def accS2 (c : Dev nD) : (n : ℕ) → n < cfg2.N → Vec F S1x64 .f32
  | 0, hn => sum2 (iblk2 V c 0 ⟨0, hn⟩) (iblk2 V c 1 ⟨0, hn⟩) (k2_pay4 (F := F))
  | n + 1, hn => sum2 (iblk2 V c 0 ⟨n + 1, hn⟩) (iblk2 V c 1 ⟨n + 1, hn⟩) (View.ld (accS2 c n (Nat.lt_of_succ_lt hn)) r2S)

/-- The per-channel sum of squares accumulated through position `n`, likewise. -/
def accQ2 (c : Dev nD) : (n : ℕ) → n < cfg2.N → Vec F S1x64 .f32
  | 0, hn => sumsq2 (iblk2 V c 0 ⟨0, hn⟩) (iblk2 V c 1 ⟨0, hn⟩) (k2_pay5 (F := F))
  | n + 1, hn => sumsq2 (iblk2 V c 0 ⟨n + 1, hn⟩) (iblk2 V c 1 ⟨n + 1, hn⟩) (View.ld (accQ2 c n (Nat.lt_of_succ_lt hn)) r2S)

/-- The big result's buffer after the body at point `t`. -/
def out2_2_at (c : Dev nD) (t : Fin cfg2.N) : Vec F S1x32x32x32x64 .bf16 := out2_2 (iblk2 V c 0 t) (iblk2 V c 1 t)

/-! ## The invariant: the generator register, the two scratch accumulators, the other scoped buffers -/

/-- The two scratch accumulators before point `t`: at anything before the first point, at the statistics accumulated
    over the points before `t` afterwards. -/
def scr2 (c : Dev nD) : Fin (cfg2.N + 1) → sProp 𝕄
  | ⟨0, _⟩ => iprop((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f))
  | ⟨n + 1, h⟩ => iprop(owns (c : Thread nD τ) (Memref.whole cc2_scratch0) fullShare (accS2 V c n (Nat.lt_of_succ_lt_succ h))
        ∗ owns (c : Thread nD τ) (Memref.whole cc2_scratch1) fullShare (accQ2 V c n (Nat.lt_of_succ_lt_succ h)))

/-- The region's invariant before point `t`. -/
def Φ2 (c : Dev nD) (t : Fin (cfg2.N + 1)) : sProp 𝕄 :=
  iprop((∃ r, prngReg c r) ∗ scr2 V c t
    ∗ Pipeline.scopedRestBut (Ix := Unit) (Name := ℕ) (U := UR sig nD τ) (Lvl := ℕ) (Val := Elt F) spec2 c [cc2_scratch0, cc2_scratch1])

/-! ## The pipeline's proof data -/

/-- The proof data of this pipeline on core `c`: the arrays as the region finds them; after the body at point `t`
    each input's buffer at its block, the big result's at the point's rounded convolution, the two small results' at the
    accumulators through `t`; the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2_at V c t
    | ⟨3, _⟩ => accS2 V c t.val t.isLt
    | ⟨4, _⟩ => accQ2 V c t.val t.isLt
  Φ t := Φ2 V c t
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2_at V c t := by dsimp only [dat2]
theorem after2_3 (c : Dev nD) (t : Fin cfg2.N) : (dat2 V c).after 3 t = accS2 V c t.val t.isLt := by dsimp only [dat2]
theorem after2_4 (c : Dev nD) (t : Fin cfg2.N) : (dat2 V c).after 4 t = accQ2 V c t.val t.isLt := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The invariant before the first point, opened. -/
theorem Φ2_zero (c : Dev nD) (h : 0 < cfg2.N + 1) : Φ2 V c ⟨0, h⟩ =
    iprop((∃ r, prngReg c r)
      ∗ iprop((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f))
      ∗ Pipeline.scopedRestBut (Ix := Unit) (Name := ℕ) (U := UR sig nD τ) (Lvl := ℕ) (Val := Elt F) spec2 c [cc2_scratch0, cc2_scratch1]) := rfl

/-- The invariant after `n + 1` points, opened. -/
theorem Φ2_succ (c : Dev nD) (n : ℕ) (h : n + 1 < cfg2.N + 1) : Φ2 V c ⟨n + 1, h⟩ =
    iprop((∃ r, prngReg c r)
      ∗ iprop(owns (c : Thread nD τ) (Memref.whole cc2_scratch0) fullShare (accS2 V c n (Nat.lt_of_succ_lt_succ h))
        ∗ owns (c : Thread nD τ) (Memref.whole cc2_scratch1) fullShare (accQ2 V c n (Nat.lt_of_succ_lt_succ h)))
      ∗ Pipeline.scopedRestBut (Ix := Unit) (Name := ℕ) (U := UR sig nD τ) (Lvl := ℕ) (Val := Elt F) spec2 c [cc2_scratch0, cc2_scratch1]) := rfl

set_option maxHeartbeats 1600000 in
/-- The body at any point: the inputs' buffers hold their blocks; at the first point the conditional is taken and the
    accumulators may hold anything, at a later point it is not and they hold what the point before left (the
    invariant); either way they end at the statistics accumulated through this point, which is the invariant at the
    next point, and the small results' buffers hold copies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    after2_0, after2_1, after2_2, after2_3, after2_4,
    show (dat2 V c).Φ t.castSucc = Φ2 V c t.castSucc from rfl, show (dat2 V c).Φ t.succ = Φ2 V c t.succ from rfl]
  have hN : t.val < 16 := lt_of_lt_of_eq t.isLt (show cfg2.N = 16 from N_2)
  obtain ⟨n, hn⟩ := t
  cases n with
  | zero =>
    rw [show (⟨0, hn⟩ : Fin cfg2.N).castSucc = ⟨0, Nat.succ_pos _⟩ from rfl, Φ2_zero,
      show (⟨0, hn⟩ : Fin cfg2.N).succ = ⟨0 + 1, Nat.succ_lt_succ hn⟩ from rfl, Φ2_succ]
    iintro ⟨⟨Hr, ⟨⟨%g5, H5⟩, ⟨%g6, H6⟩⟩, Hrest⟩, Ho, ⟨%d0, H0⟩, ⟨%d1, H1⟩, ⟨%d2, H2⟩, ⟨%d3, H3⟩, ⟨%d4, H4⟩⟩
    iapply (sound_kernel2_A c Set.univ (grid2.coords ⟨0, hn⟩) ((hcond2 ⟨0, hn⟩).mpr rfl) _ _ _ _ _ _ _ _ _ _ _ _ _ _
      (iblk2 V c 0 ⟨0, hn⟩) (iblk2 V c 1 ⟨0, hn⟩) _)
    isplitl [H0]; · iexact H0
    isplitl [H1]; · iexact H1
    isplitl [H2]; · iexists _; iexact H2
    isplitl [H3]; · iexists _; iexact H3
    isplitl [H4]; · iexists _; iexact H4
    isplitl [H5]; · iexists g5; rw [owns_whole]; iexact H5
    isplitl [H6]; · iexists g6; rw [owns_whole]; iexact H6
    iintro ⟨H0, H1, H2, H3, H4, H5, H6⟩
    isplitl [Hr H5 H6 Hrest]
    · isplitl [Hr]; · iexact Hr
      isplitr [Hrest]
      · isplitl [H5]; · iexact H5
        iexact H6
      iexact Hrest
    isplitl [Ho]; · iexact Ho
    isplitl [H0]; · iexact H0
    isplitl [H1]; · iexact H1
    isplitl [H2]; · iexact H2
    isplitl [H3]; · iexact H3
    iexact H4
  | succ n =>
    rw [show (⟨n + 1, hn⟩ : Fin cfg2.N).castSucc = ⟨n + 1, Nat.lt_succ_of_lt hn⟩ from rfl, Φ2_succ,
      show (⟨n + 1, hn⟩ : Fin cfg2.N).succ = ⟨(n + 1) + 1, Nat.succ_lt_succ hn⟩ from rfl, Φ2_succ]
    iintro ⟨⟨Hr, ⟨H5, H6⟩, Hrest⟩, Ho, ⟨%d0, H0⟩, ⟨%d1, H1⟩, ⟨%d2, H2⟩, ⟨%d3, H3⟩, ⟨%d4, H4⟩⟩
    iapply (sound_kernel2_B c Set.univ (grid2.coords ⟨n + 1, hn⟩)
      (fun h => absurd ((hcond2 ⟨n + 1, hn⟩).mp h) (by dsimp only at hN ⊢; omega)) _ _ _ _ _ _ _ _ _ _ _ _ _ _
      (iblk2 V c 0 ⟨n + 1, hn⟩) (iblk2 V c 1 ⟨n + 1, hn⟩) _ _ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [H6]; · iexact H6
    iintro ⟨H0, H1, H2, H3, H4, H5, H6⟩
    isplitl [Hr H5 H6 Hrest]
    · isplitl [Hr]; · iexact Hr
      isplitr [Hrest]
      · isplitl [H5]; · iexact H5
        iexact H6
      iexact Hrest
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What the assembly takes of the proof data -/

theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem Φ_eq2 (c : Dev nD) (t : Fin (cfg2.N + 1)) : (dat2 V c).Φ t = Φ2 V c t := rfl

/-- The invariant before the first point, from the generator register and the scoped buffers no window stages: the
    two scratch accumulators are among those, at anything. -/
theorem Φ_in2 (c : Dev nD) :
    iprop((∃ r, prngReg c r) ∗ Pipeline.prefHeld (pcfgs (F := F) 2).pre c (fun _ => fullShare) ((cfgs 2).toPCfg_adm).1
        ∗ Pipeline.scopedRest (Ix := Unit) (Name := ℕ) (U := UR sig nD τ) (Lvl := ℕ) (Val := Elt F) spec2 c)
      ⊢ (dat2 V c).Φ 0 := by
  rw [Φ_eq2, show (0 : Fin (cfg2.N + 1)) = ⟨0, Nat.succ_pos _⟩ from rfl, Φ2_zero, scopedRest2_split]
  iintro ⟨Hp, -, Hs, Hrest⟩
  isplitl [Hp]; · iexact Hp
  isplitl [Hs]; · iexact Hs
  iexact Hrest

/-- The invariant after the last point gives the generator register and those scoped buffers back. -/
theorem Φ_out2 (c : Dev nD) :
    (dat2 V c).Φ (Fin.last _)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Φ_eq2, Pipeline.ownSems0_none, scopedRest2_split,
    show (Fin.last cfg2.N : Fin (cfg2.N + 1)) = ⟨15 + 1, by rw [show cfg2.N = 16 from N_2]; decide⟩ from Fin.ext (show cfg2.N = 15 + 1 from N_2), Φ2_succ, owns_whole, owns_whole]
  iintro ⟨Hp, ⟨H5, H6⟩, Hrest⟩
  isplitl [Hp]; · iexact Hp
  isplitr; · iempintro
  isplitr [Hrest]
  · isplitl [H5]; · iexists _; iexact H5
    iexists _; iexact H6
  iexact Hrest

end Cert.KernelIdeal.Hand

end
-- ==== Proof.KIReg3.lean ====
/- Region 3 of the forward program: the batch-normalisation-and-ReLU pass `cc3__bnrelu_kernel`, an elementwise map
   y = max(x * s + (b - mu * s), 0) with s = rsqrt(var + eps) * g, run over a grid of 16 points, one batch element
   each. Six windows: 0 the activations x (one [1,32,32,32,64] block per point), 1..4 the per-channel vectors g, b,
   mu, var (one [1,64] block, the same at every point), 5 the result, written back to the array window 0 reads.
   Stated at a parameter `V`: the buffer contents found when the region is entered. Every load and store of the
   body is a whole-block rectangle and nothing is carried between points, so what the body leaves in the result's
   buffer is a pure function of the five input blocks at that point. -/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the block was copied in at that point
    or earlier (a block is copied in again only when its index moves), for any proof data over `V`'s arrays whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the block was copied in at that point
    or earlier (a block is copied in again only when its index moves), for any proof data over `V`'s arrays whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the block was copied in at that point
    or earlier (a block is copied in again only when its index moves), for any proof data over `V`'s arrays whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the block was copied in at that point
    or earlier (a block is copied in again only when its index moves), for any proof data over `V`'s arrays whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the block was copied in at that point
    or earlier (a block is copied in again only when its index moves), for any proof data over `V`'s arrays whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole activation block, the whole channel vector -/

abbrev r3_big : Rect S1x32x32x32x64 := Rect.unit (s := S1x32x32x32x64) ![0, 0, 0, 0, 0] S1x32x32x32x64.size inb_S1x32x32x32x64_S1x32x32x32x64_0_0_0_0_0
abbrev r3_vec : Rect S1x64 := Rect.unit (s := S1x64) ![0, 0] S1x64.size inb_S1x64_S1x64_0_0

/-! ## What the body leaves in the result window's buffer -/

/-- Window 5's staging buffer after the body, as a function of the five input blocks: its one store, of the
    normalised, clamped and rounded activations, over the whole block. -/
def out3_5 (x0 : Vec F S1x32x32x32x64 .bf16) (x1 x2 x3 x4 : Vec F S1x64 .f32) : Vec F S1x32x32x32x64 .bf16 :=
  View.canon [⟨r3_big, k3_pay1 (View.ld x0 r3_big) (View.ld x1 r3_vec) (View.ld x2 r3_vec) (View.ld x3 r3_vec) (View.ld x4 r3_vec)⟩]

/-- The one store is of the whole block, so it covers it. -/
theorem cover3_5 (p0 : Vec F S1x32x32x32x64 .bf16) (y : S1x32x32x32x64.Idx) :
    ∃ pc ∈ ([⟨r3_big, p0⟩] : List (View.Piece (Elt F) S1x32x32x32x64 .bf16)), y ∈ pc.1.set :=
  View.cover_of_tiled [⟨r3_big, p0⟩] S1x32x32x32x64.size (by rfl) y

/-! ## The body's triple -/

set_option maxHeartbeats 1000000 in
/-- The body on whole staging buffers, the inputs' at contents `x0 … x4` and the result's at anything, runs to a
    state with the inputs' as they were and the result's at `out3_5` of them. The grid coordinate is not read. -/
theorem sound_kernel3 (c : Dev nD) (E : Set ℕ) (i : grid3.Coords)
    (arg0 : Memref sig .tc .vmem S1x32x32x32x64 .bf16) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x32x32x32x64 .bf16) (harg5 : arg5.IsWhole)
    (x0 : Vec F S1x32x32x32x64 .bf16) (x1 x2 x3 x4 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__bnrelu_kernel i arg0 harg0 arg1 harg1 arg2 harg2 arg3 harg3 arg4 harg4 arg5 harg5) K := by
  simp only [cc3__bnrelu_kernel_eq_skeleton]; unfold cc3__bnrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t`
    each input's buffer at its block and the result's at `out3_5` of the input blocks; as invariant the rest of the
    core's scoped memory and its generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same proposition at every point. -/
theorem Φ_eq3 (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KIReg4.lean ====
/- REGION 4 of the forward program, the last convolution (`cc4__conv3to1_kernel`), at a PARAMETER `V`: the
   TensorCore's buffer contents when the region is entered. Three windows: 0 the bf16 activations block of one batch
   element, 1 the whole f32 weight matrix (its block index never moves, so it is fetched at the first point only),
   2 the f32 output block of one batch element, written back at every point. The body reads windows 0 and 1 whole,
   reads the output buffer once (a value it never uses) and stores the output buffer whole; no scratch, nothing carried
   from point to point. So after the body each input buffer holds its block and the output buffer holds ONE pure
   function `out4_2` of the two input blocks. -/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided by a structural recursion once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the point's block at every point, for ANY proof data whose array is `V`'s
    (`hA`) and whose body leaves the block in place (`hafter`): the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the weight matrix at every point, fetched there (the first point) or not (every
    later point: the block index has not moved and the body left the buffer as it found it). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S1x32x32x32x64 := Rect.unit (s := S1x32x32x32x64) ![0, 0, 0, 0, 0] S1x32x32x32x64.size inb_S1x32x32x32x64_S1x32x32x32x64_0_0_0_0_0
abbrev r4_1 : Rect S256x64 := Rect.unit (s := S256x64) ![0, 0] S256x64.size inb_S256x64_S256x64_0_0
abbrev r4_2 : Rect S1x32x64 := Rect.unit (s := S1x32x64) ![0, 0, 0] S1x32x64.size inb_S1x32x64_S1x32x64_0_0_0

/-! ## What the body leaves in the output window's buffer -/

/-- The output buffer after the body, a pure function of the activations block `x0` and the weights `x1`: its one
    store, whole, of the last payload `k4_pay1` applied to the three values the first part returns — the fourth
    64-row slice of the rounded weights (`k4_pay4`), the sum of the three plane-mean products (`k4_pay7`) and the
    global mean row (`k4_pay8`). -/
def out4_2 (x0 : Vec F S1x32x32x32x64 .bf16) (x1 : Vec F S256x64 .f32) : Vec F S1x32x64 .f32 :=
  View.canon [⟨r4_2, k4_pay1 (k4_pay4 (View.ld x1 r4_1)) (k4_pay7 (View.ld x0 r4_0) (View.ld x1 r4_1)) (k4_pay8 (View.ld x0 r4_0))⟩]

/-- The one store is of the whole buffer, so it covers it. -/
theorem cover4_2 (p0 : Vec F S1x32x64 .f32) (y : S1x32x64.Idx) :
    ∃ pc ∈ ([⟨r4_2, p0⟩] : List (View.Piece (Elt F) S1x32x64 .f32)), y ∈ pc.1.set :=
  View.cover_of_tiled [⟨r4_2, p0⟩] S1x32x64.size (by rfl) y

/-! ## The body's triple -/

set_option maxHeartbeats 1000000 in
/-- The kernel body on whole staging memrefs, the two inputs' at read contents `x0`, `x1` and the output's at anything,
    runs to the continuation holding the inputs' as they were and the output's at `out4_2 x0 x1`: the printed function
    and its first part are their skeletons, run operation by operation — two whole loads in the part, then a load of
    the output buffer whose value is dropped, then the one whole store. -/
theorem sound_kernel4 (c : Dev nD) (E : Set ℕ) (i : grid4.Coords)
    (arg1 : Memref sig .tc .vmem S1x32x32x32x64 .bf16) (harg1 : arg1.IsWhole)
    (arg2 : Memref sig .tc .vmem S256x64 .f32) (harg2 : arg2.IsWhole)
    (arg3 : Memref sig .tc .vmem S1x32x64 .f32) (harg3 : arg3.IsWhole)
    (x0 : Vec F S1x32x32x32x64 .bf16) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__conv3to1_kernel i arg1 harg1 arg2 harg2 arg3 harg3) K := by
  unfold owns
  iintro ⟨⟨%f0, %hf0, H0⟩, ⟨%f1, %hf1, H1⟩, ⟨%d2, %f2, -, H2⟩, Hk⟩
  subst hf0 hf1
  sl_unfold [cc4__conv3to1_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them (`V`); after the body at point
    `t` each input's buffer at its block and the output's at `out4_2` of the two input blocks; the invariant is the
    scoped rest and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- The invariant is the class's at every position. -/
theorem Φ_eq4 (c : Dev nD) (t : Fin (cfg4.N + 1)) : (dat4 V c).Φ t = Pipeline.ΦA spec4 c := rfl

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIRun.lean ====
/-
  The run of the whole program, assembled from the five kernel regions' halves.

  Between two items of the program a TensorCore holds every unscoped buffer at a known valuation: the launch memory,
  then, item by item, either the valuation a stretch of host operations leaves, or, for a kernel region, the
  entry valuation with the region's windowed arrays replaced by what the pipeline's write-backs leave in them.
  Each region is entered from the valuation before it and left at the one after it; the generator register and the
  core's (empty) debts ride along.  The run ends with every unscoped buffer at the last valuation, from which the
  frame (no item writes an argument) and the result's contents are read.
-/
import proofs.«145029_j5059471475016_2_alg».proof.Proof.Gen.KernelIdeal.Launch
import proofs.«145029_j5059471475016_2_alg».proof.Proof.Gen.KernelIdeal.Skeleton
import proofs.«145029_j5059471475016_2_alg».proof.Proof.Gen.KernelIdeal.Points
import proofs.«145029_j5059471475016_2_alg».proof.Proof.Gen.KernelIdeal.Regions
import proofs.«145029_j5059471475016_2_alg».proof.Proof.KIReg0
import proofs.«145029_j5059471475016_2_alg».proof.Proof.KIReg1
import proofs.«145029_j5059471475016_2_alg».proof.Proof.KIReg2
import proofs.«145029_j5059471475016_2_alg».proof.Proof.KIReg3
import proofs.«145029_j5059471475016_2_alg».proof.Proof.KIReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A TensorCore's buffer contents, per core, read at the TensorCore's references. -/
abbrev Ent (F : FTy → Type) [FloatOps F] : Type := (c : Dev nD) → (b : Ref sig .tc) → Buf (Elt F) ((c : Thread nD τ).loc b)

/-- What the assembly needs of region 0, whose kernel carries two scratch accumulators across the grid: the proof data at
    any entry contents; its arrays start at those contents; every share whole, nothing owed; the body obligation; and the
    invariant's first and last instances against the generator register and the scoped buffers no window stages. -/
structure Half0 (F : FTy → Type) [FloatOps F] where
  dat : (V : Ent F) → (c : Dev nD) → Dat τ (Elt F) Unit ℕ (UR sig nD τ) ℕ cfg0 c
  A_eq : ∀ V c (w : Fin cfg0.W), (dat V c).A w = V c (Pipeline.arrRef spec0 w)
  q_full : ∀ V c (w : Fin cfg0.W), (dat V c).q w = fullShare
  owed_zero : ∀ V c t, (dat V c).owed t = 0
  recorded_univ : ∀ V c t, (dat V c).recorded t = Set.univ
  body : ∀ V c, BodyObligation (dat V c) (defs₀ (F := F)) Variants.none () Set.univ
  Φ_in : ∀ V c, (iprop((∃ r, prngReg c r) ∗ Pipeline.prefHeld (pcfgs (F := F) 0).pre c (fun _ => fullShare) ((cfgs 0).toPCfg_adm).1
      ∗ Pipeline.scopedRest spec0 c) : sProp (MT nD τ sig Unit (Elt F) ℕ (UR sig nD τ) ℕ)) ⊢ (dat V c).Φ 0
  Φ_out : ∀ V c, (dat V c).Φ (Fin.last cfg0.N) ⊢ (iprop((∃ r, prngReg c r) ∗ Pipeline.ownSems0 (fun k : PEmpty => k.elim) c
      ∗ Pipeline.scopedRest spec0 c) : sProp (MT nD τ sig Unit (Elt F) ℕ (UR sig nD τ) ℕ))

/-- What the assembly needs of region 2, whose kernel carries two scratch accumulators across the grid: the proof data at
    any entry contents; its arrays start at those contents; every share whole, nothing owed; the body obligation; and the
    invariant's first and last instances against the generator register and the scoped buffers no window stages. -/
structure Half2 (F : FTy → Type) [FloatOps F] where
  dat : (V : Ent F) → (c : Dev nD) → Dat τ (Elt F) Unit ℕ (UR sig nD τ) ℕ cfg2 c
  A_eq : ∀ V c (w : Fin cfg2.W), (dat V c).A w = V c (Pipeline.arrRef spec2 w)
  q_full : ∀ V c (w : Fin cfg2.W), (dat V c).q w = fullShare
  owed_zero : ∀ V c t, (dat V c).owed t = 0
  recorded_univ : ∀ V c t, (dat V c).recorded t = Set.univ
  body : ∀ V c, BodyObligation (dat V c) (defs₀ (F := F)) Variants.none () Set.univ
  Φ_in : ∀ V c, (iprop((∃ r, prngReg c r) ∗ Pipeline.prefHeld (pcfgs (F := F) 2).pre c (fun _ => fullShare) ((cfgs 2).toPCfg_adm).1
      ∗ Pipeline.scopedRest spec2 c) : sProp (MT nD τ sig Unit (Elt F) ℕ (UR sig nD τ) ℕ)) ⊢ (dat V c).Φ 0
  Φ_out : ∀ V c, (dat V c).Φ (Fin.last cfg2.N) ⊢ (iprop((∃ r, prngReg c r) ∗ Pipeline.ownSems0 (fun k : PEmpty => k.elim) c
      ∗ Pipeline.scopedRest spec2 c) : sProp (MT nD τ sig Unit (Elt F) ℕ (UR sig nD τ) ℕ))

/-- The two scratch-carrying regions' halves together. -/
structure Halves (F : FTy → Type) [FloatOps F] where
  h0 : Half0 F
  h2 : Half2 F

variable (P : Halves F)
variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => m (c, b)
/-- The same read at the TensorCore's references. -/
abbrev E0 : Ent F := fun c b => B0 m c (Proc.devRef .tc b)

/-- After region 0: its arrays at what the pipeline's write-backs leave, every other buffer as the region found it. -/
def B1 (c : Dev nD) : Valuation τ sig (Elt F) :=
  Pipeline.withArrays spec0 c (B0 m c) fun w => (P.h0.dat (E0 m) c).arrAt w cfg0.N
theorem B1_arr (c : Dev nD) (w : Fin cfg0.W) :
    B1 P m c (Proc.devRef .tc (Pipeline.arrRef spec0 w)) = (P.h0.dat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 P m c (Proc.devRef .tc b) = B0 m c (Proc.devRef .tc b) := by
  unfold B1; exact Pipeline.withArrays_of_ne spec0 c _ _ b hb
abbrev E1 : Ent F := fun c b => B1 P m c (Proc.devRef .tc b)
theorem hF0 (c : Dev nD) (w : Fin cfg0.W) : (P.h0.dat (E0 m) c).arrAt w cfg0.N = E1 P m c (Pipeline.arrRef spec0 w) :=
  (B1_arr P m c w).symm
theorem hrest0 (c : Dev nD) : ∀ b, b ∉ Finset.univ.image (Pipeline.arrRef spec0) → E1 P m c b = E0 m c b :=
  fun b hb => B1_of_ne P m c b fun w e => hb (Finset.mem_image.mpr ⟨w, Finset.mem_univ _, e⟩)
/-- Region 0 leaves every buffer that is not one of its OUTPUT windows' arrays as it found it: an input window's array is
    read, never written back. -/
theorem B1_keep (c : Dev nD) (b : Ref sig .tc) (hb : ∀ w : Fin cfg0.W, (cfg0.win w).isOut = true → Pipeline.arrRef spec0 w ≠ b) :
    B1 P m c (Proc.devRef .tc b) = B0 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    rw [B1_arr]
    exact ((P.h0.dat (E0 m) c).arrAt_in w hin _).trans (P.h0.A_eq (E0 m) c w)
  · exact B1_of_ne P m c b fun w e => h ⟨w, e⟩

/-- After the host stretch `hostOps1`. -/
abbrev B2 : Dev nD → Valuation τ sig (Elt F) := fun c => StableHlo.after hostOps1 (B1 P m c)
abbrev E2 : Ent F := fun c b => B2 P m c (Proc.devRef .tc b)
theorem B2_keep (c : Dev nD) (r : Ref sig .tc) (h : r ∉ hostOps1_W) :
    B2 P m c (Proc.devRef .tc r) = B1 P m c (Proc.devRef .tc r) :=
  StableHlo.after_of_writes_sub hostOps1 _ hostOps1_writes h

/-- After region 1: its arrays at what the pipeline's write-backs leave, every other buffer as the region found it. -/
def B3 (c : Dev nD) : Valuation τ sig (Elt F) :=
  Pipeline.withArrays spec1 c (B2 P m c) fun w => (dat1 (E2 P m) c).arrAt w cfg1.N
theorem B3_arr (c : Dev nD) (w : Fin cfg1.W) :
    B3 P m c (Proc.devRef .tc (Pipeline.arrRef spec1 w)) = (dat1 (E2 P m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 P m c (Proc.devRef .tc b) = B2 P m c (Proc.devRef .tc b) := by
  unfold B3; exact Pipeline.withArrays_of_ne spec1 c _ _ b hb
abbrev E3 : Ent F := fun c b => B3 P m c (Proc.devRef .tc b)
theorem hF1 (c : Dev nD) (w : Fin cfg1.W) : (dat1 (E2 P m) c).arrAt w cfg1.N = E3 P m c (Pipeline.arrRef spec1 w) :=
  (B3_arr P m c w).symm
theorem hrest1 (c : Dev nD) : ∀ b, b ∉ Finset.univ.image (Pipeline.arrRef spec1) → E3 P m c b = E2 P m c b :=
  fun b hb => B3_of_ne P m c b fun w e => hb (Finset.mem_image.mpr ⟨w, Finset.mem_univ _, e⟩)
/-- Region 1 leaves every buffer that is not one of its OUTPUT windows' arrays as it found it: an input window's array is
    read, never written back. -/
theorem B3_keep (c : Dev nD) (b : Ref sig .tc) (hb : ∀ w : Fin cfg1.W, (cfg1.win w).isOut = true → Pipeline.arrRef spec1 w ≠ b) :
    B3 P m c (Proc.devRef .tc b) = B2 P m c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    rw [B3_arr]
    exact ((dat1 (E2 P m) c).arrAt_in w hin _).trans (A_eq1 (E2 P m) c w)
  · exact B3_of_ne P m c b fun w e => h ⟨w, e⟩

/-- After region 2: its arrays at what the pipeline's write-backs leave, every other buffer as the region found it. -/
def B4 (c : Dev nD) : Valuation τ sig (Elt F) :=
  Pipeline.withArrays spec2 c (B3 P m c) fun w => (P.h2.dat (E3 P m) c).arrAt w cfg2.N
theorem B4_arr (c : Dev nD) (w : Fin cfg2.W) :
    B4 P m c (Proc.devRef .tc (Pipeline.arrRef spec2 w)) = (P.h2.dat (E3 P m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 P m c (Proc.devRef .tc b) = B3 P m c (Proc.devRef .tc b) := by
  unfold B4; exact Pipeline.withArrays_of_ne spec2 c _ _ b hb
abbrev E4 : Ent F := fun c b => B4 P m c (Proc.devRef .tc b)
theorem hF2 (c : Dev nD) (w : Fin cfg2.W) : (P.h2.dat (E3 P m) c).arrAt w cfg2.N = E4 P m c (Pipeline.arrRef spec2 w) :=
  (B4_arr P m c w).symm
theorem hrest2 (c : Dev nD) : ∀ b, b ∉ Finset.univ.image (Pipeline.arrRef spec2) → E4 P m c b = E3 P m c b :=
  fun b hb => B4_of_ne P m c b fun w e => hb (Finset.mem_image.mpr ⟨w, Finset.mem_univ _, e⟩)
/-- Region 2 leaves every buffer that is not one of its OUTPUT windows' arrays as it found it: an input window's array is
    read, never written back. -/
theorem B4_keep (c : Dev nD) (b : Ref sig .tc) (hb : ∀ w : Fin cfg2.W, (cfg2.win w).isOut = true → Pipeline.arrRef spec2 w ≠ b) :
    B4 P m c (Proc.devRef .tc b) = B3 P m c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    rw [B4_arr]
    exact ((P.h2.dat (E3 P m) c).arrAt_in w hin _).trans (P.h2.A_eq (E3 P m) c w)
  · exact B4_of_ne P m c b fun w e => h ⟨w, e⟩

/-- After the host stretch `hostOps3`. -/
abbrev B5 : Dev nD → Valuation τ sig (Elt F) := fun c => StableHlo.after hostOps3 (B4 P m c)
abbrev E5 : Ent F := fun c b => B5 P m c (Proc.devRef .tc b)
theorem B5_keep (c : Dev nD) (r : Ref sig .tc) (h : r ∉ hostOps3_W) :
    B5 P m c (Proc.devRef .tc r) = B4 P m c (Proc.devRef .tc r) :=
  StableHlo.after_of_writes_sub hostOps3 _ hostOps3_writes h

/-- After region 3: its arrays at what the pipeline's write-backs leave, every other buffer as the region found it. -/
def B6 (c : Dev nD) : Valuation τ sig (Elt F) :=
  Pipeline.withArrays spec3 c (B5 P m c) fun w => (dat3 (E5 P m) c).arrAt w cfg3.N
theorem B6_arr (c : Dev nD) (w : Fin cfg3.W) :
    B6 P m c (Proc.devRef .tc (Pipeline.arrRef spec3 w)) = (dat3 (E5 P m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 P m c (Proc.devRef .tc b) = B5 P m c (Proc.devRef .tc b) := by
  unfold B6; exact Pipeline.withArrays_of_ne spec3 c _ _ b hb
abbrev E6 : Ent F := fun c b => B6 P m c (Proc.devRef .tc b)
theorem hF3 (c : Dev nD) (w : Fin cfg3.W) : (dat3 (E5 P m) c).arrAt w cfg3.N = E6 P m c (Pipeline.arrRef spec3 w) :=
  (B6_arr P m c w).symm
theorem hrest3 (c : Dev nD) : ∀ b, b ∉ Finset.univ.image (Pipeline.arrRef spec3) → E6 P m c b = E5 P m c b :=
  fun b hb => B6_of_ne P m c b fun w e => hb (Finset.mem_image.mpr ⟨w, Finset.mem_univ _, e⟩)
/-- Region 3 leaves every buffer that is not one of its OUTPUT windows' arrays as it found it: an input window's array is
    read, never written back. -/
theorem B6_keep (c : Dev nD) (b : Ref sig .tc) (hb : ∀ w : Fin cfg3.W, (cfg3.win w).isOut = true → Pipeline.arrRef spec3 w ≠ b) :
    B6 P m c (Proc.devRef .tc b) = B5 P m c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    rw [B6_arr]
    exact ((dat3 (E5 P m) c).arrAt_in w hin _).trans (A_eq3 (E5 P m) c w)
  · exact B6_of_ne P m c b fun w e => h ⟨w, e⟩

/-- After region 4: its arrays at what the pipeline's write-backs leave, every other buffer as the region found it. -/
def B7 (c : Dev nD) : Valuation τ sig (Elt F) :=
  Pipeline.withArrays spec4 c (B6 P m c) fun w => (dat4 (E6 P m) c).arrAt w cfg4.N
theorem B7_arr (c : Dev nD) (w : Fin cfg4.W) :
    B7 P m c (Proc.devRef .tc (Pipeline.arrRef spec4 w)) = (dat4 (E6 P m) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 P m c (Proc.devRef .tc b) = B6 P m c (Proc.devRef .tc b) := by
  unfold B7; exact Pipeline.withArrays_of_ne spec4 c _ _ b hb
abbrev E7 : Ent F := fun c b => B7 P m c (Proc.devRef .tc b)
theorem hF4 (c : Dev nD) (w : Fin cfg4.W) : (dat4 (E6 P m) c).arrAt w cfg4.N = E7 P m c (Pipeline.arrRef spec4 w) :=
  (B7_arr P m c w).symm
theorem hrest4 (c : Dev nD) : ∀ b, b ∉ Finset.univ.image (Pipeline.arrRef spec4) → E7 P m c b = E6 P m c b :=
  fun b hb => B7_of_ne P m c b fun w e => hb (Finset.mem_image.mpr ⟨w, Finset.mem_univ _, e⟩)
/-- Region 4 leaves every buffer that is not one of its OUTPUT windows' arrays as it found it: an input window's array is
    read, never written back. -/
theorem B7_keep (c : Dev nD) (b : Ref sig .tc) (hb : ∀ w : Fin cfg4.W, (cfg4.win w).isOut = true → Pipeline.arrRef spec4 w ≠ b) :
    B7 P m c (Proc.devRef .tc b) = B6 P m c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    rw [B7_arr]
    exact ((dat4 (E6 P m) c).arrAt_in w hin _).trans (A_eq4 (E6 P m) c w)
  · exact B7_of_ne P m c b fun w e => h ⟨w, e⟩

/-- After the host stretch `hostOps5`. -/
abbrev B8 : Dev nD → Valuation τ sig (Elt F) := fun c => StableHlo.after hostOps5 (B7 P m c)
abbrev E8 : Ent F := fun c b => B8 P m c (Proc.devRef .tc b)
theorem B8_keep (c : Dev nD) (r : Ref sig .tc) (h : r ∉ hostOps5_W) :
    B8 P m c (Proc.devRef .tc r) = B7 P m c (Proc.devRef .tc r) :=
  StableHlo.after_of_writes_sub hostOps5 _ hostOps5_writes h

/-- After the host stretch `hostOps5_1`. -/
abbrev B9 : Dev nD → Valuation τ sig (Elt F) := fun c => StableHlo.after hostOps5_1 (B8 P m c)
abbrev E9 : Ent F := fun c b => B9 P m c (Proc.devRef .tc b)
theorem B9_keep (c : Dev nD) (r : Ref sig .tc) (h : r ∉ hostOps5_1_W) :
    B9 P m c (Proc.devRef .tc r) = B8 P m c (Proc.devRef .tc r) :=
  StableHlo.after_of_writes_sub hostOps5_1 _ hostOps5_1_writes h

/-- After the host stretch `hostOps5_2`. -/
abbrev B10 : Dev nD → Valuation τ sig (Elt F) := fun c => StableHlo.after hostOps5_2 (B9 P m c)
abbrev E10 : Ent F := fun c b => B10 P m c (Proc.devRef .tc b)
theorem B10_keep (c : Dev nD) (r : Ref sig .tc) (h : r ∉ hostOps5_2_W) :
    B10 P m c (Proc.devRef .tc r) = B9 P m c (Proc.devRef .tc r) :=
  StableHlo.after_of_writes_sub hostOps5_2 _ hostOps5_2_writes h

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal match, so that the pinned configuration
    at a numeral reduces to the printed one. -/
def pdats : (p : Fin 5) → (c : Dev nD) → Dat τ (Elt F) Unit ℕ (UR sig nD τ) ℕ (Pipeline.pin (pcfgs (F := F)) adm p) c
  | ⟨0, _⟩ => fun c => P.h0.dat (E0 m) c
  | ⟨1, _⟩ => fun c => dat1 (E2 P m) c
  | ⟨2, _⟩ => fun c => P.h2.dat (E3 P m) c
  | ⟨3, _⟩ => fun c => dat3 (E5 P m) c
  | ⟨4, _⟩ => fun c => dat4 (E6 P m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- REGION 0 over the thread state: entered from every unscoped buffer at `B0`, left at `B1`. Its arrays are split
    out of the unscoped buffers and put back at what the pipeline leaves in them; the generator register goes into the
    region's invariant and comes back; nothing is owed; the kernel has no semaphore of its own. -/
def reg0 : Pipeline.RegionSeg (pcfgs (F := F)) adm (pdats P m) () defs₀ 𝒱₀ L lv 0 where
  win := launch0.win.to₀
  block_pos := launch0.block_pos
  stage_whole := launch0.stage_whole
  K := PEmpty
  osem k := k.elim
  ho := Pipeline.OwnSemFacts.none _
  hbody c := (P.h0.body (E0 m) c).loose
  hwaits := Pipeline.hwaits_of_owed_zero _ _ _ _ L lv 0 (fun c t => P.h0.owed_zero _ c t)
  pre c := iprop(StableHlo.held (c : Thread nD τ) (Pipeline.ucRefs τ sig) (B0 m c) ∗ R c)
  post c := iprop(StableHlo.held (c : Thread nD τ) (Pipeline.ucRefs τ sig) (B1 P m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats P m) launch0.win launch0.arr_whole c
      ((pdats P m 0 c).share_full fun w => P.h0.q_full _ c w) (E0 m c) fun _ => (P.h0.A_eq _ c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P m 0 c).owed 0 = 0 from P.h0.owed_zero (E0 m) c 0]
      icases HO with ⟨%W, HO⟩; iexists W; isplitr
      · ipureintro; exact fun _ _ => Or.inl (by rw [show (pdats P m 0 c).recorded 0 = Set.univ from P.h0.recorded_univ (E0 m) c 0]; exact Set.mem_univ _)
      iexact HO
    isplitl [Hp]; · iexact Hp
    iexact Hrest
  hin c := P.h0.Φ_in (E0 m) c
  hout c := P.h0.Φ_out (E0 m) c
  hexit c := by
    have hjoin := Pipeline.unscopedBufs_of_arrays (p := 0) (pcfgs (F := F)) adm (Ix := Unit) (Name := ℕ) (U := UR sig nD τ) (Lvl := ℕ)
      launch0.win launch0.arr_whole c (pdats P m) ((pdats P m 0 c).share_full fun w => P.h0.q_full _ c w)
      (E0 m c) (E1 P m c) ((pdats P m 0 c).arrAt · cfg0.N) (hF0 P m c) (hrest0 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P m 0 c).owed (Fin.last (Pipeline.pin (pcfgs (F := F)) adm 0).N) = 0 from P.h0.owed_zero (E0 m) c _]
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `B2`, left at `B3`. Its arrays are split
    out of the unscoped buffers and put back at what the pipeline leaves in them; the generator register goes into the
    region's invariant and comes back; nothing is owed; the kernel has no semaphore of its own. -/
def reg1 : Pipeline.RegionSeg (pcfgs (F := F)) adm (pdats P m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 P m) c).loose
  hwaits := Pipeline.hwaits_of_owed_zero _ _ _ _ L lv 1 (fun _ _ => rfl)
  pre c := iprop(StableHlo.held (c : Thread nD τ) (Pipeline.ucRefs τ sig) (B2 P m c) ∗ R c)
  post c := iprop(StableHlo.held (c : Thread nD τ) (Pipeline.ucRefs τ sig) (B3 P m c) ∗ R c)
  X c := iprop(∃ r, prngReg c r)
  Y c := iprop(∃ r, prngReg c r)
  Z c := Pipeline.unscopedRest (Ix := Unit) (Name := ℕ) (U := UR sig nD τ) (Lvl := ℕ) spec1 c (E2 P m c)
  hentry c := by
    rw [Pipeline.ownSems0_none]
    have hsplit := Pipeline.arrays_of_unscopedBufs (p := 1) (pcfgs (F := F)) adm (pdats P m) launch1.win launch1.arr_whole c
      ((pdats P m 1 c).share_full fun _ => rfl) (E2 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats P m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P m) ((pdats P m 1 c).share_full fun _ => rfl)
      (E2 P m c) (E3 P m c) ((pdats P m 1 c).arrAt · cfg1.N) (hF1 P m c) (hrest1 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `B3`, left at `B4`. Its arrays are split
    out of the unscoped buffers and put back at what the pipeline leaves in them; the generator register goes into the
    region's invariant and comes back; nothing is owed; the kernel has no semaphore of its own. -/
def reg2 : Pipeline.RegionSeg (pcfgs (F := F)) adm (pdats P m) () defs₀ 𝒱₀ L lv 2 where
  win := launch2.win.to₀
  block_pos := launch2.block_pos
  stage_whole := launch2.stage_whole
  K := PEmpty
  osem k := k.elim
  ho := Pipeline.OwnSemFacts.none _
  hbody c := (P.h2.body (E3 P m) c).loose
  hwaits := Pipeline.hwaits_of_owed_zero _ _ _ _ L lv 2 (fun c t => P.h2.owed_zero _ c t)
  pre c := iprop(StableHlo.held (c : Thread nD τ) (Pipeline.ucRefs τ sig) (B3 P m c) ∗ R c)
  post c := iprop(StableHlo.held (c : Thread nD τ) (Pipeline.ucRefs τ sig) (B4 P m c) ∗ R c)
  X c := iprop(∃ r, prngReg c r)
  Y c := iprop(∃ r, prngReg c r)
  Z c := Pipeline.unscopedRest (Ix := Unit) (Name := ℕ) (U := UR sig nD τ) (Lvl := ℕ) spec2 c (E3 P m c)
  hentry c := by
    rw [Pipeline.ownSems0_none]
    have hsplit := Pipeline.arrays_of_unscopedBufs (p := 2) (pcfgs (F := F)) adm (pdats P m) launch2.win launch2.arr_whole c
      ((pdats P m 2 c).share_full fun w => P.h2.q_full _ c w) (E3 P m c) fun _ => (P.h2.A_eq _ c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P m 2 c).owed 0 = 0 from P.h2.owed_zero (E3 P m) c 0]
      icases HO with ⟨%W, HO⟩; iexists W; isplitr
      · ipureintro; exact fun _ _ => Or.inl (by rw [show (pdats P m 2 c).recorded 0 = Set.univ from P.h2.recorded_univ (E3 P m) c 0]; exact Set.mem_univ _)
      iexact HO
    isplitl [Hp]; · iexact Hp
    iexact Hrest
  hin c := P.h2.Φ_in (E3 P m) c
  hout c := P.h2.Φ_out (E3 P m) c
  hexit c := by
    have hjoin := Pipeline.unscopedBufs_of_arrays (p := 2) (pcfgs (F := F)) adm (Ix := Unit) (Name := ℕ) (U := UR sig nD τ) (Lvl := ℕ)
      launch2.win launch2.arr_whole c (pdats P m) ((pdats P m 2 c).share_full fun w => P.h2.q_full _ c w)
      (E3 P m c) (E4 P m c) ((pdats P m 2 c).arrAt · cfg2.N) (hF2 P m c) (hrest2 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P m 2 c).owed (Fin.last (Pipeline.pin (pcfgs (F := F)) adm 2).N) = 0 from P.h2.owed_zero (E3 P m) c _]
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `B5`, left at `B6`. Its arrays are split
    out of the unscoped buffers and put back at what the pipeline leaves in them; the generator register goes into the
    region's invariant and comes back; nothing is owed; the kernel has no semaphore of its own. -/
def reg3 : Pipeline.RegionSeg (pcfgs (F := F)) adm (pdats P m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 P m) c).loose
  hwaits := Pipeline.hwaits_of_owed_zero _ _ _ _ L lv 3 (fun _ _ => rfl)
  pre c := iprop(StableHlo.held (c : Thread nD τ) (Pipeline.ucRefs τ sig) (B5 P m c) ∗ R c)
  post c := iprop(StableHlo.held (c : Thread nD τ) (Pipeline.ucRefs τ sig) (B6 P m c) ∗ R c)
  X c := iprop(∃ r, prngReg c r)
  Y c := iprop(∃ r, prngReg c r)
  Z c := Pipeline.unscopedRest (Ix := Unit) (Name := ℕ) (U := UR sig nD τ) (Lvl := ℕ) spec3 c (E5 P m c)
  hentry c := by
    rw [Pipeline.ownSems0_none]
    have hsplit := Pipeline.arrays_of_unscopedBufs (p := 3) (pcfgs (F := F)) adm (pdats P m) launch3.win launch3.arr_whole c
      ((pdats P m 3 c).share_full fun _ => rfl) (E5 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats P m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats P m) ((pdats P m 3 c).share_full fun _ => rfl)
      (E5 P m c) (E6 P m c) ((pdats P m 3 c).arrAt · cfg3.N) (hF3 P m c) (hrest3 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `B6`, left at `B7`. Its arrays are split
    out of the unscoped buffers and put back at what the pipeline leaves in them; the generator register goes into the
    region's invariant and comes back; nothing is owed; the kernel has no semaphore of its own. -/
def reg4 : Pipeline.RegionSeg (pcfgs (F := F)) adm (pdats P m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 P m) c).loose
  hwaits := Pipeline.hwaits_of_owed_zero _ _ _ _ L lv 4 (fun _ _ => rfl)
  pre c := iprop(StableHlo.held (c : Thread nD τ) (Pipeline.ucRefs τ sig) (B6 P m c) ∗ R c)
  post c := iprop(StableHlo.held (c : Thread nD τ) (Pipeline.ucRefs τ sig) (B7 P m c) ∗ R c)
  X c := iprop(∃ r, prngReg c r)
  Y c := iprop(∃ r, prngReg c r)
  Z c := Pipeline.unscopedRest (Ix := Unit) (Name := ℕ) (U := UR sig nD τ) (Lvl := ℕ) spec4 c (E6 P m c)
  hentry c := by
    rw [Pipeline.ownSems0_none]
    have hsplit := Pipeline.arrays_of_unscopedBufs (p := 4) (pcfgs (F := F)) adm (pdats P m) launch4.win launch4.arr_whole c
      ((pdats P m 4 c).share_full fun _ => rfl) (E6 P m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats P m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats P m) ((pdats P m 4 c).share_full fun _ => rfl)
      (E6 P m c) (E7 P m c) ((pdats P m 4 c).arrAt · cfg4.N) (hF4 P m c) (hrest4 P m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The ten items in order. -/
abbrev segs : List (Pipeline.Seg (pcfgs (F := F)) adm (pdats P m) () defs₀ 𝒱₀ L lv) :=
  [ .region (reg0 P m),
    .host (hseg hostOps1 hostOps1_sub hostOps1_fresh (B1 P m)),
    .region (reg1 P m),
    .region (reg2 P m),
    .host (hseg hostOps3 hostOps3_sub hostOps3_fresh (B4 P m)),
    .region (reg3 P m),
    .region (reg4 P m),
    .host (hseg hostOps5 hostOps5_sub hostOps5_fresh (B7 P m)),
    .host (hseg hostOps5_1 hostOps5_1_sub hostOps5_1_fresh (B8 P m)),
    .host (hseg hostOps5_2 hostOps5_2_sub hostOps5_2_fresh (B9 P m)) ]

-- the library theorem's implicit arguments are found by unifying its conclusion with this one, which takes unfolding plain
-- definitions in a metavariable's type
set_option backward.isDefEq.respectTransparency.types false in
/-- THE RUN: from any memory with zero counters every weakly fair execution of the program terminates, nothing faulting,
    and every final state has every unscoped buffer of every core at the last valuation `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 P m c b) :=
  Pipeline.θ_run_regions_kit (pcfgs (F := F)) adm (pdats P m) () cellOf_inj emb₁ defs₀ 𝒱₀ L lv m ρ main (segs P m)
    (fun c Q => by
      rewrite [main_chain c, Pipeline.Seg.run_eq_chain,
        show (segs P m).map Pipeline.Seg.prog = [
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          StableHlo.seq hostOps5_1,
          StableHlo.seq hostOps5_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B10 P m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (B10 P m c) ∗ R c) : sProp 𝕄)
          ⊢ iprop((StableHlo.held (c : Thread nD τ) (Pipeline.ucRefs τ sig) (B10 P m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 P m c b)
    (hfin := fun c s' => by
      iintro ⟨⟨Hh, -⟩, HSI⟩
      unfold StableHlo.held
      imodintro
      iapply (pointsTo_read_all (Pipeline.ucRefs τ sig) (fun b => (((c : Thread nD τ)).1, b)) (B10 P m c) s')
      isplitl [Hh] <;> iassumption)
    (hQ := fun s h c => h c)

/-! ## The arguments end as launched

No stretch of host operations writes an argument and no region has one as an output window's array, so the last
valuation at an argument's buffer walks back to the launch memory. -/

theorem B10_main_arg0 (c : Dev nD) : B10 P m c (Proc.devRef .tc main_arg0) = m ((c : Thread nD τ).loc main_arg0) :=
  ((B10_keep P m c main_arg0 (by decide)).trans <| (B9_keep P m c main_arg0 (by decide)).trans <| (B8_keep P m c main_arg0 (by decide)).trans <|
    (B7_keep P m c main_arg0 (by decide)).trans <| (B6_keep P m c main_arg0 (by decide)).trans <| (B5_keep P m c main_arg0 (by decide)).trans <|
    (B4_keep P m c main_arg0 (by decide)).trans <| (B3_keep P m c main_arg0 (by decide)).trans <| (B2_keep P m c main_arg0 (by decide)).trans <|
    (B1_keep P m c main_arg0 (by decide)).trans rfl)

theorem B10_main_arg1 (c : Dev nD) : B10 P m c (Proc.devRef .tc main_arg1) = m ((c : Thread nD τ).loc main_arg1) :=
  ((B10_keep P m c main_arg1 (by decide)).trans <| (B9_keep P m c main_arg1 (by decide)).trans <| (B8_keep P m c main_arg1 (by decide)).trans <|
    (B7_keep P m c main_arg1 (by decide)).trans <| (B6_keep P m c main_arg1 (by decide)).trans <| (B5_keep P m c main_arg1 (by decide)).trans <|
    (B4_keep P m c main_arg1 (by decide)).trans <| (B3_keep P m c main_arg1 (by decide)).trans <| (B2_keep P m c main_arg1 (by decide)).trans <|
    (B1_keep P m c main_arg1 (by decide)).trans rfl)

theorem B10_main_arg2 (c : Dev nD) : B10 P m c (Proc.devRef .tc main_arg2) = m ((c : Thread nD τ).loc main_arg2) :=
  ((B10_keep P m c main_arg2 (by decide)).trans <| (B9_keep P m c main_arg2 (by decide)).trans <| (B8_keep P m c main_arg2 (by decide)).trans <|
    (B7_keep P m c main_arg2 (by decide)).trans <| (B6_keep P m c main_arg2 (by decide)).trans <| (B5_keep P m c main_arg2 (by decide)).trans <|
    (B4_keep P m c main_arg2 (by decide)).trans <| (B3_keep P m c main_arg2 (by decide)).trans <| (B2_keep P m c main_arg2 (by decide)).trans <|
    (B1_keep P m c main_arg2 (by decide)).trans rfl)

theorem B10_main_arg3 (c : Dev nD) : B10 P m c (Proc.devRef .tc main_arg3) = m ((c : Thread nD τ).loc main_arg3) :=
  ((B10_keep P m c main_arg3 (by decide)).trans <| (B9_keep P m c main_arg3 (by decide)).trans <| (B8_keep P m c main_arg3 (by decide)).trans <|
    (B7_keep P m c main_arg3 (by decide)).trans <| (B6_keep P m c main_arg3 (by decide)).trans <| (B5_keep P m c main_arg3 (by decide)).trans <|
    (B4_keep P m c main_arg3 (by decide)).trans <| (B3_keep P m c main_arg3 (by decide)).trans <| (B2_keep P m c main_arg3 (by decide)).trans <|
    (B1_keep P m c main_arg3 (by decide)).trans rfl)

theorem B10_main_arg4 (c : Dev nD) : B10 P m c (Proc.devRef .tc main_arg4) = m ((c : Thread nD τ).loc main_arg4) :=
  ((B10_keep P m c main_arg4 (by decide)).trans <| (B9_keep P m c main_arg4 (by decide)).trans <| (B8_keep P m c main_arg4 (by decide)).trans <|
    (B7_keep P m c main_arg4 (by decide)).trans <| (B6_keep P m c main_arg4 (by decide)).trans <| (B5_keep P m c main_arg4 (by decide)).trans <|
    (B4_keep P m c main_arg4 (by decide)).trans <| (B3_keep P m c main_arg4 (by decide)).trans <| (B2_keep P m c main_arg4 (by decide)).trans <|
    (B1_keep P m c main_arg4 (by decide)).trans rfl)

theorem B10_main_arg5 (c : Dev nD) : B10 P m c (Proc.devRef .tc main_arg5) = m ((c : Thread nD τ).loc main_arg5) :=
  ((B10_keep P m c main_arg5 (by decide)).trans <| (B9_keep P m c main_arg5 (by decide)).trans <| (B8_keep P m c main_arg5 (by decide)).trans <|
    (B7_keep P m c main_arg5 (by decide)).trans <| (B6_keep P m c main_arg5 (by decide)).trans <| (B5_keep P m c main_arg5 (by decide)).trans <|
    (B4_keep P m c main_arg5 (by decide)).trans <| (B3_keep P m c main_arg5 (by decide)).trans <| (B2_keep P m c main_arg5 (by decide)).trans <|
    (B1_keep P m c main_arg5 (by decide)).trans rfl)

theorem B10_main_arg6 (c : Dev nD) : B10 P m c (Proc.devRef .tc main_arg6) = m ((c : Thread nD τ).loc main_arg6) :=
  ((B10_keep P m c main_arg6 (by decide)).trans <| (B9_keep P m c main_arg6 (by decide)).trans <| (B8_keep P m c main_arg6 (by decide)).trans <|
    (B7_keep P m c main_arg6 (by decide)).trans <| (B6_keep P m c main_arg6 (by decide)).trans <| (B5_keep P m c main_arg6 (by decide)).trans <|
    (B4_keep P m c main_arg6 (by decide)).trans <| (B3_keep P m c main_arg6 (by decide)).trans <| (B2_keep P m c main_arg6 (by decide)).trans <|
    (B1_keep P m c main_arg6 (by decide)).trans rfl)

theorem B10_main_arg7 (c : Dev nD) : B10 P m c (Proc.devRef .tc main_arg7) = m ((c : Thread nD τ).loc main_arg7) :=
  ((B10_keep P m c main_arg7 (by decide)).trans <| (B9_keep P m c main_arg7 (by decide)).trans <| (B8_keep P m c main_arg7 (by decide)).trans <|
    (B7_keep P m c main_arg7 (by decide)).trans <| (B6_keep P m c main_arg7 (by decide)).trans <| (B5_keep P m c main_arg7 (by decide)).trans <|
    (B4_keep P m c main_arg7 (by decide)).trans <| (B3_keep P m c main_arg7 (by decide)).trans <| (B2_keep P m c main_arg7 (by decide)).trans <|
    (B1_keep P m c main_arg7 (by decide)).trans rfl)

theorem B10_main_arg8 (c : Dev nD) : B10 P m c (Proc.devRef .tc main_arg8) = m ((c : Thread nD τ).loc main_arg8) :=
  ((B10_keep P m c main_arg8 (by decide)).trans <| (B9_keep P m c main_arg8 (by decide)).trans <| (B8_keep P m c main_arg8 (by decide)).trans <|
    (B7_keep P m c main_arg8 (by decide)).trans <| (B6_keep P m c main_arg8 (by decide)).trans <| (B5_keep P m c main_arg8 (by decide)).trans <|
    (B4_keep P m c main_arg8 (by decide)).trans <| (B3_keep P m c main_arg8 (by decide)).trans <| (B2_keep P m c main_arg8 (by decide)).trans <|
    (B1_keep P m c main_arg8 (by decide)).trans rfl)

theorem B10_main_arg9 (c : Dev nD) : B10 P m c (Proc.devRef .tc main_arg9) = m ((c : Thread nD τ).loc main_arg9) :=
  ((B10_keep P m c main_arg9 (by decide)).trans <| (B9_keep P m c main_arg9 (by decide)).trans <| (B8_keep P m c main_arg9 (by decide)).trans <|
    (B7_keep P m c main_arg9 (by decide)).trans <| (B6_keep P m c main_arg9 (by decide)).trans <| (B5_keep P m c main_arg9 (by decide)).trans <|
    (B4_keep P m c main_arg9 (by decide)).trans <| (B3_keep P m c main_arg9 (by decide)).trans <| (B2_keep P m c main_arg9 (by decide)).trans <|
    (B1_keep P m c main_arg9 (by decide)).trans rfl)

theorem B10_main_arg10 (c : Dev nD) : B10 P m c (Proc.devRef .tc main_arg10) = m ((c : Thread nD τ).loc main_arg10) :=
  ((B10_keep P m c main_arg10 (by decide)).trans <| (B9_keep P m c main_arg10 (by decide)).trans <| (B8_keep P m c main_arg10 (by decide)).trans <|
    (B7_keep P m c main_arg10 (by decide)).trans <| (B6_keep P m c main_arg10 (by decide)).trans <| (B5_keep P m c main_arg10 (by decide)).trans <|
    (B4_keep P m c main_arg10 (by decide)).trans <| (B3_keep P m c main_arg10 (by decide)).trans <| (B2_keep P m c main_arg10 (by decide)).trans <|
    (B1_keep P m c main_arg10 (by decide)).trans rfl)

theorem B10_main_arg11 (c : Dev nD) : B10 P m c (Proc.devRef .tc main_arg11) = m ((c : Thread nD τ).loc main_arg11) :=
  ((B10_keep P m c main_arg11 (by decide)).trans <| (B9_keep P m c main_arg11 (by decide)).trans <| (B8_keep P m c main_arg11 (by decide)).trans <|
    (B7_keep P m c main_arg11 (by decide)).trans <| (B6_keep P m c main_arg11 (by decide)).trans <| (B5_keep P m c main_arg11 (by decide)).trans <|
    (B4_keep P m c main_arg11 (by decide)).trans <| (B3_keep P m c main_arg11 (by decide)).trans <| (B2_keep P m c main_arg11 (by decide)).trans <|
    (B1_keep P m c main_arg11 (by decide)).trans rfl)

include P in
/-- THE FRAME at any `F`: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (B10_main_arg0 P m c),
     (h c _ (mem_uc main_arg1 (by decide))).trans (B10_main_arg1 P m c),
     (h c _ (mem_uc main_arg2 (by decide))).trans (B10_main_arg2 P m c),
     (h c _ (mem_uc main_arg3 (by decide))).trans (B10_main_arg3 P m c),
     (h c _ (mem_uc main_arg4 (by decide))).trans (B10_main_arg4 P m c),
     (h c _ (mem_uc main_arg5 (by decide))).trans (B10_main_arg5 P m c),
     (h c _ (mem_uc main_arg6 (by decide))).trans (B10_main_arg6 P m c),
     (h c _ (mem_uc main_arg7 (by decide))).trans (B10_main_arg7 P m c),
     (h c _ (mem_uc main_arg8 (by decide))).trans (B10_main_arg8 P m c),
     (h c _ (mem_uc main_arg9 (by decide))).trans (B10_main_arg9 P m c),
     (h c _ (mem_uc main_arg10 (by decide))).trans (B10_main_arg10 P m c),
     (h c _ (mem_uc main_arg11 (by decide))).trans (B10_main_arg11 P m c)⟩)
    (run_all P m ρ)

/-- The run with the result named: the result buffer ends at the last valuation's contents, the arguments as launched. -/
theorem run_main : θ_run defs (onTc (τ := τ) (main (F := F))) ⟨m, fun _ => 0, ρ⟩ (fun r => ∀ c : Dev nD,
      r.2.mem ((c.tc : Thread nD τ).loc main_v43) = B10 P m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v43 (by decide)),
     (h c _ (mem_uc main_arg0 (by decide))).trans (B10_main_arg0 P m c),
     (h c _ (mem_uc main_arg1 (by decide))).trans (B10_main_arg1 P m c),
     (h c _ (mem_uc main_arg2 (by decide))).trans (B10_main_arg2 P m c),
     (h c _ (mem_uc main_arg3 (by decide))).trans (B10_main_arg3 P m c),
     (h c _ (mem_uc main_arg4 (by decide))).trans (B10_main_arg4 P m c),
     (h c _ (mem_uc main_arg5 (by decide))).trans (B10_main_arg5 P m c),
     (h c _ (mem_uc main_arg6 (by decide))).trans (B10_main_arg6 P m c),
     (h c _ (mem_uc main_arg7 (by decide))).trans (B10_main_arg7 P m c),
     (h c _ (mem_uc main_arg8 (by decide))).trans (B10_main_arg8 P m c),
     (h c _ (mem_uc main_arg9 (by decide))).trans (B10_main_arg9 P m c),
     (h c _ (mem_uc main_arg10 (by decide))).trans (B10_main_arg10 P m c),
     (h c _ (mem_uc main_arg11 (by decide))).trans (B10_main_arg11 P m c)⟩)
    (run_all P m ρ)

/-! ## The halves as proved -/

omit m ρ P in
/-- The two scratch-carrying regions' halves: the proof data that carry the channel sums and the sums of squares across
    the sixteen grid points in the two scratch accumulators. -/
def halves : Halves F where
  h0 := { dat := dat0, A_eq := A_eq0, q_full := q_eq0, owed_zero := owed_eq0, recorded_univ := recorded_eq0,
          body := body_obligation0, Φ_in := Φ_in0, Φ_out := Φ_out0 }
  h2 := { dat := dat2, A_eq := A_eq2, q_full := q_eq2, owed_zero := owed_eq2, recorded_univ := recorded_eq2,
          body := body_obligation2, Φ_in := Φ_in2, Φ_out := Φ_out2 }

end Cert.KernelIdeal.Hand

end
-- ==== Proof.RefDefs.lean ====
/-
  The reference's mathematics as named stages. Each definition is the composition of the pure tensor operations the
  reference applies, in the reference's own order and spelling, cut at the meaningful intermediate tensors: the expanded
  input, the seven means an equivariant layer takes, the lifts of lower-order fields back to order 3, each layer's
  tensor before normalisation, the batch statistics, the normalised tensors, and the result.
  Nothing is proved here; the run of the reference (RefRun) states that the program computes `refOut`.
-/
import proofs.«145029_j5059471475016_2_alg».proof.Proof.Gen.ReferenceIdeal

noncomputable section

namespace Cert.ReferenceIdeal.Hand

open Cert.ReferenceIdeal Cert.ReferenceIdeal.Gen Idealize.ShloMosaic

variable {F : FTy → Type} [FloatOps F]

/-- The order-2 input expanded to order 3: entry `(b, i, j, k)` holds the 16 channels of `x b i j`, then those of `x b i k`, then those of `x b j k` — each a broadcast along the missing axis, the three laid side by side along the channel axis (48 channels). -/
def xExp (x : (⟨S16x32x32x16, .f32⟩ : BufTy).Contents (Elt F)) :
    (⟨S16x32x32x32x48, .f32⟩ : BufTy).Contents (Elt F) :=
  concatenate S16x32x32x32x48 4 [⟨S16x32x32x32x16, broadcastInDim S16x32x32x32x16 ![0, 1, 2, 3, 4] bcast_S16x32x32x1x16_S16x32x32x32x16_0_1_2_3_4 (broadcastInDim S16x32x32x1x16 ![0, 1, 2, 4] bcast_S16x32x32x16_S16x32x32x1x16_0_1_2_4 x)⟩, ⟨S16x32x32x32x16, broadcastInDim S16x32x32x32x16 ![0, 1, 2, 3, 4] bcast_S16x32x1x32x16_S16x32x32x32x16_0_1_2_3_4 (broadcastInDim S16x32x1x32x16 ![0, 1, 3, 4] bcast_S16x32x32x16_S16x32x1x32x16_0_1_3_4 x)⟩, ⟨S16x32x32x32x16, broadcastInDim S16x32x32x32x16 ![0, 1, 2, 3, 4] bcast_S16x1x32x32x16_S16x32x32x32x16_0_1_2_3_4 (broadcastInDim S16x1x32x32x16 ![0, 2, 3, 4] bcast_S16x32x32x16_S16x1x32x32x16_0_2_3_4 x)⟩] concatenates_S16x32x32x32x16_S16x32x32x32x16_S16x32x32x32x16_S16x32x32x32x48_d4

/-- The mean over axis 1 (`i`) of a 48-channel order-3 tensor: the sum over the 32 values divided by 32. -/
def mean48_d1 (h : (⟨S16x32x32x32x48, .f32⟩ : BufTy).Contents (Elt F)) :
    (⟨S16x32x32x48, .f32⟩ : BufTy).Contents (Elt F) :=
  Host.divf
    (Host.reduceAdd h (constant S_ .f32 0x00000000#32) reducesTo_S16x32x32x32x48_S16x32x32x48_d1 h_S_)
    (broadcastInDim S16x32x32x48 ![] bcast_S_S16x32x32x48 (constant S_ .f32 0x42000000#32))

/-- The mean over axis 2 (`j`). -/
def mean48_d2 (h : (⟨S16x32x32x32x48, .f32⟩ : BufTy).Contents (Elt F)) :
    (⟨S16x32x32x48, .f32⟩ : BufTy).Contents (Elt F) :=
  Host.divf
    (Host.reduceAdd h (constant S_ .f32 0x00000000#32) reducesTo_S16x32x32x32x48_S16x32x32x48_d2 h_S_)
    (broadcastInDim S16x32x32x48 ![] bcast_S_S16x32x32x48 (constant S_ .f32 0x42000000#32))

/-- The mean over axis 3 (`k`). -/
def mean48_d3 (h : (⟨S16x32x32x32x48, .f32⟩ : BufTy).Contents (Elt F)) :
    (⟨S16x32x32x48, .f32⟩ : BufTy).Contents (Elt F) :=
  Host.divf
    (Host.reduceAdd h (constant S_ .f32 0x00000000#32) reducesTo_S16x32x32x32x48_S16x32x32x48_d3 h_S_)
    (broadcastInDim S16x32x32x48 ![] bcast_S_S16x32x32x48 (constant S_ .f32 0x42000000#32))

/-- The mean over axes 2 and 3 (`j`, `k`): the sum over 1024 values divided by 1024. -/
def mean48_d23 (h : (⟨S16x32x32x32x48, .f32⟩ : BufTy).Contents (Elt F)) :
    (⟨S16x32x48, .f32⟩ : BufTy).Contents (Elt F) :=
  Host.divf
    (Host.reduceAdd h (constant S_ .f32 0x00000000#32) reducesTo_S16x32x32x32x48_S16x32x48_d2_3 h_S_)
    (broadcastInDim S16x32x48 ![] bcast_S_S16x32x48 (constant S_ .f32 0x44800000#32))

/-- The mean over axes 1 and 3 (`i`, `k`). -/
def mean48_d13 (h : (⟨S16x32x32x32x48, .f32⟩ : BufTy).Contents (Elt F)) :
    (⟨S16x32x48, .f32⟩ : BufTy).Contents (Elt F) :=
  Host.divf
    (Host.reduceAdd h (constant S_ .f32 0x00000000#32) reducesTo_S16x32x32x32x48_S16x32x48_d1_3 h_S_)
    (broadcastInDim S16x32x48 ![] bcast_S_S16x32x48 (constant S_ .f32 0x44800000#32))

/-- The mean over axes 1 and 2 (`i`, `j`). -/
def mean48_d12 (h : (⟨S16x32x32x32x48, .f32⟩ : BufTy).Contents (Elt F)) :
    (⟨S16x32x48, .f32⟩ : BufTy).Contents (Elt F) :=
  Host.divf
    (Host.reduceAdd h (constant S_ .f32 0x00000000#32) reducesTo_S16x32x32x32x48_S16x32x48_d1_2 h_S_)
    (broadcastInDim S16x32x48 ![] bcast_S_S16x32x48 (constant S_ .f32 0x44800000#32))

/-- The mean over axes 1, 2 and 3: the sum over 32768 values divided by 32768. -/
def mean48_d123 (h : (⟨S16x32x32x32x48, .f32⟩ : BufTy).Contents (Elt F)) :
    (⟨S16x48, .f32⟩ : BufTy).Contents (Elt F) :=
  Host.divf
    (Host.reduceAdd h (constant S_ .f32 0x00000000#32) reducesTo_S16x32x32x32x48_S16x48_d1_2_3 h_S_)
    (broadcastInDim S16x48 ![] bcast_S_S16x48 (constant S_ .f32 0x47000000#32))

/-- An order-2 field over `(j, k)` read at every `i`: `(lift_d1 u) b i j k = u b j k`. -/
def lift_d1 (u : (⟨S16x32x32x64, .f32⟩ : BufTy).Contents (Elt F)) :
    (⟨S16x32x32x32x64, .f32⟩ : BufTy).Contents (Elt F) :=
  broadcastInDim S16x32x32x32x64 ![0, 1, 2, 3, 4] bcast_S16x1x32x32x64_S16x32x32x32x64_0_1_2_3_4
    (broadcastInDim S16x1x32x32x64 ![0, 2, 3, 4] bcast_S16x32x32x64_S16x1x32x32x64_0_2_3_4 u)

/-- An order-2 field over `(i, k)` read at every `j`: `(lift_d2 u) b i j k = u b i k`. -/
def lift_d2 (u : (⟨S16x32x32x64, .f32⟩ : BufTy).Contents (Elt F)) :
    (⟨S16x32x32x32x64, .f32⟩ : BufTy).Contents (Elt F) :=
  broadcastInDim S16x32x32x32x64 ![0, 1, 2, 3, 4] bcast_S16x32x1x32x64_S16x32x32x32x64_0_1_2_3_4
    (broadcastInDim S16x32x1x32x64 ![0, 1, 3, 4] bcast_S16x32x32x64_S16x32x1x32x64_0_1_3_4 u)

/-- An order-2 field over `(i, j)` read at every `k`: `(lift_d3 u) b i j k = u b i j`. -/
def lift_d3 (u : (⟨S16x32x32x64, .f32⟩ : BufTy).Contents (Elt F)) :
    (⟨S16x32x32x32x64, .f32⟩ : BufTy).Contents (Elt F) :=
  broadcastInDim S16x32x32x32x64 ![0, 1, 2, 3, 4] bcast_S16x32x32x1x64_S16x32x32x32x64_0_1_2_3_4
    (broadcastInDim S16x32x32x1x64 ![0, 1, 2, 4] bcast_S16x32x32x64_S16x32x32x1x64_0_1_2_4 u)

/-- An order-1 field over `i` read at every `(j, k)`: `(lift_i u) b i j k = u b i`. -/
def lift_i (u : (⟨S16x32x64, .f32⟩ : BufTy).Contents (Elt F)) :
    (⟨S16x32x32x32x64, .f32⟩ : BufTy).Contents (Elt F) :=
  broadcastInDim S16x32x32x32x64 ![0, 1, 2, 3, 4] bcast_S16x32x1x1x64_S16x32x32x32x64_0_1_2_3_4
    (broadcastInDim S16x32x1x1x64 ![0, 1, 4] bcast_S16x32x64_S16x32x1x1x64_0_1_4 u)

/-- An order-1 field over `j` read at every `(i, k)`: `(lift_j u) b i j k = u b j`. -/
def lift_j (u : (⟨S16x32x64, .f32⟩ : BufTy).Contents (Elt F)) :
    (⟨S16x32x32x32x64, .f32⟩ : BufTy).Contents (Elt F) :=
  broadcastInDim S16x32x32x32x64 ![0, 1, 2, 3, 4] bcast_S16x1x32x1x64_S16x32x32x32x64_0_1_2_3_4
    (broadcastInDim S16x1x32x1x64 ![0, 2, 4] bcast_S16x32x64_S16x1x32x1x64_0_2_4 u)

/-- An order-1 field over `k` read at every `(i, j)`: `(lift_k u) b i j k = u b k`. -/
def lift_k (u : (⟨S16x32x64, .f32⟩ : BufTy).Contents (Elt F)) :
    (⟨S16x32x32x32x64, .f32⟩ : BufTy).Contents (Elt F) :=
  broadcastInDim S16x32x32x32x64 ![0, 1, 2, 3, 4] bcast_S16x1x1x32x64_S16x32x32x32x64_0_1_2_3_4
    (broadcastInDim S16x1x1x32x64 ![0, 3, 4] bcast_S16x32x64_S16x1x1x32x64_0_3_4 u)

/-- An order-0 field read at every `(i, j, k)`: `(lift_0 u) b i j k = u b`. -/
def lift_0 (u : (⟨S16x64, .f32⟩ : BufTy).Contents (Elt F)) :
    (⟨S16x32x32x32x64, .f32⟩ : BufTy).Contents (Elt F) :=
  broadcastInDim S16x32x32x32x64 ![0, 1, 2, 3, 4] bcast_S16x1x1x1x64_S16x32x32x32x64_0_1_2_3_4
    (broadcastInDim S16x1x1x1x64 ![0, 4] bcast_S16x64_S16x1x1x1x64_0_4 u)

/-- The first equivariant layer before normalisation, over the expanded input `h`, its seven means and the node features `xn`: the sum, in this order, of `h`, of each mean lifted back to order 3, and of `xn` lifted along each of the three axes, each contracted over its channels with its own block of rows of the weights (eight blocks of 48 rows of `W1`, three of 8 rows of `Wn1`). -/
def pre1Of (h : (⟨S16x32x32x32x48, .f32⟩ : BufTy).Contents (Elt F)) (m1 : (⟨S16x32x32x48, .f32⟩ : BufTy).Contents (Elt F)) (m2 : (⟨S16x32x32x48, .f32⟩ : BufTy).Contents (Elt F)) (m3 : (⟨S16x32x32x48, .f32⟩ : BufTy).Contents (Elt F)) (m23 : (⟨S16x32x48, .f32⟩ : BufTy).Contents (Elt F)) (m13 : (⟨S16x32x48, .f32⟩ : BufTy).Contents (Elt F)) (m12 : (⟨S16x32x48, .f32⟩ : BufTy).Contents (Elt F)) (m123 : (⟨S16x48, .f32⟩ : BufTy).Contents (Elt F)) (xn : (⟨S16x32x8, .f32⟩ : BufTy).Contents (Elt F)) (W1 : (⟨S384x64, .f32⟩ : BufTy).Contents (Elt F)) (Wn1 : (⟨S24x64, .f32⟩ : BufTy).Contents (Elt F)) :
    (⟨S16x32x32x32x64, .f32⟩ : BufTy).Contents (Elt F) :=
  addf
    (addf
       (addf
          (addf
             (addf
                (addf
                   (addf
                      (addf
                         (addf
                            (addf
                               (Host.dotGeneral dot_S16x32x32x32x48_S48x64_S16x32x32x32x64_4_0_0123_1_n_n none h
                                  (extractStridedSlice S48x64 ![0, 0] W1 slices_S384x64_S48x64_0_0))
                               (lift_d1
                                  (Host.dotGeneral dot_S16x32x32x48_S48x64_S16x32x32x64_3_0_012_1_n_n none m1
                                     (extractStridedSlice S48x64 ![48, 0] W1 slices_S384x64_S48x64_48_0))))
                            (lift_d2
                               (Host.dotGeneral dot_S16x32x32x48_S48x64_S16x32x32x64_3_0_012_1_n_n none m2
                                  (extractStridedSlice S48x64 ![96, 0] W1 slices_S384x64_S48x64_96_0))))
                         (lift_d3
                            (Host.dotGeneral dot_S16x32x32x48_S48x64_S16x32x32x64_3_0_012_1_n_n none m3
                               (extractStridedSlice S48x64 ![144, 0] W1 slices_S384x64_S48x64_144_0))))
                      (lift_i
                         (Host.dotGeneral dot_S16x32x48_S48x64_S16x32x64_2_0_01_1_n_n none m23
                            (extractStridedSlice S48x64 ![192, 0] W1 slices_S384x64_S48x64_192_0))))
                   (lift_j
                      (Host.dotGeneral dot_S16x32x48_S48x64_S16x32x64_2_0_01_1_n_n none m13
                         (extractStridedSlice S48x64 ![240, 0] W1 slices_S384x64_S48x64_240_0))))
                (lift_k
                   (Host.dotGeneral dot_S16x32x48_S48x64_S16x32x64_2_0_01_1_n_n none m12
                      (extractStridedSlice S48x64 ![288, 0] W1 slices_S384x64_S48x64_288_0))))
             (lift_0
                (Host.dotGeneral dot_S16x48_S48x64_S16x64_1_0_0_1_n_n none m123 (extractStridedSlice S48x64 ![336, 0] W1 slices_S384x64_S48x64_336_0))))
          (lift_i (Host.dotGeneral dot_S16x32x8_S8x64_S16x32x64_2_0_01_1_n_n none xn (extractStridedSlice S8x64 ![0, 0] Wn1 slices_S24x64_S8x64_0_0))))
       (lift_j (Host.dotGeneral dot_S16x32x8_S8x64_S16x32x64_2_0_01_1_n_n none xn (extractStridedSlice S8x64 ![8, 0] Wn1 slices_S24x64_S8x64_8_0))))
    (lift_k (Host.dotGeneral dot_S16x32x8_S8x64_S16x32x64_2_0_01_1_n_n none xn (extractStridedSlice S8x64 ![16, 0] Wn1 slices_S24x64_S8x64_16_0)))

/-- The first layer before normalisation, its seven means taken of `h` itself. -/
def pre1 (h : (⟨S16x32x32x32x48, .f32⟩ : BufTy).Contents (Elt F)) (xn : (⟨S16x32x8, .f32⟩ : BufTy).Contents (Elt F)) (W1 : (⟨S384x64, .f32⟩ : BufTy).Contents (Elt F)) (Wn1 : (⟨S24x64, .f32⟩ : BufTy).Contents (Elt F)) :
    (⟨S16x32x32x32x64, .f32⟩ : BufTy).Contents (Elt F) :=
  pre1Of h (mean48_d1 h) (mean48_d2 h) (mean48_d3 h) (mean48_d23 h) (mean48_d13 h) (mean48_d12 h) (mean48_d123 h) xn W1 Wn1

/-- The per-channel mean over the batch and the three node axes: the sum over 524288 values divided by 524288. -/
def bnMean5 (y : (⟨S16x32x32x32x64, .f32⟩ : BufTy).Contents (Elt F)) :
    (⟨S64, .f32⟩ : BufTy).Contents (Elt F) :=
  Host.divf
    (Host.reduceAdd y (constant S_ .f32 0x00000000#32) reducesTo_S16x32x32x32x64_S64_d0_1_2_3 h_S_)
    (broadcastInDim S64 ![] bcast_S_S64 (constant S_ .f32 0x49000000#32))

/-- `y` minus its per-channel mean (the mean read at every entry). -/
def centered5 (y : (⟨S16x32x32x32x64, .f32⟩ : BufTy).Contents (Elt F)) :
    (⟨S16x32x32x32x64, .f32⟩ : BufTy).Contents (Elt F) :=
  subf y
    (broadcastInDim S16x32x32x32x64 ![0, 1, 2, 3, 4] bcast_S1x1x1x1x64_S16x32x32x32x64_0_1_2_3_4
       (Host.divf
          (broadcastInDim S1x1x1x1x64 ![4] bcast_S64_S1x1x1x1x64_4
             (Host.reduceAdd y (constant S_ .f32 0x00000000#32) reducesTo_S16x32x32x32x64_S64_d0_1_2_3 h_S_))
          (broadcastInDim S1x1x1x1x64 ![] bcast_S_S1x1x1x1x64 (constant S_ .f32 0x49000000#32))))

/-- The per-channel (biased) variance as the reference's variance routine spells it: the sum of the squares of `centered5 y` divided by `524288 - 0`, selected against the not-a-number constant on whether `524288 - 0 > 0`. -/
def bnVar5 (y : (⟨S16x32x32x32x64, .f32⟩ : BufTy).Contents (Elt F)) :
    (⟨S64, .f32⟩ : BufTy).Contents (Elt F) :=
  select
    (broadcastInDim S64 ![] bcast_S_S64
       (cmpf .ogt
          (subf (constant S_ .f32 0x49000000#32) (sitofp .f32 (constantI S_ 32 0#32)) : (⟨S_, .f32⟩ : BufTy).Contents (Elt F))
          (constant S_ .f32 0x00000000#32)))
    (Host.divf
       (Host.reduceAdd (mulf (centered5 y) (centered5 y)) (constant S_ .f32 0x00000000#32) reducesTo_S16x32x32x32x64_S64_d0_1_2_3 h_S_)
       (broadcastInDim S64 ![] bcast_S_S64 (subf (constant S_ .f32 0x49000000#32) (sitofp .f32 (constantI S_ 32 0#32)))))
    (broadcastInDim S64 ![] bcast_S_S64 (id (constant S_ .f32 0x7FC00000#32)))

/-- Batch normalisation per channel: `(y - mean) * rsqrt (var + ε) * g + b` with `ε` the f32 constant nearest `1e-5`, the four per-channel vectors read at every entry. -/
def bnNorm5 (y : (⟨S16x32x32x32x64, .f32⟩ : BufTy).Contents (Elt F)) (g : (⟨S64, .f32⟩ : BufTy).Contents (Elt F)) (b : (⟨S64, .f32⟩ : BufTy).Contents (Elt F)) :
    (⟨S16x32x32x32x64, .f32⟩ : BufTy).Contents (Elt F) :=
  addf
    (mulf
       (mulf
          (subf y
             (broadcastInDim S16x32x32x32x64 ![0, 1, 2, 3, 4] bcast_S1x1x1x1x64_S16x32x32x32x64_0_1_2_3_4
                (broadcastInDim S1x1x1x1x64 ![4] bcast_S64_S1x1x1x1x64_4 (bnMean5 y))))
          (broadcastInDim S16x32x32x32x64 ![0, 1, 2, 3, 4] bcast_S1x1x1x1x64_S16x32x32x32x64_0_1_2_3_4
             (broadcastInDim S1x1x1x1x64 ![4] bcast_S64_S1x1x1x1x64_4
                (Host.rsqrt (addf (bnVar5 y) (broadcastInDim S64 ![] bcast_S_S64 (constant S_ .f32 0x3727C5AC#32)))))))
       (broadcastInDim S16x32x32x32x64 ![0, 1, 2, 3, 4] bcast_S1x1x1x1x64_S16x32x32x32x64_0_1_2_3_4 (broadcastInDim S1x1x1x1x64 ![4] bcast_S64_S1x1x1x1x64_4 g)))
    (broadcastInDim S16x32x32x32x64 ![0, 1, 2, 3, 4] bcast_S1x1x1x1x64_S16x32x32x32x64_0_1_2_3_4 (broadcastInDim S1x1x1x1x64 ![4] bcast_S64_S1x1x1x1x64_4 b))

/-- The positive part: the maximum with zero, entry by entry. -/
def relu5 (z : (⟨S16x32x32x32x64, .f32⟩ : BufTy).Contents (Elt F)) :
    (⟨S16x32x32x32x64, .f32⟩ : BufTy).Contents (Elt F) :=
  maximumf z (broadcastInDim S16x32x32x32x64 ![] bcast_S_S16x32x32x32x64 (constant S_ .f32 0x00000000#32))

/-- The mean over axis 1 of a 64-channel order-3 tensor (divisor 32). -/
def mean64_d1 (h : (⟨S16x32x32x32x64, .f32⟩ : BufTy).Contents (Elt F)) :
    (⟨S16x32x32x64, .f32⟩ : BufTy).Contents (Elt F) :=
  Host.divf
    (Host.reduceAdd h (constant S_ .f32 0x00000000#32) reducesTo_S16x32x32x32x64_S16x32x32x64_d1 h_S_)
    (broadcastInDim S16x32x32x64 ![] bcast_S_S16x32x32x64 (constant S_ .f32 0x42000000#32))

/-- The mean over axis 2 (divisor 32). -/
def mean64_d2 (h : (⟨S16x32x32x32x64, .f32⟩ : BufTy).Contents (Elt F)) :
    (⟨S16x32x32x64, .f32⟩ : BufTy).Contents (Elt F) :=
  Host.divf
    (Host.reduceAdd h (constant S_ .f32 0x00000000#32) reducesTo_S16x32x32x32x64_S16x32x32x64_d2 h_S_)
    (broadcastInDim S16x32x32x64 ![] bcast_S_S16x32x32x64 (constant S_ .f32 0x42000000#32))

/-- The mean over axis 3 (divisor 32). -/
def mean64_d3 (h : (⟨S16x32x32x32x64, .f32⟩ : BufTy).Contents (Elt F)) :
    (⟨S16x32x32x64, .f32⟩ : BufTy).Contents (Elt F) :=
  Host.divf
    (Host.reduceAdd h (constant S_ .f32 0x00000000#32) reducesTo_S16x32x32x32x64_S16x32x32x64_d3 h_S_)
    (broadcastInDim S16x32x32x64 ![] bcast_S_S16x32x32x64 (constant S_ .f32 0x42000000#32))

/-- The mean over axes 2 and 3 (divisor 1024). -/
def mean64_d23 (h : (⟨S16x32x32x32x64, .f32⟩ : BufTy).Contents (Elt F)) :
    (⟨S16x32x64, .f32⟩ : BufTy).Contents (Elt F) :=
  Host.divf
    (Host.reduceAdd h (constant S_ .f32 0x00000000#32) reducesTo_S16x32x32x32x64_S16x32x64_d2_3 h_S_)
    (broadcastInDim S16x32x64 ![] bcast_S_S16x32x64 (constant S_ .f32 0x44800000#32))

/-- The mean over axes 1 and 3 (divisor 1024). -/
def mean64_d13 (h : (⟨S16x32x32x32x64, .f32⟩ : BufTy).Contents (Elt F)) :
    (⟨S16x32x64, .f32⟩ : BufTy).Contents (Elt F) :=
  Host.divf
    (Host.reduceAdd h (constant S_ .f32 0x00000000#32) reducesTo_S16x32x32x32x64_S16x32x64_d1_3 h_S_)
    (broadcastInDim S16x32x64 ![] bcast_S_S16x32x64 (constant S_ .f32 0x44800000#32))

/-- The mean over axes 1 and 2 (divisor 1024). -/
def mean64_d12 (h : (⟨S16x32x32x32x64, .f32⟩ : BufTy).Contents (Elt F)) :
    (⟨S16x32x64, .f32⟩ : BufTy).Contents (Elt F) :=
  Host.divf
    (Host.reduceAdd h (constant S_ .f32 0x00000000#32) reducesTo_S16x32x32x32x64_S16x32x64_d1_2 h_S_)
    (broadcastInDim S16x32x64 ![] bcast_S_S16x32x64 (constant S_ .f32 0x44800000#32))

/-- The mean over axes 1, 2 and 3 (divisor 32768). -/
def mean64_d123 (h : (⟨S16x32x32x32x64, .f32⟩ : BufTy).Contents (Elt F)) :
    (⟨S16x64, .f32⟩ : BufTy).Contents (Elt F) :=
  Host.divf
    (Host.reduceAdd h (constant S_ .f32 0x00000000#32) reducesTo_S16x32x32x32x64_S16x64_d1_2_3 h_S_)
    (broadcastInDim S16x64 ![] bcast_S_S16x64 (constant S_ .f32 0x47000000#32))

/-- The second equivariant layer before normalisation, over its input `h` and the seven means of `h`: the same sum of eight terms, each contracted with its block of 64 rows of `W2`. -/
def pre2Of (h : (⟨S16x32x32x32x64, .f32⟩ : BufTy).Contents (Elt F)) (m1 : (⟨S16x32x32x64, .f32⟩ : BufTy).Contents (Elt F)) (m2 : (⟨S16x32x32x64, .f32⟩ : BufTy).Contents (Elt F)) (m3 : (⟨S16x32x32x64, .f32⟩ : BufTy).Contents (Elt F)) (m23 : (⟨S16x32x64, .f32⟩ : BufTy).Contents (Elt F)) (m13 : (⟨S16x32x64, .f32⟩ : BufTy).Contents (Elt F)) (m12 : (⟨S16x32x64, .f32⟩ : BufTy).Contents (Elt F)) (m123 : (⟨S16x64, .f32⟩ : BufTy).Contents (Elt F)) (W2 : (⟨S512x64, .f32⟩ : BufTy).Contents (Elt F)) :
    (⟨S16x32x32x32x64, .f32⟩ : BufTy).Contents (Elt F) :=
  addf
    (addf
       (addf
          (addf
             (addf
                (addf
                   (addf
                      (Host.dotGeneral dot_S16x32x32x32x64_S64x64_S16x32x32x32x64_4_0_0123_1_n_n none h
                         (extractStridedSlice S64x64 ![0, 0] W2 slices_S512x64_S64x64_0_0))
                      (lift_d1
                         (Host.dotGeneral dot_S16x32x32x64_S64x64_S16x32x32x64_3_0_012_1_n_n none m1
                            (extractStridedSlice S64x64 ![64, 0] W2 slices_S512x64_S64x64_64_0))))
                   (lift_d2
                      (Host.dotGeneral dot_S16x32x32x64_S64x64_S16x32x32x64_3_0_012_1_n_n none m2
                         (extractStridedSlice S64x64 ![128, 0] W2 slices_S512x64_S64x64_128_0))))
                (lift_d3
                   (Host.dotGeneral dot_S16x32x32x64_S64x64_S16x32x32x64_3_0_012_1_n_n none m3
                      (extractStridedSlice S64x64 ![192, 0] W2 slices_S512x64_S64x64_192_0))))
             (lift_i
                (Host.dotGeneral dot_S16x32x64_S64x64_S16x32x64_2_0_01_1_n_n none m23
                   (extractStridedSlice S64x64 ![256, 0] W2 slices_S512x64_S64x64_256_0))))
          (lift_j
             (Host.dotGeneral dot_S16x32x64_S64x64_S16x32x64_2_0_01_1_n_n none m13
                (extractStridedSlice S64x64 ![320, 0] W2 slices_S512x64_S64x64_320_0))))
       (lift_k
          (Host.dotGeneral dot_S16x32x64_S64x64_S16x32x64_2_0_01_1_n_n none m12 (extractStridedSlice S64x64 ![384, 0] W2 slices_S512x64_S64x64_384_0))))
    (lift_0 (Host.dotGeneral dot_S16x64_S64x64_S16x64_1_0_0_1_n_n none m123 (extractStridedSlice S64x64 ![448, 0] W2 slices_S512x64_S64x64_448_0)))

/-- The second layer before normalisation, its seven means taken of `h` itself. -/
def pre2 (h : (⟨S16x32x32x32x64, .f32⟩ : BufTy).Contents (Elt F)) (W2 : (⟨S512x64, .f32⟩ : BufTy).Contents (Elt F)) :
    (⟨S16x32x32x32x64, .f32⟩ : BufTy).Contents (Elt F) :=
  pre2Of h (mean64_d1 h) (mean64_d2 h) (mean64_d3 h) (mean64_d23 h) (mean64_d13 h) (mean64_d12 h) (mean64_d123 h) W2

/-- The contraction to order 1, over the four means of its input: the means over `(j, k)`, `(i, k)`, `(i, j)` — each a field over the remaining axis, read as the output's node axis — and the total mean read at every node, each contracted with its block of 64 rows of `Wc`, summed in this order. -/
def pre3Of (m23 : (⟨S16x32x64, .f32⟩ : BufTy).Contents (Elt F)) (m13 : (⟨S16x32x64, .f32⟩ : BufTy).Contents (Elt F)) (m12 : (⟨S16x32x64, .f32⟩ : BufTy).Contents (Elt F)) (m123 : (⟨S16x64, .f32⟩ : BufTy).Contents (Elt F)) (Wc : (⟨S256x64, .f32⟩ : BufTy).Contents (Elt F)) :
    (⟨S16x32x64, .f32⟩ : BufTy).Contents (Elt F) :=
  addf
    (addf
       (addf
          (Host.dotGeneral dot_S16x32x64_S64x64_S16x32x64_2_0_01_1_n_n none m23 (extractStridedSlice S64x64 ![0, 0] Wc slices_S256x64_S64x64_0_0))
          (Host.dotGeneral dot_S16x32x64_S64x64_S16x32x64_2_0_01_1_n_n none m13 (extractStridedSlice S64x64 ![64, 0] Wc slices_S256x64_S64x64_64_0)))
       (Host.dotGeneral dot_S16x32x64_S64x64_S16x32x64_2_0_01_1_n_n none m12 (extractStridedSlice S64x64 ![128, 0] Wc slices_S256x64_S64x64_128_0)))
    (broadcastInDim S16x32x64 ![0, 1, 2] bcast_S16x1x64_S16x32x64_0_1_2
       (broadcastInDim S16x1x64 ![0, 2] bcast_S16x64_S16x1x64_0_2
          (Host.dotGeneral dot_S16x64_S64x64_S16x64_1_0_0_1_n_n none m123 (extractStridedSlice S64x64 ![192, 0] Wc slices_S256x64_S64x64_192_0))))

/-- The contraction to order 1 of `h`, its four means taken of `h` itself. -/
def pre3 (h : (⟨S16x32x32x32x64, .f32⟩ : BufTy).Contents (Elt F)) (Wc : (⟨S256x64, .f32⟩ : BufTy).Contents (Elt F)) :
    (⟨S16x32x64, .f32⟩ : BufTy).Contents (Elt F) :=
  pre3Of (mean64_d23 h) (mean64_d13 h) (mean64_d12 h) (mean64_d123 h) Wc

/-- The per-channel mean over the batch and the node axis: the sum over 512 values divided by 512. -/
def bnMean3 (y : (⟨S16x32x64, .f32⟩ : BufTy).Contents (Elt F)) :
    (⟨S64, .f32⟩ : BufTy).Contents (Elt F) :=
  Host.divf
    (Host.reduceAdd y (constant S_ .f32 0x00000000#32) reducesTo_S16x32x64_S64_d0_1 h_S_)
    (broadcastInDim S64 ![] bcast_S_S64 (constant S_ .f32 0x44000000#32))

/-- `y` minus its per-channel mean. -/
def centered3 (y : (⟨S16x32x64, .f32⟩ : BufTy).Contents (Elt F)) :
    (⟨S16x32x64, .f32⟩ : BufTy).Contents (Elt F) :=
  subf y
    (broadcastInDim S16x32x64 ![0, 1, 2] bcast_S1x1x64_S16x32x64_0_1_2
       (Host.divf
          (broadcastInDim S1x1x64 ![2] bcast_S64_S1x1x64_2 (Host.reduceAdd y (constant S_ .f32 0x00000000#32) reducesTo_S16x32x64_S64_d0_1 h_S_))
          (broadcastInDim S1x1x64 ![] bcast_S_S1x1x64 (constant S_ .f32 0x44000000#32))))

/-- The per-channel (biased) variance: the sum of the squares of `centered3 y` divided by `512 - 0`, selected against the not-a-number constant on whether `512 - 0 > 0`. -/
def bnVar3 (y : (⟨S16x32x64, .f32⟩ : BufTy).Contents (Elt F)) :
    (⟨S64, .f32⟩ : BufTy).Contents (Elt F) :=
  select
    (broadcastInDim S64 ![] bcast_S_S64
       (cmpf .ogt
          (subf (constant S_ .f32 0x44000000#32) (sitofp .f32 (constantI S_ 32 0#32)) : (⟨S_, .f32⟩ : BufTy).Contents (Elt F))
          (constant S_ .f32 0x00000000#32)))
    (Host.divf
       (Host.reduceAdd (mulf (centered3 y) (centered3 y)) (constant S_ .f32 0x00000000#32) reducesTo_S16x32x64_S64_d0_1 h_S_)
       (broadcastInDim S64 ![] bcast_S_S64 (subf (constant S_ .f32 0x44000000#32) (sitofp .f32 (constantI S_ 32 0#32)))))
    (broadcastInDim S64 ![] bcast_S_S64 (id (constant S_ .f32 0x7FC00000#32)))

/-- Batch normalisation per channel of the order-1 output: `(y - mean) * rsqrt (var + ε) * g + b`. -/
def bnNorm3 (y : (⟨S16x32x64, .f32⟩ : BufTy).Contents (Elt F)) (g : (⟨S64, .f32⟩ : BufTy).Contents (Elt F)) (b : (⟨S64, .f32⟩ : BufTy).Contents (Elt F)) :
    (⟨S16x32x64, .f32⟩ : BufTy).Contents (Elt F) :=
  addf
    (mulf
       (mulf
          (subf y (broadcastInDim S16x32x64 ![0, 1, 2] bcast_S1x1x64_S16x32x64_0_1_2 (broadcastInDim S1x1x64 ![2] bcast_S64_S1x1x64_2 (bnMean3 y))))
          (broadcastInDim S16x32x64 ![0, 1, 2] bcast_S1x1x64_S16x32x64_0_1_2
             (broadcastInDim S1x1x64 ![2] bcast_S64_S1x1x64_2
                (Host.rsqrt (addf (bnVar3 y) (broadcastInDim S64 ![] bcast_S_S64 (constant S_ .f32 0x3727C5AC#32)))))))
       (broadcastInDim S16x32x64 ![0, 1, 2] bcast_S1x1x64_S16x32x64_0_1_2 (broadcastInDim S1x1x64 ![2] bcast_S64_S1x1x64_2 g)))
    (broadcastInDim S16x32x64 ![0, 1, 2] bcast_S1x1x64_S16x32x64_0_1_2 (broadcastInDim S1x1x64 ![2] bcast_S64_S1x1x64_2 b))

/-- The first layer's output: normalised per channel over the batch, then the positive part. -/
def act1 (x : (⟨S16x32x32x16, .f32⟩ : BufTy).Contents (Elt F)) (xn : (⟨S16x32x8, .f32⟩ : BufTy).Contents (Elt F)) (W1 : (⟨S384x64, .f32⟩ : BufTy).Contents (Elt F)) (Wn1 : (⟨S24x64, .f32⟩ : BufTy).Contents (Elt F)) (g1 : (⟨S64, .f32⟩ : BufTy).Contents (Elt F)) (b1 : (⟨S64, .f32⟩ : BufTy).Contents (Elt F)) :
    (⟨S16x32x32x32x64, .f32⟩ : BufTy).Contents (Elt F) :=
  relu5 (bnNorm5 (pre1 (xExp x) xn W1 Wn1) g1 b1)

/-- The second layer's output. -/
def act2 (x : (⟨S16x32x32x16, .f32⟩ : BufTy).Contents (Elt F)) (xn : (⟨S16x32x8, .f32⟩ : BufTy).Contents (Elt F)) (W1 : (⟨S384x64, .f32⟩ : BufTy).Contents (Elt F)) (Wn1 : (⟨S24x64, .f32⟩ : BufTy).Contents (Elt F)) (g1 : (⟨S64, .f32⟩ : BufTy).Contents (Elt F)) (b1 : (⟨S64, .f32⟩ : BufTy).Contents (Elt F)) (W2 : (⟨S512x64, .f32⟩ : BufTy).Contents (Elt F)) (g2 : (⟨S64, .f32⟩ : BufTy).Contents (Elt F)) (b2 : (⟨S64, .f32⟩ : BufTy).Contents (Elt F)) :
    (⟨S16x32x32x32x64, .f32⟩ : BufTy).Contents (Elt F) :=
  relu5 (bnNorm5 (pre2 (act1 x xn W1 Wn1 g1 b1) W2) g2 b2)

/-- The reference's result as a function of its twelve arguments: the contraction to order 1 of the second layer's
    output, normalised per channel over the batch and the nodes. -/
def refOut (x : (⟨S16x32x32x16, .f32⟩ : BufTy).Contents (Elt F)) (xn : (⟨S16x32x8, .f32⟩ : BufTy).Contents (Elt F)) (W1 : (⟨S384x64, .f32⟩ : BufTy).Contents (Elt F)) (Wn1 : (⟨S24x64, .f32⟩ : BufTy).Contents (Elt F)) (g1 : (⟨S64, .f32⟩ : BufTy).Contents (Elt F)) (b1 : (⟨S64, .f32⟩ : BufTy).Contents (Elt F)) (W2 : (⟨S512x64, .f32⟩ : BufTy).Contents (Elt F)) (g2 : (⟨S64, .f32⟩ : BufTy).Contents (Elt F)) (b2 : (⟨S64, .f32⟩ : BufTy).Contents (Elt F)) (Wc : (⟨S256x64, .f32⟩ : BufTy).Contents (Elt F)) (gc : (⟨S64, .f32⟩ : BufTy).Contents (Elt F)) (bc : (⟨S64, .f32⟩ : BufTy).Contents (Elt F)) :
    (⟨S16x32x64, .f32⟩ : BufTy).Contents (Elt F) :=
  bnNorm3 (pre3 (act2 x xn W1 Wn1 g1 b1 W2 g2 b2) Wc) gc bc

end Cert.ReferenceIdeal.Hand

end
-- ==== Proof.RefOps.lean ====
/-
  The reference program as ONE straight line of host operations. Its entry function is printed in five consecutive
  pieces and calls three small routines (a variance, at two shapes; a selection inside it; a positive part); a call
  executes the routine's operations on the caller's buffers, so the whole program is the list of its own operations
  with each routine's operations in place of its call. The list is cut into twelve consecutive segments, at the ends
  of the printed pieces and at the meaningful intermediate tensors, so that both the pieces and the value windows are
  unions of segments.
  Proved here: the entry function IS that straight line, every operation stays within the device's buffers, and hence
  (the straight-line run) every execution terminates with each buffer at the fold of the operations over the launch
  contents.
-/
import proofs.«145029_j5059471475016_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Segment 1 (42 operations). The expanded input and its seven means: the three double broadcasts, their concatenation along the channels, and for each axis subset the sum, the divisor and the quotient. -/
abbrev seg1 : List (HloOp τ sig (Elt F)) :=
  [ unary main_arg0 main_v0 (broadcastInDim S16x32x32x1x16 ![0, 1, 2, 4] bcast_S16x32x32x16_S16x32x32x1x16_0_1_2_4 : (⟨S16x32x32x16, .f32⟩ : BufTy).Contents (Elt F) → (⟨S16x32x32x1x16, .f32⟩ : BufTy).Contents (Elt F)),
    unary main_v0 main_v1 (broadcastInDim S16x32x32x32x16 ![0, 1, 2, 3, 4] bcast_S16x32x32x1x16_S16x32x32x32x16_0_1_2_3_4 : (⟨S16x32x32x1x16, .f32⟩ : BufTy).Contents (Elt F) → (⟨S16x32x32x32x16, .f32⟩ : BufTy).Contents (Elt F)),
    unary main_arg0 main_v2 (broadcastInDim S16x32x1x32x16 ![0, 1, 3, 4] bcast_S16x32x32x16_S16x32x1x32x16_0_1_3_4 : (⟨S16x32x32x16, .f32⟩ : BufTy).Contents (Elt F) → (⟨S16x32x1x32x16, .f32⟩ : BufTy).Contents (Elt F)),
    unary main_v2 main_v3 (broadcastInDim S16x32x32x32x16 ![0, 1, 2, 3, 4] bcast_S16x32x1x32x16_S16x32x32x32x16_0_1_2_3_4 : (⟨S16x32x1x32x16, .f32⟩ : BufTy).Contents (Elt F) → (⟨S16x32x32x32x16, .f32⟩ : BufTy).Contents (Elt F)),
    unary main_arg0 main_v4 (broadcastInDim S16x1x32x32x16 ![0, 2, 3, 4] bcast_S16x32x32x16_S16x1x32x32x16_0_2_3_4 : (⟨S16x32x32x16, .f32⟩ : BufTy).Contents (Elt F) → (⟨S16x1x32x32x16, .f32⟩ : BufTy).Contents (Elt F)),
    unary main_v4 main_v5 (broadcastInDim S16x32x32x32x16 ![0, 1, 2, 3, 4] bcast_S16x1x32x32x16_S16x32x32x32x16_0_1_2_3_4 : (⟨S16x1x32x32x16, .f32⟩ : BufTy).Contents (Elt F) → (⟨S16x32x32x32x16, .f32⟩ : BufTy).Contents (Elt F)),
    nary ![main_v1, main_v3, main_v5] main_v6 (fun u => concatenate S16x32x32x32x48 4 [⟨S16x32x32x32x16, u 0⟩, ⟨S16x32x32x32x16, u 1⟩, ⟨S16x32x32x32x16, u 2⟩] concatenates_S16x32x32x32x16_S16x32x32x32x16_S16x32x32x32x16_S16x32x32x32x48_d4),
    nullary main_cst (constant S_ .f32 0x00000000#32),
    binary main_v6 main_cst main_v7 ((fun x v => Host.reduceAdd x v reducesTo_S16x32x32x32x48_S16x32x32x48_d1 h_S_) : (⟨S16x32x32x32x48, .f32⟩ : BufTy).Contents (Elt F) → (⟨S_, .f32⟩ : BufTy).Contents (Elt F) → (⟨S16x32x32x48, .f32⟩ : BufTy).Contents (Elt F)),
    nullary main_cst_0 (constant S_ .f32 0x42000000#32),
    unary main_cst_0 main_v8 (broadcastInDim S16x32x32x48 ![] bcast_S_S16x32x32x48 : (⟨S_, .f32⟩ : BufTy).Contents (Elt F) → (⟨S16x32x32x48, .f32⟩ : BufTy).Contents (Elt F)),
    binary main_v7 main_v8 main_v9 (Host.divf : (⟨S16x32x32x48, .f32⟩ : BufTy).Contents (Elt F) → (⟨S16x32x32x48, .f32⟩ : BufTy).Contents (Elt F) → (⟨S16x32x32x48, .f32⟩ : BufTy).Contents (Elt F)),
    nullary main_cst_1 (constant S_ .f32 0x00000000#32),
    binary main_v6 main_cst_1 main_v10 ((fun x v => Host.reduceAdd x v reducesTo_S16x32x32x32x48_S16x32x32x48_d2 h_S_) : (⟨S16x32x32x32x48, .f32⟩ : BufTy).Contents (Elt F) → (⟨S_, .f32⟩ : BufTy).Contents (Elt F) → (⟨S16x32x32x48, .f32⟩ : BufTy).Contents (Elt F)),
    nullary main_cst_2 (constant S_ .f32 0x42000000#32),
    unary main_cst_2 main_v11 (broadcastInDim S16x32x32x48 ![] bcast_S_S16x32x32x48 : (⟨S_, .f32⟩ : BufTy).Contents (Elt F) → (⟨S16x32x32x48, .f32⟩ : BufTy).Contents (Elt F)),
    binary main_v10 main_v11 main_v12 (Host.divf : (⟨S16x32x32x48, .f32⟩ : BufTy).Contents (Elt F) → (⟨S16x32x32x48, .f32⟩ : BufTy).Contents (Elt F) → (⟨S16x32x32x48, .f32⟩ : BufTy).Contents (Elt F)),
    nullary main_cst_3 (constant S_ .f32 0x00000000#32),
    binary main_v6 main_cst_3 main_v13 ((fun x v => Host.reduceAdd x v reducesTo_S16x32x32x32x48_S16x32x32x48_d3 h_S_) : (⟨S16x32x32x32x48, .f32⟩ : BufTy).Contents (Elt F) → (⟨S_, .f32⟩ : BufTy).Contents (Elt F) → (⟨S16x32x32x48, .f32⟩ : BufTy).Contents (Elt F)),
    nullary main_cst_4 (constant S_ .f32 0x42000000#32),
    unary main_cst_4 main_v14 (broadcastInDim S16x32x32x48 ![] bcast_S_S16x32x32x48 : (⟨S_, .f32⟩ : BufTy).Contents (Elt F) → (⟨S16x32x32x48, .f32⟩ : BufTy).Contents (Elt F)),
    binary main_v13 main_v14 main_v15 (Host.divf : (⟨S16x32x32x48, .f32⟩ : BufTy).Contents (Elt F) → (⟨S16x32x32x48, .f32⟩ : BufTy).Contents (Elt F) → (⟨S16x32x32x48, .f32⟩ : BufTy).Contents (Elt F)),
    nullary main_cst_5 (constant S_ .f32 0x00000000#32),
    binary main_v6 main_cst_5 main_v16 ((fun x v => Host.reduceAdd x v reducesTo_S16x32x32x32x48_S16x32x48_d2_3 h_S_) : (⟨S16x32x32x32x48, .f32⟩ : BufTy).Contents (Elt F) → (⟨S_, .f32⟩ : BufTy).Contents (Elt F) → (⟨S16x32x48, .f32⟩ : BufTy).Contents (Elt F)),
    nullary main_cst_6 (constant S_ .f32 0x44800000#32),
    unary main_cst_6 main_v17 (broadcastInDim S16x32x48 ![] bcast_S_S16x32x48 : (⟨S_, .f32⟩ : BufTy).Contents (Elt F) → (⟨S16x32x48, .f32⟩ : BufTy).Contents (Elt F)),
    binary main_v16 main_v17 main_v18 (Host.divf : (⟨S16x32x48, .f32⟩ : BufTy).Contents (Elt F) → (⟨S16x32x48, .f32⟩ : BufTy).Contents (Elt F) → (⟨S16x32x48, .f32⟩ : BufTy).Contents (Elt F)),
    nullary main_cst_7 (constant S_ .f32 0x00000000#32),
    binary main_v6 main_cst_7 main_v19 ((fun x v => Host.reduceAdd x v reducesTo_S16x32x32x32x48_S16x32x48_d1_3 h_S_) : (⟨S16x32x32x32x48, .f32⟩ : BufTy).Contents (Elt F) → (⟨S_, .f32⟩ : BufTy).Contents (Elt F) → (⟨S16x32x48, .f32⟩ : BufTy).Contents (Elt F)),
    nullary main_cst_8 (constant S_ .f32 0x44800000#32),
    unary main_cst_8 main_v20 (broadcastInDim S16x32x48 ![] bcast_S_S16x32x48 : (⟨S_, .f32⟩ : BufTy).Contents (Elt F) → (⟨S16x32x48, .f32⟩ : BufTy).Contents (Elt F)),
    binary main_v19 main_v20 main_v21 (Host.divf : (⟨S16x32x48, .f32⟩ : BufTy).Contents (Elt F) → (⟨S16x32x48, .f32⟩ : BufTy).Contents (Elt F) → (⟨S16x32x48, .f32⟩ : BufTy).Contents (Elt F)),
    nullary main_cst_9 (constant S_ .f32 0x00000000#32),
    binary main_v6 main_cst_9 main_v22 ((fun x v => Host.reduceAdd x v reducesTo_S16x32x32x32x48_S16x32x48_d1_2 h_S_) : (⟨S16x32x32x32x48, .f32⟩ : BufTy).Contents (Elt F) → (⟨S_, .f32⟩ : BufTy).Contents (Elt F) → (⟨S16x32x48, .f32⟩ : BufTy).Contents (Elt F)),
    nullary main_cst_10 (constant S_ .f32 0x44800000#32),
    unary main_cst_10 main_v23 (broadcastInDim S16x32x48 ![] bcast_S_S16x32x48 : (⟨S_, .f32⟩ : BufTy).Contents (Elt F) → (⟨S16x32x48, .f32⟩ : BufTy).Contents (Elt F)),
    binary main_v22 main_v23 main_v24 (Host.divf : (⟨S16x32x48, .f32⟩ : BufTy).Contents (Elt F) → (⟨S16x32x48, .f32⟩ : BufTy).Contents (Elt F) → (⟨S16x32x48, .f32⟩ : BufTy).Contents (Elt F)),
    nullary main_cst_11 (constant S_ .f32 0x00000000#32),
    binary main_v6 main_cst_11 main_v25 ((fun x v => Host.reduceAdd x v reducesTo_S16x32x32x32x48_S16x48_d1_2_3 h_S_) : (⟨S16x32x32x32x48, .f32⟩ : BufTy).Contents (Elt F) → (⟨S_, .f32⟩ : BufTy).Contents (Elt F) → (⟨S16x48, .f32⟩ : BufTy).Contents (Elt F)),
    nullary main_cst_12 (constant S_ .f32 0x47000000#32),
    unary main_cst_12 main_v26 (broadcastInDim S16x48 ![] bcast_S_S16x48 : (⟨S_, .f32⟩ : BufTy).Contents (Elt F) → (⟨S16x48, .f32⟩ : BufTy).Contents (Elt F)),
    binary main_v25 main_v26 main_v27 (Host.divf : (⟨S16x48, .f32⟩ : BufTy).Contents (Elt F) → (⟨S16x48, .f32⟩ : BufTy).Contents (Elt F) → (⟨S16x48, .f32⟩ : BufTy).Contents (Elt F)) ]

/-- Segment 2 (18 operations). The eight blocks of rows of the first weights, the identity term and the first two lifted mean terms. -/
abbrev seg2 : List (HloOp τ sig (Elt F)) :=
  [ unary main_arg2 main_v28 ((extractStridedSlice S48x64 ![0, 0] · slices_S384x64_S48x64_0_0) : (⟨S384x64, .f32⟩ : BufTy).Contents (Elt F) → (⟨S48x64, .f32⟩ : BufTy).Contents (Elt F)),
    unary main_arg2 main_v29 ((extractStridedSlice S48x64 ![48, 0] · slices_S384x64_S48x64_48_0) : (⟨S384x64, .f32⟩ : BufTy).Contents (Elt F) → (⟨S48x64, .f32⟩ : BufTy).Contents (Elt F)),
    unary main_arg2 main_v30 ((extractStridedSlice S48x64 ![96, 0] · slices_S384x64_S48x64_96_0) : (⟨S384x64, .f32⟩ : BufTy).Contents (Elt F) → (⟨S48x64, .f32⟩ : BufTy).Contents (Elt F)),
    unary main_arg2 main_v31 ((extractStridedSlice S48x64 ![144, 0] · slices_S384x64_S48x64_144_0) : (⟨S384x64, .f32⟩ : BufTy).Contents (Elt F) → (⟨S48x64, .f32⟩ : BufTy).Contents (Elt F)),
    unary main_arg2 main_v32 ((extractStridedSlice S48x64 ![192, 0] · slices_S384x64_S48x64_192_0) : (⟨S384x64, .f32⟩ : BufTy).Contents (Elt F) → (⟨S48x64, .f32⟩ : BufTy).Contents (Elt F)),
    unary main_arg2 main_v33 ((extractStridedSlice S48x64 ![240, 0] · slices_S384x64_S48x64_240_0) : (⟨S384x64, .f32⟩ : BufTy).Contents (Elt F) → (⟨S48x64, .f32⟩ : BufTy).Contents (Elt F)),
    unary main_arg2 main_v34 ((extractStridedSlice S48x64 ![288, 0] · slices_S384x64_S48x64_288_0) : (⟨S384x64, .f32⟩ : BufTy).Contents (Elt F) → (⟨S48x64, .f32⟩ : BufTy).Contents (Elt F)),
    unary main_arg2 main_v35 ((extractStridedSlice S48x64 ![336, 0] · slices_S384x64_S48x64_336_0) : (⟨S384x64, .f32⟩ : BufTy).Contents (Elt F) → (⟨S48x64, .f32⟩ : BufTy).Contents (Elt F)),
    binary main_v6 main_v28 main_v36 ((fun l r => Host.dotGeneral dot_S16x32x32x32x48_S48x64_S16x32x32x32x64_4_0_0123_1_n_n none l r) : (⟨S16x32x32x32x48, .f32⟩ : BufTy).Contents (Elt F) → (⟨S48x64, .f32⟩ : BufTy).Contents (Elt F) → (⟨S16x32x32x32x64, .f32⟩ : BufTy).Contents (Elt F)),
    binary main_v9 main_v29 main_v37 ((fun l r => Host.dotGeneral dot_S16x32x32x48_S48x64_S16x32x32x64_3_0_012_1_n_n none l r) : (⟨S16x32x32x48, .f32⟩ : BufTy).Contents (Elt F) → (⟨S48x64, .f32⟩ : BufTy).Contents (Elt F) → (⟨S16x32x32x64, .f32⟩ : BufTy).Contents (Elt F)),
    unary main_v37 main_v38 (broadcastInDim S16x1x32x32x64 ![0, 2, 3, 4] bcast_S16x32x32x64_S16x1x32x32x64_0_2_3_4 : (⟨S16x32x32x64, .f32⟩ : BufTy).Contents (Elt F) → (⟨S16x1x32x32x64, .f32⟩ : BufTy).Contents (Elt F)),
    unary main_v38 main_v39 (broadcastInDim S16x32x32x32x64 ![0, 1, 2, 3, 4] bcast_S16x1x32x32x64_S16x32x32x32x64_0_1_2_3_4 : (⟨S16x1x32x32x64, .f32⟩ : BufTy).Contents (Elt F) → (⟨S16x32x32x32x64, .f32⟩ : BufTy).Contents (Elt F)),
    binary main_v36 main_v39 main_v40 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v12 main_v30 main_v41 ((fun l r => Host.dotGeneral dot_S16x32x32x48_S48x64_S16x32x32x64_3_0_012_1_n_n none l r) : (⟨S16x32x32x48, .f32⟩ : BufTy).Contents (Elt F) → (⟨S48x64, .f32⟩ : BufTy).Contents (Elt F) → (⟨S16x32x32x64, .f32⟩ : BufTy).Contents (Elt F)),
    unary main_v41 main_v42 (broadcastInDim S16x32x1x32x64 ![0, 1, 3, 4] bcast_S16x32x32x64_S16x32x1x32x64_0_1_3_4 : (⟨S16x32x32x64, .f32⟩ : BufTy).Contents (Elt F) → (⟨S16x32x1x32x64, .f32⟩ : BufTy).Contents (Elt F)),
    unary main_v42 main_v43 (broadcastInDim S16x32x32x32x64 ![0, 1, 2, 3, 4] bcast_S16x32x1x32x64_S16x32x32x32x64_0_1_2_3_4 : (⟨S16x32x1x32x64, .f32⟩ : BufTy).Contents (Elt F) → (⟨S16x32x32x32x64, .f32⟩ : BufTy).Contents (Elt F)),
    binary main_v40 main_v43 main_v44 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v15 main_v31 main_v45 ((fun l r => Host.dotGeneral dot_S16x32x32x48_S48x64_S16x32x32x64_3_0_012_1_n_n none l r) : (⟨S16x32x32x48, .f32⟩ : BufTy).Contents (Elt F) → (⟨S48x64, .f32⟩ : BufTy).Contents (Elt F) → (⟨S16x32x32x64, .f32⟩ : BufTy).Contents (Elt F)) ]

/-- Segment 3 (34 operations). The remaining lifted mean terms and the three node-feature terms of the first layer: its tensor before normalisation. -/
abbrev seg3 : List (HloOp τ sig (Elt F)) :=
  [ unary main_v45 main_v46 (broadcastInDim S16x32x32x1x64 ![0, 1, 2, 4] bcast_S16x32x32x64_S16x32x32x1x64_0_1_2_4 : (⟨S16x32x32x64, .f32⟩ : BufTy).Contents (Elt F) → (⟨S16x32x32x1x64, .f32⟩ : BufTy).Contents (Elt F)),
    unary main_v46 main_v47 (broadcastInDim S16x32x32x32x64 ![0, 1, 2, 3, 4] bcast_S16x32x32x1x64_S16x32x32x32x64_0_1_2_3_4 : (⟨S16x32x32x1x64, .f32⟩ : BufTy).Contents (Elt F) → (⟨S16x32x32x32x64, .f32⟩ : BufTy).Contents (Elt F)),
    binary main_v44 main_v47 main_v48 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v18 main_v32 main_v49 ((fun l r => Host.dotGeneral dot_S16x32x48_S48x64_S16x32x64_2_0_01_1_n_n none l r) : (⟨S16x32x48, .f32⟩ : BufTy).Contents (Elt F) → (⟨S48x64, .f32⟩ : BufTy).Contents (Elt F) → (⟨S16x32x64, .f32⟩ : BufTy).Contents (Elt F)),
    unary main_v49 main_v50 (broadcastInDim S16x32x1x1x64 ![0, 1, 4] bcast_S16x32x64_S16x32x1x1x64_0_1_4 : (⟨S16x32x64, .f32⟩ : BufTy).Contents (Elt F) → (⟨S16x32x1x1x64, .f32⟩ : BufTy).Contents (Elt F)),
    unary main_v50 main_v51 (broadcastInDim S16x32x32x32x64 ![0, 1, 2, 3, 4] bcast_S16x32x1x1x64_S16x32x32x32x64_0_1_2_3_4 : (⟨S16x32x1x1x64, .f32⟩ : BufTy).Contents (Elt F) → (⟨S16x32x32x32x64, .f32⟩ : BufTy).Contents (Elt F)),
    binary main_v48 main_v51 main_v52 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v21 main_v33 main_v53 ((fun l r => Host.dotGeneral dot_S16x32x48_S48x64_S16x32x64_2_0_01_1_n_n none l r) : (⟨S16x32x48, .f32⟩ : BufTy).Contents (Elt F) → (⟨S48x64, .f32⟩ : BufTy).Contents (Elt F) → (⟨S16x32x64, .f32⟩ : BufTy).Contents (Elt F)),
    unary main_v53 main_v54 (broadcastInDim S16x1x32x1x64 ![0, 2, 4] bcast_S16x32x64_S16x1x32x1x64_0_2_4 : (⟨S16x32x64, .f32⟩ : BufTy).Contents (Elt F) → (⟨S16x1x32x1x64, .f32⟩ : BufTy).Contents (Elt F)),
    unary main_v54 main_v55 (broadcastInDim S16x32x32x32x64 ![0, 1, 2, 3, 4] bcast_S16x1x32x1x64_S16x32x32x32x64_0_1_2_3_4 : (⟨S16x1x32x1x64, .f32⟩ : BufTy).Contents (Elt F) → (⟨S16x32x32x32x64, .f32⟩ : BufTy).Contents (Elt F)),
    binary main_v52 main_v55 main_v56 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v24 main_v34 main_v57 ((fun l r => Host.dotGeneral dot_S16x32x48_S48x64_S16x32x64_2_0_01_1_n_n none l r) : (⟨S16x32x48, .f32⟩ : BufTy).Contents (Elt F) → (⟨S48x64, .f32⟩ : BufTy).Contents (Elt F) → (⟨S16x32x64, .f32⟩ : BufTy).Contents (Elt F)),
    unary main_v57 main_v58 (broadcastInDim S16x1x1x32x64 ![0, 3, 4] bcast_S16x32x64_S16x1x1x32x64_0_3_4 : (⟨S16x32x64, .f32⟩ : BufTy).Contents (Elt F) → (⟨S16x1x1x32x64, .f32⟩ : BufTy).Contents (Elt F)),
    unary main_v58 main_v59 (broadcastInDim S16x32x32x32x64 ![0, 1, 2, 3, 4] bcast_S16x1x1x32x64_S16x32x32x32x64_0_1_2_3_4 : (⟨S16x1x1x32x64, .f32⟩ : BufTy).Contents (Elt F) → (⟨S16x32x32x32x64, .f32⟩ : BufTy).Contents (Elt F)),
    binary main_v56 main_v59 main_v60 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v27 main_v35 main_v61 ((fun l r => Host.dotGeneral dot_S16x48_S48x64_S16x64_1_0_0_1_n_n none l r) : (⟨S16x48, .f32⟩ : BufTy).Contents (Elt F) → (⟨S48x64, .f32⟩ : BufTy).Contents (Elt F) → (⟨S16x64, .f32⟩ : BufTy).Contents (Elt F)),
    unary main_v61 main_v62 (broadcastInDim S16x1x1x1x64 ![0, 4] bcast_S16x64_S16x1x1x1x64_0_4 : (⟨S16x64, .f32⟩ : BufTy).Contents (Elt F) → (⟨S16x1x1x1x64, .f32⟩ : BufTy).Contents (Elt F)),
    unary main_v62 main_v63 (broadcastInDim S16x32x32x32x64 ![0, 1, 2, 3, 4] bcast_S16x1x1x1x64_S16x32x32x32x64_0_1_2_3_4 : (⟨S16x1x1x1x64, .f32⟩ : BufTy).Contents (Elt F) → (⟨S16x32x32x32x64, .f32⟩ : BufTy).Contents (Elt F)),
    binary main_v60 main_v63 main_v64 (addf : (⟨S16x32x32x32x64, .f32⟩ : BufTy).Contents (Elt F) → (⟨S16x32x32x32x64, .f32⟩ : BufTy).Contents (Elt F) → (⟨S16x32x32x32x64, .f32⟩ : BufTy).Contents (Elt F)),
    unary main_arg3 main_v65 ((extractStridedSlice S8x64 ![0, 0] · slices_S24x64_S8x64_0_0) : (⟨S24x64, .f32⟩ : BufTy).Contents (Elt F) → (⟨S8x64, .f32⟩ : BufTy).Contents (Elt F)),
    binary main_arg1 main_v65 main_v66 ((fun l r => Host.dotGeneral dot_S16x32x8_S8x64_S16x32x64_2_0_01_1_n_n none l r) : (⟨S16x32x8, .f32⟩ : BufTy).Contents (Elt F) → (⟨S8x64, .f32⟩ : BufTy).Contents (Elt F) → (⟨S16x32x64, .f32⟩ : BufTy).Contents (Elt F)),
    unary main_v66 main_v67 (broadcastInDim S16x32x1x1x64 ![0, 1, 4] bcast_S16x32x64_S16x32x1x1x64_0_1_4 : (⟨S16x32x64, .f32⟩ : BufTy).Contents (Elt F) → (⟨S16x32x1x1x64, .f32⟩ : BufTy).Contents (Elt F)),
    unary main_v67 main_v68 (broadcastInDim S16x32x32x32x64 ![0, 1, 2, 3, 4] bcast_S16x32x1x1x64_S16x32x32x32x64_0_1_2_3_4 : (⟨S16x32x1x1x64, .f32⟩ : BufTy).Contents (Elt F) → (⟨S16x32x32x32x64, .f32⟩ : BufTy).Contents (Elt F)),
    binary main_v64 main_v68 main_v69 (addf : (⟨S16x32x32x32x64, .f32⟩ : BufTy).Contents (Elt F) → (⟨S16x32x32x32x64, .f32⟩ : BufTy).Contents (Elt F) → (⟨S16x32x32x32x64, .f32⟩ : BufTy).Contents (Elt F)),
    unary main_arg3 main_v70 ((extractStridedSlice S8x64 ![8, 0] · slices_S24x64_S8x64_8_0) : (⟨S24x64, .f32⟩ : BufTy).Contents (Elt F) → (⟨S8x64, .f32⟩ : BufTy).Contents (Elt F)),
    binary main_arg1 main_v70 main_v71 ((fun l r => Host.dotGeneral dot_S16x32x8_S8x64_S16x32x64_2_0_01_1_n_n none l r) : (⟨S16x32x8, .f32⟩ : BufTy).Contents (Elt F) → (⟨S8x64, .f32⟩ : BufTy).Contents (Elt F) → (⟨S16x32x64, .f32⟩ : BufTy).Contents (Elt F)),
    unary main_v71 main_v72 (broadcastInDim S16x1x32x1x64 ![0, 2, 4] bcast_S16x32x64_S16x1x32x1x64_0_2_4 : (⟨S16x32x64, .f32⟩ : BufTy).Contents (Elt F) → (⟨S16x1x32x1x64, .f32⟩ : BufTy).Contents (Elt F)),
    unary main_v72 main_v73 (broadcastInDim S16x32x32x32x64 ![0, 1, 2, 3, 4] bcast_S16x1x32x1x64_S16x32x32x32x64_0_1_2_3_4 : (⟨S16x1x32x1x64, .f32⟩ : BufTy).Contents (Elt F) → (⟨S16x32x32x32x64, .f32⟩ : BufTy).Contents (Elt F)),
    binary main_v69 main_v73 main_v74 (addf : (⟨S16x32x32x32x64, .f32⟩ : BufTy).Contents (Elt F) → (⟨S16x32x32x32x64, .f32⟩ : BufTy).Contents (Elt F) → (⟨S16x32x32x32x64, .f32⟩ : BufTy).Contents (Elt F)),
    unary main_arg3 main_v75 ((extractStridedSlice S8x64 ![16, 0] · slices_S24x64_S8x64_16_0) : (⟨S24x64, .f32⟩ : BufTy).Contents (Elt F) → (⟨S8x64, .f32⟩ : BufTy).Contents (Elt F)),
    binary main_arg1 main_v75 main_v76 ((fun l r => Host.dotGeneral dot_S16x32x8_S8x64_S16x32x64_2_0_01_1_n_n none l r) : (⟨S16x32x8, .f32⟩ : BufTy).Contents (Elt F) → (⟨S8x64, .f32⟩ : BufTy).Contents (Elt F) → (⟨S16x32x64, .f32⟩ : BufTy).Contents (Elt F)),
    unary main_v76 main_v77 (broadcastInDim S16x1x1x32x64 ![0, 3, 4] bcast_S16x32x64_S16x1x1x32x64_0_3_4 : (⟨S16x32x64, .f32⟩ : BufTy).Contents (Elt F) → (⟨S16x1x1x32x64, .f32⟩ : BufTy).Contents (Elt F)),
    unary main_v77 main_v78 (broadcastInDim S16x32x32x32x64 ![0, 1, 2, 3, 4] bcast_S16x1x1x32x64_S16x32x32x32x64_0_1_2_3_4 : (⟨S16x1x1x32x64, .f32⟩ : BufTy).Contents (Elt F) → (⟨S16x32x32x32x64, .f32⟩ : BufTy).Contents (Elt F)),
    binary main_v74 main_v78 main_v79 (addf : (⟨S16x32x32x32x64, .f32⟩ : BufTy).Contents (Elt F) → (⟨S16x32x32x32x64, .f32⟩ : BufTy).Contents (Elt F) → (⟨S16x32x32x32x64, .f32⟩ : BufTy).Contents (Elt F)) ]

/-- Segment 4 (47 operations). The first normalisation: the per-channel mean, the variance routine, the affine normalisation, the positive part. -/
abbrev seg4 : List (HloOp τ sig (Elt F)) :=
  [ nullary main_cst_13 (constant S_ .f32 0x00000000#32),
    binary main_v79 main_cst_13 main_v80 ((fun x v => Host.reduceAdd x v reducesTo_S16x32x32x32x64_S64_d0_1_2_3 h_S_) : (⟨S16x32x32x32x64, .f32⟩ : BufTy).Contents (Elt F) → (⟨S_, .f32⟩ : BufTy).Contents (Elt F) → (⟨S64, .f32⟩ : BufTy).Contents (Elt F)),
    nullary main_cst_14 (constant S_ .f32 0x49000000#32),
    unary main_cst_14 main_v81 (broadcastInDim S64 ![] bcast_S_S64 : (⟨S_, .f32⟩ : BufTy).Contents (Elt F) → (⟨S64, .f32⟩ : BufTy).Contents (Elt F)),
    binary main_v80 main_v81 main_v82 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v79) main_call0.cst main_call0.v0 (fun x v => Host.reduceAdd x v reducesTo_S16x32x32x32x64_S64_d0_1_2_3 h_S_),
    TRef.unary main_call0.v0 main_call0.v1 (broadcastInDim S1x1x1x1x64 ![4] bcast_S64_S1x1x1x1x64_4),
    TRef.nullary main_call0.cst_0 (constant S_ .f32 0x49000000#32),
    TRef.unary main_call0.cst_0 main_call0.v2 (broadcastInDim S1x1x1x1x64 ![] bcast_S_S1x1x1x1x64),
    TRef.binary main_call0.v1 main_call0.v2 main_call0.v3 Host.divf,
    TRef.unary main_call0.v3 main_call0.v4 (broadcastInDim S16x32x32x32x64 ![0, 1, 2, 3, 4] bcast_S1x1x1x1x64_S16x32x32x32x64_0_1_2_3_4),
    TRef.binary (.of main_v79) main_call0.v4 main_call0.v5 subf,
    TRef.binary main_call0.v5 main_call0.v5 main_call0.v6 mulf,
    TRef.unary (.of main_c) main_call0.v7 (sitofp .f32),
    TRef.nullary main_call0.cst_1 (constant S_ .f32 0x49000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x32x32x32x64_S64_d0_1_2_3 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v82 main_v84 (broadcastInDim S1x1x1x1x64 ![4] bcast_S64_S1x1x1x1x64_4 : (⟨S64, .f32⟩ : BufTy).Contents (Elt F) → (⟨S1x1x1x1x64, .f32⟩ : BufTy).Contents (Elt F)),
    unary main_v84 main_v85 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v79 main_v85 main_v86 (subf : (⟨S16x32x32x32x64, .f32⟩ : BufTy).Contents (Elt F) → (⟨S16x32x32x32x64, .f32⟩ : BufTy).Contents (Elt F) → (⟨S16x32x32x32x64, .f32⟩ : BufTy).Contents (Elt F)),
    nullary main_cst_15 (constant S_ .f32 0x3727C5AC#32),
    unary main_cst_15 main_v87 (broadcastInDim S64 ![] bcast_S_S64 : (⟨S_, .f32⟩ : BufTy).Contents (Elt F) → (⟨S64, .f32⟩ : BufTy).Contents (Elt F)),
    binary main_v83 main_v87 main_v88 (addf : (⟨S64, .f32⟩ : BufTy).Contents (Elt F) → (⟨S64, .f32⟩ : BufTy).Contents (Elt F) → (⟨S64, .f32⟩ : BufTy).Contents (Elt F)),
    unary main_v88 main_v89 (Host.rsqrt : (⟨S64, .f32⟩ : BufTy).Contents (Elt F) → (⟨S64, .f32⟩ : BufTy).Contents (Elt F)),
    unary main_v89 main_v90 (broadcastInDim S1x1x1x1x64 ![4] bcast_S64_S1x1x1x1x64_4 : (⟨S64, .f32⟩ : BufTy).Contents (Elt F) → (⟨S1x1x1x1x64, .f32⟩ : BufTy).Contents (Elt F)),
    unary main_v90 main_v91 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v86 main_v91 main_v92 (mulf : (⟨S16x32x32x32x64, .f32⟩ : BufTy).Contents (Elt F) → (⟨S16x32x32x32x64, .f32⟩ : BufTy).Contents (Elt F) → (⟨S16x32x32x32x64, .f32⟩ : BufTy).Contents (Elt F)),
    unary main_arg4 main_v93 (broadcastInDim S1x1x1x1x64 ![4] bcast_S64_S1x1x1x1x64_4 : (⟨S64, .f32⟩ : BufTy).Contents (Elt F) → (⟨S1x1x1x1x64, .f32⟩ : BufTy).Contents (Elt F)),
    unary main_v93 main_v94 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v92 main_v94 main_v95 (mulf : (⟨S16x32x32x32x64, .f32⟩ : BufTy).Contents (Elt F) → (⟨S16x32x32x32x64, .f32⟩ : BufTy).Contents (Elt F) → (⟨S16x32x32x32x64, .f32⟩ : BufTy).Contents (Elt F)),
    unary main_arg5 main_v96 (broadcastInDim S1x1x1x1x64 ![4] bcast_S64_S1x1x1x1x64_4 : (⟨S64, .f32⟩ : BufTy).Contents (Elt F) → (⟨S1x1x1x1x64, .f32⟩ : BufTy).Contents (Elt F)),
    unary main_v96 main_v97 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v95 main_v97 main_v98 (addf : (⟨S16x32x32x32x64, .f32⟩ : BufTy).Contents (Elt F) → (⟨S16x32x32x32x64, .f32⟩ : BufTy).Contents (Elt F) → (⟨S16x32x32x32x64, .f32⟩ : BufTy).Contents (Elt F)),
    TRef.nullary main_call1.cst (constant S_ .f32 0x00000000#32),
    TRef.unary main_call1.cst main_call1.v0 (broadcastInDim S16x32x32x32x64 ![] bcast_S_S16x32x32x32x64),
    TRef.binary (.of main_v98) main_call1.v0 main_call1.v1 maximumf ]

/-- Segment 5 (2 operations). The first sum of the second layer's means. -/
abbrev seg5 : List (HloOp τ sig (Elt F)) :=
  [ nullary main_cst_16 (constant S_ .f32 0x00000000#32),
    binary main_v99 main_cst_16 main_v100 ((fun x v => Host.reduceAdd x v reducesTo_S16x32x32x32x64_S16x32x32x64_d1 h_S_) : (⟨S16x32x32x32x64, .f32⟩ : BufTy).Contents (Elt F) → (⟨S_, .f32⟩ : BufTy).Contents (Elt F) → (⟨S16x32x32x64, .f32⟩ : BufTy).Contents (Elt F)) ]

/-- Segment 6 (33 operations). The second layer's seven means (the first sum taken) and the eight blocks of rows of the second weights. -/
abbrev seg6 : List (HloOp τ sig (Elt F)) :=
  [ nullary main_cst_17 (constant S_ .f32 0x42000000#32),
    unary main_cst_17 main_v101 (broadcastInDim S16x32x32x64 ![] bcast_S_S16x32x32x64 : (⟨S_, .f32⟩ : BufTy).Contents (Elt F) → (⟨S16x32x32x64, .f32⟩ : BufTy).Contents (Elt F)),
    binary main_v100 main_v101 main_v102 (Host.divf : (⟨S16x32x32x64, .f32⟩ : BufTy).Contents (Elt F) → (⟨S16x32x32x64, .f32⟩ : BufTy).Contents (Elt F) → (⟨S16x32x32x64, .f32⟩ : BufTy).Contents (Elt F)),
    nullary main_cst_18 (constant S_ .f32 0x00000000#32),
    binary main_v99 main_cst_18 main_v103 ((fun x v => Host.reduceAdd x v reducesTo_S16x32x32x32x64_S16x32x32x64_d2 h_S_) : (⟨S16x32x32x32x64, .f32⟩ : BufTy).Contents (Elt F) → (⟨S_, .f32⟩ : BufTy).Contents (Elt F) → (⟨S16x32x32x64, .f32⟩ : BufTy).Contents (Elt F)),
    nullary main_cst_19 (constant S_ .f32 0x42000000#32),
    unary main_cst_19 main_v104 (broadcastInDim S16x32x32x64 ![] bcast_S_S16x32x32x64 : (⟨S_, .f32⟩ : BufTy).Contents (Elt F) → (⟨S16x32x32x64, .f32⟩ : BufTy).Contents (Elt F)),
    binary main_v103 main_v104 main_v105 (Host.divf : (⟨S16x32x32x64, .f32⟩ : BufTy).Contents (Elt F) → (⟨S16x32x32x64, .f32⟩ : BufTy).Contents (Elt F) → (⟨S16x32x32x64, .f32⟩ : BufTy).Contents (Elt F)),
    nullary main_cst_20 (constant S_ .f32 0x00000000#32),
    binary main_v99 main_cst_20 main_v106 ((fun x v => Host.reduceAdd x v reducesTo_S16x32x32x32x64_S16x32x32x64_d3 h_S_) : (⟨S16x32x32x32x64, .f32⟩ : BufTy).Contents (Elt F) → (⟨S_, .f32⟩ : BufTy).Contents (Elt F) → (⟨S16x32x32x64, .f32⟩ : BufTy).Contents (Elt F)),
    nullary main_cst_21 (constant S_ .f32 0x42000000#32),
    unary main_cst_21 main_v107 (broadcastInDim S16x32x32x64 ![] bcast_S_S16x32x32x64 : (⟨S_, .f32⟩ : BufTy).Contents (Elt F) → (⟨S16x32x32x64, .f32⟩ : BufTy).Contents (Elt F)),
    binary main_v106 main_v107 main_v108 (Host.divf : (⟨S16x32x32x64, .f32⟩ : BufTy).Contents (Elt F) → (⟨S16x32x32x64, .f32⟩ : BufTy).Contents (Elt F) → (⟨S16x32x32x64, .f32⟩ : BufTy).Contents (Elt F)),
    nullary main_cst_22 (constant S_ .f32 0x00000000#32),
    binary main_v99 main_cst_22 main_v109 ((fun x v => Host.reduceAdd x v reducesTo_S16x32x32x32x64_S16x32x64_d2_3 h_S_) : (⟨S16x32x32x32x64, .f32⟩ : BufTy).Contents (Elt F) → (⟨S_, .f32⟩ : BufTy).Contents (Elt F) → (⟨S16x32x64, .f32⟩ : BufTy).Contents (Elt F)),
    nullary main_cst_23 (constant S_ .f32 0x44800000#32),
    unary main_cst_23 main_v110 (broadcastInDim S16x32x64 ![] bcast_S_S16x32x64 : (⟨S_, .f32⟩ : BufTy).Contents (Elt F) → (⟨S16x32x64, .f32⟩ : BufTy).Contents (Elt F)),
    binary main_v109 main_v110 main_v111 (Host.divf : (⟨S16x32x64, .f32⟩ : BufTy).Contents (Elt F) → (⟨S16x32x64, .f32⟩ : BufTy).Contents (Elt F) → (⟨S16x32x64, .f32⟩ : BufTy).Contents (Elt F)),
    nullary main_cst_24 (constant S_ .f32 0x00000000#32),
    binary main_v99 main_cst_24 main_v112 ((fun x v => Host.reduceAdd x v reducesTo_S16x32x32x32x64_S16x32x64_d1_3 h_S_) : (⟨S16x32x32x32x64, .f32⟩ : BufTy).Contents (Elt F) → (⟨S_, .f32⟩ : BufTy).Contents (Elt F) → (⟨S16x32x64, .f32⟩ : BufTy).Contents (Elt F)),
    nullary main_cst_25 (constant S_ .f32 0x44800000#32),
    unary main_cst_25 main_v113 (broadcastInDim S16x32x64 ![] bcast_S_S16x32x64 : (⟨S_, .f32⟩ : BufTy).Contents (Elt F) → (⟨S16x32x64, .f32⟩ : BufTy).Contents (Elt F)),
    binary main_v112 main_v113 main_v114 (Host.divf : (⟨S16x32x64, .f32⟩ : BufTy).Contents (Elt F) → (⟨S16x32x64, .f32⟩ : BufTy).Contents (Elt F) → (⟨S16x32x64, .f32⟩ : BufTy).Contents (Elt F)),
    nullary main_cst_26 (constant S_ .f32 0x00000000#32),
    binary main_v99 main_cst_26 main_v115 ((fun x v => Host.reduceAdd x v reducesTo_S16x32x32x32x64_S16x32x64_d1_2 h_S_) : (⟨S16x32x32x32x64, .f32⟩ : BufTy).Contents (Elt F) → (⟨S_, .f32⟩ : BufTy).Contents (Elt F) → (⟨S16x32x64, .f32⟩ : BufTy).Contents (Elt F)),
    nullary main_cst_27 (constant S_ .f32 0x44800000#32),
    unary main_cst_27 main_v116 (broadcastInDim S16x32x64 ![] bcast_S_S16x32x64 : (⟨S_, .f32⟩ : BufTy).Contents (Elt F) → (⟨S16x32x64, .f32⟩ : BufTy).Contents (Elt F)),
    binary main_v115 main_v116 main_v117 (Host.divf : (⟨S16x32x64, .f32⟩ : BufTy).Contents (Elt F) → (⟨S16x32x64, .f32⟩ : BufTy).Contents (Elt F) → (⟨S16x32x64, .f32⟩ : BufTy).Contents (Elt F)),
    nullary main_cst_28 (constant S_ .f32 0x00000000#32),
    binary main_v99 main_cst_28 main_v118 ((fun x v => Host.reduceAdd x v reducesTo_S16x32x32x32x64_S16x64_d1_2_3 h_S_) : (⟨S16x32x32x32x64, .f32⟩ : BufTy).Contents (Elt F) → (⟨S_, .f32⟩ : BufTy).Contents (Elt F) → (⟨S16x64, .f32⟩ : BufTy).Contents (Elt F)),
    nullary main_cst_29 (constant S_ .f32 0x47000000#32),
    unary main_cst_29 main_v119 (broadcastInDim S16x64 ![] bcast_S_S16x64 : (⟨S_, .f32⟩ : BufTy).Contents (Elt F) → (⟨S16x64, .f32⟩ : BufTy).Contents (Elt F)),
    binary main_v118 main_v119 main_v120 (Host.divf : (⟨S16x64, .f32⟩ : BufTy).Contents (Elt F) → (⟨S16x64, .f32⟩ : BufTy).Contents (Elt F) → (⟨S16x64, .f32⟩ : BufTy).Contents (Elt F)) ]

/-- Segment 7 (27 operations). The identity term and the first five lifted mean terms of the second layer. -/
abbrev seg7 : List (HloOp τ sig (Elt F)) :=
  [ unary main_arg6 main_v121 ((extractStridedSlice S64x64 ![0, 0] · slices_S512x64_S64x64_0_0) : (⟨S512x64, .f32⟩ : BufTy).Contents (Elt F) → (⟨S64x64, .f32⟩ : BufTy).Contents (Elt F)),
    unary main_arg6 main_v122 ((extractStridedSlice S64x64 ![64, 0] · slices_S512x64_S64x64_64_0) : (⟨S512x64, .f32⟩ : BufTy).Contents (Elt F) → (⟨S64x64, .f32⟩ : BufTy).Contents (Elt F)),
    unary main_arg6 main_v123 ((extractStridedSlice S64x64 ![128, 0] · slices_S512x64_S64x64_128_0) : (⟨S512x64, .f32⟩ : BufTy).Contents (Elt F) → (⟨S64x64, .f32⟩ : BufTy).Contents (Elt F)),
    unary main_arg6 main_v124 ((extractStridedSlice S64x64 ![192, 0] · slices_S512x64_S64x64_192_0) : (⟨S512x64, .f32⟩ : BufTy).Contents (Elt F) → (⟨S64x64, .f32⟩ : BufTy).Contents (Elt F)),
    unary main_arg6 main_v125 ((extractStridedSlice S64x64 ![256, 0] · slices_S512x64_S64x64_256_0) : (⟨S512x64, .f32⟩ : BufTy).Contents (Elt F) → (⟨S64x64, .f32⟩ : BufTy).Contents (Elt F)),
    unary main_arg6 main_v126 ((extractStridedSlice S64x64 ![320, 0] · slices_S512x64_S64x64_320_0) : (⟨S512x64, .f32⟩ : BufTy).Contents (Elt F) → (⟨S64x64, .f32⟩ : BufTy).Contents (Elt F)),
    unary main_arg6 main_v127 ((extractStridedSlice S64x64 ![384, 0] · slices_S512x64_S64x64_384_0) : (⟨S512x64, .f32⟩ : BufTy).Contents (Elt F) → (⟨S64x64, .f32⟩ : BufTy).Contents (Elt F)),
    unary main_arg6 main_v128 ((extractStridedSlice S64x64 ![448, 0] · slices_S512x64_S64x64_448_0) : (⟨S512x64, .f32⟩ : BufTy).Contents (Elt F) → (⟨S64x64, .f32⟩ : BufTy).Contents (Elt F)),
    binary main_v99 main_v121 main_v129 ((fun l r => Host.dotGeneral dot_S16x32x32x32x64_S64x64_S16x32x32x32x64_4_0_0123_1_n_n none l r) : (⟨S16x32x32x32x64, .f32⟩ : BufTy).Contents (Elt F) → (⟨S64x64, .f32⟩ : BufTy).Contents (Elt F) → (⟨S16x32x32x32x64, .f32⟩ : BufTy).Contents (Elt F)),
    binary main_v102 main_v122 main_v130 ((fun l r => Host.dotGeneral dot_S16x32x32x64_S64x64_S16x32x32x64_3_0_012_1_n_n none l r) : (⟨S16x32x32x64, .f32⟩ : BufTy).Contents (Elt F) → (⟨S64x64, .f32⟩ : BufTy).Contents (Elt F) → (⟨S16x32x32x64, .f32⟩ : BufTy).Contents (Elt F)),
    unary main_v130 main_v131 (broadcastInDim S16x1x32x32x64 ![0, 2, 3, 4] bcast_S16x32x32x64_S16x1x32x32x64_0_2_3_4 : (⟨S16x32x32x64, .f32⟩ : BufTy).Contents (Elt F) → (⟨S16x1x32x32x64, .f32⟩ : BufTy).Contents (Elt F)),
    unary main_v131 main_v132 (broadcastInDim S16x32x32x32x64 ![0, 1, 2, 3, 4] bcast_S16x1x32x32x64_S16x32x32x32x64_0_1_2_3_4 : (⟨S16x1x32x32x64, .f32⟩ : BufTy).Contents (Elt F) → (⟨S16x32x32x32x64, .f32⟩ : BufTy).Contents (Elt F)),
    binary main_v129 main_v132 main_v133 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v105 main_v123 main_v134 ((fun l r => Host.dotGeneral dot_S16x32x32x64_S64x64_S16x32x32x64_3_0_012_1_n_n none l r) : (⟨S16x32x32x64, .f32⟩ : BufTy).Contents (Elt F) → (⟨S64x64, .f32⟩ : BufTy).Contents (Elt F) → (⟨S16x32x32x64, .f32⟩ : BufTy).Contents (Elt F)),
    unary main_v134 main_v135 (broadcastInDim S16x32x1x32x64 ![0, 1, 3, 4] bcast_S16x32x32x64_S16x32x1x32x64_0_1_3_4 : (⟨S16x32x32x64, .f32⟩ : BufTy).Contents (Elt F) → (⟨S16x32x1x32x64, .f32⟩ : BufTy).Contents (Elt F)),
    unary main_v135 main_v136 (broadcastInDim S16x32x32x32x64 ![0, 1, 2, 3, 4] bcast_S16x32x1x32x64_S16x32x32x32x64_0_1_2_3_4 : (⟨S16x32x1x32x64, .f32⟩ : BufTy).Contents (Elt F) → (⟨S16x32x32x32x64, .f32⟩ : BufTy).Contents (Elt F)),
    binary main_v133 main_v136 main_v137 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v108 main_v124 main_v138 ((fun l r => Host.dotGeneral dot_S16x32x32x64_S64x64_S16x32x32x64_3_0_012_1_n_n none l r) : (⟨S16x32x32x64, .f32⟩ : BufTy).Contents (Elt F) → (⟨S64x64, .f32⟩ : BufTy).Contents (Elt F) → (⟨S16x32x32x64, .f32⟩ : BufTy).Contents (Elt F)),
    unary main_v138 main_v139 (broadcastInDim S16x32x32x1x64 ![0, 1, 2, 4] bcast_S16x32x32x64_S16x32x32x1x64_0_1_2_4 : (⟨S16x32x32x64, .f32⟩ : BufTy).Contents (Elt F) → (⟨S16x32x32x1x64, .f32⟩ : BufTy).Contents (Elt F)),
    unary main_v139 main_v140 (broadcastInDim S16x32x32x32x64 ![0, 1, 2, 3, 4] bcast_S16x32x32x1x64_S16x32x32x32x64_0_1_2_3_4 : (⟨S16x32x32x1x64, .f32⟩ : BufTy).Contents (Elt F) → (⟨S16x32x32x32x64, .f32⟩ : BufTy).Contents (Elt F)),
    binary main_v137 main_v140 main_v141 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v111 main_v125 main_v142 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    unary main_v142 main_v143 (broadcastInDim S16x32x1x1x64 ![0, 1, 4] bcast_S16x32x64_S16x32x1x1x64_0_1_4 : (⟨S16x32x64, .f32⟩ : BufTy).Contents (Elt F) → (⟨S16x32x1x1x64, .f32⟩ : BufTy).Contents (Elt F)),
    unary main_v143 main_v144 (broadcastInDim S16x32x32x32x64 ![0, 1, 2, 3, 4] bcast_S16x32x1x1x64_S16x32x32x32x64_0_1_2_3_4 : (⟨S16x32x1x1x64, .f32⟩ : BufTy).Contents (Elt F) → (⟨S16x32x32x32x64, .f32⟩ : BufTy).Contents (Elt F)),
    binary main_v141 main_v144 main_v145 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v114 main_v126 main_v146 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    unary main_v146 main_v147 (broadcastInDim S16x1x32x1x64 ![0, 2, 4] bcast_S16x32x64_S16x1x32x1x64_0_2_4 : (⟨S16x32x64, .f32⟩ : BufTy).Contents (Elt F) → (⟨S16x1x32x1x64, .f32⟩ : BufTy).Contents (Elt F)) ]

/-- Segment 8 (10 operations). The last two lifted mean terms of the second layer: its tensor before normalisation. -/
abbrev seg8 : List (HloOp τ sig (Elt F)) :=
  [ unary main_v147 main_v148 (broadcastInDim S16x32x32x32x64 ![0, 1, 2, 3, 4] bcast_S16x1x32x1x64_S16x32x32x32x64_0_1_2_3_4 : (⟨S16x1x32x1x64, .f32⟩ : BufTy).Contents (Elt F) → (⟨S16x32x32x32x64, .f32⟩ : BufTy).Contents (Elt F)),
    binary main_v145 main_v148 main_v149 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v117 main_v127 main_v150 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    unary main_v150 main_v151 (broadcastInDim S16x1x1x32x64 ![0, 3, 4] bcast_S16x32x64_S16x1x1x32x64_0_3_4 : (⟨S16x32x64, .f32⟩ : BufTy).Contents (Elt F) → (⟨S16x1x1x32x64, .f32⟩ : BufTy).Contents (Elt F)),
    unary main_v151 main_v152 (broadcastInDim S16x32x32x32x64 ![0, 1, 2, 3, 4] bcast_S16x1x1x32x64_S16x32x32x32x64_0_1_2_3_4 : (⟨S16x1x1x32x64, .f32⟩ : BufTy).Contents (Elt F) → (⟨S16x32x32x32x64, .f32⟩ : BufTy).Contents (Elt F)),
    binary main_v149 main_v152 main_v153 (addf : (⟨S16x32x32x32x64, .f32⟩ : BufTy).Contents (Elt F) → (⟨S16x32x32x32x64, .f32⟩ : BufTy).Contents (Elt F) → (⟨S16x32x32x32x64, .f32⟩ : BufTy).Contents (Elt F)),
    binary main_v120 main_v128 main_v154 ((fun l r => Host.dotGeneral dot_S16x64_S64x64_S16x64_1_0_0_1_n_n none l r) : (⟨S16x64, .f32⟩ : BufTy).Contents (Elt F) → (⟨S64x64, .f32⟩ : BufTy).Contents (Elt F) → (⟨S16x64, .f32⟩ : BufTy).Contents (Elt F)),
    unary main_v154 main_v155 (broadcastInDim S16x1x1x1x64 ![0, 4] bcast_S16x64_S16x1x1x1x64_0_4 : (⟨S16x64, .f32⟩ : BufTy).Contents (Elt F) → (⟨S16x1x1x1x64, .f32⟩ : BufTy).Contents (Elt F)),
    unary main_v155 main_v156 (broadcastInDim S16x32x32x32x64 ![0, 1, 2, 3, 4] bcast_S16x1x1x1x64_S16x32x32x32x64_0_1_2_3_4 : (⟨S16x1x1x1x64, .f32⟩ : BufTy).Contents (Elt F) → (⟨S16x32x32x32x64, .f32⟩ : BufTy).Contents (Elt F)),
    binary main_v153 main_v156 main_v157 (addf : (⟨S16x32x32x32x64, .f32⟩ : BufTy).Contents (Elt F) → (⟨S16x32x32x32x64, .f32⟩ : BufTy).Contents (Elt F) → (⟨S16x32x32x32x64, .f32⟩ : BufTy).Contents (Elt F)) ]

/-- Segment 9 (47 operations). The second normalisation: mean, variance routine, affine normalisation, positive part. -/
abbrev seg9 : List (HloOp τ sig (Elt F)) :=
  [ nullary main_cst_30 (constant S_ .f32 0x00000000#32),
    binary main_v157 main_cst_30 main_v158 ((fun x v => Host.reduceAdd x v reducesTo_S16x32x32x32x64_S64_d0_1_2_3 h_S_) : (⟨S16x32x32x32x64, .f32⟩ : BufTy).Contents (Elt F) → (⟨S_, .f32⟩ : BufTy).Contents (Elt F) → (⟨S64, .f32⟩ : BufTy).Contents (Elt F)),
    nullary main_cst_31 (constant S_ .f32 0x49000000#32),
    unary main_cst_31 main_v159 (broadcastInDim S64 ![] bcast_S_S64 : (⟨S_, .f32⟩ : BufTy).Contents (Elt F) → (⟨S64, .f32⟩ : BufTy).Contents (Elt F)),
    binary main_v158 main_v159 main_v160 (Host.divf : (⟨S64, .f32⟩ : BufTy).Contents (Elt F) → (⟨S64, .f32⟩ : BufTy).Contents (Elt F) → (⟨S64, .f32⟩ : BufTy).Contents (Elt F)),
    nullary main_c_32 (constantI S_ 32 0#32),
    TRef.nullary main_call2.cst (constant S_ .f32 0x00000000#32),
    TRef.binary (.of main_v157) main_call2.cst main_call2.v0 (fun x v => Host.reduceAdd x v reducesTo_S16x32x32x32x64_S64_d0_1_2_3 h_S_),
    TRef.unary main_call2.v0 main_call2.v1 (broadcastInDim S1x1x1x1x64 ![4] bcast_S64_S1x1x1x1x64_4),
    TRef.nullary main_call2.cst_0 (constant S_ .f32 0x49000000#32),
    TRef.unary main_call2.cst_0 main_call2.v2 (broadcastInDim S1x1x1x1x64 ![] bcast_S_S1x1x1x1x64),
    TRef.binary main_call2.v1 main_call2.v2 main_call2.v3 Host.divf,
    TRef.unary main_call2.v3 main_call2.v4 (broadcastInDim S16x32x32x32x64 ![0, 1, 2, 3, 4] bcast_S1x1x1x1x64_S16x32x32x32x64_0_1_2_3_4),
    TRef.binary (.of main_v157) main_call2.v4 main_call2.v5 subf,
    TRef.binary main_call2.v5 main_call2.v5 main_call2.v6 mulf,
    TRef.unary (.of main_c_32) main_call2.v7 (sitofp .f32),
    TRef.nullary main_call2.cst_1 (constant S_ .f32 0x49000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S16x32x32x32x64_S64_d0_1_2_3 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v160 main_v162 (broadcastInDim S1x1x1x1x64 ![4] bcast_S64_S1x1x1x1x64_4 : (⟨S64, .f32⟩ : BufTy).Contents (Elt F) → (⟨S1x1x1x1x64, .f32⟩ : BufTy).Contents (Elt F)),
    unary main_v162 main_v163 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v157 main_v163 main_v164 (subf : (⟨S16x32x32x32x64, .f32⟩ : BufTy).Contents (Elt F) → (⟨S16x32x32x32x64, .f32⟩ : BufTy).Contents (Elt F) → (⟨S16x32x32x32x64, .f32⟩ : BufTy).Contents (Elt F)),
    nullary main_cst_33 (constant S_ .f32 0x3727C5AC#32),
    unary main_cst_33 main_v165 (broadcastInDim S64 ![] bcast_S_S64 : (⟨S_, .f32⟩ : BufTy).Contents (Elt F) → (⟨S64, .f32⟩ : BufTy).Contents (Elt F)),
    binary main_v161 main_v165 main_v166 (addf : (⟨S64, .f32⟩ : BufTy).Contents (Elt F) → (⟨S64, .f32⟩ : BufTy).Contents (Elt F) → (⟨S64, .f32⟩ : BufTy).Contents (Elt F)),
    unary main_v166 main_v167 (Host.rsqrt : (⟨S64, .f32⟩ : BufTy).Contents (Elt F) → (⟨S64, .f32⟩ : BufTy).Contents (Elt F)),
    unary main_v167 main_v168 (broadcastInDim S1x1x1x1x64 ![4] bcast_S64_S1x1x1x1x64_4 : (⟨S64, .f32⟩ : BufTy).Contents (Elt F) → (⟨S1x1x1x1x64, .f32⟩ : BufTy).Contents (Elt F)),
    unary main_v168 main_v169 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v164 main_v169 main_v170 (mulf : (⟨S16x32x32x32x64, .f32⟩ : BufTy).Contents (Elt F) → (⟨S16x32x32x32x64, .f32⟩ : BufTy).Contents (Elt F) → (⟨S16x32x32x32x64, .f32⟩ : BufTy).Contents (Elt F)),
    unary main_arg7 main_v171 (broadcastInDim S1x1x1x1x64 ![4] bcast_S64_S1x1x1x1x64_4 : (⟨S64, .f32⟩ : BufTy).Contents (Elt F) → (⟨S1x1x1x1x64, .f32⟩ : BufTy).Contents (Elt F)),
    unary main_v171 main_v172 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v170 main_v172 main_v173 (mulf : (⟨S16x32x32x32x64, .f32⟩ : BufTy).Contents (Elt F) → (⟨S16x32x32x32x64, .f32⟩ : BufTy).Contents (Elt F) → (⟨S16x32x32x32x64, .f32⟩ : BufTy).Contents (Elt F)),
    unary main_arg8 main_v174 (broadcastInDim S1x1x1x1x64 ![4] bcast_S64_S1x1x1x1x64_4 : (⟨S64, .f32⟩ : BufTy).Contents (Elt F) → (⟨S1x1x1x1x64, .f32⟩ : BufTy).Contents (Elt F)),
    unary main_v174 main_v175 (broadcastInDim S16x32x32x32x64 ![0, 1, 2, 3, 4] bcast_S1x1x1x1x64_S16x32x32x32x64_0_1_2_3_4 : (⟨S1x1x1x1x64, .f32⟩ : BufTy).Contents (Elt F) → (⟨S16x32x32x32x64, .f32⟩ : BufTy).Contents (Elt F)),
    binary main_v173 main_v175 main_v176 (addf : (⟨S16x32x32x32x64, .f32⟩ : BufTy).Contents (Elt F) → (⟨S16x32x32x32x64, .f32⟩ : BufTy).Contents (Elt F) → (⟨S16x32x32x32x64, .f32⟩ : BufTy).Contents (Elt F)),
    TRef.nullary main_call3.cst (constant S_ .f32 0x00000000#32),
    TRef.unary main_call3.cst main_call3.v0 (broadcastInDim S16x32x32x32x64 ![] bcast_S_S16x32x32x32x64),
    TRef.binary (.of main_v176) main_call3.v0 main_call3.v1 maximumf ]

/-- Segment 10 (26 operations). The four means the contraction to order 1 takes, and its first two terms. -/
abbrev seg10 : List (HloOp τ sig (Elt F)) :=
  [ nullary main_cst_34 (constant S_ .f32 0x00000000#32),
    binary main_v177 main_cst_34 main_v178 ((fun x v => Host.reduceAdd x v reducesTo_S16x32x32x32x64_S16x32x64_d2_3 h_S_) : (⟨S16x32x32x32x64, .f32⟩ : BufTy).Contents (Elt F) → (⟨S_, .f32⟩ : BufTy).Contents (Elt F) → (⟨S16x32x64, .f32⟩ : BufTy).Contents (Elt F)),
    nullary main_cst_35 (constant S_ .f32 0x44800000#32),
    unary main_cst_35 main_v179 (broadcastInDim S16x32x64 ![] bcast_S_S16x32x64 : (⟨S_, .f32⟩ : BufTy).Contents (Elt F) → (⟨S16x32x64, .f32⟩ : BufTy).Contents (Elt F)),
    binary main_v178 main_v179 main_v180 (Host.divf : (⟨S16x32x64, .f32⟩ : BufTy).Contents (Elt F) → (⟨S16x32x64, .f32⟩ : BufTy).Contents (Elt F) → (⟨S16x32x64, .f32⟩ : BufTy).Contents (Elt F)),
    nullary main_cst_36 (constant S_ .f32 0x00000000#32),
    binary main_v177 main_cst_36 main_v181 ((fun x v => Host.reduceAdd x v reducesTo_S16x32x32x32x64_S16x32x64_d1_3 h_S_) : (⟨S16x32x32x32x64, .f32⟩ : BufTy).Contents (Elt F) → (⟨S_, .f32⟩ : BufTy).Contents (Elt F) → (⟨S16x32x64, .f32⟩ : BufTy).Contents (Elt F)),
    nullary main_cst_37 (constant S_ .f32 0x44800000#32),
    unary main_cst_37 main_v182 (broadcastInDim S16x32x64 ![] bcast_S_S16x32x64 : (⟨S_, .f32⟩ : BufTy).Contents (Elt F) → (⟨S16x32x64, .f32⟩ : BufTy).Contents (Elt F)),
    binary main_v181 main_v182 main_v183 (Host.divf : (⟨S16x32x64, .f32⟩ : BufTy).Contents (Elt F) → (⟨S16x32x64, .f32⟩ : BufTy).Contents (Elt F) → (⟨S16x32x64, .f32⟩ : BufTy).Contents (Elt F)),
    nullary main_cst_38 (constant S_ .f32 0x00000000#32),
    binary main_v177 main_cst_38 main_v184 ((fun x v => Host.reduceAdd x v reducesTo_S16x32x32x32x64_S16x32x64_d1_2 h_S_) : (⟨S16x32x32x32x64, .f32⟩ : BufTy).Contents (Elt F) → (⟨S_, .f32⟩ : BufTy).Contents (Elt F) → (⟨S16x32x64, .f32⟩ : BufTy).Contents (Elt F)),
    nullary main_cst_39 (constant S_ .f32 0x44800000#32),
    unary main_cst_39 main_v185 (broadcastInDim S16x32x64 ![] bcast_S_S16x32x64 : (⟨S_, .f32⟩ : BufTy).Contents (Elt F) → (⟨S16x32x64, .f32⟩ : BufTy).Contents (Elt F)),
    binary main_v184 main_v185 main_v186 (Host.divf : (⟨S16x32x64, .f32⟩ : BufTy).Contents (Elt F) → (⟨S16x32x64, .f32⟩ : BufTy).Contents (Elt F) → (⟨S16x32x64, .f32⟩ : BufTy).Contents (Elt F)),
    nullary main_cst_40 (constant S_ .f32 0x00000000#32),
    binary main_v177 main_cst_40 main_v187 ((fun x v => Host.reduceAdd x v reducesTo_S16x32x32x32x64_S16x64_d1_2_3 h_S_) : (⟨S16x32x32x32x64, .f32⟩ : BufTy).Contents (Elt F) → (⟨S_, .f32⟩ : BufTy).Contents (Elt F) → (⟨S16x64, .f32⟩ : BufTy).Contents (Elt F)),
    nullary main_cst_41 (constant S_ .f32 0x47000000#32),
    unary main_cst_41 main_v188 (broadcastInDim S16x64 ![] bcast_S_S16x64 : (⟨S_, .f32⟩ : BufTy).Contents (Elt F) → (⟨S16x64, .f32⟩ : BufTy).Contents (Elt F)),
    binary main_v187 main_v188 main_v189 (Host.divf : (⟨S16x64, .f32⟩ : BufTy).Contents (Elt F) → (⟨S16x64, .f32⟩ : BufTy).Contents (Elt F) → (⟨S16x64, .f32⟩ : BufTy).Contents (Elt F)),
    unary main_arg9 main_v190 ((extractStridedSlice S64x64 ![0, 0] · slices_S256x64_S64x64_0_0) : (⟨S256x64, .f32⟩ : BufTy).Contents (Elt F) → (⟨S64x64, .f32⟩ : BufTy).Contents (Elt F)),
    binary main_v180 main_v190 main_v191 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    unary main_arg9 main_v192 ((extractStridedSlice S64x64 ![64, 0] · slices_S256x64_S64x64_64_0) : (⟨S256x64, .f32⟩ : BufTy).Contents (Elt F) → (⟨S64x64, .f32⟩ : BufTy).Contents (Elt F)),
    binary main_v183 main_v192 main_v193 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    binary main_v191 main_v193 main_v194 (addf : (⟨S16x32x64, .f32⟩ : BufTy).Contents (Elt F) → (⟨S16x32x64, .f32⟩ : BufTy).Contents (Elt F) → (⟨S16x32x64, .f32⟩ : BufTy).Contents (Elt F)),
    unary main_arg9 main_v195 ((extractStridedSlice S64x64 ![128, 0] · slices_S256x64_S64x64_128_0) : (⟨S256x64, .f32⟩ : BufTy).Contents (Elt F) → (⟨S64x64, .f32⟩ : BufTy).Contents (Elt F)) ]

/-- Segment 11 (7 operations). The last two terms of the contraction: the order-1 tensor before normalisation. -/
abbrev seg11 : List (HloOp τ sig (Elt F)) :=
  [ binary main_v186 main_v195 main_v196 ((fun l r => Host.dotGeneral dot_S16x32x64_S64x64_S16x32x64_2_0_01_1_n_n none l r) : (⟨S16x32x64, .f32⟩ : BufTy).Contents (Elt F) → (⟨S64x64, .f32⟩ : BufTy).Contents (Elt F) → (⟨S16x32x64, .f32⟩ : BufTy).Contents (Elt F)),
    binary main_v194 main_v196 main_v197 (addf : (⟨S16x32x64, .f32⟩ : BufTy).Contents (Elt F) → (⟨S16x32x64, .f32⟩ : BufTy).Contents (Elt F) → (⟨S16x32x64, .f32⟩ : BufTy).Contents (Elt F)),
    unary main_arg9 main_v198 ((extractStridedSlice S64x64 ![192, 0] · slices_S256x64_S64x64_192_0) : (⟨S256x64, .f32⟩ : BufTy).Contents (Elt F) → (⟨S64x64, .f32⟩ : BufTy).Contents (Elt F)),
    binary main_v189 main_v198 main_v199 ((fun l r => Host.dotGeneral dot_S16x64_S64x64_S16x64_1_0_0_1_n_n none l r) : (⟨S16x64, .f32⟩ : BufTy).Contents (Elt F) → (⟨S64x64, .f32⟩ : BufTy).Contents (Elt F) → (⟨S16x64, .f32⟩ : BufTy).Contents (Elt F)),
    unary main_v199 main_v200 (broadcastInDim S16x1x64 ![0, 2] bcast_S16x64_S16x1x64_0_2 : (⟨S16x64, .f32⟩ : BufTy).Contents (Elt F) → (⟨S16x1x64, .f32⟩ : BufTy).Contents (Elt F)),
    unary main_v200 main_v201 (broadcastInDim S16x32x64 ![0, 1, 2] bcast_S16x1x64_S16x32x64_0_1_2 : (⟨S16x1x64, .f32⟩ : BufTy).Contents (Elt F) → (⟨S16x32x64, .f32⟩ : BufTy).Contents (Elt F)),
    binary main_v197 main_v201 main_v202 (addf : (⟨S16x32x64, .f32⟩ : BufTy).Contents (Elt F) → (⟨S16x32x64, .f32⟩ : BufTy).Contents (Elt F) → (⟨S16x32x64, .f32⟩ : BufTy).Contents (Elt F)) ]

/-- Segment 12 (44 operations). The last normalisation: per-channel mean and variance over batch and nodes, the affine normalisation: the result. -/
abbrev seg12 : List (HloOp τ sig (Elt F)) :=
  [ nullary main_cst_42 (constant S_ .f32 0x00000000#32),
    binary main_v202 main_cst_42 main_v203 ((fun x v => Host.reduceAdd x v reducesTo_S16x32x64_S64_d0_1 h_S_) : (⟨S16x32x64, .f32⟩ : BufTy).Contents (Elt F) → (⟨S_, .f32⟩ : BufTy).Contents (Elt F) → (⟨S64, .f32⟩ : BufTy).Contents (Elt F)),
    nullary main_cst_43 (constant S_ .f32 0x44000000#32),
    unary main_cst_43 main_v204 (broadcastInDim S64 ![] bcast_S_S64 : (⟨S_, .f32⟩ : BufTy).Contents (Elt F) → (⟨S64, .f32⟩ : BufTy).Contents (Elt F)),
    binary main_v203 main_v204 main_v205 (Host.divf : (⟨S64, .f32⟩ : BufTy).Contents (Elt F) → (⟨S64, .f32⟩ : BufTy).Contents (Elt F) → (⟨S64, .f32⟩ : BufTy).Contents (Elt F)),
    nullary main_c_44 (constantI S_ 32 0#32),
    TRef.nullary main_call4.cst (constant S_ .f32 0x00000000#32),
    TRef.binary (.of main_v202) main_call4.cst main_call4.v0 (fun x v => Host.reduceAdd x v reducesTo_S16x32x64_S64_d0_1 h_S_),
    TRef.unary main_call4.v0 main_call4.v1 (broadcastInDim S1x1x64 ![2] bcast_S64_S1x1x64_2),
    TRef.nullary main_call4.cst_0 (constant S_ .f32 0x44000000#32),
    TRef.unary main_call4.cst_0 main_call4.v2 (broadcastInDim S1x1x64 ![] bcast_S_S1x1x64),
    TRef.binary main_call4.v1 main_call4.v2 main_call4.v3 Host.divf,
    TRef.unary main_call4.v3 main_call4.v4 (broadcastInDim S16x32x64 ![0, 1, 2] bcast_S1x1x64_S16x32x64_0_1_2),
    TRef.binary (.of main_v202) main_call4.v4 main_call4.v5 subf,
    TRef.binary main_call4.v5 main_call4.v5 main_call4.v6 mulf,
    TRef.unary (.of main_c_44) main_call4.v7 (sitofp .f32),
    TRef.nullary main_call4.cst_1 (constant S_ .f32 0x44000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S16x32x64_S64_d0_1 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v205 main_v207 (broadcastInDim S1x1x64 ![2] bcast_S64_S1x1x64_2 : (⟨S64, .f32⟩ : BufTy).Contents (Elt F) → (⟨S1x1x64, .f32⟩ : BufTy).Contents (Elt F)),
    unary main_v207 main_v208 (broadcastInDim S16x32x64 ![0, 1, 2] bcast_S1x1x64_S16x32x64_0_1_2 : (⟨S1x1x64, .f32⟩ : BufTy).Contents (Elt F) → (⟨S16x32x64, .f32⟩ : BufTy).Contents (Elt F)),
    binary main_v202 main_v208 main_v209 (subf : (⟨S16x32x64, .f32⟩ : BufTy).Contents (Elt F) → (⟨S16x32x64, .f32⟩ : BufTy).Contents (Elt F) → (⟨S16x32x64, .f32⟩ : BufTy).Contents (Elt F)),
    nullary main_cst_45 (constant S_ .f32 0x3727C5AC#32),
    unary main_cst_45 main_v210 (broadcastInDim S64 ![] bcast_S_S64 : (⟨S_, .f32⟩ : BufTy).Contents (Elt F) → (⟨S64, .f32⟩ : BufTy).Contents (Elt F)),
    binary main_v206 main_v210 main_v211 (addf : (⟨S64, .f32⟩ : BufTy).Contents (Elt F) → (⟨S64, .f32⟩ : BufTy).Contents (Elt F) → (⟨S64, .f32⟩ : BufTy).Contents (Elt F)),
    unary main_v211 main_v212 (Host.rsqrt : (⟨S64, .f32⟩ : BufTy).Contents (Elt F) → (⟨S64, .f32⟩ : BufTy).Contents (Elt F)),
    unary main_v212 main_v213 (broadcastInDim S1x1x64 ![2] bcast_S64_S1x1x64_2 : (⟨S64, .f32⟩ : BufTy).Contents (Elt F) → (⟨S1x1x64, .f32⟩ : BufTy).Contents (Elt F)),
    unary main_v213 main_v214 (broadcastInDim S16x32x64 ![0, 1, 2] bcast_S1x1x64_S16x32x64_0_1_2 : (⟨S1x1x64, .f32⟩ : BufTy).Contents (Elt F) → (⟨S16x32x64, .f32⟩ : BufTy).Contents (Elt F)),
    binary main_v209 main_v214 main_v215 (mulf : (⟨S16x32x64, .f32⟩ : BufTy).Contents (Elt F) → (⟨S16x32x64, .f32⟩ : BufTy).Contents (Elt F) → (⟨S16x32x64, .f32⟩ : BufTy).Contents (Elt F)),
    unary main_arg10 main_v216 (broadcastInDim S1x1x64 ![2] bcast_S64_S1x1x64_2 : (⟨S64, .f32⟩ : BufTy).Contents (Elt F) → (⟨S1x1x64, .f32⟩ : BufTy).Contents (Elt F)),
    unary main_v216 main_v217 (broadcastInDim S16x32x64 ![0, 1, 2] bcast_S1x1x64_S16x32x64_0_1_2 : (⟨S1x1x64, .f32⟩ : BufTy).Contents (Elt F) → (⟨S16x32x64, .f32⟩ : BufTy).Contents (Elt F)),
    binary main_v215 main_v217 main_v218 (mulf : (⟨S16x32x64, .f32⟩ : BufTy).Contents (Elt F) → (⟨S16x32x64, .f32⟩ : BufTy).Contents (Elt F) → (⟨S16x32x64, .f32⟩ : BufTy).Contents (Elt F)),
    unary main_arg11 main_v219 (broadcastInDim S1x1x64 ![2] bcast_S64_S1x1x64_2 : (⟨S64, .f32⟩ : BufTy).Contents (Elt F) → (⟨S1x1x64, .f32⟩ : BufTy).Contents (Elt F)),
    unary main_v219 main_v220 (broadcastInDim S16x32x64 ![0, 1, 2] bcast_S1x1x64_S16x32x64_0_1_2 : (⟨S1x1x64, .f32⟩ : BufTy).Contents (Elt F) → (⟨S16x32x64, .f32⟩ : BufTy).Contents (Elt F)),
    binary main_v218 main_v220 main_v221 (addf : (⟨S16x32x64, .f32⟩ : BufTy).Contents (Elt F) → (⟨S16x32x64, .f32⟩ : BufTy).Contents (Elt F) → (⟨S16x32x64, .f32⟩ : BufTy).Contents (Elt F)) ]

/-- The whole program's 337 operations, in order. -/
abbrev ops : List (HloOp τ sig (Elt F)) :=
  seg1 ++ (seg2 ++ (seg3 ++ (seg4 ++ (seg5 ++ (seg6 ++ (seg7 ++ (seg8 ++ (seg9 ++ (seg10 ++ (seg11 ++ (seg12)))))))))))

set_option maxRecDepth 8192 in
theorem seg1_sub : (seg1 : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub ..⟩

set_option maxRecDepth 8192 in
theorem seg2_sub : (seg2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub ..⟩

set_option maxRecDepth 8192 in
theorem seg3_sub : (seg3 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub ..⟩

set_option maxRecDepth 8192 in
theorem seg4_sub : (seg4 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem seg5_sub : (seg5 : List (HloOp τ sig (Elt F))).Forall fun op => op.bufs ⊆ tcRefs τ sig :=
  ⟨nullary_bufs_sub .., binary_bufs_sub ..⟩

set_option maxRecDepth 8192 in
theorem seg6_sub : (seg6 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub ..⟩

set_option maxRecDepth 8192 in
theorem seg7_sub : (seg7 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub ..⟩

set_option maxRecDepth 8192 in
theorem seg8_sub : (seg8 : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., unary_bufs_sub .., unary_bufs_sub .., binary_bufs_sub ..⟩

set_option maxRecDepth 8192 in
theorem seg9_sub : (seg9 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem seg10_sub : (seg10 : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., unary_bufs_sub .., binary_bufs_sub .., unary_bufs_sub .., binary_bufs_sub .., binary_bufs_sub .., unary_bufs_sub ..⟩

set_option maxRecDepth 8192 in
theorem seg11_sub : (seg11 : List (HloOp τ sig (Elt F))).Forall fun op => op.bufs ⊆ tcRefs τ sig :=
  ⟨binary_bufs_sub .., binary_bufs_sub .., unary_bufs_sub .., binary_bufs_sub .., unary_bufs_sub .., unary_bufs_sub .., binary_bufs_sub ..⟩

set_option maxRecDepth 8192 in
theorem seg12_sub : (seg12 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- Every operation reads and writes buffers of the device only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h]

set_option maxRecDepth 8192 in
/-- The first printed piece is the straight line of its segments (no call in it: the two sides unfold to the same chain). -/
theorem part0_eq (c : Dev nD) : main_part0 (F := F) c = seq (seg1 ++ (seg2)) := rfl

set_option maxRecDepth 8192 in
/-- The second printed piece is the straight line of its segments: the routines' definitions unfolded at their calls and the
    sequencing reassociated, both sides are one chain of operation steps. -/
theorem part1_eq (c : Dev nD) : main_part1 (F := F) c = seq (seg3 ++ (seg4 ++ (seg5))) := by
  simp only [main_part1, fn_var.body, fn_var_0.body, fn_where.body, fn_relu.body, seg3, seg4, seg5, List.cons_append, List.nil_append, seq, bind_assoc, pure_bind]
  rfl

set_option maxRecDepth 8192 in
/-- The third printed piece is the straight line of its segments (no call in it: the two sides unfold to the same chain). -/
theorem part2_eq (c : Dev nD) : main_part2 (F := F) c = seq (seg6 ++ (seg7)) := rfl

set_option maxRecDepth 8192 in
/-- The fourth printed piece is the straight line of its segments: the routines' definitions unfolded at their calls and the
    sequencing reassociated, both sides are one chain of operation steps. -/
theorem part3_eq (c : Dev nD) : main_part3 (F := F) c = seq (seg8 ++ (seg9 ++ (seg10))) := by
  simp only [main_part3, fn_var.body, fn_var_0.body, fn_where.body, fn_relu.body, seg8, seg9, seg10, List.cons_append, List.nil_append, seq, bind_assoc, pure_bind]
  rfl

set_option maxRecDepth 8192 in
/-- The fifth printed piece is the straight line of its segments: the routines' definitions unfolded at their calls and the
    sequencing reassociated, both sides are one chain of operation steps. -/
theorem part4_eq (c : Dev nD) : main_part4 (F := F) c = seq (seg11 ++ (seg12)) := by
  simp only [main_part4, fn_var.body, fn_var_0.body, fn_where.body, fn_relu.body, seg11, seg12, List.cons_append, List.nil_append, seq, bind_assoc, pure_bind]

/-- The entry function is the straight line of all the operations: piece by piece, lines run one after the other
    being their concatenation run as one. -/
theorem main_eq (c : Dev nD) : main (F := F) c = seq ops := by
  simp only [main, part0_eq, part1_eq, part2_eq, part3_eq, part4_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun1.lean ====
/-
  Window 1 of the reference's straight line (42 operations): the expanded input and its seven means.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win1 : List (HloOp τ sig (Elt F)) := seg1

/-- The buffers the window's operations write. -/
abbrev win1_W : List (Ref sig .tc) := [main_v0, main_v1, main_v2, main_v3, main_v4, main_v5, main_v6, main_cst, main_v7, main_cst_0, main_v8, main_v9, main_cst_1, main_v10, main_cst_2, main_v11, main_v12, main_cst_3, main_v13, main_cst_4, main_v14, main_v15, main_cst_5, main_v16, main_cst_6, main_v17, main_v18, main_cst_7, main_v19, main_cst_8, main_v20, main_v21, main_cst_9, main_v22, main_cst_10, main_v23, main_v24, main_cst_11, main_v25, main_cst_12, main_v26, main_v27]

set_option maxRecDepth 8192 in
theorem win1_writes : (win1 : List (HloOp τ sig (Elt F))).Forall fun op => op.writes ⊆ (win1_W.map (Proc.devRef (τ := τ) .tc)).toFinset := by
  simp only [win1, seg1, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win1_keep (V : Valuation τ sig (Elt F)) (r : Ref sig .tc) (h : r ∉ win1_W) :
    after win1 V (no_index (Proc.devRef .tc r)) = V (Proc.devRef .tc r) :=
  after_of_writes_sub win1 V win1_writes h

/-- A three-operand operation (the concatenation) leaves at its result buffer its function of the three operands' contents,
    each read at its own buffer. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

set_option maxRecDepth 8192 in
set_option maxHeartbeats 4000000 in
theorem win1_v6 (V : Valuation τ sig (Elt F)) :
    after win1 V (no_index (Proc.devRef .tc main_v6)) = xExp ((V (Proc.devRef .tc main_arg0))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v9 (V : Valuation τ sig (Elt F)) :
    after win1 V (no_index (Proc.devRef .tc main_v9)) = mean48_d1 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v12 (V : Valuation τ sig (Elt F)) :
    after win1 V (no_index (Proc.devRef .tc main_v12)) = mean48_d2 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v15 (V : Valuation τ sig (Elt F)) :
    after win1 V (no_index (Proc.devRef .tc main_v15)) = mean48_d3 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v18 (V : Valuation τ sig (Elt F)) :
    after win1 V (no_index (Proc.devRef .tc main_v18)) = mean48_d23 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v21 (V : Valuation τ sig (Elt F)) :
    after win1 V (no_index (Proc.devRef .tc main_v21)) = mean48_d13 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v24 (V : Valuation τ sig (Elt F)) :
    after win1 V (no_index (Proc.devRef .tc main_v24)) = mean48_d12 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
theorem win1_v27 (V : Valuation τ sig (Elt F)) :
    after win1 V (no_index (Proc.devRef .tc main_v27)) = mean48_d123 (xExp ((V (Proc.devRef .tc main_arg0)))) := by
  simp only [win1, seg1, List.cons_append, List.nil_append]
  simp (disch := decide) only [after_cons, after_nil,
    nullary_result', unary_result', binary_result', ternary_result', nary3_result',
    nullary_result_ne', unary_result_ne', binary_result_ne', ternary_result_ne', nary_result_ne']
  rfl

end Cert.ReferenceIdeal.Hand

end
-- ==== Proof.RefRun2.lean ====
/-
  Window 2 of the reference's straight line (52 operations): the first layer's tensor before normalisation, from the expanded input, its means, the node features and the weights.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win2 : List (HloOp τ sig (Elt F)) := seg2 ++ (seg3)

/-- The buffers the window's operations write. -/
abbrev win2_W : List (Ref sig .tc) := [main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79]

set_option maxRecDepth 8192 in
theorem win2_writes : (win2 : List (HloOp τ sig (Elt F))).Forall fun op => op.writes ⊆ (win2_W.map (Proc.devRef (τ := τ) .tc)).toFinset := by
  simp only [win2, seg2, seg3, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win2_keep (V : Valuation τ sig (Elt F)) (r : Ref sig .tc) (h : r ∉ win2_W) :
    after win2 V (no_index (Proc.devRef .tc r)) = V (Proc.devRef .tc r) :=
  after_of_writes_sub win2 V win2_writes h

set_option maxRecDepth 8192 in
set_option maxHeartbeats 4000000 in
theorem win2_v79 (V : Valuation τ sig (Elt F)) :
    after win2 V (no_index (Proc.devRef .tc main_v79)) = pre1Of ((V (Proc.devRef .tc main_v6))) ((V (Proc.devRef .tc main_v9))) ((V (Proc.devRef .tc main_v12))) ((V (Proc.devRef .tc main_v15))) ((V (Proc.devRef .tc main_v18))) ((V (Proc.devRef .tc main_v21))) ((V (Proc.devRef .tc main_v24))) ((V (Proc.devRef .tc main_v27))) ((V (Proc.devRef .tc main_arg1))) ((V (Proc.devRef .tc main_arg2))) ((V (Proc.devRef .tc main_arg3))) := by
  simp only [win2, seg2, seg3, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun3.lean ====
/-
  Window 3 of the reference's straight line (47 operations): the first normalisation and positive part.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win3 : List (HloOp τ sig (Elt F)) := seg4

/-- The buffers the window's operations write. -/
abbrev win3_W : List (Ref sig .tc) := [main_cst_13, main_v80, main_cst_14, main_v81, main_v82, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v83, main_v84, main_v85, main_v86, main_cst_15, main_v87, main_v88, main_v89, main_v90, main_v91, main_v92, main_v93, main_v94, main_v95, main_v96, main_v97, main_v98, main_call1_cst, main_call1_v0, main_v99]

set_option maxRecDepth 8192 in
theorem win3_writes : (win3 : List (HloOp τ sig (Elt F))).Forall fun op => op.writes ⊆ (win3_W.map (Proc.devRef (τ := τ) .tc)).toFinset := by
  simp only [win3, seg4, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win3_keep (V : Valuation τ sig (Elt F)) (r : Ref sig .tc) (h : r ∉ win3_W) :
    after win3 V (no_index (Proc.devRef .tc r)) = V (Proc.devRef .tc r) :=
  after_of_writes_sub win3 V win3_writes h

set_option maxRecDepth 8192 in
set_option maxHeartbeats 4000000 in
theorem win3_v99 (V : Valuation τ sig (Elt F)) :
    after win3 V (no_index (Proc.devRef .tc main_v99)) = relu5 (bnNorm5 ((V (Proc.devRef .tc main_v79))) ((V (Proc.devRef .tc main_arg4))) ((V (Proc.devRef .tc main_arg5)))) := by
  simp only [win3, seg4, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun4.lean ====
/-
  Window 4 of the reference's straight line (35 operations): the seven means of the first layer's output.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win4 : List (HloOp τ sig (Elt F)) := seg5 ++ (seg6)

/-- The buffers the window's operations write. -/
abbrev win4_W : List (Ref sig .tc) := [main_cst_16, main_v100, main_cst_17, main_v101, main_v102, main_cst_18, main_v103, main_cst_19, main_v104, main_v105, main_cst_20, main_v106, main_cst_21, main_v107, main_v108, main_cst_22, main_v109, main_cst_23, main_v110, main_v111, main_cst_24, main_v112, main_cst_25, main_v113, main_v114, main_cst_26, main_v115, main_cst_27, main_v116, main_v117, main_cst_28, main_v118, main_cst_29, main_v119, main_v120]

set_option maxRecDepth 8192 in
theorem win4_writes : (win4 : List (HloOp τ sig (Elt F))).Forall fun op => op.writes ⊆ (win4_W.map (Proc.devRef (τ := τ) .tc)).toFinset := by
  simp only [win4, seg5, seg6, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win4_keep (V : Valuation τ sig (Elt F)) (r : Ref sig .tc) (h : r ∉ win4_W) :
    after win4 V (no_index (Proc.devRef .tc r)) = V (Proc.devRef .tc r) :=
  after_of_writes_sub win4 V win4_writes h

set_option maxRecDepth 8192 in
set_option maxHeartbeats 4000000 in
theorem win4_v102 (V : Valuation τ sig (Elt F)) :
    after win4 V (no_index (Proc.devRef .tc main_v102)) = mean64_d1 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v105 (V : Valuation τ sig (Elt F)) :
    after win4 V (no_index (Proc.devRef .tc main_v105)) = mean64_d2 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v108 (V : Valuation τ sig (Elt F)) :
    after win4 V (no_index (Proc.devRef .tc main_v108)) = mean64_d3 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v111 (V : Valuation τ sig (Elt F)) :
    after win4 V (no_index (Proc.devRef .tc main_v111)) = mean64_d23 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v114 (V : Valuation τ sig (Elt F)) :
    after win4 V (no_index (Proc.devRef .tc main_v114)) = mean64_d13 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v117 (V : Valuation τ sig (Elt F)) :
    after win4 V (no_index (Proc.devRef .tc main_v117)) = mean64_d12 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

set_option maxRecDepth 8192 in
set_option maxHeartbeats 4000000 in
theorem win4_v120 (V : Valuation τ sig (Elt F)) :
    after win4 V (no_index (Proc.devRef .tc main_v120)) = mean64_d123 ((V (Proc.devRef .tc main_v99))) := by
  simp only [win4, seg5, seg6, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun5.lean ====
/-
  Window 5 of the reference's straight line (37 operations): the second layer's tensor before normalisation.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win5 : List (HloOp τ sig (Elt F)) := seg7 ++ (seg8)

/-- The buffers the window's operations write. -/
abbrev win5_W : List (Ref sig .tc) := [main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157]

set_option maxRecDepth 8192 in
theorem win5_writes : (win5 : List (HloOp τ sig (Elt F))).Forall fun op => op.writes ⊆ (win5_W.map (Proc.devRef (τ := τ) .tc)).toFinset := by
  simp only [win5, seg7, seg8, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win5_keep (V : Valuation τ sig (Elt F)) (r : Ref sig .tc) (h : r ∉ win5_W) :
    after win5 V (no_index (Proc.devRef .tc r)) = V (Proc.devRef .tc r) :=
  after_of_writes_sub win5 V win5_writes h

set_option maxRecDepth 8192 in
set_option maxHeartbeats 4000000 in
theorem win5_v157 (V : Valuation τ sig (Elt F)) :
    after win5 V (no_index (Proc.devRef .tc main_v157)) = pre2Of ((V (Proc.devRef .tc main_v99))) ((V (Proc.devRef .tc main_v102))) ((V (Proc.devRef .tc main_v105))) ((V (Proc.devRef .tc main_v108))) ((V (Proc.devRef .tc main_v111))) ((V (Proc.devRef .tc main_v114))) ((V (Proc.devRef .tc main_v117))) ((V (Proc.devRef .tc main_v120))) ((V (Proc.devRef .tc main_arg6))) := by
  simp only [win5, seg7, seg8, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun6.lean ====
/-
  Window 6 of the reference's straight line (47 operations): the second normalisation and positive part.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win6 : List (HloOp τ sig (Elt F)) := seg9

/-- The buffers the window's operations write. -/
abbrev win6_W : List (Ref sig .tc) := [main_cst_30, main_v158, main_cst_31, main_v159, main_v160, main_c_32, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v161, main_v162, main_v163, main_v164, main_cst_33, main_v165, main_v166, main_v167, main_v168, main_v169, main_v170, main_v171, main_v172, main_v173, main_v174, main_v175, main_v176, main_call3_cst, main_call3_v0, main_v177]

set_option maxRecDepth 8192 in
theorem win6_writes : (win6 : List (HloOp τ sig (Elt F))).Forall fun op => op.writes ⊆ (win6_W.map (Proc.devRef (τ := τ) .tc)).toFinset := by
  simp only [win6, seg9, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win6_keep (V : Valuation τ sig (Elt F)) (r : Ref sig .tc) (h : r ∉ win6_W) :
    after win6 V (no_index (Proc.devRef .tc r)) = V (Proc.devRef .tc r) :=
  after_of_writes_sub win6 V win6_writes h

set_option maxRecDepth 8192 in
set_option maxHeartbeats 4000000 in
theorem win6_v177 (V : Valuation τ sig (Elt F)) :
    after win6 V (no_index (Proc.devRef .tc main_v177)) = relu5 (bnNorm5 ((V (Proc.devRef .tc main_v157))) ((V (Proc.devRef .tc main_arg7))) ((V (Proc.devRef .tc main_arg8)))) := by
  simp only [win6, seg9, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun7.lean ====
/-
  Window 7 of the reference's straight line (33 operations): the contraction to order 1 before normalisation.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win7 : List (HloOp τ sig (Elt F)) := seg10 ++ (seg11)

/-- The buffers the window's operations write. -/
abbrev win7_W : List (Ref sig .tc) := [main_cst_34, main_v178, main_cst_35, main_v179, main_v180, main_cst_36, main_v181, main_cst_37, main_v182, main_v183, main_cst_38, main_v184, main_cst_39, main_v185, main_v186, main_cst_40, main_v187, main_cst_41, main_v188, main_v189, main_v190, main_v191, main_v192, main_v193, main_v194, main_v195, main_v196, main_v197, main_v198, main_v199, main_v200, main_v201, main_v202]

set_option maxRecDepth 8192 in
theorem win7_writes : (win7 : List (HloOp τ sig (Elt F))).Forall fun op => op.writes ⊆ (win7_W.map (Proc.devRef (τ := τ) .tc)).toFinset := by
  simp only [win7, seg10, seg11, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win7_keep (V : Valuation τ sig (Elt F)) (r : Ref sig .tc) (h : r ∉ win7_W) :
    after win7 V (no_index (Proc.devRef .tc r)) = V (Proc.devRef .tc r) :=
  after_of_writes_sub win7 V win7_writes h

set_option maxRecDepth 8192 in
set_option maxHeartbeats 4000000 in
theorem win7_v202 (V : Valuation τ sig (Elt F)) :
    after win7 V (no_index (Proc.devRef .tc main_v202)) = pre3 (V (Proc.devRef .tc main_v177)) (V (Proc.devRef .tc main_arg9)) := by
  simp only [win7, seg10, seg11, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun8.lean ====
/-
  Window 8 of the reference's straight line (44 operations): the last normalisation: the result.
  For ANY contents `V` of the device's buffers, the contents after the window's operations: at each buffer a later window
  reads, the named stage function of `V` at the buffers this window reads; at a buffer the window does not write, `V`'s.
  Each value is read off the fold operation by operation: at its own result buffer an operation leaves its function of its
  operands' contents, at any other buffer what was there.
-/
import proofs.«145029_j5059471475016_2_alg».proof.Proof.RefDefs
import proofs.«145029_j5059471475016_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations. -/
abbrev win8 : List (HloOp τ sig (Elt F)) := seg12

/-- The buffers the window's operations write. -/
abbrev win8_W : List (Ref sig .tc) := [main_cst_42, main_v203, main_cst_43, main_v204, main_v205, main_c_44, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v206, main_v207, main_v208, main_v209, main_cst_45, main_v210, main_v211, main_v212, main_v213, main_v214, main_v215, main_v216, main_v217, main_v218, main_v219, main_v220, main_v221]

set_option maxRecDepth 8192 in
theorem win8_writes : (win8 : List (HloOp τ sig (Elt F))).Forall fun op => op.writes ⊆ (win8_W.map (Proc.devRef (τ := τ) .tc)).toFinset := by
  simp only [win8, seg12, List.cons_append, List.nil_append, List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer the window does not write keeps its contents through it. -/
theorem win8_keep (V : Valuation τ sig (Elt F)) (r : Ref sig .tc) (h : r ∉ win8_W) :
    after win8 V (no_index (Proc.devRef .tc r)) = V (Proc.devRef .tc r) :=
  after_of_writes_sub win8 V win8_writes h

set_option maxRecDepth 8192 in
set_option maxHeartbeats 4000000 in
theorem win8_v221 (V : Valuation τ sig (Elt F)) :
    after win8 V (no_index (Proc.devRef .tc main_v221)) = bnNorm3 ((V (Proc.devRef .tc main_v202))) ((V (Proc.devRef .tc main_arg10))) ((V (Proc.devRef .tc main_arg11))) := by
  simp only [win8, seg12, List.cons_append, List.nil_append]
  simp (disch := decide) only [after_cons, after_nil,
    nullary_result', unary_result', binary_result', ternary_result',
    nullary_result_ne', unary_result_ne', binary_result_ne', ternary_result_ne', nary_result_ne']
  rfl

end Cert.ReferenceIdeal.Hand

end
-- ==== Proof.RefRun.lean ====
/-
  The reference's run: every execution of the reference program terminates with its result buffer at `refOut` of the
  twelve argument arrays and the arguments unchanged.
  The program is a straight line (RefOps), so its run ends with every buffer at the fold of the operations over the launch
  contents; the fold over the whole line is the fold over the eight windows in turn, each window's value lemma (RefRun1 …
  RefRun8) gives the buffers the next windows read, and the composition of the stage functions along the windows is
  `refOut` by its definition.
-/
import proofs.«145029_j5059471475016_2_alg».proof.Proof.RefRun1
import proofs.«145029_j5059471475016_2_alg».proof.Proof.RefRun2
import proofs.«145029_j5059471475016_2_alg».proof.Proof.RefRun3
import proofs.«145029_j5059471475016_2_alg».proof.Proof.RefRun4
import proofs.«145029_j5059471475016_2_alg».proof.Proof.RefRun5
import proofs.«145029_j5059471475016_2_alg».proof.Proof.RefRun6
import proofs.«145029_j5059471475016_2_alg».proof.Proof.RefRun7
import proofs.«145029_j5059471475016_2_alg».proof.Proof.RefRun8
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over the whole line is the fold over the eight windows in turn: the line is their concatenation. -/
theorem after_ops (V : Valuation τ sig (Elt F)) :
    after ops V = after win8 (after win7 (after win6 (after win5 (after win4 (after win3 (after win2 (after win1 V))))))) := by
  rw [show (ops : List (HloOp τ sig (Elt F))) = win1 ++ (win2 ++ (win3 ++ (win4 ++ (win5 ++ (win6 ++ (win7 ++ (win8))))))) from by
    simp only [ops, win1, win2, win3, win4, win5, win6, win7, win8, List.append_assoc]]
  simp only [StableHlo.after_append]

/-- The result buffer after the whole line: window by window, each value lemma rewriting the contents the next one reads,
    the buffers a window does not write read through it; what is left is `refOut` with its stages unfolded. -/
theorem out_eq (V : Valuation τ sig (Elt F)) :
    after ops V (Proc.devRef .tc main_v221)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  simp (disch := decide) only [win1_v6, win1_v9, win1_v12, win1_v15, win1_v18, win1_v21, win1_v24, win1_v27, win2_v79, win3_v99, win4_v102, win4_v105, win4_v108, win4_v111, win4_v114, win4_v117, win4_v120, win5_v157, win6_v177, win7_v202, win8_v221,
    win1_keep, win2_keep, win3_keep, win4_keep, win5_keep, win6_keep, win7_keep, win8_keep]
  rfl

/-- No operation writes an argument buffer: each keeps its launch contents through the whole line. -/
theorem arg_keep (V : Valuation τ sig (Elt F)) (r : Ref sig .tc)
    (h : r ∉ win1_W ∧ r ∉ win2_W ∧ r ∉ win3_W ∧ r ∉ win4_W ∧ r ∉ win5_W ∧ r ∉ win6_W ∧ r ∉ win7_W ∧ r ∉ win8_W) :
    after ops V (Proc.devRef .tc r) = V (Proc.devRef .tc r) := by
  obtain ⟨h1, h2, h3, h4, h5, h6, h7, h8⟩ := h
  rw [after_ops, win8_keep _ r h8, win7_keep _ r h7, win6_keep _ r h6, win5_keep _ r h5, win4_keep _ r h4, win3_keep _ r h3, win2_keep _ r h2, win1_keep _ r h1]

set_option maxRecDepth 8192 in
theorem seg1_fresh : ∀ op ∈ (seg1 : List (HloOp τ sig (Elt F))), op.fresh = ∅ := by
  intro _ h; (repeat (cases h with | head => rfl | tail _ h => ?_)); exact nomatch h

set_option maxRecDepth 8192 in
theorem seg2_fresh : ∀ op ∈ (seg2 : List (HloOp τ sig (Elt F))), op.fresh = ∅ := by
  intro _ h; (repeat (cases h with | head => rfl | tail _ h => ?_)); exact nomatch h

set_option maxRecDepth 8192 in
theorem seg3_fresh : ∀ op ∈ (seg3 : List (HloOp τ sig (Elt F))), op.fresh = ∅ := by
  intro _ h; (repeat (cases h with | head => rfl | tail _ h => ?_)); exact nomatch h

set_option maxRecDepth 8192 in
theorem seg4_fresh : ∀ op ∈ (seg4 : List (HloOp τ sig (Elt F))), op.fresh = ∅ := by
  intro _ h; (repeat (cases h with | head => rfl | tail _ h => ?_)); exact nomatch h

set_option maxRecDepth 8192 in
theorem seg5_fresh : ∀ op ∈ (seg5 : List (HloOp τ sig (Elt F))), op.fresh = ∅ := by
  intro _ h; (repeat (cases h with | head => rfl | tail _ h => ?_)); exact nomatch h

set_option maxRecDepth 8192 in
theorem seg6_fresh : ∀ op ∈ (seg6 : List (HloOp τ sig (Elt F))), op.fresh = ∅ := by
  intro _ h; (repeat (cases h with | head => rfl | tail _ h => ?_)); exact nomatch h

set_option maxRecDepth 8192 in
theorem seg7_fresh : ∀ op ∈ (seg7 : List (HloOp τ sig (Elt F))), op.fresh = ∅ := by
  intro _ h; (repeat (cases h with | head => rfl | tail _ h => ?_)); exact nomatch h

set_option maxRecDepth 8192 in
theorem seg8_fresh : ∀ op ∈ (seg8 : List (HloOp τ sig (Elt F))), op.fresh = ∅ := by
  intro _ h; (repeat (cases h with | head => rfl | tail _ h => ?_)); exact nomatch h

set_option maxRecDepth 8192 in
theorem seg9_fresh : ∀ op ∈ (seg9 : List (HloOp τ sig (Elt F))), op.fresh = ∅ := by
  intro _ h; (repeat (cases h with | head => rfl | tail _ h => ?_)); exact nomatch h

set_option maxRecDepth 8192 in
theorem seg10_fresh : ∀ op ∈ (seg10 : List (HloOp τ sig (Elt F))), op.fresh = ∅ := by
  intro _ h; (repeat (cases h with | head => rfl | tail _ h => ?_)); exact nomatch h

set_option maxRecDepth 8192 in
theorem seg11_fresh : ∀ op ∈ (seg11 : List (HloOp τ sig (Elt F))), op.fresh = ∅ := by
  intro _ h; (repeat (cases h with | head => rfl | tail _ h => ?_)); exact nomatch h

set_option maxRecDepth 8192 in
theorem seg12_fresh : ∀ op ∈ (seg12 : List (HloOp τ sig (Elt F))), op.fresh = ∅ := by
  intro _ h; (repeat (cases h with | head => rfl | tail _ h => ?_)); exact nomatch h

/-- Every operation determines its results: none of them only allocates. -/
theorem ops_fresh : ∀ op ∈ (ops : List (HloOp τ sig (Elt F))), op.fresh = ∅ := by
  intro op h
  simp only [ops, List.mem_append] at h
  rcases h with h | h | h | h | h | h | h | h | h | h | h | h
  exacts [seg1_fresh op h, seg2_fresh op h, seg3_fresh op h, seg4_fresh op h, seg5_fresh op h, seg6_fresh op h, seg7_fresh op h, seg8_fresh op h, seg9_fresh op h, seg10_fresh op h, seg11_fresh op h, seg12_fresh op h]

/-- On every device, from any memory with zero counters: every weakly fair execution of the reference terminates with
    the result buffer at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v221) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v221).trans (out_eq (launchContents m c)),
      (h c main_arg0).trans (arg_keep (launchContents m c) main_arg0 (by decide)),
      (h c main_arg1).trans (arg_keep (launchContents m c) main_arg1 (by decide)),
      (h c main_arg2).trans (arg_keep (launchContents m c) main_arg2 (by decide)),
      (h c main_arg3).trans (arg_keep (launchContents m c) main_arg3 (by decide)),
      (h c main_arg4).trans (arg_keep (launchContents m c) main_arg4 (by decide)),
      (h c main_arg5).trans (arg_keep (launchContents m c) main_arg5 (by decide)),
      (h c main_arg6).trans (arg_keep (launchContents m c) main_arg6 (by decide)),
      (h c main_arg7).trans (arg_keep (launchContents m c) main_arg7 (by decide)),
      (h c main_arg8).trans (arg_keep (launchContents m c) main_arg8 (by decide)),
      (h c main_arg9).trans (arg_keep (launchContents m c) main_arg9 (by decide)),
      (h c main_arg10).trans (arg_keep (launchContents m c) main_arg10 (by decide)),
      (h c main_arg11).trans (arg_keep (launchContents m c) main_arg11 (by decide))⟩)
    (run_seq scopedRefs_eq scopedSems_eq defs main (fun _ => ops) main_eq (fun _ => ops_sub) m ρ (fun _ => ops_fresh))

end Cert.ReferenceIdeal.Hand

end
-- ==== Proof.KIValTail.lean ====
/-
  The program's last three stretches of host operations normalise the order-1 tensor per channel: its mean over the
  512 (batch, node) positions, the variance of the centred entries, then (y − mean) · rsqrt(var + ε) · gain + offset.
  Read as functions of the tensor they are, operation for operation, the reference's own spelling of that
  normalisation; so the two programs' results agree as soon as their tensors before it do, and the normalisation is
  never opened.
-/
import proofs.«145029_j5059471475016_2_alg».proof.Proof.Gen.KernelIdeal.Launch
import proofs.«145029_j5059471475016_2_alg».proof.Proof.Gen.KernelIdeal.Regions
import proofs.«145029_j5059471475016_2_alg».proof.Proof.RefDefs
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F]

/-- The first tail stretch leaves the per-channel mean of the order-1 tensor. -/
theorem tail5_mean (W : Valuation τ sig (Elt F)) :
    (StableHlo.after hostOps5 W (Proc.devRef .tc main_v27) : (⟨S64, .f32⟩ : BufTy).Contents (Elt F))
    = Cert.ReferenceIdeal.Hand.bnMean3 (W (Proc.devRef .tc main_v24)) := by
  after_results; rfl

/-- The first tail stretch leaves the integer zero the variance's divisor subtracts. -/
theorem tail5_c (W : Valuation τ sig (Elt F)) :
    (StableHlo.after hostOps5 W (Proc.devRef .tc main_c) : (⟨S_, .i32⟩ : BufTy).Contents (Elt F))
    = constantI S_ 32 0#32 := by
  after_results

set_option maxHeartbeats 2000000 in
/-- The second tail stretch leaves the per-channel variance. -/
theorem tail5_1_var (W : Valuation τ sig (Elt F)) (hc : (W (Proc.devRef .tc main_c) : (⟨S_, .i32⟩ : BufTy).Contents (Elt F)) = constantI S_ 32 0#32) :
    (StableHlo.after hostOps5_1 W (Proc.devRef .tc main_v28) : (⟨S64, .f32⟩ : BufTy).Contents (Elt F))
    = Cert.ReferenceIdeal.Hand.bnVar3 (W (Proc.devRef .tc main_v24)) := by
  after_results_simp
  rw [hc]; rfl

set_option maxHeartbeats 2000000 in
/-- The last tail stretch normalises: the result from the tensor, its mean and its variance. -/
theorem tail5_2_out (W : Valuation τ sig (Elt F)) (y : (⟨S16x32x64, .f32⟩ : BufTy).Contents (Elt F))
    (hy : W (Proc.devRef .tc main_v24) = y)
    (hm : (W (Proc.devRef .tc main_v27) : (⟨S64, .f32⟩ : BufTy).Contents (Elt F)) = Cert.ReferenceIdeal.Hand.bnMean3 y)
    (hv : (W (Proc.devRef .tc main_v28) : (⟨S64, .f32⟩ : BufTy).Contents (Elt F)) = Cert.ReferenceIdeal.Hand.bnVar3 y) :
    (StableHlo.after hostOps5_2 W (Proc.devRef .tc main_v43) : (⟨S16x32x64, .f32⟩ : BufTy).Contents (Elt F))
    = Cert.ReferenceIdeal.Hand.bnNorm3 y (W (Proc.devRef .tc main_arg10)) (W (Proc.devRef .tc main_arg11)) := by
  after_results_simp
  rw [hy, hm, hv]; rfl

end Cert.KernelIdeal.Hand

end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«145029_j5059471475016_2_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.LibRealVec.lean ====
/-
  Arrays of extended reals all of whose entries are real numbers, and the array operations that keep them so.

  An extended real is -∞, +∞ or a real. The laws that rearrange a formula (distributivity, cancellation) fail at the
  infinities, so a formula is moved down to the reals first, and for that every intermediate array has to consist of
  reals. This file names "every entry is a real" for a family of extended reals and proves that it is preserved by the
  array operations of a message-passing chain, each stated for arbitrary shapes and arbitrary dimension numbers:
  entrywise sum, difference, product and maximum; a broadcast (of one real, or of a real array along some axes); a
  gather (every result entry IS an operand entry); an accumulating scatter (every result entry is an operand entry plus
  a finite sum of update entries); a contraction (an accumulator entry plus a finite sum of products); a sum
  reduction; and the entrywise quotient by an array of reals none of which is zero, in particular by reals that are
  at least one. It ends with the way in: an entry whose absolute value is below +∞ is a real.
-/
import Idealize.ShloMosaic.PureOps.Ideal
import Idealize.ShloMosaic.PureOps.Ideal.Laws
import Idealize.ShloMosaic.Lib.ValueIdx
import proofs.«145029_j5059471475016_2_alg».proof.Proof.LibIsReal
import proofs.«145029_j5059471475016_2_alg».proof.Proof.LibIdealReal

noncomputable section

open scoped BigOperators

namespace Cert.RealVec

open Idealize.ShloMosaic Idealize.ShloMosaic.ValueIdx Cert.Alg

/-- Every entry of the family is (the inclusion of) a real number. -/
def IsRealV {ι : Type*} (v : ι → EReal) : Prop := ∀ i, ∃ r : ℝ, v i = (r : EReal)

/-- The same, said entry by entry with the scalar predicate. -/
theorem isRealV_iff {ι : Type*} (v : ι → EReal) : IsRealV v ↔ ∀ i, IsReal (v i) := Iff.rfl

/-- A family of inclusions of reals is real. -/
theorem isRealV_coe {ι : Type*} (f : ι → ℝ) : IsRealV (fun i => ((f i : ℝ) : EReal)) := fun i => ⟨f i, rfl⟩

/-- A real family is the family of inclusions of its real parts. -/
theorem IsRealV.exists_real {ι : Type*} {v : ι → EReal} (h : IsRealV v) : ∃ f : ι → ℝ, v = fun i => ((f i : ℝ) : EReal) := by
  choose f hf using h
  exact ⟨f, funext hf⟩

/-- Reading a real family along any map of indices gives a real family. -/
theorem IsRealV.comp {ι κ : Type*} {v : ι → EReal} (h : IsRealV v) (g : κ → ι) : IsRealV (fun j => v (g j)) :=
  fun j => h (g j)

/-! ## Entrywise arithmetic -/

section Entrywise
variable {s : Shape} {φ : FTy}

/-- The entrywise sum of two real arrays is real. -/
theorem IsRealV.addf {a b : FVec Ideal s φ} (ha : IsRealV a) (hb : IsRealV b) : IsRealV (addf a b) :=
  fun i => IsReal.add (ha i) (hb i)

/-- The entrywise difference of two real arrays is real. -/
theorem IsRealV.subf {a b : FVec Ideal s φ} (ha : IsRealV a) (hb : IsRealV b) : IsRealV (subf a b) :=
  fun i => IsReal.sub (ha i) (hb i)

/-- The entrywise product of two real arrays is real. -/
theorem IsRealV.mulf {a b : FVec Ideal s φ} (ha : IsRealV a) (hb : IsRealV b) : IsRealV (mulf a b) :=
  fun i => IsReal.mul (ha i) (hb i)

/-- The entrywise maximum of two real arrays is real. -/
theorem IsRealV.maximumf {a b : FVec Ideal s φ} (ha : IsRealV a) (hb : IsRealV b) : IsRealV (maximumf a b) :=
  fun i => IsReal.max (ha i) (hb i)

/-- The entrywise maximum with a real array is at least that array: a lower clip at 1 gives entries that are at least 1. -/
theorem le_maximumf_left (a b : FVec Ideal s φ) (i : s.Idx) : a i ≤ maximumf a b i := le_max_left _ _

theorem le_maximumf_right (a b : FVec Ideal s φ) (i : s.Idx) : b i ≤ maximumf a b i := le_max_right _ _

/-- The entrywise quotient of a real array by a real array with no zero entry is real. -/
theorem IsRealV.hostDivf {a b : FVec Ideal s φ} (ha : IsRealV a) (hb : IsRealV b) (h0 : ∀ i, b i ≠ 0) :
    IsRealV (Host.divf a b) :=
  fun i => IsReal.div (ha i) (hb i) (h0 i)

/-- The same for the quotient written inside a kernel. -/
theorem IsRealV.divf {a b : FVec Ideal s φ} (ha : IsRealV a) (hb : IsRealV b) (h0 : ∀ i, b i ≠ 0) :
    IsRealV (divf a b) :=
  fun i => IsReal.div (ha i) (hb i) (h0 i)

/-- An extended real that is at least one is not zero. -/
theorem ne_zero_of_one_le {y : EReal} (h : 1 ≤ y) : y ≠ 0 :=
  fun h0 => absurd (h0 ▸ h) (by norm_num)

/-- The entrywise quotient of a real array by a real array whose entries are all at least one is real. -/
theorem IsRealV.hostDivf_of_one_le {a b : FVec Ideal s φ} (ha : IsRealV a) (hb : IsRealV b) (h1 : ∀ i, 1 ≤ b i) :
    IsRealV (Host.divf a b) :=
  ha.hostDivf hb fun i => ne_zero_of_one_le (h1 i)

/-- The quotient of a real that is not negative by a real that is at least one is a real that is not negative. -/
theorem div_nonneg_real {x y : EReal} (hx : IsReal x) (hx0 : 0 ≤ x) (hy : IsReal y) (h1 : 1 ≤ y) :
    ∃ r : ℝ, 0 ≤ r ∧ Ideal.div x y = (r : EReal) := by
  obtain ⟨a, rfl⟩ := hx
  obtain ⟨b, rfl⟩ := hy
  have ha : 0 ≤ a := by exact_mod_cast hx0
  have hb : 1 ≤ b := by exact_mod_cast h1
  have hb0 : b ≠ 0 := by linarith
  exact ⟨a / b, div_nonneg ha (by linarith), LibERealBridge.div_coe_coe a b hb0⟩

end Entrywise

/-! ## Broadcasts -/

section Broadcast
variable {s t : Shape}

/-- The broadcast of one real is a real array. -/
theorem IsRealV.broadcast {x : EReal} (hx : IsReal x) : IsRealV (broadcast t x) := fun _ => hx

/-- The broadcast of a real array along some axes is real: each result entry is an operand entry. -/
theorem IsRealV.broadcastInDim {x : s.Idx → EReal} (hx : IsRealV x) (dims : Fin s.rank → Fin t.rank)
    (h : s.BroadcastsInDim t dims) : IsRealV (broadcastInDim t dims h x) :=
  fun _ => hx _

end Broadcast

/-! ## Gather and accumulating scatter, for arbitrary dimension numbers -/

section Indexing
variable {s si t u : Shape} {w : Nat}

/-- A gather from a real array is real, whatever the dimension numbers and the indices: each result entry is the
    operand's entry at some index. -/
theorem IsRealV.gather (d : GatherDims s si t) {x : s.Idx → EReal} (hx : IsRealV x) (idx : IVec si w) :
    IsRealV (Host.gather d x idx) :=
  fun _ => hx _

/-- An accumulating scatter of real updates into a real operand is real, whatever the dimension numbers and the
    indices: each result entry is the operand's entry plus a finite sum of update entries. -/
theorem IsRealV.idealScatterAdd (d : ScatterDims s si u) {x : s.Idx → EReal} (hx : IsRealV x) (idx : IVec si w)
    {upd : u.Idx → EReal} (hu : IsRealV upd) : IsRealV (Ideal.hostScatterAdd d x idx upd) :=
  fun i => IsReal.add (hx i) (IsReal.sum _ _ fun j _ => hu j)

/-- The same for the operation as a host program writes it. -/
theorem IsRealV.scatterAdd {φ : FTy} (d : ScatterDims s si u) {x : FVec Ideal s φ} (hx : IsRealV x) (idx : IVec si w)
    {upd : FVec Ideal u φ} (hu : IsRealV upd) : IsRealV (Host.scatterAdd d x idx upd) :=
  IsRealV.idealScatterAdd d hx idx hu

end Indexing

/-! ## Contractions and sum reductions -/

section Contract

/-- A contraction of two real arrays onto a real accumulator is real: each result entry is an accumulator entry plus
    a finite sum of products. -/
theorem IsRealV.matmul {sl sr so : Shape} (d : DotDims sl sr so) {lhs : sl.Idx → EReal} {rhs : sr.Idx → EReal}
    {acc : so.Idx → EReal} (hl : IsRealV lhs) (hr : IsRealV rhs) (ha : IsRealV acc) :
    IsRealV (Ideal.matmul d lhs rhs acc) :=
  fun j => IsReal.add (ha j) (IsReal.sum _ _ fun k _ => IsReal.mul (hl _) (hr _))

/-- The host's sum reduction of a real array from a real initial value is real. -/
theorem IsRealV.hostReduceAdd {s t : Shape} {axes : List (Fin s.rank)} (h : s.ReducesTo axes t) {x : s.Idx → EReal}
    (hx : IsRealV x) {init : EReal} (hi : IsReal init) : IsRealV (Ideal.hostReduceAdd h x init) :=
  fun _ => IsReal.add hi (IsReal.sum _ _ fun i _ => hx i)

end Contract

/-! ## A message-passing hop, composed

  The node factor is 1 / max (1, degree), the degree a scatter of ones into zeros; one hop gathers the rows of the
  feature array along the edges' sources, scales each by its edge weight, scatters the scaled rows into zeros along
  the edges' targets and rescales each node's row by the node factor. Every array on the way is real when the feature
  array and the weights are. The statements take the constant arrays (zeros, ones) as any arrays with those entries,
  and the broadcast weights and factors as any real arrays, so they apply whatever chain of broadcasts produced them. -/

section Chain
variable {φ : FTy}

/-- The binary32 word 0x3F800000 is one. -/
theorem ofBits_one : Ideal.ofBits .f32 0x3F800000#32 = 1 := by
  have h : Ideal.ofBits .f32 0x3F800000#32 = (((1 : ℝ) : ℝ) : EReal) := by
    simp [Ideal.ofBits, Ideal.ieee, -EReal.coe_mul]; norm_num
  rw [h, EReal.coe_one]

/-- The zero word and the one word denote reals. -/
theorem isReal_ofBits_zero : IsReal (Ideal.ofBits .f32 0x00000000#32) := by
  rw [Cert.IdealReal.ofBits_zero]; exact IsReal.zero

theorem isReal_ofBits_one : IsReal (Ideal.ofBits .f32 0x3F800000#32) := by
  rw [ofBits_one]; exact IsReal.one

/-- The node factor 1 / max (1, degree) is a real array: the degree is a scatter of real updates into a real
    operand, the clip at one keeps it real and makes every entry at least one, and the quotient of a real array by
    such an array is real. -/
theorem isRealV_degInv {sN sI sE : Shape} {w : Nat} (dS : ScatterDims sN sI sE) (idx : IVec sI w)
    {zero num one : FVec Ideal sN φ} {ones : FVec Ideal sE φ}
    (hz : IsRealV zero) (ho : IsRealV ones) (h1 : ∀ i, one i = 1) (hnum : IsRealV num) :
    IsRealV (Host.divf num (maximumf one (Host.scatterAdd dS zero idx ones))) := by
  have hone : IsRealV one := fun i => ⟨1, by rw [h1 i, EReal.coe_one]⟩
  refine hnum.hostDivf_of_one_le (hone.maximumf (hz.scatterAdd dS idx ho)) fun i => ?_
  have := le_maximumf_left one (Host.scatterAdd dS zero idx ones) i
  rwa [h1 i] at this

/-- One hop keeps the feature array real: gather along the sources, scale by the (broadcast) edge weights, scatter
    into a real array along the targets, rescale by the (broadcast) node factor. -/
theorem isRealV_hop {sH sIs sId sM : Shape} {w w' : Nat} (dG : GatherDims sH sIs sM) (dS : ScatterDims sH sId sM)
    (idxS : IVec sIs w) (idxD : IVec sId w') {h zero dB : FVec Ideal sH φ} {wB : FVec Ideal sM φ}
    (hh : IsRealV h) (hw : IsRealV wB) (hz : IsRealV zero) (hd : IsRealV dB) :
    IsRealV (mulf (Host.scatterAdd dS zero idxD (mulf (Host.gather dG h idxS) wB)) dB) :=
  (hz.scatterAdd dS idxD (IsRealV.mulf (hh.gather dG idxS) hw)).mulf hd

end Chain

/-! ## The way in: an entry of absolute value below +∞ is a real -/

/-- An extended real whose absolute value (the maximum of it and its negation) is below +∞ is a real. -/
theorem isReal_of_abs_lt_top {x : EReal} (h : max x (-x) < ⊤) : IsReal x := by
  induction x using EReal.rec with
  | bot => exact absurd h (by simp)
  | coe r => exact ⟨r, rfl⟩
  | top => exact absurd h (by simp)

/-- The same with the comparison as a float program makes it: the test "|x| < +∞", +∞ given by its binary32 word,
    answers true. -/
theorem isReal_of_cmp_abs_lt_inf {x : EReal}
    (h : Ideal.cmp .olt (max x (-x)) (Ideal.ofBits .f32 0x7F800000#32) = 1#1) : IsReal x := by
  have h' : BitVec.ofBool (decide (max x (-x) < Ideal.ofBits .f32 0x7F800000#32)) = 1#1 := h
  rw [Cert.IdealReal.ofBits_pos_inf] at h'
  by_cases hlt : max x (-x) < ⊤
  · exact isReal_of_abs_lt_top hlt
  · rw [decide_eq_false hlt] at h'
    exact absurd h' (by decide)

/-- An array every entry of which passes the test "|x| < +∞" against an array of +∞ words is real. -/
theorem isRealV_of_finite {s : Shape} (x inf : FVec Ideal s .f32)
    (hinf : ∀ i, inf i = Ideal.ofBits .f32 0x7F800000#32)
    (h : ∀ i, cmpf .olt (Host.absf x) inf i = 1#1) : IsRealV x := by
  intro i
  have hi : Ideal.cmp .olt (max (x i) (-(x i))) (inf i) = 1#1 := h i
  rw [hinf i] at hi
  exact isReal_of_cmp_abs_lt_inf hi

end Cert.RealVec

end
-- ==== Proof.KIValPre.lean ====
/-
  From the finiteness precondition to real inputs.

  The precondition tests, for each of the twelve argument arrays, that every entry has absolute value below +∞, and
  joins the twelve answers with "and".  An extended real whose absolute value is below +∞ is neither infinity, so it
  is a real number.  Hence under the precondition every argument array is an array of reals: there are real tensors
  x, xn, W1, Wn1, g1, b1, W2, g2, b2, Wc, gc, bc whose inclusions the arrays are.  A weight array with t·C + c rows is
  read as W t c d at row t·C + c, the arrangement in which the layers use it.
-/
import proofs.«145029_j5059471475016_2_alg».proof.Defs
import proofs.«145029_j5059471475016_2_alg».proof.Proof.Gen.Pre_finite_inputs
import proofs.«145029_j5059471475016_2_alg».proof.Proof.LibRealVec
import Idealize.ShloMosaic.Lib.ReduceAll
import Idealize.ShloMosaic.Lib.Affine
import Idealize.ShloMosaic.Lib.ValueIdx

noncomputable section

namespace Cert.KernelIdeal.Val

open Idealize.ShloMosaic Idealize.ShloMosaic.ValueIdx Idealize.SL.Sem Cert.RealVec Cert.Alg

/-- An array all of whose entries pass the test "|x| < +∞", the answers joined by "and" into one bit that is 1, is an
    array of reals. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
          (cmpf .olt (Host.absf x) (broadcastInDim s ![] hb (constant (F := Ideal) ⟨0, ![]⟩ .f32 0x7F800000#32)))
          (constantI ⟨0, ![]⟩ 1 1#1) hr hu ix0 = 1#1) : IsRealV x := by
  haveI : Subsingleton (⟨0, ![]⟩ : Shape).Idx := ⟨fun a b => funext fun d => d.elim0⟩
  exact isRealV_of_finite x _ (fun _ => rfl) (fun i => Host.reduce_andi_all _ _ hr hu ix0 h i)

/-- Under the precondition each of the twelve arrays is an array of reals. -/
theorem args_isReal [Cert.Pre_finite_inputs.Facts] (a0 : FVec Ideal Cert.Pre_finite_inputs.S16x32x32x16 .f32) (a1 : FVec Ideal Cert.Pre_finite_inputs.S16x32x8 .f32) (a2 : FVec Ideal Cert.Pre_finite_inputs.S384x64 .f32) (a3 : FVec Ideal Cert.Pre_finite_inputs.S24x64 .f32) (a4 : FVec Ideal Cert.Pre_finite_inputs.S64 .f32) (a5 : FVec Ideal Cert.Pre_finite_inputs.S64 .f32) (a6 : FVec Ideal Cert.Pre_finite_inputs.S512x64 .f32) (a7 : FVec Ideal Cert.Pre_finite_inputs.S64 .f32) (a8 : FVec Ideal Cert.Pre_finite_inputs.S64 .f32) (a9 : FVec Ideal Cert.Pre_finite_inputs.S256x64 .f32) (a10 : FVec Ideal Cert.Pre_finite_inputs.S64 .f32) (a11 : FVec Ideal Cert.Pre_finite_inputs.S64 .f32)
    (h : Cert.Pre_finite_inputs.fn (F := Ideal) a0 a1 a2 a3 a4 a5 a6 a7 a8 a9 a10 a11 = fun _ => 1#1) :
    IsRealV a0 ∧ IsRealV a1 ∧ IsRealV a2 ∧ IsRealV a3 ∧ IsRealV a4 ∧ IsRealV a5 ∧ IsRealV a6 ∧ IsRealV a7
      ∧ IsRealV a8 ∧ IsRealV a9 ∧ IsRealV a10 ∧ IsRealV a11 := by
  have h0 := congrFun h ix0
  dsimp only [Cert.Pre_finite_inputs.fn, Cert.Pre_finite_inputs.fn_part1, Cert.Pre_finite_inputs.fn_part2, Cert.Pre_finite_inputs.fn_part3] at h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10, real_of_all a11 _ _ _ e11⟩

/-- Under the precondition the argument arrays of a device are the inclusions of real tensors, the weight arrays read
    block of rows by block of rows. -/
theorem inputs_real [hPre : Cert.Pre_finite_inputs.Facts] [Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (x : Fin 16 → Fin 32 → Fin 32 → Fin 16 → ℝ) (xn : Fin 16 → Fin 32 → Fin 8 → ℝ)
      (W1 : Fin 8 → Fin 48 → Fin 64 → ℝ) (Wn1 : Fin 3 → Fin 8 → Fin 64 → ℝ) (g1 b1 : Fin 64 → ℝ)
      (W2 : Fin 8 → Fin 64 → Fin 64 → ℝ) (g2 b2 : Fin 64 → ℝ) (Wc : Fin 4 → Fin 64 → Fin 64 → ℝ) (gc bc : Fin 64 → ℝ),
      (∀ b i j k, ((m ((c.tc : Thread nD τ).loc main_arg0)) : FVec Ideal S16x32x32x16 .f32) (ix4 b i j k) = ((x b i j k : ℝ) : EReal))
      ∧ (∀ b i k, ((m ((c.tc : Thread nD τ).loc main_arg1)) : FVec Ideal S16x32x8 .f32) (ix3 b i k) = ((xn b i k : ℝ) : EReal))
      ∧ (∀ (t : Fin 8) (c' : Fin 48) (d : Fin 64) (hlt : t.val * 48 + c'.val < 384),
          ((m ((c.tc : Thread nD τ).loc main_arg2)) : FVec Ideal S384x64 .f32) (ix2 ⟨t.val * 48 + c'.val, hlt⟩ d) = ((W1 t c' d : ℝ) : EReal))
      ∧ (∀ (t : Fin 3) (c' : Fin 8) (d : Fin 64) (hlt : t.val * 8 + c'.val < 24),
          ((m ((c.tc : Thread nD τ).loc main_arg3)) : FVec Ideal S24x64 .f32) (ix2 ⟨t.val * 8 + c'.val, hlt⟩ d) = ((Wn1 t c' d : ℝ) : EReal))
      ∧ (∀ d, ((m ((c.tc : Thread nD τ).loc main_arg4)) : FVec Ideal S64 .f32) (ix1 d) = ((g1 d : ℝ) : EReal))
      ∧ (∀ d, ((m ((c.tc : Thread nD τ).loc main_arg5)) : FVec Ideal S64 .f32) (ix1 d) = ((b1 d : ℝ) : EReal))
      ∧ (∀ (t : Fin 8) (c' : Fin 64) (d : Fin 64) (hlt : t.val * 64 + c'.val < 512),
          ((m ((c.tc : Thread nD τ).loc main_arg6)) : FVec Ideal S512x64 .f32) (ix2 ⟨t.val * 64 + c'.val, hlt⟩ d) = ((W2 t c' d : ℝ) : EReal))
      ∧ (∀ d, ((m ((c.tc : Thread nD τ).loc main_arg7)) : FVec Ideal S64 .f32) (ix1 d) = ((g2 d : ℝ) : EReal))
      ∧ (∀ d, ((m ((c.tc : Thread nD τ).loc main_arg8)) : FVec Ideal S64 .f32) (ix1 d) = ((b2 d : ℝ) : EReal))
      ∧ (∀ (t : Fin 4) (c' : Fin 64) (d : Fin 64) (hlt : t.val * 64 + c'.val < 256),
          ((m ((c.tc : Thread nD τ).loc main_arg9)) : FVec Ideal S256x64 .f32) (ix2 ⟨t.val * 64 + c'.val, hlt⟩ d) = ((Wc t c' d : ℝ) : EReal))
      ∧ (∀ d, ((m ((c.tc : Thread nD τ).loc main_arg10)) : FVec Ideal S64 .f32) (ix1 d) = ((gc d : ℝ) : EReal))
      ∧ (∀ d, ((m ((c.tc : Thread nD τ).loc main_arg11)) : FVec Ideal S64 .f32) (ix1 d) = ((bc d : ℝ) : EReal)) := by
  obtain ⟨r0, r1, r2, r3, r4, r5, r6, r7, r8, r9, r10, r11⟩ := args_isReal _ _ _ _ _ _ _ _ _ _ _ _ (hpre c)
  obtain ⟨f0, hf0⟩ := r0.exists_real
  obtain ⟨f1, hf1⟩ := r1.exists_real
  obtain ⟨f2, hf2⟩ := r2.exists_real
  obtain ⟨f3, hf3⟩ := r3.exists_real
  obtain ⟨f4, hf4⟩ := r4.exists_real
  obtain ⟨f5, hf5⟩ := r5.exists_real
  obtain ⟨f6, hf6⟩ := r6.exists_real
  obtain ⟨f7, hf7⟩ := r7.exists_real
  obtain ⟨f8, hf8⟩ := r8.exists_real
  obtain ⟨f9, hf9⟩ := r9.exists_real
  obtain ⟨f10, hf10⟩ := r10.exists_real
  obtain ⟨f11, hf11⟩ := r11.exists_real
  refine ⟨fun b i j k => f0 (ix4 b i j k), fun b i k => f1 (ix3 b i k),
    fun t c' d => f2 (ix2 (⟨t.val * 48 + c'.val, by have := t.isLt; have := c'.isLt; omega⟩ : Fin 384) d),
    fun t c' d => f3 (ix2 (⟨t.val * 8 + c'.val, by have := t.isLt; have := c'.isLt; omega⟩ : Fin 24) d),
    fun d => f4 (ix1 d), fun d => f5 (ix1 d),
    fun t c' d => f6 (ix2 (⟨t.val * 64 + c'.val, by have := t.isLt; have := c'.isLt; omega⟩ : Fin 512) d),
    fun d => f7 (ix1 d), fun d => f8 (ix1 d),
    fun t c' d => f9 (ix2 (⟨t.val * 64 + c'.val, by have := t.isLt; have := c'.isLt; omega⟩ : Fin 256) d),
    fun d => f10 (ix1 d), fun d => f11 (ix1 d), ?_, ?_, ?_, ?_, ?_, ?_, ?_, ?_, ?_, ?_, ?_, ?_⟩
  · exact fun b i j k => congrFun hf0 _
  · exact fun b i k => congrFun hf1 _
  · exact fun t c' d hlt => congrFun hf2 _
  · exact fun t c' d hlt => congrFun hf3 _
  · exact fun d => congrFun hf4 _
  · exact fun d => congrFun hf5 _
  · exact fun t c' d hlt => congrFun hf6 _
  · exact fun d => congrFun hf7 _
  · exact fun d => congrFun hf8 _
  · exact fun t c' d hlt => congrFun hf9 _
  · exact fun d => congrFun hf10 _
  · exact fun d => congrFun hf11 _

end Cert.KernelIdeal.Val

end
-- ==== Proof.Spec.lean ====
/-
  The network both programs compute, written once over the real numbers, index by index.

  A batch element carries an order-2 tensor `x i j c` (32 × 32 positions, 16 channels) and node features `xn i c`
  (8 channels).  The order-2 tensor is first spread to order 3 with 48 channels: channel block 0 reads positions (i, j),
  block 1 reads (i, k), block 2 reads (j, k).  An order-3 layer mixes, per output channel `d`, eight contractions of
  its input over the channel index: the input itself, its means over one position axis (three of them), over two
  axes (three), and over all three; the first layer adds three node terms indexed by `i`, `j`, `k`.  Each of the two
  order-3 layers is followed by a per-channel normalisation over all 16·32·32·32 entries (mean, variance of the centred
  entries, the reciprocal square root of the variance plus `eps`, gain and offset) and a rectifier.  The last layer maps
  to order 1 with four contractions (means over two axes, three of them, and over all three).

  Means over several axes are written as ONE sum divided by the number of entries (the reference's arrangement);
  that a mean of means is the same number is `mean_mean`.  The weight matrices enter as `W t c d`, row `t·C + c`.
-/
import Mathlib.Analysis.SpecialFunctions.Pow.Real
import Mathlib.Algebra.BigOperators.Field
import Mathlib.Tactic

noncomputable section

namespace Cert.Spec

open BigOperators

/-- An order-3 activation of one batch element with `C` channels. -/
abbrev Act3 (C : ℕ) : Type := Fin 32 → Fin 32 → Fin 32 → Fin C → ℝ

/-- The order-2 tensor spread to order 3: channels 0–15 read `x i j`, 16–31 read `x i k`, 32–47 read `x j k`. -/
def expand (x : Fin 32 → Fin 32 → Fin 16 → ℝ) : Act3 48 := fun i j k c =>
  if h : c.val < 16 then x i j ⟨c.val, h⟩
  else if h2 : c.val < 32 then x i k ⟨c.val - 16, by omega⟩
  else x j k ⟨c.val - 32, by omega⟩

/-- The eight contractions of an order-3 layer, added in the order both programs add them. -/
def conv3 {C : ℕ} (h : Act3 C) (W : Fin 8 → Fin C → Fin 64 → ℝ) (i j k : Fin 32) (d : Fin 64) : ℝ :=
  (∑ c, h i j k c * W 0 c d)
  + (∑ c, ((∑ a, h a j k c) / 32) * W 1 c d)
  + (∑ c, ((∑ a, h i a k c) / 32) * W 2 c d)
  + (∑ c, ((∑ a, h i j a c) / 32) * W 3 c d)
  + (∑ c, ((∑ a, ∑ a', h i a a' c) / 1024) * W 4 c d)
  + (∑ c, ((∑ a, ∑ a', h a j a' c) / 1024) * W 5 c d)
  + (∑ c, ((∑ a, ∑ a', h a a' k c) / 1024) * W 6 c d)
  + (∑ c, ((∑ a, ∑ a', ∑ a'', h a a' a'' c) / 32768) * W 7 c d)

/-- The three node terms of the first layer. -/
def node (xn : Fin 32 → Fin 8 → ℝ) (Wn : Fin 3 → Fin 8 → Fin 64 → ℝ) (i j k : Fin 32) (d : Fin 64) : ℝ :=
  (∑ c, xn i c * Wn 0 c d) + (∑ c, xn j c * Wn 1 c d) + (∑ c, xn k c * Wn 2 c d)

/-- A whole batch of order-3 activations with 64 channels. -/
abbrev Batch3 : Type := Fin 16 → Fin 32 → Fin 32 → Fin 32 → Fin 64 → ℝ

/-- The first layer before normalisation. -/
def layer1 (x : Fin 16 → Fin 32 → Fin 32 → Fin 16 → ℝ) (xn : Fin 16 → Fin 32 → Fin 8 → ℝ)
    (W : Fin 8 → Fin 48 → Fin 64 → ℝ) (Wn : Fin 3 → Fin 8 → Fin 64 → ℝ) : Batch3 := fun b i j k d =>
  conv3 (expand (x b)) W i j k d + node (xn b) Wn i j k d

/-- The per-channel mean over the 16·32·32·32 = 524288 entries. -/
def mean4 (y : Batch3) (d : Fin 64) : ℝ := (∑ b, ∑ i, ∑ j, ∑ k, y b i j k d) / 524288

/-- The per-channel variance: the mean of the squared centred entries. -/
def var4 (y : Batch3) (d : Fin 64) : ℝ := (∑ b, ∑ i, ∑ j, ∑ k, (y b i j k d - mean4 y d) ^ 2) / 524288

/-- Normalisation, gain, offset and rectifier, in the reference's arrangement. -/
def bnrelu (y : Batch3) (g β : Fin 64 → ℝ) (eps : ℝ) : Batch3 := fun b i j k d =>
  max ((y b i j k d - mean4 y d) * (1 / Real.sqrt (var4 y d + eps)) * g d + β d) 0

/-- The second layer before normalisation. -/
def layer2 (a : Batch3) (W : Fin 8 → Fin 64 → Fin 64 → ℝ) : Batch3 := fun b i j k d => conv3 (a b) W i j k d

/-- The order-3 → order-1 layer: four contractions of means. -/
def conv3to1 (h : Act3 64) (W : Fin 4 → Fin 64 → Fin 64 → ℝ) (i : Fin 32) (d : Fin 64) : ℝ :=
  (∑ c, ((∑ a, ∑ a', h i a a' c) / 1024) * W 0 c d)
  + (∑ c, ((∑ a, ∑ a', h a i a' c) / 1024) * W 1 c d)
  + (∑ c, ((∑ a, ∑ a', h a a' i c) / 1024) * W 2 c d)
  + (∑ c, ((∑ a, ∑ a', ∑ a'', h a a' a'' c) / 32768) * W 3 c d)

/-- The whole network up to (not including) the final order-1 normalisation, which both programs spell alike. -/
def preOut (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ) (eps : ℝ) :
    Fin 16 → Fin 32 → Fin 64 → ℝ := fun b i d =>
  conv3to1 (bnrelu (layer2 (bnrelu (layer1 x xn W1 Wn1) g1 b1 eps) W2) g2 b2 eps b) Wc i d

/-- A mean of means over two axes of 32 is the mean over the 1024 pairs. -/
theorem mean_mean (f : Fin 32 → Fin 32 → ℝ) : (∑ a, (∑ a', f a a') / 32) / 32 = (∑ a, ∑ a', f a a') / 1024 := by
  rw [← Finset.sum_div, div_div]; norm_num

/-- A mean of means of means over three axes of 32 is the mean over the 32768 triples. -/
theorem mean_mean_mean (f : Fin 32 → Fin 32 → Fin 32 → ℝ) :
    (∑ a, (∑ a', (∑ a'', f a a' a'') / 32) / 32) / 32 = (∑ a, ∑ a', ∑ a'', f a a' a'') / 32768 := by
  simp_rw [← Finset.sum_div]; rw [div_div, div_div]; norm_num

end Cert.Spec

end
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«145029_j5059471475016_2_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.SpecBn.lean ====
/-
  The normalisation of an order-3 layer, in the arrangement that computes it from two running sums.

  For a channel d let S be the sum of the 16·32·32·32 = 524288 entries of the layer's output and SS the sum of their
  squares.  The mean is S / 524288.  The variance, the mean of the squared centred entries, equals the mean of the
  squares less the squared mean: expanding (y − μ)² gives y² − 2μy + μ², and Σ y = 524288·μ.  Being a mean of
  squares it is not negative, so clipping the moment form below at zero changes nothing.  With the reciprocal
  square root r of the variance plus eps, the normalised, scaled, shifted entry (y − μ)·r·g + β is the affine map
  y·(r·g) + (β − μ·(r·g)) of y: the form in which the scale and the shift are computed once per channel.

  Also here: the real number that the binary32 word 0x3727C5AC denotes (the eps both programs use), 10995116 · 2⁻⁴⁰.
-/
import proofs.«145029_j5059471475016_2_alg».proof.Proof.Spec
import proofs.«145029_j5059471475016_2_alg».proof.Proof.LibVariance
import proofs.«145029_j5059471475016_2_alg».proof.Proof.LibIdealReal

noncomputable section

namespace Cert.Spec

open BigOperators Idealize.ShloMosaic

/-- The sum of all entries of channel d. -/
def sum4 (y : Batch3) (d : Fin 64) : ℝ := ∑ b, ∑ i, ∑ j, ∑ k, y b i j k d

/-- The sum of the squares of all entries of channel d. -/
def sumsq4 (y : Batch3) (d : Fin 64) : ℝ := ∑ b, ∑ i, ∑ j, ∑ k, y b i j k d * y b i j k d

/-- The mean from the running sum. -/
def muK (S : Fin 64 → ℝ) (d : Fin 64) : ℝ := S d / 524288

/-- The variance from the two running sums: mean of squares less squared mean, clipped below at zero. -/
def varK (S SS : Fin 64 → ℝ) (d : Fin 64) : ℝ := max (SS d / 524288 - muK S d * muK S d) 0

/-- The normalised entry as an affine map of the entry, scale and shift computed once per channel, then the rectifier. -/
def bnreluK (y : Batch3) (g β mu var : Fin 64 → ℝ) (eps : ℝ) : Batch3 := fun b i j k d =>
  max (y b i j k d * (1 / Real.sqrt (var d + eps) * g d) + (β d - mu d * (1 / Real.sqrt (var d + eps) * g d))) 0

/-- The mean from the running sum is the mean. -/
theorem muK_sum4 (y : Batch3) (d : Fin 64) : muK (sum4 y) d = mean4 y d := rfl

/-- The four nested sums over a batch are one sum over the quadruples. -/
theorem sum_quad (f : Fin 16 → Fin 32 → Fin 32 → Fin 32 → ℝ) :
    ∑ b, ∑ i, ∑ j, ∑ k, f b i j k = ∑ p : Fin 16 × Fin 32 × Fin 32 × Fin 32, f p.1 p.2.1 p.2.2.1 p.2.2.2 := by
  simp only [Fintype.sum_prod_type]

/-- The variance is not negative. -/
theorem var4_nonneg (y : Batch3) (d : Fin 64) : 0 ≤ var4 y d := by
  unfold var4
  refine div_nonneg ?_ (by norm_num)
  exact Finset.sum_nonneg fun b _ => Finset.sum_nonneg fun i _ => Finset.sum_nonneg fun j _ =>
    Finset.sum_nonneg fun k _ => sq_nonneg _

/-- The mean of the squares less the squared mean is the variance. -/
theorem moments_eq_var4 (y : Batch3) (d : Fin 64) :
    sumsq4 y d / 524288 - mean4 y d * mean4 y d = var4 y d := by
  have h := Cert.Alg.real_variance (ι := Fin 16 × Fin 32 × Fin 32 × Fin 32)
    (fun p => y p.1 p.2.1 p.2.2.1 p.2.2.2 d) 524288
    (by simp only [Fintype.card_prod, Fintype.card_fin]; norm_num) (by norm_num)
  unfold var4 mean4 sumsq4
  rw [sum_quad, sum_quad, sum_quad]
  rw [← h]
  congr 1
  refine Finset.sum_congr rfl fun p _ => ?_
  rw [sq]

/-- The variance from the two running sums is the variance. -/
theorem varK_sums (y : Batch3) (d : Fin 64) : varK (sum4 y) (sumsq4 y) d = var4 y d := by
  unfold varK
  rw [muK_sum4, moments_eq_var4, max_eq_left (var4_nonneg y d)]

/-- The affine form with the statistics from the running sums is the normalisation of the specification. -/
theorem bnreluK_sums (y : Batch3) (g β : Fin 64 → ℝ) (eps : ℝ) :
    bnreluK y g β (muK (sum4 y)) (varK (sum4 y) (sumsq4 y)) eps = bnrelu y g β eps := by
  funext b i j k d
  unfold bnreluK bnrelu
  rw [varK_sums, muK_sum4]
  congr 1
  ring

/-- The eps of both programs: the binary32 word 0x3727C5AC has exponent field 110 and fraction 2606508, so it denotes
    (2²³ + 2606508) · 2^(110 − 127 − 23) = 10995116 · 2⁻⁴⁰. -/
def epsR : ℝ := 10995116 / 2 ^ 40

theorem epsR_pos : 0 < epsR := by unfold epsR; positivity

theorem eps_word : Ideal.ofBits .f32 0x3727C5AC#32 = ((epsR : ℝ) : EReal) := by
  unfold epsR
  simp [Ideal.ofBits, Ideal.ieee, -EReal.coe_mul]; norm_num

end Cert.Spec

end
-- ==== Proof.KIValHost.lean ====
/-
  What the host computes between the regions, on real data.

  Between a contraction region and the normalisation region that follows it the host turns the two rows of running
  sums into the statistics: mean = sum / 524288, variance = max(sumsq / 524288 − mean · mean, 0), and reshapes the
  gain and the offset from [64] to [1, 64]; it also copies the contraction's output into the array the normalisation
  overwrites.  When the two sum rows hold reals S d and SS d, the mean row holds the real S d / 524288 and the variance
  row the real max(SS d / 524288 − (S d / 524288)², 0): 524288 = 2¹⁹ is the binary32 word 0x49000000 and is not zero,
  so each quotient is the real quotient, and sums, products and maxima of reals are real.
-/
import proofs.«145029_j5059471475016_2_alg».proof.Proof.Gen.KernelIdeal.Launch
import proofs.«145029_j5059471475016_2_alg».proof.Proof.SpecBn
import Idealize.ShloMosaic.Lib.StableHlo.Run
import Idealize.ShloMosaic.Lib.ValueIdx
import Idealize.ShloMosaic.Lib.ValueLayout

noncomputable section

namespace Cert.KernelIdeal.Val

open Idealize.ShloMosaic Idealize.ShloMosaic.ValueIdx Idealize.ShloMosaic.StableHlo Cert.KernelIdeal.Gen Cert.Spec

/-- The binary32 word 0x49000000 has exponent field 146 and fraction 0: it denotes 2²³ · 2^(146 − 127 − 23) = 2¹⁹ = 524288,
    the number of entries of a channel. -/
theorem count_word : Ideal.ofBits .f32 0x49000000#32 = ((524288 : ℝ) : EReal) := by
  simp [Ideal.ofBits, Ideal.ieee, -EReal.coe_mul]; norm_num

/-- The mean row from a real sum row, at one channel. -/
theorem mean_entry (s : EReal) (S : ℝ) (hs : s = ((S : ℝ) : EReal)) :
    Ideal.div s (Ideal.ofBits .f32 0x49000000#32) = ((S / 524288 : ℝ) : EReal) := by
  rw [hs, count_word, Cert.IdealReal.div_coe_coe _ (by norm_num)]

/-- The variance row from real sum rows, at one channel. -/
theorem var_entry (s ss : EReal) (S SS : ℝ) (hs : s = ((S : ℝ) : EReal)) (hss : ss = ((SS : ℝ) : EReal)) :
    max (Ideal.div ss (Ideal.ofBits .f32 0x49000000#32)
          - Ideal.div s (Ideal.ofBits .f32 0x49000000#32) * Ideal.div s (Ideal.ofBits .f32 0x49000000#32))
        (Ideal.ofBits .f32 0x00000000#32)
      = ((max (SS / 524288 - S / 524288 * (S / 524288)) 0 : ℝ) : EReal) := by
  rw [mean_entry s S hs, mean_entry ss SS hss, Ideal.ofBits_zero_f32, ← EReal.coe_zero]
  simp only [Cert.IdealReal.coe_mul', Cert.IdealReal.coe_sub', Cert.IdealReal.coe_max']

section Stretch1

variable (W : Valuation τ sig (Elt Ideal))

/-- After the first stretch the mean row of region 1 is the sum row over 524288. -/
theorem host1_mu (S : Fin 64 → ℝ)
    (hS : ∀ d, (W (Proc.devRef .tc main_v0_1) : FVec Ideal S1x64 .f32) (ix2 (0 : Fin 1) d) = ((S d : ℝ) : EReal)) (d : Fin 64) :
    (StableHlo.after (hostOps1 (F := Ideal)) W (Proc.devRef .tc main_v2) : FVec Ideal S1x64 .f32) (ix2 (0 : Fin 1) d)
      = ((muK S d : ℝ) : EReal) := by
  have e : (StableHlo.after (hostOps1 (F := Ideal)) W (Proc.devRef .tc main_v2) : FVec Ideal S1x64 .f32)
      = Host.divf (W (Proc.devRef .tc main_v0_1) : FVec Ideal S1x64 .f32)
          (broadcastInDim S1x64 ![] bcast_S_S1x64 (constant (F := Ideal) S_ .f32 0x49000000#32)) := by
    after_results
  rw [e]
  exact mean_entry _ _ (hS d)

/-- After the first stretch the variance row of region 1 is the clipped moment form of the two sum rows. -/
theorem host1_var (S SS : Fin 64 → ℝ)
    (hS : ∀ d, (W (Proc.devRef .tc main_v0_1) : FVec Ideal S1x64 .f32) (ix2 (0 : Fin 1) d) = ((S d : ℝ) : EReal))
    (hSS : ∀ d, (W (Proc.devRef .tc main_v0_2) : FVec Ideal S1x64 .f32) (ix2 (0 : Fin 1) d) = ((SS d : ℝ) : EReal)) (d : Fin 64) :
    (StableHlo.after (hostOps1 (F := Ideal)) W (Proc.devRef .tc main_v8) : FVec Ideal S1x64 .f32) (ix2 (0 : Fin 1) d)
      = ((varK S SS d : ℝ) : EReal) := by
  have e : (StableHlo.after (hostOps1 (F := Ideal)) W (Proc.devRef .tc main_v8) : FVec Ideal S1x64 .f32)
      = maximumf
          (subf
            (Host.divf (W (Proc.devRef .tc main_v0_2) : FVec Ideal S1x64 .f32)
              (broadcastInDim S1x64 ![] bcast_S_S1x64 (constant (F := Ideal) S_ .f32 0x49000000#32)))
            (mulf
              (Host.divf (W (Proc.devRef .tc main_v0_1) : FVec Ideal S1x64 .f32)
                (broadcastInDim S1x64 ![] bcast_S_S1x64 (constant (F := Ideal) S_ .f32 0x49000000#32)))
              (Host.divf (W (Proc.devRef .tc main_v0_1) : FVec Ideal S1x64 .f32)
                (broadcastInDim S1x64 ![] bcast_S_S1x64 (constant (F := Ideal) S_ .f32 0x49000000#32)))))
          (broadcastInDim S1x64 ![] bcast_S_S1x64 (constant (F := Ideal) S_ .f32 0x00000000#32)) := by
    after_results
  rw [e]
  exact var_entry _ _ _ _ (hS d) (hSS d)

/-- After the first stretch the gain row of region 1 is the gain vector. -/
theorem host1_g (g : Fin 64 → ℝ)
    (hg : ∀ d, (W (Proc.devRef .tc main_arg4) : FVec Ideal S64 .f32) (ix1 d) = ((g d : ℝ) : EReal)) (d : Fin 64) :
    (StableHlo.after (hostOps1 (F := Ideal)) W (Proc.devRef .tc main_v9) : FVec Ideal S1x64 .f32) (ix2 (0 : Fin 1) d)
      = ((g d : ℝ) : EReal) := by
  have e : (StableHlo.after (hostOps1 (F := Ideal)) W (Proc.devRef .tc main_v9) : FVec Ideal S1x64 .f32)
      = shapeCast S1x64 (W (Proc.devRef .tc main_arg4) : FVec Ideal S64 .f32) shapeCasts_S64_S1x64 := by
    after_results; rfl
  rw [e, shapeCast_a_1a_apply, hg]

/-- After the first stretch the offset row of region 1 is the offset vector. -/
theorem host1_b (β : Fin 64 → ℝ)
    (hb : ∀ d, (W (Proc.devRef .tc main_arg5) : FVec Ideal S64 .f32) (ix1 d) = ((β d : ℝ) : EReal)) (d : Fin 64) :
    (StableHlo.after (hostOps1 (F := Ideal)) W (Proc.devRef .tc main_v10) : FVec Ideal S1x64 .f32) (ix2 (0 : Fin 1) d)
      = ((β d : ℝ) : EReal) := by
  have e : (StableHlo.after (hostOps1 (F := Ideal)) W (Proc.devRef .tc main_v10) : FVec Ideal S1x64 .f32)
      = shapeCast S1x64 (W (Proc.devRef .tc main_arg5) : FVec Ideal S64 .f32) shapeCasts_S64_S1x64 := by
    after_results; rfl
  rw [e, shapeCast_a_1a_apply, hb]

/-- After the first stretch the array region 1 overwrites is a copy of the first contraction's output. -/
theorem host1_x :
    StableHlo.after (hostOps1 (F := Ideal)) W (Proc.devRef .tc main_v11) = W (Proc.devRef .tc main_v0_0) := by
  after_results; rfl

/-- The first contraction's output is not touched by the first stretch. -/
theorem host1_x0 :
    StableHlo.after (hostOps1 (F := Ideal)) W (Proc.devRef .tc main_v0_0) = W (Proc.devRef .tc main_v0_0) := by
  after_results

end Stretch1

section Stretch3

variable (W : Valuation τ sig (Elt Ideal))

/-- After the second stretch the mean row of region 3 is the sum row over 524288. -/
theorem host3_mu (S : Fin 64 → ℝ)
    (hS : ∀ d, (W (Proc.devRef .tc main_v12_1) : FVec Ideal S1x64 .f32) (ix2 (0 : Fin 1) d) = ((S d : ℝ) : EReal)) (d : Fin 64) :
    (StableHlo.after (hostOps3 (F := Ideal)) W (Proc.devRef .tc main_v14) : FVec Ideal S1x64 .f32) (ix2 (0 : Fin 1) d)
      = ((muK S d : ℝ) : EReal) := by
  have e : (StableHlo.after (hostOps3 (F := Ideal)) W (Proc.devRef .tc main_v14) : FVec Ideal S1x64 .f32)
      = Host.divf (W (Proc.devRef .tc main_v12_1) : FVec Ideal S1x64 .f32)
          (broadcastInDim S1x64 ![] bcast_S_S1x64 (constant (F := Ideal) S_ .f32 0x49000000#32)) := by
    after_results
  rw [e]
  exact mean_entry _ _ (hS d)

/-- After the second stretch the variance row of region 3 is the clipped moment form of the two sum rows. -/
theorem host3_var (S SS : Fin 64 → ℝ)
    (hS : ∀ d, (W (Proc.devRef .tc main_v12_1) : FVec Ideal S1x64 .f32) (ix2 (0 : Fin 1) d) = ((S d : ℝ) : EReal))
    (hSS : ∀ d, (W (Proc.devRef .tc main_v12_2) : FVec Ideal S1x64 .f32) (ix2 (0 : Fin 1) d) = ((SS d : ℝ) : EReal)) (d : Fin 64) :
    (StableHlo.after (hostOps3 (F := Ideal)) W (Proc.devRef .tc main_v20) : FVec Ideal S1x64 .f32) (ix2 (0 : Fin 1) d)
      = ((varK S SS d : ℝ) : EReal) := by
  have e : (StableHlo.after (hostOps3 (F := Ideal)) W (Proc.devRef .tc main_v20) : FVec Ideal S1x64 .f32)
      = maximumf
          (subf
            (Host.divf (W (Proc.devRef .tc main_v12_2) : FVec Ideal S1x64 .f32)
              (broadcastInDim S1x64 ![] bcast_S_S1x64 (constant (F := Ideal) S_ .f32 0x49000000#32)))
            (mulf
              (Host.divf (W (Proc.devRef .tc main_v12_1) : FVec Ideal S1x64 .f32)
                (broadcastInDim S1x64 ![] bcast_S_S1x64 (constant (F := Ideal) S_ .f32 0x49000000#32)))
              (Host.divf (W (Proc.devRef .tc main_v12_1) : FVec Ideal S1x64 .f32)
                (broadcastInDim S1x64 ![] bcast_S_S1x64 (constant (F := Ideal) S_ .f32 0x49000000#32)))))
          (broadcastInDim S1x64 ![] bcast_S_S1x64 (constant (F := Ideal) S_ .f32 0x00000000#32)) := by
    after_results
  rw [e]
  exact var_entry _ _ _ _ (hS d) (hSS d)

/-- After the second stretch the gain row of region 3 is the gain vector. -/
theorem host3_g (g : Fin 64 → ℝ)
    (hg : ∀ d, (W (Proc.devRef .tc main_arg7) : FVec Ideal S64 .f32) (ix1 d) = ((g d : ℝ) : EReal)) (d : Fin 64) :
    (StableHlo.after (hostOps3 (F := Ideal)) W (Proc.devRef .tc main_v21) : FVec Ideal S1x64 .f32) (ix2 (0 : Fin 1) d)
      = ((g d : ℝ) : EReal) := by
  have e : (StableHlo.after (hostOps3 (F := Ideal)) W (Proc.devRef .tc main_v21) : FVec Ideal S1x64 .f32)
      = shapeCast S1x64 (W (Proc.devRef .tc main_arg7) : FVec Ideal S64 .f32) shapeCasts_S64_S1x64 := by
    after_results; rfl
  rw [e, shapeCast_a_1a_apply, hg]

/-- After the second stretch the offset row of region 3 is the offset vector. -/
theorem host3_b (β : Fin 64 → ℝ)
    (hb : ∀ d, (W (Proc.devRef .tc main_arg8) : FVec Ideal S64 .f32) (ix1 d) = ((β d : ℝ) : EReal)) (d : Fin 64) :
    (StableHlo.after (hostOps3 (F := Ideal)) W (Proc.devRef .tc main_v22) : FVec Ideal S1x64 .f32) (ix2 (0 : Fin 1) d)
      = ((β d : ℝ) : EReal) := by
  have e : (StableHlo.after (hostOps3 (F := Ideal)) W (Proc.devRef .tc main_v22) : FVec Ideal S1x64 .f32)
      = shapeCast S1x64 (W (Proc.devRef .tc main_arg8) : FVec Ideal S64 .f32) shapeCasts_S64_S1x64 := by
    after_results; rfl
  rw [e, shapeCast_a_1a_apply, hb]

/-- After the second stretch the array region 3 overwrites is a copy of the second contraction's output. -/
theorem host3_x :
    StableHlo.after (hostOps3 (F := Ideal)) W (Proc.devRef .tc main_v23) = W (Proc.devRef .tc main_v12_0) := by
  after_results; rfl

/-- The second contraction's output is not touched by the second stretch. -/
theorem host3_x0 :
    StableHlo.after (hostOps3 (F := Ideal)) W (Proc.devRef .tc main_v12_0) = W (Proc.devRef .tc main_v12_0) := by
  after_results

end Stretch3

/-- The clipped moment form is not negative. -/
theorem varK_nonneg (S SS : Fin 64 → ℝ) (d : Fin 64) : 0 ≤ varK S SS d := le_max_right _ _

end Cert.KernelIdeal.Val

end
-- ==== Proof.KIValChain.lean ====
/-
  The kernel program's values, item by item, on real inputs.

  The program is five kernel regions with host stretches between them.  On real inputs each item leaves reals:
  region 0 leaves the first layer y₁ before normalisation and its two rows of channel sums Σ y₁ and Σ y₁²; the host turns
  the sums into the mean and the clipped variance; region 1 leaves the normalised, rectified activation, which by the
  variance identity is the specification's; region 2 leaves the second layer y₂ and its sums; the host and region 3
  normalise it; region 4 contracts the result to order 1.  Composing the five region values with the host's gives the
  specification's network up to the last normalisation.  The region values enter as hypotheses, each stated at an
  arbitrary entry valuation.
-/
import proofs.«145029_j5059471475016_2_alg».proof.Proof.KIRun
import proofs.«145029_j5059471475016_2_alg».proof.Proof.KIValHost
import proofs.«145029_j5059471475016_2_alg».proof.Proof.KIValPre
import proofs.«145029_j5059471475016_2_alg».proof.Proof.SpecBn

set_option maxRecDepth 16384

noncomputable section

namespace Cert.KernelIdeal.Val

open Idealize.ShloMosaic Idealize.ShloMosaic.TcCoe Idealize.ShloMosaic.ValueIdx Idealize.SL.Sem
open Cert.KernelIdeal.Gen Cert.KernelIdeal.Hand Cert.Spec

local notation "ℍ" => (halves (F := Ideal))

/-! ## The five regions' values, as statements -/

/-- Region 0's value: the first layer before normalisation and its channel sums. -/
def Stage0 : Prop :=
  ∀ (V : Ent Ideal) (c : Dev nD) (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ)
    (hx : ∀ b i j k, (V c (Pipeline.arrRef spec0 0)) (ix4 b i j k) = ((x b i j k : ℝ) : EReal))
    (hxn : ∀ b i k, (V c (Pipeline.arrRef spec0 1)) (ix3 b i k) = ((xn b i k : ℝ) : EReal))
    (hW1 : ∀ (t : Fin 8) (c' : Fin 48) (d : Fin 64),
      (V c (Pipeline.arrRef spec0 2)) (ix2 (⟨t.val * 48 + c'.val, by have := t.isLt; have := c'.isLt; omega⟩ : Fin 384) d) = ((W1 t c' d : ℝ) : EReal))
    (hWn1 : ∀ (t : Fin 3) (c' : Fin 8) (d : Fin 64),
      (V c (Pipeline.arrRef spec0 3)) (ix2 (⟨t.val * 8 + c'.val, by have := t.isLt; have := c'.isLt; omega⟩ : Fin 24) d) = ((Wn1 t c' d : ℝ) : EReal)),
    (∀ b i j k d, ((dat0 V c).arrAt 4 cfg0.N) (ix5 b i j k d) = ((layer1 x xn W1 Wn1 b i j k d : ℝ) : EReal))
    ∧ (∀ d, ((dat0 V c).arrAt 5 cfg0.N) (ix2 (0 : Fin 1) d) = ((sum4 (layer1 x xn W1 Wn1) d : ℝ) : EReal))
    ∧ (∀ d, ((dat0 V c).arrAt 6 cfg0.N) (ix2 (0 : Fin 1) d) = ((sumsq4 (layer1 x xn W1 Wn1) d : ℝ) : EReal))

/-- Region 1's value: the normalised, rectified activation in the affine arrangement. -/
def Stage1 : Prop :=
  ∀ (V : Ent Ideal) (c : Dev nD) (Y : Batch3) (g β mu var : Fin 64 → ℝ) (hvar : ∀ d, 0 ≤ var d)
    (hY : ∀ b i j k d, (V c (Pipeline.arrRef spec1 0)) (ix5 b i j k d) = ((Y b i j k d : ℝ) : EReal))
    (hg : ∀ d, (V c (Pipeline.arrRef spec1 1)) (ix2 (0 : Fin 1) d) = ((g d : ℝ) : EReal))
    (hβ : ∀ d, (V c (Pipeline.arrRef spec1 2)) (ix2 (0 : Fin 1) d) = ((β d : ℝ) : EReal))
    (hmu : ∀ d, (V c (Pipeline.arrRef spec1 3)) (ix2 (0 : Fin 1) d) = ((mu d : ℝ) : EReal))
    (hv : ∀ d, (V c (Pipeline.arrRef spec1 4)) (ix2 (0 : Fin 1) d) = ((var d : ℝ) : EReal)),
    ∀ (b : Fin 16) (i j k : Fin 32) (d : Fin 64),
      ((dat1 V c).arrAt 5 cfg1.N) (ix5 b i j k d) = ((bnreluK Y g β mu var epsR b i j k d : ℝ) : EReal)

/-- Region 2's value: the second layer before normalisation and its channel sums. -/
def Stage2 : Prop :=
  ∀ (V : Ent Ideal) (c : Dev nD) (A : Batch3) (W : Fin 8 → Fin 64 → Fin 64 → ℝ)
    (hA : ∀ b i j k d, (V c (Pipeline.arrRef spec2 0)) (ix5 b i j k d) = ((A b i j k d : ℝ) : EReal))
    (hW : ∀ (t : Fin 8) (c' d : Fin 64),
      (V c (Pipeline.arrRef spec2 1)) (ix2 (⟨t.val * 64 + c'.val, by have := t.isLt; have := c'.isLt; omega⟩ : Fin 512) d) = ((W t c' d : ℝ) : EReal)),
    (∀ b i j k d, ((dat2 V c).arrAt 2 cfg2.N) (ix5 b i j k d) = ((layer2 A W b i j k d : ℝ) : EReal))
    ∧ (∀ d, ((dat2 V c).arrAt 3 cfg2.N) (ix2 (0 : Fin 1) d) = ((sum4 (layer2 A W) d : ℝ) : EReal))
    ∧ (∀ d, ((dat2 V c).arrAt 4 cfg2.N) (ix2 (0 : Fin 1) d) = ((sumsq4 (layer2 A W) d : ℝ) : EReal))

/-- Region 3's value: the normalised, rectified activation in the affine arrangement. -/
def Stage3 : Prop :=
  ∀ (V : Ent Ideal) (c : Dev nD) (Y : Batch3) (g β mu var : Fin 64 → ℝ) (hvar : ∀ d, 0 ≤ var d)
    (hY : ∀ b i j k d, (V c (Pipeline.arrRef spec3 0)) (ix5 b i j k d) = ((Y b i j k d : ℝ) : EReal))
    (hg : ∀ d, (V c (Pipeline.arrRef spec3 1)) (ix2 (0 : Fin 1) d) = ((g d : ℝ) : EReal))
    (hβ : ∀ d, (V c (Pipeline.arrRef spec3 2)) (ix2 (0 : Fin 1) d) = ((β d : ℝ) : EReal))
    (hmu : ∀ d, (V c (Pipeline.arrRef spec3 3)) (ix2 (0 : Fin 1) d) = ((mu d : ℝ) : EReal))
    (hv : ∀ d, (V c (Pipeline.arrRef spec3 4)) (ix2 (0 : Fin 1) d) = ((var d : ℝ) : EReal)),
    ∀ (b : Fin 16) (i j k : Fin 32) (d : Fin 64),
      ((dat3 V c).arrAt 5 cfg3.N) (ix5 b i j k d) = ((bnreluK Y g β mu var epsR b i j k d : ℝ) : EReal)

/-- Region 4's value: the contraction to order 1. -/
def Stage4 : Prop :=
  ∀ (V : Ent Ideal) (c : Dev nD) (A : Batch3) (W : Fin 4 → Fin 64 → Fin 64 → ℝ)
    (hA : ∀ b i j k c', (V c (Pipeline.arrRef spec4 0)) (ix5 b i j k c') = ((A b i j k c' : ℝ) : EReal))
    (hW : ∀ (t : Fin 4) (c' d : Fin 64),
      (V c (Pipeline.arrRef spec4 1)) (ix2 (⟨t.val * 64 + c'.val, by have := t.isLt; have := c'.isLt; omega⟩ : Fin 256) d) = ((W t c' d : ℝ) : EReal)),
    ∀ (b : Fin 16) (i : Fin 32) (d : Fin 64),
      ((dat4 V c).arrAt 2 cfg4.N) (ix3 b i d) = ((conv3to1 (A b) W i d : ℝ) : EReal)

/-! ## The real inputs -/

/-- The argument arrays the layers read are the inclusions of real tensors. -/
structure RealArgs (m : (ℓ : Loc nD τ sig) → Buf (Elt Ideal) ℓ) (c : Dev nD)
    (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ) : Prop where
  hx : ∀ b i j k, (m ((c : Thread nD τ).loc main_arg0)) (ix4 b i j k) = ((x b i j k : ℝ) : EReal)
  hxn : ∀ b i k, (m ((c : Thread nD τ).loc main_arg1)) (ix3 b i k) = ((xn b i k : ℝ) : EReal)
  hW1 : ∀ (t : Fin 8) (c' : Fin 48) (d : Fin 64) (hlt : t.val * 48 + c'.val < 384),
    (m ((c : Thread nD τ).loc main_arg2)) (ix2 ⟨t.val * 48 + c'.val, hlt⟩ d) = ((W1 t c' d : ℝ) : EReal)
  hWn1 : ∀ (t : Fin 3) (c' : Fin 8) (d : Fin 64) (hlt : t.val * 8 + c'.val < 24),
    (m ((c : Thread nD τ).loc main_arg3)) (ix2 ⟨t.val * 8 + c'.val, hlt⟩ d) = ((Wn1 t c' d : ℝ) : EReal)
  hg1 : ∀ d, (m ((c : Thread nD τ).loc main_arg4)) (ix1 d) = ((g1 d : ℝ) : EReal)
  hb1 : ∀ d, (m ((c : Thread nD τ).loc main_arg5)) (ix1 d) = ((b1 d : ℝ) : EReal)
  hW2 : ∀ (t : Fin 8) (c' : Fin 64) (d : Fin 64) (hlt : t.val * 64 + c'.val < 512),
    (m ((c : Thread nD τ).loc main_arg6)) (ix2 ⟨t.val * 64 + c'.val, hlt⟩ d) = ((W2 t c' d : ℝ) : EReal)
  hg2 : ∀ d, (m ((c : Thread nD τ).loc main_arg7)) (ix1 d) = ((g2 d : ℝ) : EReal)
  hb2 : ∀ d, (m ((c : Thread nD τ).loc main_arg8)) (ix1 d) = ((b2 d : ℝ) : EReal)
  hWc : ∀ (t : Fin 4) (c' : Fin 64) (d : Fin 64) (hlt : t.val * 64 + c'.val < 256),
    (m ((c : Thread nD τ).loc main_arg9)) (ix2 ⟨t.val * 64 + c'.val, hlt⟩ d) = ((Wc t c' d : ℝ) : EReal)

/-! ## The specification's intermediate activations -/

/-- The first layer, normalised and rectified. -/
abbrev act1 (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ) : Batch3 :=
  bnrelu (layer1 x xn W1 Wn1) g1 b1 epsR

/-- The second layer before normalisation. -/
abbrev pre2 (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) : Batch3 :=
  layer2 (act1 x xn W1 Wn1 g1 b1) W2

/-- The second layer, normalised and rectified. -/
abbrev act2 (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) : Batch3 :=
  bnrelu (pre2 x xn W1 Wn1 g1 b1 W2) g2 b2 epsR

/-! ## The chain -/

section Chain

variable (m : (ℓ : Loc nD τ sig) → Buf (Elt Ideal) ℓ) (c : Dev nD)
variable (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ)

/-- A buffer that region 0 does not write is, after it, as at launch. -/
theorem B1_arg (r : Ref sig .tc)
    (h0 : ∀ w : Fin cfg0.W, (cfg0.win w).isOut = true → Pipeline.arrRef spec0 w ≠ r) :
    B1 ℍ m c (Proc.devRef .tc r) = m ((c : Thread nD τ).loc r) :=
  (B1_keep ℍ m c r h0).trans rfl

/-- A buffer that nothing up to region 1 writes is, after region 1, as at launch. -/
theorem B3_arg (r : Ref sig .tc)
    (h0 : ∀ w : Fin cfg0.W, (cfg0.win w).isOut = true → Pipeline.arrRef spec0 w ≠ r) (h1 : r ∉ hostOps1_W)
    (h2 : ∀ w : Fin cfg1.W, (cfg1.win w).isOut = true → Pipeline.arrRef spec1 w ≠ r) :
    B3 ℍ m c (Proc.devRef .tc r) = m ((c : Thread nD τ).loc r) :=
  (B3_keep ℍ m c r h2).trans <| (B2_keep ℍ m c r h1).trans <| B1_arg m c r h0

/-- A buffer that nothing up to region 2 writes is, after region 2, as at launch. -/
theorem B4_arg (r : Ref sig .tc)
    (h0 : ∀ w : Fin cfg0.W, (cfg0.win w).isOut = true → Pipeline.arrRef spec0 w ≠ r) (h1 : r ∉ hostOps1_W)
    (h2 : ∀ w : Fin cfg1.W, (cfg1.win w).isOut = true → Pipeline.arrRef spec1 w ≠ r)
    (h3 : ∀ w : Fin cfg2.W, (cfg2.win w).isOut = true → Pipeline.arrRef spec2 w ≠ r) :
    B4 ℍ m c (Proc.devRef .tc r) = m ((c : Thread nD τ).loc r) :=
  (B4_keep ℍ m c r h3).trans <| B3_arg m c r h0 h1 h2

/-- A buffer that nothing up to region 3 writes is, after region 3, as at launch. -/
theorem B6_arg (r : Ref sig .tc)
    (h0 : ∀ w : Fin cfg0.W, (cfg0.win w).isOut = true → Pipeline.arrRef spec0 w ≠ r) (h1 : r ∉ hostOps1_W)
    (h2 : ∀ w : Fin cfg1.W, (cfg1.win w).isOut = true → Pipeline.arrRef spec1 w ≠ r)
    (h3 : ∀ w : Fin cfg2.W, (cfg2.win w).isOut = true → Pipeline.arrRef spec2 w ≠ r) (h4 : r ∉ hostOps3_W)
    (h5 : ∀ w : Fin cfg3.W, (cfg3.win w).isOut = true → Pipeline.arrRef spec3 w ≠ r) :
    B6 ℍ m c (Proc.devRef .tc r) = m ((c : Thread nD τ).loc r) :=
  (B6_keep ℍ m c r h5).trans <| (B5_keep ℍ m c r h4).trans <| B4_arg m c r h0 h1 h2 h3

variable (hs0 : Stage0) (hs1 : Stage1) (hs2 : Stage2) (hs3 : Stage3) (hs4 : Stage4)
variable (h : RealArgs m c x xn W1 Wn1 g1 b1 W2 g2 b2 Wc)

include hs0 h in
/-- After region 0: the first layer before normalisation, and its two rows of channel sums. -/
theorem at_B1 :
    (∀ b i j k d, (B1 ℍ m c (Proc.devRef .tc main_v0_0)) (ix5 b i j k d) = ((layer1 x xn W1 Wn1 b i j k d : ℝ) : EReal))
    ∧ (∀ d, (B1 ℍ m c (Proc.devRef .tc main_v0_1)) (ix2 (0 : Fin 1) d) = ((sum4 (layer1 x xn W1 Wn1) d : ℝ) : EReal))
    ∧ (∀ d, (B1 ℍ m c (Proc.devRef .tc main_v0_2)) (ix2 (0 : Fin 1) d) = ((sumsq4 (layer1 x xn W1 Wn1) d : ℝ) : EReal)) := by
  have e4 : B1 ℍ m c (Proc.devRef .tc main_v0_0) = (dat0 (E0 m) c).arrAt 4 cfg0.N := B1_arr ℍ m c 4
  have e5 : B1 ℍ m c (Proc.devRef .tc main_v0_1) = (dat0 (E0 m) c).arrAt 5 cfg0.N := B1_arr ℍ m c 5
  have e6 : B1 ℍ m c (Proc.devRef .tc main_v0_2) = (dat0 (E0 m) c).arrAt 6 cfg0.N := B1_arr ℍ m c 6
  obtain ⟨p4, p5, p6⟩ := hs0 (E0 m) c x xn W1 Wn1 h.hx h.hxn (fun t c' d => h.hW1 t c' d _) (fun t c' d => h.hWn1 t c' d _)
  exact ⟨fun b i j k d => by rw [e4]; exact p4 b i j k d, fun d => by rw [e5]; exact p5 d,
    fun d => by rw [e6]; exact p6 d⟩

include hs0 h in
/-- After the first host stretch: the five arrays region 1 reads. -/
theorem at_B2 :
    (∀ b i j k d, (B2 ℍ m c (Proc.devRef .tc main_v0_0)) (ix5 b i j k d) = ((layer1 x xn W1 Wn1 b i j k d : ℝ) : EReal))
    ∧ (∀ d, (B2 ℍ m c (Proc.devRef .tc main_v9)) (ix2 (0 : Fin 1) d) = ((g1 d : ℝ) : EReal))
    ∧ (∀ d, (B2 ℍ m c (Proc.devRef .tc main_v10)) (ix2 (0 : Fin 1) d) = ((b1 d : ℝ) : EReal))
    ∧ (∀ d, (B2 ℍ m c (Proc.devRef .tc main_v2)) (ix2 (0 : Fin 1) d) = ((muK (sum4 (layer1 x xn W1 Wn1)) d : ℝ) : EReal))
    ∧ (∀ d, (B2 ℍ m c (Proc.devRef .tc main_v8)) (ix2 (0 : Fin 1) d)
        = ((varK (sum4 (layer1 x xn W1 Wn1)) (sumsq4 (layer1 x xn W1 Wn1)) d : ℝ) : EReal)) := by
  obtain ⟨p0, p1, p2⟩ := at_B1 m c x xn W1 Wn1 g1 b1 W2 g2 b2 Wc hs0 h
  refine ⟨fun b i j k d => ?_, fun d => ?_, fun d => ?_, fun d => ?_, fun d => ?_⟩
  · have e : B2 ℍ m c (Proc.devRef .tc main_v0_0) = B1 ℍ m c (Proc.devRef .tc main_v0_0) := host1_x0 (B1 ℍ m c)
    rw [e]; exact p0 b i j k d
  · exact host1_g (B1 ℍ m c) g1 (fun d => by rw [B1_arg m c main_arg4 (by decide)]; exact h.hg1 d) d
  · exact host1_b (B1 ℍ m c) b1 (fun d => by rw [B1_arg m c main_arg5 (by decide)]; exact h.hb1 d) d
  · exact host1_mu (B1 ℍ m c) _ p1 d
  · exact host1_var (B1 ℍ m c) _ _ p1 p2 d

include hs0 hs1 h in
/-- After region 1: the first layer normalised and rectified, as the specification has it. -/
theorem at_B3 : ∀ b i j k d,
    (B3 ℍ m c (Proc.devRef .tc main_v11)) (ix5 b i j k d) = ((act1 x xn W1 Wn1 g1 b1 b i j k d : ℝ) : EReal) := by
  obtain ⟨q0, qg, qb, qmu, qvar⟩ := at_B2 m c x xn W1 Wn1 g1 b1 W2 g2 b2 Wc hs0 h
  have e : B3 ℍ m c (Proc.devRef .tc main_v11) = (dat1 (E2 ℍ m) c).arrAt 5 cfg1.N := B3_arr ℍ m c 5
  intro b i j k d
  rw [e]
  refine (hs1 (E2 ℍ m) c (layer1 x xn W1 Wn1) g1 b1 _ _ (fun d => varK_nonneg _ _ d) q0 qg qb qmu qvar b i j k d).trans ?_
  rw [bnreluK_sums]

include hs0 hs1 hs2 h in
/-- After region 2: the second layer before normalisation, and its two rows of channel sums. -/
theorem at_B4 :
    (∀ b i j k d, (B4 ℍ m c (Proc.devRef .tc main_v12_0)) (ix5 b i j k d) = ((pre2 x xn W1 Wn1 g1 b1 W2 b i j k d : ℝ) : EReal))
    ∧ (∀ d, (B4 ℍ m c (Proc.devRef .tc main_v12_1)) (ix2 (0 : Fin 1) d) = ((sum4 (pre2 x xn W1 Wn1 g1 b1 W2) d : ℝ) : EReal))
    ∧ (∀ d, (B4 ℍ m c (Proc.devRef .tc main_v12_2)) (ix2 (0 : Fin 1) d) = ((sumsq4 (pre2 x xn W1 Wn1 g1 b1 W2) d : ℝ) : EReal)) := by
  have e2 : B4 ℍ m c (Proc.devRef .tc main_v12_0) = (dat2 (E3 ℍ m) c).arrAt 2 cfg2.N := B4_arr ℍ m c 2
  have e3 : B4 ℍ m c (Proc.devRef .tc main_v12_1) = (dat2 (E3 ℍ m) c).arrAt 3 cfg2.N := B4_arr ℍ m c 3
  have e4 : B4 ℍ m c (Proc.devRef .tc main_v12_2) = (dat2 (E3 ℍ m) c).arrAt 4 cfg2.N := B4_arr ℍ m c 4
  obtain ⟨p2, p3, p4⟩ := hs2 (E3 ℍ m) c (act1 x xn W1 Wn1 g1 b1) W2 (at_B3 m c x xn W1 Wn1 g1 b1 W2 g2 b2 Wc hs0 hs1 h)
    (fun t c' d => by
      have e : E3 ℍ m c (Pipeline.arrRef spec2 1) = m ((c : Thread nD τ).loc main_arg6) :=
        B3_arg m c main_arg6 (by decide) (by decide) (by decide)
      rw [e]; exact h.hW2 t c' d _)
  exact ⟨fun b i j k d => by rw [e2]; exact p2 b i j k d, fun d => by rw [e3]; exact p3 d,
    fun d => by rw [e4]; exact p4 d⟩

include hs0 hs1 hs2 h in
/-- After the second host stretch: the five arrays region 3 reads. -/
theorem at_B5 :
    (∀ b i j k d, (B5 ℍ m c (Proc.devRef .tc main_v12_0)) (ix5 b i j k d) = ((pre2 x xn W1 Wn1 g1 b1 W2 b i j k d : ℝ) : EReal))
    ∧ (∀ d, (B5 ℍ m c (Proc.devRef .tc main_v21)) (ix2 (0 : Fin 1) d) = ((g2 d : ℝ) : EReal))
    ∧ (∀ d, (B5 ℍ m c (Proc.devRef .tc main_v22)) (ix2 (0 : Fin 1) d) = ((b2 d : ℝ) : EReal))
    ∧ (∀ d, (B5 ℍ m c (Proc.devRef .tc main_v14)) (ix2 (0 : Fin 1) d) = ((muK (sum4 (pre2 x xn W1 Wn1 g1 b1 W2)) d : ℝ) : EReal))
    ∧ (∀ d, (B5 ℍ m c (Proc.devRef .tc main_v20)) (ix2 (0 : Fin 1) d)
        = ((varK (sum4 (pre2 x xn W1 Wn1 g1 b1 W2)) (sumsq4 (pre2 x xn W1 Wn1 g1 b1 W2)) d : ℝ) : EReal)) := by
  obtain ⟨p0, p1, p2⟩ := at_B4 m c x xn W1 Wn1 g1 b1 W2 g2 b2 Wc hs0 hs1 hs2 h
  refine ⟨fun b i j k d => ?_, fun d => ?_, fun d => ?_, fun d => ?_, fun d => ?_⟩
  · have e : B5 ℍ m c (Proc.devRef .tc main_v12_0) = B4 ℍ m c (Proc.devRef .tc main_v12_0) := host3_x0 (B4 ℍ m c)
    rw [e]; exact p0 b i j k d
  · exact host3_g (B4 ℍ m c) g2 (fun d => by
      rw [B4_arg m c main_arg7 (by decide) (by decide) (by decide) (by decide)]; exact h.hg2 d) d
  · exact host3_b (B4 ℍ m c) b2 (fun d => by
      rw [B4_arg m c main_arg8 (by decide) (by decide) (by decide) (by decide)]; exact h.hb2 d) d
  · exact host3_mu (B4 ℍ m c) _ p1 d
  · exact host3_var (B4 ℍ m c) _ _ p1 p2 d

include hs0 hs1 hs2 hs3 h in
/-- After region 3: the second layer normalised and rectified, as the specification has it. -/
theorem at_B6 : ∀ b i j k d,
    (B6 ℍ m c (Proc.devRef .tc main_v23)) (ix5 b i j k d) = ((act2 x xn W1 Wn1 g1 b1 W2 g2 b2 b i j k d : ℝ) : EReal) := by
  obtain ⟨q0, qg, qb, qmu, qvar⟩ := at_B5 m c x xn W1 Wn1 g1 b1 W2 g2 b2 Wc hs0 hs1 hs2 h
  have e : B6 ℍ m c (Proc.devRef .tc main_v23) = (dat3 (E5 ℍ m) c).arrAt 5 cfg3.N := B6_arr ℍ m c 5
  intro b i j k d
  rw [e]
  refine (hs3 (E5 ℍ m) c (pre2 x xn W1 Wn1 g1 b1 W2) g2 b2 _ _ (fun d => varK_nonneg _ _ d) q0 qg qb qmu qvar b i j k d).trans ?_
  rw [bnreluK_sums]

include hs0 hs1 hs2 hs3 hs4 h in
/-- After region 4: the specification's network up to its last normalisation. -/
theorem chain : ∀ (b : Fin 16) (i : Fin 32) (d : Fin 64),
    (B7 ℍ m c (Proc.devRef .tc main_v24)) (ix3 b i d)
      = ((preOut x xn W1 Wn1 g1 b1 W2 g2 b2 Wc epsR b i d : ℝ) : EReal) := by
  have e : B7 ℍ m c (Proc.devRef .tc main_v24) = (dat4 (E6 ℍ m) c).arrAt 2 cfg4.N := B7_arr ℍ m c 2
  intro b i d
  rw [e]
  exact hs4 (E6 ℍ m) c (act2 x xn W1 Wn1 g1 b1 W2 g2 b2) Wc (at_B6 m c x xn W1 Wn1 g1 b1 W2 g2 b2 Wc hs0 hs1 hs2 hs3 h)
    (fun t c' d => by
      have e : E6 ℍ m c (Pipeline.arrRef spec4 1) = m ((c : Thread nD τ).loc main_arg9) :=
        B6_arg m c main_arg9 (by decide) (by decide) (by decide) (by decide) (by decide) (by decide)
      rw [e]; exact h.hWc t c' d _) b i d

end Chain

/-- Under the precondition: real tensors whose inclusions the twelve argument arrays are, and the value region 4 leaves
    is the specification's network of them up to the last normalisation. -/
theorem chain_pre [hPre : Cert.Pre_finite_inputs.Facts] [Cert.KernelIdeal.Facts]
    (hs0 : Stage0) (hs1 : Stage1) (hs2 : Stage2) (hs3 : Stage3) (hs4 : Stage4)
    (m : (ℓ : Loc nD τ sig) → Buf (Elt Ideal) ℓ) (hpre : Cert.Pre_KernelIdeal m) (c : Dev nD) :
    ∃ (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ) (gc bc : Fin 64 → ℝ),
      RealArgs m c x xn W1 Wn1 g1 b1 W2 g2 b2 Wc
      ∧ (∀ d, (m ((c : Thread nD τ).loc main_arg10)) (ix1 d) = ((gc d : ℝ) : EReal))
      ∧ (∀ d, (m ((c : Thread nD τ).loc main_arg11)) (ix1 d) = ((bc d : ℝ) : EReal))
      ∧ ∀ (b : Fin 16) (i : Fin 32) (d : Fin 64),
          (B7 ℍ m c (Proc.devRef .tc main_v24)) (ix3 b i d)
            = ((preOut x xn W1 Wn1 g1 b1 W2 g2 b2 Wc epsR b i d : ℝ) : EReal) := by
  obtain ⟨x, xn, W1, Wn1, g1, b1, W2, g2, b2, Wc, gc, bc, k0, k1, k2, k3, k4, k5, k6, k7, k8, k9, k10, k11⟩ :=
    inputs_real m hpre c
  have h : RealArgs m c x xn W1 Wn1 g1 b1 W2 g2 b2 Wc := ⟨k0, k1, k2, k3, k4, k5, k6, k7, k8, k9⟩
  exact ⟨x, xn, W1, Wn1, g1, b1, W2, g2, b2, Wc, gc, bc, h, k10, k11,
    chain m c x xn W1 Wn1 g1 b1 W2 g2 b2 Wc hs0 hs1 hs2 hs3 hs4 h⟩

end Cert.KernelIdeal.Val

end
-- ==== Proof.KIArr0.lean ====
/- REGION 0, FROM BLOCKS TO THE ARRAYS: what the first convolution's three output arrays hold after the region, as
   functions of the region's entry arrays. The grid has 16 points, one per batch element: point `t` reads batch element
   `t` of the pair features (window 0, block index `(t, 0, 0, 0)`, block extents `[1,32,32,16]`) and of the node features
   (window 1, block index `(t, 0, 0)`, extents `[1,32,8]`) and the two weight matrices whole (windows 2 and 3, block
   index `(0, 0)`), and writes back batch element `t` of the convolution's output (window 4, block index
   `(t, 0, 0, 0, 0)`). A block's coordinate in its array is always index × extent + 1 × the coordinate inside the block.
   So batch element `b` of the output array is the body's function `out0_4` of batch element `b` of the two feature
   arrays and of the weights, and the sixteen written-back blocks tile the output array. The two statistics arrays
   (windows 5 and 6) are one `[1,64]` block each, written back at the last point only: they end holding the
   accumulators after the sixteenth point. The input arrays end as the region found them. -/
import proofs.«145029_j5059471475016_2_alg».proof.Proof.KIReg0
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- Batch element `b` of a `[16,32,32,16]` array, as a `[1,32,32,16]` block. -/
def xBlk (A : S16x32x32x16.Idx → Elt F .f32) (b : Fin 16) : Vec F S1x32x32x16 .f32 :=
  fun y => A (ix4 b (y 1) (y 2) (y 3))

/-- Batch element `b` of a `[16,32,8]` array, as a `[1,32,8]` block. -/
def xnBlk (A : S16x32x8.Idx → Elt F .f32) (b : Fin 16) : Vec F S1x32x8 .f32 :=
  fun y => A (ix3 b (y 1) (y 2))

/-- The convolution's output array as one function of the pair features `A0`, the node features `A1` and the weights
    `A2`, `A3`: at `(b, i, j, k, d)` the body's output block of batch element `b`, read at `(0, i, j, k, d)`. -/
def G0 (A0 : S16x32x32x16.Idx → Elt F .f32) (A1 : S16x32x8.Idx → Elt F .f32) (A2 : S384x64.Idx → Elt F .f32) (A3 : S24x64.Idx → Elt F .f32) :
    S16x32x32x32x64.Idx → Elt F .bf16 :=
  fun q => out0_4 (xBlk A0 (q 0)) (xnBlk A1 (q 0)) A2 A3 (ix5 (0 : Fin 1) (q 1) (q 2) (q 3) (q 4))

variable (V : (c : Dev nD) → (b : Ref sig .tc) → Buf (Elt F) ((c : Thread nD τ).loc b))

-- what the body computes is never opened here: only where its blocks come from and go to
attribute [local irreducible] out0_4 accS0 accQ0

/-- The printed index maps, decided once over the sixteen points: the two feature blocks and the output block at point
    `t` are batch element `t`, at 0 on every other axis; each weight block and each statistics block is the whole array. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 5) = t.val
    ∧ win0_4.index t (1 : Fin 5) = 0 ∧ win0_4.index t (2 : Fin 5) = 0 ∧ win0_4.index t (3 : Fin 5) = 0 ∧ win0_4.index t (4 : Fin 5) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The pair features' block at point `t` is batch element `b` of their array, for the `b` the output's block sits at. -/
theorem iblk0_0_eq (c : Dev nD) (t : Fin cfg0.N) (b : Fin 16) (hb : b.val = win0_4.index t (0 : Fin 5)) :
    iblk0 V c 0 t = xBlk (V c main_arg0) b := by
  obtain ⟨e0, e1, e2, e3, -, -, -, -, -, -, -, e4, -⟩ := idx_facts0 t
  funext y
  unfold iblk0 xBlk
  rw [View.read_apply]
  show V c main_arg0 _ = V c main_arg0 _
  congr 1
  funext a
  apply Fin.ext
  match a with
  | ⟨0, _⟩ => show win0_0.index t (0 : Fin 4) * 1 + 1 * (y 0).val = b.val; have hy : (y 0).val < 1 := (y 0).isLt; omega
  | ⟨1, _⟩ => show win0_0.index t (1 : Fin 4) * 32 + 1 * (y 1).val = (y 1).val; omega
  | ⟨2, _⟩ => show win0_0.index t (2 : Fin 4) * 32 + 1 * (y 2).val = (y 2).val; omega
  | ⟨3, _⟩ => show win0_0.index t (3 : Fin 4) * 16 + 1 * (y 3).val = (y 3).val; omega

/-- The node features' block at point `t` likewise. -/
theorem iblk0_1_eq (c : Dev nD) (t : Fin cfg0.N) (b : Fin 16) (hb : b.val = win0_4.index t (0 : Fin 5)) :
    iblk0 V c 1 t = xnBlk (V c main_arg1) b := by
  obtain ⟨-, -, -, -, e0, e1, e2, -, -, -, -, e4, -⟩ := idx_facts0 t
  funext y
  unfold iblk0 xnBlk
  rw [View.read_apply]
  show V c main_arg1 _ = V c main_arg1 _
  congr 1
  funext a
  apply Fin.ext
  match a with
  | ⟨0, _⟩ => show win0_1.index t (0 : Fin 3) * 1 + 1 * (y 0).val = b.val; have hy : (y 0).val < 1 := (y 0).isLt; omega
  | ⟨1, _⟩ => show win0_1.index t (1 : Fin 3) * 32 + 1 * (y 1).val = (y 1).val; omega
  | ⟨2, _⟩ => show win0_1.index t (2 : Fin 3) * 8 + 1 * (y 2).val = (y 2).val; omega

/-- Each weight matrix's block at every point is the whole matrix. -/
theorem iblk0_2_eq (c : Dev nD) (t : Fin cfg0.N) : iblk0 V c 2 t = V c main_arg2 := by
  obtain ⟨-, -, -, -, -, -, -, e0, e1, -⟩ := idx_facts0 t
  funext y
  unfold iblk0
  rw [View.read_apply]
  show V c main_arg2 _ = V c main_arg2 _
  congr 1
  funext a
  apply Fin.ext
  match a with
  | ⟨0, _⟩ => show win0_2.index t (0 : Fin 2) * 384 + 1 * (y 0).val = (y 0).val; omega
  | ⟨1, _⟩ => show win0_2.index t (1 : Fin 2) * 64 + 1 * (y 1).val = (y 1).val; omega
theorem iblk0_3_eq (c : Dev nD) (t : Fin cfg0.N) : iblk0 V c 3 t = V c main_arg3 := by
  obtain ⟨-, -, -, -, -, -, -, -, -, e0, e1, -⟩ := idx_facts0 t
  funext y
  unfold iblk0
  rw [View.read_apply]
  show V c main_arg3 _ = V c main_arg3 _
  congr 1
  funext a
  apply Fin.ext
  match a with
  | ⟨0, _⟩ => show win0_3.index t (0 : Fin 2) * 24 + 1 * (y 0).val = (y 0).val; omega
  | ⟨1, _⟩ => show win0_3.index t (1 : Fin 2) * 64 + 1 * (y 1).val = (y 1).val; omega

/-- WHAT POINT `t` WRITES BACK to the convolution's output is block `t` of `G0` of the four input arrays as the region
    finds them: the body's output block is `out0_4` of the four input blocks; the feature blocks are the batch element the
    output's block sits at, each weight block is the matrix, and the index inside the output block is the array's index
    with batch coordinate 0. -/
theorem flushed0_4_eq (c : Dev nD) (t : Fin cfg0.N) :
    (dat0 V c).flushed 4 t = ((cfg0.win 4).blk t).view.read (Elt F) (G0 (V c main_arg0) (V c main_arg1) (V c main_arg2) (V c main_arg3)) := by
  show (cfg0.win 4).cut (grid0.coords t) ((dat0 V c).after 4 t) = _
  rw [after0_4]
  obtain ⟨-, -, -, -, -, -, -, -, -, -, -, e0, e1, e2, e3, e4, -⟩ := idx_facts0 t
  funext j
  rw [View.read_apply]
  unfold G0
  have hb : ((((cfg0.win 4).blk t).view.emb j) 0).val = win0_4.index t (0 : Fin 5) := by
    show win0_4.index t (0 : Fin 5) * 1 + 1 * (j 0).val = _
    have hj : (j 0).val < 1 := (j 0).isLt
    omega
  rw [iblk0_0_eq V c t _ hb, iblk0_1_eq V c t _ hb, iblk0_2_eq V c t, iblk0_3_eq V c t]
  show out0_4 _ _ _ _ j = out0_4 _ _ _ _ _
  congr 1
  funext a
  apply Fin.ext
  match a with
  | ⟨0, _⟩ => show (j 0).val = 0; have hj : (j 0).val < 1 := (j 0).isLt; omega
  | ⟨1, _⟩ => show (j 1).val = win0_4.index t (1 : Fin 5) * 32 + 1 * (j 1).val; omega
  | ⟨2, _⟩ => show (j 2).val = win0_4.index t (2 : Fin 5) * 32 + 1 * (j 2).val; omega
  | ⟨3, _⟩ => show (j 3).val = win0_4.index t (3 : Fin 5) * 32 + 1 * (j 3).val; omega
  | ⟨4, _⟩ => show (j 4).val = win0_4.index t (4 : Fin 5) * 64 + 1 * (j 4).val; omega

/-- An index of the output array is in point `t`'s block iff each coordinate is in the block's range on its axis. -/
theorem mem_blk0_4 (t : Fin cfg0.N) (i : S16x32x32x32x64.Idx) :
    i ∈ ((cfg0.win 4).blk t).view.set ↔ ∀ a : Fin 5, win0_4.index t a * S1x32x32x32x64.size a ≤ (i a).val ∧ (i a).val < win0_4.index t a * S1x32x32x32x64.size a + S1x32x32x32x64.size a := by
  show i ∈ ((View.whole main_v0_0).slice (win0_4.rect t)).set ↔ _
  rw [View.set_slice_whole, Rect.mem_set_unit]
  exact Iff.rfl

/-- The sixteen written-back blocks tile the output array: index `(b, i, j, k, d)` is in the block of point `b`. -/
theorem covered0_4 (i : S16x32x32x32x64.Idx) : ∃ t : Fin cfg0.N, (cfg0.win 4).flush t = true ∧ i ∈ ((cfg0.win 4).blk t).view.set := by
  have hi0 : (i 0).val < 16 := (i 0).isLt
  have hi1 : (i 1).val < 32 := (i 1).isLt
  have hi2 : (i 2).val < 32 := (i 2).isLt
  have hi3 : (i 3).val < 32 := (i 3).isLt
  have hi4 : (i 4).val < 64 := (i 4).isLt
  have hN : (i 0).val < cfg0.N := lt_of_lt_of_eq hi0 (show 16 = cfg0.N from N_0.symm)
  obtain ⟨-, -, -, -, -, -, -, -, -, -, -, q0, q1, q2, q3, q4, -⟩ := idx_facts0 ⟨(i 0).val, hN⟩
  refine ⟨⟨(i 0).val, hN⟩, flush0_4 _, ?_⟩
  rw [mem_blk0_4]
  intro a
  match a with
  | ⟨0, _⟩ => show win0_4.index ⟨(i 0).val, hN⟩ (0 : Fin 5) * 1 ≤ (i 0).val ∧ (i 0).val < win0_4.index ⟨(i 0).val, hN⟩ (0 : Fin 5) * 1 + 1; dsimp only at q0; omega
  | ⟨1, _⟩ => show win0_4.index ⟨(i 0).val, hN⟩ (1 : Fin 5) * 32 ≤ (i 1).val ∧ (i 1).val < win0_4.index ⟨(i 0).val, hN⟩ (1 : Fin 5) * 32 + 32; omega
  | ⟨2, _⟩ => show win0_4.index ⟨(i 0).val, hN⟩ (2 : Fin 5) * 32 ≤ (i 2).val ∧ (i 2).val < win0_4.index ⟨(i 0).val, hN⟩ (2 : Fin 5) * 32 + 32; omega
  | ⟨3, _⟩ => show win0_4.index ⟨(i 0).val, hN⟩ (3 : Fin 5) * 32 ≤ (i 3).val ∧ (i 3).val < win0_4.index ⟨(i 0).val, hN⟩ (3 : Fin 5) * 32 + 32; omega
  | ⟨4, _⟩ => show win0_4.index ⟨(i 0).val, hN⟩ (4 : Fin 5) * 64 ≤ (i 4).val ∧ (i 4).val < win0_4.index ⟨(i 0).val, hN⟩ (4 : Fin 5) * 64 + 64; omega

/-- THE CONVOLUTION'S OUTPUT ARRAY after the region: `G0` of the four input arrays as the region found them. -/
theorem final0_4 (c : Dev nD) : (dat0 V c).arrAt 4 cfg0.N = G0 (V c main_arg0) (V c main_arg1) (V c main_arg2) (V c main_arg3) :=
  (dat0 V c).arrAt_eq_of_cover 4 (G0 (V c main_arg0) (V c main_arg1) (V c main_arg2) (V c main_arg3)) (fun t _ => flushed0_4_eq V c t) covered0_4

/-- The same, index by index: batch element `b` of the output is the body's function of batch element `b` of the two
    feature arrays and of the weights. -/
theorem arr0_out (c : Dev nD) (b : Fin 16) (i j k : Fin 32) (d : Fin 64) :
    ((dat0 V c).arrAt 4 cfg0.N : S16x32x32x32x64.Idx → Elt F .bf16) (ix5 b i j k d)
      = out0_4 (xBlk (V c (Pipeline.arrRef spec0 0)) b) (xnBlk (V c (Pipeline.arrRef spec0 1)) b) (V c (Pipeline.arrRef spec0 2))
          (V c (Pipeline.arrRef spec0 3)) (ix5 (0 : Fin 1) i j k d) := by
  rw [final0_4]; rfl

/-! ## The two statistics arrays: one block each, written back at the last point -/

/-- An index of the sum array is in point `t`'s block iff each coordinate is in the block's range on its axis. -/
theorem mem_blk0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v0_1).slice (win0_5.rect t)).set ↔ _
  rw [View.set_slice_whole, Rect.mem_set_unit]
  exact Iff.rfl

/-- The only point that writes the sum back is the last, and what it writes is the accumulator after the sixteenth
    point, the block being the whole array. -/
theorem flushed0_5_eq (c : Dev nD) (t : Fin cfg0.N) (hf : (cfg0.win 5).flush t = true) :
    (dat0 V c).flushed 5 t = ((cfg0.win 5).blk t).view.read (Elt F) (accS0 V c 15 t0_15.isLt) := by
  have h15 : t.val % 16 = 15 := (flush0_5 t).mp hf
  have hN : t.val < 16 := lt_of_lt_of_eq t.isLt (show cfg0.N = 16 from N_0)
  obtain rfl : t = t0_15 := Fin.ext (show t.val = 15 by omega)
  show (cfg0.win 5).cut (grid0.coords t0_15) ((dat0 V c).after 5 t0_15) = _
  rw [after0_5]
  obtain ⟨-, -, -, -, -, -, -, -, -, -, -, -, -, -, -, -, e0, e1, -⟩ := idx_facts0 t0_15
  funext j
  rw [View.read_apply]
  show accS0 V c 15 _ j = accS0 V c 15 _ _
  congr 1
  funext a
  apply Fin.ext
  match a with
  | ⟨0, _⟩ => show (j 0).val = win0_5.index t0_15 (0 : Fin 2) * 1 + 1 * (j 0).val; omega
  | ⟨1, _⟩ => show (j 1).val = win0_5.index t0_15 (1 : Fin 2) * 64 + 1 * (j 1).val; omega

/-- The last point's block is the whole sum array. -/
theorem covered0_5 (i : S1x64.Idx) : ∃ t : Fin cfg0.N, (cfg0.win 5).flush t = true ∧ i ∈ ((cfg0.win 5).blk t).view.set := by
  have hi0 : (i 0).val < 1 := (i 0).isLt
  have hi1 : (i 1).val < 64 := (i 1).isLt
  obtain ⟨-, -, -, -, -, -, -, -, -, -, -, -, -, -, -, -, e0, e1, -⟩ := idx_facts0 t0_15
  refine ⟨t0_15, (flush0_5 t0_15).mpr rfl, ?_⟩
  rw [mem_blk0_5]
  intro a
  match a with
  | ⟨0, _⟩ => show win0_5.index t0_15 (0 : Fin 2) * 1 ≤ (i 0).val ∧ (i 0).val < win0_5.index t0_15 (0 : Fin 2) * 1 + 1; omega
  | ⟨1, _⟩ => show win0_5.index t0_15 (1 : Fin 2) * 64 ≤ (i 1).val ∧ (i 1).val < win0_5.index t0_15 (1 : Fin 2) * 64 + 64; omega

/-- An index of the sum-of-squares array is in point `t`'s block iff each coordinate is in the block's range on its axis. -/
theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v0_2).slice (win0_6.rect t)).set ↔ _
  rw [View.set_slice_whole, Rect.mem_set_unit]
  exact Iff.rfl

/-- The only point that writes the sum-of-squares back is the last, and what it writes is the accumulator after the sixteenth
    point, the block being the whole array. -/
theorem flushed0_6_eq (c : Dev nD) (t : Fin cfg0.N) (hf : (cfg0.win 6).flush t = true) :
    (dat0 V c).flushed 6 t = ((cfg0.win 6).blk t).view.read (Elt F) (accQ0 V c 15 t0_15.isLt) := by
  have h15 : t.val % 16 = 15 := (flush0_6 t).mp hf
  have hN : t.val < 16 := lt_of_lt_of_eq t.isLt (show cfg0.N = 16 from N_0)
  obtain rfl : t = t0_15 := Fin.ext (show t.val = 15 by omega)
  show (cfg0.win 6).cut (grid0.coords t0_15) ((dat0 V c).after 6 t0_15) = _
  rw [after0_6]
  obtain ⟨-, -, -, -, -, -, -, -, -, -, -, -, -, -, -, -, -, -, e0, e1⟩ := idx_facts0 t0_15
  funext j
  rw [View.read_apply]
  show accQ0 V c 15 _ j = accQ0 V c 15 _ _
  congr 1
  funext a
  apply Fin.ext
  match a with
  | ⟨0, _⟩ => show (j 0).val = win0_6.index t0_15 (0 : Fin 2) * 1 + 1 * (j 0).val; omega
  | ⟨1, _⟩ => show (j 1).val = win0_6.index t0_15 (1 : Fin 2) * 64 + 1 * (j 1).val; omega

/-- The last point's block is the whole sum-of-squares array. -/
theorem covered0_6 (i : S1x64.Idx) : ∃ t : Fin cfg0.N, (cfg0.win 6).flush t = true ∧ i ∈ ((cfg0.win 6).blk t).view.set := by
  have hi0 : (i 0).val < 1 := (i 0).isLt
  have hi1 : (i 1).val < 64 := (i 1).isLt
  obtain ⟨-, -, -, -, -, -, -, -, -, -, -, -, -, -, -, -, -, -, e0, e1⟩ := idx_facts0 t0_15
  refine ⟨t0_15, (flush0_6 t0_15).mpr rfl, ?_⟩
  rw [mem_blk0_6]
  intro a
  match a with
  | ⟨0, _⟩ => show win0_6.index t0_15 (0 : Fin 2) * 1 ≤ (i 0).val ∧ (i 0).val < win0_6.index t0_15 (0 : Fin 2) * 1 + 1; omega
  | ⟨1, _⟩ => show win0_6.index t0_15 (1 : Fin 2) * 64 ≤ (i 1).val ∧ (i 1).val < win0_6.index t0_15 (1 : Fin 2) * 64 + 64; omega

/-- THE SUM ARRAY after the region: the sum accumulator after the sixteenth point. -/
theorem arr0_sum (c : Dev nD) : (dat0 V c).arrAt 5 cfg0.N = accS0 V c 15 t0_15.isLt :=
  (dat0 V c).arrAt_eq_of_cover 5 (accS0 V c 15 t0_15.isLt) (fun t hf => flushed0_5_eq V c t hf) covered0_5

/-- THE SUM-OF-SQUARES ARRAY after the region: the sum-of-squares accumulator after the sixteenth point. -/
theorem arr0_sumsq (c : Dev nD) : (dat0 V c).arrAt 6 cfg0.N = accQ0 V c 15 t0_15.isLt :=
  (dat0 V c).arrAt_eq_of_cover 6 (accQ0 V c 15 t0_15.isLt) (fun t hf => flushed0_6_eq V c t hf) covered0_6

/-! ## The blocks the accumulators read, as plain functions of the entry arrays -/

/-- At point `t` the feature blocks are batch element `t` of their arrays and the weight blocks the whole matrices. -/
theorem iblk0_0_at (c : Dev nD) (t : Fin cfg0.N) : iblk0 V c 0 t = xBlk (V c (Pipeline.arrRef spec0 0)) ⟨t.val, lt_of_lt_of_eq t.isLt (show cfg0.N = 16 from N_0)⟩ :=
  iblk0_0_eq V c t _ (idx_facts0 t).2.2.2.2.2.2.2.2.2.2.2.1.symm
theorem iblk0_1_at (c : Dev nD) (t : Fin cfg0.N) : iblk0 V c 1 t = xnBlk (V c (Pipeline.arrRef spec0 1)) ⟨t.val, lt_of_lt_of_eq t.isLt (show cfg0.N = 16 from N_0)⟩ :=
  iblk0_1_eq V c t _ (idx_facts0 t).2.2.2.2.2.2.2.2.2.2.2.1.symm
theorem iblk0_2_at (c : Dev nD) (t : Fin cfg0.N) : iblk0 V c 2 t = V c (Pipeline.arrRef spec0 2) := iblk0_2_eq V c t
theorem iblk0_3_at (c : Dev nD) (t : Fin cfg0.N) : iblk0 V c 3 t = V c (Pipeline.arrRef spec0 3) := iblk0_3_eq V c t

/-! ## The input arrays end as the region found them -/

theorem arr0_in0 (c : Dev nD) : (dat0 V c).arrAt 0 cfg0.N = V c (Pipeline.arrRef spec0 0) :=
  ((dat0 V c).arrAt_in 0 rfl _).trans (A_eq0 V c 0)
theorem arr0_in1 (c : Dev nD) : (dat0 V c).arrAt 1 cfg0.N = V c (Pipeline.arrRef spec0 1) :=
  ((dat0 V c).arrAt_in 1 rfl _).trans (A_eq0 V c 1)
theorem arr0_in2 (c : Dev nD) : (dat0 V c).arrAt 2 cfg0.N = V c (Pipeline.arrRef spec0 2) :=
  ((dat0 V c).arrAt_in 2 rfl _).trans (A_eq0 V c 2)
theorem arr0_in3 (c : Dev nD) : (dat0 V c).arrAt 3 cfg0.N = V c (Pipeline.arrRef spec0 3) :=
  ((dat0 V c).arrAt_in 3 rfl _).trans (A_eq0 V c 3)

end Cert.KernelIdeal.Hand

end
-- ==== Proof.LibBlockMatmul.lean ====
import Idealize.ShloMosaic.Lib.ValueIdx
import Idealize.ShloMosaic.PureOps.Ideal.Laws

/-!
# The plain two-dimensional contraction read at an index, and a row block of a product

For a left operand `A` of shape `[M, K]`, a right operand `B` of shape `[K, N]` and the dimension numbers that contract
the left operand's axis 1 with the right operand's axis 0 (no batch axes), the product at the exact (extended real)
values is, at row `p` and column `q`, the sum over `k < K` of `A (p, k) * B (k, q)`. This holds for the matrix unit's
product accumulated into the zero splat (`matmul_zero_plain_apply`) and for the host's `dot_general`
(`dotGeneral_plain_apply`): both are the same sum over the contraction shape's indices, re-indexed through the bijection
between a one-axis contraction index and its coordinate (`plain_sum`).

Consequently a row block of a product is the product of the row block (`block_matmul_eq_dotGeneral`): if the rows of an
`[m, K]` block `A'` are rows of `A` — row `p` of `A'` is row `r` of `A` — then the block's product with `B` at `(p, q)` is the
whole product at `(r, q)`, since each is the sum over `k` of `A (r, k) * B (k, q)`.

The dimension numbers are given as the literal record `plainDims wf` (`wf` any proof of its well-formedness); a record
defined with the same axis lists unfolds to it.
-/

namespace Cert.BlockMatmul

open Idealize.ShloMosaic Idealize.ShloMosaic.ValueIdx

/-- The dimension numbers of a plain `[M, K]` by `[K, N]` product with literal axis lists: contract axis 1 of the left
    operand with axis 0 of the right, no batch axes. -/
abbrev plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section
variable {M K N : Nat} (wf : DotDims.WF ⟨2, ![M, K]⟩ ⟨2, ![K, N]⟩ ⟨2, ![M, N]⟩ [1] [0] [0] [1] [] [])

/-- The left operand's row coordinate is the result's row coordinate. -/
theorem plain_lhs0 (i : (⟨2, ![M, N]⟩ : Shape).Idx) (k : (plainDims wf).contr.Idx) :
    ((plainDims wf).lhsIdx i k 0).val = (i 0).val := by
  unfold DotDims.lhsIdx
  rw [dif_neg (show ¬(0 : Fin 2) ∈ ([] : List (Fin 2)) by decide), dif_pos (show (0 : Fin 2) ∈ ([0] : List (Fin 2)) by decide)]
  rfl

/-- The left operand's column coordinate is the contraction coordinate. -/
theorem plain_lhs1 (i : (⟨2, ![M, N]⟩ : Shape).Idx) (k : (plainDims wf).contr.Idx) :
    ((plainDims wf).lhsIdx i k 1).val = (k ⟨0, Nat.one_pos⟩).val :=
  (plainDims wf).lhsIdx_val_of_single rfl i k

/-- The right operand's row coordinate is the contraction coordinate. -/
theorem plain_rhs0 (i : (⟨2, ![M, N]⟩ : Shape).Idx) (k : (plainDims wf).contr.Idx) :
    ((plainDims wf).rhsIdx i k 0).val = (k ⟨0, Nat.one_pos⟩).val :=
  (plainDims wf).rhsIdx_val_of_single rfl i k

/-- The right operand's column coordinate is the result's column coordinate. -/
theorem plain_rhs1 (i : (⟨2, ![M, N]⟩ : Shape).Idx) (k : (plainDims wf).contr.Idx) :
    ((plainDims wf).rhsIdx i k 1).val = (i 1).val := by
  unfold DotDims.rhsIdx
  rw [dif_neg (show ¬(1 : Fin 2) ∈ ([] : List (Fin 2)) by decide), dif_pos (show (1 : Fin 2) ∈ ([1] : List (Fin 2)) by decide)]
  rfl

/-- The contraction's sum at `(p, q)`, over the contraction shape's indices, is the sum over `k < K` of
    `lhs (p, k) * rhs (k, q)`. -/
theorem plain_sum (lhs : (⟨2, ![M, K]⟩ : Shape).Idx → EReal) (rhs : (⟨2, ![K, N]⟩ : Shape).Idx → EReal) (p : Fin M) (q : Fin N) :
    ∑ k : (plainDims wf).contr.Idx, lhs ((plainDims wf).lhsIdx (ix2 p q) k) * rhs ((plainDims wf).rhsIdx (ix2 p q) k)
      = ∑ k : Fin K, lhs (ix2 p k) * rhs (ix2 k q) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact plain_lhs0 wf _ _
    | ⟨1, _⟩ => exact (plain_lhs1 wf _ _).trans hk)
  have er : (plainDims wf).rhsIdx (ix2 p q) ((contrEquiv1 (plainDims wf) K rfl rfl).symm k) = ix2 k q := funext fun a => Fin.ext (by
    match a with
    | ⟨0, _⟩ => exact (plain_rhs0 wf _ _).trans hk
    | ⟨1, _⟩ => exact plain_rhs1 wf _ _)
  rw [el, er]

/-- The matrix unit's product accumulated into the zero splat, at `(p, q)`: the sum over `k < K` of
    `lhs (p, k) * rhs (k, q)`. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (plainDims wf) prec lhs rhs (constant ⟨2, ![M, N]⟩ .f32 0x00000000#32) (ix2 p q)
      = ∑ k : Fin K, lhs (ix2 p k) * rhs (ix2 k q) :=
  (Ideal.matmul_constant_zero_apply (plainDims wf) prec lhs rhs (ix2 p q)).trans (plain_sum wf lhs rhs p q)

/-- The host's `dot_general` at `(p, q)`: the same sum. -/
theorem dotGeneral_plain_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (plainDims wf) prec lhs rhs (ix2 p q) = ∑ k : Fin K, lhs (ix2 p k) * rhs (ix2 k q) :=
  (Ideal.dotGeneral_apply (plainDims wf) prec .single lhs rhs (ix2 p q)).trans (plain_sum wf lhs rhs p q)

end

/-- A ROW BLOCK OF A PRODUCT IS THE PRODUCT OF THE ROW BLOCK: when row `p` of the `[m, K]` block `lhs'` is row `r` of the
    `[M, K]` operand `lhs` and the right operands agree, the block's product into the zero splat at `(p, q)` is the host's
    `dot_general` of the whole operands at `(r, q)`. -/
theorem block_matmul_eq_dotGeneral {m M K N : Nat} {φ₁ φ₂ ψ₁ ψ₂ : FTy}
    (wf' : DotDims.WF ⟨2, ![m, K]⟩ ⟨2, ![K, N]⟩ ⟨2, ![m, N]⟩ [1] [0] [0] [1] [] [])
    (wf : DotDims.WF ⟨2, ![M, K]⟩ ⟨2, ![K, N]⟩ ⟨2, ![M, N]⟩ [1] [0] [0] [1] [] [])
    (prec' prec : Option ContractPrecision)
    (lhs' : FVec Ideal ⟨2, ![m, K]⟩ φ₁) (rhs' : FVec Ideal ⟨2, ![K, N]⟩ φ₂)
    (lhs : FVec Ideal ⟨2, ![M, K]⟩ ψ₁) (rhs : FVec Ideal ⟨2, ![K, N]⟩ ψ₂)
    (p : Fin m) (r : Fin M) (q : Fin N)
    (hl : ∀ k : Fin K, lhs' (ix2 p k) = lhs (ix2 r k)) (hr : ∀ k : Fin K, rhs' (ix2 k q) = rhs (ix2 k q)) :
    matmul (F := Ideal) (plainDims wf') prec' lhs' rhs' (constant ⟨2, ![m, N]⟩ .f32 0x00000000#32) (ix2 p q)
      = Host.dotGeneral (F := Ideal) (plainDims wf) prec lhs rhs (ix2 r q) := by
  rw [matmul_zero_plain_apply, dotGeneral_plain_apply]
  exact Finset.sum_congr rfl fun k _ => by rw [hl k, hr k]

end Cert.BlockMatmul
-- ==== Proof.KIValConv1Idx.lean ====
/-
  Layout operations of an order-3 layer read at an index given by coordinates.

  A sum over one axis of an array of rank 4, 3 or 2, read at a result index written by its coordinates, is the sum over
  that axis's coordinate of the source at the index with the coordinate put back in place.  A shape cast that adds or
  drops unit axes, or flattens the three position axes of 32 into one axis of 32768 (two of them into 1024), reads the
  source at the index with the same row-major position.  A broadcast along the unit axes reads the source with 0 there.
  Nothing here mentions a program.
-/
import Idealize.ShloMosaic.Lib.ValueIdx
import Idealize.ShloMosaic.Lib.ValueLayout
import Idealize.ShloMosaic.Lib.Pipeline.Value
import Idealize.ShloMosaic.PureOps.Ideal.Laws

namespace Cert.ConvIdx
open Idealize.ShloMosaic Idealize.ShloMosaic.ValueIdx

/-! ## Sums over one axis -/
section Red
variable {n0 n1 n2 n3 : Nat}

theorem red4_0 (src : FVec Ideal ⟨4, ![n0, n1, n2, n3]⟩ .f32) (acc : BitVec 32)
    (h : (⟨4, ![n0, n1, n2, n3]⟩ : Shape).Reduces [0] ⟨3, ![n1, n2, n3]⟩) (hφ : FKind.Formats .f32)
    (hacc : acc = FKind.add.neutral .f32 hφ) (p : Fin n1) (q : Fin n2) (r : Fin n3) :
    multiReduction (F := Ideal) .add [0] ⟨3, ![n1, n2, n3]⟩ src acc h hφ hacc (ix3 p q r) = ∑ k : Fin n0, src (ix4 k p q r) := by
  refine (Ideal.multiReduction_add_single src acc h hφ hacc (ix3 p q r)).trans ?_
  refine Finset.sum_congr rfl fun k _ => congrArg src (funext fun c => Fin.ext ?_)
  match c with
  | ⟨0, _⟩ => rfl
  | ⟨1, _⟩ => rfl
  | ⟨2, _⟩ => rfl
  | ⟨3, _⟩ => rfl

theorem red4_1 (src : FVec Ideal ⟨4, ![n0, n1, n2, n3]⟩ .f32) (acc : BitVec 32)
    (h : (⟨4, ![n0, n1, n2, n3]⟩ : Shape).Reduces [1] ⟨3, ![n0, n2, n3]⟩) (hφ : FKind.Formats .f32)
    (hacc : acc = FKind.add.neutral .f32 hφ) (p : Fin n0) (q : Fin n2) (r : Fin n3) :
    multiReduction (F := Ideal) .add [1] ⟨3, ![n0, n2, n3]⟩ src acc h hφ hacc (ix3 p q r) = ∑ k : Fin n1, src (ix4 p k q r) := by
  refine (Ideal.multiReduction_add_single src acc h hφ hacc (ix3 p q r)).trans ?_
  refine Finset.sum_congr rfl fun k _ => congrArg src (funext fun c => Fin.ext ?_)
  match c with
  | ⟨0, _⟩ => rfl
  | ⟨1, _⟩ => rfl
  | ⟨2, _⟩ => rfl
  | ⟨3, _⟩ => rfl

theorem red4_2 (src : FVec Ideal ⟨4, ![n0, n1, n2, n3]⟩ .f32) (acc : BitVec 32)
    (h : (⟨4, ![n0, n1, n2, n3]⟩ : Shape).Reduces [2] ⟨3, ![n0, n1, n3]⟩) (hφ : FKind.Formats .f32)
    (hacc : acc = FKind.add.neutral .f32 hφ) (p : Fin n0) (q : Fin n1) (r : Fin n3) :
    multiReduction (F := Ideal) .add [2] ⟨3, ![n0, n1, n3]⟩ src acc h hφ hacc (ix3 p q r) = ∑ k : Fin n2, src (ix4 p q k r) := by
  refine (Ideal.multiReduction_add_single src acc h hφ hacc (ix3 p q r)).trans ?_
  refine Finset.sum_congr rfl fun k _ => congrArg src (funext fun c => Fin.ext ?_)
  match c with
  | ⟨0, _⟩ => rfl
  | ⟨1, _⟩ => rfl
  | ⟨2, _⟩ => rfl
  | ⟨3, _⟩ => rfl

theorem red3_0 (src : FVec Ideal ⟨3, ![n0, n1, n2]⟩ .f32) (acc : BitVec 32)
    (h : (⟨3, ![n0, n1, n2]⟩ : Shape).Reduces [0] ⟨2, ![n1, n2]⟩) (hφ : FKind.Formats .f32)
    (hacc : acc = FKind.add.neutral .f32 hφ) (p : Fin n1) (q : Fin n2) :
    multiReduction (F := Ideal) .add [0] ⟨2, ![n1, n2]⟩ src acc h hφ hacc (ix2 p q) = ∑ k : Fin n0, src (ix3 k p q) := by
  refine (Ideal.multiReduction_add_single src acc h hφ hacc (ix2 p q)).trans ?_
  refine Finset.sum_congr rfl fun k _ => congrArg src (funext fun c => Fin.ext ?_)
  match c with
  | ⟨0, _⟩ => rfl
  | ⟨1, _⟩ => rfl
  | ⟨2, _⟩ => rfl

theorem red3_1 (src : FVec Ideal ⟨3, ![n0, n1, n2]⟩ .f32) (acc : BitVec 32)
    (h : (⟨3, ![n0, n1, n2]⟩ : Shape).Reduces [1] ⟨2, ![n0, n2]⟩) (hφ : FKind.Formats .f32)
    (hacc : acc = FKind.add.neutral .f32 hφ) (p : Fin n0) (q : Fin n2) :
    multiReduction (F := Ideal) .add [1] ⟨2, ![n0, n2]⟩ src acc h hφ hacc (ix2 p q) = ∑ k : Fin n1, src (ix3 p k q) := by
  refine (Ideal.multiReduction_add_single src acc h hφ hacc (ix2 p q)).trans ?_
  refine Finset.sum_congr rfl fun k _ => congrArg src (funext fun c => Fin.ext ?_)
  match c with
  | ⟨0, _⟩ => rfl
  | ⟨1, _⟩ => rfl
  | ⟨2, _⟩ => rfl

theorem red2_0 (src : FVec Ideal ⟨2, ![n0, n1]⟩ .f32) (acc : BitVec 32)
    (h : (⟨2, ![n0, n1]⟩ : Shape).Reduces [0] ⟨1, ![n1]⟩) (hφ : FKind.Formats .f32)
    (hacc : acc = FKind.add.neutral .f32 hφ) (p : Fin n1) :
    multiReduction (F := Ideal) .add [0] ⟨1, ![n1]⟩ src acc h hφ hacc (ix1 p) = ∑ k : Fin n0, src (ix2 k p) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

end Red

/-! ## Shape casts that add unit axes -/
section Cast
variable {α : Type} {a b c d : Nat}

theorem cast_abc_ab1c (x : (⟨3, ![a, b, c]⟩ : Shape).Idx → α) (h : (⟨3, ![a, b, c]⟩ : Shape).ShapeCasts ⟨4, ![a, b, 1, c]⟩)
    (i : Fin a) (j : Fin b) (u : Fin 1) (l : Fin c) : shapeCast ⟨4, ![a, b, 1, c]⟩ x h (ix4 i j u l) = x (ix3 i j l) :=
  shapeCast_apply x h _ _ (by
    have hu : u.val = 0 := by omega
    rw [Shape.rowMajor_val_four, Shape.rowMajor_val_three]
    show (i.val * b + j.val) * c + l.val = ((i.val * b + j.val) * 1 + u.val) * c + l.val
    rw [hu, Nat.mul_one, Nat.add_zero])

theorem cast_abc_a1bc (x : (⟨3, ![a, b, c]⟩ : Shape).Idx → α) (h : (⟨3, ![a, b, c]⟩ : Shape).ShapeCasts ⟨4, ![a, 1, b, c]⟩)
    (i : Fin a) (u : Fin 1) (j : Fin b) (l : Fin c) : shapeCast ⟨4, ![a, 1, b, c]⟩ x h (ix4 i u j l) = x (ix3 i j l) :=
  shapeCast_apply x h _ _ (by
    have hu : u.val = 0 := by omega
    rw [Shape.rowMajor_val_four, Shape.rowMajor_val_three]
    show (i.val * b + j.val) * c + l.val = ((i.val * 1 + u.val) * b + j.val) * c + l.val
    rw [hu, Nat.mul_one, Nat.add_zero])

theorem cast_ac_a11c (x : (⟨2, ![a, c]⟩ : Shape).Idx → α) (h : (⟨2, ![a, c]⟩ : Shape).ShapeCasts ⟨4, ![a, 1, 1, c]⟩)
    (i : Fin a) (u v : Fin 1) (l : Fin c) : shapeCast ⟨4, ![a, 1, 1, c]⟩ x h (ix4 i u v l) = x (ix2 i l) :=
  shapeCast_apply x h _ _ (by
    have hu : u.val = 0 := by omega
    have hv : v.val = 0 := by omega
    rw [Shape.rowMajor_val_four, Shape.rowMajor_val_two]
    show i.val * c + l.val = ((i.val * 1 + u.val) * 1 + v.val) * c + l.val
    simp only [hu, hv, Nat.mul_one, Nat.add_zero])

theorem cast_ac_1a1c (x : (⟨2, ![a, c]⟩ : Shape).Idx → α) (h : (⟨2, ![a, c]⟩ : Shape).ShapeCasts ⟨4, ![1, a, 1, c]⟩)
    (u : Fin 1) (i : Fin a) (v : Fin 1) (l : Fin c) : shapeCast ⟨4, ![1, a, 1, c]⟩ x h (ix4 u i v l) = x (ix2 i l) :=
  shapeCast_apply x h _ _ (by
    have hu : u.val = 0 := by omega
    have hv : v.val = 0 := by omega
    rw [Shape.rowMajor_val_four, Shape.rowMajor_val_two]
    show i.val * c + l.val = ((u.val * a + i.val) * 1 + v.val) * c + l.val
    rw [hu, hv, Nat.zero_mul, Nat.zero_add, Nat.mul_one, Nat.add_zero])

theorem cast_ac_11ac (x : (⟨2, ![a, c]⟩ : Shape).Idx → α) (h : (⟨2, ![a, c]⟩ : Shape).ShapeCasts ⟨4, ![1, 1, a, c]⟩)
    (u v : Fin 1) (i : Fin a) (l : Fin c) : shapeCast ⟨4, ![1, 1, a, c]⟩ x h (ix4 u v i l) = x (ix2 i l) :=
  shapeCast_apply x h _ _ (by
    have hu : u.val = 0 := by omega
    have hv : v.val = 0 := by omega
    rw [Shape.rowMajor_val_four, Shape.rowMajor_val_two]
    show i.val * c + l.val = ((u.val * 1 + v.val) * a + i.val) * c + l.val
    simp only [hu, hv, Nat.zero_mul, Nat.zero_add])

theorem cast_c_111c (x : (⟨1, ![c]⟩ : Shape).Idx → α) (h : (⟨1, ![c]⟩ : Shape).ShapeCasts ⟨4, ![1, 1, 1, c]⟩)
    (u v w : Fin 1) (l : Fin c) : shapeCast ⟨4, ![1, 1, 1, c]⟩ x h (ix4 u v w l) = x (ix1 l) :=
  shapeCast_apply x h _ _ (by
    have hu : u.val = 0 := by omega
    have hv : v.val = 0 := by omega
    have hw : w.val = 0 := by omega
    rw [Shape.rowMajor_val_four, Shape.rowMajor_val_one]
    show l.val = ((u.val * 1 + v.val) * 1 + w.val) * c + l.val
    rw [hu, hv, hw]; simp)

theorem cast_abcd_1abcd (x : (⟨4, ![a, b, c, d]⟩ : Shape).Idx → α) (h : (⟨4, ![a, b, c, d]⟩ : Shape).ShapeCasts ⟨5, ![1, a, b, c, d]⟩)
    (u : Fin 1) (i : Fin a) (j : Fin b) (k : Fin c) (l : Fin d) :
    shapeCast ⟨5, ![1, a, b, c, d]⟩ x h (ix5 u i j k l) = x (ix4 i j k l) :=
  shapeCast_apply x h _ _ (by
    have hu : u.val = 0 := by omega
    rw [Shape.rowMajor_val_five, Shape.rowMajor_val_four]
    show ((i.val * b + j.val) * c + k.val) * d + l.val = (((u.val * a + i.val) * b + j.val) * c + k.val) * d + l.val
    rw [hu, Nat.zero_mul, Nat.zero_add])

/-! ## The three position axes of 32 flattened to one axis, and back -/

theorem flat4 (x : (⟨4, ![32, 32, 32, c]⟩ : Shape).Idx → α) (h : (⟨4, ![32, 32, 32, c]⟩ : Shape).ShapeCasts ⟨2, ![32768, c]⟩)
    (i j k : Fin 32) (l : Fin c) (r : Fin 32768) (hr : r.val = (i.val * 32 + j.val) * 32 + k.val) :
    shapeCast ⟨2, ![32768, c]⟩ x h (ix2 r l) = x (ix4 i j k l) :=
  shapeCast_apply x h _ _ (by
    rw [Shape.rowMajor_val_four, Shape.rowMajor_val_two]
    show ((i.val * 32 + j.val) * 32 + k.val) * c + l.val = r.val * c + l.val
    rw [hr])

theorem unflat4 (y : (⟨2, ![32768, c]⟩ : Shape).Idx → α) (h : (⟨2, ![32768, c]⟩ : Shape).ShapeCasts ⟨4, ![32, 32, 32, c]⟩)
    (i j k : Fin 32) (l : Fin c) (r : Fin 32768) (hr : r.val = (i.val * 32 + j.val) * 32 + k.val) :
    shapeCast ⟨4, ![32, 32, 32, c]⟩ y h (ix4 i j k l) = y (ix2 r l) :=
  shapeCast_apply y h _ _ (by
    rw [Shape.rowMajor_val_four, Shape.rowMajor_val_two]
    show r.val * c + l.val = ((i.val * 32 + j.val) * 32 + k.val) * c + l.val
    rw [hr])

theorem flat3 (x : (⟨3, ![32, 32, c]⟩ : Shape).Idx → α) (h : (⟨3, ![32, 32, c]⟩ : Shape).ShapeCasts ⟨2, ![1024, c]⟩)
    (i j : Fin 32) (l : Fin c) (r : Fin 1024) (hr : r.val = i.val * 32 + j.val) :
    shapeCast ⟨2, ![1024, c]⟩ x h (ix2 r l) = x (ix3 i j l) :=
  shapeCast_apply x h _ _ (by
    rw [Shape.rowMajor_val_three, Shape.rowMajor_val_two]
    show (i.val * 32 + j.val) * c + l.val = r.val * c + l.val
    rw [hr])

theorem unflat3 (y : (⟨2, ![1024, c]⟩ : Shape).Idx → α) (h : (⟨2, ![1024, c]⟩ : Shape).ShapeCasts ⟨3, ![32, 32, c]⟩)
    (i j : Fin 32) (l : Fin c) (r : Fin 1024) (hr : r.val = i.val * 32 + j.val) :
    shapeCast ⟨3, ![32, 32, c]⟩ y h (ix3 i j l) = y (ix2 r l) :=
  shapeCast_apply y h _ _ (by
    rw [Shape.rowMajor_val_three, Shape.rowMajor_val_two]
    show r.val * c + l.val = (i.val * 32 + j.val) * c + l.val
    rw [hr])

/-- The flat position of three coordinates below 32. -/
def row3 (i j k : Fin 32) : Fin 32768 := ⟨(i.val * 32 + j.val) * 32 + k.val, by omega⟩
/-- The flat position of two coordinates below 32. -/
def row2 (i j : Fin 32) : Fin 1024 := ⟨i.val * 32 + j.val, by omega⟩

end Cast

/-! ## Broadcasts along unit axes -/
section Bcast
variable {α : Type} {a b c n m : Nat}

theorem ite_unit {n : Nat} (i : Fin n) : i.val = if n = 1 then 0 else i.val := by
  have := i.isLt
  split <;> omega

theorem bcast_ab1c (x : (⟨4, ![a, b, 1, c]⟩ : Shape).Idx → α) (h : (⟨4, ![a, b, 1, c]⟩ : Shape).Broadcasts ⟨4, ![a, b, n, c]⟩)
    (i : Fin a) (j : Fin b) (k : Fin n) (l : Fin c) : broadcastTo ⟨4, ![a, b, n, c]⟩ x h (ix4 i j k l) = x (ix4 i j (0 : Fin 1) l) := by
  refine broadcastTo_apply x h (ix4 i j k l) (ix4 i j (0 : Fin 1) l) fun ax => ?_
  match ax with
  | ⟨0, _⟩ => exact ite_unit i
  | ⟨1, _⟩ => exact ite_unit j
  | ⟨2, _⟩ => rfl
  | ⟨3, _⟩ => exact ite_unit l

theorem bcast_a1bc (x : (⟨4, ![a, 1, b, c]⟩ : Shape).Idx → α) (h : (⟨4, ![a, 1, b, c]⟩ : Shape).Broadcasts ⟨4, ![a, n, b, c]⟩)
    (i : Fin a) (k : Fin n) (j : Fin b) (l : Fin c) : broadcastTo ⟨4, ![a, n, b, c]⟩ x h (ix4 i k j l) = x (ix4 i (0 : Fin 1) j l) := by
  refine broadcastTo_apply x h (ix4 i k j l) (ix4 i (0 : Fin 1) j l) fun ax => ?_
  match ax with
  | ⟨0, _⟩ => exact ite_unit i
  | ⟨1, _⟩ => rfl
  | ⟨2, _⟩ => exact ite_unit j
  | ⟨3, _⟩ => exact ite_unit l

theorem bcast_1abc (x : (⟨4, ![1, a, b, c]⟩ : Shape).Idx → α) (h : (⟨4, ![1, a, b, c]⟩ : Shape).Broadcasts ⟨4, ![n, a, b, c]⟩)
    (k : Fin n) (i : Fin a) (j : Fin b) (l : Fin c) : broadcastTo ⟨4, ![n, a, b, c]⟩ x h (ix4 k i j l) = x (ix4 (0 : Fin 1) i j l) := by
  refine broadcastTo_apply x h (ix4 k i j l) (ix4 (0 : Fin 1) i j l) fun ax => ?_
  match ax with
  | ⟨0, _⟩ => rfl
  | ⟨1, _⟩ => exact ite_unit i
  | ⟨2, _⟩ => exact ite_unit j
  | ⟨3, _⟩ => exact ite_unit l

theorem bcast_a11c (x : (⟨4, ![a, 1, 1, c]⟩ : Shape).Idx → α) (h : (⟨4, ![a, 1, 1, c]⟩ : Shape).Broadcasts ⟨4, ![a, n, m, c]⟩)
    (i : Fin a) (k : Fin n) (k' : Fin m) (l : Fin c) : broadcastTo ⟨4, ![a, n, m, c]⟩ x h (ix4 i k k' l) = x (ix4 i (0 : Fin 1) (0 : Fin 1) l) := by
  refine broadcastTo_apply x h (ix4 i k k' l) (ix4 i (0 : Fin 1) (0 : Fin 1) l) fun ax => ?_
  match ax with
  | ⟨0, _⟩ => exact ite_unit i
  | ⟨1, _⟩ => rfl
  | ⟨2, _⟩ => rfl
  | ⟨3, _⟩ => exact ite_unit l

theorem bcast_1a1c (x : (⟨4, ![1, a, 1, c]⟩ : Shape).Idx → α) (h : (⟨4, ![1, a, 1, c]⟩ : Shape).Broadcasts ⟨4, ![n, a, m, c]⟩)
    (k : Fin n) (i : Fin a) (k' : Fin m) (l : Fin c) : broadcastTo ⟨4, ![n, a, m, c]⟩ x h (ix4 k i k' l) = x (ix4 (0 : Fin 1) i (0 : Fin 1) l) := by
  refine broadcastTo_apply x h (ix4 k i k' l) (ix4 (0 : Fin 1) i (0 : Fin 1) l) fun ax => ?_
  match ax with
  | ⟨0, _⟩ => rfl
  | ⟨1, _⟩ => exact ite_unit i
  | ⟨2, _⟩ => rfl
  | ⟨3, _⟩ => exact ite_unit l

theorem bcast_11ac (x : (⟨4, ![1, 1, a, c]⟩ : Shape).Idx → α) (h : (⟨4, ![1, 1, a, c]⟩ : Shape).Broadcasts ⟨4, ![n, m, a, c]⟩)
    (k : Fin n) (k' : Fin m) (i : Fin a) (l : Fin c) : broadcastTo ⟨4, ![n, m, a, c]⟩ x h (ix4 k k' i l) = x (ix4 (0 : Fin 1) (0 : Fin 1) i l) := by
  refine broadcastTo_apply x h (ix4 k k' i l) (ix4 (0 : Fin 1) (0 : Fin 1) i l) fun ax => ?_
  match ax with
  | ⟨0, _⟩ => rfl
  | ⟨1, _⟩ => rfl
  | ⟨2, _⟩ => exact ite_unit i
  | ⟨3, _⟩ => exact ite_unit l

theorem bcast_111c (x : (⟨4, ![1, 1, 1, c]⟩ : Shape).Idx → α) (h : (⟨4, ![1, 1, 1, c]⟩ : Shape).Broadcasts ⟨4, ![n, m, a, c]⟩)
    (k : Fin n) (k' : Fin m) (i : Fin a) (l : Fin c) : broadcastTo ⟨4, ![n, m, a, c]⟩ x h (ix4 k k' i l) = x (ix4 (0 : Fin 1) (0 : Fin 1) (0 : Fin 1) l) := by
  refine broadcastTo_apply x h (ix4 k k' i l) (ix4 (0 : Fin 1) (0 : Fin 1) (0 : Fin 1) l) fun ax => ?_
  match ax with
  | ⟨0, _⟩ => rfl
  | ⟨1, _⟩ => rfl
  | ⟨2, _⟩ => rfl
  | ⟨3, _⟩ => exact ite_unit l

end Bcast

end Cert.ConvIdx
-- ==== Proof.KIValConv1Expand.lean ====
/-
  The first layer's input spread to order 3, read at an index.

  The block of the order-2 tensor is cast to [32, 32, 16], and three copies are broadcast along a new position axis:
  along the third (the copy reads positions (i, j)), the second (positions (i, k)) and the first (positions (j, k)).
  The three copies are laid side by side along the channel axis, so channel c of the result reads copy c / 16 at
  channel c % 16: this is the spread tensor of the specification.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx

namespace Cert.KernelIdeal.Val
open Idealize.ShloMosaic Idealize.ShloMosaic.ValueIdx Cert.KernelIdeal.Gen Cert.ConvIdx

/-- The copy broadcast along the third position axis reads positions (i, j). -/
theorem copy_ij (v3 : Vec Ideal S1x32x32x16 .f32) (i j k : Fin 32) (c : Fin 16) :
    broadcastTo S32x32x32x16 (shapeCast S32x32x1x16 (shapeCast S32x32x1x16 (truncf .bf16 (shapeCast S32x32x16 v3 shapeCasts_S1x32x32x16_S32x32x16) bitsLt_bf16_f32 : FVec Ideal S32x32x16 .bf16) shapeCasts_S32x32x16_S32x32x1x16) shapeCasts_S32x32x1x16_S32x32x1x16) broadcasts_S32x32x1x16_S32x32x32x16 (ix4 i j k c)
      = v3 (ix4 (0 : Fin 1) i j c) := by
  refine (bcast_ab1c _ _ i j k c).trans ?_
  rw [shapeCast_self]
  refine (cast_abc_ab1c _ _ i j 0 c).trans ?_
  rw [truncf_apply]
  exact shapeCast_1abc_abc_apply _ _ i j c

/-- The copy broadcast along the second position axis reads positions (i, k). -/
theorem copy_ik (v3 : Vec Ideal S1x32x32x16 .f32) (i j k : Fin 32) (c : Fin 16) :
    broadcastTo S32x32x32x16 (shapeCast S32x1x32x16 (shapeCast S32x1x32x16 (truncf .bf16 (shapeCast S32x32x16 v3 shapeCasts_S1x32x32x16_S32x32x16) bitsLt_bf16_f32 : FVec Ideal S32x32x16 .bf16) shapeCasts_S32x32x16_S32x1x32x16) shapeCasts_S32x1x32x16_S32x1x32x16) broadcasts_S32x1x32x16_S32x32x32x16 (ix4 i j k c)
      = v3 (ix4 (0 : Fin 1) i k c) := by
  refine (bcast_a1bc _ _ i j k c).trans ?_
  rw [shapeCast_self]
  refine (cast_abc_a1bc _ _ i 0 k c).trans ?_
  rw [truncf_apply]
  exact shapeCast_1abc_abc_apply _ _ i k c

/-- The copy broadcast along the first position axis reads positions (j, k). -/
theorem copy_jk (v3 : Vec Ideal S1x32x32x16 .f32) (i j k : Fin 32) (c : Fin 16) :
    broadcastTo S32x32x32x16 (shapeCast S1x32x32x16 (shapeCast S1x32x32x16 (truncf .bf16 (shapeCast S32x32x16 v3 shapeCasts_S1x32x32x16_S32x32x16) bitsLt_bf16_f32 : FVec Ideal S32x32x16 .bf16) shapeCasts_S32x32x16_S1x32x32x16) shapeCasts_S1x32x32x16_S1x32x32x16) broadcasts_S1x32x32x16_S32x32x32x16 (ix4 i j k c)
      = v3 (ix4 (0 : Fin 1) j k c) := by
  refine (bcast_1abc _ _ i j k c).trans ?_
  rw [shapeCast_self]
  refine (shapeCast_abc_1abc_apply _ _ 0 j k c).trans ?_
  rw [truncf_apply]
  exact shapeCast_1abc_abc_apply _ _ j k c

/-- The spread tensor at an index, on a block that holds the real order-2 tensor `x`. -/
theorem pay8_apply (v3 : Vec Ideal S1x32x32x16 .f32) (x : Fin 32 → Fin 32 → Fin 16 → ℝ)
    (hx : ∀ i j c, v3 (ix4 (0 : Fin 1) i j c) = ((x i j c : ℝ) : EReal)) (i j k : Fin 32) (c : Fin 48) :
    k0_pay8 (F := Ideal) v3 (ix4 i j k c) = ((Cert.Spec.expand x i j k c : ℝ) : EReal) := by
  unfold k0_pay8 Cert.Spec.expand
  by_cases h1 : c.val < 16
  · rw [dif_pos h1]
    refine (concatenate_apply_piece 3 _ _ (ix4 i j k c) 0 (by show (0 : Nat) < 3; omega) S32x32x32x16 _ rfl rfl 0 rfl
      (ix4 i j k (⟨c.val, h1⟩ : Fin 16)) (fun b hb => ?_) ?_).trans ?_
    · match b with
      | ⟨0, _⟩ => rfl
      | ⟨1, _⟩ => rfl
      | ⟨2, _⟩ => rfl
      | ⟨3, _⟩ => exact absurd rfl hb
    · show 0 + c.val = c.val
      omega
    · exact (copy_ij v3 i j k _).trans (hx _ _ _)
  · rw [dif_neg h1]
    by_cases h2 : c.val < 32
    · rw [dif_pos h2]
      refine (concatenate_apply_piece 3 _ _ (ix4 i j k c) 1 (by show (1 : Nat) < 3; omega) S32x32x32x16 _ rfl rfl 16 rfl
        (ix4 i j k (⟨c.val - 16, by omega⟩ : Fin 16)) (fun b hb => ?_) ?_).trans ?_
      · match b with
        | ⟨0, _⟩ => rfl
        | ⟨1, _⟩ => rfl
        | ⟨2, _⟩ => rfl
        | ⟨3, _⟩ => exact absurd rfl hb
      · show 16 + (c.val - 16) = c.val
        omega
      · exact (copy_ik v3 i j k _).trans (hx _ _ _)
    · rw [dif_neg h2]
      refine (concatenate_apply_piece 3 _ _ (ix4 i j k c) 2 (by show (2 : Nat) < 3; omega) S32x32x32x16 _ rfl rfl 32 rfl
        (ix4 i j k (⟨c.val - 32, by have := c.isLt; omega⟩ : Fin 16)) (fun b hb => ?_) ?_).trans ?_
      · match b with
        | ⟨0, _⟩ => rfl
        | ⟨1, _⟩ => rfl
        | ⟨2, _⟩ => rfl
        | ⟨3, _⟩ => exact absurd rfl hb
      · show 32 + (c.val - 32) = c.val
        omega
      · exact (copy_jk v3 i j k _).trans (hx _ _ _)

end Cert.KernelIdeal.Val
-- ==== Proof.KIValConv1Weights.lean ====
/-
  The weight slices and the node features of the first layer, read at an index.

  The [384, 64] weight matrix holds eight [48, 64] pieces one below the other, piece t at rows t·48 … t·48 + 47, so
  the slice at row offset t·48 read at (c, d) is W t c d.  The [24, 64] node weight matrix holds three [8, 64] pieces
  likewise.  The node block [1, 32, 8] cast to [32, 8] reads the features at (i, c).  The changes of float format are
  the identity at the exact values.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx

namespace Cert.KernelIdeal.Val
open Idealize.ShloMosaic Idealize.ShloMosaic.ValueIdx Cert.KernelIdeal.Gen Cert.ConvIdx

/-- A slice of 48 rows of the weight matrix at row offset `t · 48` is piece `t`. -/
theorem w1_slice (v9 : Vec Ideal S384x64 .f32) (W : Fin 8 → Fin 48 → Fin 64 → ℝ)
    (hW : ∀ (t : Fin 8) (c : Fin 48) (d : Fin 64), v9 (ix2 (⟨t.val * 48 + c.val, by omega⟩ : Fin 384) d) = ((W t c d : ℝ) : EReal))
    (t : Fin 8) (o : Nat) (ho : o = t.val * 48) (h : S384x64.Slices ![o, 0] S48x64) (c : Fin 48) (d : Fin 64) :
    extractStridedSlice S48x64 ![o, 0] (k0_pay6 (F := Ideal) v9) h (ix2 c d) = ((W t c d : ℝ) : EReal) :=
  (slice2_axis0_apply o _ h c d (⟨t.val * 48 + c.val, by omega⟩ : Fin 384) (by show t.val * 48 + c.val = o + c.val; omega)).trans (hW t c d)

/-- A slice of 8 rows of the node weight matrix at row offset `t · 8` is piece `t`. -/
theorem wn_slice (v11 : Vec Ideal S24x64 .f32) (Wn : Fin 3 → Fin 8 → Fin 64 → ℝ)
    (hWn : ∀ (t : Fin 3) (c : Fin 8) (d : Fin 64), v11 (ix2 (⟨t.val * 8 + c.val, by omega⟩ : Fin 24) d) = ((Wn t c d : ℝ) : EReal))
    (t : Fin 3) (o : Nat) (ho : o = t.val * 8) (h : S24x64.Slices ![o, 0] S8x64) (c : Fin 8) (d : Fin 64) :
    extractStridedSlice S8x64 ![o, 0] (k0_pay7 (F := Ideal) v11) h (ix2 c d) = ((Wn t c d : ℝ) : EReal) :=
  (slice2_axis0_apply o _ h c d (⟨t.val * 8 + c.val, by omega⟩ : Fin 24) (by show t.val * 8 + c.val = o + c.val; omega)).trans (hWn t c d)

section W1
variable (v9 : Vec Ideal S384x64 .f32) (W : Fin 8 → Fin 48 → Fin 64 → ℝ)
  (hW : ∀ (t : Fin 8) (c : Fin 48) (d : Fin 64), v9 (ix2 (⟨t.val * 48 + c.val, by omega⟩ : Fin 384) d) = ((W t c d : ℝ) : EReal))
include hW

theorem pay9_apply (c : Fin 48) (d : Fin 64) : k0_pay9 (F := Ideal) v9 (ix2 c d) = ((W 0 c d : ℝ) : EReal) :=
  w1_slice v9 W hW 0 0 rfl slices_S384x64_o0_0_S48x64 c d
theorem pay10_apply (c : Fin 48) (d : Fin 64) : k0_pay10 (F := Ideal) v9 (ix2 c d) = ((W 1 c d : ℝ) : EReal) :=
  w1_slice v9 W hW 1 48 rfl slices_S384x64_o48_0_S48x64 c d
theorem pay11_apply (c : Fin 48) (d : Fin 64) : k0_pay11 (F := Ideal) v9 (ix2 c d) = ((W 2 c d : ℝ) : EReal) :=
  w1_slice v9 W hW 2 96 rfl slices_S384x64_o96_0_S48x64 c d
theorem pay12_apply (c : Fin 48) (d : Fin 64) : k0_pay12 (F := Ideal) v9 (ix2 c d) = ((W 3 c d : ℝ) : EReal) :=
  w1_slice v9 W hW 3 144 rfl slices_S384x64_o144_0_S48x64 c d
theorem pay13_apply (c : Fin 48) (d : Fin 64) : k0_pay13 (F := Ideal) v9 (ix2 c d) = ((W 4 c d : ℝ) : EReal) :=
  w1_slice v9 W hW 4 192 rfl slices_S384x64_o192_0_S48x64 c d
theorem pay14_apply (c : Fin 48) (d : Fin 64) : k0_pay14 (F := Ideal) v9 (ix2 c d) = ((W 5 c d : ℝ) : EReal) :=
  w1_slice v9 W hW 5 240 rfl slices_S384x64_o240_0_S48x64 c d
theorem pay15_apply (c : Fin 48) (d : Fin 64) : k0_pay15 (F := Ideal) v9 (ix2 c d) = ((W 6 c d : ℝ) : EReal) :=
  w1_slice v9 W hW 6 288 rfl slices_S384x64_o288_0_S48x64 c d
theorem pay16_apply (c : Fin 48) (d : Fin 64) : k0_pay16 (F := Ideal) v9 (ix2 c d) = ((W 7 c d : ℝ) : EReal) :=
  w1_slice v9 W hW 7 336 rfl slices_S384x64_o336_0_S48x64 c d
end W1

section Wn
variable (v11 : Vec Ideal S24x64 .f32) (Wn : Fin 3 → Fin 8 → Fin 64 → ℝ)
  (hWn : ∀ (t : Fin 3) (c : Fin 8) (d : Fin 64), v11 (ix2 (⟨t.val * 8 + c.val, by omega⟩ : Fin 24) d) = ((Wn t c d : ℝ) : EReal))
include hWn

theorem pay17_apply (c : Fin 8) (d : Fin 64) : k0_pay17 (F := Ideal) v11 (ix2 c d) = ((Wn 0 c d : ℝ) : EReal) :=
  wn_slice v11 Wn hWn 0 0 rfl slices_S24x64_o0_0_S8x64 c d
theorem pay18_apply (c : Fin 8) (d : Fin 64) : k0_pay18 (F := Ideal) v11 (ix2 c d) = ((Wn 1 c d : ℝ) : EReal) :=
  wn_slice v11 Wn hWn 1 8 rfl slices_S24x64_o8_0_S8x64 c d
theorem pay19_apply (c : Fin 8) (d : Fin 64) : k0_pay19 (F := Ideal) v11 (ix2 c d) = ((Wn 2 c d : ℝ) : EReal) :=
  wn_slice v11 Wn hWn 2 16 rfl slices_S24x64_o16_0_S8x64 c d
end Wn

/-- The node block cast to [32, 8] reads the node features. -/
theorem pay5_apply (v6 : Vec Ideal S1x32x8 .f32) (xn : Fin 32 → Fin 8 → ℝ)
    (hxn : ∀ i c, v6 (ix3 (0 : Fin 1) i c) = ((xn i c : ℝ) : EReal)) (i : Fin 32) (c : Fin 8) :
    k0_pay5 (F := Ideal) v6 (ix2 i c) = ((xn i c : ℝ) : EReal) :=
  (shapeCast_1ab_ab_apply v6 _ i c).trans (hxn i c)

end Cert.KernelIdeal.Val
-- ==== Proof.KIValConv1Means.lean ====
/-
  The means of the spread tensor along position axes, read at an index.

  A mean along one axis is the sum along it (a one-axis add reduction) divided by the splat of 32; on real data it
  is the real sum divided by 32.  The mean over two axes is taken as a mean of means.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx

namespace Cert.KernelIdeal.Val
open Idealize.ShloMosaic Idealize.ShloMosaic.ValueIdx Cert.KernelIdeal.Gen Cert.ConvIdx

/-- The word 0x42000000: exponent field 132, fraction 0, so 2^(132 − 127) = 32. -/
theorem ofBits_32 : Ideal.ofBits .f32 0x42000000#32 = ((32 : ℝ) : EReal) := by
  simp [Ideal.ofBits, Ideal.ieee, -EReal.coe_mul]; norm_num

/-- A value that is a sum of coerced reals, divided by the word 32, is the real mean. -/
theorem div_sum_coe {n : Nat} (g : Fin n → EReal) (f : Fin n → ℝ) (hg : ∀ a, g a = ((f a : ℝ) : EReal)) (z : EReal)
    (hz : z = ∑ a, g a) : Ideal.div z (Ideal.ofBits .f32 0x42000000#32) = (((∑ a, f a) / 32 : ℝ) : EReal) := by
  rw [hz, ofBits_32, show (∑ a, g a) = (((∑ a, f a : ℝ)) : EReal) from by
    rw [Cert.IdealReal.coe_sum_univ]; exact Finset.sum_congr rfl fun a _ => hg a]
  exact Cert.IdealReal.div_coe_coe _ (by norm_num)

/-- A value that is a coerced real, divided by a value that is the real 32. -/
theorem div_coe_32 (s : ℝ) (z w : EReal) (hz : z = ((s : ℝ) : EReal)) (hw : w = ((32 : ℝ) : EReal)) :
    Ideal.div z w = ((s / 32 : ℝ) : EReal) := by
  rw [hz, hw]; exact Cert.IdealReal.div_coe_coe _ (by norm_num)

section
variable (v3 : Vec Ideal S1x32x32x16 .f32) (h : Cert.Spec.Act3 48)
  (h8 : ∀ i j k c, k0_pay8 (F := Ideal) v3 (ix4 i j k c) = ((h i j k c : ℝ) : EReal))
include h8

/-- The mean along the first position axis. -/
theorem pay20_apply (j k : Fin 32) (c : Fin 48) :
    k0_pay20 (F := Ideal) v3 (ix3 j k c) = (((∑ a, h a j k c) / 32 : ℝ) : EReal) := by
  unfold k0_pay20
  exact div_sum_coe _ (fun a => h a j k c) (fun a => h8 a j k c) _ (red4_0 _ _ _ _ _ j k c)

/-- The sum along the second position axis (its division by 32 comes with the product that reads it). -/
theorem pay21_apply (i k : Fin 32) (c : Fin 48) :
    k0_pay21 (F := Ideal) v3 (ix3 i k c) = ((∑ a, h i a k c : ℝ) : EReal) := by
  unfold k0_pay21
  refine (red4_1 _ _ _ _ _ i k c).trans ?_
  rw [Cert.IdealReal.coe_sum_univ]
  exact Finset.sum_congr rfl fun a _ => h8 i a k c
end

/-- The splat of 32. -/
theorem pay22_apply (i k : Fin 32) (c : Fin 48) : k0_pay22 (F := Ideal) (ix3 i k c) = ((32 : ℝ) : EReal) := ofBits_32

section
variable (v22 : FVec Ideal S32x32x32x48 .bf16) (h : Cert.Spec.Act3 48)
  (hv : ∀ i j k c, v22 (ix4 i j k c) = ((h i j k c : ℝ) : EReal))
include hv

/-- The mean along the third position axis. -/
theorem pay23_apply (i j : Fin 32) (c : Fin 48) :
    k0_pay23 (F := Ideal) v22 (ix3 i j c) = (((∑ a, h i j a c) / 32 : ℝ) : EReal) := by
  unfold k0_pay23
  exact div_sum_coe _ (fun a => h i j a c) (fun a => hv i j a c) _ (red4_2 _ _ _ _ _ i j c)

/-- The mean along the second and third position axes, as a mean of means. -/
theorem pay24_apply (i : Fin 32) (c : Fin 48) :
    k0_pay24 (F := Ideal) v22 (ix2 i c) = (((∑ a, (∑ a', h i a a' c) / 32) / 32 : ℝ) : EReal) := by
  unfold k0_pay24
  exact div_sum_coe _ (fun a => (∑ a', h i a a' c) / 32) (fun a => pay23_apply v22 h hv i a c) _ (red3_1 _ _ _ _ _ i c)
end

end Cert.KernelIdeal.Val
-- ==== Proof.KIValConv1Prods.lean ====
/-
  The eight contractions of the first layer with their weight pieces, read at an index.

  Each is a product of the matrix unit into the zero splat: the operand (the spread tensor, or one of its means) is
  flattened to two axes, multiplied with a [48, 64] weight piece, and the result is given its position axes back.  At
  the exact values the product at a row and an output channel is the sum over the input channels of the products of
  the entries, and the flattening reads the same entries in the same order; on real data it is the real contraction.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx
import proofs.«145029_j5059471475016_2_alg».proof.Proof.KIValConv1Means

namespace Cert.KernelIdeal.Val
open Idealize.ShloMosaic Idealize.ShloMosaic.ValueIdx Cert.KernelIdeal.Gen Cert.ConvIdx

/-- An order-3 operand with 48 channels times a weight piece. -/
theorem pay25_apply (v22 : FVec Ideal S32x32x32x48 .bf16) (v23 : FVec Ideal S48x64 .bf16) (h : Cert.Spec.Act3 48)
    (w : Fin 48 → Fin 64 → ℝ) (hv : ∀ i j k c, v22 (ix4 i j k c) = ((h i j k c : ℝ) : EReal))
    (hw : ∀ c d, v23 (ix2 c d) = ((w c d : ℝ) : EReal)) (i j k : Fin 32) (d : Fin 64) :
    k0_pay25 (F := Ideal) v22 v23 (ix4 i j k d) = ((∑ c, h i j k c * w c d : ℝ) : EReal) := by
  unfold k0_pay25
  refine (unflat4 _ _ i j k d (row3 i j k) rfl).trans ?_
  refine (Cert.BlockMatmul.matmul_zero_plain_apply _ none _ _ (row3 i j k) d).trans ?_
  rw [← Cert.IdealReal.sum_coe_mul_coe]
  exact Finset.sum_congr rfl fun c _ =>
    congrArg₂ (· * ·) ((flat4 _ _ i j k c (row3 i j k) rfl).trans (hv i j k c)) (hw c d)

/-- An order-2 operand (a mean along one position axis) with 48 channels times a weight piece. -/
theorem prod3 (M : FVec Ideal S32x32x48 .f32) (B : FVec Ideal S48x64 .bf16) (m : Fin 32 → Fin 32 → Fin 48 → ℝ)
    (w : Fin 48 → Fin 64 → ℝ) (hM : ∀ p q c, M (ix3 p q c) = ((m p q c : ℝ) : EReal))
    (hB : ∀ c d, B (ix2 c d) = ((w c d : ℝ) : EReal)) (p q : Fin 32) (d : Fin 64) :
    shapeCast S32x32x64 (matmul (F := Ideal) dot_S1024x48_S48x64_S1024x64_1_0_0_1_n_n none
        (truncf .bf16 (shapeCast S1024x48 M shapeCasts_S32x32x48_S1024x48) bitsLt_bf16_f32 : FVec Ideal S1024x48 .bf16) B
        (constant S1024x64 .f32 0x00000000#32)) shapeCasts_S1024x64_S32x32x64 (ix3 p q d)
      = ((∑ c, m p q c * w c d : ℝ) : EReal) := by
  refine (unflat3 _ _ p q d (row2 p q) rfl).trans ?_
  refine (Cert.BlockMatmul.matmul_zero_plain_apply _ none _ _ (row2 p q) d).trans ?_
  rw [← Cert.IdealReal.sum_coe_mul_coe]
  exact Finset.sum_congr rfl fun c _ =>
    congrArg₂ (· * ·) ((flat3 M _ p q c (row2 p q) rfl).trans (hM p q c)) (hB c d)

/-- An order-1 operand (a mean along two position axes) with 48 channels times a weight piece. -/
theorem prod2 (M : FVec Ideal S32x48 .f32) (B : FVec Ideal S48x64 .bf16) (m : Fin 32 → Fin 48 → ℝ)
    (w : Fin 48 → Fin 64 → ℝ) (hM : ∀ p c, M (ix2 p c) = ((m p c : ℝ) : EReal))
    (hB : ∀ c d, B (ix2 c d) = ((w c d : ℝ) : EReal)) (p : Fin 32) (d : Fin 64) :
    matmul (F := Ideal) dot_S32x48_S48x64_S32x64_1_0_0_1_n_n none
        (truncf .bf16 M bitsLt_bf16_f32 : FVec Ideal S32x48 .bf16) B (constant S32x64 .f32 0x00000000#32) (ix2 p d)
      = ((∑ c, m p c * w c d : ℝ) : EReal) := by
  refine (Cert.BlockMatmul.matmul_zero_plain_apply _ none _ _ p d).trans ?_
  rw [← Cert.IdealReal.sum_coe_mul_coe]
  exact Finset.sum_congr rfl fun c _ => congrArg₂ (· * ·) (hM p c) (hB c d)

section
variable (B : FVec Ideal S48x64 .bf16) (w : Fin 48 → Fin 64 → ℝ) (hB : ∀ c d, B (ix2 c d) = ((w c d : ℝ) : EReal))
include hB

/-- The mean along the first position axis times its weight piece. -/
theorem pay26_apply (v37 : FVec Ideal S32x32x48 .f32) (m : Fin 32 → Fin 32 → Fin 48 → ℝ)
    (hM : ∀ p q c, v37 (ix3 p q c) = ((m p q c : ℝ) : EReal)) (p q : Fin 32) (d : Fin 64) :
    k0_pay26 (F := Ideal) B v37 (ix3 p q d) = ((∑ c, m p q c * w c d : ℝ) : EReal) :=
  prod3 v37 B m w hM hB p q d

/-- The sum along the second position axis divided by 32, times its weight piece. -/
theorem pay27_apply (v39 v40 : FVec Ideal S32x32x48 .f32) (s : Fin 32 → Fin 32 → Fin 48 → ℝ)
    (h39 : ∀ p q c, v39 (ix3 p q c) = ((s p q c : ℝ) : EReal)) (h40 : ∀ p q c, v40 (ix3 p q c) = ((32 : ℝ) : EReal))
    (p q : Fin 32) (d : Fin 64) :
    k0_pay27 (F := Ideal) B v39 v40 (ix3 p q d) = ((∑ c, (s p q c / 32) * w c d : ℝ) : EReal) :=
  prod3 (divf v39 v40) B (fun p q c => s p q c / 32) w
    (fun p q c => div_coe_32 (s p q c) _ _ (h39 p q c) (h40 p q c)) hB p q d

variable (v22 : FVec Ideal S32x32x32x48 .bf16) (h : Cert.Spec.Act3 48)
  (hv : ∀ i j k c, v22 (ix4 i j k c) = ((h i j k c : ℝ) : EReal))
include hv

/-- The mean along the third position axis times its weight piece. -/
theorem pay28_apply (p q : Fin 32) (d : Fin 64) :
    k0_pay28 (F := Ideal) v22 B (ix3 p q d) = ((∑ c, ((∑ a, h p q a c) / 32) * w c d : ℝ) : EReal) :=
  prod3 (k0_pay23 v22) B (fun p q c => (∑ a, h p q a c) / 32) w (pay23_apply v22 h hv) hB p q d

/-- The mean along the second and third position axes times its weight piece. -/
theorem pay29_apply (p : Fin 32) (d : Fin 64) :
    k0_pay29 (F := Ideal) v22 B (ix2 p d) = ((∑ c, ((∑ a, (∑ a', h p a a' c) / 32) / 32) * w c d : ℝ) : EReal) :=
  prod2 (k0_pay24 v22) B (fun p c => (∑ a, (∑ a', h p a a' c) / 32) / 32) w (pay24_apply v22 h hv) hB p d

/-- The mean along the first and third position axes times its weight piece. -/
theorem pay30_apply (q : Fin 32) (d : Fin 64) :
    k0_pay30 (F := Ideal) v22 B (ix2 q d) = ((∑ c, ((∑ a, (∑ a', h a q a' c) / 32) / 32) * w c d : ℝ) : EReal) := by
  unfold k0_pay30
  refine prod2 _ B (fun q c => (∑ a, (∑ a', h a q a' c) / 32) / 32) w (fun q c => ?_) hB q d
  exact div_sum_coe _ (fun a => (∑ a', h a q a' c) / 32) (fun a => pay23_apply v22 h hv a q c) _ (red3_0 _ _ _ _ _ q c)

/-- The mean along all three position axes times its weight piece. -/
theorem pay32_apply (d : Fin 64) :
    k0_pay32 (F := Ideal) v22 B (ix1 d)
      = ((∑ c, ((∑ a, (∑ a', (∑ a'', h a a' a'' c) / 32) / 32) / 32) * w c d : ℝ) : EReal) := by
  unfold k0_pay32
  refine (shapeCast_1a_a_apply _ _ d).trans ?_
  refine (Cert.BlockMatmul.matmul_zero_plain_apply _ none _ _ (0 : Fin 1) d).trans ?_
  rw [← Cert.IdealReal.sum_coe_mul_coe]
  refine Finset.sum_congr rfl fun c _ => congrArg₂ (· * ·) ?_ (hB c d)
  refine (truncf_apply (s := S1x48) (φ := .f32) (ψ := .bf16) _ bitsLt_bf16_f32 (ix2 (0 : Fin 1) c)).trans ?_
  refine (shapeCast_a_1a_apply _ _ (0 : Fin 1) c).trans ?_
  exact div_sum_coe _ (fun a => (∑ a', (∑ a'', h a a' a'' c) / 32) / 32) (fun a => pay24_apply v22 h hv a c) _
    (red2_0 _ _ _ _ _ c)
end

/-- The mean along the first and second position axes (the mean along the second of the mean along the first) times
    its weight piece. -/
theorem pay31_apply (B : FVec Ideal S48x64 .bf16) (w : Fin 48 → Fin 64 → ℝ) (hB : ∀ c d, B (ix2 c d) = ((w c d : ℝ) : EReal))
    (v37 : FVec Ideal S32x32x48 .f32) (m : Fin 32 → Fin 32 → Fin 48 → ℝ)
    (hM : ∀ p q c, v37 (ix3 p q c) = ((m p q c : ℝ) : EReal)) (r : Fin 32) (d : Fin 64) :
    k0_pay31 (F := Ideal) B v37 (ix2 r d) = ((∑ c, ((∑ a, m a r c) / 32) * w c d : ℝ) : EReal) := by
  unfold k0_pay31
  refine prod2 _ B (fun r c => (∑ a, m a r c) / 32) w (fun r c => ?_) hB r d
  exact div_sum_coe _ (fun a => m a r c) (fun a => hM a r c) _ (red3_0 _ _ _ _ _ r c)

end Cert.KernelIdeal.Val
-- ==== Proof.KIValConv1Sum.lean ====
/-
  The first layer's output block as the sum of its eleven terms, its channel sums, and the stored forms.

  The eight contractions are added in order, each broadcast back along the position axes it was averaged over, then
  the three node products (taken here, each a product into the zero splat) broadcast along the two axes they do not
  depend on.  The channel sums of the block and of its squares are three nested one-axis sums, added to the running
  rows.  The stored block is the block with a leading unit axis; the rows stored at the first grid point are zero.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx

namespace Cert.KernelIdeal.Val
open Idealize.ShloMosaic Idealize.ShloMosaic.ValueIdx Cert.KernelIdeal.Gen Cert.ConvIdx

/-- The output block at an index: the eleven terms, each read where its broadcast reads it. -/
theorem pay33_apply (v8 : FVec Ideal S32x8 .bf16) (v31 v32 v33 : FVec Ideal S8x64 .bf16) (v60 : FVec Ideal S32x32x32x64 .f32)
    (v64 v68 v72 : FVec Ideal S32x32x64 .f32) (v74 v76 v78 : FVec Ideal S32x64 .f32) (v82 : FVec Ideal S64 .f32)
    (i j k : Fin 32) (d : Fin 64) :
    k0_pay33 (F := Ideal) v8 v31 v32 v33 v60 v64 v68 v72 v74 v76 v78 v82 (ix4 i j k d)
      = v60 (ix4 i j k d) + v64 (ix3 j k d) + v68 (ix3 i k d) + v72 (ix3 i j d) + v74 (ix2 i d) + v76 (ix2 j d)
        + v78 (ix2 k d) + v82 (ix1 d) + (∑ c, v8 (ix2 i c) * v31 (ix2 c d)) + (∑ c, v8 (ix2 j c) * v32 (ix2 c d))
        + (∑ c, v8 (ix2 k c) * v33 (ix2 c d)) := by
  unfold k0_pay33
  simp only [addf_apply]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_) ?_
  · exact (bcast_1abc _ _ i j k d).trans (shapeCast_abc_1abc_apply _ _ 0 j k d)
  · exact (bcast_a1bc _ _ i j k d).trans (cast_abc_a1bc _ _ i 0 k d)
  · exact (bcast_ab1c _ _ i j k d).trans (cast_abc_ab1c _ _ i j 0 d)
  · exact (bcast_a11c _ _ i j k d).trans (cast_ac_a11c _ _ i 0 0 d)
  · exact (bcast_1a1c _ _ i j k d).trans (cast_ac_1a1c _ _ 0 j 0 d)
  · exact (bcast_11ac _ _ i j k d).trans (cast_ac_11ac _ _ 0 0 k d)
  · exact (bcast_111c _ _ i j k d).trans (cast_c_111c _ _ 0 0 0 d)
  · exact (bcast_a11c _ _ i j k d).trans ((cast_ac_a11c _ _ i 0 0 d).trans (Cert.BlockMatmul.matmul_zero_plain_apply _ none v8 v31 i d))
  · exact (bcast_1a1c _ _ i j k d).trans ((cast_ac_1a1c _ _ 0 j 0 d).trans (Cert.BlockMatmul.matmul_zero_plain_apply _ none v8 v32 j d))
  · exact (bcast_11ac _ _ i j k d).trans ((cast_ac_11ac _ _ 0 0 k d).trans (Cert.BlockMatmul.matmul_zero_plain_apply _ none v8 v33 k d))

/-- The sum of a real block over its three position axes, taken one axis at a time. -/
theorem total3 (Y : FVec Ideal S32x32x32x64 .f32) (y : Fin 32 → Fin 32 → Fin 32 → Fin 64 → ℝ)
    (hY : ∀ i j k d, Y (ix4 i j k d) = ((y i j k d : ℝ) : EReal)) (d : Fin 64) :
    multiReduction (F := Ideal) .add [0] S64
      (multiReduction (F := Ideal) .add [1] S32x64
        (multiReduction (F := Ideal) .add [2] S32x32x64 Y 0x00000000#32 reduces_S32x32x32x64_S32x32x64 (.inl rfl) rfl)
        0x00000000#32 reduces_S32x32x64_S32x64 (.inl rfl) rfl)
      0x00000000#32 reduces_S32x64_S64 (.inl rfl) rfl (ix1 d)
      = ((∑ i, ∑ j, ∑ k, y i j k d : ℝ) : EReal) := by
  refine (red2_0 _ _ _ _ _ d).trans ?_
  rw [Cert.IdealReal.coe_sum_univ]
  refine Finset.sum_congr rfl fun i _ => ?_
  refine (red3_1 _ _ _ _ _ i d).trans ?_
  rw [Cert.IdealReal.coe_sum_univ]
  refine Finset.sum_congr rfl fun j _ => ?_
  refine (red4_2 _ _ _ _ _ i j d).trans ?_
  rw [Cert.IdealReal.coe_sum_univ]
  exact Finset.sum_congr rfl fun k _ => hY i j k d

section
variable (v8 : FVec Ideal S32x8 .bf16) (v31 v32 v33 : FVec Ideal S8x64 .bf16) (v60 : FVec Ideal S32x32x32x64 .f32)
    (v64 v68 v72 : FVec Ideal S32x32x64 .f32) (v74 v76 v78 : FVec Ideal S32x64 .f32) (v82 : FVec Ideal S64 .f32)
  (y : Fin 32 → Fin 32 → Fin 32 → Fin 64 → ℝ)
  (hY : ∀ i j k d, k0_pay33 (F := Ideal) v8 v31 v32 v33 v60 v64 v68 v72 v74 v76 v78 v82 (ix4 i j k d) = ((y i j k d : ℝ) : EReal))
include hY

/-- The running row of channel sums after this block. -/
theorem pay35_apply (v123 : Vec Ideal S1x64 .f32) (acc : Fin 64 → ℝ)
    (hacc : ∀ d, v123 (ix2 (0 : Fin 1) d) = ((acc d : ℝ) : EReal)) (d : Fin 64) :
    k0_pay35 (F := Ideal) v8 v31 v32 v33 v60 v64 v68 v72 v74 v76 v78 v82 v123 (ix2 (0 : Fin 1) d)
      = ((acc d + ∑ i, ∑ j, ∑ k, y i j k d : ℝ) : EReal) := by
  unfold k0_pay35
  rw [shapeCast_self]
  show v123 (ix2 (0 : Fin 1) d) + shapeCast S1x64 _ shapeCasts_S64_S1x64 (ix2 (0 : Fin 1) d) = _
  rw [hacc d, EReal.coe_add]
  refine congrArg (((acc d : ℝ) : EReal) + ·) ((shapeCast_a_1a_apply _ _ 0 d).trans ?_)
  exact total3 _ y hY d

/-- The channel sums of the block's squares. -/
theorem pay34_apply (d : Fin 64) :
    k0_pay34 (F := Ideal) v8 v31 v32 v33 v60 v64 v68 v72 v74 v76 v78 v82 (ix1 d) = ((∑ i, ∑ j, ∑ k, (y i j k d) ^ 2 : ℝ) : EReal) := by
  unfold k0_pay34
  refine total3 _ (fun i j k d => (y i j k d) ^ 2) (fun i j k d => ?_) d
  show k0_pay33 (F := Ideal) v8 v31 v32 v33 v60 v64 v68 v72 v74 v76 v78 v82 (ix4 i j k d) * k0_pay33 (F := Ideal) v8 v31 v32 v33 v60 v64 v68 v72 v74 v76 v78 v82 (ix4 i j k d) = _
  rw [hY i j k d, Cert.IdealReal.coe_mul', sq]
end

/-- The running row of sums of squares after a block whose sums of squares are the real row `q`. -/
theorem pay1_apply (v122 : FVec Ideal S64 .f32) (v129 : Vec Ideal S1x64 .f32) (q acc2 : Fin 64 → ℝ)
    (hq : ∀ d, v122 (ix1 d) = ((q d : ℝ) : EReal)) (hacc : ∀ d, v129 (ix2 (0 : Fin 1) d) = ((acc2 d : ℝ) : EReal)) (d : Fin 64) :
    k0_pay1 (F := Ideal) v122 v129 (ix2 (0 : Fin 1) d) = ((acc2 d + q d : ℝ) : EReal) := by
  unfold k0_pay1
  rw [shapeCast_self]
  show v129 (ix2 (0 : Fin 1) d) + shapeCast S1x64 v122 shapeCasts_S64_S1x64 (ix2 (0 : Fin 1) d) = _
  rw [hacc d, shapeCast_a_1a_apply, hq d, EReal.coe_add]

/-- The stored block is the block with a leading unit axis (the change of float format is the identity). -/
theorem pay2_apply (v115 : FVec Ideal S32x32x32x64 .f32) (i j k : Fin 32) (d : Fin 64) :
    k0_pay2 (F := Ideal) v115 (ix5 (0 : Fin 1) i j k d) = v115 (ix4 i j k d) :=
  cast_abcd_1abcd _ _ 0 i j k d

/-- The rows stored at the first grid point are zero. -/
theorem pay3_apply (j : S1x64.Idx) : k0_pay3 (F := Ideal) j = ((0 : ℝ) : EReal) :=
  (show k0_pay3 (F := Ideal) j = Ideal.ofBits .f32 0x00000000#32 from rfl).trans (Ideal.ofBits_zero_f32.trans EReal.coe_zero.symm)

theorem pay4_apply (j : S1x64.Idx) : k0_pay4 (F := Ideal) j = ((0 : ℝ) : EReal) :=
  (show k0_pay4 (F := Ideal) j = Ideal.ofBits .f32 0x00000000#32 from rfl).trans (Ideal.ofBits_zero_f32.trans EReal.coe_zero.symm)

end Cert.KernelIdeal.Val
-- ==== Proof.KIValConv1.lean ====
/-
  The first layer on one batch element: the value of the kernel body's output block and of its running channel sums.

  The body loads the block of the order-2 tensor, the node features and the two weight matrices.  On real data the
  output block is, index by index, the specification's first layer before normalisation: the eight contractions of
  the spread tensor and of its means with the eight weight pieces, plus the three node terms.  The means over two and
  three axes, taken by the body as means of means, are the specification's single sums divided by 1024 and 32768.
  The running rows of channel sums and of sums of squares grow by the block's sums over its three position axes.
-/
import proofs.«145029_j5059471475016_2_alg».proof.Proof.Gen.KernelIdeal.Skeleton
import proofs.«145029_j5059471475016_2_alg».proof.Proof.Spec
import proofs.«145029_j5059471475016_2_alg».proof.Proof.LibIdealReal
import proofs.«145029_j5059471475016_2_alg».proof.Proof.LibBlockMatmul
import proofs.«145029_j5059471475016_2_alg».proof.Proof.KIValConv1Idx
import proofs.«145029_j5059471475016_2_alg».proof.Proof.KIValConv1Expand
import proofs.«145029_j5059471475016_2_alg».proof.Proof.KIValConv1Weights
import proofs.«145029_j5059471475016_2_alg».proof.Proof.KIValConv1Means
import proofs.«145029_j5059471475016_2_alg».proof.Proof.KIValConv1Prods
import proofs.«145029_j5059471475016_2_alg».proof.Proof.KIValConv1Sum

namespace Cert.KernelIdeal.Val
open Idealize.ShloMosaic Idealize.ShloMosaic.ValueIdx Cert.KernelIdeal.Gen Cert.ConvIdx

section Defs
variable {F : FTy → Type} [FloatOps F]

/-- The output block of the first layer's body as a function of its four loaded blocks. -/
noncomputable def conv1Block (v3 : Vec F S1x32x32x16 .f32) (v6 : Vec F S1x32x8 .f32) (v9 : Vec F S384x64 .f32)
    (v11 : Vec F S24x64 .f32) : FVec F S32x32x32x64 .f32 :=
  k0_pay33 (k0_pay5 v6) (k0_pay17 v11) (k0_pay18 v11) (k0_pay19 v11)
    (k0_pay25 (k0_pay8 v3) (k0_pay9 v9)) (k0_pay26 (k0_pay10 v9) (k0_pay20 v3))
    (k0_pay27 (k0_pay11 v9) (k0_pay21 v3) k0_pay22) (k0_pay28 (k0_pay8 v3) (k0_pay12 v9))
    (k0_pay29 (k0_pay8 v3) (k0_pay13 v9)) (k0_pay30 (k0_pay8 v3) (k0_pay14 v9))
    (k0_pay31 (k0_pay15 v9) (k0_pay20 v3)) (k0_pay32 (k0_pay8 v3) (k0_pay16 v9))

/-- The row of channel sums the body stores, from the loaded blocks and the running row. -/
noncomputable def conv1Sum (v3 : Vec F S1x32x32x16 .f32) (v6 : Vec F S1x32x8 .f32) (v9 : Vec F S384x64 .f32)
    (v11 : Vec F S24x64 .f32) (v123 : Vec F S1x64 .f32) : FVec F S1x64 .f32 :=
  k0_pay35 (k0_pay5 v6) (k0_pay17 v11) (k0_pay18 v11) (k0_pay19 v11)
    (k0_pay25 (k0_pay8 v3) (k0_pay9 v9)) (k0_pay26 (k0_pay10 v9) (k0_pay20 v3))
    (k0_pay27 (k0_pay11 v9) (k0_pay21 v3) k0_pay22) (k0_pay28 (k0_pay8 v3) (k0_pay12 v9))
    (k0_pay29 (k0_pay8 v3) (k0_pay13 v9)) (k0_pay30 (k0_pay8 v3) (k0_pay14 v9))
    (k0_pay31 (k0_pay15 v9) (k0_pay20 v3)) (k0_pay32 (k0_pay8 v3) (k0_pay16 v9)) v123

/-- The row of sums of squares the body stores, from the loaded blocks and the running row. -/
noncomputable def conv1SqSum (v3 : Vec F S1x32x32x16 .f32) (v6 : Vec F S1x32x8 .f32) (v9 : Vec F S384x64 .f32)
    (v11 : Vec F S24x64 .f32) (v129 : Vec F S1x64 .f32) : FVec F S1x64 .f32 :=
  k0_pay1 (k0_pay34 (k0_pay5 v6) (k0_pay17 v11) (k0_pay18 v11) (k0_pay19 v11)
    (k0_pay25 (k0_pay8 v3) (k0_pay9 v9)) (k0_pay26 (k0_pay10 v9) (k0_pay20 v3))
    (k0_pay27 (k0_pay11 v9) (k0_pay21 v3) k0_pay22) (k0_pay28 (k0_pay8 v3) (k0_pay12 v9))
    (k0_pay29 (k0_pay8 v3) (k0_pay13 v9)) (k0_pay30 (k0_pay8 v3) (k0_pay14 v9))
    (k0_pay31 (k0_pay15 v9) (k0_pay20 v3)) (k0_pay32 (k0_pay8 v3) (k0_pay16 v9))) v129

end Defs

open Cert.Spec in
/-- The eleven terms as the body forms them are the specification's first layer: a mean of means is the mean over the
    pairs (triples), and the sum over two axes does not depend on their order. -/
theorem layer_terms (h : Act3 48) (W : Fin 8 → Fin 48 → Fin 64 → ℝ) (xn : Fin 32 → Fin 8 → ℝ)
    (Wn : Fin 3 → Fin 8 → Fin 64 → ℝ) (i j k : Fin 32) (d : Fin 64) :
    (∑ c, h i j k c * W 0 c d) + (∑ c, ((∑ a, h a j k c) / 32) * W 1 c d) + (∑ c, ((∑ a, h i a k c) / 32) * W 2 c d)
      + (∑ c, ((∑ a, h i j a c) / 32) * W 3 c d)
      + (∑ c, ((∑ a, (∑ a', h i a a' c) / 32) / 32) * W 4 c d)
      + (∑ c, ((∑ a, (∑ a', h a j a' c) / 32) / 32) * W 5 c d)
      + (∑ c, ((∑ a, (∑ a', h a' a k c) / 32) / 32) * W 6 c d)
      + (∑ c, ((∑ a, (∑ a', (∑ a'', h a a' a'' c) / 32) / 32) / 32) * W 7 c d)
      + (∑ c, xn i c * Wn 0 c d) + (∑ c, xn j c * Wn 1 c d) + (∑ c, xn k c * Wn 2 c d)
      = conv3 h W i j k d + node xn Wn i j k d := by
  have e4 : ∀ c, (∑ a, (∑ a', h i a a' c) / 32) / 32 = (∑ a, ∑ a', h i a a' c) / 1024 :=
    fun c => mean_mean (fun a a' => h i a a' c)
  have e5 : ∀ c, (∑ a, (∑ a', h a j a' c) / 32) / 32 = (∑ a, ∑ a', h a j a' c) / 1024 :=
    fun c => mean_mean (fun a a' => h a j a' c)
  have e6 : ∀ c, (∑ a, (∑ a', h a' a k c) / 32) / 32 = (∑ a, ∑ a', h a a' k c) / 1024 :=
    fun c => (mean_mean (fun a a' => h a' a k c)).trans (by rw [Finset.sum_comm])
  have e7 : ∀ c, (∑ a, (∑ a', (∑ a'', h a a' a'' c) / 32) / 32) / 32 = (∑ a, ∑ a', ∑ a'', h a a' a'' c) / 32768 :=
    fun c => mean_mean_mean (fun a a' a'' => h a a' a'' c)
  unfold conv3 node
  simp only [e4, e5, e6, e7]
  ring

section
variable (v3 : Vec Ideal S1x32x32x16 .f32) (v6 : Vec Ideal S1x32x8 .f32) (v9 : Vec Ideal S384x64 .f32)
  (v11 : Vec Ideal S24x64 .f32)
  (x : Fin 32 → Fin 32 → Fin 16 → ℝ) (xn : Fin 32 → Fin 8 → ℝ) (W : Fin 8 → Fin 48 → Fin 64 → ℝ)
  (Wn : Fin 3 → Fin 8 → Fin 64 → ℝ)
  (hx : ∀ i j c, v3 (ix4 (0 : Fin 1) i j c) = ((x i j c : ℝ) : EReal))
  (hxn : ∀ i c, v6 (ix3 (0 : Fin 1) i c) = ((xn i c : ℝ) : EReal))
  (hW : ∀ (t : Fin 8) (c : Fin 48) (d : Fin 64), v9 (ix2 (⟨t.val * 48 + c.val, by omega⟩ : Fin 384) d) = ((W t c d : ℝ) : EReal))
  (hWn : ∀ (t : Fin 3) (c : Fin 8) (d : Fin 64), v11 (ix2 (⟨t.val * 8 + c.val, by omega⟩ : Fin 24) d) = ((Wn t c d : ℝ) : EReal))
include hx hxn hW hWn

/-- (i) The output block on real data is the specification's first layer before normalisation. -/
theorem conv1Block_apply (i j k : Fin 32) (d : Fin 64) :
    conv1Block (F := Ideal) v3 v6 v9 v11 (ix4 i j k d)
      = ((Cert.Spec.conv3 (Cert.Spec.expand x) W i j k d + Cert.Spec.node xn Wn i j k d : ℝ) : EReal) := by
  have h8 := pay8_apply v3 x hx
  have h20 := pay20_apply v3 (Cert.Spec.expand x) h8
  have t0 := pay25_apply (k0_pay8 v3) (k0_pay9 v9) (Cert.Spec.expand x) (W 0) h8 (pay9_apply v9 W hW) i j k d
  have t1 := pay26_apply (k0_pay10 v9) (W 1) (pay10_apply v9 W hW) (k0_pay20 v3) _ h20 j k d
  have t2 := pay27_apply (k0_pay11 v9) (W 2) (pay11_apply v9 W hW) (k0_pay21 v3) k0_pay22 _
    (pay21_apply v3 (Cert.Spec.expand x) h8) pay22_apply i k d
  have t3 := pay28_apply (k0_pay12 v9) (W 3) (pay12_apply v9 W hW) (k0_pay8 v3) (Cert.Spec.expand x) h8 i j d
  have t4 := pay29_apply (k0_pay13 v9) (W 4) (pay13_apply v9 W hW) (k0_pay8 v3) (Cert.Spec.expand x) h8 i d
  have t5 := pay30_apply (k0_pay14 v9) (W 5) (pay14_apply v9 W hW) (k0_pay8 v3) (Cert.Spec.expand x) h8 j d
  have t6 := pay31_apply (k0_pay15 v9) (W 6) (pay15_apply v9 W hW) (k0_pay20 v3) _ h20 k d
  have t7 := pay32_apply (k0_pay16 v9) (W 7) (pay16_apply v9 W hW) (k0_pay8 v3) (Cert.Spec.expand x) h8 d
  have n0 : (∑ c, k0_pay5 (F := Ideal) v6 (ix2 i c) * k0_pay17 (F := Ideal) v11 (ix2 c d)) = ((∑ c, xn i c * Wn 0 c d : ℝ) : EReal) :=
    (Finset.sum_congr rfl fun c _ => congrArg₂ (· * ·) (pay5_apply v6 xn hxn i c) (pay17_apply v11 Wn hWn c d)).trans
      (Cert.IdealReal.sum_coe_mul_coe _ _)
  have n1 : (∑ c, k0_pay5 (F := Ideal) v6 (ix2 j c) * k0_pay18 (F := Ideal) v11 (ix2 c d)) = ((∑ c, xn j c * Wn 1 c d : ℝ) : EReal) :=
    (Finset.sum_congr rfl fun c _ => congrArg₂ (· * ·) (pay5_apply v6 xn hxn j c) (pay18_apply v11 Wn hWn c d)).trans
      (Cert.IdealReal.sum_coe_mul_coe _ _)
  have n2 : (∑ c, k0_pay5 (F := Ideal) v6 (ix2 k c) * k0_pay19 (F := Ideal) v11 (ix2 c d)) = ((∑ c, xn k c * Wn 2 c d : ℝ) : EReal) :=
    (Finset.sum_congr rfl fun c _ => congrArg₂ (· * ·) (pay5_apply v6 xn hxn k c) (pay19_apply v11 Wn hWn c d)).trans
      (Cert.IdealReal.sum_coe_mul_coe _ _)
  unfold conv1Block
  refine (pay33_apply _ _ _ _ _ _ _ _ _ _ _ _ i j k d).trans ?_
  rw [t0, t1, t2, t3, t4, t5, t6, t7, n0, n1, n2]
  simp only [← EReal.coe_add]
  exact congrArg _ (layer_terms (Cert.Spec.expand x) W xn Wn i j k d)

/-- (ii) The stored block, with its leading unit axis, likewise. -/
theorem conv1Block_stored (i j k : Fin 32) (d : Fin 64) :
    k0_pay2 (F := Ideal) (conv1Block v3 v6 v9 v11) (ix5 (0 : Fin 1) i j k d)
      = ((Cert.Spec.conv3 (Cert.Spec.expand x) W i j k d + Cert.Spec.node xn Wn i j k d : ℝ) : EReal) :=
  (pay2_apply _ i j k d).trans (conv1Block_apply v3 v6 v9 v11 x xn W Wn hx hxn hW hWn i j k d)

/-- (iii) The row of channel sums grows by the block's sum over its positions. -/
theorem conv1Sum_apply (v123 : Vec Ideal S1x64 .f32) (acc : Fin 64 → ℝ)
    (hacc : ∀ d, v123 (ix2 (0 : Fin 1) d) = ((acc d : ℝ) : EReal)) (d : Fin 64) :
    conv1Sum (F := Ideal) v3 v6 v9 v11 v123 (ix2 (0 : Fin 1) d)
      = ((acc d + ∑ i, ∑ j, ∑ k, (Cert.Spec.conv3 (Cert.Spec.expand x) W i j k d + Cert.Spec.node xn Wn i j k d) : ℝ) : EReal) :=
  pay35_apply _ _ _ _ _ _ _ _ _ _ _ _ _ (conv1Block_apply v3 v6 v9 v11 x xn W Wn hx hxn hW hWn) v123 acc hacc d

/-- (iii) The row of sums of squares grows by the block's sum of squares over its positions. -/
theorem conv1SqSum_apply (v129 : Vec Ideal S1x64 .f32) (acc2 : Fin 64 → ℝ)
    (hacc : ∀ d, v129 (ix2 (0 : Fin 1) d) = ((acc2 d : ℝ) : EReal)) (d : Fin 64) :
    conv1SqSum (F := Ideal) v3 v6 v9 v11 v129 (ix2 (0 : Fin 1) d)
      = ((acc2 d + ∑ i, ∑ j, ∑ k, (Cert.Spec.conv3 (Cert.Spec.expand x) W i j k d + Cert.Spec.node xn Wn i j k d) ^ 2 : ℝ) : EReal) :=
  pay1_apply _ v129 _ acc2
    (pay34_apply _ _ _ _ _ _ _ _ _ _ _ _ _ (conv1Block_apply v3 v6 v9 v11 x xn W Wn hx hxn hW hWn)) hacc d

end

end Cert.KernelIdeal.Val
-- ==== Proof.KIStage0.lean ====
/- REGION 0, THE VALUES: on real data the first convolution's output array is the specification's first layer before
   normalisation, and the two statistics arrays are its per-channel sum and sum of squares over the whole batch. The
   output block of batch element `b` is the body's function of that element's feature blocks and of the weights, which
   on real data is the layer at `b`; the accumulators after the point of batch element `n` hold the sums over the batch
   elements up to `n` (zero, then one block's sum added per point), so after the sixteenth point the sums over all. -/
import proofs.«145029_j5059471475016_2_alg».proof.Proof.KIArr0
import proofs.«145029_j5059471475016_2_alg».proof.Proof.KIValConv1
import proofs.«145029_j5059471475016_2_alg».proof.Proof.SpecBn

set_option maxRecDepth 16384

noncomputable section

namespace Cert.KernelIdeal.Val

open Idealize.ShloMosaic Idealize.ShloMosaic.TcCoe Idealize.SL.Sem Idealize.ShloMosaic.ValueIdx
open Cert.KernelIdeal.Gen Cert.KernelIdeal.Hand
open Idealize.ShloMosaic.Pipeline (Dat)
open BigOperators

/-! ## The frame's named terms are the body's functions of the blocks -/

section Unwrap
variable {F : FTy → Type} [FloatOps F]

theorem hz0_2 : (![0, 0] : Fin 2 → Nat) = fun _ => 0 := funext fun a => by fin_cases a <;> rfl
theorem hz0_3 : (![0, 0, 0] : Fin 3 → Nat) = fun _ => 0 := funext fun a => by fin_cases a <;> rfl
theorem hz0_4 : (![0, 0, 0, 0] : Fin 4 → Nat) = fun _ => 0 := funext fun a => by fin_cases a <;> rfl
theorem hz0_5 : (![0, 0, 0, 0, 0] : Fin 5 → Nat) = fun _ => 0 := funext fun a => by fin_cases a <;> rfl

variable (x0 : Vec F S1x32x32x16 .f32) (x1 : Vec F S1x32x8 .f32) (x2 : Vec F S384x64 .f32) (x3 : Vec F S24x64 .f32)

/-- A store through the whole buffer leaves its payload, and a load through the whole buffer reads the contents: the
    big output's buffer holds the rounded block of the four blocks. -/
theorem out0_4_unwrap : out0_4 x0 x1 x2 x3 = k0_pay2 (conv1Block x0 x1 x2 x3) := by
  unfold out0_4 conv0 conv1Block
  rw [View.canon_unit_zero hz0_5]
  simp only [View.ld_unit_zero (S := S1x32x32x16) hz0_4, View.ld_unit_zero (S := S1x32x8) hz0_3,
    View.ld_unit_zero (S := S384x64) hz0_2, View.ld_unit_zero (S := S24x64) hz0_2]

/-- The sum accumulator after the body is the body's row of channel sums. -/
theorem sum0_unwrap (p : Vec F S1x64 .f32) : sum0 x0 x1 x2 x3 p = conv1Sum x0 x1 x2 x3 p := by
  unfold sum0 conv1Sum
  rw [View.canon_unit_zero hz0_2]
  simp only [View.ld_unit_zero (S := S1x32x32x16) hz0_4, View.ld_unit_zero (S := S1x32x8) hz0_3,
    View.ld_unit_zero (S := S384x64) hz0_2, View.ld_unit_zero (S := S24x64) hz0_2]

/-- The sum-of-squares accumulator after the body is the body's row of sums of squares. -/
theorem sumsq0_unwrap (p : Vec F S1x64 .f32) : sumsq0 x0 x1 x2 x3 p = conv1SqSum x0 x1 x2 x3 p := by
  unfold sumsq0 convSq0 conv1SqSum
  rw [View.canon_unit_zero hz0_2]
  simp only [View.ld_unit_zero (S := S1x32x32x16) hz0_4, View.ld_unit_zero (S := S1x32x8) hz0_3,
    View.ld_unit_zero (S := S384x64) hz0_2, View.ld_unit_zero (S := S24x64) hz0_2]

/-- A load of an accumulator through the whole buffer reads it. -/
theorem ld_rS0 (X : Vec F S1x64 .f32) : View.ld X rS0 = X := View.ld_unit_zero hz0_2 _ X

end Unwrap

/-! ## The sums over the batch elements so far -/

/-- The sum over the positions of batch element `b` of channel `d` (zero past the batch). -/
def blockSum (y : Cert.Spec.Batch3) (b : ℕ) (d : Fin 64) : ℝ :=
  if h : b < 16 then ∑ i, ∑ j, ∑ k, y ⟨b, h⟩ i j k d else 0

/-- The sum of squares over the positions of batch element `b` of channel `d` (zero past the batch). -/
def blockSqSum (y : Cert.Spec.Batch3) (b : ℕ) (d : Fin 64) : ℝ :=
  if h : b < 16 then ∑ i, ∑ j, ∑ k, (y ⟨b, h⟩ i j k d) ^ 2 else 0

theorem sum_blockSum (y : Cert.Spec.Batch3) (d : Fin 64) :
    ∑ b ∈ Finset.range 16, blockSum y b d = Cert.Spec.sum4 y d := by
  rw [Finset.sum_range]
  unfold Cert.Spec.sum4
  exact Finset.sum_congr rfl fun b _ => dif_pos b.isLt

theorem sum_blockSqSum (y : Cert.Spec.Batch3) (d : Fin 64) :
    ∑ b ∈ Finset.range 16, blockSqSum y b d = Cert.Spec.sumsq4 y d := by
  rw [Finset.sum_range]
  unfold Cert.Spec.sumsq4
  refine Finset.sum_congr rfl fun b _ => (dif_pos b.isLt).trans ?_
  simp only [sq]

/-! ## On real data -/

section Stage

variable (V : (c : Dev nD) → (b : Ref sig .tc) → Buf (Elt Ideal) ((c : Thread nD τ).loc b)) (c : Dev nD)
  (x : Fin 16 → Fin 32 → Fin 32 → Fin 16 → ℝ) (xn : Fin 16 → Fin 32 → Fin 8 → ℝ)
  (W1 : Fin 8 → Fin 48 → Fin 64 → ℝ) (Wn1 : Fin 3 → Fin 8 → Fin 64 → ℝ)
  (hx : ∀ b i j k, (V c (Pipeline.arrRef spec0 0)) (ix4 b i j k) = ((x b i j k : ℝ) : EReal))
  (hxn : ∀ b i k, (V c (Pipeline.arrRef spec0 1)) (ix3 b i k) = ((xn b i k : ℝ) : EReal))
  (hW1 : ∀ (t : Fin 8) (c' : Fin 48) (d : Fin 64), (V c (Pipeline.arrRef spec0 2)) (ix2 (⟨t.val * 48 + c'.val, by omega⟩ : Fin 384) d) = ((W1 t c' d : ℝ) : EReal))
  (hWn1 : ∀ (t : Fin 3) (c' : Fin 8) (d : Fin 64), (V c (Pipeline.arrRef spec0 3)) (ix2 (⟨t.val * 8 + c'.val, by omega⟩ : Fin 24) d) = ((Wn1 t c' d : ℝ) : EReal))
include hx hxn hW1 hWn1

/-- The sum accumulator after the point of batch element `n` holds the sums over the batch elements up to `n`. -/
theorem accS0_val : ∀ (n : ℕ) (hn : n < cfg0.N) (d : Fin 64),
    accS0 V c n hn (ix2 (0 : Fin 1) d) = ((∑ b ∈ Finset.range (n + 1), blockSum (Cert.Spec.layer1 x xn W1 Wn1) b d : ℝ) : EReal) := by
  intro n
  induction n with
  | zero =>
    intro hn d
    have h16 : (0 : ℕ) < 16 := by decide
    rw [accS0_zero, iblk0_0_at, iblk0_1_at, iblk0_2_at, iblk0_3_at, sum0_unwrap]
    refine (conv1Sum_apply _ _ _ _ (x ⟨0, h16⟩) (xn ⟨0, h16⟩) W1 Wn1 (fun i j c' => hx _ i j c') (fun i c' => hxn _ i c') hW1 hWn1
      _ (fun _ => 0) (fun d' => pay3_apply _) d).trans ?_
    congr 1
    rw [Finset.sum_range_succ, Finset.sum_range_zero]
    show (0 : ℝ) + _ = 0 + _
    congr 1
    all_goals (unfold blockSum; rw [dif_pos h16]; rfl)
  | succ n ih =>
    intro hn d
    have h16 : n + 1 < 16 := lt_of_lt_of_eq hn (show cfg0.N = 16 from N_0)
    rw [accS0_succ, ld_rS0, iblk0_0_at, iblk0_1_at, iblk0_2_at, iblk0_3_at, sum0_unwrap]
    refine (conv1Sum_apply _ _ _ _ (x ⟨n + 1, h16⟩) (xn ⟨n + 1, h16⟩) W1 Wn1 (fun i j c' => hx _ i j c') (fun i c' => hxn _ i c') hW1 hWn1
      _ (fun d' => ∑ b ∈ Finset.range (n + 1), blockSum (Cert.Spec.layer1 x xn W1 Wn1) b d') (fun d' => ih _ d') d).trans ?_
    congr 1
    rw [Finset.sum_range_succ _ (n + 1)]
    congr 1
    unfold blockSum
    rw [dif_pos h16]
    rfl

/-- The sum-of-squares accumulator likewise. -/
theorem accQ0_val : ∀ (n : ℕ) (hn : n < cfg0.N) (d : Fin 64),
    accQ0 V c n hn (ix2 (0 : Fin 1) d) = ((∑ b ∈ Finset.range (n + 1), blockSqSum (Cert.Spec.layer1 x xn W1 Wn1) b d : ℝ) : EReal) := by
  intro n
  induction n with
  | zero =>
    intro hn d
    have h16 : (0 : ℕ) < 16 := by decide
    rw [accQ0_zero, iblk0_0_at, iblk0_1_at, iblk0_2_at, iblk0_3_at, sumsq0_unwrap]
    refine (conv1SqSum_apply _ _ _ _ (x ⟨0, h16⟩) (xn ⟨0, h16⟩) W1 Wn1 (fun i j c' => hx _ i j c') (fun i c' => hxn _ i c') hW1 hWn1
      _ (fun _ => 0) (fun d' => pay4_apply _) d).trans ?_
    congr 1
    rw [Finset.sum_range_succ, Finset.sum_range_zero]
    show (0 : ℝ) + _ = 0 + _
    congr 1
    all_goals (unfold blockSqSum; rw [dif_pos h16]; rfl)
  | succ n ih =>
    intro hn d
    have h16 : n + 1 < 16 := lt_of_lt_of_eq hn (show cfg0.N = 16 from N_0)
    rw [accQ0_succ, ld_rS0, iblk0_0_at, iblk0_1_at, iblk0_2_at, iblk0_3_at, sumsq0_unwrap]
    refine (conv1SqSum_apply _ _ _ _ (x ⟨n + 1, h16⟩) (xn ⟨n + 1, h16⟩) W1 Wn1 (fun i j c' => hx _ i j c') (fun i c' => hxn _ i c') hW1 hWn1
      _ (fun d' => ∑ b ∈ Finset.range (n + 1), blockSqSum (Cert.Spec.layer1 x xn W1 Wn1) b d') (fun d' => ih _ d') d).trans ?_
    congr 1
    rw [Finset.sum_range_succ _ (n + 1)]
    congr 1
    unfold blockSqSum
    rw [dif_pos h16]
    rfl

/-- REGION 0 ON REAL DATA: the convolution's output array is the first layer before normalisation; the two statistics
    arrays are its per-channel sum and sum of squares over the whole batch. -/
theorem stage0 :
    (∀ b i j k d, ((Cert.KernelIdeal.Hand.dat0 V c).arrAt 4 cfg0.N) (ix5 b i j k d) = ((Cert.Spec.layer1 x xn W1 Wn1 b i j k d : ℝ) : EReal))
    ∧ (∀ d, ((Cert.KernelIdeal.Hand.dat0 V c).arrAt 5 cfg0.N) (ix2 (0 : Fin 1) d) = ((Cert.Spec.sum4 (Cert.Spec.layer1 x xn W1 Wn1) d : ℝ) : EReal))
    ∧ (∀ d, ((Cert.KernelIdeal.Hand.dat0 V c).arrAt 6 cfg0.N) (ix2 (0 : Fin 1) d) = ((Cert.Spec.sumsq4 (Cert.Spec.layer1 x xn W1 Wn1) d : ℝ) : EReal)) := by
  refine ⟨fun b i j k d => ?_, fun d => ?_, fun d => ?_⟩
  · refine (arr0_out V c b i j k d).trans ?_
    rw [out0_4_unwrap]
    exact conv1Block_stored _ _ _ _ (x b) (xn b) W1 Wn1 (fun i j c' => hx b i j c') (fun i c' => hxn b i c') hW1 hWn1 i j k d
  · rw [arr0_sum V c]
    refine (accS0_val V c x xn W1 Wn1 hx hxn hW1 hWn1 15 _ d).trans ?_
    rw [sum_blockSum]
  · rw [arr0_sumsq V c]
    refine (accQ0_val V c x xn W1 Wn1 hx hxn hW1 hWn1 15 _ d).trans ?_
    rw [sum_blockSqSum]

end Stage

end Cert.KernelIdeal.Val

end
-- ==== Proof.KIArr4.lean ====
/- REGION 4, FROM BLOCKS TO THE ARRAY: what the last convolution's output array holds after the region, as ONE function
   of the region's entry arrays, index by index. The grid has 16 points, one per batch element: point `t` reads batch
   element `t` of the activations (window 0's block index is `(t, 0, 0, 0, 0)` with block extents `[1,32,32,32,64]`), the
   whole weight matrix (window 1's block index is `(0, 0)`), and writes back batch element `t` of the output (window 2's
   block index is `(t, 0, 0)` with block extents `[1,32,64]`). A block's coordinate in its array is always
   index × extent + 1 × the coordinate inside the block. So row `b` of the output array is the body's function `out4_2` of
   row `b` of the activations and of the weights; the sixteen written-back blocks tile the output array; the input arrays
   end as the region found them. -/
import proofs.«145029_j5059471475016_2_alg».proof.Proof.KIReg4
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- Batch element `b` of a `[16,32,32,32,64]` array, as a `[1,32,32,32,64]` block. -/
def rowBlk5 (A : S16x32x32x32x64.Idx → Elt F .bf16) (b : Fin 16) : Vec F S1x32x32x32x64 .bf16 :=
  fun y => A (ix5 b (y 1) (y 2) (y 3) (y 4))

/-- The output array as one function of the activations array `A0` and the weights `A1`: at `(b, i, d)` the body's
    output block of batch element `b`, read at `(0, i, d)`. -/
def G4 (A0 : S16x32x32x32x64.Idx → Elt F .bf16) (A1 : S256x64.Idx → Elt F .f32) : S16x32x64.Idx → Elt F .f32 :=
  fun k => out4_2 (rowBlk5 A0 (k 0)) A1 (ix3 (0 : Fin 1) (k 1) (k 2))

variable (V : (c : Dev nD) → (b : Ref sig .tc) → Buf (Elt F) ((c : Thread nD τ).loc b))

/-- The printed index maps, decided once over the sixteen points: the activations' block moves with the output's along
    the batch axis and sits at 0 on every other; the weights' block is the whole matrix; the output's block at point
    `t` is batch element `t`. -/
theorem idx_facts4 : ∀ t : Fin cfg4.N,
    win4_0.index t (0 : Fin 5) = win4_2.index t (0 : Fin 3)
    ∧ win4_0.index t (1 : Fin 5) = 0 ∧ win4_0.index t (2 : Fin 5) = 0 ∧ win4_0.index t (3 : Fin 5) = 0 ∧ win4_0.index t (4 : Fin 5) = 0
    ∧ win4_1.index t (0 : Fin 2) = 0 ∧ win4_1.index t (1 : Fin 2) = 0
    ∧ win4_2.index t (0 : Fin 3) = t.val ∧ win4_2.index t (1 : Fin 3) = 0 ∧ win4_2.index t (2 : Fin 3) = 0 :=
  (by decide +kernel : ∀ t : Fin grid4.N, _)

/-- Every batch element is SOME point's output block. -/
theorem idx_onto4 : ∀ q0 : Fin 16, ∃ t : Fin cfg4.N, win4_2.index t = ![q0.val, 0, 0] :=
  (by decide +kernel : ∀ q0 : Fin 16, ∃ t : Fin grid4.N, win4_2.index t = ![q0.val, 0, 0])

/-- The activations' block at point `t` is batch element `b` of the activations array, for the `b` the output's block
    sits at: the two windows' batch indices agree, and every other block index of the activations is 0. -/
theorem iblk4_0_eq (c : Dev nD) (t : Fin cfg4.N) (b : Fin 16) (hb : b.val = win4_2.index t (0 : Fin 3)) :
    iblk4 V c 0 t = rowBlk5 (V c main_v23) b := by
  obtain ⟨e0, e1, e2, e3, e4, -⟩ := idx_facts4 t
  funext y
  unfold iblk4 rowBlk5
  rw [View.read_apply]
  show V c main_v23 _ = V c main_v23 _
  congr 1
  funext a
  apply Fin.ext
  match a with
  | ⟨0, _⟩ => show win4_0.index t (0 : Fin 5) * 1 + 1 * (y 0).val = b.val; have hy : (y 0).val < 1 := (y 0).isLt; omega
  | ⟨1, _⟩ => show win4_0.index t (1 : Fin 5) * 32 + 1 * (y 1).val = (y 1).val; omega
  | ⟨2, _⟩ => show win4_0.index t (2 : Fin 5) * 32 + 1 * (y 2).val = (y 2).val; omega
  | ⟨3, _⟩ => show win4_0.index t (3 : Fin 5) * 32 + 1 * (y 3).val = (y 3).val; omega
  | ⟨4, _⟩ => show win4_0.index t (4 : Fin 5) * 64 + 1 * (y 4).val = (y 4).val; omega

/-- The weights' block at every point is the whole weight matrix. -/
theorem iblk4_1_eq (c : Dev nD) (t : Fin cfg4.N) : iblk4 V c 1 t = V c main_arg9 := by
  obtain ⟨-, -, -, -, -, e5, e6, -⟩ := idx_facts4 t
  funext y
  unfold iblk4
  rw [View.read_apply]
  show V c main_arg9 _ = V c main_arg9 _
  congr 1
  funext a
  apply Fin.ext
  match a with
  | ⟨0, _⟩ => show win4_1.index t (0 : Fin 2) * 256 + 1 * (y 0).val = (y 0).val; omega
  | ⟨1, _⟩ => show win4_1.index t (1 : Fin 2) * 64 + 1 * (y 1).val = (y 1).val; omega

/-- WHAT POINT `t` WRITES BACK is block `t` of `G4` of the two input arrays as the region finds them: the body's output
    block is `out4_2` of the two input blocks; the activations' block is the batch element the output's block sits at,
    the weights' block is the matrix, and the index inside the output block is the array's index with batch coordinate 0. -/
theorem flushed4_eq (c : Dev nD) (t : Fin cfg4.N) :
    (dat4 V c).flushed 2 t = ((cfg4.win 2).blk t).view.read (Elt F) (G4 (V c main_v23) (V c main_arg9)) := by
  show (cfg4.win 2).cut (grid4.coords t) ((dat4 V c).after 2 t) = _
  rw [after4_2]
  obtain ⟨-, -, -, -, -, -, -, e7, e8, e9⟩ := idx_facts4 t
  funext j
  rw [View.read_apply]
  unfold G4
  have hb : ((((cfg4.win 2).blk t).view.emb j) 0).val = win4_2.index t (0 : Fin 3) := by
    show win4_2.index t (0 : Fin 3) * 1 + 1 * (j 0).val = _
    have hj : (j 0).val < 1 := (j 0).isLt
    omega
  rw [iblk4_0_eq V c t _ hb, iblk4_1_eq V c t]
  show out4_2 _ _ j = out4_2 _ _ _
  congr 1
  funext a
  apply Fin.ext
  match a with
  | ⟨0, _⟩ => show (j 0).val = 0; have hj : (j 0).val < 1 := (j 0).isLt; omega
  | ⟨1, _⟩ => show (j 1).val = win4_2.index t (1 : Fin 3) * 32 + 1 * (j 1).val; omega
  | ⟨2, _⟩ => show (j 2).val = win4_2.index t (2 : Fin 3) * 64 + 1 * (j 2).val; omega

/-- An index of the output array is in point `t`'s block iff each coordinate is in the block's range on its axis. -/
theorem mem_blk4 (t : Fin cfg4.N) (i : S16x32x64.Idx) :
    i ∈ ((cfg4.win 2).blk t).view.set ↔ ∀ a : Fin 3, win4_2.index t a * S1x32x64.size a ≤ (i a).val ∧ (i a).val < win4_2.index t a * S1x32x64.size a + S1x32x64.size a := by
  show i ∈ ((View.whole main_v24).slice (win4_2.rect t)).set ↔ _
  rw [View.set_slice_whole, Rect.mem_set_unit]
  exact Iff.rfl

/-- The sixteen written-back blocks tile the output array: index `(b, i, d)` is in the block of the point whose batch
    index is `b`. -/
theorem covered4 (i : S16x32x64.Idx) : ∃ t : Fin cfg4.N, (cfg4.win 2).flush t = true ∧ i ∈ ((cfg4.win 2).blk t).view.set := by
  have hi0 : (i 0).val < 16 := (i 0).isLt
  have hi1 : (i 1).val < 32 := (i 1).isLt
  have hi2 : (i 2).val < 64 := (i 2).isLt
  obtain ⟨t, ht⟩ := idx_onto4 ⟨(i 0).val, hi0⟩
  have q0 : win4_2.index t (0 : Fin 3) = (i 0).val := congrFun ht 0
  have q1 : win4_2.index t (1 : Fin 3) = 0 := congrFun ht 1
  have q2 : win4_2.index t (2 : Fin 3) = 0 := congrFun ht 2
  refine ⟨t, flush4_2 t, ?_⟩
  rw [mem_blk4]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 32 ≤ (i 1).val ∧ (i 1).val < win4_2.index t (1 : Fin 3) * 32 + 32; omega
  | ⟨2, _⟩ => show win4_2.index t (2 : Fin 3) * 64 ≤ (i 2).val ∧ (i 2).val < win4_2.index t (2 : Fin 3) * 64 + 64; omega

/-- THE OUTPUT ARRAY after the region: `G4` of the two input arrays as the region found them. -/
theorem final4 (c : Dev nD) : (dat4 V c).arrAt 2 cfg4.N = G4 (V c main_v23) (V c main_arg9) :=
  (dat4 V c).arrAt_eq_of_cover 2 (G4 (V c main_v23) (V c main_arg9)) (fun t _ => flushed4_eq V c t) covered4

/-- The same, index by index: row `b` of the output is the body's function of row `b` of the activations and of the
    weights. -/
theorem arr4_out (c : Dev nD) (b : Fin 16) (i : Fin 32) (d : Fin 64) :
    ((dat4 V c).arrAt 2 cfg4.N : S16x32x64.Idx → Elt F .f32) (ix3 b i d)
      = out4_2 (rowBlk5 (V c (Pipeline.arrRef spec4 0)) b) (V c (Pipeline.arrRef spec4 1)) (ix3 (0 : Fin 1) i d) := by
  rw [final4]; rfl

/-- The input arrays end as the region found them. -/
theorem arr4_in0 (c : Dev nD) : (dat4 V c).arrAt 0 cfg4.N = V c (Pipeline.arrRef spec4 0) :=
  ((dat4 V c).arrAt_in 0 rfl _).trans (A_eq4 V c 0)
theorem arr4_in1 (c : Dev nD) : (dat4 V c).arrAt 1 cfg4.N = V c (Pipeline.arrRef spec4 1) :=
  ((dat4 V c).arrAt_in 1 rfl _).trans (A_eq4 V c 1)

end Cert.KernelIdeal.Hand

end
-- ==== Proof.KIArr1.lean ====
/- REGION 1, FROM BLOCKS TO THE ARRAY: what the first normalisation's output array holds after the region, as ONE
   function of the region's entry arrays, index by index. The grid has 16 points, one per batch element: point `t` reads
   batch element `t` of the activations (window 0's block index is `(t, 0, 0, 0, 0)` with block extents
   `[1,32,32,32,64]`) and the four per-channel rows — scale, shift, mean, variance — whole (windows 1 to 4, block index
   `(0, 0)`), and writes back batch element `t` of the output (window 5, block index `(t, 0, 0, 0, 0)`). A block's
   coordinate in its array is always index × extent + 1 × the coordinate inside the block. So batch element `b` of the
   output array is the body's function `out1_5` of batch element `b` of the activations and of the four rows; the
   sixteen written-back blocks tile the output array; the input arrays end as the region found them. -/
import proofs.«145029_j5059471475016_2_alg».proof.Proof.KIReg1
import proofs.«145029_j5059471475016_2_alg».proof.Proof.KIArr4
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The output array as one function of the activations array `A0` and the four rows: at `(b, i, j, k, d)` the body's
    output block of batch element `b`, read at `(0, i, j, k, d)`. -/
def G1 (A0 : S16x32x32x32x64.Idx → Elt F .bf16) (A1 A2 A3 A4 : S1x64.Idx → Elt F .f32) : S16x32x32x32x64.Idx → Elt F .bf16 :=
  fun q => out1_5 (rowBlk5 A0 (q 0)) A1 A2 A3 A4 (ix5 (0 : Fin 1) (q 1) (q 2) (q 3) (q 4))

variable (V : (c : Dev nD) → (b : Ref sig .tc) → Buf (Elt F) ((c : Thread nD τ).loc b))

/-- The printed index maps, decided once over the sixteen points: the activations' block moves with the output's along
    the batch axis and sits at 0 on every other; each row's block is the whole row; the output's block at point `t` is
    batch element `t`. -/
theorem idx_facts1 : ∀ t : Fin cfg1.N,
    win1_0.index t (0 : Fin 5) = win1_5.index t (0 : Fin 5)
    ∧ win1_0.index t (1 : Fin 5) = 0 ∧ win1_0.index t (2 : Fin 5) = 0 ∧ win1_0.index t (3 : Fin 5) = 0 ∧ win1_0.index t (4 : Fin 5) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 5) = t.val
    ∧ win1_5.index t (1 : Fin 5) = 0 ∧ win1_5.index t (2 : Fin 5) = 0 ∧ win1_5.index t (3 : Fin 5) = 0 ∧ win1_5.index t (4 : Fin 5) = 0 :=
  (by decide +kernel : ∀ t : Fin grid1.N, _)

/-- Every batch element is SOME point's output block. -/
theorem idx_onto1 : ∀ q0 : Fin 16, ∃ t : Fin cfg1.N, win1_5.index t = ![q0.val, 0, 0, 0, 0] :=
  (by decide +kernel : ∀ q0 : Fin 16, ∃ t : Fin grid1.N, win1_5.index t = ![q0.val, 0, 0, 0, 0])

/-- The activations' block at point `t` is batch element `b` of the activations array, for the `b` the output's block
    sits at: the two windows' batch indices agree, and every other block index of the activations is 0. -/
theorem iblk1_0_eq (c : Dev nD) (t : Fin cfg1.N) (b : Fin 16) (hb : b.val = win1_5.index t (0 : Fin 5)) :
    iblk1 V c 0 t = rowBlk5 (V c main_v0_0) b := by
  obtain ⟨e0, e1, e2, e3, e4, -⟩ := idx_facts1 t
  funext y
  unfold iblk1 rowBlk5
  rw [View.read_apply]
  show V c main_v0_0 _ = V c main_v0_0 _
  congr 1
  funext a
  apply Fin.ext
  match a with
  | ⟨0, _⟩ => show win1_0.index t (0 : Fin 5) * 1 + 1 * (y 0).val = b.val; have hy : (y 0).val < 1 := (y 0).isLt; omega
  | ⟨1, _⟩ => show win1_0.index t (1 : Fin 5) * 32 + 1 * (y 1).val = (y 1).val; omega
  | ⟨2, _⟩ => show win1_0.index t (2 : Fin 5) * 32 + 1 * (y 2).val = (y 2).val; omega
  | ⟨3, _⟩ => show win1_0.index t (3 : Fin 5) * 32 + 1 * (y 3).val = (y 3).val; omega
  | ⟨4, _⟩ => show win1_0.index t (4 : Fin 5) * 64 + 1 * (y 4).val = (y 4).val; omega

/-- Each row's block at every point is the whole row. -/
theorem iblk1_1_eq (c : Dev nD) (t : Fin cfg1.N) : iblk1 V c 1 t = V c main_v9 := by
  obtain ⟨-, -, -, -, -, e0, e1, -⟩ := idx_facts1 t
  funext y
  unfold iblk1
  rw [View.read_apply]
  show V c main_v9 _ = V c main_v9 _
  congr 1
  funext a
  apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega
theorem iblk1_2_eq (c : Dev nD) (t : Fin cfg1.N) : iblk1 V c 2 t = V c main_v10 := by
  obtain ⟨-, -, -, -, -, -, -, e0, e1, -⟩ := idx_facts1 t
  funext y
  unfold iblk1
  rw [View.read_apply]
  show V c main_v10 _ = V c main_v10 _
  congr 1
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega
theorem iblk1_3_eq (c : Dev nD) (t : Fin cfg1.N) : iblk1 V c 3 t = V c main_v2 := by
  obtain ⟨-, -, -, -, -, -, -, -, -, e0, e1, -⟩ := idx_facts1 t
  funext y
  unfold iblk1
  rw [View.read_apply]
  show V c main_v2 _ = V c main_v2 _
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega
theorem iblk1_4_eq (c : Dev nD) (t : Fin cfg1.N) : iblk1 V c 4 t = V c main_v8 := by
  obtain ⟨-, -, -, -, -, -, -, -, -, -, -, e0, e1, -⟩ := idx_facts1 t
  funext y
  unfold iblk1
  rw [View.read_apply]
  show V c main_v8 _ = V c main_v8 _
  congr 1
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Reading point `t`'s block of an array given batch element by batch element (`f b` is batch element `b`, as a block)
    gives the batch element the block sits at: the block's coordinate on the batch axis is its index there (extent 1),
    and on every other axis the coordinate inside the block (index 0). -/
theorem read_blk1_rows (f : Fin 16 → S1x32x32x32x64.Idx → Elt F .bf16) (t : Fin cfg1.N) (b : Fin 16)
    (hb : b.val = win1_5.index t (0 : Fin 5)) (e1 : win1_5.index t (1 : Fin 5) = 0) (e2 : win1_5.index t (2 : Fin 5) = 0)
    (e3 : win1_5.index t (3 : Fin 5) = 0) (e4 : win1_5.index t (4 : Fin 5) = 0) :
    ((cfg1.win 5).blk t).view.read (Elt F) (fun q : S16x32x32x32x64.Idx => f (q 0) (ix5 (0 : Fin 1) (q 1) (q 2) (q 3) (q 4)))
      = (cfg1.win 5).cut (grid1.coords t) (f b) := by
  funext j
  rw [View.read_apply]
  show f _ _ = f _ _
  have hb' : (((cfg1.win 5).blk t).view.emb j) 0 = b := by
    apply Fin.ext
    show win1_5.index t (0 : Fin 5) * 1 + 1 * (j 0).val = b.val
    have hj : (j 0).val < 1 := (j 0).isLt
    omega
  rw [hb']
  congr 1
  funext a
  apply Fin.ext
  match a with
  | ⟨0, _⟩ => show 0 = (j 0).val; have hj : (j 0).val < 1 := (j 0).isLt; omega
  | ⟨1, _⟩ => show win1_5.index t (1 : Fin 5) * 32 + 1 * (j 1).val = (j 1).val; omega
  | ⟨2, _⟩ => show win1_5.index t (2 : Fin 5) * 32 + 1 * (j 2).val = (j 2).val; omega
  | ⟨3, _⟩ => show win1_5.index t (3 : Fin 5) * 32 + 1 * (j 3).val = (j 3).val; omega
  | ⟨4, _⟩ => show win1_5.index t (4 : Fin 5) * 64 + 1 * (j 4).val = (j 4).val; omega

/-- WHAT POINT `t` WRITES BACK is block `t` of `G1` of the five input arrays as the region finds them: the body's output
    block is `out1_5` of the five input blocks; the activations' block is batch element `t`, where the output's block
    sits, and each row's block is the row. -/
theorem flushed1_eq (c : Dev nD) (t : Fin cfg1.N) :
    (dat1 V c).flushed 5 t = ((cfg1.win 5).blk t).view.read (Elt F) (G1 (V c main_v0_0) (V c main_v9) (V c main_v10) (V c main_v2) (V c main_v8)) := by
  show (cfg1.win 5).cut (grid1.coords t) ((dat1 V c).after 5 t) = _
  rw [after1_5]
  obtain ⟨-, -, -, -, -, -, -, -, -, -, -, -, -, e0, e1, e2, e3, e4⟩ := idx_facts1 t
  have hN : t.val < 16 := lt_of_lt_of_eq t.isLt N_1
  rw [iblk1_0_eq V c t ⟨t.val, hN⟩ e0.symm, iblk1_1_eq V c t, iblk1_2_eq V c t, iblk1_3_eq V c t, iblk1_4_eq V c t]
  unfold G1
  exact (read_blk1_rows (fun b => out1_5 (rowBlk5 (V c main_v0_0) b) (V c main_v9) (V c main_v10) (V c main_v2) (V c main_v8))
    t ⟨t.val, hN⟩ e0.symm e1 e2 e3 e4).symm

/-- An index of the output array is in point `t`'s block iff each coordinate is in the block's range on its axis. -/
theorem mem_blk1 (t : Fin cfg1.N) (i : S16x32x32x32x64.Idx) :
    i ∈ ((cfg1.win 5).blk t).view.set ↔ ∀ a : Fin 5, win1_5.index t a * S1x32x32x32x64.size a ≤ (i a).val ∧ (i a).val < win1_5.index t a * S1x32x32x32x64.size a + S1x32x32x32x64.size a := by
  show i ∈ ((View.whole main_v11).slice (win1_5.rect t)).set ↔ _
  rw [View.set_slice_whole, Rect.mem_set_unit]
  exact Iff.rfl

/-- The sixteen written-back blocks tile the output array: index `(b, i, j, k, d)` is in the block of the point whose
    batch index is `b`. -/
theorem covered1 (i : S16x32x32x32x64.Idx) : ∃ t : Fin cfg1.N, (cfg1.win 5).flush t = true ∧ i ∈ ((cfg1.win 5).blk t).view.set := by
  have hi0 : (i 0).val < 16 := (i 0).isLt
  have hi1 : (i 1).val < 32 := (i 1).isLt
  have hi2 : (i 2).val < 32 := (i 2).isLt
  have hi3 : (i 3).val < 32 := (i 3).isLt
  have hi4 : (i 4).val < 64 := (i 4).isLt
  obtain ⟨t, ht⟩ := idx_onto1 ⟨(i 0).val, hi0⟩
  have q0 : win1_5.index t (0 : Fin 5) = (i 0).val := congrFun ht 0
  have q1 : win1_5.index t (1 : Fin 5) = 0 := congrFun ht 1
  have q2 : win1_5.index t (2 : Fin 5) = 0 := congrFun ht 2
  have q3 : win1_5.index t (3 : Fin 5) = 0 := congrFun ht 3
  have q4 : win1_5.index t (4 : Fin 5) = 0 := congrFun ht 4
  refine ⟨t, flush1_5 t, ?_⟩
  rw [mem_blk1]
  intro a
  match a with
  | ⟨0, _⟩ => show win1_5.index t (0 : Fin 5) * 1 ≤ (i 0).val ∧ (i 0).val < win1_5.index t (0 : Fin 5) * 1 + 1; omega
  | ⟨1, _⟩ => show win1_5.index t (1 : Fin 5) * 32 ≤ (i 1).val ∧ (i 1).val < win1_5.index t (1 : Fin 5) * 32 + 32; omega
  | ⟨2, _⟩ => show win1_5.index t (2 : Fin 5) * 32 ≤ (i 2).val ∧ (i 2).val < win1_5.index t (2 : Fin 5) * 32 + 32; omega
  | ⟨3, _⟩ => show win1_5.index t (3 : Fin 5) * 32 ≤ (i 3).val ∧ (i 3).val < win1_5.index t (3 : Fin 5) * 32 + 32; omega
  | ⟨4, _⟩ => show win1_5.index t (4 : Fin 5) * 64 ≤ (i 4).val ∧ (i 4).val < win1_5.index t (4 : Fin 5) * 64 + 64; omega

/-- THE OUTPUT ARRAY after the region: `G1` of the five input arrays as the region found them. -/
theorem final1 (c : Dev nD) : (dat1 V c).arrAt 5 cfg1.N = G1 (V c main_v0_0) (V c main_v9) (V c main_v10) (V c main_v2) (V c main_v8) :=
  (dat1 V c).arrAt_eq_of_cover 5 (G1 (V c main_v0_0) (V c main_v9) (V c main_v10) (V c main_v2) (V c main_v8)) (fun t _ => flushed1_eq V c t) covered1

/-- The same, index by index: batch element `b` of the output is the body's function of batch element `b` of the
    activations and of the four rows. -/
theorem arr1_out (c : Dev nD) (b : Fin 16) (i j k : Fin 32) (d : Fin 64) :
    ((dat1 V c).arrAt 5 cfg1.N : S16x32x32x32x64.Idx → Elt F .bf16) (ix5 b i j k d)
      = out1_5 (rowBlk5 (V c (Pipeline.arrRef spec1 0)) b) (V c (Pipeline.arrRef spec1 1)) (V c (Pipeline.arrRef spec1 2))
          (V c (Pipeline.arrRef spec1 3)) (V c (Pipeline.arrRef spec1 4)) (ix5 (0 : Fin 1) i j k d) := by
  rw [final1]; rfl

/-- The input arrays end as the region found them. -/
theorem arr1_in0 (c : Dev nD) : (dat1 V c).arrAt 0 cfg1.N = V c (Pipeline.arrRef spec1 0) :=
  ((dat1 V c).arrAt_in 0 rfl _).trans (A_eq1 V c 0)
theorem arr1_in1 (c : Dev nD) : (dat1 V c).arrAt 1 cfg1.N = V c (Pipeline.arrRef spec1 1) :=
  ((dat1 V c).arrAt_in 1 rfl _).trans (A_eq1 V c 1)
theorem arr1_in2 (c : Dev nD) : (dat1 V c).arrAt 2 cfg1.N = V c (Pipeline.arrRef spec1 2) :=
  ((dat1 V c).arrAt_in 2 rfl _).trans (A_eq1 V c 2)
theorem arr1_in3 (c : Dev nD) : (dat1 V c).arrAt 3 cfg1.N = V c (Pipeline.arrRef spec1 3) :=
  ((dat1 V c).arrAt_in 3 rfl _).trans (A_eq1 V c 3)
theorem arr1_in4 (c : Dev nD) : (dat1 V c).arrAt 4 cfg1.N = V c (Pipeline.arrRef spec1 4) :=
  ((dat1 V c).arrAt_in 4 rfl _).trans (A_eq1 V c 4)

end Cert.KernelIdeal.Hand

end
-- ==== Proof.KIValBn.lean ====
/-
  What the normalisation kernel stores, read at one entry.

  The kernel of regions 1 and 3 takes a block x (one batch element, 32·32·32 positions, 64 channels) and four rows of
  64 channel values: gain g, offset β, mean μ, variance v.  Per channel it forms the scale s = rsqrt(v + eps)·g and the
  shift β − μ·s once, and stores max(x·s + shift, 0).  When the block and the rows hold real numbers and the variance is
  not negative, v + eps is a positive real, its reciprocal square root is the real 1/√(v + eps), and every operation
  stays in the reals: the stored entry at position (i, j, k), channel d is the real number
  max(x i j k d · (1/√(v d + eps) · g d) + (β d − μ d · (1/√(v d + eps) · g d)), 0).
  The casts between [1, 32, 32, 32, 64] and [32, 32, 32, 64] and from [1, 64] to [1, 1, 1, 64], and the broadcast of a
  [1, 1, 1, 64] row over the positions, only rename indices; the changes of float format are the identity on
  extended reals.
-/
import proofs.«145029_j5059471475016_2_alg».proof.Proof.Gen.KernelIdeal.Skeleton
import proofs.«145029_j5059471475016_2_alg».proof.Proof.SpecBn
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal.Gen Cert.Spec

/-! ## The layout operations of the kernel at an index -/

section Layout
variable {α : Type}

/-- A [1, 32, 32, 32, 64] block cast to [32, 32, 32, 64] reads, at (i, j, k, d), the block at (0, i, j, k, d). -/
theorem cast_block_drop (x : S1x32x32x32x64.Idx → α) (h : S1x32x32x32x64.ShapeCasts S32x32x32x64)
    (i j k : Fin 32) (d : Fin 64) :
    shapeCast S32x32x32x64 x h (ix4 i j k d) = x (ix5 (0 : Fin 1) i j k d) :=
  shapeCast_apply x h _ _ (by
    rw [Shape.rowMajor_val_five, Shape.rowMajor_val_four]
    show (((0 * 32 + i.val) * 32 + j.val) * 32 + k.val) * 64 + d.val = ((i.val * 32 + j.val) * 32 + k.val) * 64 + d.val
    rw [Nat.zero_mul, Nat.zero_add])

/-- A [32, 32, 32, 64] array cast to [1, 32, 32, 32, 64] reads, at (u, i, j, k, d), the array at (i, j, k, d). -/
theorem cast_block_add (x : S32x32x32x64.Idx → α) (h : S32x32x32x64.ShapeCasts S1x32x32x32x64)
    (u : Fin 1) (i j k : Fin 32) (d : Fin 64) :
    shapeCast S1x32x32x32x64 x h (ix5 u i j k d) = x (ix4 i j k d) :=
  shapeCast_apply x h _ _ (by
    have hu : u.val = 0 := by omega
    rw [Shape.rowMajor_val_five, Shape.rowMajor_val_four]
    show ((i.val * 32 + j.val) * 32 + k.val) * 64 + d.val = (((u.val * 32 + i.val) * 32 + j.val) * 32 + k.val) * 64 + d.val
    rw [hu, Nat.zero_mul, Nat.zero_add])

/-- A [1, 64] row cast to [1, 1, 1, 64] reads, at (a, b, c, d), the row at (0, d). -/
theorem cast_row_quad (x : S1x64.Idx → α) (h : S1x64.ShapeCasts S1x1x1x64) (a b c : Fin 1) (d : Fin 64) :
    shapeCast S1x1x1x64 x h (ix4 a b c d) = x (ix2 (0 : Fin 1) d) :=
  shapeCast_apply x h _ _ (by
    have ha : a.val = 0 := by omega
    have hb : b.val = 0 := by omega
    have hc : c.val = 0 := by omega
    rw [Shape.rowMajor_val_two, Shape.rowMajor_val_four]
    show 0 * 64 + d.val = ((a.val * 1 + b.val) * 1 + c.val) * 64 + d.val
    rw [ha, hb, hc])

/-- A [1, 1, 1, 64] row broadcast over the 32·32·32 positions reads, at (i, j, k, d), the row at (0, 0, 0, d). -/
theorem bcast_row_quad (x : S1x1x1x64.Idx → α) (h : S1x1x1x64.Broadcasts S32x32x32x64) (i j k : Fin 32) (d : Fin 64) :
    broadcastTo S32x32x32x64 x h (ix4 i j k d) = x (ix4 (0 : Fin 1) (0 : Fin 1) (0 : Fin 1) d) := by
  refine broadcastTo_apply x h (ix4 i j k d) (ix4 (0 : Fin 1) (0 : Fin 1) (0 : Fin 1) d) fun ax => ?_
  match ax with
  | ⟨0, _⟩ => rfl
  | ⟨1, _⟩ => rfl
  | ⟨2, _⟩ => rfl
  | ⟨3, _⟩ => rfl

end Layout

/-! ## One entry, on real data -/

/-- The reciprocal square root of a positive real. -/
theorem rsqrt_add_coe (v e : ℝ) (hv : 0 ≤ v) (he : 0 < e) :
    Ideal.rsqrt ((v : EReal) + (e : EReal)) = ((1 / Real.sqrt (v + e) : ℝ) : EReal) := by
  have hpos : 0 < v + e := by linarith
  rw [← EReal.coe_add, Ideal.rsqrt_coe, if_neg (not_lt.mpr hpos.le), if_neg hpos.ne', one_div]

/-- The affine map and the rectifier on real data: every operation is the real one. -/
theorem bn_entry_coe (y g β mu v e : ℝ) (hv : 0 ≤ v) (he : 0 < e) :
    max ((y : EReal) * (Ideal.rsqrt ((v : EReal) + (e : EReal)) * (g : EReal))
          + ((β : EReal) - (mu : EReal) * (Ideal.rsqrt ((v : EReal) + (e : EReal)) * (g : EReal)))) (0 : EReal)
      = ((max (y * (1 / Real.sqrt (v + e) * g) + (β - mu * (1 / Real.sqrt (v + e) * g))) 0 : ℝ) : EReal) := by
  rw [rsqrt_add_coe v e hv he, ← EReal.coe_zero]
  simp only [Cert.IdealReal.coe_mul', Cert.IdealReal.coe_add', Cert.IdealReal.coe_sub', Cert.IdealReal.coe_max']

/-- The stored value of region 1's kernel at one entry, when the block and the four rows hold reals and the variance
    row is not negative: the rectified affine image of the entry, as a real. -/
theorem k1_pay1_apply (v0 : Vec Ideal S1x32x32x32x64 .bf16) (v3 v5 v7 v9 : Vec Ideal S1x64 .f32)
    (y : Fin 32 → Fin 32 → Fin 32 → Fin 64 → ℝ) (g β mu var : Fin 64 → ℝ)
    (h0 : ∀ i j k d, v0 (ix5 (0 : Fin 1) i j k d) = ((y i j k d : ℝ) : EReal))
    (h3 : ∀ d, v3 (ix2 (0 : Fin 1) d) = ((g d : ℝ) : EReal))
    (h5 : ∀ d, v5 (ix2 (0 : Fin 1) d) = ((β d : ℝ) : EReal))
    (h7 : ∀ d, v7 (ix2 (0 : Fin 1) d) = ((mu d : ℝ) : EReal))
    (h9 : ∀ d, v9 (ix2 (0 : Fin 1) d) = ((var d : ℝ) : EReal))
    (hvar : ∀ d, 0 ≤ var d) (u : Fin 1) (i j k : Fin 32) (d : Fin 64) :
    k1_pay1 v0 v3 v5 v7 v9 (ix5 u i j k d)
      = ((max (y i j k d * (1 / Real.sqrt (var d + epsR) * g d)
            + (β d - mu d * (1 / Real.sqrt (var d + epsR) * g d))) 0 : ℝ) : EReal) := by
  simp only [Gen.k1_pay1]
  rw [cast_block_add, truncf_apply, maximumf_apply, addf_apply, mulf_apply, extf_apply, cast_block_drop,
    bcast_row_quad, bcast_row_quad, cast_row_quad, cast_row_quad]
  simp only [shapeCast_self]
  show max (v0 (ix5 (0 : Fin 1) i j k d)
        * (Ideal.rsqrt (v9 (ix2 (0 : Fin 1) d) + Ideal.ofBits .f32 0x3727C5AC#32) * v3 (ix2 (0 : Fin 1) d))
      + (v5 (ix2 (0 : Fin 1) d)
          - v7 (ix2 (0 : Fin 1) d) * (Ideal.rsqrt (v9 (ix2 (0 : Fin 1) d) + Ideal.ofBits .f32 0x3727C5AC#32) * v3 (ix2 (0 : Fin 1) d))))
      (Ideal.ofBits .f32 0x00000000#32) = _
  rw [h0, h3, h5, h7, h9, eps_word, Ideal.ofBits_zero_f32]
  exact bn_entry_coe _ _ _ _ _ _ (hvar d) epsR_pos

/-- Region 3's kernel is the same text: the same stored value. -/
theorem k3_pay1_apply (v0 : Vec Ideal S1x32x32x32x64 .bf16) (v3 v5 v7 v9 : Vec Ideal S1x64 .f32)
    (y : Fin 32 → Fin 32 → Fin 32 → Fin 64 → ℝ) (g β mu var : Fin 64 → ℝ)
    (h0 : ∀ i j k d, v0 (ix5 (0 : Fin 1) i j k d) = ((y i j k d : ℝ) : EReal))
    (h3 : ∀ d, v3 (ix2 (0 : Fin 1) d) = ((g d : ℝ) : EReal))
    (h5 : ∀ d, v5 (ix2 (0 : Fin 1) d) = ((β d : ℝ) : EReal))
    (h7 : ∀ d, v7 (ix2 (0 : Fin 1) d) = ((mu d : ℝ) : EReal))
    (h9 : ∀ d, v9 (ix2 (0 : Fin 1) d) = ((var d : ℝ) : EReal))
    (hvar : ∀ d, 0 ≤ var d) (u : Fin 1) (i j k : Fin 32) (d : Fin 64) :
    k3_pay1 v0 v3 v5 v7 v9 (ix5 u i j k d)
      = ((max (y i j k d * (1 / Real.sqrt (var d + epsR) * g d)
            + (β d - mu d * (1 / Real.sqrt (var d + epsR) * g d))) 0 : ℝ) : EReal) :=
  k1_pay1_apply v0 v3 v5 v7 v9 y g β mu var h0 h3 h5 h7 h9 hvar u i j k d

/-- The same, said with the specification's affine form: when the block is batch element b of the real batch Y, the
    stored entry is the affine normalisation of Y at (b, i, j, k, d). -/
theorem k1_pay1_bnreluK (v0 : Vec Ideal S1x32x32x32x64 .bf16) (v3 v5 v7 v9 : Vec Ideal S1x64 .f32)
    (Y : Batch3) (b : Fin 16) (g β mu var : Fin 64 → ℝ)
    (h0 : ∀ i j k d, v0 (ix5 (0 : Fin 1) i j k d) = ((Y b i j k d : ℝ) : EReal))
    (h3 : ∀ d, v3 (ix2 (0 : Fin 1) d) = ((g d : ℝ) : EReal))
    (h5 : ∀ d, v5 (ix2 (0 : Fin 1) d) = ((β d : ℝ) : EReal))
    (h7 : ∀ d, v7 (ix2 (0 : Fin 1) d) = ((mu d : ℝ) : EReal))
    (h9 : ∀ d, v9 (ix2 (0 : Fin 1) d) = ((var d : ℝ) : EReal))
    (hvar : ∀ d, 0 ≤ var d) (u : Fin 1) (i j k : Fin 32) (d : Fin 64) :
    k1_pay1 v0 v3 v5 v7 v9 (ix5 u i j k d) = ((bnreluK Y g β mu var epsR b i j k d : ℝ) : EReal) :=
  k1_pay1_apply v0 v3 v5 v7 v9 (Y b) g β mu var h0 h3 h5 h7 h9 hvar u i j k d

/-- Region 3's kernel likewise. -/
theorem k3_pay1_bnreluK (v0 : Vec Ideal S1x32x32x32x64 .bf16) (v3 v5 v7 v9 : Vec Ideal S1x64 .f32)
    (Y : Batch3) (b : Fin 16) (g β mu var : Fin 64 → ℝ)
    (h0 : ∀ i j k d, v0 (ix5 (0 : Fin 1) i j k d) = ((Y b i j k d : ℝ) : EReal))
    (h3 : ∀ d, v3 (ix2 (0 : Fin 1) d) = ((g d : ℝ) : EReal))
    (h5 : ∀ d, v5 (ix2 (0 : Fin 1) d) = ((β d : ℝ) : EReal))
    (h7 : ∀ d, v7 (ix2 (0 : Fin 1) d) = ((mu d : ℝ) : EReal))
    (h9 : ∀ d, v9 (ix2 (0 : Fin 1) d) = ((var d : ℝ) : EReal))
    (hvar : ∀ d, 0 ≤ var d) (u : Fin 1) (i j k : Fin 32) (d : Fin 64) :
    k3_pay1 v0 v3 v5 v7 v9 (ix5 u i j k d) = ((bnreluK Y g β mu var epsR b i j k d : ℝ) : EReal) :=
  k1_pay1_apply v0 v3 v5 v7 v9 (Y b) g β mu var h0 h3 h5 h7 h9 hvar u i j k d

end Cert.KernelIdeal.Val

end
-- ==== Proof.KIStage1.lean ====
/- REGION 1, THE VALUE: when the activations array the region is entered with holds a real batch `Y` and the four
   per-channel rows hold real scale, shift, mean and (non-negative) variance, the output array after the region holds,
   at (b, i, j, k, d), the shared specification's affine normalisation followed by the clamp at zero. The output array at
   (b, i, j, k, d) is the body's output block of batch element `b` read at (0, i, j, k, d); that block is its one
   whole-buffer store's payload on the five whole-buffer reads; and the payload on a real block is the normalisation. -/
import proofs.«145029_j5059471475016_2_alg».proof.Proof.KIArr1
import proofs.«145029_j5059471475016_2_alg».proof.Proof.KIValBn

set_option maxRecDepth 16384

noncomputable section

namespace Cert.KernelIdeal.Val

open Idealize.ShloMosaic Idealize.ShloMosaic.TcCoe Idealize.ShloMosaic.ValueIdx
open Cert.KernelIdeal.Gen Cert.KernelIdeal.Hand Cert.Spec

/-- The body's output block is its payload of the five input blocks: the one store is of the whole buffer and the five
    reads are of the whole buffers. At any float instance. -/
theorem out1_5_eq {F : FTy → Type} [FloatOps F] (x0 : Vec F S1x32x32x32x64 .bf16) (x1 x2 x3 x4 : Vec F S1x64 .f32) :
    out1_5 x0 x1 x2 x3 x4 = k1_pay1 x0 x1 x2 x3 x4 := by
  have z2 : (![0, 0] : Fin 2 → Nat) = fun _ => 0 := funext fun a => by fin_cases a <;> rfl
  have z5 : (![0, 0, 0, 0, 0] : Fin 5 → Nat) = fun _ => 0 := funext fun a => by fin_cases a <;> rfl
  unfold out1_5
  rw [View.canon_unit_zero z5]
  simp only [View.ld_unit_zero (S := S1x32x32x32x64) z5, View.ld_unit_zero (S := S1x64) z2]

/-- REGION 1's VALUE. -/
theorem stage1 (V : (c : Dev nD) → (b : Ref sig .tc) → Buf (Elt Ideal) ((c : Thread nD τ).loc b)) (c : Dev nD)
    (Y : Batch3) (g β mu var : Fin 64 → ℝ) (hvar : ∀ d, 0 ≤ var d)
    (hY : ∀ b i j k d, (V c (Pipeline.arrRef spec1 0)) (ix5 b i j k d) = ((Y b i j k d : ℝ) : EReal))
    (hg : ∀ d, (V c (Pipeline.arrRef spec1 1)) (ix2 (0 : Fin 1) d) = ((g d : ℝ) : EReal))
    (hβ : ∀ d, (V c (Pipeline.arrRef spec1 2)) (ix2 (0 : Fin 1) d) = ((β d : ℝ) : EReal))
    (hmu : ∀ d, (V c (Pipeline.arrRef spec1 3)) (ix2 (0 : Fin 1) d) = ((mu d : ℝ) : EReal))
    (hv : ∀ d, (V c (Pipeline.arrRef spec1 4)) (ix2 (0 : Fin 1) d) = ((var d : ℝ) : EReal)) :
    ∀ (b : Fin 16) (i j k : Fin 32) (d : Fin 64),
      ((dat1 V c).arrAt 5 cfg1.N) (ix5 b i j k d) = ((bnreluK Y g β mu var epsR b i j k d : ℝ) : EReal) := by
  intro b i j k d
  refine (arr1_out V c b i j k d).trans ?_
  rw [out1_5_eq]
  exact k1_pay1_bnreluK (rowBlk5 (V c (Pipeline.arrRef spec1 0)) b) (V c (Pipeline.arrRef spec1 1))
    (V c (Pipeline.arrRef spec1 2)) (V c (Pipeline.arrRef spec1 3)) (V c (Pipeline.arrRef spec1 4))
    Y b g β mu var (fun i j k d => hY b i j k d) hg hβ hmu hv hvar 0 i j k d

end Cert.KernelIdeal.Val

end
-- ==== Proof.KIArr2.lean ====
/- Region 2, from blocks to the arrays: what the second convolution's three result arrays hold after the region, as
   functions of the region's entry arrays. The grid has 16 points, one per batch element: point `t` reads batch
   element `t` of the activations (window 0's block index is `(t, 0, 0, 0, 0)`, block extents `[1,32,32,32,64]`) and the
   whole weight matrix (window 1's block index is `(0, 0)`), and writes back batch element `t` of the result (window
   2's block index is `(t, 0, 0, 0, 0)`). A block's coordinate in its array is always index × extent + the coordinate
   inside the block. So batch element `b` of the result array is the body's function `out2_2` of batch element `b` of
   the activations and of the weights, and the sixteen written-back blocks tile the result array. The two statistics
   windows (3 and 4) have one block, the whole `[1,64]` array, written back after the last point only: the arrays end
   holding the accumulators through the last point. The input arrays end as the region found them. -/
import proofs.«145029_j5059471475016_2_alg».proof.Proof.KIReg2
import proofs.«145029_j5059471475016_2_alg».proof.Proof.KIArr4
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The result array as one function of the activations array `A0` and the weights `A1`: at `(b, i, j, k, d)` the
    body's result block of batch element `b`, read at `(0, i, j, k, d)`. -/
def G2 (A0 : S16x32x32x32x64.Idx → Elt F .bf16) (A1 : S512x64.Idx → Elt F .f32) : S16x32x32x32x64.Idx → Elt F .bf16 :=
  fun q => out2_2 (rowBlk5 A0 (q 0)) A1 (ix5 (0 : Fin 1) (q 1) (q 2) (q 3) (q 4))

/-- The last of the sixteen points. -/
theorem lt15_2 : 15 < cfg2.N := by rw [show cfg2.N = 16 from N_2]; decide

variable (V : (c : Dev nD) → (b : Ref sig .tc) → Buf (Elt F) ((c : Thread nD τ).loc b))

-- the body's value terms stay closed here: this module is about indices only
attribute [local irreducible] out2_2 accS2 accQ2

/-- The printed index maps, decided once over the sixteen points: the activations' block moves with the result's along
    the batch axis and sits at 0 on every other; the weights' block is the whole matrix; the result's block at point
    `t` is batch element `t`; the statistics' block is the whole array. -/
theorem idx_facts2 : ∀ t : Fin cfg2.N,
    win2_0.index t (0 : Fin 5) = win2_2.index t (0 : Fin 5)
    ∧ win2_0.index t (1 : Fin 5) = 0 ∧ win2_0.index t (2 : Fin 5) = 0 ∧ win2_0.index t (3 : Fin 5) = 0 ∧ win2_0.index t (4 : Fin 5) = 0
    ∧ win2_1.index t (0 : Fin 2) = 0 ∧ win2_1.index t (1 : Fin 2) = 0
    ∧ win2_2.index t (0 : Fin 5) = t.val ∧ win2_2.index t (1 : Fin 5) = 0 ∧ win2_2.index t (2 : Fin 5) = 0 ∧ win2_2.index t (3 : Fin 5) = 0 ∧ win2_2.index t (4 : Fin 5) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every batch element is some point's result block. -/
theorem idx_onto2 : ∀ q0 : Fin 16, ∃ t : Fin cfg2.N, win2_2.index t = ![q0.val, 0, 0, 0, 0] :=
  (by decide +kernel : ∀ q0 : Fin 16, ∃ t : Fin grid2.N, win2_2.index t = ![q0.val, 0, 0, 0, 0])

/-- The activations' block at point `t` is batch element `b` of the activations array, for the `b` the result's block
    sits at. -/
theorem iblk2_0_eq (c : Dev nD) (t : Fin cfg2.N) (b : Fin 16) (hb : b.val = win2_2.index t (0 : Fin 5)) :
    iblk2 V c 0 t = rowBlk5 (V c main_v11) b := by
  obtain ⟨e0, e1, e2, e3, e4, -⟩ := idx_facts2 t
  funext y
  unfold iblk2 rowBlk5
  rw [View.read_apply]
  show V c main_v11 _ = V c main_v11 _
  congr 1
  funext a
  apply Fin.ext
  match a with
  | ⟨0, _⟩ => show win2_0.index t (0 : Fin 5) * 1 + 1 * (y 0).val = b.val; have hy : (y 0).val < 1 := (y 0).isLt; omega
  | ⟨1, _⟩ => show win2_0.index t (1 : Fin 5) * 32 + 1 * (y 1).val = (y 1).val; omega
  | ⟨2, _⟩ => show win2_0.index t (2 : Fin 5) * 32 + 1 * (y 2).val = (y 2).val; omega
  | ⟨3, _⟩ => show win2_0.index t (3 : Fin 5) * 32 + 1 * (y 3).val = (y 3).val; omega
  | ⟨4, _⟩ => show win2_0.index t (4 : Fin 5) * 64 + 1 * (y 4).val = (y 4).val; omega

/-- The same, with the batch element named by the point. -/
theorem iblk2_0_eq_row (c : Dev nD) (t : Fin cfg2.N) :
    iblk2 V c 0 t = rowBlk5 (V c (Pipeline.arrRef spec2 0)) ⟨t.val, lt_of_lt_of_eq t.isLt (show cfg2.N = 16 from N_2)⟩ :=
  iblk2_0_eq V c t _ (by obtain ⟨-, -, -, -, -, -, -, e7, -⟩ := idx_facts2 t; exact e7.symm)

/-- The weights' block at every point is the whole weight matrix. -/
theorem iblk2_1_eq (c : Dev nD) (t : Fin cfg2.N) : iblk2 V c 1 t = V c (Pipeline.arrRef spec2 1) := by
  obtain ⟨-, -, -, -, -, e5, e6, -⟩ := idx_facts2 t
  funext y
  unfold iblk2
  rw [View.read_apply]
  show V c main_arg6 _ = V c main_arg6 _
  congr 1
  funext a
  apply Fin.ext
  match a with
  | ⟨0, _⟩ => show win2_1.index t (0 : Fin 2) * 512 + 1 * (y 0).val = (y 0).val; omega
  | ⟨1, _⟩ => show win2_1.index t (1 : Fin 2) * 64 + 1 * (y 1).val = (y 1).val; omega

/-- What point `t` writes back of the result is block `t` of `G2` of the two input arrays as the region finds them. -/
theorem flushed2_2_eq (c : Dev nD) (t : Fin cfg2.N) :
    (dat2 V c).flushed 2 t = ((cfg2.win 2).blk t).view.read (Elt F) (G2 (V c main_v11) (V c main_arg6)) := by
  show (cfg2.win 2).cut (grid2.coords t) ((dat2 V c).after 2 t) = _
  rw [after2_2]
  unfold out2_2_at
  obtain ⟨-, -, -, -, -, -, -, e7, e8, e9, e10, e11, -⟩ := idx_facts2 t
  funext j
  rw [View.read_apply]
  unfold G2
  have hb : ((((cfg2.win 2).blk t).view.emb j) 0).val = win2_2.index t (0 : Fin 5) := by
    show win2_2.index t (0 : Fin 5) * 1 + 1 * (j 0).val = _
    have hj : (j 0).val < 1 := (j 0).isLt
    omega
  rw [iblk2_0_eq V c t _ hb, iblk2_1_eq V c t]
  show out2_2 _ _ j = out2_2 _ _ _
  congr 1
  funext a
  apply Fin.ext
  match a with
  | ⟨0, _⟩ => show (j 0).val = 0; have hj : (j 0).val < 1 := (j 0).isLt; omega
  | ⟨1, _⟩ => show (j 1).val = win2_2.index t (1 : Fin 5) * 32 + 1 * (j 1).val; omega
  | ⟨2, _⟩ => show (j 2).val = win2_2.index t (2 : Fin 5) * 32 + 1 * (j 2).val; omega
  | ⟨3, _⟩ => show (j 3).val = win2_2.index t (3 : Fin 5) * 32 + 1 * (j 3).val; omega
  | ⟨4, _⟩ => show (j 4).val = win2_2.index t (4 : Fin 5) * 64 + 1 * (j 4).val; omega

/-- An index of the result array is in point `t`'s block iff each coordinate is in the block's range on its axis. -/
theorem mem_blk2_2 (t : Fin cfg2.N) (i : S16x32x32x32x64.Idx) :
    i ∈ ((cfg2.win 2).blk t).view.set ↔ ∀ a : Fin 5, win2_2.index t a * S1x32x32x32x64.size a ≤ (i a).val ∧ (i a).val < win2_2.index t a * S1x32x32x32x64.size a + S1x32x32x32x64.size a := by
  show i ∈ ((View.whole main_v12_0).slice (win2_2.rect t)).set ↔ _
  rw [View.set_slice_whole, Rect.mem_set_unit]
  exact Iff.rfl

/-- The sixteen written-back blocks tile the result array. -/
theorem covered2_2 (i : S16x32x32x32x64.Idx) : ∃ t : Fin cfg2.N, (cfg2.win 2).flush t = true ∧ i ∈ ((cfg2.win 2).blk t).view.set := by
  have hi0 : (i 0).val < 16 := (i 0).isLt
  have hi1 : (i 1).val < 32 := (i 1).isLt
  have hi2 : (i 2).val < 32 := (i 2).isLt
  have hi3 : (i 3).val < 32 := (i 3).isLt
  have hi4 : (i 4).val < 64 := (i 4).isLt
  obtain ⟨t, ht⟩ := idx_onto2 ⟨(i 0).val, hi0⟩
  have q0 : win2_2.index t (0 : Fin 5) = (i 0).val := congrFun ht 0
  have q1 : win2_2.index t (1 : Fin 5) = 0 := congrFun ht 1
  have q2 : win2_2.index t (2 : Fin 5) = 0 := congrFun ht 2
  have q3 : win2_2.index t (3 : Fin 5) = 0 := congrFun ht 3
  have q4 : win2_2.index t (4 : Fin 5) = 0 := congrFun ht 4
  refine ⟨t, flush2_2 t, ?_⟩
  rw [mem_blk2_2]
  intro a
  match a with
  | ⟨0, _⟩ => show win2_2.index t (0 : Fin 5) * 1 ≤ (i 0).val ∧ (i 0).val < win2_2.index t (0 : Fin 5) * 1 + 1; omega
  | ⟨1, _⟩ => show win2_2.index t (1 : Fin 5) * 32 ≤ (i 1).val ∧ (i 1).val < win2_2.index t (1 : Fin 5) * 32 + 32; omega
  | ⟨2, _⟩ => show win2_2.index t (2 : Fin 5) * 32 ≤ (i 2).val ∧ (i 2).val < win2_2.index t (2 : Fin 5) * 32 + 32; omega
  | ⟨3, _⟩ => show win2_2.index t (3 : Fin 5) * 32 ≤ (i 3).val ∧ (i 3).val < win2_2.index t (3 : Fin 5) * 32 + 32; omega
  | ⟨4, _⟩ => show win2_2.index t (4 : Fin 5) * 64 ≤ (i 4).val ∧ (i 4).val < win2_2.index t (4 : Fin 5) * 64 + 64; omega

/-- The result array after the region: `G2` of the two input arrays as the region found them. -/
theorem final2_2 (c : Dev nD) : (dat2 V c).arrAt 2 cfg2.N = G2 (V c main_v11) (V c main_arg6) :=
  (dat2 V c).arrAt_eq_of_cover 2 (G2 (V c main_v11) (V c main_arg6)) (fun t _ => flushed2_2_eq V c t) covered2_2

/-- The same, index by index: batch element `b` of the result is the body's function of batch element `b` of the
    activations and of the weights. -/
theorem arr2_out (c : Dev nD) (b : Fin 16) (i j k : Fin 32) (d : Fin 64) :
    ((dat2 V c).arrAt 2 cfg2.N : S16x32x32x32x64.Idx → Elt F .bf16) (ix5 b i j k d)
      = out2_2 (rowBlk5 (V c (Pipeline.arrRef spec2 0)) b) (V c (Pipeline.arrRef spec2 1)) (ix5 (0 : Fin 1) i j k d) := by
  rw [final2_2]; rfl

/-! ## The two statistics arrays: one block, written back after the last point -/

/-- A point that writes the statistics back is the last one. -/
theorem last_of_flush2_3 (t : Fin cfg2.N) (hf : (cfg2.win 3).flush t = true) : t = ⟨15, lt15_2⟩ := by
  have hN : t.val < 16 := lt_of_lt_of_eq t.isLt (show cfg2.N = 16 from N_2)
  have := (flush2_3 t).mp hf
  exact Fin.ext (by dsimp only at this ⊢; omega)
theorem last_of_flush2_4 (t : Fin cfg2.N) (hf : (cfg2.win 4).flush t = true) : t = ⟨15, lt15_2⟩ := by
  have hN : t.val < 16 := lt_of_lt_of_eq t.isLt (show cfg2.N = 16 from N_2)
  have := (flush2_4 t).mp hf
  exact Fin.ext (by dsimp only at this ⊢; omega)

/-- What the last point writes back of the sum is the accumulator through the last point. -/
theorem flushed2_3_eq (c : Dev nD) (t : Fin cfg2.N) (hf : (cfg2.win 3).flush t = true) :
    (dat2 V c).flushed 3 t = ((cfg2.win 3).blk t).view.read (Elt F) (accS2 V c 15 lt15_2) := by
  obtain rfl := last_of_flush2_3 t hf
  show (cfg2.win 3).cut (grid2.coords _) ((dat2 V c).after 3 _) = _
  rw [after2_3]
  obtain ⟨-, -, -, -, -, -, -, -, -, -, -, -, e12, e13, -⟩ := idx_facts2 ⟨15, lt15_2⟩
  funext j
  rw [View.read_apply]
  show accS2 V c 15 _ j = accS2 V c 15 _ _
  congr 1
  funext a
  apply Fin.ext
  match a with
  | ⟨0, _⟩ => show (j 0).val = win2_3.index ⟨15, lt15_2⟩ (0 : Fin 2) * 1 + 1 * (j 0).val; omega
  | ⟨1, _⟩ => show (j 1).val = win2_3.index ⟨15, lt15_2⟩ (1 : Fin 2) * 64 + 1 * (j 1).val; omega

theorem flushed2_4_eq (c : Dev nD) (t : Fin cfg2.N) (hf : (cfg2.win 4).flush t = true) :
    (dat2 V c).flushed 4 t = ((cfg2.win 4).blk t).view.read (Elt F) (accQ2 V c 15 lt15_2) := by
  obtain rfl := last_of_flush2_4 t hf
  show (cfg2.win 4).cut (grid2.coords _) ((dat2 V c).after 4 _) = _
  rw [after2_4]
  obtain ⟨-, -, -, -, -, -, -, -, -, -, -, -, -, -, e14, e15⟩ := idx_facts2 ⟨15, lt15_2⟩
  funext j
  rw [View.read_apply]
  show accQ2 V c 15 _ j = accQ2 V c 15 _ _
  congr 1
  funext a
  apply Fin.ext
  match a with
  | ⟨0, _⟩ => show (j 0).val = win2_4.index ⟨15, lt15_2⟩ (0 : Fin 2) * 1 + 1 * (j 0).val; omega
  | ⟨1, _⟩ => show (j 1).val = win2_4.index ⟨15, lt15_2⟩ (1 : Fin 2) * 64 + 1 * (j 1).val; omega

/-- The last point's block is the whole statistics array. -/
theorem covered2_3 (i : S1x64.Idx) : ∃ t : Fin cfg2.N, (cfg2.win 3).flush t = true ∧ i ∈ ((cfg2.win 3).blk t).view.set := by
  have hi0 : (i 0).val < 1 := (i 0).isLt
  have hi1 : (i 1).val < 64 := (i 1).isLt
  obtain ⟨-, -, -, -, -, -, -, -, -, -, -, -, e12, e13, -⟩ := idx_facts2 ⟨15, lt15_2⟩
  refine ⟨⟨15, lt15_2⟩, (flush2_3 _).mpr rfl, ?_⟩
  show i ∈ ((View.whole main_v12_1).slice (win2_3.rect ⟨15, lt15_2⟩)).set
  rw [View.set_slice_whole, Rect.mem_set_unit]
  intro a
  match a with
  | ⟨0, _⟩ => show win2_3.index ⟨15, lt15_2⟩ (0 : Fin 2) * 1 ≤ (i 0).val ∧ (i 0).val < win2_3.index ⟨15, lt15_2⟩ (0 : Fin 2) * 1 + 1; omega
  | ⟨1, _⟩ => show win2_3.index ⟨15, lt15_2⟩ (1 : Fin 2) * 64 ≤ (i 1).val ∧ (i 1).val < win2_3.index ⟨15, lt15_2⟩ (1 : Fin 2) * 64 + 64; omega

theorem covered2_4 (i : S1x64.Idx) : ∃ t : Fin cfg2.N, (cfg2.win 4).flush t = true ∧ i ∈ ((cfg2.win 4).blk t).view.set := by
  have hi0 : (i 0).val < 1 := (i 0).isLt
  have hi1 : (i 1).val < 64 := (i 1).isLt
  obtain ⟨-, -, -, -, -, -, -, -, -, -, -, -, -, -, e14, e15⟩ := idx_facts2 ⟨15, lt15_2⟩
  refine ⟨⟨15, lt15_2⟩, (flush2_4 _).mpr rfl, ?_⟩
  show i ∈ ((View.whole main_v12_2).slice (win2_4.rect ⟨15, lt15_2⟩)).set
  rw [View.set_slice_whole, Rect.mem_set_unit]
  intro a
  match a with
  | ⟨0, _⟩ => show win2_4.index ⟨15, lt15_2⟩ (0 : Fin 2) * 1 ≤ (i 0).val ∧ (i 0).val < win2_4.index ⟨15, lt15_2⟩ (0 : Fin 2) * 1 + 1; omega
  | ⟨1, _⟩ => show win2_4.index ⟨15, lt15_2⟩ (1 : Fin 2) * 64 ≤ (i 1).val ∧ (i 1).val < win2_4.index ⟨15, lt15_2⟩ (1 : Fin 2) * 64 + 64; omega

/-- The sum array after the region: the per-channel sum accumulated over all sixteen batch elements. -/
theorem arr2_sum (c : Dev nD) : (dat2 V c).arrAt 3 cfg2.N = accS2 V c 15 lt15_2 :=
  (dat2 V c).arrAt_eq_of_cover 3 (accS2 V c 15 lt15_2) (fun t hf => flushed2_3_eq V c t hf) covered2_3

/-- The sum-of-squares array after the region, likewise. -/
theorem arr2_sumsq (c : Dev nD) : (dat2 V c).arrAt 4 cfg2.N = accQ2 V c 15 lt15_2 :=
  (dat2 V c).arrAt_eq_of_cover 4 (accQ2 V c 15 lt15_2) (fun t hf => flushed2_4_eq V c t hf) covered2_4

/-! ## The input arrays end as the region found them -/

theorem arr2_in0 (c : Dev nD) : (dat2 V c).arrAt 0 cfg2.N = V c (Pipeline.arrRef spec2 0) :=
  ((dat2 V c).arrAt_in 0 rfl _).trans (A_eq2 V c 0)
theorem arr2_in1 (c : Dev nD) : (dat2 V c).arrAt 1 cfg2.N = V c (Pipeline.arrRef spec2 1) :=
  ((dat2 V c).arrAt_in 1 rfl _).trans (A_eq2 V c 1)

end Cert.KernelIdeal.Hand

end
-- ==== Proof.KIValConvCommon.lean ====
/-
  Reading one layer's arithmetic at an index, on real data.

  The layers of this network take means of an activation along one position axis (a sum over the axis divided by
  32), feed such means to plain two-axis contractions, and spread the products back over the positions.  At the
  exact instance every step keeps coerced reals coerced reals; this file states each step at an index written by
  coordinates: a sum over one axis of a rank-4, rank-3 or rank-2 array, the division by the splat 32, a plain
  contraction into the zero splat, and a row block of a weight matrix.  Nothing here mentions a program.
-/
import Idealize.ShloMosaic.Lib.ValueLayout
import proofs.«145029_j5059471475016_2_alg».proof.Proof.LibIdealReal
import proofs.«145029_j5059471475016_2_alg».proof.Proof.LibBlockMatmul

noncomputable section

namespace Cert.ConvVal

open Idealize.ShloMosaic Idealize.ShloMosaic.ValueIdx Cert.IdealReal

/-- The word 0x42000000: exponent field 132, fraction 0, so 2²³ · 2^(132 − 127 − 23) = 32. -/
theorem ofBits_32 : Ideal.ofBits .f32 0x42000000#32 = ((32 : ℝ) : EReal) := by
  simp [Ideal.ofBits, Ideal.ieee, -EReal.coe_mul]; norm_num

/-- Dividing by the splat 32, at an index where the dividend is a real. -/
theorem divf_splat32 {s : Shape} (x : FVec Ideal s .f32) (j : s.Idx) (r : ℝ) (hx : x j = ((r : ℝ) : EReal)) :
    divf x (broadcast s (Scalar.ofBits (F := Ideal) .f32 0x42000000#32)) j = ((r / 32 : ℝ) : EReal) := by
  rw [divf_apply, broadcast_ofBits_apply, ofBits_32, hx]
  exact div_coe_coe r (by norm_num)

section Reduce
variable {n0 n1 n2 n3 : ℕ}

/-- The sum over axis 0 of a rank-4 real array. -/
theorem reduce4_axis0 (src : FVec Ideal ⟨4, ![n0, n1, n2, n3]⟩ .f32)
    (h : (⟨4, ![n0, n1, n2, n3]⟩ : Shape).Reduces [0] ⟨3, ![n1, n2, n3]⟩) (hφ : FKind.Formats .f32)
    (hacc : (0x00000000#32 : BitVec 32) = FKind.add.neutral .f32 hφ)
    (f : Fin n0 → Fin n1 → Fin n2 → Fin n3 → ℝ) (hf : ∀ i j k c, src (ix4 i j k c) = ((f i j k c : ℝ) : EReal))
    (j : Fin n1) (k : Fin n2) (c : Fin n3) :
    multiReduction .add [0] ⟨3, ![n1, n2, n3]⟩ src 0x00000000#32 h hφ hacc (ix3 j k c) = ((∑ i, f i j k c : ℝ) : EReal) := by
  refine multiReduction_add_coe src h hφ hacc (ix3 j k c) (fun i => f i j k c) fun i => ?_
  have e : h.lift (ix3 j k c) i = ix4 i j k c := funext fun a => Fin.ext (by
    match a with
    | ⟨0, _⟩ => rfl
    | ⟨1, _⟩ => rfl
    | ⟨2, _⟩ => rfl
    | ⟨3, _⟩ => rfl)
  rw [e]; exact hf i j k c

/-- The sum over axis 1 of a rank-4 real array. -/
theorem reduce4_axis1 (src : FVec Ideal ⟨4, ![n0, n1, n2, n3]⟩ .f32)
    (h : (⟨4, ![n0, n1, n2, n3]⟩ : Shape).Reduces [1] ⟨3, ![n0, n2, n3]⟩) (hφ : FKind.Formats .f32)
    (hacc : (0x00000000#32 : BitVec 32) = FKind.add.neutral .f32 hφ)
    (f : Fin n0 → Fin n1 → Fin n2 → Fin n3 → ℝ) (hf : ∀ i j k c, src (ix4 i j k c) = ((f i j k c : ℝ) : EReal))
    (i : Fin n0) (k : Fin n2) (c : Fin n3) :
    multiReduction .add [1] ⟨3, ![n0, n2, n3]⟩ src 0x00000000#32 h hφ hacc (ix3 i k c) = ((∑ j, f i j k c : ℝ) : EReal) := by
  refine multiReduction_add_coe src h hφ hacc (ix3 i k c) (fun j => f i j k c) fun j => ?_
  have e : h.lift (ix3 i k c) j = ix4 i j k c := funext fun a => Fin.ext (by
    match a with
    | ⟨0, _⟩ => rfl
    | ⟨1, _⟩ => rfl
    | ⟨2, _⟩ => rfl
    | ⟨3, _⟩ => rfl)
  rw [e]; exact hf i j k c

/-- The sum over axis 2 of a rank-4 real array. -/
theorem reduce4_axis2 (src : FVec Ideal ⟨4, ![n0, n1, n2, n3]⟩ .f32)
    (h : (⟨4, ![n0, n1, n2, n3]⟩ : Shape).Reduces [2] ⟨3, ![n0, n1, n3]⟩) (hφ : FKind.Formats .f32)
    (hacc : (0x00000000#32 : BitVec 32) = FKind.add.neutral .f32 hφ)
    (f : Fin n0 → Fin n1 → Fin n2 → Fin n3 → ℝ) (hf : ∀ i j k c, src (ix4 i j k c) = ((f i j k c : ℝ) : EReal))
    (i : Fin n0) (j : Fin n1) (c : Fin n3) :
    multiReduction .add [2] ⟨3, ![n0, n1, n3]⟩ src 0x00000000#32 h hφ hacc (ix3 i j c) = ((∑ k, f i j k c : ℝ) : EReal) := by
  refine multiReduction_add_coe src h hφ hacc (ix3 i j c) (fun k => f i j k c) fun k => ?_
  have e : h.lift (ix3 i j c) k = ix4 i j k c := funext fun a => Fin.ext (by
    match a with
    | ⟨0, _⟩ => rfl
    | ⟨1, _⟩ => rfl
    | ⟨2, _⟩ => rfl
    | ⟨3, _⟩ => rfl)
  rw [e]; exact hf i j k c

/-- The sum over axis 0 of a rank-3 real array. -/
theorem reduce3_axis0 (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ)
    (f : Fin n0 → Fin n1 → Fin n2 → ℝ) (hf : ∀ i j c, src (ix3 i j c) = ((f i j c : ℝ) : EReal))
    (j : Fin n1) (c : Fin n2) :
    multiReduction .add [0] ⟨2, ![n1, n2]⟩ src 0x00000000#32 h hφ hacc (ix2 j c) = ((∑ i, f i j c : ℝ) : EReal) := by
  refine multiReduction_add_coe src h hφ hacc (ix2 j c) (fun i => f i j c) fun i => ?_
  have e : h.lift (ix2 j c) i = ix3 i j c := funext fun a => Fin.ext (by
    match a with
    | ⟨0, _⟩ => rfl
    | ⟨1, _⟩ => rfl
    | ⟨2, _⟩ => rfl)
  rw [e]; exact hf i j c

/-- The sum over axis 1 of a rank-3 real array. -/
theorem reduce3_axis1 (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = FKind.add.neutral .f32 hφ)
    (f : Fin n0 → Fin n1 → Fin n2 → ℝ) (hf : ∀ i j c, src (ix3 i j c) = ((f i j c : ℝ) : EReal))
    (i : Fin n0) (c : Fin n2) :
    multiReduction .add [1] ⟨2, ![n0, n2]⟩ src 0x00000000#32 h hφ hacc (ix2 i c) = ((∑ j, f i j c : ℝ) : EReal) := by
  refine multiReduction_add_coe src h hφ hacc (ix2 i c) (fun j => f i j c) fun j => ?_
  have e : h.lift (ix2 i c) j = ix3 i j c := funext fun a => Fin.ext (by
    match a with
    | ⟨0, _⟩ => rfl
    | ⟨1, _⟩ => rfl
    | ⟨2, _⟩ => rfl)
  rw [e]; exact hf i j c

/-- The sum over axis 0 of a rank-2 real array. -/
theorem reduce2_axis0 (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ)
    (f : Fin n0 → Fin n1 → ℝ) (hf : ∀ i c, src (ix2 i c) = ((f i c : ℝ) : EReal)) (c : Fin n1) :
    multiReduction .add [0] ⟨1, ![n1]⟩ src 0x00000000#32 h hφ hacc (ix1 c) = ((∑ i, f i c : ℝ) : EReal) := by
  refine multiReduction_add_coe src h hφ hacc (ix1 c) (fun i => f i c) fun i => ?_
  have e : h.lift (ix1 c) i = ix2 i c := funext fun a => Fin.ext (by
    match a with
    | ⟨0, _⟩ => rfl
    | ⟨1, _⟩ => rfl)
  rw [e]; exact hf i c

end Reduce

/-- A plain contraction into the zero splat, at a row and a column where the operands are real: the real sum of
    products. -/
theorem matmul_row_real {M K N : ℕ} {φ₁ φ₂ : FTy}
    (wf : DotDims.WF ⟨2, ![M, K]⟩ ⟨2, ![K, N]⟩ ⟨2, ![M, N]⟩ [1] [0] [0] [1] [] []) (prec : Option ContractPrecision)
    (lhs : FVec Ideal ⟨2, ![M, K]⟩ φ₁) (rhs : FVec Ideal ⟨2, ![K, N]⟩ φ₂) (p : Fin M) (q : Fin N)
    (A B : Fin K → ℝ) (hA : ∀ k, lhs (ix2 p k) = ((A k : ℝ) : EReal)) (hB : ∀ k, rhs (ix2 k q) = ((B k : ℝ) : EReal)) :
    matmul (F := Ideal) (Cert.BlockMatmul.plainDims wf) prec lhs rhs (constant ⟨2, ![M, N]⟩ .f32 0x00000000#32) (ix2 p q)
      = ((∑ k, A k * B k : ℝ) : EReal) := by
  rw [Cert.BlockMatmul.matmul_zero_plain_apply, ← sum_coe_mul_coe]
  exact Finset.sum_congr rfl fun k _ => by rw [hA k, hB k]

/-- A [1, a, b, c, d] array cast to [a, b, c, d] reads, at (i, j, k, l), the operand at (0, i, j, k, l). -/
theorem shapeCast_1abcd_abcd_apply {α : Type} {a b c d : ℕ} (x : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ x h (ix4 i j k l) = x (ix5 (0 : Fin 1) i j k l) :=
  shapeCast_apply x h _ _ (by
    rw [Shape.rowMajor_val_five, Shape.rowMajor_val_four]
    show (((0 * a + i.val) * b + j.val) * c + k.val) * d + l.val = ((i.val * b + j.val) * c + k.val) * d + l.val
    rw [Nat.zero_mul, Nat.zero_add])

/-- An [a, b, c, d] array cast to [1, a, b, c, d] reads, at (u, i, j, k, l), the operand at (i, j, k, l). -/
theorem shapeCast_abcd_1abcd_apply {α : Type} {a b c d : ℕ} (x : (⟨4, ![a, b, c, d]⟩ : Shape).Idx → α)
    (h : (⟨4, ![a, b, c, d]⟩ : Shape).ShapeCasts ⟨5, ![1, a, b, c, d]⟩) (u : Fin 1) (i : Fin a) (j : Fin b) (k : Fin c) (l : Fin d) :
    shapeCast ⟨5, ![1, a, b, c, d]⟩ x h (ix5 u i j k l) = x (ix4 i j k l) :=
  shapeCast_apply x h _ _ (by
    have hu : u.val = 0 := by omega
    rw [Shape.rowMajor_val_five, Shape.rowMajor_val_four]
    show ((i.val * b + j.val) * c + k.val) * d + l.val = (((u.val * a + i.val) * b + j.val) * c + k.val) * d + l.val
    rw [hu, Nat.zero_mul, Nat.zero_add])

end Cert.ConvVal

end
-- ==== Proof.KIValConv4Means.lean ====
/-
  The order-3 → order-1 layer, first half: the means its contractions read.

  The layer's input block, read with its leading unit axis dropped, is a real activation a i j k c.  The body takes
  the mean over the last position axis, then means of that over either remaining position axis, and the mean of
  all three; each is a sum over one axis divided by 32.  The weight matrix, cut into four row blocks of 64 rows,
  is read block by block.  Every statement says: at an index written by coordinates the value is the coercion of
  the real mean.
-/
import proofs.«145029_j5059471475016_2_alg».proof.Proof.Gen.KernelIdeal.Skeleton
import proofs.«145029_j5059471475016_2_alg».proof.Proof.Spec
import proofs.«145029_j5059471475016_2_alg».proof.Proof.KIValConvCommon

noncomputable section

namespace Cert.KernelIdeal.Val

open Idealize.ShloMosaic Idealize.ShloMosaic.ValueIdx Cert.IdealReal Cert.ConvVal

/-- The mean of an activation over its last position axis. -/
def meanK (a : Cert.Spec.Act3 64) (i j : Fin 32) (c : Fin 64) : ℝ := (∑ k, a i j k c) / 32
/-- The mean of an activation over its first position axis. -/
def meanI (a : Cert.Spec.Act3 64) (j k : Fin 32) (c : Fin 64) : ℝ := (∑ i, a i j k c) / 32
/-- The mean over the last two position axes, as a mean of means. -/
def meanJK (a : Cert.Spec.Act3 64) (i : Fin 32) (c : Fin 64) : ℝ := (∑ j, meanK a i j c) / 32
/-- The mean over the first and last position axes, as a mean of means. -/
def meanIK (a : Cert.Spec.Act3 64) (j : Fin 32) (c : Fin 64) : ℝ := (∑ i, meanK a i j c) / 32
/-- The mean over the first two position axes, as a mean of means. -/
def meanIJ (a : Cert.Spec.Act3 64) (k : Fin 32) (c : Fin 64) : ℝ := (∑ j, meanI a j k c) / 32
/-- The mean over all three position axes, as a mean of means of means. -/
def meanIJK (a : Cert.Spec.Act3 64) (c : Fin 64) : ℝ := (∑ i, meanJK a i c) / 32

section
variable (v0 : FVec Ideal S1x32x32x32x64 .bf16) (a : Cert.Spec.Act3 64)
  (h0 : ∀ (i j k : Fin 32) (c : Fin 64), v0 (ix5 (0 : Fin 1) i j k c) = ((a i j k c : ℝ) : EReal))
include h0

/-- The block with its unit axis dropped is the activation. -/
theorem k4_pay2_real (i j k : Fin 32) (c : Fin 64) : Gen.k4_pay2 (F := Ideal) v0 (ix4 i j k c) = ((a i j k c : ℝ) : EReal) := by
  unfold Gen.k4_pay2
  exact (shapeCast_1abcd_abcd_apply v0 _ i j k c).trans (h0 i j k c)

/-- The mean over the last position axis. -/
theorem k4_pay5_real (i j : Fin 32) (c : Fin 64) : Gen.k4_pay5 (F := Ideal) v0 (ix3 i j c) = ((meanK a i j c : ℝ) : EReal) := by
  unfold Gen.k4_pay5
  exact divf_splat32 _ _ _ (reduce4_axis2 _ _ _ _ a (fun i j k c => k4_pay2_real v0 a h0 i j k c) i j c)

/-- The mean over the last two position axes. -/
theorem k4_pay6_real (i : Fin 32) (c : Fin 64) : Gen.k4_pay6 (F := Ideal) v0 (ix2 i c) = ((meanJK a i c : ℝ) : EReal) := by
  unfold Gen.k4_pay6
  exact divf_splat32 _ _ _ (reduce3_axis1 _ _ _ _ (meanK a) (k4_pay5_real v0 a h0) i c)

/-- The mean over all three position axes, as a one-row matrix. -/
theorem k4_pay8_real (u : Fin 1) (c : Fin 64) : Gen.k4_pay8 (F := Ideal) v0 (ix2 u c) = ((meanIJK a c : ℝ) : EReal) := by
  unfold Gen.k4_pay8
  refine (shapeCast_a_1a_apply _ _ u c).trans ?_
  exact divf_splat32 _ _ _ (reduce2_axis0 _ _ _ _ (meanJK a) (k4_pay6_real v0 a h0) c)

end

section
variable (v2 : FVec Ideal S256x64 .f32) (W : Fin 4 → Fin 64 → Fin 64 → ℝ)
  (h2 : ∀ (t : Fin 4) (c d : Fin 64),
    v2 (ix2 (⟨t.val * 64 + c.val, by have := t.isLt; have := c.isLt; omega⟩ : Fin 256) d) = ((W t c d : ℝ) : EReal))
include h2

/-- Row block t of the weight matrix (rows t·64 … t·64+63), cut at the literal offset o = t·64. -/
theorem k4_wslice_real (t : Fin 4) (o : ℕ) (ho : o = t.val * 64) (hs : S256x64.Slices ![o, 0] S64x64)
    (c d : Fin 64) :
    extractStridedSlice S64x64 ![o, 0] (Gen.k4_pay3 (F := Ideal) v2) hs (ix2 c d) = ((W t c d : ℝ) : EReal) := by
  subst ho
  refine (slice2_axis0_eq _ _ hs c d).trans ?_
  exact h2 t c d

/-- The fourth row block of the weight matrix. -/
theorem k4_pay4_real (c d : Fin 64) : Gen.k4_pay4 (F := Ideal) v2 (ix2 c d) = ((W 3 c d : ℝ) : EReal) := by
  unfold Gen.k4_pay4
  exact k4_wslice_real v2 W h2 3 192 rfl _ c d

end

end Cert.KernelIdeal.Val

end
-- ==== Proof.KIValConv2Means.lean ====
/-
  The second order-3 layer, first half: the means its contractions read, and the weight blocks.

  The layer's input block, read with its leading unit axis dropped, is a real activation a i j k c.  The body takes
  the mean over each position axis (a sum over the axis divided by 32), then means of those over a second axis.  The
  weight matrix, cut into eight row blocks of 64 rows, is read block by block.  Every statement says: at an index
  written by coordinates the value is the coercion of the real mean.
-/
import proofs.«145029_j5059471475016_2_alg».proof.Proof.KIValConv4Means

noncomputable section

namespace Cert.KernelIdeal.Val

open Idealize.ShloMosaic Idealize.ShloMosaic.ValueIdx Cert.IdealReal Cert.ConvVal

/-- The mean of an activation over its middle position axis. -/
def meanJ (a : Cert.Spec.Act3 64) (i k : Fin 32) (c : Fin 64) : ℝ := (∑ j, a i j k c) / 32

section
variable (v3 : FVec Ideal S1x32x32x32x64 .bf16) (a : Cert.Spec.Act3 64)
  (h3 : ∀ (i j k : Fin 32) (c : Fin 64), v3 (ix5 (0 : Fin 1) i j k c) = ((a i j k c : ℝ) : EReal))
include h3

/-- The block with its unit axis dropped is the activation. -/
theorem k2_pay6_real (i j k : Fin 32) (c : Fin 64) : Gen.k2_pay6 (F := Ideal) v3 (ix4 i j k c) = ((a i j k c : ℝ) : EReal) := by
  unfold Gen.k2_pay6
  exact (shapeCast_1abcd_abcd_apply v3 _ i j k c).trans (h3 i j k c)

/-- The mean over the first position axis. -/
theorem k2_pay16_real (j k : Fin 32) (c : Fin 64) : Gen.k2_pay16 (F := Ideal) v3 (ix3 j k c) = ((meanI a j k c : ℝ) : EReal) := by
  unfold Gen.k2_pay16
  exact divf_splat32 _ _ _ (reduce4_axis0 _ _ _ _ a (fun i j k c => k2_pay6_real v3 a h3 i j k c) j k c)

/-- The mean over the middle position axis. -/
theorem k2_pay17_real (i k : Fin 32) (c : Fin 64) : Gen.k2_pay17 (F := Ideal) v3 (ix3 i k c) = ((meanJ a i k c : ℝ) : EReal) := by
  unfold Gen.k2_pay17
  exact divf_splat32 _ _ _ (reduce4_axis1 _ _ _ _ a (fun i j k c => k2_pay6_real v3 a h3 i j k c) i k c)

/-- The mean over the last position axis. -/
theorem k2_pay18_real (i j : Fin 32) (c : Fin 64) : Gen.k2_pay18 (F := Ideal) v3 (ix3 i j c) = ((meanK a i j c : ℝ) : EReal) := by
  unfold Gen.k2_pay18
  exact divf_splat32 _ _ _ (reduce4_axis2 _ _ _ _ a (fun i j k c => k2_pay6_real v3 a h3 i j k c) i j c)

/-- The mean over the last two position axes. -/
theorem k2_pay19_real (i : Fin 32) (c : Fin 64) : Gen.k2_pay19 (F := Ideal) v3 (ix2 i c) = ((meanJK a i c : ℝ) : EReal) := by
  unfold Gen.k2_pay19
  exact divf_splat32 _ _ _ (reduce3_axis1 _ _ _ _ (meanK a) (k2_pay18_real v3 a h3) i c)

/-- The mean over the first and last position axes. -/
theorem k2_pay20_real (j : Fin 32) (c : Fin 64) : Gen.k2_pay20 (F := Ideal) v3 (ix2 j c) = ((meanIK a j c : ℝ) : EReal) := by
  unfold Gen.k2_pay20
  exact divf_splat32 _ _ _ (reduce3_axis0 _ _ _ _ (meanK a) (k2_pay18_real v3 a h3) j c)

/-- The mean over the first two position axes. -/
theorem k2_pay21_real (k : Fin 32) (c : Fin 64) : Gen.k2_pay21 (F := Ideal) v3 (ix2 k c) = ((meanIJ a k c : ℝ) : EReal) := by
  unfold Gen.k2_pay21
  exact divf_splat32 _ _ _ (reduce3_axis0 _ _ _ _ (meanI a) (k2_pay16_real v3 a h3) k c)

end

section
variable (v5 : FVec Ideal S512x64 .f32) (W : Fin 8 → Fin 64 → Fin 64 → ℝ)
  (h5 : ∀ (t : Fin 8) (c d : Fin 64),
    v5 (ix2 (⟨t.val * 64 + c.val, by have := t.isLt; have := c.isLt; omega⟩ : Fin 512) d) = ((W t c d : ℝ) : EReal))
include h5

/-- Row block t of the weight matrix (rows t·64 … t·64+63), cut at the literal offset o = t·64. -/
theorem k2_wslice_real (t : Fin 8) (o : ℕ) (ho : o = t.val * 64) (hs : S512x64.Slices ![o, 0] S64x64)
    (c d : Fin 64) :
    extractStridedSlice S64x64 ![o, 0] (Gen.k2_pay7 (F := Ideal) v5) hs (ix2 c d) = ((W t c d : ℝ) : EReal) := by
  subst ho
  refine (slice2_axis0_eq _ _ hs c d).trans ?_
  exact h5 t c d

theorem k2_pay8_real (c d : Fin 64) : Gen.k2_pay8 (F := Ideal) v5 (ix2 c d) = ((W 0 c d : ℝ) : EReal) := by
  unfold Gen.k2_pay8; exact k2_wslice_real v5 W h5 0 0 rfl _ c d
theorem k2_pay9_real (c d : Fin 64) : Gen.k2_pay9 (F := Ideal) v5 (ix2 c d) = ((W 1 c d : ℝ) : EReal) := by
  unfold Gen.k2_pay9; exact k2_wslice_real v5 W h5 1 64 rfl _ c d
theorem k2_pay10_real (c d : Fin 64) : Gen.k2_pay10 (F := Ideal) v5 (ix2 c d) = ((W 2 c d : ℝ) : EReal) := by
  unfold Gen.k2_pay10; exact k2_wslice_real v5 W h5 2 128 rfl _ c d
theorem k2_pay11_real (c d : Fin 64) : Gen.k2_pay11 (F := Ideal) v5 (ix2 c d) = ((W 3 c d : ℝ) : EReal) := by
  unfold Gen.k2_pay11; exact k2_wslice_real v5 W h5 3 192 rfl _ c d
theorem k2_pay12_real (c d : Fin 64) : Gen.k2_pay12 (F := Ideal) v5 (ix2 c d) = ((W 4 c d : ℝ) : EReal) := by
  unfold Gen.k2_pay12; exact k2_wslice_real v5 W h5 4 256 rfl _ c d
theorem k2_pay13_real (c d : Fin 64) : Gen.k2_pay13 (F := Ideal) v5 (ix2 c d) = ((W 5 c d : ℝ) : EReal) := by
  unfold Gen.k2_pay13; exact k2_wslice_real v5 W h5 5 320 rfl _ c d
theorem k2_pay14_real (c d : Fin 64) : Gen.k2_pay14 (F := Ideal) v5 (ix2 c d) = ((W 6 c d : ℝ) : EReal) := by
  unfold Gen.k2_pay14; exact k2_wslice_real v5 W h5 6 384 rfl _ c d
theorem k2_pay15_real (c d : Fin 64) : Gen.k2_pay15 (F := Ideal) v5 (ix2 c d) = ((W 7 c d : ℝ) : EReal) := by
  unfold Gen.k2_pay15; exact k2_wslice_real v5 W h5 7 448 rfl _ c d

end

end Cert.KernelIdeal.Val

end
-- ==== Proof.KIValConv2Block.lean ====
/-
  The second order-3 layer: the output block before rounding, over its operands.

  The block is the sum, in order, of eight contractions with the eight weight blocks: the activation itself (its
  positions flattened into 32768 rows), its means over one position axis (three of them, 1024 rows each), over two
  axes (three, 32 rows each) and over all three (one row, the mean of the means over the last two axes).  A term
  that does not depend on a position is spread over it: it gets a unit axis there and is broadcast.  Here the
  operands are variables, each a real array; the value at (i, j, k, d) is the coercion of the real eight-term sum.
-/
import proofs.«145029_j5059471475016_2_alg».proof.Proof.Gen.KernelIdeal.Skeleton
import proofs.«145029_j5059471475016_2_alg».proof.Proof.KIValConvCommon
import proofs.«145029_j5059471475016_2_alg».proof.Proof.KIValConv1Idx

noncomputable section

namespace Cert.KernelIdeal.Val

open Idealize.ShloMosaic Idealize.ShloMosaic.ValueIdx Cert.IdealReal Cert.ConvVal

/-- The eight-term sum over real operands: A0 the activation, A1 A2 A3 its means over the first, middle and last
    position axis, A4 A5 A6 its means over two axes (indexed by the remaining first, middle, last position), and the
    mean over the first position of A4 for the last term; B the eight weight blocks. -/
def conv2Real (A0 : Fin 32 → Fin 32 → Fin 32 → Fin 64 → ℝ) (A1 A2 A3 : Fin 32 → Fin 32 → Fin 64 → ℝ)
    (A4 A5 A6 : Fin 32 → Fin 64 → ℝ) (B : Fin 8 → Fin 64 → Fin 64 → ℝ) (i j k : Fin 32) (d : Fin 64) : ℝ :=
  (∑ c, A0 i j k c * B 0 c d) + (∑ c, A1 j k c * B 1 c d) + (∑ c, A2 i k c * B 2 c d) + (∑ c, A3 i j c * B 3 c d)
    + (∑ c, A4 i c * B 4 c d) + (∑ c, A5 j c * B 5 c d) + (∑ c, A6 k c * B 6 c d)
    + (∑ c, ((∑ i', A4 i' c) / 32) * B 7 c d)

/-- Eight arrays added in order, at an index where each is a real. -/
theorem add8_apply {s : Shape} (x0 x1 x2 x3 x4 x5 x6 x7 : FVec Ideal s .f32) (idx : s.Idx)
    (r0 r1 r2 r3 r4 r5 r6 r7 : ℝ)
    (h0 : x0 idx = ((r0 : ℝ) : EReal)) (h1 : x1 idx = ((r1 : ℝ) : EReal)) (h2 : x2 idx = ((r2 : ℝ) : EReal))
    (h3 : x3 idx = ((r3 : ℝ) : EReal)) (h4 : x4 idx = ((r4 : ℝ) : EReal)) (h5 : x5 idx = ((r5 : ℝ) : EReal))
    (h6 : x6 idx = ((r6 : ℝ) : EReal)) (h7 : x7 idx = ((r7 : ℝ) : EReal)) :
    addf (addf (addf (addf (addf (addf (addf x0 x1) x2) x3) x4) x5) x6) x7 idx
      = ((r0 + r1 + r2 + r3 + r4 + r5 + r6 + r7 : ℝ) : EReal) := by
  simp only [addf_apply, h0, h1, h2, h3, h4, h5, h6, h7, EReal.coe_add]

section
variable (v4 : FVec Ideal S32x32x32x64 .bf16)
  (v7 v8 v9 v10 v11 v12 v13 v14 : FVec Ideal S64x64 .bf16)
  (v18 v22 v26 : FVec Ideal S32x32x64 .f32) (v29 v32 v35 : FVec Ideal S32x64 .f32)
  (A0 : Fin 32 → Fin 32 → Fin 32 → Fin 64 → ℝ) (A1 A2 A3 : Fin 32 → Fin 32 → Fin 64 → ℝ)
  (A4 A5 A6 : Fin 32 → Fin 64 → ℝ) (B : Fin 8 → Fin 64 → Fin 64 → ℝ)
  (h4 : ∀ i j k c, v4 (ix4 i j k c) = ((A0 i j k c : ℝ) : EReal))
  (h7 : ∀ c d, v7 (ix2 c d) = ((B 0 c d : ℝ) : EReal)) (h8 : ∀ c d, v8 (ix2 c d) = ((B 1 c d : ℝ) : EReal))
  (h9 : ∀ c d, v9 (ix2 c d) = ((B 2 c d : ℝ) : EReal)) (h10 : ∀ c d, v10 (ix2 c d) = ((B 3 c d : ℝ) : EReal))
  (h11 : ∀ c d, v11 (ix2 c d) = ((B 4 c d : ℝ) : EReal)) (h12 : ∀ c d, v12 (ix2 c d) = ((B 5 c d : ℝ) : EReal))
  (h13 : ∀ c d, v13 (ix2 c d) = ((B 6 c d : ℝ) : EReal)) (h14 : ∀ c d, v14 (ix2 c d) = ((B 7 c d : ℝ) : EReal))
  (h18 : ∀ j k c, v18 (ix3 j k c) = ((A1 j k c : ℝ) : EReal)) (h22 : ∀ i k c, v22 (ix3 i k c) = ((A2 i k c : ℝ) : EReal))
  (h26 : ∀ i j c, v26 (ix3 i j c) = ((A3 i j c : ℝ) : EReal))
  (h29 : ∀ i c, v29 (ix2 i c) = ((A4 i c : ℝ) : EReal)) (h32 : ∀ j c, v32 (ix2 j c) = ((A5 j c : ℝ) : EReal))
  (h35 : ∀ k c, v35 (ix2 k c) = ((A6 k c : ℝ) : EReal))
include h4 h7 h8 h9 h10 h11 h12 h13 h14 h18 h22 h26 h29 h32 h35

/-- The output block before rounding, at (i, j, k, d). -/
theorem k2_pay22_real (i j k : Fin 32) (d : Fin 64) :
    Gen.k2_pay22 (F := Ideal) v4 v7 v8 v9 v10 v11 v12 v13 v14 v18 v22 v26 v29 v32 v35 (ix4 i j k d)
      = ((conv2Real A0 A1 A2 A3 A4 A5 A6 B i j k d : ℝ) : EReal) := by
  unfold Gen.k2_pay22
  refine add8_apply _ _ _ _ _ _ _ _ _ (∑ c, A0 i j k c * B 0 c d) (∑ c, A1 j k c * B 1 c d) (∑ c, A2 i k c * B 2 c d)
    (∑ c, A3 i j c * B 3 c d) (∑ c, A4 i c * B 4 c d) (∑ c, A5 j c * B 5 c d) (∑ c, A6 k c * B 6 c d)
    (∑ c, ((∑ i', A4 i' c) / 32) * B 7 c d) ?_ ?_ ?_ ?_ ?_ ?_ ?_ ?_
  · refine (Cert.ConvIdx.unflat4 _ _ i j k d (Cert.ConvIdx.row3 i j k) rfl).trans ?_
    exact matmul_row_real _ none _ _ (Cert.ConvIdx.row3 i j k) d (A0 i j k) (fun c => B 0 c d)
      (fun c => (Cert.ConvIdx.flat4 _ _ i j k c (Cert.ConvIdx.row3 i j k) rfl).trans (h4 i j k c)) (fun c => h7 c d)
  · refine (Cert.ConvIdx.bcast_1abc _ _ i j k d).trans ?_
    refine (shapeCast_abc_1abc_apply _ _ (0 : Fin 1) j k d).trans ?_
    refine (Cert.ConvIdx.unflat3 _ _ j k d (Cert.ConvIdx.row2 j k) rfl).trans ?_
    exact matmul_row_real _ none _ _ (Cert.ConvIdx.row2 j k) d (A1 j k) (fun c => B 1 c d)
      (fun c => (Cert.ConvIdx.flat3 _ _ j k c (Cert.ConvIdx.row2 j k) rfl).trans (h18 j k c)) (fun c => h8 c d)
  · refine (Cert.ConvIdx.bcast_a1bc _ _ i j k d).trans ?_
    refine (Cert.ConvIdx.cast_abc_a1bc _ _ i (0 : Fin 1) k d).trans ?_
    refine (Cert.ConvIdx.unflat3 _ _ i k d (Cert.ConvIdx.row2 i k) rfl).trans ?_
    exact matmul_row_real _ none _ _ (Cert.ConvIdx.row2 i k) d (A2 i k) (fun c => B 2 c d)
      (fun c => (Cert.ConvIdx.flat3 _ _ i k c (Cert.ConvIdx.row2 i k) rfl).trans (h22 i k c)) (fun c => h9 c d)
  · refine (Cert.ConvIdx.bcast_ab1c _ _ i j k d).trans ?_
    refine (Cert.ConvIdx.cast_abc_ab1c _ _ i j (0 : Fin 1) d).trans ?_
    refine (Cert.ConvIdx.unflat3 _ _ i j d (Cert.ConvIdx.row2 i j) rfl).trans ?_
    exact matmul_row_real _ none _ _ (Cert.ConvIdx.row2 i j) d (A3 i j) (fun c => B 3 c d)
      (fun c => (Cert.ConvIdx.flat3 _ _ i j c (Cert.ConvIdx.row2 i j) rfl).trans (h26 i j c)) (fun c => h10 c d)
  · refine (Cert.ConvIdx.bcast_a11c _ _ i j k d).trans ?_
    refine (Cert.ConvIdx.cast_ac_a11c _ _ i (0 : Fin 1) (0 : Fin 1) d).trans ?_
    exact matmul_row_real _ none _ _ i d (A4 i) (fun c => B 4 c d) (fun c => h29 i c) (fun c => h11 c d)
  · refine (Cert.ConvIdx.bcast_1a1c _ _ i j k d).trans ?_
    refine (Cert.ConvIdx.cast_ac_1a1c _ _ (0 : Fin 1) j (0 : Fin 1) d).trans ?_
    exact matmul_row_real _ none _ _ j d (A5 j) (fun c => B 5 c d) (fun c => h32 j c) (fun c => h12 c d)
  · refine (Cert.ConvIdx.bcast_11ac _ _ i j k d).trans ?_
    refine (Cert.ConvIdx.cast_ac_11ac _ _ (0 : Fin 1) (0 : Fin 1) k d).trans ?_
    exact matmul_row_real _ none _ _ k d (A6 k) (fun c => B 6 c d) (fun c => h35 k c) (fun c => h13 c d)
  · refine (Cert.ConvIdx.bcast_111c _ _ i j k d).trans ?_
    refine (Cert.ConvIdx.cast_c_111c _ _ (0 : Fin 1) (0 : Fin 1) (0 : Fin 1) d).trans ?_
    refine (shapeCast_1a_a_apply _ _ d).trans ?_
    refine matmul_row_real _ none _ _ (0 : Fin 1) d (fun c => (∑ i', A4 i' c) / 32) (fun c => B 7 c d) (fun c => ?_)
      (fun c => h14 c d)
    refine (truncf_apply (φ := .f32) (ψ := .bf16) _ Gen.bitsLt_bf16_f32 _).trans ?_
    refine (shapeCast_a_1a_apply _ _ (0 : Fin 1) c).trans ?_
    exact divf_splat32 _ _ _ (reduce2_axis0 _ _ _ _ A4 h29 c)

end

end Cert.KernelIdeal.Val

end
-- ==== Proof.KIValConv2Sums.lean ====
/-
  The second order-3 layer: what is stored from the output block.

  From the output block y (before rounding) the body stores: the block itself with a leading unit axis; the first
  running sum plus the sum of y over the three position axes (taken one axis at a time, last axis first); the second
  running sum plus the like sum of y·y; and, at the first grid point, two zero rows.  Here the block and the running
  sums are variables, each a real array.
-/
import proofs.«145029_j5059471475016_2_alg».proof.Proof.Gen.KernelIdeal.Skeleton
import proofs.«145029_j5059471475016_2_alg».proof.Proof.KIValConvCommon

noncomputable section

namespace Cert.KernelIdeal.Val

open Idealize.ShloMosaic Idealize.ShloMosaic.ValueIdx Cert.IdealReal Cert.ConvVal

/-- The sum of the output block over its last position axis, from the block read as a real array. -/
theorem k2_pay23_real (v4 : FVec Ideal S32x32x32x64 .bf16) (v7 v8 v9 v10 v11 v12 v13 v14 : FVec Ideal S64x64 .bf16)
    (v18 v22 v26 : FVec Ideal S32x32x64 .f32) (v29 v32 v35 : FVec Ideal S32x64 .f32)
    (Y : Fin 32 → Fin 32 → Fin 32 → Fin 64 → ℝ)
    (hY : ∀ i j k d, Gen.k2_pay22 (F := Ideal) v4 v7 v8 v9 v10 v11 v12 v13 v14 v18 v22 v26 v29 v32 v35 (ix4 i j k d)
      = ((Y i j k d : ℝ) : EReal)) (i j : Fin 32) (d : Fin 64) :
    Gen.k2_pay23 (F := Ideal) v4 v7 v8 v9 v10 v11 v12 v13 v14 v18 v22 v26 v29 v32 v35 (ix3 i j d)
      = ((∑ k, Y i j k d : ℝ) : EReal) := by
  unfold Gen.k2_pay23
  exact reduce4_axis2 _ _ _ _ Y hY i j d

/-- The first running sum after the body: the sum before plus the sum of the row sums over the two remaining
    position axes. -/
theorem k2_pay1_real (v85 : FVec Ideal S32x32x64 .f32) (v92 : FVec Ideal S1x64 .f32)
    (Z : Fin 32 → Fin 32 → Fin 64 → ℝ) (acc : Fin 64 → ℝ)
    (h85 : ∀ i j d, v85 (ix3 i j d) = ((Z i j d : ℝ) : EReal)) (h92 : ∀ (u : Fin 1) d, v92 (ix2 u d) = ((acc d : ℝ) : EReal))
    (u : Fin 1) (d : Fin 64) :
    Gen.k2_pay1 (F := Ideal) v85 v92 (ix2 u d) = ((acc d + ∑ i, ∑ j, Z i j d : ℝ) : EReal) := by
  unfold Gen.k2_pay1
  refine (congrFun (shapeCast_self _ _) _).trans ?_
  rw [addf_apply, h92 u d, EReal.coe_add]
  congr 1
  refine (shapeCast_a_1a_apply _ _ u d).trans ?_
  exact reduce2_axis0 _ _ _ _ (fun i d => ∑ j, Z i j d) (fun i d => reduce3_axis1 _ _ _ _ Z h85 i d) d

/-- The second running sum after the body: the sum before plus the sum of the squares of the block's entries. -/
theorem k2_pay2_real (v84 : FVec Ideal S32x32x32x64 .f32) (v98 : FVec Ideal S1x64 .f32)
    (Y : Fin 32 → Fin 32 → Fin 32 → Fin 64 → ℝ) (acc : Fin 64 → ℝ)
    (h84 : ∀ i j k d, v84 (ix4 i j k d) = ((Y i j k d : ℝ) : EReal)) (h98 : ∀ (u : Fin 1) d, v98 (ix2 u d) = ((acc d : ℝ) : EReal))
    (u : Fin 1) (d : Fin 64) :
    Gen.k2_pay2 (F := Ideal) v84 v98 (ix2 u d) = ((acc d + ∑ i, ∑ j, ∑ k, Y i j k d * Y i j k d : ℝ) : EReal) := by
  unfold Gen.k2_pay2
  refine (congrFun (shapeCast_self _ _) _).trans ?_
  rw [addf_apply, h98 u d, EReal.coe_add]
  congr 1
  refine (shapeCast_a_1a_apply _ _ u d).trans ?_
  refine reduce2_axis0 _ _ _ _ (fun i d => ∑ j, ∑ k, Y i j k d * Y i j k d) (fun i d => ?_) d
  refine reduce3_axis1 _ _ _ _ (fun i j d => ∑ k, Y i j k d * Y i j k d) (fun i j d => ?_) i d
  refine reduce4_axis2 _ _ _ _ (fun i j k d => Y i j k d * Y i j k d) (fun i j k d => ?_) i j d
  rw [mulf_apply, h84 i j k d, coe_mul']

/-- The stored block is the output block with a leading unit axis (the rounding is the identity at the exact
    instance). -/
theorem k2_pay3_apply (v84 : FVec Ideal S32x32x32x64 .f32) (u : Fin 1) (i j k : Fin 32) (d : Fin 64) :
    Gen.k2_pay3 (F := Ideal) v84 (ix5 u i j k d) = v84 (ix4 i j k d) := by
  unfold Gen.k2_pay3
  exact shapeCast_abcd_1abcd_apply _ _ u i j k d

/-- The first zero row. -/
theorem k2_pay4_real (u : Fin 1) (d : Fin 64) : Gen.k2_pay4 (F := Ideal) (ix2 u d) = (((0 : ℝ) : ℝ) : EReal) := by
  unfold Gen.k2_pay4
  refine (congrFun (shapeCast_self _ _) _).trans ?_
  rw [broadcast_ofBits_apply, ofBits_zero, EReal.coe_zero]

/-- The second zero row. -/
theorem k2_pay5_real (u : Fin 1) (d : Fin 64) : Gen.k2_pay5 (F := Ideal) (ix2 u d) = (((0 : ℝ) : ℝ) : EReal) := by
  unfold Gen.k2_pay5
  refine (congrFun (shapeCast_self _ _) _).trans ?_
  rw [broadcast_ofBits_apply, ofBits_zero, EReal.coe_zero]

end Cert.KernelIdeal.Val

end
-- ==== Proof.KIValConv2.lean ====
/-
  The second order-3 layer: the whole block, the network's layer, and what the body stores.

  With the means and weight blocks of the first half as the operands of the eight-term sum, the output block is the
  layer of the shared specification: a mean of means over two axes of 32 is the mean over the 1024 pairs, over three
  axes the mean over the 32768 triples (Cert.Spec.mean_mean, mean_mean_mean).  The stored block, the two running sums
  and the two zero rows follow.
-/
import proofs.«145029_j5059471475016_2_alg».proof.Proof.KIValConv2Means
import proofs.«145029_j5059471475016_2_alg».proof.Proof.KIValConv2Block
import proofs.«145029_j5059471475016_2_alg».proof.Proof.KIValConv2Sums

noncomputable section

namespace Cert.KernelIdeal.Val

open Idealize.ShloMosaic Idealize.ShloMosaic.ValueIdx Cert.IdealReal Cert.ConvVal

/-- The layer's output block before rounding: the composed payload of the body (what its second part returns
    first). -/
def conv2Block (v3 : FVec Ideal S1x32x32x32x64 .bf16) (v5 : FVec Ideal S512x64 .f32) : FVec Ideal S32x32x32x64 .f32 :=
  Gen.k2_pay22 (Gen.k2_pay6 v3) (Gen.k2_pay8 v5) (Gen.k2_pay9 v5) (Gen.k2_pay10 v5) (Gen.k2_pay11 v5) (Gen.k2_pay12 v5)
    (Gen.k2_pay13 v5) (Gen.k2_pay14 v5) (Gen.k2_pay15 v5) (Gen.k2_pay16 v3) (Gen.k2_pay17 v3) (Gen.k2_pay18 v3)
    (Gen.k2_pay19 v3) (Gen.k2_pay20 v3) (Gen.k2_pay21 v3)

/-- The block's sums over the last position axis (what the body's second part returns second). -/
def conv2RowSums (v3 : FVec Ideal S1x32x32x32x64 .bf16) (v5 : FVec Ideal S512x64 .f32) : FVec Ideal S32x32x64 .f32 :=
  Gen.k2_pay23 (Gen.k2_pay6 v3) (Gen.k2_pay8 v5) (Gen.k2_pay9 v5) (Gen.k2_pay10 v5) (Gen.k2_pay11 v5) (Gen.k2_pay12 v5)
    (Gen.k2_pay13 v5) (Gen.k2_pay14 v5) (Gen.k2_pay15 v5) (Gen.k2_pay16 v3) (Gen.k2_pay17 v3) (Gen.k2_pay18 v3)
    (Gen.k2_pay19 v3) (Gen.k2_pay20 v3) (Gen.k2_pay21 v3)

/-- Means of means are means over pairs and triples: the eight terms as the shared specification writes them. -/
theorem conv3_of_means (a : Cert.Spec.Act3 64) (W : Fin 8 → Fin 64 → Fin 64 → ℝ) (i j k : Fin 32) (d : Fin 64) :
    conv2Real a (meanI a) (meanJ a) (meanK a) (meanJK a) (meanIK a) (meanIJ a) W i j k d = Cert.Spec.conv3 a W i j k d := by
  unfold conv2Real Cert.Spec.conv3 meanJK meanIK meanIJ meanK meanI meanJ
  have e6 : ∀ c, (∑ j', (∑ i', a i' j' k c) / 32) / 32 = (∑ i', ∑ j', a i' j' k c) / 1024 := fun c => by
    rw [Cert.Spec.mean_mean (fun j' i' => a i' j' k c), Finset.sum_comm]
  simp only [Cert.Spec.mean_mean (fun j' k' => a i j' k' _), Cert.Spec.mean_mean (fun i' k' => a i' j k' _), e6,
    Cert.Spec.mean_mean_mean (fun i' j' k' => a i' j' k' _)]

section
variable (v3 : FVec Ideal S1x32x32x32x64 .bf16) (a : Cert.Spec.Act3 64)
  (h3 : ∀ (i j k : Fin 32) (c : Fin 64), v3 (ix5 (0 : Fin 1) i j k c) = ((a i j k c : ℝ) : EReal))
  (v5 : FVec Ideal S512x64 .f32) (W : Fin 8 → Fin 64 → Fin 64 → ℝ)
  (h5 : ∀ (t : Fin 8) (c d : Fin 64),
    v5 (ix2 (⟨t.val * 64 + c.val, by have := t.isLt; have := c.isLt; omega⟩ : Fin 512) d) = ((W t c d : ℝ) : EReal))
include h3 h5

/-- THE LAYER: when the input block is the real activation a and the weight matrix holds W (row t·64 + c), the
    output block at (i, j, k, d) is the shared specification's order-3 layer. -/
theorem conv2Block_real (i j k : Fin 32) (d : Fin 64) :
    conv2Block v3 v5 (ix4 i j k d) = ((Cert.Spec.conv3 a W i j k d : ℝ) : EReal) := by
  unfold conv2Block
  rw [k2_pay22_real _ _ _ _ _ _ _ _ _ _ _ _ _ _ _ a (meanI a) (meanJ a) (meanK a) (meanJK a) (meanIK a) (meanIJ a) W
    (k2_pay6_real v3 a h3) (k2_pay8_real v5 W h5) (k2_pay9_real v5 W h5) (k2_pay10_real v5 W h5) (k2_pay11_real v5 W h5)
    (k2_pay12_real v5 W h5) (k2_pay13_real v5 W h5) (k2_pay14_real v5 W h5) (k2_pay15_real v5 W h5)
    (k2_pay16_real v3 a h3) (k2_pay17_real v3 a h3) (k2_pay18_real v3 a h3) (k2_pay19_real v3 a h3)
    (k2_pay20_real v3 a h3) (k2_pay21_real v3 a h3) i j k d, conv3_of_means a W i j k d]

/-- The stored block (rounded, with a leading unit axis) at (u, i, j, k, d) is the same real. -/
theorem conv2Stored_real (u : Fin 1) (i j k : Fin 32) (d : Fin 64) :
    Gen.k2_pay3 (F := Ideal) (conv2Block v3 v5) (ix5 u i j k d) = ((Cert.Spec.conv3 a W i j k d : ℝ) : EReal) :=
  (k2_pay3_apply _ u i j k d).trans (conv2Block_real v3 a h3 v5 W h5 i j k d)

/-- The block's sums over the last position axis. -/
theorem conv2RowSums_real (i j : Fin 32) (d : Fin 64) :
    conv2RowSums v3 v5 (ix3 i j d) = ((∑ k, Cert.Spec.conv3 a W i j k d : ℝ) : EReal) := by
  unfold conv2RowSums
  exact k2_pay23_real _ _ _ _ _ _ _ _ _ _ _ _ _ _ _ (Cert.Spec.conv3 a W) (conv2Block_real v3 a h3 v5 W h5) i j d

/-- The first running sum after the body: the sum before plus the sum of the layer's output over all positions. -/
theorem conv2Sum_real (v92 : FVec Ideal S1x64 .f32) (acc : Fin 64 → ℝ)
    (h92 : ∀ (u : Fin 1) d, v92 (ix2 u d) = ((acc d : ℝ) : EReal)) (u : Fin 1) (d : Fin 64) :
    Gen.k2_pay1 (F := Ideal) (conv2RowSums v3 v5) v92 (ix2 u d)
      = ((acc d + ∑ i, ∑ j, ∑ k, Cert.Spec.conv3 a W i j k d : ℝ) : EReal) :=
  k2_pay1_real _ _ (fun i j d => ∑ k, Cert.Spec.conv3 a W i j k d) acc (conv2RowSums_real v3 a h3 v5 W h5) h92 u d

/-- The second running sum after the body: the sum before plus the sum of the squares of the layer's output. -/
theorem conv2SumSq_real (v98 : FVec Ideal S1x64 .f32) (acc : Fin 64 → ℝ)
    (h98 : ∀ (u : Fin 1) d, v98 (ix2 u d) = ((acc d : ℝ) : EReal)) (u : Fin 1) (d : Fin 64) :
    Gen.k2_pay2 (F := Ideal) (conv2Block v3 v5) v98 (ix2 u d)
      = ((acc d + ∑ i, ∑ j, ∑ k, Cert.Spec.conv3 a W i j k d * Cert.Spec.conv3 a W i j k d : ℝ) : EReal) :=
  k2_pay2_real _ _ (Cert.Spec.conv3 a W) acc (conv2Block_real v3 a h3 v5 W h5) h98 u d

end

end Cert.KernelIdeal.Val

end
-- ==== Proof.KIStage2.lean ====
/- Region 2, the value: when the activations array the region is entered with holds a real batch `A` and the weights
   array holds real weights `W` (row `t * 64 + c`), then after the region the result array holds, at `(b, i, j, k, d)`,
   the shared specification's second layer; the sum array holds, per channel, the sum of that layer over the whole
   batch; the sum-of-squares array the sum of its squares. The result array at `(b, i, j, k, d)` is the body's result
   block of batch element `b`; that block is its one whole-buffer store's payload on the two whole-buffer reads. The
   two statistics arrays hold the accumulators after the last point, and the accumulator after `n + 1` points holds the
   real sum over the first `n + 1` batch elements: by induction on `n`, each point adding its own batch element's sum
   to what the points before left, the first one to a row of zeros. -/
import proofs.«145029_j5059471475016_2_alg».proof.Proof.KIArr2
import proofs.«145029_j5059471475016_2_alg».proof.Proof.KIValConv2
import proofs.«145029_j5059471475016_2_alg».proof.Proof.SpecBn

set_option maxRecDepth 16384

noncomputable section

namespace Cert.KernelIdeal.Val

open Idealize.ShloMosaic Idealize.ShloMosaic.TcCoe Idealize.ShloMosaic.ValueIdx
open Cert.KernelIdeal.Gen Cert.KernelIdeal.Hand Cert.Spec
open BigOperators

/-! ## The body's terms without their whole-buffer rectangles (at any float instance) -/

theorem zero_off2_2 : (![0, 0] : Fin 2 → Nat) = fun _ => 0 := funext fun a => by fin_cases a <;> rfl
theorem zero_off5_2 : (![0, 0, 0, 0, 0] : Fin 5 → Nat) = fun _ => 0 := funext fun a => by fin_cases a <;> rfl

section
variable {F : FTy → Type} [FloatOps F]

/-- A load through the whole of a `[1,64]` buffer reads its contents. -/
theorem ld_r2S (p : Vec F S1x64 .f32) : View.ld p r2S = p := View.ld_unit_zero (S := S1x64) zero_off2_2 _ p

/-- The result block is the rounded convolution of the two input blocks. -/
theorem out2_2_eq (x0 : Vec F S1x32x32x32x64 .bf16) (x1 : Vec F S512x64 .f32) : out2_2 x0 x1 = k2_pay3 (conv2 x0 x1) := by
  unfold out2_2
  rw [View.canon_unit_zero zero_off5_2]

/-- The sum accumulator after a point is the accumulating payload of the point's row sums and its value before. -/
theorem sum2_eq (x0 : Vec F S1x32x32x32x64 .bf16) (x1 : Vec F S512x64 .f32) (p : Vec F S1x64 .f32) :
    sum2 x0 x1 p = k2_pay1 (convRows2 x0 x1) p := by
  unfold sum2
  rw [View.canon_unit_zero zero_off2_2]

/-- The sum-of-squares accumulator after a point, likewise. -/
theorem sumsq2_eq (x0 : Vec F S1x32x32x32x64 .bf16) (x1 : Vec F S512x64 .f32) (p : Vec F S1x64 .f32) :
    sumsq2 x0 x1 p = k2_pay2 (conv2 x0 x1) p := by
  unfold sumsq2
  rw [View.canon_unit_zero zero_off2_2]

end

/-- The convolution of two blocks is the composed payload of the blocks themselves. -/
theorem conv2_eq (x0 : Vec Ideal S1x32x32x32x64 .bf16) (x1 : Vec Ideal S512x64 .f32) : conv2 x0 x1 = conv2Block x0 x1 := by
  unfold conv2 conv2Block
  simp only [View.ld_unit_zero (S := S1x32x32x32x64) zero_off5_2, View.ld_unit_zero (S := S512x64) zero_off2_2]

/-- Its row sums, likewise. -/
theorem convRows2_eq (x0 : Vec Ideal S1x32x32x32x64 .bf16) (x1 : Vec Ideal S512x64 .f32) : convRows2 x0 x1 = conv2RowSums x0 x1 := by
  unfold convRows2 conv2RowSums
  simp only [View.ld_unit_zero (S := S1x32x32x32x64) zero_off5_2, View.ld_unit_zero (S := S512x64) zero_off2_2]

/-! ## The accumulators over the sixteen points -/

/-- A function on the sixteen batch elements, extended by zero to all naturals: the summand of a partial sum. -/
def ext16 (f : Fin 16 → ℝ) (m : ℕ) : ℝ := if h : m < 16 then f ⟨m, h⟩ else 0

theorem ext16_of_lt (f : Fin 16 → ℝ) (m : ℕ) (h : m < 16) : ext16 f m = f ⟨m, h⟩ := dif_pos h

/-- The partial sums over all sixteen are the sum over the batch. -/
theorem sum_range_ext16 (f : Fin 16 → ℝ) : ∑ m ∈ Finset.range 16, ext16 f m = ∑ b : Fin 16, f b := by
  rw [← Fin.sum_univ_eq_sum_range (fun m => ext16 f m) 16]
  exact Finset.sum_congr rfl fun b _ => ext16_of_lt f b.val b.isLt

section
variable (V : (c : Dev nD) → (b : Ref sig .tc) → Buf (Elt Ideal) ((c : Thread nD τ).loc b)) (c : Dev nD)
  (A : Batch3) (W : Fin 8 → Fin 64 → Fin 64 → ℝ)
  (hA : ∀ (b : Fin 16) (i j k : Fin 32) (c' : Fin 64), (V c (Pipeline.arrRef spec2 0)) (ix5 b i j k c') = ((A b i j k c' : ℝ) : EReal))
  (hW : ∀ (t : Fin 8) (c' d : Fin 64),
    (V c (Pipeline.arrRef spec2 1)) (ix2 (⟨t.val * 64 + c'.val, by have := t.isLt; have := c'.isLt; omega⟩ : Fin 512) d) = ((W t c' d : ℝ) : EReal))
include hA hW

/-- The sum accumulator after `n + 1` points holds, per channel, the layer's sum over the first `n + 1` batch elements. -/
theorem accS2_real : ∀ (n : ℕ) (hn : n < cfg2.N) (u : Fin 1) (d : Fin 64),
    accS2 V c n hn (ix2 u d)
      = ((∑ m ∈ Finset.range (n + 1), ext16 (fun b => ∑ i, ∑ j, ∑ k, conv3 (A b) W i j k d) m : ℝ) : EReal) := by
  intro n
  induction n with
  | zero =>
    intro hn u d
    have h16 : (0 : ℕ) < 16 := by decide
    rw [accS2, sum2_eq, convRows2_eq, iblk2_0_eq_row, iblk2_1_eq]
    rw [conv2Sum_real _ (A ⟨0, h16⟩) (fun i j k c' => hA ⟨0, h16⟩ i j k c') _ W hW (k2_pay4 (F := Ideal)) (fun _ => 0)
      (fun u d => k2_pay4_real u d) u d]
    rw [Finset.sum_range_one, ext16_of_lt _ 0 h16, zero_add]
  | succ n ih =>
    intro hn u d
    have h16 : n + 1 < 16 := lt_of_lt_of_eq hn (show cfg2.N = 16 from N_2)
    rw [accS2, sum2_eq, convRows2_eq, ld_r2S, iblk2_0_eq_row, iblk2_1_eq]
    rw [conv2Sum_real _ (A ⟨n + 1, h16⟩) (fun i j k c' => hA ⟨n + 1, h16⟩ i j k c') _ W hW (accS2 V c n (Nat.lt_of_succ_lt hn))
      (fun d => ∑ m ∈ Finset.range (n + 1), ext16 (fun b => ∑ i, ∑ j, ∑ k, conv3 (A b) W i j k d) m)
      (fun u d => ih (Nat.lt_of_succ_lt hn) u d) u d]
    rw [Finset.sum_range_succ _ (n + 1), ext16_of_lt _ (n + 1) h16]

/-- The sum-of-squares accumulator after `n + 1` points, likewise. -/
theorem accQ2_real : ∀ (n : ℕ) (hn : n < cfg2.N) (u : Fin 1) (d : Fin 64),
    accQ2 V c n hn (ix2 u d)
      = ((∑ m ∈ Finset.range (n + 1), ext16 (fun b => ∑ i, ∑ j, ∑ k, conv3 (A b) W i j k d * conv3 (A b) W i j k d) m : ℝ) : EReal) := by
  intro n
  induction n with
  | zero =>
    intro hn u d
    have h16 : (0 : ℕ) < 16 := by decide
    rw [accQ2, sumsq2_eq, conv2_eq, iblk2_0_eq_row, iblk2_1_eq]
    rw [conv2SumSq_real _ (A ⟨0, h16⟩) (fun i j k c' => hA ⟨0, h16⟩ i j k c') _ W hW (k2_pay5 (F := Ideal)) (fun _ => 0)
      (fun u d => k2_pay5_real u d) u d]
    rw [Finset.sum_range_one, ext16_of_lt _ 0 h16, zero_add]
  | succ n ih =>
    intro hn u d
    have h16 : n + 1 < 16 := lt_of_lt_of_eq hn (show cfg2.N = 16 from N_2)
    rw [accQ2, sumsq2_eq, conv2_eq, ld_r2S, iblk2_0_eq_row, iblk2_1_eq]
    rw [conv2SumSq_real _ (A ⟨n + 1, h16⟩) (fun i j k c' => hA ⟨n + 1, h16⟩ i j k c') _ W hW (accQ2 V c n (Nat.lt_of_succ_lt hn))
      (fun d => ∑ m ∈ Finset.range (n + 1), ext16 (fun b => ∑ i, ∑ j, ∑ k, conv3 (A b) W i j k d * conv3 (A b) W i j k d) m)
      (fun u d => ih (Nat.lt_of_succ_lt hn) u d) u d]
    rw [Finset.sum_range_succ _ (n + 1), ext16_of_lt _ (n + 1) h16]

/-- REGION 2's VALUE. -/
theorem stage2 :
    (∀ (b : Fin 16) (i j k : Fin 32) (d : Fin 64),
        ((dat2 V c).arrAt 2 cfg2.N) (ix5 b i j k d) = ((layer2 A W b i j k d : ℝ) : EReal))
    ∧ (∀ d : Fin 64, ((dat2 V c).arrAt 3 cfg2.N) (ix2 (0 : Fin 1) d) = ((sum4 (layer2 A W) d : ℝ) : EReal))
    ∧ (∀ d : Fin 64, ((dat2 V c).arrAt 4 cfg2.N) (ix2 (0 : Fin 1) d) = ((sumsq4 (layer2 A W) d : ℝ) : EReal)) := by
  refine ⟨fun b i j k d => ?_, fun d => ?_, fun d => ?_⟩
  · refine (arr2_out V c b i j k d).trans ?_
    rw [out2_2_eq, conv2_eq]
    exact conv2Stored_real _ (A b) (fun i j k c' => hA b i j k c') _ W hW 0 i j k d
  · rw [arr2_sum, accS2_real V c A W hA hW 15 lt15_2 0 d, sum_range_ext16]
    rfl
  · rw [arr2_sumsq, accQ2_real V c A W hA hW 15 lt15_2 0 d, sum_range_ext16]
    rfl

end

end Cert.KernelIdeal.Val

end
-- ==== Proof.KIArr3.lean ====
/- REGION 3, FROM BLOCKS TO THE ARRAY: what the second normalisation's output array holds after the region, as ONE
   function of the region's entry arrays, index by index. The grid has 16 points, one per batch element: point `t` reads
   batch element `t` of the activations (window 0's block index is `(t, 0, 0, 0, 0)` with block extents
   `[1,32,32,32,64]`) and the four per-channel rows — scale, shift, mean, variance — whole (windows 1 to 4, block index
   `(0, 0)`), and writes back batch element `t` of the output (window 5, block index `(t, 0, 0, 0, 0)`). A block's
   coordinate in its array is always index × extent + 1 × the coordinate inside the block. So batch element `b` of the
   output array is the body's function `out3_5` of batch element `b` of the activations and of the four rows; the
   sixteen written-back blocks tile the output array; the input arrays end as the region found them. -/
import proofs.«145029_j5059471475016_2_alg».proof.Proof.KIReg3
import proofs.«145029_j5059471475016_2_alg».proof.Proof.KIArr4
import Idealize.ShloMosaic.Lib.Pipeline.Value
import Idealize.ShloMosaic.Lib.ValueIdx
import Idealize.ShloMosaic.Lib.ValueIdxCoords
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The output array as one function of the activations array `A0` and the four rows: at `(b, i, j, k, d)` the body's
    output block of batch element `b`, read at `(0, i, j, k, d)`. -/
def G3 (A0 : S16x32x32x32x64.Idx → Elt F .bf16) (A1 A2 A3 A4 : S1x64.Idx → Elt F .f32) : S16x32x32x32x64.Idx → Elt F .bf16 :=
  fun q => out3_5 (rowBlk5 A0 (q 0)) A1 A2 A3 A4 (ix5 (0 : Fin 1) (q 1) (q 2) (q 3) (q 4))

variable (V : (c : Dev nD) → (b : Ref sig .tc) → Buf (Elt F) ((c : Thread nD τ).loc b))

/-- The printed index maps, decided once over the sixteen points: the activations' block moves with the output's along
    the batch axis and sits at 0 on every other; each row's block is the whole row; the output's block at point `t` is
    batch element `t`. -/
theorem idx_facts3 : ∀ t : Fin cfg3.N,
    win3_0.index t (0 : Fin 5) = win3_5.index t (0 : Fin 5)
    ∧ win3_0.index t (1 : Fin 5) = 0 ∧ win3_0.index t (2 : Fin 5) = 0 ∧ win3_0.index t (3 : Fin 5) = 0 ∧ win3_0.index t (4 : Fin 5) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 5) = t.val
    ∧ win3_5.index t (1 : Fin 5) = 0 ∧ win3_5.index t (2 : Fin 5) = 0 ∧ win3_5.index t (3 : Fin 5) = 0 ∧ win3_5.index t (4 : Fin 5) = 0 :=
  (by decide +kernel : ∀ t : Fin grid3.N, _)

/-- Every batch element is SOME point's output block. -/
theorem idx_onto3 : ∀ q0 : Fin 16, ∃ t : Fin cfg3.N, win3_5.index t = ![q0.val, 0, 0, 0, 0] :=
  (by decide +kernel : ∀ q0 : Fin 16, ∃ t : Fin grid3.N, win3_5.index t = ![q0.val, 0, 0, 0, 0])

/-- The activations' block at point `t` is batch element `b` of the activations array, for the `b` the output's block
    sits at: the two windows' batch indices agree, and every other block index of the activations is 0. -/
theorem iblk3_0_eq (c : Dev nD) (t : Fin cfg3.N) (b : Fin 16) (hb : b.val = win3_5.index t (0 : Fin 5)) :
    iblk3 V c 0 t = rowBlk5 (V c main_v12_0) b := by
  obtain ⟨e0, e1, e2, e3, e4, -⟩ := idx_facts3 t
  funext y
  unfold iblk3 rowBlk5
  rw [View.read_apply]
  show V c main_v12_0 _ = V c main_v12_0 _
  congr 1
  funext a
  apply Fin.ext
  match a with
  | ⟨0, _⟩ => show win3_0.index t (0 : Fin 5) * 1 + 1 * (y 0).val = b.val; have hy : (y 0).val < 1 := (y 0).isLt; omega
  | ⟨1, _⟩ => show win3_0.index t (1 : Fin 5) * 32 + 1 * (y 1).val = (y 1).val; omega
  | ⟨2, _⟩ => show win3_0.index t (2 : Fin 5) * 32 + 1 * (y 2).val = (y 2).val; omega
  | ⟨3, _⟩ => show win3_0.index t (3 : Fin 5) * 32 + 1 * (y 3).val = (y 3).val; omega
  | ⟨4, _⟩ => show win3_0.index t (4 : Fin 5) * 64 + 1 * (y 4).val = (y 4).val; omega

/-- Each row's block at every point is the whole row. -/
theorem iblk3_1_eq (c : Dev nD) (t : Fin cfg3.N) : iblk3 V c 1 t = V c main_v21 := by
  obtain ⟨-, -, -, -, -, e0, e1, -⟩ := idx_facts3 t
  funext y
  unfold iblk3
  rw [View.read_apply]
  show V c main_v21 _ = V c main_v21 _
  congr 1
  funext a
  apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega
theorem iblk3_2_eq (c : Dev nD) (t : Fin cfg3.N) : iblk3 V c 2 t = V c main_v22 := by
  obtain ⟨-, -, -, -, -, -, -, e0, e1, -⟩ := idx_facts3 t
  funext y
  unfold iblk3
  rw [View.read_apply]
  show V c main_v22 _ = V c main_v22 _
  congr 1
  funext a
  apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega
theorem iblk3_3_eq (c : Dev nD) (t : Fin cfg3.N) : iblk3 V c 3 t = V c main_v14 := by
  obtain ⟨-, -, -, -, -, -, -, -, -, e0, e1, -⟩ := idx_facts3 t
  funext y
  unfold iblk3
  rw [View.read_apply]
  show V c main_v14 _ = V c main_v14 _
  congr 1
  funext a
  apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega
theorem iblk3_4_eq (c : Dev nD) (t : Fin cfg3.N) : iblk3 V c 4 t = V c main_v20 := by
  obtain ⟨-, -, -, -, -, -, -, -, -, -, -, e0, e1, -⟩ := idx_facts3 t
  funext y
  unfold iblk3
  rw [View.read_apply]
  show V c main_v20 _ = V c main_v20 _
  congr 1
  funext a
  apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Reading point `t`'s block of an array given batch element by batch element (`f b` is batch element `b`, as a block)
    gives the batch element the block sits at: the block's coordinate on the batch axis is its index there (extent 1),
    and on every other axis the coordinate inside the block (index 0). -/
theorem read_blk3_rows (f : Fin 16 → S1x32x32x32x64.Idx → Elt F .bf16) (t : Fin cfg3.N) (b : Fin 16)
    (hb : b.val = win3_5.index t (0 : Fin 5)) (e1 : win3_5.index t (1 : Fin 5) = 0) (e2 : win3_5.index t (2 : Fin 5) = 0)
    (e3 : win3_5.index t (3 : Fin 5) = 0) (e4 : win3_5.index t (4 : Fin 5) = 0) :
    ((cfg3.win 5).blk t).view.read (Elt F) (fun q : S16x32x32x32x64.Idx => f (q 0) (ix5 (0 : Fin 1) (q 1) (q 2) (q 3) (q 4)))
      = (cfg3.win 5).cut (grid3.coords t) (f b) := by
  funext j
  rw [View.read_apply]
  show f _ _ = f _ _
  have hb' : (((cfg3.win 5).blk t).view.emb j) 0 = b := by
    apply Fin.ext
    show win3_5.index t (0 : Fin 5) * 1 + 1 * (j 0).val = b.val
    have hj : (j 0).val < 1 := (j 0).isLt
    omega
  rw [hb']
  congr 1
  funext a
  apply Fin.ext
  match a with
  | ⟨0, _⟩ => show 0 = (j 0).val; have hj : (j 0).val < 1 := (j 0).isLt; omega
  | ⟨1, _⟩ => show win3_5.index t (1 : Fin 5) * 32 + 1 * (j 1).val = (j 1).val; omega
  | ⟨2, _⟩ => show win3_5.index t (2 : Fin 5) * 32 + 1 * (j 2).val = (j 2).val; omega
  | ⟨3, _⟩ => show win3_5.index t (3 : Fin 5) * 32 + 1 * (j 3).val = (j 3).val; omega
  | ⟨4, _⟩ => show win3_5.index t (4 : Fin 5) * 64 + 1 * (j 4).val = (j 4).val; omega

/-- WHAT POINT `t` WRITES BACK is block `t` of `G3` of the five input arrays as the region finds them: the body's output
    block is `out3_5` of the five input blocks; the activations' block is batch element `t`, where the output's block
    sits, and each row's block is the row. -/
theorem flushed3_eq (c : Dev nD) (t : Fin cfg3.N) :
    (dat3 V c).flushed 5 t = ((cfg3.win 5).blk t).view.read (Elt F) (G3 (V c main_v12_0) (V c main_v21) (V c main_v22) (V c main_v14) (V c main_v20)) := by
  show (cfg3.win 5).cut (grid3.coords t) ((dat3 V c).after 5 t) = _
  rw [after3_5]
  obtain ⟨-, -, -, -, -, -, -, -, -, -, -, -, -, e0, e1, e2, e3, e4⟩ := idx_facts3 t
  have hN : t.val < 16 := lt_of_lt_of_eq t.isLt N_3
  rw [iblk3_0_eq V c t ⟨t.val, hN⟩ e0.symm, iblk3_1_eq V c t, iblk3_2_eq V c t, iblk3_3_eq V c t, iblk3_4_eq V c t]
  unfold G3
  exact (read_blk3_rows (fun b => out3_5 (rowBlk5 (V c main_v12_0) b) (V c main_v21) (V c main_v22) (V c main_v14) (V c main_v20))
    t ⟨t.val, hN⟩ e0.symm e1 e2 e3 e4).symm

/-- An index of the output array is in point `t`'s block iff each coordinate is in the block's range on its axis. -/
theorem mem_blk3 (t : Fin cfg3.N) (i : S16x32x32x32x64.Idx) :
    i ∈ ((cfg3.win 5).blk t).view.set ↔ ∀ a : Fin 5, win3_5.index t a * S1x32x32x32x64.size a ≤ (i a).val ∧ (i a).val < win3_5.index t a * S1x32x32x32x64.size a + S1x32x32x32x64.size a := by
  show i ∈ ((View.whole main_v23).slice (win3_5.rect t)).set ↔ _
  rw [View.set_slice_whole, Rect.mem_set_unit]
  exact Iff.rfl

/-- The sixteen written-back blocks tile the output array: index `(b, i, j, k, d)` is in the block of the point whose
    batch index is `b`. -/
theorem covered3 (i : S16x32x32x32x64.Idx) : ∃ t : Fin cfg3.N, (cfg3.win 5).flush t = true ∧ i ∈ ((cfg3.win 5).blk t).view.set := by
  have hi0 : (i 0).val < 16 := (i 0).isLt
  have hi1 : (i 1).val < 32 := (i 1).isLt
  have hi2 : (i 2).val < 32 := (i 2).isLt
  have hi3 : (i 3).val < 32 := (i 3).isLt
  have hi4 : (i 4).val < 64 := (i 4).isLt
  obtain ⟨t, ht⟩ := idx_onto3 ⟨(i 0).val, hi0⟩
  have q0 : win3_5.index t (0 : Fin 5) = (i 0).val := congrFun ht 0
  have q1 : win3_5.index t (1 : Fin 5) = 0 := congrFun ht 1
  have q2 : win3_5.index t (2 : Fin 5) = 0 := congrFun ht 2
  have q3 : win3_5.index t (3 : Fin 5) = 0 := congrFun ht 3
  have q4 : win3_5.index t (4 : Fin 5) = 0 := congrFun ht 4
  refine ⟨t, flush3_5 t, ?_⟩
  rw [mem_blk3]
  intro a
  match a with
  | ⟨0, _⟩ => show win3_5.index t (0 : Fin 5) * 1 ≤ (i 0).val ∧ (i 0).val < win3_5.index t (0 : Fin 5) * 1 + 1; omega
  | ⟨1, _⟩ => show win3_5.index t (1 : Fin 5) * 32 ≤ (i 1).val ∧ (i 1).val < win3_5.index t (1 : Fin 5) * 32 + 32; omega
  | ⟨2, _⟩ => show win3_5.index t (2 : Fin 5) * 32 ≤ (i 2).val ∧ (i 2).val < win3_5.index t (2 : Fin 5) * 32 + 32; omega
  | ⟨3, _⟩ => show win3_5.index t (3 : Fin 5) * 32 ≤ (i 3).val ∧ (i 3).val < win3_5.index t (3 : Fin 5) * 32 + 32; omega
  | ⟨4, _⟩ => show win3_5.index t (4 : Fin 5) * 64 ≤ (i 4).val ∧ (i 4).val < win3_5.index t (4 : Fin 5) * 64 + 64; omega

/-- THE OUTPUT ARRAY after the region: `G3` of the five input arrays as the region found them. -/
theorem final3 (c : Dev nD) : (dat3 V c).arrAt 5 cfg3.N = G3 (V c main_v12_0) (V c main_v21) (V c main_v22) (V c main_v14) (V c main_v20) :=
  (dat3 V c).arrAt_eq_of_cover 5 (G3 (V c main_v12_0) (V c main_v21) (V c main_v22) (V c main_v14) (V c main_v20)) (fun t _ => flushed3_eq V c t) covered3

/-- The same, index by index: batch element `b` of the output is the body's function of batch element `b` of the
    activations and of the four rows. -/
theorem arr3_out (c : Dev nD) (b : Fin 16) (i j k : Fin 32) (d : Fin 64) :
    ((dat3 V c).arrAt 5 cfg3.N : S16x32x32x32x64.Idx → Elt F .bf16) (ix5 b i j k d)
      = out3_5 (rowBlk5 (V c (Pipeline.arrRef spec3 0)) b) (V c (Pipeline.arrRef spec3 1)) (V c (Pipeline.arrRef spec3 2))
          (V c (Pipeline.arrRef spec3 3)) (V c (Pipeline.arrRef spec3 4)) (ix5 (0 : Fin 1) i j k d) := by
  rw [final3]; rfl

/-- The input arrays end as the region found them. -/
theorem arr3_in0 (c : Dev nD) : (dat3 V c).arrAt 0 cfg3.N = V c (Pipeline.arrRef spec3 0) :=
  ((dat3 V c).arrAt_in 0 rfl _).trans (A_eq3 V c 0)
theorem arr3_in1 (c : Dev nD) : (dat3 V c).arrAt 1 cfg3.N = V c (Pipeline.arrRef spec3 1) :=
  ((dat3 V c).arrAt_in 1 rfl _).trans (A_eq3 V c 1)
theorem arr3_in2 (c : Dev nD) : (dat3 V c).arrAt 2 cfg3.N = V c (Pipeline.arrRef spec3 2) :=
  ((dat3 V c).arrAt_in 2 rfl _).trans (A_eq3 V c 2)
theorem arr3_in3 (c : Dev nD) : (dat3 V c).arrAt 3 cfg3.N = V c (Pipeline.arrRef spec3 3) :=
  ((dat3 V c).arrAt_in 3 rfl _).trans (A_eq3 V c 3)
theorem arr3_in4 (c : Dev nD) : (dat3 V c).arrAt 4 cfg3.N = V c (Pipeline.arrRef spec3 4) :=
  ((dat3 V c).arrAt_in 4 rfl _).trans (A_eq3 V c 4)

end Cert.KernelIdeal.Hand

end
-- ==== Proof.KIStage3.lean ====
/- REGION 3, THE VALUE: when the activations array the region is entered with holds a real batch `Y` and the four
   per-channel rows hold real scale, shift, mean and (non-negative) variance, the output array after the region holds,
   at (b, i, j, k, d), the shared specification's affine normalisation followed by the clamp at zero. The output array at
   (b, i, j, k, d) is the body's output block of batch element `b` read at (0, i, j, k, d); that block is its one
   whole-buffer store's payload on the five whole-buffer reads; and the payload on a real block is the normalisation. -/
import proofs.«145029_j5059471475016_2_alg».proof.Proof.KIArr3
import proofs.«145029_j5059471475016_2_alg».proof.Proof.KIValBn

set_option maxRecDepth 16384

noncomputable section

namespace Cert.KernelIdeal.Val

open Idealize.ShloMosaic Idealize.ShloMosaic.TcCoe Idealize.ShloMosaic.ValueIdx
open Cert.KernelIdeal.Gen Cert.KernelIdeal.Hand Cert.Spec

/-- The body's output block is its payload of the five input blocks: the one store is of the whole buffer and the five
    reads are of the whole buffers. At any float instance. -/
theorem out3_5_eq {F : FTy → Type} [FloatOps F] (x0 : Vec F S1x32x32x32x64 .bf16) (x1 x2 x3 x4 : Vec F S1x64 .f32) :
    out3_5 x0 x1 x2 x3 x4 = k3_pay1 x0 x1 x2 x3 x4 := by
  have z2 : (![0, 0] : Fin 2 → Nat) = fun _ => 0 := funext fun a => by fin_cases a <;> rfl
  have z5 : (![0, 0, 0, 0, 0] : Fin 5 → Nat) = fun _ => 0 := funext fun a => by fin_cases a <;> rfl
  unfold out3_5
  rw [View.canon_unit_zero z5]
  simp only [View.ld_unit_zero (S := S1x32x32x32x64) z5, View.ld_unit_zero (S := S1x64) z2]

/-- REGION 3's VALUE. -/
theorem stage3 (V : (c : Dev nD) → (b : Ref sig .tc) → Buf (Elt Ideal) ((c : Thread nD τ).loc b)) (c : Dev nD)
    (Y : Batch3) (g β mu var : Fin 64 → ℝ) (hvar : ∀ d, 0 ≤ var d)
    (hY : ∀ b i j k d, (V c (Pipeline.arrRef spec3 0)) (ix5 b i j k d) = ((Y b i j k d : ℝ) : EReal))
    (hg : ∀ d, (V c (Pipeline.arrRef spec3 1)) (ix2 (0 : Fin 1) d) = ((g d : ℝ) : EReal))
    (hβ : ∀ d, (V c (Pipeline.arrRef spec3 2)) (ix2 (0 : Fin 1) d) = ((β d : ℝ) : EReal))
    (hmu : ∀ d, (V c (Pipeline.arrRef spec3 3)) (ix2 (0 : Fin 1) d) = ((mu d : ℝ) : EReal))
    (hv : ∀ d, (V c (Pipeline.arrRef spec3 4)) (ix2 (0 : Fin 1) d) = ((var d : ℝ) : EReal)) :
    ∀ (b : Fin 16) (i j k : Fin 32) (d : Fin 64),
      ((dat3 V c).arrAt 5 cfg3.N) (ix5 b i j k d) = ((bnreluK Y g β mu var epsR b i j k d : ℝ) : EReal) := by
  intro b i j k d
  refine (arr3_out V c b i j k d).trans ?_
  rw [out3_5_eq]
  exact k3_pay1_bnreluK (rowBlk5 (V c (Pipeline.arrRef spec3 0)) b) (V c (Pipeline.arrRef spec3 1))
    (V c (Pipeline.arrRef spec3 2)) (V c (Pipeline.arrRef spec3 3)) (V c (Pipeline.arrRef spec3 4))
    Y b g β mu var (fun i j k d => hY b i j k d) hg hβ hmu hv hvar 0 i j k d

end Cert.KernelIdeal.Val

end
-- ==== Proof.KIValConv4Pay1.lean ====
/-
  The order-3 → order-1 layer: the stored block from its last two terms.

  The stored block adds, to the sum of the first three contractions (a [32, 64] matrix), the fourth contraction: the
  one-row matrix of the global means times the fourth weight block, spread over the 32 rows; the result is read with
  a leading unit axis.
-/
import proofs.«145029_j5059471475016_2_alg».proof.Proof.Gen.KernelIdeal.Skeleton
import proofs.«145029_j5059471475016_2_alg».proof.Proof.KIValConvCommon

noncomputable section

namespace Cert.KernelIdeal.Val

open Idealize.ShloMosaic Idealize.ShloMosaic.ValueIdx Cert.IdealReal Cert.ConvVal

/-- The stored block at (u, i, d): the three-term sum at (i, d) plus the contraction of the global means with the
    fourth weight block at column d. -/
theorem k4_pay1_real (v7 : FVec Ideal S64x64 .bf16) (v35 : FVec Ideal S32x64 .f32) (v36 : FVec Ideal S1x64 .f32)
    (B : Fin 64 → Fin 64 → ℝ) (Y : Fin 32 → Fin 64 → ℝ) (g : Fin 64 → ℝ)
    (h7 : ∀ c d, v7 (ix2 c d) = ((B c d : ℝ) : EReal)) (h35 : ∀ i d, v35 (ix2 i d) = ((Y i d : ℝ) : EReal))
    (h36 : ∀ (u : Fin 1) c, v36 (ix2 u c) = ((g c : ℝ) : EReal)) (u : Fin 1) (i : Fin 32) (d : Fin 64) :
    Gen.k4_pay1 (F := Ideal) v7 v35 v36 (ix3 u i d) = ((Y i d + ∑ c, g c * B c d : ℝ) : EReal) := by
  unfold Gen.k4_pay1
  refine (shapeCast_ab_1ab_apply _ _ u i d).trans ?_
  rw [addf_apply, h35 i d, EReal.coe_add]
  congr 1
  refine (broadcastTo_1b_ab_apply _ _ i d).trans ?_
  exact matmul_row_real _ none _ _ (0 : Fin 1) d g (fun c => B c d) (fun c => h36 0 c) (fun c => h7 c d)

end Cert.KernelIdeal.Val

end
-- ==== Proof.KIValConv4.lean ====
/-
  The order-3 → order-1 layer: the first three contractions, the whole block, and the network's layer.

  The three contractions multiply the means over two position axes (rows indexed by the remaining position) with
  the first three weight blocks and are added in order.  With the fourth term they give the stored block; a mean
  of means is the mean over the pairs (Cert.Spec.mean_mean, mean_mean_mean), so the block is the layer of the shared
  specification.
-/
import proofs.«145029_j5059471475016_2_alg».proof.Proof.KIValConv4Means
import proofs.«145029_j5059471475016_2_alg».proof.Proof.KIValConv4Pay1

noncomputable section

namespace Cert.KernelIdeal.Val

open Idealize.ShloMosaic Idealize.ShloMosaic.ValueIdx Cert.IdealReal Cert.ConvVal

/-- Three plain contractions into zero accumulators, added in order, at a row and a column where every operand is
    real. -/
theorem three_matmul_real {M K N : ℕ} {φ₁ φ₂ : FTy}
    (wf : DotDims.WF ⟨2, ![M, K]⟩ ⟨2, ![K, N]⟩ ⟨2, ![M, N]⟩ [1] [0] [0] [1] [] [])
    (l1 l2 l3 : FVec Ideal ⟨2, ![M, K]⟩ φ₁) (w1 w2 w3 : FVec Ideal ⟨2, ![K, N]⟩ φ₂)
    (A1 A2 A3 : Fin M → Fin K → ℝ) (B1 B2 B3 : Fin K → Fin N → ℝ)
    (hl1 : ∀ p k, l1 (ix2 p k) = ((A1 p k : ℝ) : EReal)) (hl2 : ∀ p k, l2 (ix2 p k) = ((A2 p k : ℝ) : EReal))
    (hl3 : ∀ p k, l3 (ix2 p k) = ((A3 p k : ℝ) : EReal))
    (hw1 : ∀ k q, w1 (ix2 k q) = ((B1 k q : ℝ) : EReal)) (hw2 : ∀ k q, w2 (ix2 k q) = ((B2 k q : ℝ) : EReal))
    (hw3 : ∀ k q, w3 (ix2 k q) = ((B3 k q : ℝ) : EReal)) (p : Fin M) (q : Fin N) :
    addf (addf (matmul (F := Ideal) (Cert.BlockMatmul.plainDims wf) none l1 w1 (constant ⟨2, ![M, N]⟩ .f32 0x00000000#32))
               (matmul (F := Ideal) (Cert.BlockMatmul.plainDims wf) none l2 w2 (constant ⟨2, ![M, N]⟩ .f32 0x00000000#32)))
         (matmul (F := Ideal) (Cert.BlockMatmul.plainDims wf) none l3 w3 (constant ⟨2, ![M, N]⟩ .f32 0x00000000#32)) (ix2 p q)
      = (((∑ k, A1 p k * B1 k q) + (∑ k, A2 p k * B2 k q) + (∑ k, A3 p k * B3 k q) : ℝ) : EReal) := by
  rw [addf_apply, addf_apply,
    matmul_row_real wf none l1 w1 p q (A1 p) (fun k => B1 k q) (hl1 p) (fun k => hw1 k q),
    matmul_row_real wf none l2 w2 p q (A2 p) (fun k => B2 k q) (hl2 p) (fun k => hw2 k q),
    matmul_row_real wf none l3 w3 p q (A3 p) (fun k => B3 k q) (hl3 p) (fun k => hw3 k q),
    EReal.coe_add, EReal.coe_add]

section
variable (v0 : FVec Ideal S1x32x32x32x64 .bf16) (a : Cert.Spec.Act3 64)
  (h0 : ∀ (i j k : Fin 32) (c : Fin 64), v0 (ix5 (0 : Fin 1) i j k c) = ((a i j k c : ℝ) : EReal))
  (v2 : FVec Ideal S256x64 .f32) (W : Fin 4 → Fin 64 → Fin 64 → ℝ)
  (h2 : ∀ (t : Fin 4) (c d : Fin 64),
    v2 (ix2 (⟨t.val * 64 + c.val, by have := t.isLt; have := c.isLt; omega⟩ : Fin 256) d) = ((W t c d : ℝ) : EReal))
include h0 h2

/-- The first three contractions, added in order. -/
theorem k4_pay7_real (i : Fin 32) (d : Fin 64) :
    Gen.k4_pay7 (F := Ideal) v0 v2 (ix2 i d)
      = (((∑ c, meanJK a i c * W 0 c d) + (∑ c, meanIK a i c * W 1 c d) + (∑ c, meanIJ a i c * W 2 c d) : ℝ) : EReal) := by
  unfold Gen.k4_pay7
  refine three_matmul_real _ _ _ _ _ _ _ (meanJK a) (meanIK a) (meanIJ a) (W 0) (W 1) (W 2) ?_ ?_ ?_ ?_ ?_ ?_ i d
  · intro p c; exact k4_pay6_real v0 a h0 p c
  · intro p c
    exact divf_splat32 _ _ _ (reduce3_axis0 _ _ _ _ (meanK a) (k4_pay5_real v0 a h0) p c)
  · intro p c
    refine divf_splat32 _ _ _ (reduce3_axis0 _ _ _ _ (meanI a) (fun j k c => ?_) p c)
    exact divf_splat32 _ _ _ (reduce4_axis0 _ _ _ _ a (fun i j k c => k4_pay2_real v0 a h0 i j k c) j k c)
  · intro c q; exact k4_wslice_real v2 W h2 0 0 rfl _ c q
  · intro c q; exact k4_wslice_real v2 W h2 1 64 rfl _ c q
  · intro c q; exact k4_wslice_real v2 W h2 2 128 rfl _ c q

/-- The layer's stored block: the composed payload of the body. -/
def conv3to1Block (v0 : FVec Ideal S1x32x32x32x64 .bf16) (v2 : FVec Ideal S256x64 .f32) : FVec Ideal S1x32x64 .f32 :=
  Gen.k4_pay1 (F := Ideal) (Gen.k4_pay4 (F := Ideal) v2) (Gen.k4_pay7 (F := Ideal) v0 v2) (Gen.k4_pay8 (F := Ideal) v0)

omit h0 h2 in
/-- Means of means are means over pairs and triples: the four terms as the shared specification writes them. -/
theorem conv3to1_of_means (i : Fin 32) (d : Fin 64) :
    (∑ c, meanJK a i c * W 0 c d) + (∑ c, meanIK a i c * W 1 c d) + (∑ c, meanIJ a i c * W 2 c d)
        + ∑ c, meanIJK a c * W 3 c d
      = Cert.Spec.conv3to1 a W i d := by
  unfold Cert.Spec.conv3to1 meanIJK meanJK meanIK meanIJ meanK meanI
  have e2 : ∀ c, (∑ j, (∑ i', a i' j i c) / 32) / 32 = (∑ i', ∑ j, a i' j i c) / 1024 := fun c => by
    rw [Cert.Spec.mean_mean (fun j i' => a i' j i c), Finset.sum_comm]
  simp only [Cert.Spec.mean_mean (fun j k => a i j k _), Cert.Spec.mean_mean (fun i' k => a i' i k _), e2,
    Cert.Spec.mean_mean_mean (fun i' j k => a i' j k _)]

/-- THE LAYER: when the input block is the real activation a and the weight matrix holds W (row t·64 + c), the
    stored block at (u, i, d) is the shared specification's order-3 → order-1 layer. -/
theorem conv3to1Block_real (u : Fin 1) (i : Fin 32) (d : Fin 64) :
    conv3to1Block v0 v2 (ix3 u i d) = ((Cert.Spec.conv3to1 a W i d : ℝ) : EReal) := by
  unfold conv3to1Block
  rw [k4_pay1_real _ _ _ (W 3) _ (meanIJK a) (k4_pay4_real v2 W h2) (k4_pay7_real v0 a h0 v2 W h2)
    (fun u c => k4_pay8_real v0 a h0 u c) u i d, conv3to1_of_means a W i d]

end

end Cert.KernelIdeal.Val

end
-- ==== Proof.KIStage4.lean ====
/- REGION 4, THE VALUE: when the activations array the region is entered with holds a real batch `A` and the weight
   matrix holds real weights `W` (row t·64 + c), the output array after the region holds, at (b, i, d), the shared
   specification's order-3 → order-1 layer of batch element `b`. The output array at (b, i, d) is the body's output
   block of batch element `b` read at (0, i, d); that block is its one whole-buffer store's payload, the composed
   payload of the body on the two whole-buffer reads; and the composed payload on a real block is the layer. -/
import proofs.«145029_j5059471475016_2_alg».proof.Proof.KIArr4
import proofs.«145029_j5059471475016_2_alg».proof.Proof.KIValConv4

set_option maxRecDepth 16384

noncomputable section

namespace Cert.KernelIdeal.Val

open Idealize.ShloMosaic Idealize.ShloMosaic.TcCoe Idealize.ShloMosaic.ValueIdx
open Cert.KernelIdeal.Gen Cert.KernelIdeal.Hand

theorem zero_off2 : (![0, 0] : Fin 2 → Nat) = fun _ => 0 := funext fun a => by fin_cases a <;> rfl
theorem zero_off3 : (![0, 0, 0] : Fin 3 → Nat) = fun _ => 0 := funext fun a => by fin_cases a <;> rfl
theorem zero_off5 : (![0, 0, 0, 0, 0] : Fin 5 → Nat) = fun _ => 0 := funext fun a => by fin_cases a <;> rfl

/-- The body's output block is the composed payload of the two input blocks: the one store is of the whole buffer
    and the two reads are of the whole buffers. At any float instance. -/
theorem out4_2_eq {F : FTy → Type} [FloatOps F] (x0 : Vec F S1x32x32x32x64 .bf16) (x1 : Vec F S256x64 .f32) :
    out4_2 x0 x1 = k4_pay1 (k4_pay4 x1) (k4_pay7 x0 x1) (k4_pay8 x0) := by
  unfold out4_2
  rw [View.canon_unit_zero zero_off3]
  simp only [View.ld_unit_zero (S := S1x32x32x32x64) zero_off5, View.ld_unit_zero (S := S256x64) zero_off2]

/-- REGION 4's VALUE. -/
theorem stage4 (V : (c : Dev nD) → (b : Ref sig .tc) → Buf (Elt Ideal) ((c : Thread nD τ).loc b)) (c : Dev nD)
    (A : Cert.Spec.Batch3) (W : Fin 4 → Fin 64 → Fin 64 → ℝ)
    (hA : ∀ b i j k c', (V c (Pipeline.arrRef spec4 0)) (ix5 b i j k c') = ((A b i j k c' : ℝ) : EReal))
    (hW : ∀ (t : Fin 4) (c' d : Fin 64),
      (V c (Pipeline.arrRef spec4 1)) (ix2 (⟨t.val * 64 + c'.val, by have := t.isLt; have := c'.isLt; omega⟩ : Fin 256) d) = ((W t c' d : ℝ) : EReal)) :
    ∀ (b : Fin 16) (i : Fin 32) (d : Fin 64),
      ((dat4 V c).arrAt 2 cfg4.N) (ix3 b i d) = ((Cert.Spec.conv3to1 (A b) W i d : ℝ) : EReal) := by
  intro b i d
  refine (arr4_out V c b i d).trans ?_
  rw [out4_2_eq]
  exact conv3to1Block_real (rowBlk5 (V c (Pipeline.arrRef spec4 0)) b) (A b) (fun i j k c' => hA b i j k c')
    (V c (Pipeline.arrRef spec4 1)) W hW 0 i d

end Cert.KernelIdeal.Val

end
-- ==== Proof.KIValChainFinal.lean ====
/-
  The kernel program's value on real inputs, the five regions' values put in.

  Each region's value, proved for an arbitrary entry valuation, closes the corresponding hypothesis of the chain:
  what region 4 leaves is the specification's network of the real inputs up to its last normalisation.
-/
import proofs.«145029_j5059471475016_2_alg».proof.Proof.KIValChain
import proofs.«145029_j5059471475016_2_alg».proof.Proof.KIStage0
import proofs.«145029_j5059471475016_2_alg».proof.Proof.KIStage1
import proofs.«145029_j5059471475016_2_alg».proof.Proof.KIStage2
import proofs.«145029_j5059471475016_2_alg».proof.Proof.KIStage3
import proofs.«145029_j5059471475016_2_alg».proof.Proof.KIStage4

set_option maxRecDepth 16384

noncomputable section

namespace Cert.KernelIdeal.Val

open Idealize.ShloMosaic Idealize.ShloMosaic.TcCoe Idealize.ShloMosaic.ValueIdx Idealize.SL.Sem
open Cert.KernelIdeal.Gen Cert.KernelIdeal.Hand Cert.Spec

local notation "ℍ" => (halves (F := Ideal))

theorem stage0_holds : Stage0 := fun V c x xn W1 Wn1 hx hxn hW1 hWn1 => stage0 V c x xn W1 Wn1 hx hxn hW1 hWn1
theorem stage1_holds : Stage1 := fun V c Y g β mu var hvar hY hg hβ hmu hv => stage1 V c Y g β mu var hvar hY hg hβ hmu hv
theorem stage2_holds : Stage2 := fun V c A W hA hW => stage2 V c A W hA hW
theorem stage3_holds : Stage3 := fun V c Y g β mu var hvar hY hg hβ hmu hv => stage3 V c Y g β mu var hvar hY hg hβ hmu hv
theorem stage4_holds : Stage4 := fun V c A W hA hW => stage4 V c A W hA hW

/-- What region 4 leaves, on real inputs: the specification's network up to its last normalisation. -/
theorem chain_final (m : (ℓ : Loc nD τ sig) → Buf (Elt Ideal) ℓ) (c : Dev nD)
    (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ)
    (h : RealArgs m c x xn W1 Wn1 g1 b1 W2 g2 b2 Wc) (b : Fin 16) (i : Fin 32) (d : Fin 64) :
    (B7 ℍ m c (Proc.devRef .tc main_v24)) (ix3 b i d)
      = ((preOut x xn W1 Wn1 g1 b1 W2 g2 b2 Wc epsR b i d : ℝ) : EReal) :=
  chain m c x xn W1 Wn1 g1 b1 W2 g2 b2 Wc stage0_holds stage1_holds stage2_holds stage3_holds stage4_holds h b i d

/-- Under the precondition: real tensors whose inclusions the twelve argument arrays are, and what region 4 leaves is
    the specification's network of them up to its last normalisation. -/
theorem chain_pre_final [hPre : Cert.Pre_finite_inputs.Facts] [Cert.KernelIdeal.Facts]
    (m : (ℓ : Loc nD τ sig) → Buf (Elt Ideal) ℓ) (hpre : Cert.Pre_KernelIdeal m) (c : Dev nD) :
    ∃ (x : Fin 16 → Fin 32 → Fin 32 → Fin 16 → ℝ) (xn : Fin 16 → Fin 32 → Fin 8 → ℝ)
    (W1 : Fin 8 → Fin 48 → Fin 64 → ℝ) (Wn1 : Fin 3 → Fin 8 → Fin 64 → ℝ) (g1 b1 : Fin 64 → ℝ)
    (W2 : Fin 8 → Fin 64 → Fin 64 → ℝ) (g2 b2 : Fin 64 → ℝ) (Wc : Fin 4 → Fin 64 → Fin 64 → ℝ) (gc bc : Fin 64 → ℝ),
      RealArgs m c x xn W1 Wn1 g1 b1 W2 g2 b2 Wc
      ∧ (∀ d, (m ((c : Thread nD τ).loc main_arg10)) (ix1 d) = ((gc d : ℝ) : EReal))
      ∧ (∀ d, (m ((c : Thread nD τ).loc main_arg11)) (ix1 d) = ((bc d : ℝ) : EReal))
      ∧ ∀ (b : Fin 16) (i : Fin 32) (d : Fin 64),
          (B7 ℍ m c (Proc.devRef .tc main_v24)) (ix3 b i d)
            = ((preOut x xn W1 Wn1 g1 b1 W2 g2 b2 Wc epsR b i d : ℝ) : EReal) :=
  chain_pre stage0_holds stage1_holds stage2_holds stage3_holds stage4_holds m hpre c

end Cert.KernelIdeal.Val

end
-- ==== Proof.RefValLayout.lean ====
/-
  The reference's layout stages read at an index: the lifts that re-insert axes, and the expansion of the order-2 input.

  A lift is two broadcasts: the first inserts a unit axis, the second repeats along it; read at `(b, i, j, k, d)` it is
  the lower-order field at the coordinates it keeps.  The expansion lays three lifts of the input side by side along the
  channel axis: channel `c < 16` reads `x b i j c`, `16 ≤ c < 32` reads `x b i k (c - 16)`, `32 ≤ c` reads
  `x b j k (c - 32)`.
-/
import proofs.«145029_j5059471475016_2_alg».proof.Proof.RefDefs
import proofs.«145029_j5059471475016_2_alg».proof.Proof.Spec
import Idealize.ShloMosaic.Lib.Pipeline.Value
import Idealize.ShloMosaic.Lib.ValueIdx

namespace Cert.ReferenceIdeal.Val

open Cert.ReferenceIdeal Cert.ReferenceIdeal.Gen Cert.ReferenceIdeal.Hand Idealize.ShloMosaic Idealize.ShloMosaic.ValueIdx

/-- Two broadcasts in a row read at an index. -/
theorem bcast2_apply {s m t : Shape} {α : Type} (d1 : Fin s.rank → Fin m.rank) (h1 : s.BroadcastsInDim m d1)
    (d2 : Fin m.rank → Fin t.rank) (h2 : m.BroadcastsInDim t d2) (x : s.Idx → α) (j : t.Idx) (km : m.Idx) (ks : s.Idx)
    (hm : ∀ a : Fin m.rank, (km a).val = if m.size a = 1 then 0 else (j (d2 a)).val)
    (hs : ∀ a : Fin s.rank, (ks a).val = if s.size a = 1 then 0 else (km (d1 a)).val) :
    broadcastInDim t d2 h2 (broadcastInDim m d1 h1 x) j = x ks :=
  (broadcastInDim_apply d2 h2 _ j km hm).trans (broadcastInDim_apply d1 h1 x km ks hs)

section Lifts
variable (b : Fin 16) (i j k : Fin 32) (d : Fin 64)

theorem lift_d1_apply (u : (⟨S16x32x32x64, .f32⟩ : BufTy).Contents (Elt Ideal)) :
    lift_d1 u (ix5 b i j k d) = u (ix4 b j k d) :=
  bcast2_apply _ _ _ _ u _ (ix5 b (0 : Fin 1) j k d) (ix4 b j k d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl | ⟨3, _⟩ => rfl)

theorem lift_d2_apply (u : (⟨S16x32x32x64, .f32⟩ : BufTy).Contents (Elt Ideal)) :
    lift_d2 u (ix5 b i j k d) = u (ix4 b i k d) :=
  bcast2_apply _ _ _ _ u _ (ix5 b i (0 : Fin 1) k d) (ix4 b i k d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl | ⟨3, _⟩ => rfl)

theorem lift_d3_apply (u : (⟨S16x32x32x64, .f32⟩ : BufTy).Contents (Elt Ideal)) :
    lift_d3 u (ix5 b i j k d) = u (ix4 b i j d) :=
  bcast2_apply _ _ _ _ u _ (ix5 b i j (0 : Fin 1) d) (ix4 b i j d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl | ⟨3, _⟩ => rfl)

theorem lift_i_apply (u : (⟨S16x32x64, .f32⟩ : BufTy).Contents (Elt Ideal)) :
    lift_i u (ix5 b i j k d) = u (ix3 b i d) :=
  bcast2_apply _ _ _ _ u _ (ix5 b i (0 : Fin 1) (0 : Fin 1) d) (ix3 b i d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl)

theorem lift_j_apply (u : (⟨S16x32x64, .f32⟩ : BufTy).Contents (Elt Ideal)) :
    lift_j u (ix5 b i j k d) = u (ix3 b j d) :=
  bcast2_apply _ _ _ _ u _ (ix5 b (0 : Fin 1) j (0 : Fin 1) d) (ix3 b j d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl)

theorem lift_k_apply (u : (⟨S16x32x64, .f32⟩ : BufTy).Contents (Elt Ideal)) :
    lift_k u (ix5 b i j k d) = u (ix3 b k d) :=
  bcast2_apply _ _ _ _ u _ (ix5 b (0 : Fin 1) (0 : Fin 1) k d) (ix3 b k d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl | ⟨2, _⟩ => rfl)

theorem lift_0_apply (u : (⟨S16x64, .f32⟩ : BufTy).Contents (Elt Ideal)) :
    lift_0 u (ix5 b i j k d) = u (ix2 b d) :=
  bcast2_apply _ _ _ _ u _ (ix5 b (0 : Fin 1) (0 : Fin 1) (0 : Fin 1) d) (ix2 b d)
    (fun a => match a with | ⟨0, _⟩ => rfl | ⟨1, _⟩ => rfl | ⟨2, _⟩ => rfl | ⟨3, _⟩ => rfl | ⟨4, _⟩ => rfl)
    (fun a => match a with | ⟨0, _⟩ => rfl | ⟨1, _⟩ => rfl)

end Lifts

/-- Three pieces of 16 channels laid side by side along the channel axis, read at channel `c`: the first piece below
    16, the second below 32 (at `c - 16`), else the third (at `c - 32`). -/
theorem concat3_apply {α : Type} (A Bv Cv : S16x32x32x32x16.Idx → α)
    (h : Shape.Concatenates ([(⟨S16x32x32x32x16, A⟩ : (s : Shape) × (s.Idx → α)), ⟨S16x32x32x32x16, Bv⟩, ⟨S16x32x32x32x16, Cv⟩].map (·.1)) S16x32x32x32x48 4)
    (b : Fin 16) (i j k : Fin 32) (c : Fin 48) :
    concatenate S16x32x32x32x48 4 [⟨S16x32x32x32x16, A⟩, ⟨S16x32x32x32x16, Bv⟩, ⟨S16x32x32x32x16, Cv⟩] h (ix5 b i j k c)
      = if h1 : c.val < 16 then A (ix5 b i j k ⟨c.val, h1⟩)
        else if h2 : c.val < 32 then Bv (ix5 b i j k ⟨c.val - 16, by omega⟩)
        else Cv (ix5 b i j k ⟨c.val - 32, by have := c.isLt; omega⟩) := by
  by_cases h1 : c.val < 16
  · rw [dif_pos h1]
    refine concatenate_apply_piece (4 : Fin 5) [⟨S16x32x32x32x16, A⟩, ⟨S16x32x32x32x16, Bv⟩, ⟨S16x32x32x32x16, Cv⟩] h (ix5 b i j k c) 0
      (by show (0 : Nat) < 3; omega) S16x32x32x32x16 _ rfl rfl 0 rfl (ix5 b i j k ⟨c.val, h1⟩)
      (fun b' hb => ?_) (by show 0 + (c.val) = c.val; omega)
    match b' with
    | ⟨0, _⟩ => rfl
    | ⟨1, _⟩ => rfl
    | ⟨2, _⟩ => rfl
    | ⟨3, _⟩ => rfl
    | ⟨4, _⟩ => exact absurd rfl hb
  · rw [dif_neg h1]
    by_cases h2 : c.val < 32
    · rw [dif_pos h2]
      refine concatenate_apply_piece (4 : Fin 5) [⟨S16x32x32x32x16, A⟩, ⟨S16x32x32x32x16, Bv⟩, ⟨S16x32x32x32x16, Cv⟩] h (ix5 b i j k c) 1
        (by show (1 : Nat) < 3; omega) S16x32x32x32x16 _ rfl rfl 16 rfl (ix5 b i j k ⟨c.val - 16, by omega⟩)
        (fun b' hb => ?_) (by show 16 + (c.val - 16) = c.val; omega)
      match b' with
      | ⟨0, _⟩ => rfl
      | ⟨1, _⟩ => rfl
      | ⟨2, _⟩ => rfl
      | ⟨3, _⟩ => rfl
      | ⟨4, _⟩ => exact absurd rfl hb
    · rw [dif_neg h2]
      refine concatenate_apply_piece (4 : Fin 5) [⟨S16x32x32x32x16, A⟩, ⟨S16x32x32x32x16, Bv⟩, ⟨S16x32x32x32x16, Cv⟩] h (ix5 b i j k c) 2
        (by show (2 : Nat) < 3; omega) S16x32x32x32x16 _ rfl rfl 32 rfl (ix5 b i j k ⟨c.val - 32, by have := c.isLt; omega⟩)
        (fun b' hb => ?_) (by show 32 + (c.val - 32) = c.val; omega)
      match b' with
      | ⟨0, _⟩ => rfl
      | ⟨1, _⟩ => rfl
      | ⟨2, _⟩ => rfl
      | ⟨3, _⟩ => rfl
      | ⟨4, _⟩ => exact absurd rfl hb

/-- The expanded input at `(b, i, j, k, c)`, for a real input: the specification's expansion. -/
theorem xExp_apply (x : (⟨S16x32x32x16, .f32⟩ : BufTy).Contents (Elt Ideal)) (xr : Fin 16 → Fin 32 → Fin 32 → Fin 16 → ℝ)
    (hx : ∀ b i j c, x (ix4 b i j c) = ((xr b i j c : ℝ) : EReal)) (b : Fin 16) (i j k : Fin 32) (c : Fin 48) :
    xExp x (ix5 b i j k c) = ((Cert.Spec.expand (xr b) i j k c : ℝ) : EReal) := by
  unfold xExp
  rw [concat3_apply]
  simp only [Cert.Spec.expand]
  by_cases h1 : c.val < 16
  · rw [dif_pos h1, dif_pos h1]
    exact (bcast2_apply _ _ _ _ x _ (ix5 b i j (0 : Fin 1) ⟨c.val, h1⟩) (ix4 b i j ⟨c.val, h1⟩) (fun a => match a with | ⟨0, _⟩ => rfl | ⟨1, _⟩ => rfl | ⟨2, _⟩ => rfl | ⟨3, _⟩ => rfl | ⟨4, _⟩ => rfl) (fun a => match a with | ⟨0, _⟩ => rfl | ⟨1, _⟩ => rfl | ⟨2, _⟩ => rfl | ⟨3, _⟩ => rfl)).trans (hx b i j ⟨c.val, h1⟩)
  · rw [dif_neg h1, dif_neg h1]
    by_cases h2 : c.val < 32
    · rw [dif_pos h2, dif_pos h2]
      exact (bcast2_apply _ _ _ _ x _ (ix5 b i (0 : Fin 1) k ⟨c.val - 16, by omega⟩) (ix4 b i k ⟨c.val - 16, by omega⟩) (fun a => match a with | ⟨0, _⟩ => rfl | ⟨1, _⟩ => rfl | ⟨2, _⟩ => rfl | ⟨3, _⟩ => rfl | ⟨4, _⟩ => rfl) (fun a => match a with | ⟨0, _⟩ => rfl | ⟨1, _⟩ => rfl | ⟨2, _⟩ => rfl | ⟨3, _⟩ => rfl)).trans (hx b i k ⟨c.val - 16, by omega⟩)
    · rw [dif_neg h2, dif_neg h2]
      exact (bcast2_apply _ _ _ _ x _ (ix5 b (0 : Fin 1) j k ⟨c.val - 32, by have := c.isLt; omega⟩) (ix4 b j k ⟨c.val - 32, by have := c.isLt; omega⟩) (fun a => match a with | ⟨0, _⟩ => rfl | ⟨1, _⟩ => rfl | ⟨2, _⟩ => rfl | ⟨3, _⟩ => rfl | ⟨4, _⟩ => rfl) (fun a => match a with | ⟨0, _⟩ => rfl | ⟨1, _⟩ => rfl | ⟨2, _⟩ => rfl | ⟨3, _⟩ => rfl)).trans (hx b j k ⟨c.val - 32, by have := c.isLt; omega⟩)

end Cert.ReferenceIdeal.Val
-- ==== Proof.LibHostDot.lean ====
/-
  The host's contraction of an operand's LAST axis with the rows of a matrix, read at an output index.

  For an operand of shape `[…, K]` and a matrix `[K, N]` the result at `(…, q)` is the sum over `c < K` of the operand at
  `(…, c)` times the matrix at `(c, q)`: the contraction index set is one axis, the operand's other coordinates are the
  result's, the matrix's column coordinate is the result's last.  Stated for ranks 3, 4 and 5 at any extents (rank 2 is
  the plain matrix product).
-/
import Idealize.ShloMosaic.Lib.ValueIdx
import Idealize.ShloMosaic.PureOps.Ideal.Laws
import Idealize.ShloMosaic.Lib.Pipeline.Value
import proofs.«145029_j5059471475016_2_alg».proof.Proof.LibIdealReal
import proofs.«145029_j5059471475016_2_alg».proof.Proof.LibBlockMatmul

namespace Cert.HostDot

open Idealize.ShloMosaic Idealize.ShloMosaic.ValueIdx Cert.IdealReal
open scoped BigOperators

/-- The dimension numbers of a rank-3 operand contracted on its last axis with a matrix's rows. -/
abbrev lastDims3 {B n1 K N : Nat} (wf : DotDims.WF ⟨3, ![B, n1, K]⟩ ⟨2, ![K, N]⟩ ⟨3, ![B, n1, N]⟩ [2] [0] [0, 1] [1] [] []) :
    DotDims ⟨3, ![B, n1, K]⟩ ⟨2, ![K, N]⟩ ⟨3, ![B, n1, N]⟩ := ⟨[2], [0], [0, 1], [1], [], [], wf⟩

/-- The operand's coordinate 0 is the result's coordinate 0. -/
theorem lhs3_0 {B n1 K N : Nat} (wf : DotDims.WF ⟨3, ![B, n1, K]⟩ ⟨2, ![K, N]⟩ ⟨3, ![B, n1, N]⟩ [2] [0] [0, 1] [1] [] []) (x : (⟨3, ![B, n1, N]⟩ : Shape).Idx) (m : (lastDims3 wf).contr.Idx) :
    ((lastDims3 wf).lhsIdx x m 0).val = (x 0).val := by
  unfold DotDims.lhsIdx
  rw [dif_neg (show ¬(0 : Fin 3) ∈ ([] : List (Fin 3)) by decide), dif_pos (show (0 : Fin 3) ∈ ([0, 1] : List (Fin 3)) by decide)]
  rfl

/-- The operand's coordinate 1 is the result's coordinate 1. -/
theorem lhs3_1 {B n1 K N : Nat} (wf : DotDims.WF ⟨3, ![B, n1, K]⟩ ⟨2, ![K, N]⟩ ⟨3, ![B, n1, N]⟩ [2] [0] [0, 1] [1] [] []) (x : (⟨3, ![B, n1, N]⟩ : Shape).Idx) (m : (lastDims3 wf).contr.Idx) :
    ((lastDims3 wf).lhsIdx x m 1).val = (x 1).val := by
  unfold DotDims.lhsIdx
  rw [dif_neg (show ¬(1 : Fin 3) ∈ ([] : List (Fin 3)) by decide), dif_pos (show (1 : Fin 3) ∈ ([0, 1] : List (Fin 3)) by decide)]
  rfl

/-- The matrix's column coordinate is the result's last coordinate. -/
theorem rhs3_1 {B n1 K N : Nat} (wf : DotDims.WF ⟨3, ![B, n1, K]⟩ ⟨2, ![K, N]⟩ ⟨3, ![B, n1, N]⟩ [2] [0] [0, 1] [1] [] []) (x : (⟨3, ![B, n1, N]⟩ : Shape).Idx) (m : (lastDims3 wf).contr.Idx) :
    ((lastDims3 wf).rhsIdx x m 1).val = (x 2).val := by
  unfold DotDims.rhsIdx
  rw [dif_neg (show ¬(1 : Fin 2) ∈ ([] : List (Fin 2)) by decide), dif_pos (show (1 : Fin 2) ∈ ([1] : List (Fin 2)) by decide)]
  rfl

/-- The contraction's sum at an output index, over the contraction shape's indices, is the sum over the operand's last
    coordinate. -/
theorem sum3 {B n1 K N : Nat} (wf : DotDims.WF ⟨3, ![B, n1, K]⟩ ⟨2, ![K, N]⟩ ⟨3, ![B, n1, N]⟩ [2] [0] [0, 1] [1] [] [])
    (lhs : (⟨3, ![B, n1, K]⟩ : Shape).Idx → EReal) (rhs : (⟨2, ![K, N]⟩ : Shape).Idx → EReal) (b : Fin B) (i : Fin n1) (q : Fin N) :
    ∑ m : (lastDims3 wf).contr.Idx, lhs ((lastDims3 wf).lhsIdx (ix3 b i q) m) * rhs ((lastDims3 wf).rhsIdx (ix3 b i q) m)
      = ∑ c : Fin K, lhs (ix3 b i c) * rhs (ix2 c q) := by
  rw [← Equiv.sum_comp (contrEquiv1 (lastDims3 wf) K rfl rfl).symm]
  refine Finset.sum_congr rfl fun c _ => ?_
  have hc := contrEquiv1_symm_val (lastDims3 wf) K rfl rfl c
  have el : (lastDims3 wf).lhsIdx (ix3 b i q) ((contrEquiv1 (lastDims3 wf) K rfl rfl).symm c) = ix3 b i c := funext fun a => Fin.ext (by
    match a with
    | ⟨0, _⟩ => exact lhs3_0 wf _ _
    | ⟨1, _⟩ => exact lhs3_1 wf _ _
    | ⟨2, _⟩ => exact ((lastDims3 wf).lhsIdx_val_of_single rfl _ _).trans hc)
  have er : (lastDims3 wf).rhsIdx (ix3 b i q) ((contrEquiv1 (lastDims3 wf) K rfl rfl).symm c) = ix2 c q := funext fun a => Fin.ext (by
    match a with
    | ⟨0, _⟩ => exact ((lastDims3 wf).rhsIdx_val_of_single rfl _ _).trans hc
    | ⟨1, _⟩ => exact rhs3_1 wf _ _)
  rw [el, er]

/-- The host's `dot_general` of a rank-3 operand with a matrix, at an output index: the sum over the contracted
    coordinate of the products. -/
theorem dotGeneral3_apply {B n1 K N : Nat} (wf : DotDims.WF ⟨3, ![B, n1, K]⟩ ⟨2, ![K, N]⟩ ⟨3, ![B, n1, N]⟩ [2] [0] [0, 1] [1] [] [])
    {φ₁ φ₂ : FTy} (prec : Option ContractPrecision) (lhs : FVec Ideal ⟨3, ![B, n1, K]⟩ φ₁) (rhs : FVec Ideal ⟨2, ![K, N]⟩ φ₂) (b : Fin B) (i : Fin n1) (q : Fin N) :
    Host.dotGeneral (F := Ideal) (lastDims3 wf) prec lhs rhs (ix3 b i q) = ∑ c : Fin K, lhs (ix3 b i c) * rhs (ix2 c q) :=
  (Ideal.dotGeneral_apply (lastDims3 wf) prec .single lhs rhs (ix3 b i q)).trans (sum3 wf lhs rhs b i q)

/-- The dimension numbers of a rank-4 operand contracted on its last axis with a matrix's rows. -/
abbrev lastDims4 {B n1 n2 K N : Nat} (wf : DotDims.WF ⟨4, ![B, n1, n2, K]⟩ ⟨2, ![K, N]⟩ ⟨4, ![B, n1, n2, N]⟩ [3] [0] [0, 1, 2] [1] [] []) :
    DotDims ⟨4, ![B, n1, n2, K]⟩ ⟨2, ![K, N]⟩ ⟨4, ![B, n1, n2, N]⟩ := ⟨[3], [0], [0, 1, 2], [1], [], [], wf⟩

/-- The operand's coordinate 0 is the result's coordinate 0. -/
theorem lhs4_0 {B n1 n2 K N : Nat} (wf : DotDims.WF ⟨4, ![B, n1, n2, K]⟩ ⟨2, ![K, N]⟩ ⟨4, ![B, n1, n2, N]⟩ [3] [0] [0, 1, 2] [1] [] []) (x : (⟨4, ![B, n1, n2, N]⟩ : Shape).Idx) (m : (lastDims4 wf).contr.Idx) :
    ((lastDims4 wf).lhsIdx x m 0).val = (x 0).val := by
  unfold DotDims.lhsIdx
  rw [dif_neg (show ¬(0 : Fin 4) ∈ ([] : List (Fin 4)) by decide), dif_pos (show (0 : Fin 4) ∈ ([0, 1, 2] : List (Fin 4)) by decide)]
  rfl

/-- The operand's coordinate 1 is the result's coordinate 1. -/
theorem lhs4_1 {B n1 n2 K N : Nat} (wf : DotDims.WF ⟨4, ![B, n1, n2, K]⟩ ⟨2, ![K, N]⟩ ⟨4, ![B, n1, n2, N]⟩ [3] [0] [0, 1, 2] [1] [] []) (x : (⟨4, ![B, n1, n2, N]⟩ : Shape).Idx) (m : (lastDims4 wf).contr.Idx) :
    ((lastDims4 wf).lhsIdx x m 1).val = (x 1).val := by
  unfold DotDims.lhsIdx
  rw [dif_neg (show ¬(1 : Fin 4) ∈ ([] : List (Fin 4)) by decide), dif_pos (show (1 : Fin 4) ∈ ([0, 1, 2] : List (Fin 4)) by decide)]
  rfl

/-- The operand's coordinate 2 is the result's coordinate 2. -/
theorem lhs4_2 {B n1 n2 K N : Nat} (wf : DotDims.WF ⟨4, ![B, n1, n2, K]⟩ ⟨2, ![K, N]⟩ ⟨4, ![B, n1, n2, N]⟩ [3] [0] [0, 1, 2] [1] [] []) (x : (⟨4, ![B, n1, n2, N]⟩ : Shape).Idx) (m : (lastDims4 wf).contr.Idx) :
    ((lastDims4 wf).lhsIdx x m 2).val = (x 2).val := by
  unfold DotDims.lhsIdx
  rw [dif_neg (show ¬(2 : Fin 4) ∈ ([] : List (Fin 4)) by decide), dif_pos (show (2 : Fin 4) ∈ ([0, 1, 2] : List (Fin 4)) by decide)]
  rfl

/-- The matrix's column coordinate is the result's last coordinate. -/
theorem rhs4_1 {B n1 n2 K N : Nat} (wf : DotDims.WF ⟨4, ![B, n1, n2, K]⟩ ⟨2, ![K, N]⟩ ⟨4, ![B, n1, n2, N]⟩ [3] [0] [0, 1, 2] [1] [] []) (x : (⟨4, ![B, n1, n2, N]⟩ : Shape).Idx) (m : (lastDims4 wf).contr.Idx) :
    ((lastDims4 wf).rhsIdx x m 1).val = (x 3).val := by
  unfold DotDims.rhsIdx
  rw [dif_neg (show ¬(1 : Fin 2) ∈ ([] : List (Fin 2)) by decide), dif_pos (show (1 : Fin 2) ∈ ([1] : List (Fin 2)) by decide)]
  rfl

/-- The contraction's sum at an output index, over the contraction shape's indices, is the sum over the operand's last
    coordinate. -/
theorem sum4 {B n1 n2 K N : Nat} (wf : DotDims.WF ⟨4, ![B, n1, n2, K]⟩ ⟨2, ![K, N]⟩ ⟨4, ![B, n1, n2, N]⟩ [3] [0] [0, 1, 2] [1] [] [])
    (lhs : (⟨4, ![B, n1, n2, K]⟩ : Shape).Idx → EReal) (rhs : (⟨2, ![K, N]⟩ : Shape).Idx → EReal) (b : Fin B) (i : Fin n1) (j : Fin n2) (q : Fin N) :
    ∑ m : (lastDims4 wf).contr.Idx, lhs ((lastDims4 wf).lhsIdx (ix4 b i j q) m) * rhs ((lastDims4 wf).rhsIdx (ix4 b i j q) m)
      = ∑ c : Fin K, lhs (ix4 b i j c) * rhs (ix2 c q) := by
  rw [← Equiv.sum_comp (contrEquiv1 (lastDims4 wf) K rfl rfl).symm]
  refine Finset.sum_congr rfl fun c _ => ?_
  have hc := contrEquiv1_symm_val (lastDims4 wf) K rfl rfl c
  have el : (lastDims4 wf).lhsIdx (ix4 b i j q) ((contrEquiv1 (lastDims4 wf) K rfl rfl).symm c) = ix4 b i j c := funext fun a => Fin.ext (by
    match a with
    | ⟨0, _⟩ => exact lhs4_0 wf _ _
    | ⟨1, _⟩ => exact lhs4_1 wf _ _
    | ⟨2, _⟩ => exact lhs4_2 wf _ _
    | ⟨3, _⟩ => exact ((lastDims4 wf).lhsIdx_val_of_single rfl _ _).trans hc)
  have er : (lastDims4 wf).rhsIdx (ix4 b i j q) ((contrEquiv1 (lastDims4 wf) K rfl rfl).symm c) = ix2 c q := funext fun a => Fin.ext (by
    match a with
    | ⟨0, _⟩ => exact ((lastDims4 wf).rhsIdx_val_of_single rfl _ _).trans hc
    | ⟨1, _⟩ => exact rhs4_1 wf _ _)
  rw [el, er]

/-- The host's `dot_general` of a rank-4 operand with a matrix, at an output index: the sum over the contracted
    coordinate of the products. -/
theorem dotGeneral4_apply {B n1 n2 K N : Nat} (wf : DotDims.WF ⟨4, ![B, n1, n2, K]⟩ ⟨2, ![K, N]⟩ ⟨4, ![B, n1, n2, N]⟩ [3] [0] [0, 1, 2] [1] [] [])
    {φ₁ φ₂ : FTy} (prec : Option ContractPrecision) (lhs : FVec Ideal ⟨4, ![B, n1, n2, K]⟩ φ₁) (rhs : FVec Ideal ⟨2, ![K, N]⟩ φ₂) (b : Fin B) (i : Fin n1) (j : Fin n2) (q : Fin N) :
    Host.dotGeneral (F := Ideal) (lastDims4 wf) prec lhs rhs (ix4 b i j q) = ∑ c : Fin K, lhs (ix4 b i j c) * rhs (ix2 c q) :=
  (Ideal.dotGeneral_apply (lastDims4 wf) prec .single lhs rhs (ix4 b i j q)).trans (sum4 wf lhs rhs b i j q)

/-- The dimension numbers of a rank-5 operand contracted on its last axis with a matrix's rows. -/
abbrev lastDims5 {B n1 n2 n3 K N : Nat} (wf : DotDims.WF ⟨5, ![B, n1, n2, n3, K]⟩ ⟨2, ![K, N]⟩ ⟨5, ![B, n1, n2, n3, N]⟩ [4] [0] [0, 1, 2, 3] [1] [] []) :
    DotDims ⟨5, ![B, n1, n2, n3, K]⟩ ⟨2, ![K, N]⟩ ⟨5, ![B, n1, n2, n3, N]⟩ := ⟨[4], [0], [0, 1, 2, 3], [1], [], [], wf⟩

/-- The operand's coordinate 0 is the result's coordinate 0. -/
theorem lhs5_0 {B n1 n2 n3 K N : Nat} (wf : DotDims.WF ⟨5, ![B, n1, n2, n3, K]⟩ ⟨2, ![K, N]⟩ ⟨5, ![B, n1, n2, n3, N]⟩ [4] [0] [0, 1, 2, 3] [1] [] []) (x : (⟨5, ![B, n1, n2, n3, N]⟩ : Shape).Idx) (m : (lastDims5 wf).contr.Idx) :
    ((lastDims5 wf).lhsIdx x m 0).val = (x 0).val := by
  unfold DotDims.lhsIdx
  rw [dif_neg (show ¬(0 : Fin 5) ∈ ([] : List (Fin 5)) by decide), dif_pos (show (0 : Fin 5) ∈ ([0, 1, 2, 3] : List (Fin 5)) by decide)]
  rfl

/-- The operand's coordinate 1 is the result's coordinate 1. -/
theorem lhs5_1 {B n1 n2 n3 K N : Nat} (wf : DotDims.WF ⟨5, ![B, n1, n2, n3, K]⟩ ⟨2, ![K, N]⟩ ⟨5, ![B, n1, n2, n3, N]⟩ [4] [0] [0, 1, 2, 3] [1] [] []) (x : (⟨5, ![B, n1, n2, n3, N]⟩ : Shape).Idx) (m : (lastDims5 wf).contr.Idx) :
    ((lastDims5 wf).lhsIdx x m 1).val = (x 1).val := by
  unfold DotDims.lhsIdx
  rw [dif_neg (show ¬(1 : Fin 5) ∈ ([] : List (Fin 5)) by decide), dif_pos (show (1 : Fin 5) ∈ ([0, 1, 2, 3] : List (Fin 5)) by decide)]
  rfl

/-- The operand's coordinate 2 is the result's coordinate 2. -/
theorem lhs5_2 {B n1 n2 n3 K N : Nat} (wf : DotDims.WF ⟨5, ![B, n1, n2, n3, K]⟩ ⟨2, ![K, N]⟩ ⟨5, ![B, n1, n2, n3, N]⟩ [4] [0] [0, 1, 2, 3] [1] [] []) (x : (⟨5, ![B, n1, n2, n3, N]⟩ : Shape).Idx) (m : (lastDims5 wf).contr.Idx) :
    ((lastDims5 wf).lhsIdx x m 2).val = (x 2).val := by
  unfold DotDims.lhsIdx
  rw [dif_neg (show ¬(2 : Fin 5) ∈ ([] : List (Fin 5)) by decide), dif_pos (show (2 : Fin 5) ∈ ([0, 1, 2, 3] : List (Fin 5)) by decide)]
  rfl

/-- The operand's coordinate 3 is the result's coordinate 3. -/
theorem lhs5_3 {B n1 n2 n3 K N : Nat} (wf : DotDims.WF ⟨5, ![B, n1, n2, n3, K]⟩ ⟨2, ![K, N]⟩ ⟨5, ![B, n1, n2, n3, N]⟩ [4] [0] [0, 1, 2, 3] [1] [] []) (x : (⟨5, ![B, n1, n2, n3, N]⟩ : Shape).Idx) (m : (lastDims5 wf).contr.Idx) :
    ((lastDims5 wf).lhsIdx x m 3).val = (x 3).val := by
  unfold DotDims.lhsIdx
  rw [dif_neg (show ¬(3 : Fin 5) ∈ ([] : List (Fin 5)) by decide), dif_pos (show (3 : Fin 5) ∈ ([0, 1, 2, 3] : List (Fin 5)) by decide)]
  rfl

/-- The matrix's column coordinate is the result's last coordinate. -/
theorem rhs5_1 {B n1 n2 n3 K N : Nat} (wf : DotDims.WF ⟨5, ![B, n1, n2, n3, K]⟩ ⟨2, ![K, N]⟩ ⟨5, ![B, n1, n2, n3, N]⟩ [4] [0] [0, 1, 2, 3] [1] [] []) (x : (⟨5, ![B, n1, n2, n3, N]⟩ : Shape).Idx) (m : (lastDims5 wf).contr.Idx) :
    ((lastDims5 wf).rhsIdx x m 1).val = (x 4).val := by
  unfold DotDims.rhsIdx
  rw [dif_neg (show ¬(1 : Fin 2) ∈ ([] : List (Fin 2)) by decide), dif_pos (show (1 : Fin 2) ∈ ([1] : List (Fin 2)) by decide)]
  rfl

/-- The contraction's sum at an output index, over the contraction shape's indices, is the sum over the operand's last
    coordinate. -/
theorem sum5 {B n1 n2 n3 K N : Nat} (wf : DotDims.WF ⟨5, ![B, n1, n2, n3, K]⟩ ⟨2, ![K, N]⟩ ⟨5, ![B, n1, n2, n3, N]⟩ [4] [0] [0, 1, 2, 3] [1] [] [])
    (lhs : (⟨5, ![B, n1, n2, n3, K]⟩ : Shape).Idx → EReal) (rhs : (⟨2, ![K, N]⟩ : Shape).Idx → EReal) (b : Fin B) (i : Fin n1) (j : Fin n2) (k : Fin n3) (q : Fin N) :
    ∑ m : (lastDims5 wf).contr.Idx, lhs ((lastDims5 wf).lhsIdx (ix5 b i j k q) m) * rhs ((lastDims5 wf).rhsIdx (ix5 b i j k q) m)
      = ∑ c : Fin K, lhs (ix5 b i j k c) * rhs (ix2 c q) := by
  rw [← Equiv.sum_comp (contrEquiv1 (lastDims5 wf) K rfl rfl).symm]
  refine Finset.sum_congr rfl fun c _ => ?_
  have hc := contrEquiv1_symm_val (lastDims5 wf) K rfl rfl c
  have el : (lastDims5 wf).lhsIdx (ix5 b i j k q) ((contrEquiv1 (lastDims5 wf) K rfl rfl).symm c) = ix5 b i j k c := funext fun a => Fin.ext (by
    match a with
    | ⟨0, _⟩ => exact lhs5_0 wf _ _
    | ⟨1, _⟩ => exact lhs5_1 wf _ _
    | ⟨2, _⟩ => exact lhs5_2 wf _ _
    | ⟨3, _⟩ => exact lhs5_3 wf _ _
    | ⟨4, _⟩ => exact ((lastDims5 wf).lhsIdx_val_of_single rfl _ _).trans hc)
  have er : (lastDims5 wf).rhsIdx (ix5 b i j k q) ((contrEquiv1 (lastDims5 wf) K rfl rfl).symm c) = ix2 c q := funext fun a => Fin.ext (by
    match a with
    | ⟨0, _⟩ => exact ((lastDims5 wf).rhsIdx_val_of_single rfl _ _).trans hc
    | ⟨1, _⟩ => exact rhs5_1 wf _ _)
  rw [el, er]

/-- The host's `dot_general` of a rank-5 operand with a matrix, at an output index: the sum over the contracted
    coordinate of the products. -/
theorem dotGeneral5_apply {B n1 n2 n3 K N : Nat} (wf : DotDims.WF ⟨5, ![B, n1, n2, n3, K]⟩ ⟨2, ![K, N]⟩ ⟨5, ![B, n1, n2, n3, N]⟩ [4] [0] [0, 1, 2, 3] [1] [] [])
    {φ₁ φ₂ : FTy} (prec : Option ContractPrecision) (lhs : FVec Ideal ⟨5, ![B, n1, n2, n3, K]⟩ φ₁) (rhs : FVec Ideal ⟨2, ![K, N]⟩ φ₂) (b : Fin B) (i : Fin n1) (j : Fin n2) (k : Fin n3) (q : Fin N) :
    Host.dotGeneral (F := Ideal) (lastDims5 wf) prec lhs rhs (ix5 b i j k q) = ∑ c : Fin K, lhs (ix5 b i j k c) * rhs (ix2 c q) :=
  (Ideal.dotGeneral_apply (lastDims5 wf) prec .single lhs rhs (ix5 b i j k q)).trans (sum5 wf lhs rhs b i j k q)

/-! ## On real operands -/

/-- On real operands the rank-3 contraction at an output index is the real sum of products. -/
theorem dotGeneral3_real {B n1 K N : Nat} (wf : DotDims.WF ⟨3, ![B, n1, K]⟩ ⟨2, ![K, N]⟩ ⟨3, ![B, n1, N]⟩ [2] [0] [0, 1] [1] [] [])
    (prec : Option ContractPrecision) (lhs : FVec Ideal ⟨3, ![B, n1, K]⟩ .f32) (rhs : FVec Ideal ⟨2, ![K, N]⟩ .f32) (b : Fin B) (i : Fin n1) (q : Fin N)
    (lr rr : Fin K → ℝ) (hl : ∀ c, lhs (ix3 b i c) = ((lr c : ℝ) : EReal)) (hr : ∀ c, rhs (ix2 c q) = ((rr c : ℝ) : EReal)) :
    Host.dotGeneral (F := Ideal) (lastDims3 wf) prec lhs rhs (ix3 b i q) = ((∑ c, lr c * rr c : ℝ) : EReal) := by
  rw [dotGeneral3_apply, coe_sum_univ]
  exact Finset.sum_congr rfl fun c _ => by rw [hl c, hr c, coe_mul']

/-- On real operands the rank-4 contraction at an output index is the real sum of products. -/
theorem dotGeneral4_real {B n1 n2 K N : Nat} (wf : DotDims.WF ⟨4, ![B, n1, n2, K]⟩ ⟨2, ![K, N]⟩ ⟨4, ![B, n1, n2, N]⟩ [3] [0] [0, 1, 2] [1] [] [])
    (prec : Option ContractPrecision) (lhs : FVec Ideal ⟨4, ![B, n1, n2, K]⟩ .f32) (rhs : FVec Ideal ⟨2, ![K, N]⟩ .f32) (b : Fin B) (i : Fin n1) (j : Fin n2) (q : Fin N)
    (lr rr : Fin K → ℝ) (hl : ∀ c, lhs (ix4 b i j c) = ((lr c : ℝ) : EReal)) (hr : ∀ c, rhs (ix2 c q) = ((rr c : ℝ) : EReal)) :
    Host.dotGeneral (F := Ideal) (lastDims4 wf) prec lhs rhs (ix4 b i j q) = ((∑ c, lr c * rr c : ℝ) : EReal) := by
  rw [dotGeneral4_apply, coe_sum_univ]
  exact Finset.sum_congr rfl fun c _ => by rw [hl c, hr c, coe_mul']

/-- On real operands the rank-5 contraction at an output index is the real sum of products. -/
theorem dotGeneral5_real {B n1 n2 n3 K N : Nat} (wf : DotDims.WF ⟨5, ![B, n1, n2, n3, K]⟩ ⟨2, ![K, N]⟩ ⟨5, ![B, n1, n2, n3, N]⟩ [4] [0] [0, 1, 2, 3] [1] [] [])
    (prec : Option ContractPrecision) (lhs : FVec Ideal ⟨5, ![B, n1, n2, n3, K]⟩ .f32) (rhs : FVec Ideal ⟨2, ![K, N]⟩ .f32) (b : Fin B) (i : Fin n1) (j : Fin n2) (k : Fin n3) (q : Fin N)
    (lr rr : Fin K → ℝ) (hl : ∀ c, lhs (ix5 b i j k c) = ((lr c : ℝ) : EReal)) (hr : ∀ c, rhs (ix2 c q) = ((rr c : ℝ) : EReal)) :
    Host.dotGeneral (F := Ideal) (lastDims5 wf) prec lhs rhs (ix5 b i j k q) = ((∑ c, lr c * rr c : ℝ) : EReal) := by
  rw [dotGeneral5_apply, coe_sum_univ]
  exact Finset.sum_congr rfl fun c _ => by rw [hl c, hr c, coe_mul']

/-- On real operands the plain matrix product at an output index is the real sum of products. -/
theorem dotGeneral2_real {B K N : Nat} (wf : DotDims.WF ⟨2, ![B, K]⟩ ⟨2, ![K, N]⟩ ⟨2, ![B, N]⟩ [1] [0] [0] [1] [] [])
    (prec : Option ContractPrecision) (lhs : FVec Ideal ⟨2, ![B, K]⟩ .f32) (rhs : FVec Ideal ⟨2, ![K, N]⟩ .f32) (b : Fin B) (q : Fin N)
    (lr rr : Fin K → ℝ) (hl : ∀ c, lhs (ix2 b c) = ((lr c : ℝ) : EReal)) (hr : ∀ c, rhs (ix2 c q) = ((rr c : ℝ) : EReal)) :
    Host.dotGeneral (F := Ideal) (Cert.BlockMatmul.plainDims wf) prec lhs rhs (ix2 b q) = ((∑ c, lr c * rr c : ℝ) : EReal) := by
  rw [Cert.BlockMatmul.dotGeneral_plain_apply, coe_sum_univ]
  exact Finset.sum_congr rfl fun c _ => by rw [hl c, hr c, coe_mul']

/-- A block of `Kc` consecutive rows of a matrix, cut at row `t · Kc`, read at `(c, q)`: row `t · Kc + c` of the matrix —
    for a matrix whose rows are the blocks of a real array `Wr t c q`, the entry `Wr t c q`. -/
theorem slice_rows_real {R Kc N T : Nat} (W : (⟨2, ![R, N]⟩ : Shape).Idx → EReal) (Wr : Fin T → Fin Kc → Fin N → ℝ)
    (hW : ∀ (t : Fin T) (c : Fin Kc) (q : Fin N) (hlt : t.val * Kc + c.val < R), W (ix2 ⟨t.val * Kc + c.val, hlt⟩ q) = ((Wr t c q : ℝ) : EReal))
    (t : Fin T) (off : Nat) (hoff : off = t.val * Kc) (sl : (⟨2, ![R, N]⟩ : Shape).Slices ![off, 0] ⟨2, ![Kc, N]⟩) (c : Fin Kc) (q : Fin N) :
    extractStridedSlice ⟨2, ![Kc, N]⟩ ![off, 0] W sl (ix2 c q) = ((Wr t c q : ℝ) : EReal) := by
  subst hoff
  have hlt : t.val * Kc + c.val < R := by
    have := sl.2 0
    have h1 : (![t.val * Kc, 0] : Fin 2 → Nat) 0 + Kc ≤ R := this
    have h2 : t.val * Kc + Kc ≤ R := h1
    have := c.isLt
    omega
  exact (extractStridedSlice_apply _ W sl (ix2 c q) (ix2 ⟨t.val * Kc + c.val, hlt⟩ q)
    (fun a => match a with | ⟨0, _⟩ => rfl | ⟨1, _⟩ => (Nat.zero_add _).symm)).trans (hW t c q hlt)

/-- A real rank-2 operand contracted with a block of rows of a real weight array, at an output index. -/
theorem dotSlice2_real {B K N R T : Nat} (wf : DotDims.WF ⟨2, ![B, K]⟩ ⟨2, ![K, N]⟩ ⟨2, ![B, N]⟩ [1] [0] [0] [1] [] [])
    (prec : Option ContractPrecision) (lhs : FVec Ideal ⟨2, ![B, K]⟩ .f32) (lr : Fin B → Fin K → ℝ)
    (hl : ∀ b c, lhs (ix2 b c) = ((lr b c : ℝ) : EReal))
    (W : FVec Ideal ⟨2, ![R, N]⟩ .f32) (Wr : Fin T → Fin K → Fin N → ℝ)
    (hW : ∀ (t : Fin T) (c : Fin K) (q : Fin N) (hlt : t.val * K + c.val < R), W (ix2 ⟨t.val * K + c.val, hlt⟩ q) = ((Wr t c q : ℝ) : EReal))
    (t : Fin T) (off : Nat) (hoff : off = t.val * K) (sl : (⟨2, ![R, N]⟩ : Shape).Slices ![off, 0] ⟨2, ![K, N]⟩) (b : Fin B) (q : Fin N) :
    Host.dotGeneral (F := Ideal) (Cert.BlockMatmul.plainDims wf) prec lhs (extractStridedSlice ⟨2, ![K, N]⟩ ![off, 0] W sl : FVec Ideal ⟨2, ![K, N]⟩ .f32) (ix2 b q)
      = ((∑ c, lr b c * Wr t c q : ℝ) : EReal) :=
  dotGeneral2_real wf prec lhs _ b q (fun c => lr b c) (fun c => Wr t c q) (fun c => hl b c)
    (fun c => slice_rows_real W Wr hW t off hoff sl c q)

/-- A real rank-3 operand contracted with a block of rows of a real weight array, at an output index. -/
theorem dotSlice3_real {B n1 K N R T : Nat} (wf : DotDims.WF ⟨3, ![B, n1, K]⟩ ⟨2, ![K, N]⟩ ⟨3, ![B, n1, N]⟩ [2] [0] [0, 1] [1] [] [])
    (prec : Option ContractPrecision) (lhs : FVec Ideal ⟨3, ![B, n1, K]⟩ .f32) (lr : Fin B → Fin n1 → Fin K → ℝ)
    (hl : ∀ b i c, lhs (ix3 b i c) = ((lr b i c : ℝ) : EReal))
    (W : FVec Ideal ⟨2, ![R, N]⟩ .f32) (Wr : Fin T → Fin K → Fin N → ℝ)
    (hW : ∀ (t : Fin T) (c : Fin K) (q : Fin N) (hlt : t.val * K + c.val < R), W (ix2 ⟨t.val * K + c.val, hlt⟩ q) = ((Wr t c q : ℝ) : EReal))
    (t : Fin T) (off : Nat) (hoff : off = t.val * K) (sl : (⟨2, ![R, N]⟩ : Shape).Slices ![off, 0] ⟨2, ![K, N]⟩) (b : Fin B) (i : Fin n1) (q : Fin N) :
    Host.dotGeneral (F := Ideal) (lastDims3 wf) prec lhs (extractStridedSlice ⟨2, ![K, N]⟩ ![off, 0] W sl : FVec Ideal ⟨2, ![K, N]⟩ .f32) (ix3 b i q)
      = ((∑ c, lr b i c * Wr t c q : ℝ) : EReal) :=
  dotGeneral3_real wf prec lhs _ b i q (fun c => lr b i c) (fun c => Wr t c q) (fun c => hl b i c)
    (fun c => slice_rows_real W Wr hW t off hoff sl c q)

/-- A real rank-4 operand contracted with a block of rows of a real weight array, at an output index. -/
theorem dotSlice4_real {B n1 n2 K N R T : Nat} (wf : DotDims.WF ⟨4, ![B, n1, n2, K]⟩ ⟨2, ![K, N]⟩ ⟨4, ![B, n1, n2, N]⟩ [3] [0] [0, 1, 2] [1] [] [])
    (prec : Option ContractPrecision) (lhs : FVec Ideal ⟨4, ![B, n1, n2, K]⟩ .f32) (lr : Fin B → Fin n1 → Fin n2 → Fin K → ℝ)
    (hl : ∀ b i j c, lhs (ix4 b i j c) = ((lr b i j c : ℝ) : EReal))
    (W : FVec Ideal ⟨2, ![R, N]⟩ .f32) (Wr : Fin T → Fin K → Fin N → ℝ)
    (hW : ∀ (t : Fin T) (c : Fin K) (q : Fin N) (hlt : t.val * K + c.val < R), W (ix2 ⟨t.val * K + c.val, hlt⟩ q) = ((Wr t c q : ℝ) : EReal))
    (t : Fin T) (off : Nat) (hoff : off = t.val * K) (sl : (⟨2, ![R, N]⟩ : Shape).Slices ![off, 0] ⟨2, ![K, N]⟩) (b : Fin B) (i : Fin n1) (j : Fin n2) (q : Fin N) :
    Host.dotGeneral (F := Ideal) (lastDims4 wf) prec lhs (extractStridedSlice ⟨2, ![K, N]⟩ ![off, 0] W sl : FVec Ideal ⟨2, ![K, N]⟩ .f32) (ix4 b i j q)
      = ((∑ c, lr b i j c * Wr t c q : ℝ) : EReal) :=
  dotGeneral4_real wf prec lhs _ b i j q (fun c => lr b i j c) (fun c => Wr t c q) (fun c => hl b i j c)
    (fun c => slice_rows_real W Wr hW t off hoff sl c q)

/-- A real rank-5 operand contracted with a block of rows of a real weight array, at an output index. -/
theorem dotSlice5_real {B n1 n2 n3 K N R T : Nat} (wf : DotDims.WF ⟨5, ![B, n1, n2, n3, K]⟩ ⟨2, ![K, N]⟩ ⟨5, ![B, n1, n2, n3, N]⟩ [4] [0] [0, 1, 2, 3] [1] [] [])
    (prec : Option ContractPrecision) (lhs : FVec Ideal ⟨5, ![B, n1, n2, n3, K]⟩ .f32) (lr : Fin B → Fin n1 → Fin n2 → Fin n3 → Fin K → ℝ)
    (hl : ∀ b i j k c, lhs (ix5 b i j k c) = ((lr b i j k c : ℝ) : EReal))
    (W : FVec Ideal ⟨2, ![R, N]⟩ .f32) (Wr : Fin T → Fin K → Fin N → ℝ)
    (hW : ∀ (t : Fin T) (c : Fin K) (q : Fin N) (hlt : t.val * K + c.val < R), W (ix2 ⟨t.val * K + c.val, hlt⟩ q) = ((Wr t c q : ℝ) : EReal))
    (t : Fin T) (off : Nat) (hoff : off = t.val * K) (sl : (⟨2, ![R, N]⟩ : Shape).Slices ![off, 0] ⟨2, ![K, N]⟩) (b : Fin B) (i : Fin n1) (j : Fin n2) (k : Fin n3) (q : Fin N) :
    Host.dotGeneral (F := Ideal) (lastDims5 wf) prec lhs (extractStridedSlice ⟨2, ![K, N]⟩ ![off, 0] W sl : FVec Ideal ⟨2, ![K, N]⟩ .f32) (ix5 b i j k q)
      = ((∑ c, lr b i j k c * Wr t c q : ℝ) : EReal) :=
  dotGeneral5_real wf prec lhs _ b i j k q (fun c => lr b i j k c) (fun c => Wr t c q) (fun c => hl b i j k c)
    (fun c => slice_rows_real W Wr hW t off hoff sl c q)

/-- The sum of two extended reals that are reals is the real sum. -/
theorem add_coe {x y : EReal} {a b : ℝ} (hx : x = ((a : ℝ) : EReal)) (hy : y = ((b : ℝ) : EReal)) : x + y = ((a + b : ℝ) : EReal) := by
  rw [hx, hy, coe_add']

end Cert.HostDot
-- ==== Proof.LibHostReduce.lean ====
/-
  The host's sum reduction read at an index, on real data.

  A host sum reduction over a set of axes gives, at a result index, the initial value plus the sum of the operand over
  the FIBER of that index: the operand indices that agree with it on the kept axes.  Any finite type that parametrises
  the fiber turns the fiber's sum into a sum over that type (`hostReduceAdd_fiber`).  For an order-3 batch
  `[B, n1, n2, n3, C]` the fibers of the reductions used by an equivariant layer and by a batch normalisation are
  products of the reduced axes' coordinate ranges, so the reductions read as iterated sums over `Fin` ranges.
  On real data the quotient of such a sum by a broadcast constant that denotes a nonzero real is the real quotient
  (`mean_apply`): a mean.
-/
import Idealize.ShloMosaic.Lib.IdealHost
import Idealize.ShloMosaic.Lib.Pipeline.Value
import proofs.«145029_j5059471475016_2_alg».proof.Proof.LibIdealReal

namespace Cert.HostRead

open Idealize.ShloMosaic Idealize.ShloMosaic.ValueIdx Cert.IdealReal
open scoped BigOperators

/-- A host sum reduction from zero, at a result index whose fiber is parametrised by `e` (with `r` recovering the
    parameter): the sum of the operand over the parameters. -/
theorem hostReduceAdd_fiber {s t : Shape} {axes : List (Fin s.rank)} (h : s.ReducesTo axes t) (x : s.Idx → EReal) (j : t.Idx)
    {ι : Type} [Fintype ι] (e : ι → s.Idx) (r : s.Idx → ι)
    (he : ∀ p, h.drop (e p) = j) (hre : ∀ p, r (e p) = p) (her : ∀ i, h.drop i = j → e (r i) = i) :
    Ideal.hostReduceAdd h x 0 j = ∑ p, x (e p) := by
  unfold Ideal.hostReduceAdd
  rw [zero_add]
  refine Finset.sum_nbij' r e (fun _ _ => Finset.mem_univ _) (fun a _ => Finset.mem_filter.2 ⟨Finset.mem_univ _, he a⟩)
    (fun a ha => her a (Finset.mem_filter.1 ha).2) (fun a _ => hre a) (fun a ha => ?_)
  rw [her a (Finset.mem_filter.1 ha).2]

section Rank5
variable {B n1 n2 n3 C : Nat}

/-- Summing out axis 1. -/
theorem reduce5_d1 (h : (⟨5, ![B, n1, n2, n3, C]⟩ : Shape).ReducesTo [1] ⟨4, ![B, n2, n3, C]⟩) (x : (⟨5, ![B, n1, n2, n3, C]⟩ : Shape).Idx → EReal) (b : Fin B) (j : Fin n2) (k : Fin n3) (c : Fin C) :
    Ideal.hostReduceAdd h x 0 (ix4 b j k c) = ∑ a0 : Fin n1, x (ix5 b a0 j k c) := by
  rw [hostReduceAdd_fiber h x _ (fun q : Fin n1 => ix5 b (q) j k c) (fun z => z 1) (fun q => ?_) (fun _ => rfl) (fun z hz => ?_)]
  · funext a
    match a with
    | ⟨0, _⟩ => rfl
    | ⟨1, _⟩ => rfl
    | ⟨2, _⟩ => rfl
    | ⟨3, _⟩ => rfl
  ·
    have e0 : z 0 = b := congrFun hz 0
    have e2 : z 2 = j := congrFun hz 1
    have e3 : z 3 = k := congrFun hz 2
    have e4 : z 4 = c := congrFun hz 3
    rw [← e0, ← e2, ← e3, ← e4]; exact (eq_ix5 z).symm

/-- Summing out axis 2. -/
theorem reduce5_d2 (h : (⟨5, ![B, n1, n2, n3, C]⟩ : Shape).ReducesTo [2] ⟨4, ![B, n1, n3, C]⟩) (x : (⟨5, ![B, n1, n2, n3, C]⟩ : Shape).Idx → EReal) (b : Fin B) (i : Fin n1) (k : Fin n3) (c : Fin C) :
    Ideal.hostReduceAdd h x 0 (ix4 b i k c) = ∑ a0 : Fin n2, x (ix5 b i a0 k c) := by
  rw [hostReduceAdd_fiber h x _ (fun q : Fin n2 => ix5 b i (q) k c) (fun z => z 2) (fun q => ?_) (fun _ => rfl) (fun z hz => ?_)]
  · funext a
    match a with
    | ⟨0, _⟩ => rfl
    | ⟨1, _⟩ => rfl
    | ⟨2, _⟩ => rfl
    | ⟨3, _⟩ => rfl
  ·
    have e0 : z 0 = b := congrFun hz 0
    have e1 : z 1 = i := congrFun hz 1
    have e3 : z 3 = k := congrFun hz 2
    have e4 : z 4 = c := congrFun hz 3
    rw [← e0, ← e1, ← e3, ← e4]; exact (eq_ix5 z).symm

/-- Summing out axis 3. -/
theorem reduce5_d3 (h : (⟨5, ![B, n1, n2, n3, C]⟩ : Shape).ReducesTo [3] ⟨4, ![B, n1, n2, C]⟩) (x : (⟨5, ![B, n1, n2, n3, C]⟩ : Shape).Idx → EReal) (b : Fin B) (i : Fin n1) (j : Fin n2) (c : Fin C) :
    Ideal.hostReduceAdd h x 0 (ix4 b i j c) = ∑ a0 : Fin n3, x (ix5 b i j a0 c) := by
  rw [hostReduceAdd_fiber h x _ (fun q : Fin n3 => ix5 b i j (q) c) (fun z => z 3) (fun q => ?_) (fun _ => rfl) (fun z hz => ?_)]
  · funext a
    match a with
    | ⟨0, _⟩ => rfl
    | ⟨1, _⟩ => rfl
    | ⟨2, _⟩ => rfl
    | ⟨3, _⟩ => rfl
  ·
    have e0 : z 0 = b := congrFun hz 0
    have e1 : z 1 = i := congrFun hz 1
    have e2 : z 2 = j := congrFun hz 2
    have e4 : z 4 = c := congrFun hz 3
    rw [← e0, ← e1, ← e2, ← e4]; exact (eq_ix5 z).symm

/-- Summing out axes 2, 3. -/
theorem reduce5_d23 (h : (⟨5, ![B, n1, n2, n3, C]⟩ : Shape).ReducesTo [2, 3] ⟨3, ![B, n1, C]⟩) (x : (⟨5, ![B, n1, n2, n3, C]⟩ : Shape).Idx → EReal) (b : Fin B) (i : Fin n1) (c : Fin C) :
    Ideal.hostReduceAdd h x 0 (ix3 b i c) = ∑ a0 : Fin n2, ∑ a1 : Fin n3, x (ix5 b i a0 a1 c) := by
  rw [hostReduceAdd_fiber h x _ (fun q : Fin n2 × Fin n3 => ix5 b i (q.1) (q.2) c) (fun z => (z 2, z 3)) (fun q => ?_) (fun _ => rfl) (fun z hz => ?_)]
  simp only [Fintype.sum_prod_type]
  · funext a
    match a with
    | ⟨0, _⟩ => rfl
    | ⟨1, _⟩ => rfl
    | ⟨2, _⟩ => rfl
  ·
    have e0 : z 0 = b := congrFun hz 0
    have e1 : z 1 = i := congrFun hz 1
    have e4 : z 4 = c := congrFun hz 2
    rw [← e0, ← e1, ← e4]; exact (eq_ix5 z).symm

/-- Summing out axes 1, 3. -/
theorem reduce5_d13 (h : (⟨5, ![B, n1, n2, n3, C]⟩ : Shape).ReducesTo [1, 3] ⟨3, ![B, n2, C]⟩) (x : (⟨5, ![B, n1, n2, n3, C]⟩ : Shape).Idx → EReal) (b : Fin B) (j : Fin n2) (c : Fin C) :
    Ideal.hostReduceAdd h x 0 (ix3 b j c) = ∑ a0 : Fin n1, ∑ a1 : Fin n3, x (ix5 b a0 j a1 c) := by
  rw [hostReduceAdd_fiber h x _ (fun q : Fin n1 × Fin n3 => ix5 b (q.1) j (q.2) c) (fun z => (z 1, z 3)) (fun q => ?_) (fun _ => rfl) (fun z hz => ?_)]
  simp only [Fintype.sum_prod_type]
  · funext a
    match a with
    | ⟨0, _⟩ => rfl
    | ⟨1, _⟩ => rfl
    | ⟨2, _⟩ => rfl
  ·
    have e0 : z 0 = b := congrFun hz 0
    have e2 : z 2 = j := congrFun hz 1
    have e4 : z 4 = c := congrFun hz 2
    rw [← e0, ← e2, ← e4]; exact (eq_ix5 z).symm

/-- Summing out axes 1, 2. -/
theorem reduce5_d12 (h : (⟨5, ![B, n1, n2, n3, C]⟩ : Shape).ReducesTo [1, 2] ⟨3, ![B, n3, C]⟩) (x : (⟨5, ![B, n1, n2, n3, C]⟩ : Shape).Idx → EReal) (b : Fin B) (k : Fin n3) (c : Fin C) :
    Ideal.hostReduceAdd h x 0 (ix3 b k c) = ∑ a0 : Fin n1, ∑ a1 : Fin n2, x (ix5 b a0 a1 k c) := by
  rw [hostReduceAdd_fiber h x _ (fun q : Fin n1 × Fin n2 => ix5 b (q.1) (q.2) k c) (fun z => (z 1, z 2)) (fun q => ?_) (fun _ => rfl) (fun z hz => ?_)]
  simp only [Fintype.sum_prod_type]
  · funext a
    match a with
    | ⟨0, _⟩ => rfl
    | ⟨1, _⟩ => rfl
    | ⟨2, _⟩ => rfl
  ·
    have e0 : z 0 = b := congrFun hz 0
    have e3 : z 3 = k := congrFun hz 1
    have e4 : z 4 = c := congrFun hz 2
    rw [← e0, ← e3, ← e4]; exact (eq_ix5 z).symm

/-- Summing out axes 1, 2, 3. -/
theorem reduce5_d123 (h : (⟨5, ![B, n1, n2, n3, C]⟩ : Shape).ReducesTo [1, 2, 3] ⟨2, ![B, C]⟩) (x : (⟨5, ![B, n1, n2, n3, C]⟩ : Shape).Idx → EReal) (b : Fin B) (c : Fin C) :
    Ideal.hostReduceAdd h x 0 (ix2 b c) = ∑ a0 : Fin n1, ∑ a1 : Fin n2, ∑ a2 : Fin n3, x (ix5 b a0 a1 a2 c) := by
  rw [hostReduceAdd_fiber h x _ (fun q : Fin n1 × Fin n2 × Fin n3 => ix5 b (q.1) (q.2.1) (q.2.2) c) (fun z => (z 1, z 2, z 3)) (fun q => ?_) (fun _ => rfl) (fun z hz => ?_)]
  simp only [Fintype.sum_prod_type]
  · funext a
    match a with
    | ⟨0, _⟩ => rfl
    | ⟨1, _⟩ => rfl
  ·
    have e0 : z 0 = b := congrFun hz 0
    have e4 : z 4 = c := congrFun hz 1
    rw [← e0, ← e4]; exact (eq_ix5 z).symm

/-- Summing out axes 0, 1, 2, 3. -/
theorem reduce5_d0123 (h : (⟨5, ![B, n1, n2, n3, C]⟩ : Shape).ReducesTo [0, 1, 2, 3] ⟨1, ![C]⟩) (x : (⟨5, ![B, n1, n2, n3, C]⟩ : Shape).Idx → EReal) (c : Fin C) :
    Ideal.hostReduceAdd h x 0 (ix1 c) = ∑ a0 : Fin B, ∑ a1 : Fin n1, ∑ a2 : Fin n2, ∑ a3 : Fin n3, x (ix5 a0 a1 a2 a3 c) := by
  rw [hostReduceAdd_fiber h x _ (fun q : Fin B × Fin n1 × Fin n2 × Fin n3 => ix5 (q.1) (q.2.1) (q.2.2.1) (q.2.2.2) c) (fun z => (z 0, z 1, z 2, z 3)) (fun q => ?_) (fun _ => rfl) (fun z hz => ?_)]
  simp only [Fintype.sum_prod_type]
  · funext a
    match a with
    | ⟨0, _⟩ => rfl
  ·
    have e4 : z 4 = c := congrFun hz 0
    rw [← e4]; exact (eq_ix5 z).symm

end Rank5

/-! ## Constants and means -/

/-- The binary32 pattern `0x42000000` is 32. -/
theorem ofBits_32 : Ideal.ofBits .f32 0x42000000#32 = ((32 : ℝ) : EReal) := by
  simp [Ideal.ofBits, Ideal.ieee, -EReal.coe_mul]; norm_num

/-- The binary32 pattern `0x44800000` is 1024. -/
theorem ofBits_1024 : Ideal.ofBits .f32 0x44800000#32 = ((1024 : ℝ) : EReal) := by
  simp [Ideal.ofBits, Ideal.ieee, -EReal.coe_mul]; norm_num

/-- The binary32 pattern `0x47000000` is 32768. -/
theorem ofBits_32768 : Ideal.ofBits .f32 0x47000000#32 = ((32768 : ℝ) : EReal) := by
  simp [Ideal.ofBits, Ideal.ieee, -EReal.coe_mul]; norm_num

/-- The binary32 pattern `0x49000000` is 524288. -/
theorem ofBits_524288 : Ideal.ofBits .f32 0x49000000#32 = ((524288 : ℝ) : EReal) := by
  simp [Ideal.ofBits, Ideal.ieee, -EReal.coe_mul]; norm_num

/-- A mean as the host spells it — a sum reduction from the zero constant, divided by a broadcast constant — at a result
    index where the reduction is the real `S` and the constant denotes the nonzero real `n`: the real `S / n`. -/
theorem mean_apply {s t : Shape} {axes : List (Fin s.rank)} (red : s.ReducesTo axes t) (hu : 0 < (⟨0, ![]⟩ : Shape).numel)
    (bc : (⟨0, ![]⟩ : Shape).BroadcastsInDim t ![]) (x : FVec Ideal s .f32) (w : BitVec 32) (j : t.Idx) (S n : ℝ) (hn : n ≠ 0)
    (hw : Ideal.ofBits .f32 w = ((n : ℝ) : EReal)) (hS : Ideal.hostReduceAdd red x 0 j = ((S : ℝ) : EReal)) :
    Host.divf (Host.reduceAdd x (constant (F := Ideal) ⟨0, ![]⟩ .f32 0x00000000#32) red hu)
      (broadcastInDim t ![] bc (constant (F := Ideal) ⟨0, ![]⟩ .f32 w)) j = ((S / n : ℝ) : EReal) := by
  rw [ValueIdx.hostDivf_apply, hostReduceAdd_apply, broadcastInDim_scalar_apply, constant_apply, constant_apply, ofBits_zero, hS, hw]
  exact div_coe_coe S hn

end Cert.HostRead
-- ==== Proof.RefValMeans.lean ====
/-
  The reference's means read at an index, on real data: the mean of an order-3 tensor over one, two or all three of its
  position axes is the real sum over those axes' coordinates divided by 32, 1024 or 32768.
-/
import proofs.«145029_j5059471475016_2_alg».proof.Proof.RefDefs
import proofs.«145029_j5059471475016_2_alg».proof.Proof.LibHostReduce

namespace Cert.ReferenceIdeal.Val

open Cert.ReferenceIdeal Cert.ReferenceIdeal.Gen Cert.ReferenceIdeal.Hand Idealize.ShloMosaic Idealize.ShloMosaic.ValueIdx
open Cert.HostRead Cert.IdealReal
open scoped BigOperators

theorem mean48_d1_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (j : Fin 32) (k : Fin 32) (c : Fin 48) :
    mean48_d1 h (ix4 b j k c) = (((∑ a, hr b a j k c) / 32 : ℝ) : EReal) := by
  unfold mean48_d1
  refine mean_apply _ _ _ h _ _ _ 32 (by norm_num) ofBits_32 ?_
  rw [reduce5_d1]
  simp only [hh, coe_sum_univ]

theorem mean48_d2_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (i : Fin 32) (k : Fin 32) (c : Fin 48) :
    mean48_d2 h (ix4 b i k c) = (((∑ a, hr b i a k c) / 32 : ℝ) : EReal) := by
  unfold mean48_d2
  refine mean_apply _ _ _ h _ _ _ 32 (by norm_num) ofBits_32 ?_
  rw [reduce5_d2]
  simp only [hh, coe_sum_univ]

theorem mean48_d3_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (i : Fin 32) (j : Fin 32) (c : Fin 48) :
    mean48_d3 h (ix4 b i j c) = (((∑ a, hr b i j a c) / 32 : ℝ) : EReal) := by
  unfold mean48_d3
  refine mean_apply _ _ _ h _ _ _ 32 (by norm_num) ofBits_32 ?_
  rw [reduce5_d3]
  simp only [hh, coe_sum_univ]

theorem mean48_d23_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (i : Fin 32) (c : Fin 48) :
    mean48_d23 h (ix3 b i c) = (((∑ a, ∑ a', hr b i a a' c) / 1024 : ℝ) : EReal) := by
  unfold mean48_d23
  refine mean_apply _ _ _ h _ _ _ 1024 (by norm_num) ofBits_1024 ?_
  rw [reduce5_d23]
  simp only [hh, coe_sum_univ]

theorem mean48_d13_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (j : Fin 32) (c : Fin 48) :
    mean48_d13 h (ix3 b j c) = (((∑ a, ∑ a', hr b a j a' c) / 1024 : ℝ) : EReal) := by
  unfold mean48_d13
  refine mean_apply _ _ _ h _ _ _ 1024 (by norm_num) ofBits_1024 ?_
  rw [reduce5_d13]
  simp only [hh, coe_sum_univ]

theorem mean48_d12_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (k : Fin 32) (c : Fin 48) :
    mean48_d12 h (ix3 b k c) = (((∑ a, ∑ a', hr b a a' k c) / 1024 : ℝ) : EReal) := by
  unfold mean48_d12
  refine mean_apply _ _ _ h _ _ _ 1024 (by norm_num) ofBits_1024 ?_
  rw [reduce5_d12]
  simp only [hh, coe_sum_univ]

theorem mean48_d123_apply (h : (⟨S16x32x32x32x48, .f32⟩ : BufTy).Contents (Elt Ideal)) (hr : Fin 16 → Fin 32 → Fin 32 → Fin 32 → Fin 48 → ℝ)
    (hh : ∀ b i j k c, h (ix5 b i j k c) = ((hr b i j k c : ℝ) : EReal)) (b : Fin 16) (c : Fin 48) :
    mean48_d123 h (ix2 b c) = (((∑ a, ∑ a', ∑ a'', hr b a a' a'' c) / 32768 : ℝ) : EReal) := by
  unfold mean48_d123
  refine mean_apply _ _ _ h _ _ _ 32768 (by norm_num) ofBits_32768 ?_
  rw [reduce5_d123]
  simp only [hh, coe_sum_univ]

theorem mean64_d1_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (j : Fin 32) (k : Fin 32) (c : Fin 64) :
    mean64_d1 h (ix4 b j k c) = (((∑ a, hr b a j k c) / 32 : ℝ) : EReal) := by
  unfold mean64_d1
  refine mean_apply _ _ _ h _ _ _ 32 (by norm_num) ofBits_32 ?_
  rw [reduce5_d1]
  simp only [hh, coe_sum_univ]

theorem mean64_d2_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (i : Fin 32) (k : Fin 32) (c : Fin 64) :
    mean64_d2 h (ix4 b i k c) = (((∑ a, hr b i a k c) / 32 : ℝ) : EReal) := by
  unfold mean64_d2
  refine mean_apply _ _ _ h _ _ _ 32 (by norm_num) ofBits_32 ?_
  rw [reduce5_d2]
  simp only [hh, coe_sum_univ]

theorem mean64_d3_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (i : Fin 32) (j : Fin 32) (c : Fin 64) :
    mean64_d3 h (ix4 b i j c) = (((∑ a, hr b i j a c) / 32 : ℝ) : EReal) := by
  unfold mean64_d3
  refine mean_apply _ _ _ h _ _ _ 32 (by norm_num) ofBits_32 ?_
  rw [reduce5_d3]
  simp only [hh, coe_sum_univ]

theorem mean64_d23_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (i : Fin 32) (c : Fin 64) :
    mean64_d23 h (ix3 b i c) = (((∑ a, ∑ a', hr b i a a' c) / 1024 : ℝ) : EReal) := by
  unfold mean64_d23
  refine mean_apply _ _ _ h _ _ _ 1024 (by norm_num) ofBits_1024 ?_
  rw [reduce5_d23]
  simp only [hh, coe_sum_univ]

theorem mean64_d13_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (j : Fin 32) (c : Fin 64) :
    mean64_d13 h (ix3 b j c) = (((∑ a, ∑ a', hr b a j a' c) / 1024 : ℝ) : EReal) := by
  unfold mean64_d13
  refine mean_apply _ _ _ h _ _ _ 1024 (by norm_num) ofBits_1024 ?_
  rw [reduce5_d13]
  simp only [hh, coe_sum_univ]

theorem mean64_d12_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (k : Fin 32) (c : Fin 64) :
    mean64_d12 h (ix3 b k c) = (((∑ a, ∑ a', hr b a a' k c) / 1024 : ℝ) : EReal) := by
  unfold mean64_d12
  refine mean_apply _ _ _ h _ _ _ 1024 (by norm_num) ofBits_1024 ?_
  rw [reduce5_d12]
  simp only [hh, coe_sum_univ]

theorem mean64_d123_apply (h : (⟨S16x32x32x32x64, .f32⟩ : BufTy).Contents (Elt Ideal)) (hr : Fin 16 → Fin 32 → Fin 32 → Fin 32 → Fin 64 → ℝ)
    (hh : ∀ b i j k c, h (ix5 b i j k c) = ((hr b i j k c : ℝ) : EReal)) (b : Fin 16) (c : Fin 64) :
    mean64_d123 h (ix2 b c) = (((∑ a, ∑ a', ∑ a'', hr b a a' a'' c) / 32768 : ℝ) : EReal) := by
  unfold mean64_d123
  refine mean_apply _ _ _ h _ _ _ 32768 (by norm_num) ofBits_32768 ?_
  rw [reduce5_d123]
  simp only [hh, coe_sum_univ]

end Cert.ReferenceIdeal.Val
-- ==== Proof.RefValPre.lean ====
/-
  The reference's layers before normalisation read at an index, on real data.

  An equivariant layer is a sum of contractions over the channel index: of its input, of the input's means over one,
  two and all three position axes (each lifted back to order 3), and — in the first layer — of the node features along
  each axis; each contraction uses its own block of rows of the weight array.  On real data every term at
  `(b, i, j, k, d)` is a real sum of products, and the terms add up to the specification's `conv3` (plus `node`).
  The last layer contracts the three two-axis means and the total mean to order 1: the specification's `conv3to1`.
-/
import proofs.«145029_j5059471475016_2_alg».proof.Proof.RefDefs
import proofs.«145029_j5059471475016_2_alg».proof.Proof.Spec
import proofs.«145029_j5059471475016_2_alg».proof.Proof.LibHostDot
import proofs.«145029_j5059471475016_2_alg».proof.Proof.RefValLayout
import proofs.«145029_j5059471475016_2_alg».proof.Proof.RefValMeans

namespace Cert.ReferenceIdeal.Val

open Cert.ReferenceIdeal Cert.ReferenceIdeal.Gen Cert.ReferenceIdeal.Hand Idealize.ShloMosaic Idealize.ShloMosaic.ValueIdx
open Cert.HostDot Cert.IdealReal
open scoped BigOperators

set_option maxHeartbeats 1000000 in
theorem pre1Of_apply (h : (⟨S16x32x32x32x48, .f32⟩ : BufTy).Contents (Elt Ideal)) (m1 m2 m3 : (⟨S16x32x32x48, .f32⟩ : BufTy).Contents (Elt Ideal)) (m23 m13 m12 : (⟨S16x32x48, .f32⟩ : BufTy).Contents (Elt Ideal)) (m123 : (⟨S16x48, .f32⟩ : BufTy).Contents (Elt Ideal)) (xn : (⟨S16x32x8, .f32⟩ : BufTy).Contents (Elt Ideal))
    (W1 : (⟨S384x64, .f32⟩ : BufTy).Contents (Elt Ideal)) (Wn1 : (⟨S24x64, .f32⟩ : BufTy).Contents (Elt Ideal))
    (hr : Fin 16 → Fin 32 → Fin 32 → Fin 32 → Fin 48 → ℝ) (hh : ∀ b i j k c, h (ix5 b i j k c) = ((hr b i j k c : ℝ) : EReal))
    (m1r m2r m3r : Fin 16 → Fin 32 → Fin 32 → Fin 48 → ℝ)
    (hm1 : ∀ b j k c, m1 (ix4 b j k c) = ((m1r b j k c : ℝ) : EReal))
    (hm2 : ∀ b i k c, m2 (ix4 b i k c) = ((m2r b i k c : ℝ) : EReal))
    (hm3 : ∀ b i j c, m3 (ix4 b i j c) = ((m3r b i j c : ℝ) : EReal))
    (m23r m13r m12r : Fin 16 → Fin 32 → Fin 48 → ℝ)
    (hm23 : ∀ b i c, m23 (ix3 b i c) = ((m23r b i c : ℝ) : EReal))
    (hm13 : ∀ b j c, m13 (ix3 b j c) = ((m13r b j c : ℝ) : EReal))
    (hm12 : ∀ b k c, m12 (ix3 b k c) = ((m12r b k c : ℝ) : EReal))
    (m123r : Fin 16 → Fin 48 → ℝ) (hm123 : ∀ b c, m123 (ix2 b c) = ((m123r b c : ℝ) : EReal))
    (W : Fin 8 → Fin 48 → Fin 64 → ℝ)
    (hW : ∀ (t : Fin 8) (c : Fin 48) (q : Fin 64) (hlt : t.val * 48 + c.val < 384), W1 (ix2 ⟨t.val * 48 + c.val, hlt⟩ q) = ((W t c q : ℝ) : EReal))
    (xnr : Fin 16 → Fin 32 → Fin 8 → ℝ) (hxn : ∀ b i c, xn (ix3 b i c) = ((xnr b i c : ℝ) : EReal))
    (Wn : Fin 3 → Fin 8 → Fin 64 → ℝ)
    (hWn : ∀ (t : Fin 3) (c : Fin 8) (q : Fin 64) (hlt : t.val * 8 + c.val < 24), Wn1 (ix2 ⟨t.val * 8 + c.val, hlt⟩ q) = ((Wn t c q : ℝ) : EReal))
    (b : Fin 16) (i j k : Fin 32) (d : Fin 64) :
    pre1Of h m1 m2 m3 m23 m13 m12 m123 xn W1 Wn1 (ix5 b i j k d)
      = (((∑ c, hr b i j k c * W 0 c d)
          + (∑ c, m1r b j k c * W 1 c d)
          + (∑ c, m2r b i k c * W 2 c d)
          + (∑ c, m3r b i j c * W 3 c d)
          + (∑ c, m23r b i c * W 4 c d)
          + (∑ c, m13r b j c * W 5 c d)
          + (∑ c, m12r b k c * W 6 c d)
          + (∑ c, m123r b c * W 7 c d)
          + (∑ c, xnr b i c * Wn 0 c d)
          + (∑ c, xnr b j c * Wn 1 c d)
          + (∑ c, xnr b k c * Wn 2 c d) : ℝ) : EReal) := by
  unfold pre1Of
  simp only [addf_apply]
  refine add_coe (add_coe (add_coe (add_coe (add_coe (add_coe (add_coe (add_coe (add_coe (add_coe (?_) ?_) ?_) ?_) ?_) ?_) ?_) ?_) ?_) ?_) ?_
  · exact dotSlice5_real _ none h hr hh W1 W hW 0 0 (by decide) _ b i j k d
  · exact (lift_d1_apply b i j k d _).trans (dotSlice4_real _ none m1 m1r hm1 W1 W hW 1 48 (by decide) _ b j k d)
  · exact (lift_d2_apply b i j k d _).trans (dotSlice4_real _ none m2 m2r hm2 W1 W hW 2 96 (by decide) _ b i k d)
  · exact (lift_d3_apply b i j k d _).trans (dotSlice4_real _ none m3 m3r hm3 W1 W hW 3 144 (by decide) _ b i j d)
  · exact (lift_i_apply b i j k d _).trans (dotSlice3_real _ none m23 m23r hm23 W1 W hW 4 192 (by decide) _ b i d)
  · exact (lift_j_apply b i j k d _).trans (dotSlice3_real _ none m13 m13r hm13 W1 W hW 5 240 (by decide) _ b j d)
  · exact (lift_k_apply b i j k d _).trans (dotSlice3_real _ none m12 m12r hm12 W1 W hW 6 288 (by decide) _ b k d)
  · exact (lift_0_apply b i j k d _).trans (dotSlice2_real _ none m123 m123r hm123 W1 W hW 7 336 (by decide) _ b d)
  · exact (lift_i_apply b i j k d _).trans (dotSlice3_real _ none xn xnr hxn Wn1 Wn hWn 0 0 (by decide) _ b i d)
  · exact (lift_j_apply b i j k d _).trans (dotSlice3_real _ none xn xnr hxn Wn1 Wn hWn 1 8 (by decide) _ b j d)
  · exact (lift_k_apply b i j k d _).trans (dotSlice3_real _ none xn xnr hxn Wn1 Wn hWn 2 16 (by decide) _ b k d)

set_option maxHeartbeats 1000000 in
theorem pre2Of_apply (h : (⟨S16x32x32x32x64, .f32⟩ : BufTy).Contents (Elt Ideal)) (m1 m2 m3 : (⟨S16x32x32x64, .f32⟩ : BufTy).Contents (Elt Ideal)) (m23 m13 m12 : (⟨S16x32x64, .f32⟩ : BufTy).Contents (Elt Ideal)) (m123 : (⟨S16x64, .f32⟩ : BufTy).Contents (Elt Ideal))
    (W2 : (⟨S512x64, .f32⟩ : BufTy).Contents (Elt Ideal))
    (hr : Fin 16 → Fin 32 → Fin 32 → Fin 32 → Fin 64 → ℝ) (hh : ∀ b i j k c, h (ix5 b i j k c) = ((hr b i j k c : ℝ) : EReal))
    (m1r m2r m3r : Fin 16 → Fin 32 → Fin 32 → Fin 64 → ℝ)
    (hm1 : ∀ b j k c, m1 (ix4 b j k c) = ((m1r b j k c : ℝ) : EReal))
    (hm2 : ∀ b i k c, m2 (ix4 b i k c) = ((m2r b i k c : ℝ) : EReal))
    (hm3 : ∀ b i j c, m3 (ix4 b i j c) = ((m3r b i j c : ℝ) : EReal))
    (m23r m13r m12r : Fin 16 → Fin 32 → Fin 64 → ℝ)
    (hm23 : ∀ b i c, m23 (ix3 b i c) = ((m23r b i c : ℝ) : EReal))
    (hm13 : ∀ b j c, m13 (ix3 b j c) = ((m13r b j c : ℝ) : EReal))
    (hm12 : ∀ b k c, m12 (ix3 b k c) = ((m12r b k c : ℝ) : EReal))
    (m123r : Fin 16 → Fin 64 → ℝ) (hm123 : ∀ b c, m123 (ix2 b c) = ((m123r b c : ℝ) : EReal))
    (W : Fin 8 → Fin 64 → Fin 64 → ℝ)
    (hW : ∀ (t : Fin 8) (c : Fin 64) (q : Fin 64) (hlt : t.val * 64 + c.val < 512), W2 (ix2 ⟨t.val * 64 + c.val, hlt⟩ q) = ((W t c q : ℝ) : EReal))
    (b : Fin 16) (i j k : Fin 32) (d : Fin 64) :
    pre2Of h m1 m2 m3 m23 m13 m12 m123 W2 (ix5 b i j k d)
      = (((∑ c, hr b i j k c * W 0 c d)
          + (∑ c, m1r b j k c * W 1 c d)
          + (∑ c, m2r b i k c * W 2 c d)
          + (∑ c, m3r b i j c * W 3 c d)
          + (∑ c, m23r b i c * W 4 c d)
          + (∑ c, m13r b j c * W 5 c d)
          + (∑ c, m12r b k c * W 6 c d)
          + (∑ c, m123r b c * W 7 c d) : ℝ) : EReal) := by
  unfold pre2Of
  simp only [addf_apply]
  refine add_coe (add_coe (add_coe (add_coe (add_coe (add_coe (add_coe (?_) ?_) ?_) ?_) ?_) ?_) ?_) ?_
  · exact dotSlice5_real _ none h hr hh W2 W hW 0 0 (by decide) _ b i j k d
  · exact (lift_d1_apply b i j k d _).trans (dotSlice4_real _ none m1 m1r hm1 W2 W hW 1 64 (by decide) _ b j k d)
  · exact (lift_d2_apply b i j k d _).trans (dotSlice4_real _ none m2 m2r hm2 W2 W hW 2 128 (by decide) _ b i k d)
  · exact (lift_d3_apply b i j k d _).trans (dotSlice4_real _ none m3 m3r hm3 W2 W hW 3 192 (by decide) _ b i j d)
  · exact (lift_i_apply b i j k d _).trans (dotSlice3_real _ none m23 m23r hm23 W2 W hW 4 256 (by decide) _ b i d)
  · exact (lift_j_apply b i j k d _).trans (dotSlice3_real _ none m13 m13r hm13 W2 W hW 5 320 (by decide) _ b j d)
  · exact (lift_k_apply b i j k d _).trans (dotSlice3_real _ none m12 m12r hm12 W2 W hW 6 384 (by decide) _ b k d)
  · exact (lift_0_apply b i j k d _).trans (dotSlice2_real _ none m123 m123r hm123 W2 W hW 7 448 (by decide) _ b d)

/-- The first layer before normalisation, on real data: the specification's eight contractions plus the node terms. -/
theorem pre1_apply (h : (⟨S16x32x32x32x48, .f32⟩ : BufTy).Contents (Elt Ideal)) (xn : (⟨S16x32x8, .f32⟩ : BufTy).Contents (Elt Ideal))
    (W1 : (⟨S384x64, .f32⟩ : BufTy).Contents (Elt Ideal)) (Wn1 : (⟨S24x64, .f32⟩ : BufTy).Contents (Elt Ideal))
    (hr : Fin 16 → Fin 32 → Fin 32 → Fin 32 → Fin 48 → ℝ) (hh : ∀ b i j k c, h (ix5 b i j k c) = ((hr b i j k c : ℝ) : EReal))
    (xnr : Fin 16 → Fin 32 → Fin 8 → ℝ) (hxn : ∀ b i c, xn (ix3 b i c) = ((xnr b i c : ℝ) : EReal))
    (W : Fin 8 → Fin 48 → Fin 64 → ℝ)
    (hW : ∀ (t : Fin 8) (c : Fin 48) (q : Fin 64) (hlt : t.val * 48 + c.val < 384), W1 (ix2 ⟨t.val * 48 + c.val, hlt⟩ q) = ((W t c q : ℝ) : EReal))
    (Wn : Fin 3 → Fin 8 → Fin 64 → ℝ)
    (hWn : ∀ (t : Fin 3) (c : Fin 8) (q : Fin 64) (hlt : t.val * 8 + c.val < 24), Wn1 (ix2 ⟨t.val * 8 + c.val, hlt⟩ q) = ((Wn t c q : ℝ) : EReal))
    (b : Fin 16) (i j k : Fin 32) (d : Fin 64) :
    pre1 h xn W1 Wn1 (ix5 b i j k d) = ((Cert.Spec.conv3 (hr b) W i j k d + Cert.Spec.node (xnr b) Wn i j k d : ℝ) : EReal) := by
  unfold pre1
  rw [pre1Of_apply h _ _ _ _ _ _ _ xn W1 Wn1 hr hh _ _ _ (mean48_d1_apply h hr hh) (mean48_d2_apply h hr hh) (mean48_d3_apply h hr hh)
    _ _ _ (mean48_d23_apply h hr hh) (mean48_d13_apply h hr hh) (mean48_d12_apply h hr hh) _ (mean48_d123_apply h hr hh) W hW xnr hxn Wn hWn b i j k d]
  simp only [Cert.Spec.conv3, Cert.Spec.node]
  congr 1
  ring

/-- The second layer before normalisation, on real data: the specification's eight contractions. -/
theorem pre2_apply (h : (⟨S16x32x32x32x64, .f32⟩ : BufTy).Contents (Elt Ideal)) (W2 : (⟨S512x64, .f32⟩ : BufTy).Contents (Elt Ideal))
    (hr : Cert.Spec.Batch3) (hh : ∀ b i j k c, h (ix5 b i j k c) = ((hr b i j k c : ℝ) : EReal))
    (W : Fin 8 → Fin 64 → Fin 64 → ℝ)
    (hW : ∀ (t : Fin 8) (c : Fin 64) (q : Fin 64) (hlt : t.val * 64 + c.val < 512), W2 (ix2 ⟨t.val * 64 + c.val, hlt⟩ q) = ((W t c q : ℝ) : EReal))
    (b : Fin 16) (i j k : Fin 32) (d : Fin 64) :
    pre2 h W2 (ix5 b i j k d) = ((Cert.Spec.layer2 hr W b i j k d : ℝ) : EReal) := by
  unfold pre2
  rw [pre2Of_apply h _ _ _ _ _ _ _ W2 hr hh _ _ _ (mean64_d1_apply h hr hh) (mean64_d2_apply h hr hh) (mean64_d3_apply h hr hh)
    _ _ _ (mean64_d23_apply h hr hh) (mean64_d13_apply h hr hh) (mean64_d12_apply h hr hh) _ (mean64_d123_apply h hr hh) W hW b i j k d]
  simp only [Cert.Spec.layer2, Cert.Spec.conv3]

/-- The contraction to order 1, on real data: the specification's four contractions of means. -/
theorem pre3_apply (h : (⟨S16x32x32x32x64, .f32⟩ : BufTy).Contents (Elt Ideal)) (Wc : (⟨S256x64, .f32⟩ : BufTy).Contents (Elt Ideal))
    (hr : Cert.Spec.Batch3) (hh : ∀ b i j k c, h (ix5 b i j k c) = ((hr b i j k c : ℝ) : EReal))
    (W : Fin 4 → Fin 64 → Fin 64 → ℝ)
    (hW : ∀ (t : Fin 4) (c : Fin 64) (q : Fin 64) (hlt : t.val * 64 + c.val < 256), Wc (ix2 ⟨t.val * 64 + c.val, hlt⟩ q) = ((W t c q : ℝ) : EReal))
    (b : Fin 16) (i : Fin 32) (d : Fin 64) :
    pre3 h Wc (ix3 b i d) = ((Cert.Spec.conv3to1 (hr b) W i d : ℝ) : EReal) := by
  unfold pre3 pre3Of
  simp only [addf_apply, Cert.Spec.conv3to1]
  refine add_coe (add_coe (add_coe ?_ ?_) ?_) ?_
  · exact dotSlice3_real _ none _ _ (mean64_d23_apply h hr hh) Wc W hW 0 0 (by decide) _ b i d
  · exact dotSlice3_real _ none _ _ (mean64_d13_apply h hr hh) Wc W hW 1 64 (by decide) _ b i d
  · exact dotSlice3_real _ none _ _ (mean64_d12_apply h hr hh) Wc W hW 2 128 (by decide) _ b i d
  · exact (bcast2_apply _ _ _ _ _ _ (ix3 b (0 : Fin 1) d) (ix2 b d) (fun a => match a with | ⟨0, _⟩ => rfl | ⟨1, _⟩ => rfl | ⟨2, _⟩ => rfl) (fun a => match a with | ⟨0, _⟩ => rfl | ⟨1, _⟩ => rfl)).trans
      (dotSlice2_real _ none _ _ (mean64_d123_apply h hr hh) Wc W hW 3 192 (by decide) _ b d)

end Cert.ReferenceIdeal.Val
-- ==== Proof.RefValBn.lean ====
/-
  The reference's batch normalisation and rectifier read at an index, on real data.

  The per-channel mean is the real mean over the 524288 entries of a channel; the variance routine divides the sum of
  the squared centred entries by `524288 - 0` and guards the quotient by the comparison `524288 - 0 > 0`, which holds, so
  it is the real variance; the normalised tensor is `(y - mean) · rsqrt (var + ε) · g + β` with the reciprocal square root
  taken of a positive real; the rectifier is the maximum with zero.
-/
import proofs.«145029_j5059471475016_2_alg».proof.Proof.RefDefs
import proofs.«145029_j5059471475016_2_alg».proof.Proof.Spec
import proofs.«145029_j5059471475016_2_alg».proof.Proof.LibHostReduce
import proofs.«145029_j5059471475016_2_alg».proof.Proof.RefValLayout

namespace Cert.ReferenceIdeal.Val

open Cert.ReferenceIdeal Cert.ReferenceIdeal.Gen Cert.ReferenceIdeal.Hand Idealize.ShloMosaic Idealize.ShloMosaic.ValueIdx
open Cert.HostRead Cert.IdealReal
open scoped BigOperators

/-- A per-channel vector read at every entry of the batch (a broadcast through `[1,1,1,1,64]`). -/
theorem chan_bcast_apply (v : (⟨S64, .f32⟩ : BufTy).Contents (Elt Ideal)) (b : Fin 16) (i j k : Fin 32) (d : Fin 64) :
    broadcastInDim S16x32x32x32x64 ![0, 1, 2, 3, 4] bcast_S1x1x1x1x64_S16x32x32x32x64_0_1_2_3_4
      (broadcastInDim S1x1x1x1x64 ![4] bcast_S64_S1x1x1x1x64_4 v) (ix5 b i j k d) = v (ix1 d) :=
  bcast2_apply _ _ _ _ v _ (ix5 (0 : Fin 1) (0 : Fin 1) (0 : Fin 1) (0 : Fin 1) d) (ix1 d) (fun a => match a with | ⟨0, _⟩ => rfl | ⟨1, _⟩ => rfl | ⟨2, _⟩ => rfl | ⟨3, _⟩ => rfl | ⟨4, _⟩ => rfl) (fun a => match a with | ⟨0, _⟩ => rfl)

section
variable (y : (⟨S16x32x32x32x64, .f32⟩ : BufTy).Contents (Elt Ideal)) (yr : Cert.Spec.Batch3)
  (hy : ∀ b i j k d, y (ix5 b i j k d) = ((yr b i j k d : ℝ) : EReal))
include hy

/-- The channel's sum over the batch and the three position axes. -/
theorem bnSum5_apply (d : Fin 64) :
    Ideal.hostReduceAdd reducesTo_S16x32x32x32x64_S64_d0_1_2_3 y 0 (ix1 d) = ((∑ b, ∑ i, ∑ j, ∑ k, yr b i j k d : ℝ) : EReal) := by
  rw [reduce5_d0123]
  simp only [hy, coe_sum_univ]

/-- The per-channel mean is the specification's. -/
theorem bnMean5_apply (d : Fin 64) : bnMean5 y (ix1 d) = ((Cert.Spec.mean4 yr d : ℝ) : EReal) := by
  unfold bnMean5
  exact mean_apply _ _ _ y _ _ _ 524288 (by norm_num) ofBits_524288 (bnSum5_apply y yr hy d)

/-- The centred entries. -/
theorem centered5_apply (b : Fin 16) (i j k : Fin 32) (d : Fin 64) :
    centered5 y (ix5 b i j k d) = ((yr b i j k d - Cert.Spec.mean4 yr d : ℝ) : EReal) := by
  unfold centered5
  rw [subf_apply, hy]
  rw [broadcastInDim_apply _ _ _ (ix5 b i j k d) (ix5 (0 : Fin 1) (0 : Fin 1) (0 : Fin 1) (0 : Fin 1) d) (fun a => match a with | ⟨0, _⟩ => rfl | ⟨1, _⟩ => rfl | ⟨2, _⟩ => rfl | ⟨3, _⟩ => rfl | ⟨4, _⟩ => rfl)]
  rw [ValueIdx.hostDivf_apply, broadcastInDim_scalar_apply, constant_apply, ofBits_524288]
  rw [broadcastInDim_apply _ _ _ (ix5 (0 : Fin 1) (0 : Fin 1) (0 : Fin 1) (0 : Fin 1) d) (ix1 d) (fun a => match a with | ⟨0, _⟩ => rfl)]
  rw [hostReduceAdd_apply, constant_apply, ofBits_zero, bnSum5_apply y yr hy d, div_coe_coe _ (by norm_num), coe_sub']
  rfl

end

/-- The divisor `524288 - 0` of the variance routine, a scalar: the real 524288. -/
theorem varDivisor_eq :
    (subf (constant (F := Ideal) S_ .f32 0x49000000#32) (sitofp .f32 (constantI S_ 32 0#32)) : (⟨S_, .f32⟩ : BufTy).Contents (Elt Ideal)) ix0
      = ((524288 : ℝ) : EReal) := by
  rw [subf_apply, constant_apply, ofBits_524288, sitofp_apply]
  show ((524288 : ℝ) : EReal) - (((0#32 : BitVec 32).toInt : ℝ) : EReal) = _
  have h0 : ((0#32 : BitVec 32).toInt : ℝ) = 0 := by simp
  rw [h0, coe_sub', sub_zero]

/-- The variance routine's guard `524288 - 0 > 0` holds. -/
theorem varGuard_eq :
    (cmpf .ogt (subf (constant (F := Ideal) S_ .f32 0x49000000#32) (sitofp .f32 (constantI S_ 32 0#32))) (constant S_ .f32 0x00000000#32)) ix0 = 1#1 := by
  rw [cmpf_apply, varDivisor_eq, constant_apply, ofBits_zero]
  show Ideal.cmp .ogt ((524288 : ℝ) : EReal) 0 = 1#1
  unfold Ideal.cmp
  have : (0 : EReal) < ((524288 : ℝ) : EReal) := by exact_mod_cast (by norm_num : (0 : ℝ) < 524288)
  simp [this]

section
variable (y : (⟨S16x32x32x32x64, .f32⟩ : BufTy).Contents (Elt Ideal)) (yr : Cert.Spec.Batch3)
  (hy : ∀ b i j k d, y (ix5 b i j k d) = ((yr b i j k d : ℝ) : EReal))
include hy

/-- The per-channel variance is the specification's. -/
theorem bnVar5_apply (d : Fin 64) : bnVar5 y (ix1 d) = ((Cert.Spec.var4 yr d : ℝ) : EReal) := by
  unfold bnVar5
  rw [select_apply, broadcastInDim_scalar_apply, varGuard_eq, select_one]
  rw [ValueIdx.hostDivf_apply, broadcastInDim_scalar_apply, varDivisor_eq, hostReduceAdd_apply, constant_apply, ofBits_zero]
  rw [reduce5_d0123]
  simp only [mulf_apply, centered5_apply y yr hy, coe_mul']
  simp only [← coe_sum_univ]
  rw [div_coe_coe _ (by norm_num)]
  simp only [Cert.Spec.var4, pow_two]

end

/-- The variance is not negative. -/
theorem var4_nonneg (yr : Cert.Spec.Batch3) (d : Fin 64) : 0 ≤ Cert.Spec.var4 yr d :=
  div_nonneg (Finset.sum_nonneg fun _ _ => Finset.sum_nonneg fun _ _ => Finset.sum_nonneg fun _ _ => Finset.sum_nonneg fun _ _ => sq_nonneg _)
    (by norm_num)

section
variable (y : (⟨S16x32x32x32x64, .f32⟩ : BufTy).Contents (Elt Ideal)) (yr : Cert.Spec.Batch3)
  (hy : ∀ b i j k d, y (ix5 b i j k d) = ((yr b i j k d : ℝ) : EReal))
  (e : ℝ) (he : Ideal.ofBits .f32 0x3727C5AC#32 = ((e : ℝ) : EReal)) (hpos : 0 < e)
include hy he hpos

/-- The reciprocal square root of the variance plus `ε`, per channel. -/
theorem bnRsqrt5_apply (d : Fin 64) :
    Host.rsqrt (addf (bnVar5 y) (broadcastInDim S64 ![] bcast_S_S64 (constant S_ .f32 0x3727C5AC#32))) (ix1 d)
      = ((1 / Real.sqrt (Cert.Spec.var4 yr d + e) : ℝ) : EReal) := by
  show Ideal.rsqrt (bnVar5 y (ix1 d) + broadcastInDim S64 ![] bcast_S_S64 (constant (F := Ideal) S_ .f32 0x3727C5AC#32) (ix1 d)) = _
  have hv := var4_nonneg yr d
  rw [bnVar5_apply y yr hy, broadcastInDim_scalar_apply, constant_apply, he, coe_add', Ideal.rsqrt_coe,
    if_neg (by linarith), if_neg (by linarith : (0 : ℝ) < Cert.Spec.var4 yr d + e).ne', one_div]

variable (g β : (⟨S64, .f32⟩ : BufTy).Contents (Elt Ideal)) (gr βr : Fin 64 → ℝ)
  (hg : ∀ d, g (ix1 d) = ((gr d : ℝ) : EReal)) (hβ : ∀ d, β (ix1 d) = ((βr d : ℝ) : EReal))
include hg hβ

/-- Normalisation, gain, offset and rectifier at an entry: the specification's. -/
theorem bnrelu5_apply (b : Fin 16) (i j k : Fin 32) (d : Fin 64) :
    relu5 (bnNorm5 y g β) (ix5 b i j k d) = ((Cert.Spec.bnrelu yr gr βr e b i j k d : ℝ) : EReal) := by
  unfold relu5 bnNorm5
  simp only [maximumf_apply, addf_apply, mulf_apply, subf_apply]
  rw [chan_bcast_apply, chan_bcast_apply, chan_bcast_apply, chan_bcast_apply, broadcastInDim_scalar_apply, constant_apply, ofBits_zero,
    hy, bnMean5_apply y yr hy, hg, hβ, bnRsqrt5_apply y yr hy e he hpos, coe_sub', coe_mul', coe_mul', coe_add',
    show (0 : EReal) = ((0 : ℝ) : EReal) from rfl, coe_max']
  rfl

end

end Cert.ReferenceIdeal.Val
-- ==== Proof.RefValOut.lean ====
/-
  The reference's stages composed, on real data: from the order-2 input to the tensor the final normalisation is applied
  to, each stage is the specification's, so the composition is the specification's `preOut`.
-/
import proofs.«145029_j5059471475016_2_alg».proof.Proof.RefDefs
import proofs.«145029_j5059471475016_2_alg».proof.Proof.Spec
import proofs.«145029_j5059471475016_2_alg».proof.Proof.RefValLayout
import proofs.«145029_j5059471475016_2_alg».proof.Proof.RefValPre
import proofs.«145029_j5059471475016_2_alg».proof.Proof.RefValBn

namespace Cert.ReferenceIdeal.Val

open Cert.ReferenceIdeal Cert.ReferenceIdeal.Gen Cert.ReferenceIdeal.Hand Idealize.ShloMosaic Idealize.ShloMosaic.ValueIdx
open scoped BigOperators

section
variable (x : (⟨S16x32x32x16, .f32⟩ : BufTy).Contents (Elt Ideal)) (xn : (⟨S16x32x8, .f32⟩ : BufTy).Contents (Elt Ideal)) (W1 : (⟨S384x64, .f32⟩ : BufTy).Contents (Elt Ideal)) (Wn1 : (⟨S24x64, .f32⟩ : BufTy).Contents (Elt Ideal))
  (xr : Fin 16 → Fin 32 → Fin 32 → Fin 16 → ℝ) (xnr : Fin 16 → Fin 32 → Fin 8 → ℝ)
  (W : Fin 8 → Fin 48 → Fin 64 → ℝ) (Wn : Fin 3 → Fin 8 → Fin 64 → ℝ)
  (hx : ∀ b i j c, x (ix4 b i j c) = ((xr b i j c : ℝ) : EReal))
  (hxn : ∀ b i c, xn (ix3 b i c) = ((xnr b i c : ℝ) : EReal))
  (hW : ∀ (t : Fin 8) (c : Fin 48) (q : Fin 64) (hlt : t.val * 48 + c.val < 384), W1 (ix2 ⟨t.val * 48 + c.val, hlt⟩ q) = ((W t c q : ℝ) : EReal))
  (hWn : ∀ (t : Fin 3) (c : Fin 8) (q : Fin 64) (hlt : t.val * 8 + c.val < 24), Wn1 (ix2 ⟨t.val * 8 + c.val, hlt⟩ q) = ((Wn t c q : ℝ) : EReal))
include hx hxn hW hWn

/-- The first layer before normalisation is the specification's. -/
theorem layer1_apply (b : Fin 16) (i j k : Fin 32) (d : Fin 64) :
    pre1 (xExp x) xn W1 Wn1 (ix5 b i j k d) = ((Cert.Spec.layer1 xr xnr W Wn b i j k d : ℝ) : EReal) :=
  pre1_apply (xExp x) xn W1 Wn1 (fun b => Cert.Spec.expand (xr b)) (xExp_apply x xr hx) xnr hxn W hW Wn hWn b i j k d

variable (g1 b1 : (⟨S64, .f32⟩ : BufTy).Contents (Elt Ideal)) (g1r b1r : Fin 64 → ℝ)
  (hg1 : ∀ d, g1 (ix1 d) = ((g1r d : ℝ) : EReal)) (hb1 : ∀ d, b1 (ix1 d) = ((b1r d : ℝ) : EReal))
  (e : ℝ) (he : Ideal.ofBits .f32 0x3727C5AC#32 = ((e : ℝ) : EReal)) (hpos : 0 < e)
include hg1 hb1 he hpos

/-- The first layer's output is the specification's. -/
theorem act1_apply (b : Fin 16) (i j k : Fin 32) (d : Fin 64) :
    act1 x xn W1 Wn1 g1 b1 (ix5 b i j k d)
      = ((Cert.Spec.bnrelu (Cert.Spec.layer1 xr xnr W Wn) g1r b1r e b i j k d : ℝ) : EReal) :=
  bnrelu5_apply (pre1 (xExp x) xn W1 Wn1) (Cert.Spec.layer1 xr xnr W Wn) (layer1_apply x xn W1 Wn1 xr xnr W Wn hx hxn hW hWn)
    e he hpos g1 b1 g1r b1r hg1 hb1 b i j k d

variable (W2 : (⟨S512x64, .f32⟩ : BufTy).Contents (Elt Ideal)) (W2r : Fin 8 → Fin 64 → Fin 64 → ℝ)
  (hW2 : ∀ (t : Fin 8) (c : Fin 64) (q : Fin 64) (hlt : t.val * 64 + c.val < 512), W2 (ix2 ⟨t.val * 64 + c.val, hlt⟩ q) = ((W2r t c q : ℝ) : EReal))
include hW2

/-- The second layer before normalisation is the specification's. -/
theorem layer2_apply (b : Fin 16) (i j k : Fin 32) (d : Fin 64) :
    pre2 (act1 x xn W1 Wn1 g1 b1) W2 (ix5 b i j k d)
      = ((Cert.Spec.layer2 (Cert.Spec.bnrelu (Cert.Spec.layer1 xr xnr W Wn) g1r b1r e) W2r b i j k d : ℝ) : EReal) :=
  pre2_apply _ W2 _ (act1_apply x xn W1 Wn1 xr xnr W Wn hx hxn hW hWn g1 b1 g1r b1r hg1 hb1 e he hpos) W2r hW2 b i j k d

variable (g2 b2 : (⟨S64, .f32⟩ : BufTy).Contents (Elt Ideal)) (g2r b2r : Fin 64 → ℝ)
  (hg2 : ∀ d, g2 (ix1 d) = ((g2r d : ℝ) : EReal)) (hb2 : ∀ d, b2 (ix1 d) = ((b2r d : ℝ) : EReal))
include hg2 hb2

/-- The second layer's output is the specification's. -/
theorem act2_apply (b : Fin 16) (i j k : Fin 32) (d : Fin 64) :
    act2 x xn W1 Wn1 g1 b1 W2 g2 b2 (ix5 b i j k d)
      = ((Cert.Spec.bnrelu (Cert.Spec.layer2 (Cert.Spec.bnrelu (Cert.Spec.layer1 xr xnr W Wn) g1r b1r e) W2r) g2r b2r e b i j k d : ℝ) : EReal) :=
  bnrelu5_apply (pre2 (act1 x xn W1 Wn1 g1 b1) W2) _
    (layer2_apply x xn W1 Wn1 xr xnr W Wn hx hxn hW hWn g1 b1 g1r b1r hg1 hb1 e he hpos W2 W2r hW2)
    e he hpos g2 b2 g2r b2r hg2 hb2 b i j k d

variable (Wc : (⟨S256x64, .f32⟩ : BufTy).Contents (Elt Ideal)) (Wcr : Fin 4 → Fin 64 → Fin 64 → ℝ)
  (hWc : ∀ (t : Fin 4) (c : Fin 64) (q : Fin 64) (hlt : t.val * 64 + c.val < 256), Wc (ix2 ⟨t.val * 64 + c.val, hlt⟩ q) = ((Wcr t c q : ℝ) : EReal))
include hWc

/-- The tensor the reference's final normalisation is applied to is the specification's `preOut`. -/
theorem preOut_apply (b : Fin 16) (i : Fin 32) (d : Fin 64) :
    pre3 (act2 x xn W1 Wn1 g1 b1 W2 g2 b2) Wc (ix3 b i d)
      = ((Cert.Spec.preOut xr xnr W Wn g1r b1r W2r g2r b2r Wcr e b i d : ℝ) : EReal) :=
  pre3_apply _ Wc _
    (act2_apply x xn W1 Wn1 xr xnr W Wn hx hxn hW hWn g1 b1 g1r b1r hg1 hb1 e he hpos W2 W2r hW2 g2 b2 g2r b2r hg2 hb2)
    Wcr hWc b i d

end

end Cert.ReferenceIdeal.Val
-- ==== Proof.KIValTop.lean ====
/-
  The result of the kernel's program as the reference's last stage applied to the kernel's own order-1 tensor.
-/
import proofs.«145029_j5059471475016_2_alg».proof.Proof.KIRun
import proofs.«145029_j5059471475016_2_alg».proof.Proof.KIValTail
import proofs.«145029_j5059471475016_2_alg».proof.Proof.RefDefs
import proofs.«145029_j5059471475016_2_alg».proof.Proof.KIValPre
import proofs.«145029_j5059471475016_2_alg».proof.Proof.KIValChainFinal
import proofs.«145029_j5059471475016_2_alg».proof.Proof.RefValOut
import proofs.«145029_j5059471475016_2_alg».proof.Proof.SpecBn
import Idealize.ShloMosaic.PureOps.Ideal
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen
open Cert.KernelIdeal

variable (m : (ℓ : Loc nD τ sig) → Buf (Elt Ideal) ℓ) (c : Dev nD)

/-- The last valuation's result buffer is the shared normalisation of the order-1 tensor region 4 leaves, with the
    gain and offset arguments as launched. -/
theorem result_tail :
    (Hand.B10 Hand.halves m c (Proc.devRef .tc main_v43) : (⟨S16x32x64, .f32⟩ : BufTy).Contents (Elt Ideal))
    = Cert.ReferenceIdeal.Hand.bnNorm3 (Hand.B7 Hand.halves m c (Proc.devRef .tc main_v24))
        (m ((c : Thread nD τ).loc main_arg10)) (m ((c : Thread nD τ).loc main_arg11)) := by
  have h24a : Hand.B8 Hand.halves m c (Proc.devRef .tc main_v24) = Hand.B7 Hand.halves m c (Proc.devRef .tc main_v24) :=
    Hand.B8_keep Hand.halves m c main_v24 (by decide)
  have h24b : Hand.B9 Hand.halves m c (Proc.devRef .tc main_v24) = Hand.B7 Hand.halves m c (Proc.devRef .tc main_v24) :=
    (Hand.B9_keep Hand.halves m c main_v24 (by decide)).trans h24a
  have hm : (Hand.B9 Hand.halves m c (Proc.devRef .tc main_v27) : (⟨S64, .f32⟩ : BufTy).Contents (Elt Ideal))
      = Cert.ReferenceIdeal.Hand.bnMean3 (Hand.B7 Hand.halves m c (Proc.devRef .tc main_v24)) :=
    (Hand.B9_keep Hand.halves m c main_v27 (by decide)).trans (Hand.tail5_mean (Hand.B7 Hand.halves m c))
  have hv : (Hand.B9 Hand.halves m c (Proc.devRef .tc main_v28) : (⟨S64, .f32⟩ : BufTy).Contents (Elt Ideal))
      = Cert.ReferenceIdeal.Hand.bnVar3 (Hand.B7 Hand.halves m c (Proc.devRef .tc main_v24)) := by
    have := Hand.tail5_1_var (Hand.B8 Hand.halves m c) (Hand.tail5_c (Hand.B7 Hand.halves m c))
    rw [h24a] at this
    exact this
  have h10 : Hand.B9 Hand.halves m c (Proc.devRef .tc main_arg10) = m ((c : Thread nD τ).loc main_arg10) :=
    ((Hand.B9_keep Hand.halves m c main_arg10 (by decide)).trans <| (Hand.B8_keep Hand.halves m c main_arg10 (by decide)).trans <|
      (Hand.B7_keep Hand.halves m c main_arg10 (by decide)).trans <| (Hand.B6_keep Hand.halves m c main_arg10 (by decide)).trans <| (Hand.B5_keep Hand.halves m c main_arg10 (by decide)).trans <|
      (Hand.B4_keep Hand.halves m c main_arg10 (by decide)).trans <| (Hand.B3_keep Hand.halves m c main_arg10 (by decide)).trans <| (Hand.B2_keep Hand.halves m c main_arg10 (by decide)).trans <|
      (Hand.B1_keep Hand.halves m c main_arg10 (by decide)).trans rfl)
  have h11 : Hand.B9 Hand.halves m c (Proc.devRef .tc main_arg11) = m ((c : Thread nD τ).loc main_arg11) :=
    ((Hand.B9_keep Hand.halves m c main_arg11 (by decide)).trans <| (Hand.B8_keep Hand.halves m c main_arg11 (by decide)).trans <|
      (Hand.B7_keep Hand.halves m c main_arg11 (by decide)).trans <| (Hand.B6_keep Hand.halves m c main_arg11 (by decide)).trans <| (Hand.B5_keep Hand.halves m c main_arg11 (by decide)).trans <|
      (Hand.B4_keep Hand.halves m c main_arg11 (by decide)).trans <| (Hand.B3_keep Hand.halves m c main_arg11 (by decide)).trans <| (Hand.B2_keep Hand.halves m c main_arg11 (by decide)).trans <|
      (Hand.B1_keep Hand.halves m c main_arg11 (by decide)).trans rfl)
  have := Hand.tail5_2_out (Hand.B9 Hand.halves m c) _ h24b hm hv
  rw [h10, h11] at this
  exact this

open Idealize.ShloMosaic.ValueIdx in
/-- The kernel's result is the reference's result term of the same arguments, given that the order-1 tensor region 4
    leaves is the specification's. -/
theorem result_eq_of [Cert.Pre_finite_inputs.Facts] [Cert.KernelIdeal.Facts]
    (hchain : ∀ (x : Fin 16 → Fin 32 → Fin 32 → Fin 16 → ℝ) (xn : Fin 16 → Fin 32 → Fin 8 → ℝ) (W1 : Fin 8 → Fin 48 → Fin 64 → ℝ)
      (Wn1 : Fin 3 → Fin 8 → Fin 64 → ℝ) (g1 b1 : Fin 64 → ℝ) (W2 : Fin 8 → Fin 64 → Fin 64 → ℝ) (g2 b2 : Fin 64 → ℝ)
      (Wc : Fin 4 → Fin 64 → Fin 64 → ℝ),
      (∀ b i j k, (m ((c.tc : Thread nD τ).loc main_arg0) : FVec Ideal S16x32x32x16 .f32) (ix4 b i j k) = ((x b i j k : ℝ) : EReal)) →
      (∀ b i k, (m ((c.tc : Thread nD τ).loc main_arg1) : FVec Ideal S16x32x8 .f32) (ix3 b i k) = ((xn b i k : ℝ) : EReal)) →
      (∀ (t : Fin 8) (c' : Fin 48) (d : Fin 64) (hlt : t.val * 48 + c'.val < 384), (m ((c.tc : Thread nD τ).loc main_arg2) : FVec Ideal S384x64 .f32) (ix2 ⟨t.val * 48 + c'.val, hlt⟩ d) = ((W1 t c' d : ℝ) : EReal)) →
      (∀ (t : Fin 3) (c' : Fin 8) (d : Fin 64) (hlt : t.val * 8 + c'.val < 24), (m ((c.tc : Thread nD τ).loc main_arg3) : FVec Ideal S24x64 .f32) (ix2 ⟨t.val * 8 + c'.val, hlt⟩ d) = ((Wn1 t c' d : ℝ) : EReal)) →
      (∀ d, (m ((c.tc : Thread nD τ).loc main_arg4) : FVec Ideal S64 .f32) (ix1 d) = ((g1 d : ℝ) : EReal)) →
      (∀ d, (m ((c.tc : Thread nD τ).loc main_arg5) : FVec Ideal S64 .f32) (ix1 d) = ((b1 d : ℝ) : EReal)) →
      (∀ (t : Fin 8) (c' : Fin 64) (d : Fin 64) (hlt : t.val * 64 + c'.val < 512), (m ((c.tc : Thread nD τ).loc main_arg6) : FVec Ideal S512x64 .f32) (ix2 ⟨t.val * 64 + c'.val, hlt⟩ d) = ((W2 t c' d : ℝ) : EReal)) →
      (∀ d, (m ((c.tc : Thread nD τ).loc main_arg7) : FVec Ideal S64 .f32) (ix1 d) = ((g2 d : ℝ) : EReal)) →
      (∀ d, (m ((c.tc : Thread nD τ).loc main_arg8) : FVec Ideal S64 .f32) (ix1 d) = ((b2 d : ℝ) : EReal)) →
      (∀ (t : Fin 4) (c' : Fin 64) (d : Fin 64) (hlt : t.val * 64 + c'.val < 256), (m ((c.tc : Thread nD τ).loc main_arg9) : FVec Ideal S256x64 .f32) (ix2 ⟨t.val * 64 + c'.val, hlt⟩ d) = ((Wc t c' d : ℝ) : EReal)) →
      ∀ (b : Fin 16) (i : Fin 32) (d : Fin 64),
        (Hand.B7 Hand.halves m c (Proc.devRef .tc main_v24) : FVec Ideal S16x32x64 .f32) (ix3 b i d)
          = ((Cert.Spec.preOut x xn W1 Wn1 g1 b1 W2 g2 b2 Wc Cert.Spec.epsR b i d : ℝ) : EReal))
    (hpre : Cert.Pre_KernelIdeal m) :
    (Hand.B10 Hand.halves m c (Proc.devRef .tc main_v43) : (⟨S16x32x64, .f32⟩ : BufTy).Contents (Elt Ideal))
    = Cert.ReferenceIdeal.Hand.refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) := by
  obtain ⟨x, xn, W1, Wn1, g1, b1, W2, g2, b2, Wc, gc, bc, hx, hxn, hW1, hWn1, hg1, hb1, hW2, hg2, hb2, hWc, hgc, hbc⟩ := inputs_real m hpre c
  rw [result_tail]
  unfold Cert.ReferenceIdeal.Hand.refOut
  congr 1
  refine funext fun (j : (⟨3, ![16, 32, 64]⟩ : Shape).Idx) => ?_
  obtain ⟨b, i, d, rfl⟩ : ∃ (b : Fin 16) (i : Fin 32) (d : Fin 64), j = ix3 b i d := ⟨j 0, j 1, j 2, eq_ix3 j⟩
  exact (hchain x xn W1 Wn1 g1 b1 W2 g2 b2 Wc hx hxn hW1 hWn1 hg1 hb1 hW2 hg2 hb2 hWc b i d).trans
    (Cert.ReferenceIdeal.Val.preOut_apply _ _ _ _ x xn W1 Wn1 hx hxn hW1 hWn1 _ _ g1 b1 hg1 hb1 Cert.Spec.epsR Cert.Spec.eps_word Cert.Spec.epsR_pos
      _ W2 hW2 _ _ g2 b2 hg2 hb2 _ Wc hWc b i d).symm

/-- Under the precondition the kernel's result is the reference's result term of the same arguments: the order-1 tensor
    before the last normalisation is the specification's on both sides. -/
theorem result_eq [Cert.Pre_finite_inputs.Facts] [Cert.KernelIdeal.Facts] (hpre : Cert.Pre_KernelIdeal m) :
    (Hand.B10 Hand.halves m c (Proc.devRef .tc main_v43) : (⟨S16x32x64, .f32⟩ : BufTy).Contents (Elt Ideal))
    = Cert.ReferenceIdeal.Hand.refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) :=
  result_eq_of m c (fun x xn W1 Wn1 g1 b1 W2 g2 b2 Wc hx hxn hW1 hWn1 hg1 hb1 hW2 hg2 hb2 hWc b i d =>
    chain_final m c x xn W1 Wn1 g1 b1 W2 g2 b2 Wc ⟨hx, hxn, hW1, hWn1, hg1, hb1, hW2, hg2, hb2, hWc⟩ b i d) hpre

end Cert.KernelIdeal.Val

end
-- ==== Proof.lean ====
/-
  The certificate: a two-layer order-3 equivariant network with per-channel normalisation, computed by five tiled
  kernels (one batch element per grid point), against its plain array reference.

  Frames.  The kernel's program is ten items: five kernel regions among five stretches of host operations.  Each
  region's body is run symbolically once per control case; the two contraction kernels carry the channel sums and the
  sums of squares across the sixteen grid points in two scratch accumulators, which their invariant names point by
  point.  Between items a core holds every unscoped buffer at a valuation computed from the launch memory, so the
  arguments, which no item writes, end as launched.  The same text read at the word level gives the first frame.  The
  reference is a line of host operations; its run names the result as the operations' composed term.

  Values.  At the exact instance a change of float format is the identity and every finite input is a real number.
  Index by index both programs then compute the same real tensor before the last normalisation: a mean of means over
  two or three position axes is the mean over the pairs or triples, a matrix product after flattening the position
  axes is the contraction over channels, the variance from the sum and the sum of squares is the variance of the
  centred entries on real data, and x·s + (β − μ·s) = (x − μ)·s + β.  The last normalisation is spelt alike in both
  programs and is applied to equal tensors.
-/
import proofs.«145029_j5059471475016_2_alg».proof.Defs
import proofs.«145029_j5059471475016_2_alg».proof.Proof.Gen.Kernel
import proofs.«145029_j5059471475016_2_alg».proof.Proof.Gen.KernelIdeal
import proofs.«145029_j5059471475016_2_alg».proof.Proof.Gen.ReferenceIdeal
import proofs.«145029_j5059471475016_2_alg».proof.Proof.Gen.Pre_finite_inputs
import proofs.«145029_j5059471475016_2_alg».proof.Proof.KRun
import proofs.«145029_j5059471475016_2_alg».proof.Proof.KIRun
import proofs.«145029_j5059471475016_2_alg».proof.Proof.RefRun
import proofs.«145029_j5059471475016_2_alg».proof.Proof.KIValTop

noncomputable section

namespace Cert.Proof

open Idealize.ShloMosaic Idealize.SL.Sem

/-- The word-level program runs to the end, faults nowhere and leaves its arguments as launched. -/
theorem frame_p : Cert.frame_Kernel := fun m ρ _ => Cert.Kernel.Hand.frame Cert.Kernel.Hand.halves m ρ

/-- The same of the program read at the exact instance. -/
theorem frame_pi : Cert.frame_KernelIdeal := fun m ρ _ => Cert.KernelIdeal.Hand.frame Cert.KernelIdeal.Hand.halves m ρ

/-- The reference's run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote no operation. -/
theorem preserves : Cert.preserves_Kernel_KernelIdeal := trivial

/-- From memories agreeing on the arguments both programs end with the same result: the kernel's last valuation at
    the result buffer is the reference's result term of the same arguments. -/
theorem algebraic : Cert.algebraic_KernelIdeal_ReferenceIdeal := by
  intro m ρ m' ρ' hpre hagree
  refine ⟨fun c => Cert.KernelIdeal.Hand.B10 Cert.KernelIdeal.Hand.halves m c (Proc.devRef .tc Cert.KernelIdeal.main_v43),
    Cert.KernelIdeal.Hand.run_main Cert.KernelIdeal.Hand.halves m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Val.result_eq m c hpre).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
